-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x128 : Shape := ⟨3, ![1, 50000, 128]⟩
abbrev S1x800000x2 : Shape := ⟨3, ![1, 800000, 2]⟩
abbrev S128x256 : Shape := ⟨2, ![128, 256]⟩
abbrev S256 : Shape := ⟨1, ![256]⟩
abbrev S3x256x512 : Shape := ⟨3, ![3, 256, 512]⟩
abbrev S3x512 : Shape := ⟨2, ![3, 512]⟩
abbrev S3x512x256 : Shape := ⟨3, ![3, 512, 256]⟩
abbrev S3x256 : Shape := ⟨2, ![3, 256]⟩
abbrev S_ : Shape := ⟨0, ![]⟩

class Facts : Prop where
  bcast_S_S1x50000x128 : S_.BroadcastsInDim S1x50000x128 (![] : Fin 0 → Fin S1x50000x128.rank)
  reducesTo_S1x50000x128_S_d0_1_2 : S1x50000x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x512 : S_.BroadcastsInDim S3x256x512 (![] : Fin 0 → Fin S3x256x512.rank)
  reducesTo_S3x256x512_S_d0_1_2 : S3x256x512.ReducesTo [0, 1, 2] S_
  bcast_S_S3x512 : S_.BroadcastsInDim S3x512 (![] : Fin 0 → Fin S3x512.rank)
  reducesTo_S3x512_S_d0_1 : S3x512.ReducesTo [0, 1] S_
  bcast_S_S3x512x256 : S_.BroadcastsInDim S3x512x256 (![] : Fin 0 → Fin S3x512x256.rank)
  reducesTo_S3x512x256_S_d0_1_2 : S3x512x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part3 {F : FTy → Type} [FloatOps F] (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  main_v53

def fn_part2 {F : FTy → Type} [FloatOps F] (main_arg8 : FVec F S3x512x256 .f32) (main_arg9 : FVec F S3x256 .f32) (main_arg10 : FVec F S3x256 .f32) (main_arg11 : FVec F S3x256 .f32) (main_v33 : IVec S_ 1) : IVec S_ 1 :=
  let main_v34 : FVec F S3x512x256 .f32 := Host.absf main_arg8
  let main_cst_12 : FVec F S_ .f32 := constant S_ .f32 0x7F800000#32
  let main_v35 : FVec F S3x512x256 .f32 := broadcastInDim S3x512x256 ![] bcast_S_S3x512x256 main_cst_12
  let main_v36 : IVec S3x512x256 1 := cmpf .olt main_v34 main_v35
  let main_c_13 : IVec S_ 1 := constantI S_ 1 1#1
  let main_v37 : IVec S_ 1 := (fun x v => Host.reduce IntOp.andi x v reducesTo_S3x512x256_S_d0_1_2 h_S_) main_v36 main_c_13
  let main_v38 : IVec S_ 1 := andi main_v33 main_v37
  let main_v39 : FVec F S3x256 .f32 := Host.absf main_arg9
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256 .f32 := Host.absf main_arg10
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256 .f32 := Host.absf main_arg11
  let main_cst_18 : FVec F S_ .f32 := constant S_ .f32 0x7F800000#32
  let main_v50 : FVec F S3x256 .f32 := broadcastInDim S3x256 ![] bcast_S_S3x256 main_cst_18
  fn_part3 (F := F) main_v48 main_v49 main_v50

def fn_part1 {F : FTy → Type} [FloatOps F] (main_arg5 : FVec F S3x512 .f32) (main_arg6 : FVec F S3x512 .f32) (main_arg7 : FVec F S3x512 .f32) (main_arg8 : FVec F S3x512x256 .f32) (main_arg9 : FVec F S3x256 .f32) (main_arg10 : FVec F S3x256 .f32) (main_arg11 : FVec F S3x256 .f32) (main_v13 : IVec S_ 1) (main_v16 : IVec S3x256x512 1) : IVec S_ 1 :=
  let main_c_5 : IVec S_ 1 := constantI S_ 1 1#1
  let main_v17 : IVec S_ 1 := (fun x v => Host.reduce IntOp.andi x v reducesTo_S3x256x512_S_d0_1_2 h_S_) main_v16 main_c_5
  let main_v18 : IVec S_ 1 := andi main_v13 main_v17
  let main_v19 : FVec F S3x512 .f32 := Host.absf main_arg5
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S3x512 .f32 := Host.absf main_arg6
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512 .f32 := Host.absf main_arg7
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S1x50000x128 .f32) (main_arg1 : IVec S1x800000x2 32) (main_arg2 : FVec F S128x256 .f32) (main_arg3 : FVec F S256 .f32) (main_arg4 : FVec F S3x256x512 .f32) (main_arg5 : FVec F S3x512 .f32) (main_arg6 : FVec F S3x512 .f32) (main_arg7 : FVec F S3x512 .f32) (main_arg8 : FVec F S3x512x256 .f32) (main_arg9 : FVec F S3x256 .f32) (main_arg10 : FVec F S3x256 .f32) (main_arg11 : FVec F S3x256 .f32) : IVec S_ 1 :=
  let main_v0 : FVec F S1x50000x128 .f32 := Host.absf main_arg0
  let main_cst : FVec F S_ .f32 := constant S_ .f32 0x7F800000#32
  let main_v1 : FVec F S1x50000x128 .f32 := broadcastInDim S1x50000x128 ![] bcast_S_S1x50000x128 main_cst
  let main_v2 : IVec S1x50000x128 1 := cmpf .olt main_v0 main_v1
  let main_c : IVec S_ 1 := constantI S_ 1 1#1
  let main_v3 : IVec S_ 1 := (fun x v => Host.reduce IntOp.andi x v reducesTo_S1x50000x128_S_d0_1_2 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x512 .f32 := Host.absf main_arg4
  let main_cst_4 : FVec F S_ .f32 := constant S_ .f32 0x7F800000#32
  let main_v15 : FVec F S3x256x512 .f32 := broadcastInDim S3x256x512 ![] bcast_S_S3x256x512 main_cst_4
  let main_v16 : IVec S3x256x512 1 := cmpf .olt main_v14 main_v15
  fn_part1 (F := F) main_arg5 main_arg6 main_arg7 main_arg8 main_arg9 main_arg10 main_arg11 main_v13 main_v16
-- ==== Kernel.lean ====
abbrev S1x50000x128 : Shape := ⟨3, ![1, 50000, 128]⟩
abbrev S1x800000x2 : Shape := ⟨3, ![1, 800000, 2]⟩
abbrev S128x256 : Shape := ⟨2, ![128, 256]⟩
abbrev S256 : Shape := ⟨1, ![256]⟩
abbrev S3x256x512 : Shape := ⟨3, ![3, 256, 512]⟩
abbrev S3x512 : Shape := ⟨2, ![3, 512]⟩
abbrev S3x512x256 : Shape := ⟨3, ![3, 512, 256]⟩
abbrev S3x256 : Shape := ⟨2, ![3, 256]⟩
abbrev S50000x128 : Shape := ⟨2, ![50000, 128]⟩
abbrev S800000x2 : Shape := ⟨2, ![800000, 2]⟩
abbrev S800000x1 : Shape := ⟨2, ![800000, 1]⟩
abbrev S800000 : Shape := ⟨1, ![800000]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S_ : Shape := ⟨0, ![]⟩
abbrev S800000x256 : Shape := ⟨2, ![800000, 256]⟩
abbrev S1x256x512 : Shape := ⟨3, ![1, 256, 512]⟩
abbrev S256x512 : Shape := ⟨2, ![256, 512]⟩
abbrev S1x512 : Shape := ⟨2, ![1, 512]⟩
abbrev S512 : Shape := ⟨1, ![512]⟩
abbrev S50000x512 : Shape := ⟨2, ![50000, 512]⟩
abbrev S2000x512 : Shape := ⟨2, ![2000, 512]⟩
abbrev S1x512x256 : Shape := ⟨3, ![1, 512, 256]⟩
abbrev S512x256 : Shape := ⟨2, ![512, 256]⟩

abbrev nBuf : Space → Nat
  | .hbm => 194
  | .vmem => 114
  | .smem => 0
  | _ => 0

abbrev hbmTy0_0 (i : Nat) : BufTy := match i % 128 with
  | 0 => ⟨S1x50000x128, .f32⟩
  | 1 => ⟨S1x800000x2, .i32⟩
  | 2 => ⟨S128x256, .f32⟩
  | 3 => ⟨S256, .f32⟩
  | 4 => ⟨S3x256x512, .f32⟩
  | 5 => ⟨S3x512, .f32⟩
  | 6 => ⟨S3x512, .f32⟩
  | 7 => ⟨S3x512, .f32⟩
  | 8 => ⟨S3x512x256, .f32⟩
  | 9 => ⟨S3x256, .f32⟩
  | 10 => ⟨S3x256, .f32⟩
  | 11 => ⟨S3x256, .f32⟩
  | 12 => ⟨S50000x128, .f32⟩
  | 13 => ⟨S800000x2, .i32⟩
  | 14 => ⟨S800000x1, .i32⟩
  | 15 => ⟨S800000, .i32⟩
  | 16 => ⟨S800000x1, .i32⟩
  | 17 => ⟨S800000, .i32⟩
  | 18 => ⟨S1x256, .f32⟩
  | 19 => ⟨S50000x256, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x256, .f32⟩
  | 29 => ⟨S_, .f32⟩
  | 30 => ⟨S50000x256, .f32⟩
  | 31 => ⟨S800000x1, .i32⟩
  | 32 => ⟨S50000x256, .f32⟩
  | 33 => ⟨S1x256x512, .f32⟩
  | 34 => ⟨S256x512, .f32⟩
  | 35 => ⟨S1x512, .f32⟩
  | 36 => ⟨S512, .f32⟩
  | 37 => ⟨S1x512, .f32⟩
  | 38 => ⟨S50000x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S_, .f32⟩
  | 45 => ⟨S1x512, .f32⟩
  | 46 => ⟨S1x512, .f32⟩
  | 47 => ⟨S1x512, .f32⟩
  | 48 => ⟨S1x512, .f32⟩
  | 49 => ⟨S1x512, .f32⟩
  | 50 => ⟨S512, .f32⟩
  | 51 => ⟨S1x512, .f32⟩
  | 52 => ⟨S512, .f32⟩
  | 53 => ⟨S1x512x256, .f32⟩
  | 54 => ⟨S512x256, .f32⟩
  | 55 => ⟨S1x256, .f32⟩
  | 56 => ⟨S256, .f32⟩
  | 57 => ⟨S1x512, .f32⟩
  | 58 => ⟨S1x512, .f32⟩
  | 59 => ⟨S1x256, .f32⟩
  | 60 => ⟨S50000x256, .f32⟩
  | 61 => ⟨S1x256, .f32⟩
  | 62 => ⟨S1x256, .f32⟩
  | 63 => ⟨S_, .f32⟩
  | 64 => ⟨S1x256, .f32⟩
  | 65 => ⟨S1x256, .f32⟩
  | 66 => ⟨S_, .f32⟩
  | 67 => ⟨S1x256, .f32⟩
  | 68 => ⟨S1x256, .f32⟩
  | 69 => ⟨S1x256, .f32⟩
  | 70 => ⟨S1x256, .f32⟩
  | 71 => ⟨S1x256, .f32⟩
  | 72 => ⟨S256, .f32⟩
  | 73 => ⟨S1x256, .f32⟩
  | 74 => ⟨S256, .f32⟩
  | 75 => ⟨S1x256, .f32⟩
  | 76 => ⟨S1x256, .f32⟩
  | 77 => ⟨S50000x256, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S1x256x512, .f32⟩
  | 92 => ⟨S256x512, .f32⟩
  | 93 => ⟨S1x512, .f32⟩
  | 94 => ⟨S512, .f32⟩
  | 95 => ⟨S1x512, .f32⟩
  | 96 => ⟨S50000x512, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S1x512, .f32⟩
  | 106 => ⟨S1x512, .f32⟩
  | 107 => ⟨S1x512, .f32⟩
  | 108 => ⟨S512, .f32⟩
  | 109 => ⟨S1x512, .f32⟩
  | 110 => ⟨S512, .f32⟩
  | 111 => ⟨S1x512x256, .f32⟩
  | 112 => ⟨S512x256, .f32⟩
  | 113 => ⟨S1x256, .f32⟩
  | 114 => ⟨S256, .f32⟩
  | 115 => ⟨S1x512, .f32⟩
  | 116 => ⟨S1x512, .f32⟩
  | 117 => ⟨S1x256, .f32⟩
  | 118 => ⟨S50000x256, .f32⟩
  | 119 => ⟨S1x256, .f32⟩
  | 120 => ⟨S1x256, .f32⟩
  | 121 => ⟨S_, .f32⟩
  | 122 => ⟨S1x256, .f32⟩
  | 123 => ⟨S1x256, .f32⟩
  | 124 => ⟨S_, .f32⟩
  | 125 => ⟨S1x256, .f32⟩
  | 126 => ⟨S1x256, .f32⟩
  | 127 => ⟨S1x256, .f32⟩
  | _ => ⟨S1x50000x128, .f32⟩

abbrev hbmTy0_1 (i : Nat) : BufTy := match i % 128 with
  | 0 => ⟨S1x256, .f32⟩
  | 1 => ⟨S1x256, .f32⟩
  | 2 => ⟨S256, .f32⟩
  | 3 => ⟨S1x256, .f32⟩
  | 4 => ⟨S256, .f32⟩
  | 5 => ⟨S1x256, .f32⟩
  | 6 => ⟨S1x256, .f32⟩
  | 7 => ⟨S50000x256, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x256, .f32⟩
  | 17 => ⟨S_, .f32⟩
  | 18 => ⟨S50000x256, .f32⟩
  | 19 => ⟨S800000x1, .i32⟩
  | 20 => ⟨S50000x256, .f32⟩
  | 21 => ⟨S1x256x512, .f32⟩
  | 22 => ⟨S256x512, .f32⟩
  | 23 => ⟨S1x512, .f32⟩
  | 24 => ⟨S512, .f32⟩
  | 25 => ⟨S1x512, .f32⟩
  | 26 => ⟨S50000x512, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S_, .f32⟩
  | 33 => ⟨S1x512, .f32⟩
  | 34 => ⟨S1x512, .f32⟩
  | 35 => ⟨S1x512, .f32⟩
  | 36 => ⟨S1x512, .f32⟩
  | 37 => ⟨S1x512, .f32⟩
  | 38 => ⟨S512, .f32⟩
  | 39 => ⟨S1x512, .f32⟩
  | 40 => ⟨S512, .f32⟩
  | 41 => ⟨S1x512x256, .f32⟩
  | 42 => ⟨S512x256, .f32⟩
  | 43 => ⟨S1x256, .f32⟩
  | 44 => ⟨S256, .f32⟩
  | 45 => ⟨S1x512, .f32⟩
  | 46 => ⟨S1x512, .f32⟩
  | 47 => ⟨S1x256, .f32⟩
  | 48 => ⟨S50000x256, .f32⟩
  | 49 => ⟨S1x256, .f32⟩
  | 50 => ⟨S1x256, .f32⟩
  | 51 => ⟨S_, .f32⟩
  | 52 => ⟨S1x256, .f32⟩
  | 53 => ⟨S1x256, .f32⟩
  | 54 => ⟨S_, .f32⟩
  | 55 => ⟨S1x256, .f32⟩
  | 56 => ⟨S1x256, .f32⟩
  | 57 => ⟨S1x256, .f32⟩
  | 58 => ⟨S1x256, .f32⟩
  | 59 => ⟨S1x256, .f32⟩
  | 60 => ⟨S256, .f32⟩
  | 61 => ⟨S1x256, .f32⟩
  | 62 => ⟨S256, .f32⟩
  | 63 => ⟨S1x256, .f32⟩
  | 64 => ⟨S1x256, .f32⟩
  | 65 => ⟨S50000x256, .f32⟩
  | _ => ⟨S1x50000x128, .f32⟩

abbrev hbmTy (i : Nat) : BufTy := match i / 128 with
  | 0 => hbmTy0_0 i
  | 1 => hbmTy0_1 i
  | _ => ⟨S1x50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x512, .f32⟩
  | .local _ .vmem, ⟨11, _⟩ => ⟨S1x512, .f32⟩
  | .local _ .vmem, ⟨12, _⟩ => ⟨S2000x512, .f32⟩
  | .local _ .vmem, ⟨13, _⟩ => ⟨S2000x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S2000x512, .f32⟩
  | .local _ .vmem, ⟨19, _⟩ => ⟨S2000x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S2000x256, .f32⟩
  | .local _ .vmem, ⟨25, _⟩ => ⟨S2000x256, .f32⟩
  | .local _ .vmem, ⟨26, _⟩ => ⟨S512x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S256x512, .f32⟩
  | .local _ .vmem, ⟨47, _⟩ => ⟨S1x512, .f32⟩
  | .local _ .vmem, ⟨48, _⟩ => ⟨S2000x512, .f32⟩
  | .local _ .vmem, ⟨49, _⟩ => ⟨S2000x512, .f32⟩
  | .local _ .vmem, ⟨50, _⟩ => ⟨S1x512, .f32⟩
  | .local _ .vmem, ⟨51, _⟩ => ⟨S1x512, .f32⟩
  | .local _ .vmem, ⟨52, _⟩ => ⟨S1x512, .f32⟩
  | .local _ .vmem, ⟨53, _⟩ => ⟨S1x512, .f32⟩
  | .local _ .vmem, ⟨54, _⟩ => ⟨S2000x512, .f32⟩
  | .local _ .vmem, ⟨55, _⟩ => ⟨S2000x512, .f32⟩
  | .local _ .vmem, ⟨56, _⟩ => ⟨S1x512, .f32⟩
  | .local _ .vmem, ⟨57, _⟩ => ⟨S1x512, .f32⟩
  | .local _ .vmem, ⟨58, _⟩ => ⟨S1x512, .f32⟩
  | .local _ .vmem, ⟨59, _⟩ => ⟨S1x512, .f32⟩
  | .local _ .vmem, ⟨60, _⟩ => ⟨S2000x256, .f32⟩
  | .local _ .vmem, ⟨61, _⟩ => ⟨S2000x256, .f32⟩
  | .local _ .vmem, ⟨62, _⟩ => ⟨S512x256, .f32⟩
  | .local _ .vmem, ⟨63, _⟩ => ⟨S1x256, .f32⟩
  | .local _ .vmem, ⟨64, _⟩ => ⟨S2000x256, .f32⟩
  | .local _ .vmem, ⟨65, _⟩ => ⟨S2000x256, .f32⟩
  | .local _ .vmem, ⟨66, _⟩ => ⟨S1x256, .f32⟩
  | .local _ .vmem, ⟨67, _⟩ => ⟨S1x256, .f32⟩
  | .local _ .vmem, ⟨68, _⟩ => ⟨S1x256, .f32⟩
  | .local _ .vmem, ⟨69, _⟩ => ⟨S1x256, .f32⟩
  | .local _ .vmem, ⟨70, _⟩ => ⟨S2000x256, .f32⟩
  | .local _ .vmem, ⟨71, _⟩ => ⟨S2000x256, .f32⟩
  | .local _ .vmem, ⟨72, _⟩ => ⟨S1x256, .f32⟩
  | .local _ .vmem, ⟨73, _⟩ => ⟨S1x256, .f32⟩
  | .local _ .vmem, ⟨74, _⟩ => ⟨S1x256, .f32⟩
  | .local _ .vmem, ⟨75, _⟩ => ⟨S1x256, .f32⟩
  | .local _ .vmem, ⟨76, _⟩ => ⟨S2000x256, .f32⟩
  | .local _ .vmem, ⟨77, _⟩ => ⟨S2000x256, .f32⟩
  | .local _ .vmem, ⟨78, _⟩ => ⟨S2000x256, .f32⟩
  | .local _ .vmem, ⟨79, _⟩ => ⟨S2000x256, .f32⟩
  | .local _ .vmem, ⟨80, _⟩ => ⟨S2000x256, .f32⟩
  | .local _ .vmem, ⟨81, _⟩ => ⟨S2000x256, .f32⟩
  | .local _ .vmem, ⟨82, _⟩ => ⟨S256x512, .f32⟩
  | .local _ .vmem, ⟨83, _⟩ => ⟨S1x512, .f32⟩
  | .local _ .vmem, ⟨84, _⟩ => ⟨S2000x512, .f32⟩
  | .local _ .vmem, ⟨85, _⟩ => ⟨S2000x512, .f32⟩
  | .local _ .vmem, ⟨86, _⟩ => ⟨S1x512, .f32⟩
  | .local _ .vmem, ⟨87, _⟩ => ⟨S1x512, .f32⟩
  | .local _ .vmem, ⟨88, _⟩ => ⟨S1x512, .f32⟩
  | .local _ .vmem, ⟨89, _⟩ => ⟨S1x512, .f32⟩
  | .local _ .vmem, ⟨90, _⟩ => ⟨S2000x512, .f32⟩
  | .local _ .vmem, ⟨91, _⟩ => ⟨S2000x512, .f32⟩
  | .local _ .vmem, ⟨92, _⟩ => ⟨S1x512, .f32⟩
  | .local _ .vmem, ⟨93, _⟩ => ⟨S1x512, .f32⟩
  | .local _ .vmem, ⟨94, _⟩ => ⟨S1x512, .f32⟩
  | .local _ .vmem, ⟨95, _⟩ => ⟨S1x512, .f32⟩
  | .local _ .vmem, ⟨96, _⟩ => ⟨S2000x256, .f32⟩
  | .local _ .vmem, ⟨97, _⟩ => ⟨S2000x256, .f32⟩
  | .local _ .vmem, ⟨98, _⟩ => ⟨S512x256, .f32⟩
  | .local _ .vmem, ⟨99, _⟩ => ⟨S1x256, .f32⟩
  | .local _ .vmem, ⟨100, _⟩ => ⟨S2000x256, .f32⟩
  | .local _ .vmem, ⟨101, _⟩ => ⟨S2000x256, .f32⟩
  | .local _ .vmem, ⟨102, _⟩ => ⟨S1x256, .f32⟩
  | .local _ .vmem, ⟨103, _⟩ => ⟨S1x256, .f32⟩
  | .local _ .vmem, ⟨104, _⟩ => ⟨S1x256, .f32⟩
  | .local _ .vmem, ⟨105, _⟩ => ⟨S1x256, .f32⟩
  | .local _ .vmem, ⟨106, _⟩ => ⟨S2000x256, .f32⟩
  | .local _ .vmem, ⟨107, _⟩ => ⟨S2000x256, .f32⟩
  | .local _ .vmem, ⟨108, _⟩ => ⟨S1x256, .f32⟩
  | .local _ .vmem, ⟨109, _⟩ => ⟨S1x256, .f32⟩
  | .local _ .vmem, ⟨110, _⟩ => ⟨S1x256, .f32⟩
  | .local _ .vmem, ⟨111, _⟩ => ⟨S1x256, .f32⟩
  | .local _ .vmem, ⟨112, _⟩ => ⟨S2000x256, .f32⟩
  | .local _ .vmem, ⟨113, _⟩ => ⟨S2000x256, .f32⟩
  | _, _ => ⟨S1x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_5 : Ref sig .tc := ⟨.hbm, 78, rfl⟩
abbrev main_v55 : Ref sig .tc := ⟨.hbm, 79, rfl⟩
abbrev main_v56 : Ref sig .tc := ⟨.hbm, 80, rfl⟩
abbrev main_c_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70_0 : Ref sig .tc := ⟨.hbm, 96, rfl⟩
abbrev main_v70_1 : Ref sig .tc := ⟨.hbm, 97, rfl⟩
abbrev main_v70_2 : Ref sig .tc := ⟨.hbm, 98, rfl⟩
abbrev main_cst_8 : Ref sig .tc := ⟨.hbm, 99, rfl⟩
abbrev main_v71 : Ref sig .tc := ⟨.hbm, 100, rfl⟩
abbrev main_v72 : Ref sig .tc := ⟨.hbm, 101, rfl⟩
abbrev main_cst_9 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88_0 : Ref sig .tc := ⟨.hbm, 118, rfl⟩
abbrev main_v88_1 : Ref sig .tc := ⟨.hbm, 119, rfl⟩
abbrev main_v88_2 : Ref sig .tc := ⟨.hbm, 120, rfl⟩
abbrev main_cst_10 : Ref sig .tc := ⟨.hbm, 121, rfl⟩
abbrev main_v89 : Ref sig .tc := ⟨.hbm, 122, rfl⟩
abbrev main_v90 : Ref sig .tc := ⟨.hbm, 123, rfl⟩
abbrev main_cst_11 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_12 : Ref sig .tc := ⟨.hbm, 136, rfl⟩
abbrev main_v102 : Ref sig .tc := ⟨.hbm, 137, rfl⟩
abbrev main_v103 : Ref sig .tc := ⟨.hbm, 138, rfl⟩
abbrev main_c_13 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_14 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117_0 : Ref sig .tc := ⟨.hbm, 154, rfl⟩
abbrev main_v117_1 : Ref sig .tc := ⟨.hbm, 155, rfl⟩
abbrev main_v117_2 : Ref sig .tc := ⟨.hbm, 156, rfl⟩
abbrev main_cst_15 : Ref sig .tc := ⟨.hbm, 157, rfl⟩
abbrev main_v118 : Ref sig .tc := ⟨.hbm, 158, rfl⟩
abbrev main_v119 : Ref sig .tc := ⟨.hbm, 159, rfl⟩
abbrev main_cst_16 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135_0 : Ref sig .tc := ⟨.hbm, 176, rfl⟩
abbrev main_v135_1 : Ref sig .tc := ⟨.hbm, 177, rfl⟩
abbrev main_v135_2 : Ref sig .tc := ⟨.hbm, 178, rfl⟩
abbrev main_cst_17 : Ref sig .tc := ⟨.hbm, 179, rfl⟩
abbrev main_v136 : Ref sig .tc := ⟨.hbm, 180, rfl⟩
abbrev main_v137 : Ref sig .tc := ⟨.hbm, 181, rfl⟩
abbrev main_cst_18 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg10_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg6_0 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg5_1 : Ref sig .tc := ⟨.vmem, 61, rfl⟩
abbrev cc5_stg6_0 : Ref sig .tc := ⟨.vmem, 62, rfl⟩
abbrev cc5_stg7_0 : Ref sig .tc := ⟨.vmem, 63, rfl⟩
abbrev cc5_stg8_0 : Ref sig .tc := ⟨.vmem, 64, rfl⟩
abbrev cc5_stg8_1 : Ref sig .tc := ⟨.vmem, 65, rfl⟩
abbrev cc5_stg9_0 : Ref sig .tc := ⟨.vmem, 66, rfl⟩
abbrev cc5_stg10_0 : Ref sig .tc := ⟨.vmem, 67, rfl⟩
abbrev cc5_scratch0 : Ref sig .tc := ⟨.vmem, 68, rfl⟩
abbrev cc5_scratch1 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg2_0 : Ref sig .tc := ⟨.vmem, 73, rfl⟩
abbrev cc6_stg3_0 : Ref sig .tc := ⟨.vmem, 74, rfl⟩
abbrev cc6_stg4_0 : Ref sig .tc := ⟨.vmem, 75, rfl⟩
abbrev cc6_stg5_0 : Ref sig .tc := ⟨.vmem, 76, rfl⟩
abbrev cc6_stg5_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg3_0 : Ref sig .tc := ⟨.vmem, 83, rfl⟩
abbrev cc7_stg4_0 : Ref sig .tc := ⟨.vmem, 84, rfl⟩
abbrev cc7_stg4_1 : Ref sig .tc := ⟨.vmem, 85, rfl⟩
abbrev cc7_stg5_0 : Ref sig .tc := ⟨.vmem, 86, rfl⟩
abbrev cc7_stg6_0 : Ref sig .tc := ⟨.vmem, 87, rfl⟩
abbrev cc7_scratch0 : Ref sig .tc := ⟨.vmem, 88, rfl⟩
abbrev cc7_scratch1 : Ref sig .tc := ⟨.vmem, 89, rfl⟩
abbrev cc8_stg0_0 : Ref sig .tc := ⟨.vmem, 90, rfl⟩
abbrev cc8_stg0_1 : Ref sig .tc := ⟨.vmem, 91, rfl⟩
abbrev cc8_stg1_0 : Ref sig .tc := ⟨.vmem, 92, rfl⟩
abbrev cc8_stg2_0 : Ref sig .tc := ⟨.vmem, 93, rfl⟩
abbrev cc8_stg3_0 : Ref sig .tc := ⟨.vmem, 94, rfl⟩
abbrev cc8_stg4_0 : Ref sig .tc := ⟨.vmem, 95, rfl⟩
abbrev cc8_stg5_0 : Ref sig .tc := ⟨.vmem, 96, rfl⟩
abbrev cc8_stg5_1 : Ref sig .tc := ⟨.vmem, 97, rfl⟩
abbrev cc8_stg6_0 : Ref sig .tc := ⟨.vmem, 98, rfl⟩
abbrev cc8_stg7_0 : Ref sig .tc := ⟨.vmem, 99, rfl⟩
abbrev cc8_stg8_0 : Ref sig .tc := ⟨.vmem, 100, rfl⟩
abbrev cc8_stg8_1 : Ref sig .tc := ⟨.vmem, 101, rfl⟩
abbrev cc8_stg9_0 : Ref sig .tc := ⟨.vmem, 102, rfl⟩
abbrev cc8_stg10_0 : Ref sig .tc := ⟨.vmem, 103, rfl⟩
abbrev cc8_scratch0 : Ref sig .tc := ⟨.vmem, 104, rfl⟩
abbrev cc8_scratch1 : Ref sig .tc := ⟨.vmem, 105, rfl⟩
abbrev cc9_stg0_0 : Ref sig .tc := ⟨.vmem, 106, rfl⟩
abbrev cc9_stg0_1 : Ref sig .tc := ⟨.vmem, 107, rfl⟩
abbrev cc9_stg1_0 : Ref sig .tc := ⟨.vmem, 108, rfl⟩
abbrev cc9_stg2_0 : Ref sig .tc := ⟨.vmem, 109, rfl⟩
abbrev cc9_stg3_0 : Ref sig .tc := ⟨.vmem, 110, rfl⟩
abbrev cc9_stg4_0 : Ref sig .tc := ⟨.vmem, 111, rfl⟩
abbrev cc9_stg5_0 : Ref sig .tc := ⟨.vmem, 112, rfl⟩
abbrev cc9_stg5_1 : Ref sig .tc := ⟨.vmem, 113, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem7_0 : DmaSem sig := 25
abbrev cc2_sem8_0 : DmaSem sig := 26
abbrev cc2_sem8_1 : DmaSem sig := 27
abbrev cc2_sem9_0 : DmaSem sig := 28
abbrev cc2_sem10_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem4_1 : DmaSem sig := 45
abbrev cc4_sem5_0 : DmaSem sig := 46
abbrev cc4_sem6_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55
abbrev cc5_sem6_0 : DmaSem sig := 56
abbrev cc5_sem7_0 : DmaSem sig := 57
abbrev cc5_sem8_0 : DmaSem sig := 58
abbrev cc5_sem8_1 : DmaSem sig := 59
abbrev cc5_sem9_0 : DmaSem sig := 60
abbrev cc5_sem10_0 : DmaSem sig := 61
abbrev cc6_sem0_0 : DmaSem sig := 62
abbrev cc6_sem0_1 : DmaSem sig := 63
abbrev cc6_sem1_0 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem5_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem4_1 : DmaSem sig := 77
abbrev cc7_sem5_0 : DmaSem sig := 78
abbrev cc7_sem6_0 : DmaSem sig := 79
abbrev cc8_sem0_0 : DmaSem sig := 80
abbrev cc8_sem0_1 : DmaSem sig := 81
abbrev cc8_sem1_0 : DmaSem sig := 82
abbrev cc8_sem2_0 : DmaSem sig := 83
abbrev cc8_sem3_0 : DmaSem sig := 84
abbrev cc8_sem4_0 : DmaSem sig := 85
abbrev cc8_sem5_0 : DmaSem sig := 86
abbrev cc8_sem5_1 : DmaSem sig := 87
abbrev cc8_sem6_0 : DmaSem sig := 88
abbrev cc8_sem7_0 : DmaSem sig := 89
abbrev cc8_sem8_0 : DmaSem sig := 90
abbrev cc8_sem8_1 : DmaSem sig := 91
abbrev cc8_sem9_0 : DmaSem sig := 92
abbrev cc8_sem10_0 : DmaSem sig := 93
abbrev cc9_sem0_0 : DmaSem sig := 94
abbrev cc9_sem0_1 : DmaSem sig := 95
abbrev cc9_sem1_0 : DmaSem sig := 96
abbrev cc9_sem2_0 : DmaSem sig := 97
abbrev cc9_sem3_0 : DmaSem sig := 98
abbrev cc9_sem4_0 : DmaSem sig := 99
abbrev cc9_sem5_0 : DmaSem sig := 100
abbrev cc9_sem5_1 : DmaSem sig := 101

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_20 : BitVec 32 := 0#32
  let v35 : BitVec 1 := Scalar.cmpi .ne v34 c0_i32_20
  v35

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v54 : BitVec 1 := Scalar.cmpi .eq arg0 c24_i32
  let v55 : BitVec 32 := Scalar.extui v54
  let c0_i32_30 : BitVec 32 := 0#32
  let v56 : BitVec 1 := Scalar.cmpi .ne v55 c0_i32_30
  v56

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S512x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_20 : BitVec 32 := 0#32
  let v35 : BitVec 1 := Scalar.cmpi .ne v34 c0_i32_20
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v54 : BitVec 1 := Scalar.cmpi .eq arg0 c24_i32
  let v55 : BitVec 32 := Scalar.extui v54
  let c0_i32_30 : BitVec 32 := 0#32
  let v56 : BitVec 1 := Scalar.cmpi .ne v55 c0_i32_30
  v56

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S512x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 1 → Memref sig .tc .vmem S1x256 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x256 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_20 : BitVec 32 := 0#32
  let v35 : BitVec 1 := Scalar.cmpi .ne v34 c0_i32_20
  v35

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x512 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x512 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![25], ![false]⟩

def k8_cond2 (i : grid8.Coords) : BitVec 1 :=
  let arg0 : BitVec 32 := BitVec.ofNat 32 (i 0).val
  let c24_i32 : BitVec 32 := 24#32
  let v54 : BitVec 1 := Scalar.cmpi .eq arg0 c24_i32
  let v55 : BitVec 32 := Scalar.extui v54
  let c0_i32_30 : BitVec 32 := 0#32
  let v56 : BitVec 1 := Scalar.cmpi .ne v55 c0_i32_30
  v56

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S512x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x256 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S2000x256 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 1 → Memref sig .tc .vmem S1x256 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x256 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  shapeCasts_S1x50000x128_S50000x128 : S1x50000x128.ShapeCasts S50000x128
  shapeCasts_S1x800000x2_S800000x2 : S1x800000x2.ShapeCasts S800000x2
  slices_S800000x2_S800000x1_0_0 : S800000x2.Slices ![0, 0] S800000x1
  shapeCasts_S800000x1_S800000 : S800000x1.ShapeCasts S800000
  slices_S800000x2_S800000x1_0_1 : S800000x2.Slices ![0, 1] S800000x1
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S3x256x512_S1x256x512_0_0_0 : S3x256x512.Slices ![0, 0, 0] S1x256x512
  shapeCasts_S1x256x512_S256x512 : S1x256x512.ShapeCasts S256x512
  slices_S3x512_S1x512_0_0 : S3x512.Slices ![0, 0] S1x512
  shapeCasts_S1x512_S512 : S1x512.ShapeCasts S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  bcast_S_S1x512 : S_.BroadcastsInDim S1x512 (![] : Fin 0 → Fin S1x512.rank)
  slices_S3x512x256_S1x512x256_0_0_0 : S3x512x256.Slices ![0, 0, 0] S1x512x256
  shapeCasts_S1x512x256_S512x256 : S1x512x256.ShapeCasts S512x256
  slices_S3x256_S1x256_0_0 : S3x256.Slices ![0, 0] S1x256
  shapeCasts_S1x256_S256 : S1x256.ShapeCasts S256
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S2000x256_S256 : S2000x256.Reduces [0] S256
  bcast_S_S1x256 : S_.BroadcastsInDim S1x256 (![] : Fin 0 → Fin S1x256.rank)
  slices_S3x256x512_S1x256x512_1_0_0 : S3x256x512.Slices ![1, 0, 0] S1x256x512
  slices_S3x512_S1x512_1_0 : S3x512.Slices ![1, 0] S1x512
  slices_S3x512x256_S1x512x256_1_0_0 : S3x512x256.Slices ![1, 0, 0] S1x512x256
  slices_S3x256_S1x256_1_0 : S3x256.Slices ![1, 0] S1x256
  slices_S3x256x512_S1x256x512_2_0_0 : S3x256x512.Slices ![2, 0, 0] S1x256x512
  slices_S3x512_S1x512_2_0 : S3x512.Slices ![2, 0] S1x512
  slices_S3x512x256_S1x512x256_2_0_0 : S3x512x256.Slices ![2, 0, 0] S1x512x256
  slices_S3x256_S1x256_2_0 : S3x256.Slices ![2, 0] S1x256
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x256.size a ≤ S512x256.size a
  hwx2_6 : ∀ i : grid2.Coords, EltTy.bits .f32 = 32 ∨ (Rect.block (s := S512x256) S512x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S50000x256.size a
  hwx2_8 : ∀ i : grid2.Coords, EltTy.bits .f32 = 32 ∨ (Rect.block (s := S50000x256) S2000x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x512.size a ≤ S256x512.size a
  hwx4_2 : ∀ i : grid4.Coords, EltTy.bits .f32 = 32 ∨ (Rect.block (s := S256x512) S256x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x512.size a ≤ S50000x512.size a
  hwx4_4 : ∀ i : grid4.Coords, EltTy.bits .f32 = 32 ∨ (Rect.block (s := S50000x512) S2000x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x512.size a ≤ S1x512.size a
  hwx4_5 : ∀ i : grid4.Coords, EltTy.bits .f32 = 32 ∨ (Rect.block (s := S1x512) S1x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x512.size a ≤ S1x512.size a
  hwx4_6 : ∀ i : grid4.Coords, EltTy.bits .f32 = 32 ∨ (Rect.block (s := S1x512) S1x512.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512x256.size a ≤ S512x256.size a
  hwx5_6 : ∀ i : grid5.Coords, EltTy.bits .f32 = 32 ∨ (Rect.block (s := S512x256) S512x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x256.size a ≤ S50000x256.size a
  hwx5_8 : ∀ i : grid5.Coords, EltTy.bits .f32 = 32 ∨ (Rect.block (s := S50000x256) S2000x256.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x256.size a ≤ S1x256.size a
  hwx5_9 : ∀ i : grid5.Coords, EltTy.bits .f32 = 32 ∨ (Rect.block (s := S1x256) S1x256.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x256.size a ≤ S1x256.size a
  hwx5_10 : ∀ i : grid5.Coords, EltTy.bits .f32 = 32 ∨ (Rect.block (s := S1x256) S1x256.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S50000x256.size a
  hwx6_5 : ∀ i : grid6.Coords, EltTy.bits .f32 = 32 ∨ (Rect.block (s := S50000x256) S2000x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x512.size a ≤ S256x512.size a
  hwx7_2 : ∀ i : grid7.Coords, EltTy.bits .f32 = 32 ∨ (Rect.block (s := S256x512) S256x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x512.size a ≤ S50000x512.size a
  hwx7_4 : ∀ i : grid7.Coords, EltTy.bits .f32 = 32 ∨ (Rect.block (s := S50000x512) S2000x512.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x512.size a ≤ S1x512.size a
  hwx7_5 : ∀ i : grid7.Coords, EltTy.bits .f32 = 32 ∨ (Rect.block (s := S1x512) S1x512.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x512.size a ≤ S1x512.size a
  hwx7_6 : ∀ i : grid7.Coords, EltTy.bits .f32 = 32 ∨ (Rect.block (s := S1x512) S1x512.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x512.size a ≤ S50000x512.size a
  hwx8_0 : ∀ i : grid8.Coords, EltTy.bits .f32 = 32 ∨ (Rect.block (s := S50000x512) S2000x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x512.size a ≤ S1x512.size a
  hwx8_1 : ∀ i : grid8.Coords, EltTy.bits .f32 = 32 ∨ (Rect.block (s := S1x512) S1x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x512.size a ≤ S1x512.size a
  hwx8_3 : ∀ i : grid8.Coords, EltTy.bits .f32 = 32 ∨ (Rect.block (s := S1x512) S1x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x512.size a ≤ S1x512.size a
  hwx8_4 : ∀ i : grid8.Coords, EltTy.bits .f32 = 32 ∨ (Rect.block (s := S1x512) S1x512.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x256.size a ≤ S50000x256.size a
  hwx8_5 : ∀ i : grid8.Coords, EltTy.bits .f32 = 32 ∨ (Rect.block (s := S50000x256) S2000x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S512x256.size a ≤ S512x256.size a
  hwx8_6 : ∀ i : grid8.Coords, EltTy.bits .f32 = 32 ∨ (Rect.block (s := S512x256) S512x256.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x256.size a ≤ S1x256.size a
  hwx8_7 : ∀ i : grid8.Coords, EltTy.bits .f32 = 32 ∨ (Rect.block (s := S1x256) S1x256.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S2000x256.size a ≤ S50000x256.size a
  hwx8_8 : ∀ i : grid8.Coords, EltTy.bits .f32 = 32 ∨ (Rect.block (s := S50000x256) S2000x256.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x256.size a ≤ S1x256.size a
  hwx8_9 : ∀ i : grid8.Coords, EltTy.bits .f32 = 32 ∨ (Rect.block (s := S1x256) S1x256.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x256.size a ≤ S1x256.size a
  hwx8_10 : ∀ i : grid8.Coords, EltTy.bits .f32 = 32 ∨ (Rect.block (s := S1x256) S1x256.size (cc8_transform_10 i) (hinb8_10 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S50000x256.size a
  hwx9_0 : ∀ i : grid9.Coords, EltTy.bits .f32 = 32 ∨ (Rect.block (s := S50000x256) S2000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x256.size a ≤ S1x256.size a
  hwx9_1 : ∀ i : grid9.Coords, EltTy.bits .f32 = 32 ∨ (Rect.block (s := S1x256) S1x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x256.size a ≤ S50000x256.size a
  hwx9_5 : ∀ i : grid9.Coords, EltTy.bits .f32 = 32 ∨ (Rect.block (s := S50000x256) S2000x256.size (cc9_transform_5 i) (hinb9_5 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S2000x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_1) S1x512.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23_2) S1x512.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v23_0) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S2000x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v35) S512x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v41_0) S2000x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v41_1) S1x256.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_v41_2) S1x256.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | 10 => fun i => !(k2_cond2 i == 1#1) | ⟨_ + 11, h⟩ => absurd h (Nat.not_lt.2 (Nat.le_add_left _ _))

abbrev win3_0 : Pipeline.Window sig grid3 :=
  Pipeline.Window.ofSpec (Memref.whole main_v41_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S256x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70_0) S2000x512.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v70_1) S1x512.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70_2) S1x512.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v70_0) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v54) S2000x256.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v82) S512x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v87) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v88_0) S2000x256.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v88_1) S1x256.size cc5_transform_9 reads5_9 true true 1 stage5_9 sem5_9
    hrank5 hreads5_9 hinb5_9 nbuf5_9 (Memref.isWhole_whole _) hwx5_9 hstage5_9

abbrev win5_10 : Pipeline.Window sig grid5 :=
  Pipeline.Window.ofSpec (Memref.whole main_v88_2) S1x256.size cc5_transform_10 reads5_10 true true 1 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev idle5 : Fin 11 → grid5.Coords → Bool := fun | 0 => fun _ => false | 1 => fun _ => false | 2 => fun _ => false | 3 => fun _ => false | 4 => fun _ => false | 5 => fun _ => false | 6 => fun _ => false | 7 => fun _ => false | 8 => fun _ => false | 9 => fun i => !(k5_cond2 i == 1#1) | 10 => fun i => !(k5_cond2 i == 1#1) | ⟨_ + 11, h⟩ => absurd h (Nat.not_lt.2 (Nat.le_add_left _ _))

abbrev win6_0 : Pipeline.Window sig grid6 :=
  Pipeline.Window.ofSpec (Memref.whole main_v88_0) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S2000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v101) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v111) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v113) S256x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v116) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v117_0) S2000x512.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v117_1) S1x512.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v117_2) S1x512.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v117_0) S2000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v119) S1x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v123) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v132) S1x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v133) S1x512.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v101) S2000x256.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v129) S512x256.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v134) S1x256.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v135_0) S2000x256.size cc8_transform_8 reads8_8 true false 2 stage8_8 sem8_8
    hrank8 hreads8_8 hinb8_8 nbuf8_8 (Memref.isWhole_whole _) hwx8_8 hstage8_8

abbrev win8_9 : Pipeline.Window sig grid8 :=
  Pipeline.Window.ofSpec (Memref.whole main_v135_1) S1x256.size cc8_transform_9 reads8_9 true true 1 stage8_9 sem8_9
    hrank8 hreads8_9 hinb8_9 nbuf8_9 (Memref.isWhole_whole _) hwx8_9 hstage8_9

abbrev win8_10 : Pipeline.Window sig grid8 :=
  Pipeline.Window.ofSpec (Memref.whole main_v135_2) S1x256.size cc8_transform_10 reads8_10 true true 1 stage8_10 sem8_10
    hrank8 hreads8_10 hinb8_10 nbuf8_10 (Memref.isWhole_whole _) hwx8_10 hstage8_10

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

abbrev idle8 : Fin 11 → grid8.Coords → Bool := fun | 0 => fun _ => false | 1 => fun _ => false | 2 => fun _ => false | 3 => fun _ => false | 4 => fun _ => false | 5 => fun _ => false | 6 => fun _ => false | 7 => fun _ => false | 8 => fun _ => false | 9 => fun i => !(k8_cond2 i == 1#1) | 10 => fun i => !(k8_cond2 i == 1#1) | ⟨_ + 11, h⟩ => absurd h (Nat.not_lt.2 (Nat.le_add_left _ _))

abbrev win9_0 : Pipeline.Window sig grid9 :=
  Pipeline.Window.ofSpec (Memref.whole main_v135_0) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v137) S1x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v141) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v146) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v147) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v148) S2000x256.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S1x50000x128 : Shape := ⟨3, ![1, 50000, 128]⟩
abbrev S1x800000x2 : Shape := ⟨3, ![1, 800000, 2]⟩
abbrev S128x256 : Shape := ⟨2, ![128, 256]⟩
abbrev S256 : Shape := ⟨1, ![256]⟩
abbrev S3x256x512 : Shape := ⟨3, ![3, 256, 512]⟩
abbrev S3x512 : Shape := ⟨2, ![3, 512]⟩
abbrev S3x512x256 : Shape := ⟨3, ![3, 512, 256]⟩
abbrev S3x256 : Shape := ⟨2, ![3, 256]⟩
abbrev S50000x128 : Shape := ⟨2, ![50000, 128]⟩
abbrev S800000x2 : Shape := ⟨2, ![800000, 2]⟩
abbrev S800000x1 : Shape := ⟨2, ![800000, 1]⟩
abbrev S800000 : Shape := ⟨1, ![800000]⟩
abbrev S50000x256 : Shape := ⟨2, ![50000, 256]⟩
abbrev S1x256 : Shape := ⟨2, ![1, 256]⟩
abbrev S_ : Shape := ⟨0, ![]⟩
abbrev S800000x256 : Shape := ⟨2, ![800000, 256]⟩
abbrev S1x256x512 : Shape := ⟨3, ![1, 256, 512]⟩
abbrev S256x512 : Shape := ⟨2, ![256, 512]⟩
abbrev S50000x512 : Shape := ⟨2, ![50000, 512]⟩
abbrev S1x512 : Shape := ⟨2, ![1, 512]⟩
abbrev S512 : Shape := ⟨1, ![512]⟩
abbrev S1x512x256 : Shape := ⟨3, ![1, 512, 256]⟩
abbrev S512x256 : Shape := ⟨2, ![512, 256]⟩

abbrev nBuf : Space → Nat
  | .hbm => 412
  | .vmem => 0
  | .smem => 0
  | _ => 0

abbrev hbmTy0_0 (i : Nat) : BufTy := match i % 128 with
  | 0 => ⟨S1x50000x128, .f32⟩
  | 1 => ⟨S1x800000x2, .i32⟩
  | 2 => ⟨S128x256, .f32⟩
  | 3 => ⟨S256, .f32⟩
  | 4 => ⟨S3x256x512, .f32⟩
  | 5 => ⟨S3x512, .f32⟩
  | 6 => ⟨S3x512, .f32⟩
  | 7 => ⟨S3x512, .f32⟩
  | 8 => ⟨S3x512x256, .f32⟩
  | 9 => ⟨S3x256, .f32⟩
  | 10 => ⟨S3x256, .f32⟩
  | 11 => ⟨S3x256, .f32⟩
  | 12 => ⟨S50000x128, .f32⟩
  | 13 => ⟨S800000x2, .i32⟩
  | 14 => ⟨S800000x1, .i32⟩
  | 15 => ⟨S800000, .i32⟩
  | 16 => ⟨S800000x1, .i32⟩
  | 17 => ⟨S800000, .i32⟩
  | 18 => ⟨S50000x256, .f32⟩
  | 19 => ⟨S1x256, .f32⟩
  | 20 => ⟨S50000x256, .f32⟩
  | 21 => ⟨S50000x256, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x256, .f32⟩
  | 31 => ⟨S_, .f32⟩
  | 32 => ⟨S50000x256, .f32⟩
  | 33 => ⟨S800000x1, .i32⟩
  | 34 => ⟨S50000x256, .f32⟩
  | 35 => ⟨S50000x256, .f32⟩
  | 36 => ⟨S1x256x512, .f32⟩
  | 37 => ⟨S256x512, .f32⟩
  | 38 => ⟨S50000x512, .f32⟩
  | 39 => ⟨S1x512, .f32⟩
  | 40 => ⟨S512, .f32⟩
  | 41 => ⟨S1x512, .f32⟩
  | 42 => ⟨S50000x512, .f32⟩
  | 43 => ⟨S50000x512, .f32⟩
  | 44 => ⟨S1x512, .f32⟩
  | 45 => ⟨S512, .f32⟩
  | 46 => ⟨S1x512, .f32⟩
  | 47 => ⟨S512, .f32⟩
  | 48 => ⟨S_, .f32⟩
  | 49 => ⟨S512, .f32⟩
  | 50 => ⟨S_, .f32⟩
  | 51 => ⟨S512, .f32⟩
  | 52 => ⟨S512, .f32⟩
  | 53 => ⟨S_, .i32⟩
  | 54 => ⟨S_, .f32⟩
  | 55 => ⟨S512, .f32⟩
  | 56 => ⟨S1x512, .f32⟩
  | 57 => ⟨S_, .f32⟩
  | 58 => ⟨S1x512, .f32⟩
  | 59 => ⟨S1x512, .f32⟩
  | 60 => ⟨S50000x512, .f32⟩
  | 61 => ⟨S50000x512, .f32⟩
  | 62 => ⟨S50000x512, .f32⟩
  | 63 => ⟨S_, .f32⟩
  | 64 => ⟨S_, .f32⟩
  | 65 => ⟨S_, .f32⟩
  | 66 => ⟨S_, .f32⟩
  | 67 => ⟨S512, .f32⟩
  | 68 => ⟨S512, .f32⟩
  | 69 => ⟨S512, .f32⟩
  | 70 => ⟨S_, .f32⟩
  | 71 => ⟨S_, .i1⟩
  | 72 => ⟨S_, .f32⟩
  | 73 => ⟨S_, .f32⟩
  | 74 => ⟨S512, .f32⟩
  | 75 => ⟨S512, .f32⟩
  | 76 => ⟨S1x512, .f32⟩
  | 77 => ⟨S50000x512, .f32⟩
  | 78 => ⟨S50000x512, .f32⟩
  | 79 => ⟨S1x512, .f32⟩
  | 80 => ⟨S50000x512, .f32⟩
  | 81 => ⟨S50000x512, .f32⟩
  | 82 => ⟨S_, .f32⟩
  | 83 => ⟨S512, .f32⟩
  | 84 => ⟨S512, .f32⟩
  | 85 => ⟨S512, .f32⟩
  | 86 => ⟨S1x512, .f32⟩
  | 87 => ⟨S50000x512, .f32⟩
  | 88 => ⟨S50000x512, .f32⟩
  | 89 => ⟨S1x512, .f32⟩
  | 90 => ⟨S50000x512, .f32⟩
  | 91 => ⟨S50000x512, .f32⟩
  | 92 => ⟨S_, .f32⟩
  | 93 => ⟨S50000x512, .f32⟩
  | 94 => ⟨S50000x512, .f32⟩
  | 95 => ⟨S1x512x256, .f32⟩
  | 96 => ⟨S512x256, .f32⟩
  | 97 => ⟨S50000x256, .f32⟩
  | 98 => ⟨S1x256, .f32⟩
  | 99 => ⟨S256, .f32⟩
  | 100 => ⟨S1x256, .f32⟩
  | 101 => ⟨S50000x256, .f32⟩
  | 102 => ⟨S50000x256, .f32⟩
  | 103 => ⟨S50000x256, .f32⟩
  | 104 => ⟨S1x256, .f32⟩
  | 105 => ⟨S256, .f32⟩
  | 106 => ⟨S1x256, .f32⟩
  | 107 => ⟨S256, .f32⟩
  | 108 => ⟨S_, .f32⟩
  | 109 => ⟨S256, .f32⟩
  | 110 => ⟨S_, .f32⟩
  | 111 => ⟨S256, .f32⟩
  | 112 => ⟨S256, .f32⟩
  | 113 => ⟨S_, .i32⟩
  | 114 => ⟨S_, .f32⟩
  | 115 => ⟨S256, .f32⟩
  | 116 => ⟨S1x256, .f32⟩
  | 117 => ⟨S_, .f32⟩
  | 118 => ⟨S1x256, .f32⟩
  | 119 => ⟨S1x256, .f32⟩
  | 120 => ⟨S50000x256, .f32⟩
  | 121 => ⟨S50000x256, .f32⟩
  | 122 => ⟨S50000x256, .f32⟩
  | 123 => ⟨S_, .f32⟩
  | 124 => ⟨S_, .f32⟩
  | 125 => ⟨S_, .f32⟩
  | 126 => ⟨S_, .f32⟩
  | 127 => ⟨S256, .f32⟩
  | _ => ⟨S1x50000x128, .f32⟩

abbrev hbmTy0_1 (i : Nat) : BufTy := match i % 128 with
  | 0 => ⟨S256, .f32⟩
  | 1 => ⟨S256, .f32⟩
  | 2 => ⟨S_, .f32⟩
  | 3 => ⟨S_, .i1⟩
  | 4 => ⟨S_, .f32⟩
  | 5 => ⟨S_, .f32⟩
  | 6 => ⟨S256, .f32⟩
  | 7 => ⟨S256, .f32⟩
  | 8 => ⟨S1x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S256, .f32⟩
  | 17 => ⟨S256, .f32⟩
  | 18 => ⟨S1x256, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x256, .f32⟩
  | 33 => ⟨S_, .f32⟩
  | 34 => ⟨S50000x256, .f32⟩
  | 35 => ⟨S800000x1, .i32⟩
  | 36 => ⟨S50000x256, .f32⟩
  | 37 => ⟨S50000x256, .f32⟩
  | 38 => ⟨S1x256x512, .f32⟩
  | 39 => ⟨S256x512, .f32⟩
  | 40 => ⟨S50000x512, .f32⟩
  | 41 => ⟨S1x512, .f32⟩
  | 42 => ⟨S512, .f32⟩
  | 43 => ⟨S1x512, .f32⟩
  | 44 => ⟨S50000x512, .f32⟩
  | 45 => ⟨S50000x512, .f32⟩
  | 46 => ⟨S1x512, .f32⟩
  | 47 => ⟨S512, .f32⟩
  | 48 => ⟨S1x512, .f32⟩
  | 49 => ⟨S512, .f32⟩
  | 50 => ⟨S_, .f32⟩
  | 51 => ⟨S512, .f32⟩
  | 52 => ⟨S_, .f32⟩
  | 53 => ⟨S512, .f32⟩
  | 54 => ⟨S512, .f32⟩
  | 55 => ⟨S_, .i32⟩
  | 56 => ⟨S_, .f32⟩
  | 57 => ⟨S512, .f32⟩
  | 58 => ⟨S1x512, .f32⟩
  | 59 => ⟨S_, .f32⟩
  | 60 => ⟨S1x512, .f32⟩
  | 61 => ⟨S1x512, .f32⟩
  | 62 => ⟨S50000x512, .f32⟩
  | 63 => ⟨S50000x512, .f32⟩
  | 64 => ⟨S50000x512, .f32⟩
  | 65 => ⟨S_, .f32⟩
  | 66 => ⟨S_, .f32⟩
  | 67 => ⟨S_, .f32⟩
  | 68 => ⟨S_, .f32⟩
  | 69 => ⟨S512, .f32⟩
  | 70 => ⟨S512, .f32⟩
  | 71 => ⟨S512, .f32⟩
  | 72 => ⟨S_, .f32⟩
  | 73 => ⟨S_, .i1⟩
  | 74 => ⟨S_, .f32⟩
  | 75 => ⟨S_, .f32⟩
  | 76 => ⟨S512, .f32⟩
  | 77 => ⟨S512, .f32⟩
  | 78 => ⟨S1x512, .f32⟩
  | 79 => ⟨S50000x512, .f32⟩
  | 80 => ⟨S50000x512, .f32⟩
  | 81 => ⟨S1x512, .f32⟩
  | 82 => ⟨S50000x512, .f32⟩
  | 83 => ⟨S50000x512, .f32⟩
  | 84 => ⟨S_, .f32⟩
  | 85 => ⟨S512, .f32⟩
  | 86 => ⟨S512, .f32⟩
  | 87 => ⟨S512, .f32⟩
  | 88 => ⟨S1x512, .f32⟩
  | 89 => ⟨S50000x512, .f32⟩
  | 90 => ⟨S50000x512, .f32⟩
  | 91 => ⟨S1x512, .f32⟩
  | 92 => ⟨S50000x512, .f32⟩
  | 93 => ⟨S50000x512, .f32⟩
  | 94 => ⟨S_, .f32⟩
  | 95 => ⟨S50000x512, .f32⟩
  | 96 => ⟨S50000x512, .f32⟩
  | 97 => ⟨S1x512x256, .f32⟩
  | 98 => ⟨S512x256, .f32⟩
  | 99 => ⟨S50000x256, .f32⟩
  | 100 => ⟨S1x256, .f32⟩
  | 101 => ⟨S256, .f32⟩
  | 102 => ⟨S1x256, .f32⟩
  | 103 => ⟨S50000x256, .f32⟩
  | 104 => ⟨S50000x256, .f32⟩
  | 105 => ⟨S50000x256, .f32⟩
  | 106 => ⟨S1x256, .f32⟩
  | 107 => ⟨S256, .f32⟩
  | 108 => ⟨S1x256, .f32⟩
  | 109 => ⟨S256, .f32⟩
  | 110 => ⟨S_, .f32⟩
  | 111 => ⟨S256, .f32⟩
  | 112 => ⟨S_, .f32⟩
  | 113 => ⟨S256, .f32⟩
  | 114 => ⟨S256, .f32⟩
  | 115 => ⟨S_, .i32⟩
  | 116 => ⟨S_, .f32⟩
  | 117 => ⟨S256, .f32⟩
  | 118 => ⟨S1x256, .f32⟩
  | 119 => ⟨S_, .f32⟩
  | 120 => ⟨S1x256, .f32⟩
  | 121 => ⟨S1x256, .f32⟩
  | 122 => ⟨S50000x256, .f32⟩
  | 123 => ⟨S50000x256, .f32⟩
  | 124 => ⟨S50000x256, .f32⟩
  | 125 => ⟨S_, .f32⟩
  | 126 => ⟨S_, .f32⟩
  | 127 => ⟨S_, .f32⟩
  | _ => ⟨S1x50000x128, .f32⟩

abbrev hbmTy0_2 (i : Nat) : BufTy := match i % 128 with
  | 0 => ⟨S_, .f32⟩
  | 1 => ⟨S256, .f32⟩
  | 2 => ⟨S256, .f32⟩
  | 3 => ⟨S256, .f32⟩
  | 4 => ⟨S_, .f32⟩
  | 5 => ⟨S_, .i1⟩
  | 6 => ⟨S_, .f32⟩
  | 7 => ⟨S_, .f32⟩
  | 8 => ⟨S256, .f32⟩
  | 9 => ⟨S256, .f32⟩
  | 10 => ⟨S1x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S_, .f32⟩
  | 17 => ⟨S256, .f32⟩
  | 18 => ⟨S256, .f32⟩
  | 19 => ⟨S256, .f32⟩
  | 20 => ⟨S1x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S_, .f32⟩
  | 36 => ⟨S50000x256, .f32⟩
  | 37 => ⟨S800000x1, .i32⟩
  | 38 => ⟨S50000x256, .f32⟩
  | 39 => ⟨S50000x256, .f32⟩
  | 40 => ⟨S1x256x512, .f32⟩
  | 41 => ⟨S256x512, .f32⟩
  | 42 => ⟨S50000x512, .f32⟩
  | 43 => ⟨S1x512, .f32⟩
  | 44 => ⟨S512, .f32⟩
  | 45 => ⟨S1x512, .f32⟩
  | 46 => ⟨S50000x512, .f32⟩
  | 47 => ⟨S50000x512, .f32⟩
  | 48 => ⟨S1x512, .f32⟩
  | 49 => ⟨S512, .f32⟩
  | 50 => ⟨S1x512, .f32⟩
  | 51 => ⟨S512, .f32⟩
  | 52 => ⟨S_, .f32⟩
  | 53 => ⟨S512, .f32⟩
  | 54 => ⟨S_, .f32⟩
  | 55 => ⟨S512, .f32⟩
  | 56 => ⟨S512, .f32⟩
  | 57 => ⟨S_, .i32⟩
  | 58 => ⟨S_, .f32⟩
  | 59 => ⟨S512, .f32⟩
  | 60 => ⟨S1x512, .f32⟩
  | 61 => ⟨S_, .f32⟩
  | 62 => ⟨S1x512, .f32⟩
  | 63 => ⟨S1x512, .f32⟩
  | 64 => ⟨S50000x512, .f32⟩
  | 65 => ⟨S50000x512, .f32⟩
  | 66 => ⟨S50000x512, .f32⟩
  | 67 => ⟨S_, .f32⟩
  | 68 => ⟨S_, .f32⟩
  | 69 => ⟨S_, .f32⟩
  | 70 => ⟨S_, .f32⟩
  | 71 => ⟨S512, .f32⟩
  | 72 => ⟨S512, .f32⟩
  | 73 => ⟨S512, .f32⟩
  | 74 => ⟨S_, .f32⟩
  | 75 => ⟨S_, .i1⟩
  | 76 => ⟨S_, .f32⟩
  | 77 => ⟨S_, .f32⟩
  | 78 => ⟨S512, .f32⟩
  | 79 => ⟨S512, .f32⟩
  | 80 => ⟨S1x512, .f32⟩
  | 81 => ⟨S50000x512, .f32⟩
  | 82 => ⟨S50000x512, .f32⟩
  | 83 => ⟨S1x512, .f32⟩
  | 84 => ⟨S50000x512, .f32⟩
  | 85 => ⟨S50000x512, .f32⟩
  | 86 => ⟨S_, .f32⟩
  | 87 => ⟨S512, .f32⟩
  | 88 => ⟨S512, .f32⟩
  | 89 => ⟨S512, .f32⟩
  | 90 => ⟨S1x512, .f32⟩
  | 91 => ⟨S50000x512, .f32⟩
  | 92 => ⟨S50000x512, .f32⟩
  | 93 => ⟨S1x512, .f32⟩
  | 94 => ⟨S50000x512, .f32⟩
  | 95 => ⟨S50000x512, .f32⟩
  | 96 => ⟨S_, .f32⟩
  | 97 => ⟨S50000x512, .f32⟩
  | 98 => ⟨S50000x512, .f32⟩
  | 99 => ⟨S1x512x256, .f32⟩
  | 100 => ⟨S512x256, .f32⟩
  | 101 => ⟨S50000x256, .f32⟩
  | 102 => ⟨S1x256, .f32⟩
  | 103 => ⟨S256, .f32⟩
  | 104 => ⟨S1x256, .f32⟩
  | 105 => ⟨S50000x256, .f32⟩
  | 106 => ⟨S50000x256, .f32⟩
  | 107 => ⟨S50000x256, .f32⟩
  | 108 => ⟨S1x256, .f32⟩
  | 109 => ⟨S256, .f32⟩
  | 110 => ⟨S1x256, .f32⟩
  | 111 => ⟨S256, .f32⟩
  | 112 => ⟨S_, .f32⟩
  | 113 => ⟨S256, .f32⟩
  | 114 => ⟨S_, .f32⟩
  | 115 => ⟨S256, .f32⟩
  | 116 => ⟨S256, .f32⟩
  | 117 => ⟨S_, .i32⟩
  | 118 => ⟨S_, .f32⟩
  | 119 => ⟨S256, .f32⟩
  | 120 => ⟨S1x256, .f32⟩
  | 121 => ⟨S_, .f32⟩
  | 122 => ⟨S1x256, .f32⟩
  | 123 => ⟨S1x256, .f32⟩
  | 124 => ⟨S50000x256, .f32⟩
  | 125 => ⟨S50000x256, .f32⟩
  | 126 => ⟨S50000x256, .f32⟩
  | 127 => ⟨S_, .f32⟩
  | _ => ⟨S1x50000x128, .f32⟩

abbrev hbmTy0_3 (i : Nat) : BufTy := match i % 128 with
  | 0 => ⟨S_, .f32⟩
  | 1 => ⟨S_, .f32⟩
  | 2 => ⟨S_, .f32⟩
  | 3 => ⟨S256, .f32⟩
  | 4 => ⟨S256, .f32⟩
  | 5 => ⟨S256, .f32⟩
  | 6 => ⟨S_, .f32⟩
  | 7 => ⟨S_, .i1⟩
  | 8 => ⟨S_, .f32⟩
  | 9 => ⟨S_, .f32⟩
  | 10 => ⟨S256, .f32⟩
  | 11 => ⟨S256, .f32⟩
  | 12 => ⟨S1x256, .f32⟩
  | 13 => ⟨S50000x256, .f32⟩
  | 14 => ⟨S50000x256, .f32⟩
  | 15 => ⟨S1x256, .f32⟩
  | 16 => ⟨S50000x256, .f32⟩
  | 17 => ⟨S50000x256, .f32⟩
  | 18 => ⟨S_, .f32⟩
  | 19 => ⟨S256, .f32⟩
  | 20 => ⟨S256, .f32⟩
  | 21 => ⟨S256, .f32⟩
  | 22 => ⟨S1x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | _ => ⟨S1x50000x128, .f32⟩

abbrev hbmTy (i : Nat) : BufTy := match i / 128 with
  | 0 => hbmTy0_0 i
  | 1 => hbmTy0_1 i
  | 2 => hbmTy0_2 i
  | 3 => hbmTy0_3 i
  | _ => ⟨S1x50000x128, .f32⟩

abbrev bufTy : (tb : Table) → Fin (tcTables nBuf tb) → BufTy
  | .hbm, ⟨i, _⟩ => hbmTy i
  | _, _ => ⟨S1x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_c_3 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_4 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_call1_cst : Ref sig .tc := ⟨.hbm, 92, rfl⟩
abbrev main_call1_v0 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_5 : Ref sig .tc := ⟨.hbm, 108, rfl⟩
abbrev main_v66 : Ref sig .tc := ⟨.hbm, 109, rfl⟩
abbrev main_cst_6 : Ref sig .tc := ⟨.hbm, 110, rfl⟩
abbrev main_v67 : Ref sig .tc := ⟨.hbm, 111, rfl⟩
abbrev main_v68 : Ref sig .tc := ⟨.hbm, 112, rfl⟩
abbrev main_c_7 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_8 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_c_9 : Ref sig .tc := ⟨.hbm, 152, rfl⟩
abbrev main_v85 : Ref sig .tc := ⟨.hbm, 153, rfl⟩
abbrev main_v86 : Ref sig .tc := ⟨.hbm, 154, rfl⟩
abbrev main_c_10 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_11 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_12 : Ref sig .tc := ⟨.hbm, 178, rfl⟩
abbrev main_v108 : Ref sig .tc := ⟨.hbm, 179, rfl⟩
abbrev main_cst_13 : Ref sig .tc := ⟨.hbm, 180, rfl⟩
abbrev main_v109 : Ref sig .tc := ⟨.hbm, 181, rfl⟩
abbrev main_v110 : Ref sig .tc := ⟨.hbm, 182, rfl⟩
abbrev main_c_14 : Ref sig .tc := ⟨.hbm, 183, rfl⟩
abbrev main_call3_cst : Ref sig .tc := ⟨.hbm, 184, rfl⟩
abbrev main_call3_v0 : Ref sig .tc := ⟨.hbm, 185, rfl⟩
abbrev main_call3_v1 : Ref sig .tc := ⟨.hbm, 186, rfl⟩
abbrev main_call3_cst_0 : Ref sig .tc := ⟨.hbm, 187, rfl⟩
abbrev main_call3_v2 : Ref sig .tc := ⟨.hbm, 188, rfl⟩
abbrev main_call3_v3 : Ref sig .tc := ⟨.hbm, 189, rfl⟩
abbrev main_call3_v4 : Ref sig .tc := ⟨.hbm, 190, rfl⟩
abbrev main_call3_v5 : Ref sig .tc := ⟨.hbm, 191, rfl⟩
abbrev main_call3_v6 : Ref sig .tc := ⟨.hbm, 192, rfl⟩
abbrev main_call3_v7 : Ref sig .tc := ⟨.hbm, 193, rfl⟩
abbrev main_call3_cst_1 : Ref sig .tc := ⟨.hbm, 194, rfl⟩
abbrev main_call3_v8 : Ref sig .tc := ⟨.hbm, 195, rfl⟩
abbrev main_call3_cst_2 : Ref sig .tc := ⟨.hbm, 196, rfl⟩
abbrev main_call3_v9 : Ref sig .tc := ⟨.hbm, 197, rfl⟩
abbrev main_call3_v10 : Ref sig .tc := ⟨.hbm, 198, rfl⟩
abbrev main_call3_v11 : Ref sig .tc := ⟨.hbm, 199, rfl⟩
abbrev main_call3_cst_3 : Ref sig .tc := ⟨.hbm, 200, rfl⟩
abbrev main_call3_v12 : Ref sig .tc := ⟨.hbm, 201, rfl⟩
abbrev main_call3_cst_4 : Ref sig .tc := ⟨.hbm, 202, rfl⟩
abbrev main_call3_call0_v0 : Ref sig .tc := ⟨.hbm, 203, rfl⟩
abbrev main_call3_call0_v1 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_cst_15 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_call4_cst : Ref sig .tc := ⟨.hbm, 222, rfl⟩
abbrev main_call4_v0 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_cst_16 : Ref sig .tc := ⟨.hbm, 238, rfl⟩
abbrev main_v141 : Ref sig .tc := ⟨.hbm, 239, rfl⟩
abbrev main_cst_17 : Ref sig .tc := ⟨.hbm, 240, rfl⟩
abbrev main_v142 : Ref sig .tc := ⟨.hbm, 241, rfl⟩
abbrev main_v143 : Ref sig .tc := ⟨.hbm, 242, rfl⟩
abbrev main_c_18 : Ref sig .tc := ⟨.hbm, 243, rfl⟩
abbrev main_call5_cst : Ref sig .tc := ⟨.hbm, 244, rfl⟩
abbrev main_call5_v0 : Ref sig .tc := ⟨.hbm, 245, rfl⟩
abbrev main_call5_v1 : Ref sig .tc := ⟨.hbm, 246, rfl⟩
abbrev main_call5_cst_0 : Ref sig .tc := ⟨.hbm, 247, rfl⟩
abbrev main_call5_v2 : Ref sig .tc := ⟨.hbm, 248, rfl⟩
abbrev main_call5_v3 : Ref sig .tc := ⟨.hbm, 249, rfl⟩
abbrev main_call5_v4 : Ref sig .tc := ⟨.hbm, 250, rfl⟩
abbrev main_call5_v5 : Ref sig .tc := ⟨.hbm, 251, rfl⟩
abbrev main_call5_v6 : Ref sig .tc := ⟨.hbm, 252, rfl⟩
abbrev main_call5_v7 : Ref sig .tc := ⟨.hbm, 253, rfl⟩
abbrev main_call5_cst_1 : Ref sig .tc := ⟨.hbm, 254, rfl⟩
abbrev main_call5_v8 : Ref sig .tc := ⟨.hbm, 255, rfl⟩
abbrev main_call5_cst_2 : Ref sig .tc := ⟨.hbm, 256, rfl⟩
abbrev main_call5_v9 : Ref sig .tc := ⟨.hbm, 257, rfl⟩
abbrev main_call5_v10 : Ref sig .tc := ⟨.hbm, 258, rfl⟩
abbrev main_call5_v11 : Ref sig .tc := ⟨.hbm, 259, rfl⟩
abbrev main_call5_cst_3 : Ref sig .tc := ⟨.hbm, 260, rfl⟩
abbrev main_call5_v12 : Ref sig .tc := ⟨.hbm, 261, rfl⟩
abbrev main_call5_cst_4 : Ref sig .tc := ⟨.hbm, 262, rfl⟩
abbrev main_call5_call0_v0 : Ref sig .tc := ⟨.hbm, 263, rfl⟩
abbrev main_call5_call0_v1 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_cst_19 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_c_20 : Ref sig .tc := ⟨.hbm, 282, rfl⟩
abbrev main_v160 : Ref sig .tc := ⟨.hbm, 283, rfl⟩
abbrev main_v161 : Ref sig .tc := ⟨.hbm, 284, rfl⟩
abbrev main_c_21 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_cst_22 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_cst_23 : Ref sig .tc := ⟨.hbm, 308, rfl⟩
abbrev main_v183 : Ref sig .tc := ⟨.hbm, 309, rfl⟩
abbrev main_cst_24 : Ref sig .tc := ⟨.hbm, 310, rfl⟩
abbrev main_v184 : Ref sig .tc := ⟨.hbm, 311, rfl⟩
abbrev main_v185 : Ref sig .tc := ⟨.hbm, 312, rfl⟩
abbrev main_c_25 : Ref sig .tc := ⟨.hbm, 313, rfl⟩
abbrev main_call6_cst : Ref sig .tc := ⟨.hbm, 314, rfl⟩
abbrev main_call6_v0 : Ref sig .tc := ⟨.hbm, 315, rfl⟩
abbrev main_call6_v1 : Ref sig .tc := ⟨.hbm, 316, rfl⟩
abbrev main_call6_cst_0 : Ref sig .tc := ⟨.hbm, 317, rfl⟩
abbrev main_call6_v2 : Ref sig .tc := ⟨.hbm, 318, rfl⟩
abbrev main_call6_v3 : Ref sig .tc := ⟨.hbm, 319, rfl⟩
abbrev main_call6_v4 : Ref sig .tc := ⟨.hbm, 320, rfl⟩
abbrev main_call6_v5 : Ref sig .tc := ⟨.hbm, 321, rfl⟩
abbrev main_call6_v6 : Ref sig .tc := ⟨.hbm, 322, rfl⟩
abbrev main_call6_v7 : Ref sig .tc := ⟨.hbm, 323, rfl⟩
abbrev main_call6_cst_1 : Ref sig .tc := ⟨.hbm, 324, rfl⟩
abbrev main_call6_v8 : Ref sig .tc := ⟨.hbm, 325, rfl⟩
abbrev main_call6_cst_2 : Ref sig .tc := ⟨.hbm, 326, rfl⟩
abbrev main_call6_v9 : Ref sig .tc := ⟨.hbm, 327, rfl⟩
abbrev main_call6_v10 : Ref sig .tc := ⟨.hbm, 328, rfl⟩
abbrev main_call6_v11 : Ref sig .tc := ⟨.hbm, 329, rfl⟩
abbrev main_call6_cst_3 : Ref sig .tc := ⟨.hbm, 330, rfl⟩
abbrev main_call6_v12 : Ref sig .tc := ⟨.hbm, 331, rfl⟩
abbrev main_call6_cst_4 : Ref sig .tc := ⟨.hbm, 332, rfl⟩
abbrev main_call6_call0_v0 : Ref sig .tc := ⟨.hbm, 333, rfl⟩
abbrev main_call6_call0_v1 : Ref sig .tc := ⟨.hbm, 334, rfl⟩
abbrev main_v186 : Ref sig .tc := ⟨.hbm, 335, rfl⟩
abbrev main_v187 : Ref sig .tc := ⟨.hbm, 336, rfl⟩
abbrev main_v188 : Ref sig .tc := ⟨.hbm, 337, rfl⟩
abbrev main_v189 : Ref sig .tc := ⟨.hbm, 338, rfl⟩
abbrev main_v190 : Ref sig .tc := ⟨.hbm, 339, rfl⟩
abbrev main_v191 : Ref sig .tc := ⟨.hbm, 340, rfl⟩
abbrev main_v192 : Ref sig .tc := ⟨.hbm, 341, rfl⟩
abbrev main_cst_26 : Ref sig .tc := ⟨.hbm, 342, rfl⟩
abbrev main_v193 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_v199 : Ref sig .tc := ⟨.hbm, 349, rfl⟩
abbrev main_v200 : Ref sig .tc := ⟨.hbm, 350, rfl⟩
abbrev main_v201 : Ref sig .tc := ⟨.hbm, 351, rfl⟩
abbrev main_call7_cst : Ref sig .tc := ⟨.hbm, 352, rfl⟩
abbrev main_call7_v0 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_v205 : Ref sig .tc := ⟨.hbm, 357, rfl⟩
abbrev main_v206 : Ref sig .tc := ⟨.hbm, 358, rfl⟩
abbrev main_v207 : Ref sig .tc := ⟨.hbm, 359, rfl⟩
abbrev main_v208 : Ref sig .tc := ⟨.hbm, 360, rfl⟩
abbrev main_v209 : Ref sig .tc := ⟨.hbm, 361, rfl⟩
abbrev main_v210 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_v214 : Ref sig .tc := ⟨.hbm, 366, rfl⟩
abbrev main_v215 : Ref sig .tc := ⟨.hbm, 367, rfl⟩
abbrev main_cst_27 : Ref sig .tc := ⟨.hbm, 368, rfl⟩
abbrev main_v216 : Ref sig .tc := ⟨.hbm, 369, rfl⟩
abbrev main_cst_28 : Ref sig .tc := ⟨.hbm, 370, rfl⟩
abbrev main_v217 : Ref sig .tc := ⟨.hbm, 371, rfl⟩
abbrev main_v218 : Ref sig .tc := ⟨.hbm, 372, rfl⟩
abbrev main_c_29 : Ref sig .tc := ⟨.hbm, 373, rfl⟩
abbrev main_call8_cst : Ref sig .tc := ⟨.hbm, 374, rfl⟩
abbrev main_call8_v0 : Ref sig .tc := ⟨.hbm, 375, rfl⟩
abbrev main_call8_v1 : Ref sig .tc := ⟨.hbm, 376, rfl⟩
abbrev main_call8_cst_0 : Ref sig .tc := ⟨.hbm, 377, rfl⟩
abbrev main_call8_v2 : Ref sig .tc := ⟨.hbm, 378, rfl⟩
abbrev main_call8_v3 : Ref sig .tc := ⟨.hbm, 379, rfl⟩
abbrev main_call8_v4 : Ref sig .tc := ⟨.hbm, 380, rfl⟩
abbrev main_call8_v5 : Ref sig .tc := ⟨.hbm, 381, rfl⟩
abbrev main_call8_v6 : Ref sig .tc := ⟨.hbm, 382, rfl⟩
abbrev main_call8_v7 : Ref sig .tc := ⟨.hbm, 383, rfl⟩
abbrev main_call8_cst_1 : Ref sig .tc := ⟨.hbm, 384, rfl⟩
abbrev main_call8_v8 : Ref sig .tc := ⟨.hbm, 385, rfl⟩
abbrev main_call8_cst_2 : Ref sig .tc := ⟨.hbm, 386, rfl⟩
abbrev main_call8_v9 : Ref sig .tc := ⟨.hbm, 387, rfl⟩
abbrev main_call8_v10 : Ref sig .tc := ⟨.hbm, 388, rfl⟩
abbrev main_call8_v11 : Ref sig .tc := ⟨.hbm, 389, rfl⟩
abbrev main_call8_cst_3 : Ref sig .tc := ⟨.hbm, 390, rfl⟩
abbrev main_call8_v12 : Ref sig .tc := ⟨.hbm, 391, rfl⟩
abbrev main_call8_cst_4 : Ref sig .tc := ⟨.hbm, 392, rfl⟩
abbrev main_call8_call0_v0 : Ref sig .tc := ⟨.hbm, 393, rfl⟩
abbrev main_call8_call0_v1 : Ref sig .tc := ⟨.hbm, 394, rfl⟩
abbrev main_v219 : Ref sig .tc := ⟨.hbm, 395, rfl⟩
abbrev main_v220 : Ref sig .tc := ⟨.hbm, 396, rfl⟩
abbrev main_v221 : Ref sig .tc := ⟨.hbm, 397, rfl⟩
abbrev main_v222 : Ref sig .tc := ⟨.hbm, 398, rfl⟩
abbrev main_v223 : Ref sig .tc := ⟨.hbm, 399, rfl⟩
abbrev main_v224 : Ref sig .tc := ⟨.hbm, 400, rfl⟩
abbrev main_v225 : Ref sig .tc := ⟨.hbm, 401, rfl⟩
abbrev main_cst_30 : Ref sig .tc := ⟨.hbm, 402, rfl⟩
abbrev main_v226 : Ref sig .tc := ⟨.hbm, 403, rfl⟩
abbrev main_v227 : Ref sig .tc := ⟨.hbm, 404, rfl⟩
abbrev main_v228 : Ref sig .tc := ⟨.hbm, 405, rfl⟩
abbrev main_v229 : Ref sig .tc := ⟨.hbm, 406, rfl⟩
abbrev main_v230 : Ref sig .tc := ⟨.hbm, 407, rfl⟩
abbrev main_v231 : Ref sig .tc := ⟨.hbm, 408, rfl⟩
abbrev main_v232 : Ref sig .tc := ⟨.hbm, 409, rfl⟩
abbrev main_v233 : Ref sig .tc := ⟨.hbm, 410, rfl⟩
abbrev main_v234 : Ref sig .tc := ⟨.hbm, 411, rfl⟩

abbrev nD : Nat := 1
abbrev τ : Topo := Topo.v7x

variable {F : FTy → Type} [FloatOps F]

class Facts₀ : Prop where
  shapeCasts_S1x50000x128_S50000x128 : S1x50000x128.ShapeCasts S50000x128
  shapeCasts_S1x800000x2_S800000x2 : S1x800000x2.ShapeCasts S800000x2
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S3x256x512_S1x256x512_0_0_0 : S3x256x512.Slices ![0, 0, 0] S1x256x512
  shapeCasts_S1x256x512_S256x512 : S1x256x512.ShapeCasts S256x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S50000x512 : S_.BroadcastsInDim S50000x512 (![] : Fin 0 → Fin S50000x512.rank)
  slices_S3x512x256_S1x512x256_0_0_0 : S3x512x256.Slices ![0, 0, 0] S1x512x256
  shapeCasts_S1x512x256_S512x256 : S1x512x256.ShapeCasts S512x256
  slices_S3x256_S1x256_0_0 : S3x256.Slices ![0, 0] S1x256
  shapeCasts_S1x256_S256 : S1x256.ShapeCasts S256
  reducesTo_S50000x256_S256_d0 : S50000x256.ReducesTo [0] S256
  bcast_S_S256 : S_.BroadcastsInDim S256 (![] : Fin 0 → Fin S256.rank)
  bcast_S_S1x256 : S_.BroadcastsInDim S1x256 (![] : Fin 0 → Fin S1x256.rank)
  slices_S3x256x512_S1x256x512_1_0_0 : S3x256x512.Slices ![1, 0, 0] S1x256x512
  slices_S3x512_S1x512_1_0 : S3x512.Slices ![1, 0] S1x512
  slices_S3x512x256_S1x512x256_1_0_0 : S3x512x256.Slices ![1, 0, 0] S1x512x256
  slices_S3x256_S1x256_1_0 : S3x256.Slices ![1, 0] S1x256
  slices_S3x256x512_S1x256x512_2_0_0 : S3x256x512.Slices ![2, 0, 0] S1x256x512
  slices_S3x512_S1x512_2_0 : S3x512.Slices ![2, 0] S1x512
  slices_S3x512x256_S1x512x256_2_0_0 : S3x512x256.Slices ![2, 0, 0] S1x512x256
  slices_S3x256_S1x256_2_0 : S3x256.Slices ![2, 0] S1x256
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []
  dot_S50000x512_S512x256_S50000x256_1_0_0_1_n_n_wf : DotDims.WF S50000x512 S512x256 S50000x256 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.K.R0.lean ====
/-
  Region 0 of the kernel's @main: the embedding kernel xa = emb·W0 + b0, one grid point per block of 2000 rows.
  At the buffer contents V the region is entered with: each window's block at a point, what the body leaves in the
  output window's buffer (its one whole-block store of the payload of the three loaded blocks), the body's triple, the
  pipeline's proof data and the body obligation, and the invariant at the region's two ends.
-/
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block index
    has not moved, so the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block index
    has not moved, so the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block index
    has not moved, so the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole block -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S2000x256 := Rect.unit (s := S2000x256) ![0, 0] S2000x256.size inb_S2000x256_S2000x256_0_0

/-! ## What the body leaves in the output window's buffer -/

/-- Window 3's staging buffer after the body, from the input windows' blocks: its one store, of the payload
    computed from the loaded blocks. -/
def out0_3 (xa : Vec F S2000x128 .f32) (xb : Vec F S128x256 .f32) (xc : Vec F S1x256 .f32) : Vec F S2000x256 .f32 :=
  View.canon [⟨r0_3, k0_pay1 (View.ld xa r0_0) (View.ld xb r0_1) (View.ld xc r0_2)⟩]

/-- The store takes the whole buffer, so it covers it. -/
theorem cover0_3 (pw : Vec F S2000x256 .f32) (y : S2000x256.Idx) :
    ∃ pc ∈ ([⟨r0_3, pw⟩] : List (View.Piece (Elt F) S2000x256 .f32)), y ∈ pc.1.set :=
  View.cover_of_tiled [⟨r0_3, pw⟩] S2000x256.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (ma : Memref sig .tc .vmem S2000x128 .f32) (hma : ma.IsWhole) (mb : Memref sig .tc .vmem S128x256 .f32) (hmb : mb.IsWhole) (mc : Memref sig .tc .vmem S1x256 .f32) (hmc : mc.IsWhole) (md : Memref sig .tc .vmem S2000x256 .f32) (hmd : md.IsWhole)
    (xa : Vec F S2000x128 .f32) (xb : Vec F S128x256 .f32) (xc : Vec F S1x256 .f32) (K : PUnit → sProp 𝕄) :
    iprop(owns (c : Thread nD τ) ma fullShare xa ∗ owns (c : Thread nD τ) mb fullShare xb ∗ owns (c : Thread nD τ) mc fullShare xc ∗ (∃ d, owns (c : Thread nD τ) md fullShare d)
        ∗ (iprop(owns (c : Thread nD τ) ma fullShare xa ∗ owns (c : Thread nD τ) mb fullShare xb ∗ owns (c : Thread nD τ) mc fullShare xc ∗ owns (c : Thread nD τ) md fullShare (out0_3 xa xb xc)) -∗ K ⟨⟩))
      ⊢ wp frame (wpE (defs₀ (F := F)) Variants.none c none) E (cc0__embed_kernel i ma hma mb hmb mc hmc md hmd) K := by
  simp only [cc0__embed_kernel_eq_skeleton]; unfold cc0__embed_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    holds the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Every window is held at the full share, and the body owes nothing at any point. -/
theorem q_eq0 (c : Dev nD) : ∀ w, (dat0 V c).q w = fullShare := fun _ => rfl
theorem owed_eq0 (c : Dev nD) : ∀ t, (dat0 V c).owed t = 0 := fun _ => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%da, Ha⟩, ⟨%db, Hb⟩, ⟨%dc, Hc⟩, ⟨%dd, Hd⟩⟩
  iapply (sound_kernel0 c Set.univ (grid0.coords t) _ _ _ _ _ _ _ _ (iblk0 V c 0 t) (iblk0 V c 1 t) (iblk0 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The invariant at the first point, from the generator register at some state, the (empty) prefetched tables and the
    scoped buffers no window stages. -/
theorem hin0 (c : Dev nD) :
    (iprop((∃ r, prngReg c r) ∗ Pipeline.prefHeld (pcfgs (F := F) 0).pre c (fun _ => fullShare) (((cfgs 0).toPCfg_adm).1)
      ∗ Pipeline.scopedRest spec0 c) : sProp 𝕄) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- The invariant at the last point gives back the generator register, no semaphore of the kernel's own, and those
    scoped buffers. -/
theorem hout0 (c : Dev nD) :
    (dat0 V c).Φ (Fin.last cfg0.N) ⊢ (iprop((∃ r, prngReg c r) ∗ Pipeline.ownSems0 (fun k : PEmpty => k.elim) c
      ∗ Pipeline.scopedRest spec0 c) : sProp 𝕄) := by
  rw [Pipeline.ownSems0_none, show (dat0 V c).Φ (Fin.last _) = Pipeline.ΦA spec0 c from rfl]; unfold Pipeline.ΦA
  iintro ⟨Hr, Hp⟩
  isplitl [Hp]; · iexact Hp
  isplitr; · iempintro
  iexact Hr

end Cert.Kernel.Hand

end
-- ==== Proof.K.R1.lean ====
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the first linear layer with its column statistics

The body at a grid point reads a block of rows of the two summands, the weight matrix and the bias row, stores the
block of the affine image, and adds the block's column sums and column sums of squares to two running rows kept in
scratch memory: zeroed at the first point, copied to the two statistics outputs at the last point. -/

/-- The zero offsets of a whole-buffer access, as a constant function. -/
theorem k1_hz : (![0, 0] : Fin 2 → Nat) = fun _ => 0 := funext fun a => by fin_cases a <;> rfl

/-- A buffer read after a list of stores whose LAST one overwrote the whole buffer holds that store's payload. -/
theorem k1_read_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole-buffer load made after such a list of stores reads the last store's payload. -/
theorem k1_readCov_store {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The first conditional is taken at the grid's first point: there the running rows are zeroed. -/
abbrev k1_c1 (i : grid1.Coords) : Prop := (Scalar.cmpi .ne (Scalar.extui (Scalar.cmpi .eq (BitVec.ofNat 32 (i 0).val) 0#32)) 0#32) = 1#1
/-- The second at the last point: there the running rows are copied out. -/
abbrev k1_c2 (i : grid1.Coords) : Prop := k1_cond2 i = 1#1

theorem k1_hc1 : ∀ t : Fin cfg1.N, k1_c1 (grid1.coords t) ↔ t.val = 0 :=
  (by decide +kernel : ∀ t : Fin grid1.N, k1_c1 (grid1.coords t) ↔ t.val = 0)
theorem k1_hc2 : ∀ t : Fin cfg1.N, k1_c2 (grid1.coords t) ↔ t.val = 24 :=
  (by decide +kernel : ∀ t : Fin grid1.N, k1_c2 (grid1.coords t) ↔ t.val = 24)

/-- The inputs and the first output are live at every point; the two statistics outputs only at the last. -/
theorem k1_live_0 : ∀ t : Fin cfg1.N, cfg1.idle 0 (grid1.coords t) = false := by decide +kernel
theorem k1_live_1 : ∀ t : Fin cfg1.N, cfg1.idle 1 (grid1.coords t) = false := by decide +kernel
theorem k1_live_2 : ∀ t : Fin cfg1.N, cfg1.idle 2 (grid1.coords t) = false := by decide +kernel
theorem k1_live_3 : ∀ t : Fin cfg1.N, cfg1.idle 3 (grid1.coords t) = false := by decide +kernel
theorem k1_live_4 : ∀ t : Fin cfg1.N, cfg1.idle 4 (grid1.coords t) = false := by decide +kernel
theorem k1_idle_5 : ∀ t : Fin cfg1.N, t.val ≠ 24 → cfg1.idle 5 (grid1.coords t) = true := by decide +kernel
theorem k1_noflush_5 : ∀ t : Fin cfg1.N, t.val ≠ 24 → (cfg1.win 5).flush t = false := by decide +kernel
theorem k1_last_5 : ∀ t : Fin cfg1.N, t.val = 24 → cfg1.idle 5 (grid1.coords t) = false := by decide +kernel
theorem k1_idle_6 : ∀ t : Fin cfg1.N, t.val ≠ 24 → cfg1.idle 6 (grid1.coords t) = true := by decide +kernel
theorem k1_noflush_6 : ∀ t : Fin cfg1.N, t.val ≠ 24 → (cfg1.win 6).flush t = false := by decide +kernel
theorem k1_last_6 : ∀ t : Fin cfg1.N, t.val = 24 → cfg1.idle 6 (grid1.coords t) = false := by decide +kernel

/-- The two scratch rows, as whole memrefs. -/
abbrev k1_sc0 : Memref sig .tc .vmem S1x512 .f32 := Memref.whole cc1_scratch0
abbrev k1_sc1 : Memref sig .tc .vmem S1x512 .f32 := Memref.whole cc1_scratch1

/-! ## The body's triple, one per control case

On whole staging memrefs: the inputs at their contents, the first output at anything, the two statistics outputs handed
back untouched (or, at the last point, overwritten), the two scratch rows at what the point before left. -/

set_option maxHeartbeats 4000000 in
/-- At the first point: the running rows are zeroed, then this block's column sums are added. -/
theorem k1_runA (c : Dev nD) (i : grid1.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : k1_c1 i) (hc2 : ¬ k1_c2 i)
    (x0 : Vec F S2000x256 .f32) (x1 : Vec F S2000x256 .f32) (x2 : Vec F S256x512 .f32) (x3 : Vec F S1x512 .f32)
    (xi5 : Vec F S1x512 .f32) (xi6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay3 x0 x1 x2 x3)
            ∗ owns (c : Thread nD τ) arg6 fullShare xi5 ∗ owns (c : Thread nD τ) arg7 fullShare xi6
            ∗ owns (c : Thread nD τ) arg8 fullShare (k1_pay4 x0 x1 x2 x3 (k1_pay1 (F := F)))
            ∗ owns (c : Thread nD τ) arg9 fullShare (k1_pay5 x0 x1 x2 x3 (k1_pay2 (F := F)))) -∗ K ⟨⟩))
      ⊢ wp frame (wpE (defs₀ (F := F)) Variants.none c none) E
          (cc1__lin1_stats_kernel i arg1 harg1 arg2 harg2 arg3 harg3 arg4 harg4 arg5 harg5 arg6 harg6 arg7 harg7 arg8 harg8 arg9 harg9) K := by
  simp only [cc1__lin1_stats_kernel_eq_skeleton]; unfold cc1__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  iexists _; isplitr
  swap; · iexact H8
  ipureintro
  sl_unfold_words
  refine (k1_read_store _ _ k1_hz _ _ _).trans ?_
  simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]

set_option maxHeartbeats 4000000 in
/-- At a point between: this block's column sums are added to the running rows. -/
theorem k1_runB (c : Dev nD) (i : grid1.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k1_c1 i) (hc2 : ¬ k1_c2 i)
    (x0 : Vec F S2000x256 .f32) (x1 : Vec F S2000x256 .f32) (x2 : Vec F S256x512 .f32) (x3 : Vec F S1x512 .f32)
    (xi5 : Vec F S1x512 .f32) (xi6 : Vec F S1x512 .f32) (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay3 x0 x1 x2 x3)
            ∗ owns (c : Thread nD τ) arg6 fullShare xi5 ∗ owns (c : Thread nD τ) arg7 fullShare xi6
            ∗ owns (c : Thread nD τ) arg8 fullShare (k1_pay4 x0 x1 x2 x3 xs0)
            ∗ owns (c : Thread nD τ) arg9 fullShare (k1_pay5 x0 x1 x2 x3 xs1)) -∗ K ⟨⟩))
      ⊢ wp frame (wpE (defs₀ (F := F)) Variants.none c none) E
          (cc1__lin1_stats_kernel i arg1 harg1 arg2 harg2 arg3 harg3 arg4 harg4 arg5 harg5 arg6 harg6 arg7 harg7 arg8 harg8 arg9 harg9) K := by
  simp only [cc1__lin1_stats_kernel_eq_skeleton]; unfold cc1__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  iexists _; isplitr
  swap; · iexact H8
  ipureintro
  sl_unfold_words
  refine (k1_read_store _ _ k1_hz _ _ _).trans ?_
  simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]

set_option maxHeartbeats 4000000 in
/-- At the last point: the same, and the two running rows are then copied to the statistics outputs. -/
theorem k1_runC (c : Dev nD) (i : grid1.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k1_c1 i) (hc2 : k1_c2 i)
    (x0 : Vec F S2000x256 .f32) (x1 : Vec F S2000x256 .f32) (x2 : Vec F S256x512 .f32) (x3 : Vec F S1x512 .f32)
    (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay3 x0 x1 x2 x3)
            ∗ owns (c : Thread nD τ) arg6 fullShare (k1_pay4 x0 x1 x2 x3 xs0) ∗ owns (c : Thread nD τ) arg7 fullShare (k1_pay5 x0 x1 x2 x3 xs1)
            ∗ owns (c : Thread nD τ) arg8 fullShare (k1_pay4 x0 x1 x2 x3 xs0)
            ∗ owns (c : Thread nD τ) arg9 fullShare (k1_pay5 x0 x1 x2 x3 xs1)) -∗ K ⟨⟩))
      ⊢ wp frame (wpE (defs₀ (F := F)) Variants.none c none) E
          (cc1__lin1_stats_kernel i arg1 harg1 arg2 harg2 arg3 harg3 arg4 harg4 arg5 harg5 arg6 harg6 arg7 harg7 arg8 harg8 arg9 harg9) K := by
  simp only [cc1__lin1_stats_kernel_eq_skeleton]; unfold cc1__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H5]
  · iexists _; isplitr
    swap; · iexact H5
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H6]
  · iexists _; isplitr
    swap; · iexact H6
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H7]
  · iexists _; isplitr
    swap; · iexact H7
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  iexists _; isplitr
  swap; · iexact H8
  ipureintro
  sl_unfold_words
  refine (k1_read_store _ _ k1_hz _ _ _).trans ?_
  simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]

/-! ## The running rows, point by point -/

/-- One point's step on the two running rows: the block's column sums and column sums of squares added. -/
def k1_step (c : Dev nD) (t : Fin cfg1.N) (a : Vec F S1x512 .f32 × Vec F S1x512 .f32) : Vec F S1x512 .f32 × Vec F S1x512 .f32 :=
  (k1_pay4 (iblk1 V c 0 t) (iblk1 V c 1 t) (iblk1 V c 2 t) (iblk1 V c 3 t) a.1, k1_pay5 (iblk1 V c 0 t) (iblk1 V c 1 t) (iblk1 V c 2 t) (iblk1 V c 3 t) a.2)

/-- The first point, as a point of the grid. -/
abbrev k1_t0 : Fin cfg1.N := ⟨0, by rw [show cfg1.N = 25 from N_1]; decide⟩

/-- The two running rows after point `n`: from the zero rows, one step per point. -/
def k1_acc (c : Dev nD) : ℕ → Vec F S1x512 .f32 × Vec F S1x512 .f32
  | 0 => k1_step V c k1_t0 (k1_pay1 (F := F), k1_pay2 (F := F))
  | n + 1 => if h : n + 1 < cfg1.N then k1_step V c ⟨n + 1, h⟩ (k1_acc c n) else k1_acc c n

theorem k1_acc_zero (c : Dev nD) : k1_acc V c 0 = k1_step V c k1_t0 (k1_pay1 (F := F), k1_pay2 (F := F)) := rfl

theorem k1_acc_succ (c : Dev nD) (n : ℕ) (h : n + 1 < cfg1.N) : k1_acc V c (n + 1) = k1_step V c ⟨n + 1, h⟩ (k1_acc V c n) := by
  rw [k1_acc]; exact dif_pos h

/-- At the first point of the grid. -/
theorem k1_acc_first (c : Dev nD) (t : Fin cfg1.N) (h : t.val = 0) : k1_acc V c t.val = k1_step V c t (k1_pay1 (F := F), k1_pay2 (F := F)) := by
  obtain ⟨n, hn⟩ := t
  obtain rfl : n = 0 := h
  rfl

/-- At a later point. -/
theorem k1_acc_later (c : Dev nD) (t : Fin cfg1.N) (h : t.val ≠ 0) : k1_acc V c t.val = k1_step V c t (k1_acc V c (t.val - 1)) := by
  obtain ⟨n, hn⟩ := t
  cases n with
  | zero => exact absurd rfl h
  | succ n => exact k1_acc_succ V c n hn

/-- The region's invariant before point `n`: before the first point the two scratch rows hold anything; afterwards what
    the point before left; beside them the other scoped buffers, unopened, and the generator register at some state. -/
def k1_Phi (c : Dev nD) : ℕ → sProp 𝕄
  | 0 => iprop((∃ d, owns (c : Thread nD τ) k1_sc0 fullShare d) ∗ (∃ d, owns (c : Thread nD τ) k1_sc1 fullShare d)
      ∗ Pipeline.scopedRestBut (Ix := Unit) (Name := ℕ) (U := UR sig nD τ) (Lvl := ℕ) (Val := Elt F) spec1 c [cc1_scratch0, cc1_scratch1] ∗ ∃ r, prngReg c r)
  | n + 1 => iprop(owns (c : Thread nD τ) k1_sc0 fullShare (k1_acc V c n).1 ∗ owns (c : Thread nD τ) k1_sc1 fullShare (k1_acc V c n).2
      ∗ Pipeline.scopedRestBut (Ix := Unit) (Name := ℕ) (U := UR sig nD τ) (Lvl := ℕ) (Val := Elt F) spec1 c [cc1_scratch0, cc1_scratch1] ∗ ∃ r, prngReg c r)

theorem k1_Phi_zero (c : Dev nD) (n : ℕ) (h : n = 0) : k1_Phi V c n
    = iprop((∃ d, owns (c : Thread nD τ) k1_sc0 fullShare d) ∗ (∃ d, owns (c : Thread nD τ) k1_sc1 fullShare d)
      ∗ Pipeline.scopedRestBut (Ix := Unit) (Name := ℕ) (U := UR sig nD τ) (Lvl := ℕ) (Val := Elt F) spec1 c [cc1_scratch0, cc1_scratch1] ∗ ∃ r, prngReg c r) := by
  subst h; rfl

theorem k1_Phi_succ (c : Dev nD) (n : ℕ) : k1_Phi V c (n + 1)
    = iprop(owns (c : Thread nD τ) k1_sc0 fullShare (k1_acc V c n).1 ∗ owns (c : Thread nD τ) k1_sc1 fullShare (k1_acc V c n).2
      ∗ Pipeline.scopedRestBut (Ix := Unit) (Name := ℕ) (U := UR sig nD τ) (Lvl := ℕ) (Val := Elt F) spec1 c [cc1_scratch0, cc1_scratch1] ∗ ∃ r, prngReg c r) := rfl

theorem k1_Phi_pos (c : Dev nD) (n : ℕ) (h : n ≠ 0) : k1_Phi V c n
    = iprop(owns (c : Thread nD τ) k1_sc0 fullShare (k1_acc V c (n - 1)).1 ∗ owns (c : Thread nD τ) k1_sc1 fullShare (k1_acc V c (n - 1)).2
      ∗ Pipeline.scopedRestBut (Ix := Unit) (Name := ℕ) (U := UR sig nD τ) (Lvl := ℕ) (Val := Elt F) spec1 c [cc1_scratch0, cc1_scratch1] ∗ ∃ r, prngReg c r) := by
  cases n with
  | zero => exact absurd rfl h
  | succ n => rfl

/-! ## The pipeline's proof data -/

/-- The proof data of the region on core `c`: the arrays as the region finds them; after the body at point `t` each
    input's buffer at its block, the first output's at the affine image of the blocks, the statistics outputs' at the
    running rows (consulted at the last point only); the invariant `k1_Phi`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 0 t) (iblk1 V c 1 t) (iblk1 V c 2 t) (iblk1 V c 3 t)
    | ⟨5, _⟩ => (k1_acc V c t.val).1
    | ⟨6, _⟩ => (k1_acc V c t.val).2
  Φ t := k1_Phi V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (iblk1 V c 0 t) (iblk1 V c 1 t) (iblk1 V c 2 t) (iblk1 V c 3 t) := by dsimp only [dat1]
theorem after1_5 (c : Dev nD) (t : Fin cfg1.N) : (dat1 V c).after 5 t = (k1_acc V c t.val).1 := by dsimp only [dat1]
theorem after1_6 (c : Dev nD) (t : Fin cfg1.N) : (dat1 V c).after 6 t = (k1_acc V c t.val).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem k1_Phi_at (c : Dev nD) (t : Fin cfg1.N) : (dat1 V c).Φ t.castSucc = k1_Phi V c t.val := by
  dsimp only [dat1]; simp only [Fin.coe_castSucc]

/-! ## The body obligation -/

/-- What the body is called with at point `t`, the windows one by one, -/
def k1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def k1_bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem k1_leaves_0 (c : Dev nD) (t : Fin cfg1.N) :
    (dat1 V c).leavesExact 0 t = owns (c : Thread nD τ) (st1_0 t) fullShare ((dat1 V c).after 0 t) := by
  unfold Dat.leavesExact; rw [k1_live_0 t]
theorem k1_leaves_1 (c : Dev nD) (t : Fin cfg1.N) :
    (dat1 V c).leavesExact 1 t = owns (c : Thread nD τ) (st1_1 t) fullShare ((dat1 V c).after 1 t) := by
  unfold Dat.leavesExact; rw [k1_live_1 t]
theorem k1_leaves_2 (c : Dev nD) (t : Fin cfg1.N) :
    (dat1 V c).leavesExact 2 t = owns (c : Thread nD τ) (st1_2 t) fullShare ((dat1 V c).after 2 t) := by
  unfold Dat.leavesExact; rw [k1_live_2 t]
theorem k1_leaves_3 (c : Dev nD) (t : Fin cfg1.N) :
    (dat1 V c).leavesExact 3 t = owns (c : Thread nD τ) (st1_3 t) fullShare ((dat1 V c).after 3 t) := by
  unfold Dat.leavesExact; rw [k1_live_3 t]
theorem k1_leaves_4 (c : Dev nD) (t : Fin cfg1.N) :
    (dat1 V c).leavesExact 4 t = owns (c : Thread nD τ) (st1_4 t) fullShare ((dat1 V c).after 4 t) := by
  unfold Dat.leavesExact; rw [k1_live_4 t]
theorem k1_leaves_5 (c : Dev nD) (t : Fin cfg1.N) (h : t.val = 24) :
    (dat1 V c).leavesExact 5 t = owns (c : Thread nD τ) (st1_5 t) fullShare ((dat1 V c).after 5 t) := by
  unfold Dat.leavesExact; rw [k1_last_5 t h]
theorem k1_leaves_6 (c : Dev nD) (t : Fin cfg1.N) (h : t.val = 24) :
    (dat1 V c).leavesExact 6 t = owns (c : Thread nD τ) (st1_6 t) fullShare ((dat1 V c).after 6 t) := by
  unfold Dat.leavesExact; rw [k1_last_6 t h]

set_option maxHeartbeats 4000000 in
/-- The body at any point: the inputs' memrefs hold their blocks; the point's position selects the case; the invariant
    hands the body the two scratch rows at what the point before left (at anything at the first point) and takes them
    back at this point's; a statistics output is handed back untouched at every point but the last. -/
theorem k1_sound_body (c : Dev nD) (t : Fin cfg1.N) :
    k1_bodyPre V c t ⊢ wp frame (wpE (defs₀ (F := F)) Variants.none c none) Set.univ (bodyAt1 t) (fun _ => k1_bodyPost V c t) := by
  unfold k1_bodyPre k1_bodyPost bodyAt1
  simp only [before1_0, before1_1, before1_2, before1_3]
  rw [show (dat1 V c).owesAt () t.succ = (dat1 V c).owesAt () t.castSucc from rfl]
  rw [show (dat1 V c).Φ t.succ = k1_Phi V c (t.val + 1) from rfl, k1_Phi_succ, k1_Phi_at]
  rw [k1_leaves_0, k1_leaves_1, k1_leaves_2, k1_leaves_3, k1_leaves_4, after1_0, after1_1, after1_2, after1_3, after1_4]
  have hN : t.val < 25 := lt_of_lt_of_eq t.isLt N_1
  by_cases h0 : t.val = 0
  · have h24 : t.val ≠ 24 := by omega
    rw [Dat.leavesExact_idle (dat1 V c) 5 t (k1_idle_5 t h24) (k1_noflush_5 t h24),
      Dat.leavesExact_idle (dat1 V c) 6 t (k1_idle_6 t h24) (k1_noflush_6 t h24)]
    rw [k1_acc_first V c t h0, k1_Phi_zero V c _ h0]
    unfold k1_step; dsimp only
    iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
    iapply (k1_runA c (grid1.coords t) Set.univ _ _ _ _ _ _ _ _ _ _ _ _ _ _ _ _ _ _ ((k1_hc1 t).mpr h0) (fun h => h24 ((k1_hc2 t).mp h))
        (iblk1 V c 0 t) (iblk1 V c 1 t) (iblk1 V c 2 t) (iblk1 V c 3 t) ((dat1 V c).before 5 t d5) ((dat1 V c).before 6 t d6) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h24 : t.val = 24
    · rw [k1_leaves_5 V c t h24, k1_leaves_6 V c t h24, after1_5, after1_6]
      rw [k1_acc_later V c t h0, k1_Phi_pos V c _ h0]
      unfold k1_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k1_runC c (grid1.coords t) Set.univ _ _ _ _ _ _ _ _ _ _ _ _ _ _ _ _ _ _ (fun h => h0 ((k1_hc1 t).mp h)) ((k1_hc2 t).mpr h24)
          (iblk1 V c 0 t) (iblk1 V c 1 t) (iblk1 V c 2 t) (iblk1 V c 3 t) (k1_acc V c (t.val - 1)).1 (k1_acc V c (t.val - 1)).2 _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 5 t (k1_idle_5 t h24) (k1_noflush_5 t h24),
        Dat.leavesExact_idle (dat1 V c) 6 t (k1_idle_6 t h24) (k1_noflush_6 t h24)]
      rw [k1_acc_later V c t h0, k1_Phi_pos V c _ h0]
      unfold k1_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k1_runB c (grid1.coords t) Set.univ _ _ _ _ _ _ _ _ _ _ _ _ _ _ _ _ _ _ (fun h => h0 ((k1_hc1 t).mp h)) (fun h => h24 ((k1_hc2 t).mp h))
          (iblk1 V c 0 t) (iblk1 V c 1 t) (iblk1 V c 2 t) (iblk1 V c 3 t) ((dat1 V c).before 5 t d5) ((dat1 V c).before 6 t d6) (k1_acc V c (t.val - 1)).1 (k1_acc V c (t.val - 1)).2 _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact k1_sound_body V c t

theorem q_eq1 (c : Dev nD) : ∀ w, (dat1 V c).q w = fullShare := fun _ => rfl
theorem owed_eq1 (c : Dev nD) : ∀ t, (dat1 V c).owed t = 0 := fun _ => rfl

/-! ## Into the invariant and out of it -/

/-- What the launch hands the region — the generator register and every scoped buffer no window stages — is the
    invariant before the first point: the two scratch rows are split out, at whatever they hold. -/
theorem hin1 (c : Dev nD) :
    (iprop((∃ r, prngReg c r) ∗ Pipeline.prefHeld (pcfgs (F := F) 1).pre c (fun _ => fullShare) (((cfgs 1).toPCfg_adm).1)
      ∗ Pipeline.scopedRest spec1 c) : sProp 𝕄) ⊢ (dat1 V c).Φ 0 := by
  rw [show (dat1 V c).Φ 0 = k1_Phi V c 0 from rfl, k1_Phi_zero V c 0 rfl, scopedRest1_split]
  simp only [k1_sc0, k1_sc1, owns_whole]
  iintro ⟨Hp, -, ⟨⟨HS0, HS1⟩, Hrest⟩⟩
  isplitl [HS0]; · iexact HS0
  isplitl [HS1]; · iexact HS1
  isplitl [Hrest]; · iexact Hrest
  iexact Hp

/-- After the last point the invariant gives them back: what the scratch rows then hold is forgotten. -/
theorem hout1 (c : Dev nD) :
    (dat1 V c).Φ (Fin.last cfg1.N) ⊢ (iprop((∃ r, prngReg c r) ∗ Pipeline.ownSems0 (fun k : PEmpty => k.elim) c
      ∗ Pipeline.scopedRest spec1 c) : sProp 𝕄) := by
  rw [Pipeline.ownSems0_none, show (dat1 V c).Φ (Fin.last cfg1.N) = k1_Phi V c (24 + 1) from rfl, k1_Phi_succ, scopedRest1_split]
  simp only [k1_sc0, k1_sc1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.Kernel.Hand

end
-- ==== Proof.K.R2.lean ====
/-
  Region 2 of the program: the second linear layer of a GIN block with its batch statistics, one grid of 25 points
  over blocks of 2000 rows.

  At each point the body normalises the block of the first layer's output with the batch mean and variance,
  rectifies it, multiplies by the second weights, adds the bias and the residual block, and stores the result as
  the block of the layer's output. Two scratch rows carry the column sums of that output and of its squares from
  point to point: the first point zeroes them, every point adds its block's column sums, and the last point copies
  them into the two statistics outputs, which no other point touches.

  This module states what each buffer holds after each point (the output block from the input blocks; the scratch
  rows by recursion on the point), proves the body's triple in each of its three cases (first point, a middle
  point, last point), and from them the body obligation of the pipeline's proof data, with the invariant carrying
  the scratch rows at the accumulated sums.
-/
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the second linear layer with batch statistics, at the entry contents `V` -/

/-! ## The body's branch conditions -/

/-- The body's first conditional: the grid coordinate is 0. -/
abbrev dat2_c0 (i : grid2.Coords) : Prop := (Scalar.cmpi .ne (Scalar.extui (Scalar.cmpi .eq (BitVec.ofNat 32 (i 0).val) 0#32)) 0#32) = 1#1
theorem dat2_hc0 : ∀ t : Fin cfg2.N, dat2_c0 (grid2.coords t) ↔ t.val = 0 :=
  (by decide +kernel : ∀ t : Fin grid2.N, dat2_c0 (grid2.coords t) ↔ t.val = 0)
/-- The body's second conditional: the grid coordinate is 24, the last. -/
abbrev dat2_c1 (i : grid2.Coords) : Prop := k2_cond2 i = 1#1
theorem dat2_hc1 : ∀ t : Fin cfg2.N, dat2_c1 (grid2.coords t) ↔ t.val = 24 :=
  (by decide +kernel : ∀ t : Fin grid2.N, dat2_c1 (grid2.coords t) ↔ t.val = 24)
theorem dat2_N : cfg2.N = 25 := by decide

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

abbrev dat2_rH : Rect S2000x512 := Rect.unit (s := S2000x512) ![0, 0] S2000x512.size inb_S2000x512_S2000x512_0_0
abbrev dat2_rR : Rect S1x512 := Rect.unit (s := S1x512) ![0, 0] S1x512.size inb_S1x512_S1x512_0_0
abbrev dat2_rX : Rect S2000x256 := Rect.unit (s := S2000x256) ![0, 0] S2000x256.size inb_S2000x256_S2000x256_0_0
abbrev dat2_rW : Rect S512x256 := Rect.unit (s := S512x256) ![0, 0] S512x256.size inb_S512x256_S512x256_0_0
abbrev dat2_rS : Rect S1x256 := Rect.unit (s := S1x256) ![0, 0] S1x256.size inb_S1x256_S1x256_0_0

/-- A whole-buffer rectangle holds every index of its shape (its one block tiles the shape). -/
theorem dat2_coverX (p0 : Vec F S2000x256 .f32) (y : S2000x256.Idx) : ∃ pc ∈ ([⟨dat2_rX, p0⟩] : List (View.Piece (Elt F) S2000x256 .f32)), y ∈ pc.1.set :=
  View.cover_of_tiled [⟨dat2_rX, p0⟩] S2000x256.size (by rfl) y
theorem dat2_coverS (p0 : Vec F S1x256 .f32) (y : S1x256.Idx) : ∃ pc ∈ ([⟨dat2_rS, p0⟩] : List (View.Piece (Elt F) S1x256 .f32)), y ∈ pc.1.set :=
  View.cover_of_tiled [⟨dat2_rS, p0⟩] S1x256.size (by rfl) y
theorem dat2_memX (y : S2000x256.Idx) : y ∈ dat2_rX.set := by
  obtain ⟨pc, hpc, hy⟩ := View.cover_of_tiled ([⟨dat2_rX, fun _ => ()⟩] : List (View.Piece (fun _ => Unit) S2000x256 .f32)) S2000x256.size (by rfl) y
  rw [List.mem_singleton] at hpc; subst hpc; exact hy
theorem dat2_memS (y : S1x256.Idx) : y ∈ dat2_rS.set := by
  obtain ⟨pc, hpc, hy⟩ := View.cover_of_tiled ([⟨dat2_rS, fun _ => ()⟩] : List (View.Piece (fun _ => Unit) S1x256 .f32)) S1x256.size (by rfl) y
  rw [List.mem_singleton] at hpc; subst hpc; exact hy

/-- What a store through a rectangle holding every index leaves, whatever the buffer held and whatever
    earlier stores wrote: its payload, as the one-piece canonical contents. -/
theorem dat2_read_whole {κ : Kind} {sp : Space} {s : Shape} {e : EltTy} (v : View sig κ sp s e) (f : v.ty.Contents (Elt F)) (r : Rect s)
    (hr : ∀ y : s.Idx, y ∈ r.set) (w w' : r.shape.Idx → Elt F e) (L : List (View.Piece (Elt F) s e)) (h : w = w') :
    v.read (Elt F) (v.writes (Elt F) f (⟨r, w⟩ :: L)) = View.canon [⟨r, w'⟩] := by
  subst h
  funext y
  obtain ⟨x, rfl⟩ : ∃ x, r.emb x = y := r.exists_idx_of_mem (hr y)
  rw [View.read_writes_cons_emb, View.canon_cons_emb]

/-! ## What the body leaves in the output windows' buffers and in the two scratch rows -/

/-- The normalised, rectified first layer times the second weights plus the bias (`%34`), of the input blocks. -/
def dat2_v34 (x0 : Vec F S2000x512 .f32) (x1 : Vec F S1x512 .f32) (x2 : Vec F S1x512 .f32) (x3 : Vec F S1x512 .f32) (x4 : Vec F S1x512 .f32) (x6 : Vec F S512x256 .f32) (x7 : Vec F S1x256 .f32) : FVec F S2000x256 .f32 :=
  k2_pay6 (View.ld x2 dat2_rR) (View.ld x3 dat2_rR) (View.ld x0 dat2_rH) (View.ld x1 dat2_rR) (View.ld x4 dat2_rR) (View.ld x6 dat2_rW) (View.ld x7 dat2_rS)
/-- The residual operand (`%36`). -/
def dat2_v36 (x5 : Vec F S2000x256 .f32) : FVec F S2000x256 .f32 := k2_pay7 (View.ld x5 dat2_rX)
/-- Output window 8's buffer after the body: the block of the layer's output (`%37`). -/
def dat2_o8 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) : Vec F S2000x256 .f32 :=
  View.canon [⟨dat2_rX, k2_pay1 (dat2_v34 x0 x1 x2 x3 x4 x6 x7) (dat2_v36 x5)⟩]
/-- The first scratch row after the body, from what it held (`a`): the block's column sums added. -/
def dat2_s0 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat2_rS, k2_pay2 (dat2_v34 x0 x1 x2 x3 x4 x6 x7) (dat2_v36 x5) (View.ld a dat2_rS)⟩]
/-- The second scratch row after the body, from what it held: the block's column sums of squares added. -/
def dat2_s1 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat2_rS, k2_pay3 (dat2_v34 x0 x1 x2 x3 x4 x6 x7) (dat2_v36 x5) (View.ld a dat2_rS)⟩]
/-- The scratch rows as the first point zeroes them. -/
def dat2_z0 : Vec F S1x256 .f32 := View.canon [⟨dat2_rS, k2_pay4 (F := F)⟩]
def dat2_z1 : Vec F S1x256 .f32 := View.canon [⟨dat2_rS, k2_pay5 (F := F)⟩]
/-- A statistics window's buffer after the last point: the scratch row copied. -/
def dat2_o9 (a : Vec F S1x256 .f32) : Vec F S1x256 .f32 := View.canon [⟨dat2_rS, View.ld a dat2_rS⟩]

set_option maxHeartbeats 4000000 in
/-- The body at a point that is neither the first nor the last (no conditional taken): from the inputs' buffers at
    their contents and the scratch rows at `a0`, `a1`, it leaves the inputs as they were, window 8 at the
    layer's output block, and the scratch rows with the block's column sums added. The statistics windows
    are not touched. -/
theorem dat2_runB (c : Dev nD) (E : Set ℕ) (i : grid2.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat2_c0 i) (hc1 : ¬dat2_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat2_o8 x0 x1 x2 x3 x4 x5 x6 x7) ∗ owns (c : Thread nD τ) arg12 fullShare (dat2_s0 x0 x1 x2 x3 x4 x5 x6 x7 a0) ∗ owns (c : Thread nD τ) arg13 fullShare (dat2_s1 x0 x1 x2 x3 x4 x5 x6 x7 a1)) -∗ K ⟨⟩))
      ⊢ wp frame (wpE (defs₀ (F := F)) Variants.none c none) E (cc2__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc2__lin2_stats_kernel_eq_skeleton]; unfold cc2__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat2_read_whole _ _ _ dat2_memX _ _ _ rfl
  isplitl [HS0]
  · iexists _; isplitr
    swap; · iexact HS0
    ipureintro
    exact dat2_read_whole _ _ _ dat2_memS _ _ _ rfl
  iexists _; isplitr
  swap; · iexact HS1
  ipureintro
  exact dat2_read_whole _ _ _ dat2_memS _ _ _ rfl

set_option maxHeartbeats 4000000 in
/-- The body at the first point (the first conditional taken, the second not): the scratch rows, at anything,
    are zeroed and then take the block's column sums. -/
theorem dat2_runA (c : Dev nD) (E : Set ℕ) (i : grid2.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : dat2_c0 i) (hc1 : ¬dat2_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat2_o8 x0 x1 x2 x3 x4 x5 x6 x7) ∗ owns (c : Thread nD τ) arg12 fullShare (dat2_s0 x0 x1 x2 x3 x4 x5 x6 x7 dat2_z0) ∗ owns (c : Thread nD τ) arg13 fullShare (dat2_s1 x0 x1 x2 x3 x4 x5 x6 x7 dat2_z1)) -∗ K ⟨⟩))
      ⊢ wp frame (wpE (defs₀ (F := F)) Variants.none c none) E (cc2__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc2__lin2_stats_kernel_eq_skeleton]; unfold cc2__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%da0, %fa0, -, HS0⟩, ⟨%da1, %fa1, -, HS1⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat2_read_whole _ _ _ dat2_memX _ _ _ rfl
  isplitl [HS0]
  · iexists _; isplitr
    swap; · iexact HS0
    ipureintro
    exact dat2_read_whole _ _ _ dat2_memS _ _ _
      (congrArg (k2_pay2 _ _) (View.readCov_eq_canon_ld _ _ _ (dat2_coverS _)))
  iexists _; isplitr
  swap; · iexact HS1
  ipureintro
  exact dat2_read_whole _ _ _ dat2_memS _ _ _
    (congrArg (k2_pay3 _ _) (View.readCov_eq_canon_ld _ _ _ (dat2_coverS _)))

set_option maxHeartbeats 4000000 in
/-- The body at the last point (the second conditional taken, the first not): as at a middle point, and then
    the two scratch rows are copied into the statistics windows 9 and 10. -/
theorem dat2_runC (c : Dev nD) (E : Set ℕ) (i : grid2.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat2_c0 i) (hc1 : dat2_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat2_o8 x0 x1 x2 x3 x4 x5 x6 x7) ∗ owns (c : Thread nD τ) arg10 fullShare (dat2_o9 (dat2_s0 x0 x1 x2 x3 x4 x5 x6 x7 a0)) ∗ owns (c : Thread nD τ) arg11 fullShare (dat2_o9 (dat2_s1 x0 x1 x2 x3 x4 x5 x6 x7 a1))
            ∗ owns (c : Thread nD τ) arg12 fullShare (dat2_s0 x0 x1 x2 x3 x4 x5 x6 x7 a0) ∗ owns (c : Thread nD τ) arg13 fullShare (dat2_s1 x0 x1 x2 x3 x4 x5 x6 x7 a1)) -∗ K ⟨⟩))
      ⊢ wp frame (wpE (defs₀ (F := F)) Variants.none c none) E (cc2__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc2__lin2_stats_kernel_eq_skeleton]; unfold cc2__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat2_read_whole _ _ _ dat2_memX _ _ _ rfl
  isplitl [H9]
  · iexists _; isplitr
    swap; · iexact H9
    ipureintro
    exact dat2_read_whole _ _ _ dat2_memS _ _ _
      (View.readCov_eq_canon_ld _ _ _ (dat2_coverS _))
  isplitl [H10]
  · iexists _; isplitr
    swap; · iexact H10
    ipureintro
    exact dat2_read_whole _ _ _ dat2_memS _ _ _
      (View.readCov_eq_canon_ld _ _ _ (dat2_coverS _))
  isplitl [HS0]
  · iexists _; isplitr
    swap; · iexact HS0
    ipureintro
    exact dat2_read_whole _ _ _ dat2_memS _ _ _ rfl
  iexists _; isplitr
  swap; · iexact HS1
  ipureintro
  exact dat2_read_whole _ _ _ dat2_memS _ _ _ rfl

/-! ## The blocks' contributions, point by point -/

/-- Window 8's buffer after the body at point `t`: the output block of the input blocks there. -/
def dat2_O8 (c : Dev nD) (t : Fin cfg2.N) : Vec F S2000x256 .f32 := dat2_o8 (iblk2 V c 0 t) (iblk2 V c 1 t) (iblk2 V c 2 t) (iblk2 V c 3 t) (iblk2 V c 4 t) (iblk2 V c 5 t) (iblk2 V c 6 t) (iblk2 V c 7 t)
/-- The first scratch row after the body at point `t`, from what it held. -/
def dat2_S0 (c : Dev nD) (t : Fin cfg2.N) (a : Vec F S1x256 .f32) : Vec F S1x256 .f32 := dat2_s0 (iblk2 V c 0 t) (iblk2 V c 1 t) (iblk2 V c 2 t) (iblk2 V c 3 t) (iblk2 V c 4 t) (iblk2 V c 5 t) (iblk2 V c 6 t) (iblk2 V c 7 t) a
/-- The second scratch row after the body at point `t`, from what it held. -/
def dat2_S1 (c : Dev nD) (t : Fin cfg2.N) (a : Vec F S1x256 .f32) : Vec F S1x256 .f32 := dat2_s1 (iblk2 V c 0 t) (iblk2 V c 1 t) (iblk2 V c 2 t) (iblk2 V c 3 t) (iblk2 V c 4 t) (iblk2 V c 5 t) (iblk2 V c 6 t) (iblk2 V c 7 t) a

/-- THE ACCUMULATION. What the two scratch rows hold after the body at position `n`: from zero at the first point,
    each point adds its block's column sums (of the values, of their squares) to what the point before left. -/
def dat2_acc (c : Dev nD) : (n : ℕ) → n < cfg2.N → Vec F S1x256 .f32 × Vec F S1x256 .f32
  | 0, hn => (dat2_S0 V c ⟨0, hn⟩ dat2_z0, dat2_S1 V c ⟨0, hn⟩ dat2_z1)
  | n + 1, hn => (dat2_S0 V c ⟨n + 1, hn⟩ (dat2_acc c n (Nat.lt_of_succ_lt hn)).1, dat2_S1 V c ⟨n + 1, hn⟩ (dat2_acc c n (Nat.lt_of_succ_lt hn)).2)

theorem dat2_acc_zero (c : Dev nD) (t : Fin cfg2.N) (h : t.val = 0) :
    dat2_acc V c t.val t.isLt = (dat2_S0 V c t dat2_z0, dat2_S1 V c t dat2_z1) := by
  obtain ⟨n, hn⟩ := t
  cases n with
  | zero => rfl
  | succ n => exact absurd h (Nat.succ_ne_zero n)

theorem dat2_acc_pos (c : Dev nD) (t : Fin cfg2.N) (h : t.val ≠ 0) :
    dat2_acc V c t.val t.isLt = (dat2_S0 V c t (dat2_acc V c (t.val - 1) (Nat.lt_of_le_of_lt (Nat.sub_le _ _) t.isLt)).1,
      dat2_S1 V c t (dat2_acc V c (t.val - 1) (Nat.lt_of_le_of_lt (Nat.sub_le _ _) t.isLt)).2) := by
  obtain ⟨n, hn⟩ := t
  cases n with
  | zero => exact absurd rfl h
  | succ n => rfl

/-! ## The region invariant -/

/-- The scratch rows as memrefs: whole scoped buffers of the kernel's own. -/
abbrev dat2_scM0 : Memref sig .tc .vmem S1x256 .f32 := Memref.whole cc2_scratch0
abbrev dat2_scM1 : Memref sig .tc .vmem S1x256 .f32 := Memref.whole cc2_scratch1

/-- Every other scoped buffer of the core, unopened. -/
abbrev dat2_rest (c : Dev nD) : sProp 𝕄 :=
  Pipeline.scopedRestBut (Ix := Unit) (Name := ℕ) (U := UR sig nD τ) (Lvl := ℕ) (Val := Elt F) spec2 c [cc2_scratch0, cc2_scratch1]

/-- The invariant before position `n`: before the first point every scoped buffer that is no staging buffer at
    anything and the generator register at some state; afterwards the two scratch rows at what the point before
    left (`dat2_acc`), the other scoped buffers unopened, the generator register at some state. -/
def dat2_Phi (c : Dev nD) : (n : ℕ) → n ≤ cfg2.N → sProp 𝕄
  | 0, _ => Pipeline.ΦA spec2 c
  | n + 1, hn => iprop(iprop(iprop(owns (c : Thread nD τ) dat2_scM0 fullShare (dat2_acc V c n hn).1 ∗ owns (c : Thread nD τ) dat2_scM1 fullShare (dat2_acc V c n hn).2) ∗ dat2_rest c) ∗ (∃ r, prngReg c r))

theorem dat2_Phi_zero (c : Dev nD) (n : ℕ) (h : n ≤ cfg2.N) (hz : n = 0) : dat2_Phi V c n h = Pipeline.ΦA spec2 c := by
  subst hz; rfl

theorem dat2_Phi_succ (c : Dev nD) (n : ℕ) (hn : n < cfg2.N) :
    dat2_Phi V c (n + 1) hn = iprop(iprop(iprop(owns (c : Thread nD τ) dat2_scM0 fullShare (dat2_acc V c n hn).1 ∗ owns (c : Thread nD τ) dat2_scM1 fullShare (dat2_acc V c n hn).2) ∗ dat2_rest c) ∗ (∃ r, prngReg c r)) := rfl

theorem dat2_Phi_pos (c : Dev nD) (n : ℕ) (h : n ≤ cfg2.N) (hz : n ≠ 0) :
    dat2_Phi V c n h = iprop(iprop(iprop(owns (c : Thread nD τ) dat2_scM0 fullShare (dat2_acc V c (n - 1) (by omega)).1 ∗ owns (c : Thread nD τ) dat2_scM1 fullShare (dat2_acc V c (n - 1) (by omega)).2) ∗ dat2_rest c) ∗ (∃ r, prngReg c r)) := by
  cases n with
  | zero => exact absurd rfl hz
  | succ n => rfl

/-- The first point's invariant with the two scratch rows as memrefs owned at some contents. -/
theorem dat2_PhiA_eq (c : Dev nD) :
    (Pipeline.ΦA spec2 c : sProp 𝕄)
      = iprop(iprop(iprop((∃ d, owns (c : Thread nD τ) dat2_scM0 fullShare d) ∗ (∃ d, owns (c : Thread nD τ) dat2_scM1 fullShare d)) ∗ dat2_rest c) ∗ (∃ r, prngReg c r)) := by
  unfold Pipeline.ΦA; rw [scopedRest2_split]; simp only [dat2_scM0, dat2_scM1, owns_whole]; try rfl

/-! ## The pipeline's proof data -/

/-- The proof data of the pipeline on core `c`: the arrays as the region finds them (`V`); after the body at point
    `t` each input's buffer at its block, window 8's at the output block, the statistics windows' at the copied
    accumulators (read at the last point only: elsewhere they are idle); the invariant `dat2_Phi`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => dat2_O8 V c t
    | ⟨9, _⟩ => dat2_o9 (dat2_acc V c t.val t.isLt).1
    | ⟨10, _⟩ => dat2_o9 (dat2_acc V c t.val t.isLt).2
  Φ t := dat2_Phi V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) : ∀ w, (dat2 V c).q w = fullShare := fun _ => rfl
theorem owed_eq2 (c : Dev nD) : ∀ t, (dat2 V c).owed t = 0 := fun _ => rfl

theorem dat2_Phi_castSucc (c : Dev nD) (t : Fin cfg2.N) :
    (dat2 V c).Φ t.castSucc = dat2_Phi V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = dat2_O8 V c t := by dsimp only [dat2]
theorem after2_9 (c : Dev nD) (t : Fin cfg2.N) : (dat2 V c).after 9 t = dat2_o9 (dat2_acc V c t.val t.isLt).1 := by dsimp only [dat2]
theorem after2_10 (c : Dev nD) (t : Fin cfg2.N) : (dat2 V c).after 10 t = dat2_o9 (dat2_acc V c t.val t.isLt).2 := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## Where the windows are idle -/

theorem dat2_live0 : ∀ t : Fin cfg2.N, cfg2.idle 0 (grid2.coords t) = false := fun _ => rfl
theorem dat2_live1 : ∀ t : Fin cfg2.N, cfg2.idle 1 (grid2.coords t) = false := fun _ => rfl
theorem dat2_live2 : ∀ t : Fin cfg2.N, cfg2.idle 2 (grid2.coords t) = false := fun _ => rfl
theorem dat2_live3 : ∀ t : Fin cfg2.N, cfg2.idle 3 (grid2.coords t) = false := fun _ => rfl
theorem dat2_live4 : ∀ t : Fin cfg2.N, cfg2.idle 4 (grid2.coords t) = false := fun _ => rfl
theorem dat2_live5 : ∀ t : Fin cfg2.N, cfg2.idle 5 (grid2.coords t) = false := fun _ => rfl
theorem dat2_live6 : ∀ t : Fin cfg2.N, cfg2.idle 6 (grid2.coords t) = false := fun _ => rfl
theorem dat2_live7 : ∀ t : Fin cfg2.N, cfg2.idle 7 (grid2.coords t) = false := fun _ => rfl
theorem dat2_live8 : ∀ t : Fin cfg2.N, cfg2.idle 8 (grid2.coords t) = false := fun _ => rfl
/-- Off the last point the body stores nothing into window 9, and the pipeline does not write it back. -/
theorem dat2_idle9 : ∀ t : Fin cfg2.N, ¬dat2_c1 (grid2.coords t) → cfg2.idle 9 (grid2.coords t) = true := by decide +kernel
theorem dat2_noFlush9 : ∀ t : Fin cfg2.N, ¬dat2_c1 (grid2.coords t) → (cfg2.win 9).flush t = false := by decide +kernel
/-- At the last point it does. -/
theorem dat2_live9 : ∀ t : Fin cfg2.N, dat2_c1 (grid2.coords t) → cfg2.idle 9 (grid2.coords t) = false := by decide +kernel
/-- Off the last point the body stores nothing into window 10, and the pipeline does not write it back. -/
theorem dat2_idle10 : ∀ t : Fin cfg2.N, ¬dat2_c1 (grid2.coords t) → cfg2.idle 10 (grid2.coords t) = true := by decide +kernel
theorem dat2_noFlush10 : ∀ t : Fin cfg2.N, ¬dat2_c1 (grid2.coords t) → (cfg2.win 10).flush t = false := by decide +kernel
/-- At the last point it does. -/
theorem dat2_live10 : ∀ t : Fin cfg2.N, dat2_c1 (grid2.coords t) → cfg2.idle 10 (grid2.coords t) = false := by decide +kernel

/-! ## The body obligation, at a generic point -/

/-- What the body is called with at point `t`, the windows one by one, -/
def dat2_pre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def dat2_post (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 4800000 in
/-- The body at any point: the inputs' memrefs hold their blocks; the point is the first, a middle one or the last,
    which decides the body's two conditionals; the invariant hands the body the scratch rows at what the point
    before left (at anything at the first point) and takes them back at this point's accumulators; off the
    last point the statistics windows pass by untouched; the core owes nothing throughout. -/
theorem dat2_sound_body (c : Dev nD) (t : Fin cfg2.N) :
    dat2_pre V c t ⊢ wp frame (wpE (defs₀ (F := F)) Variants.none c none) Set.univ (bodyAt2 t) (fun _ => dat2_post V c t) := by
  unfold dat2_pre dat2_post bodyAt2
  simp only [before2_0, before2_1, before2_2, before2_3, before2_4, before2_5, before2_6, before2_7]
  rw [show (dat2 V c).owesAt () t.succ = (dat2 V c).owesAt () t.castSucc from rfl]
  rw [show (dat2 V c).Φ t.succ = dat2_Phi V c (t.val + 1) t.isLt from rfl, dat2_Phi_succ]
  rw [show (dat2 V c).leavesExact 0 t = owns (c : Thread nD τ) (st2_0 t) fullShare ((dat2 V c).after 0 t) from by
    unfold Dat.leavesExact; rw [dat2_live0 t], after2_0]
  rw [show (dat2 V c).leavesExact 1 t = owns (c : Thread nD τ) (st2_1 t) fullShare ((dat2 V c).after 1 t) from by
    unfold Dat.leavesExact; rw [dat2_live1 t], after2_1]
  rw [show (dat2 V c).leavesExact 2 t = owns (c : Thread nD τ) (st2_2 t) fullShare ((dat2 V c).after 2 t) from by
    unfold Dat.leavesExact; rw [dat2_live2 t], after2_2]
  rw [show (dat2 V c).leavesExact 3 t = owns (c : Thread nD τ) (st2_3 t) fullShare ((dat2 V c).after 3 t) from by
    unfold Dat.leavesExact; rw [dat2_live3 t], after2_3]
  rw [show (dat2 V c).leavesExact 4 t = owns (c : Thread nD τ) (st2_4 t) fullShare ((dat2 V c).after 4 t) from by
    unfold Dat.leavesExact; rw [dat2_live4 t], after2_4]
  rw [show (dat2 V c).leavesExact 5 t = owns (c : Thread nD τ) (st2_5 t) fullShare ((dat2 V c).after 5 t) from by
    unfold Dat.leavesExact; rw [dat2_live5 t], after2_5]
  rw [show (dat2 V c).leavesExact 6 t = owns (c : Thread nD τ) (st2_6 t) fullShare ((dat2 V c).after 6 t) from by
    unfold Dat.leavesExact; rw [dat2_live6 t], after2_6]
  rw [show (dat2 V c).leavesExact 7 t = owns (c : Thread nD τ) (st2_7 t) fullShare ((dat2 V c).after 7 t) from by
    unfold Dat.leavesExact; rw [dat2_live7 t], after2_7]
  rw [show (dat2 V c).leavesExact 8 t = owns (c : Thread nD τ) (st2_8 t) fullShare ((dat2 V c).after 8 t) from by
    unfold Dat.leavesExact; rw [dat2_live8 t], after2_8]
  have hN : t.val < 25 := lt_of_lt_of_eq t.isLt dat2_N
  by_cases h0 : t.val = 0
  · have h1 : ¬t.val = 24 := by omega
    have hc0 : dat2_c0 (grid2.coords t) := (dat2_hc0 t).mpr h0
    have hc1 : ¬dat2_c1 (grid2.coords t) := fun h => h1 ((dat2_hc1 t).mp h)
    rw [Dat.leavesExact_idle (dat2 V c) 9 t (dat2_idle9 t hc1) (dat2_noFlush9 t hc1),
      Dat.leavesExact_idle (dat2 V c) 10 t (dat2_idle10 t hc1) (dat2_noFlush10 t hc1)]
    rw [dat2_acc_zero V c t h0]
    rw [dat2_Phi_castSucc V c t, dat2_Phi_zero V c _ _ h0, dat2_PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (dat2_runA c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hpos : dat2_acc V c t.val t.isLt = _ := dat2_acc_pos V c t h0
    by_cases h1 : t.val = 24
    · have hc0 : ¬dat2_c0 (grid2.coords t) := fun h => h0 ((dat2_hc0 t).mp h)
      have hc1 : dat2_c1 (grid2.coords t) := (dat2_hc1 t).mpr h1
      rw [show (dat2 V c).leavesExact 9 t = owns (c : Thread nD τ) (st2_9 t) fullShare ((dat2 V c).after 9 t) from by
        unfold Dat.leavesExact; rw [dat2_live9 t hc1], after2_9]
      rw [show (dat2 V c).leavesExact 10 t = owns (c : Thread nD τ) (st2_10 t) fullShare ((dat2 V c).after 10 t) from by
        unfold Dat.leavesExact; rw [dat2_live10 t hc1], after2_10]
      rw [hpos]
      rw [dat2_Phi_castSucc V c t, dat2_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat2_runC c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · icases H9 with ⟨%d9, H9⟩; iexists _; iexact H9
      isplitl [H10]; · icases H10 with ⟨%d10, H10⟩; iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬dat2_c0 (grid2.coords t) := fun h => h0 ((dat2_hc0 t).mp h)
      have hc1 : ¬dat2_c1 (grid2.coords t) := fun h => h1 ((dat2_hc1 t).mp h)
      rw [Dat.leavesExact_idle (dat2 V c) 9 t (dat2_idle9 t hc1) (dat2_noFlush9 t hc1),
        Dat.leavesExact_idle (dat2 V c) 10 t (dat2_idle10 t hc1) (dat2_noFlush10 t hc1)]
      rw [hpos]
      rw [dat2_Phi_castSucc V c t, dat2_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat2_runB c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation2 (c : Dev nD) : BodyObligation (dat2 (F := F) V c) (defs₀ (F := F)) Variants.none () Set.univ := fun t => by
  rw [bigSep_W2, bigSep_W2]
  exact dat2_sound_body V c t

/-! ## Into the invariant and out of it -/

/-- What the region is entered with is the invariant before the first point (the prefetched tables, none here,
    are not used). -/
theorem hin2 (c : Dev nD) : iprop((∃ r, prngReg c r) ∗ Pipeline.prefHeld (pcfgs (F := F) 2).pre c (fun _ => fullShare) (((cfgs 2).toPCfg_adm).1) ∗ Pipeline.scopedRest spec2 c) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After the last point the invariant gives the scoped buffers back: the scratch rows' named contents are forgotten. -/
theorem hout2 (c : Dev nD) : (dat2 V c).Φ (Fin.last cfg2.N) ⊢ iprop((∃ r, prngReg c r) ∗ Pipeline.ownSems0 (fun k : PEmpty => k.elim) c ∗ Pipeline.scopedRest spec2 c) := by
  rw [Pipeline.ownSems0_none, show (dat2 V c).Φ (Fin.last cfg2.N) = dat2_Phi V c (Fin.last cfg2.N).val (Nat.le_of_lt_succ (Fin.last cfg2.N).isLt) from rfl,
    dat2_Phi_pos V c _ _ (by rw [Fin.val_last]; have : cfg2.N = 25 := dat2_N; omega), scopedRest2_split]
  simp only [dat2_scM0, dat2_scM1, owns_whole]
  iintro ⟨⟨⟨HS0, HS1⟩, Hrest⟩, Hg⟩
  isplitl [Hg]; · iexact Hg
  isplitr; · iempintro
  isplitl [HS0 HS1]
  · isplitl [HS0]; · iexists _; iexact HS0
    iexists _; iexact HS1
  iexact Hrest

end Cert.Kernel.Hand

end
-- ==== Proof.K.R3.lean ====
/-
  Region 3 of the kernel's @main: the batch-norm finalize kernel
  out = g·(h − mean)·rsqrt(var + eps) + beta, one grid point per block of 2000 rows.
  At the buffer contents V the region is entered with: each window's block at a point, what the body leaves in the
  output window's buffer (its one whole-block store of the payload of the five loaded blocks), the body's triple, the
  pipeline's proof data and the body obligation, and the invariant at the region's two ends.
-/
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: where the window is not fetched its block index
    has not moved, so the buffer still holds the previous point's block, which is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: where the window is not fetched its block index
    has not moved, so the buffer still holds the previous point's block, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: where the window is not fetched its block index
    has not moved, so the buffer still holds the previous point's block, which is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: where the window is not fetched its block index
    has not moved, so the buffer still holds the previous point's block, which is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: where the window is not fetched its block index
    has not moved, so the buffer still holds the previous point's block, which is this point's. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole block -/

abbrev r3_0 : Rect S2000x256 := Rect.unit (s := S2000x256) ![0, 0] S2000x256.size inb_S2000x256_S2000x256_0_0
abbrev r3_1 : Rect S1x256 := Rect.unit (s := S1x256) ![0, 0] S1x256.size inb_S1x256_S1x256_0_0
abbrev r3_2 : Rect S1x256 := Rect.unit (s := S1x256) ![0, 0] S1x256.size inb_S1x256_S1x256_0_0
abbrev r3_3 : Rect S1x256 := Rect.unit (s := S1x256) ![0, 0] S1x256.size inb_S1x256_S1x256_0_0
abbrev r3_4 : Rect S1x256 := Rect.unit (s := S1x256) ![0, 0] S1x256.size inb_S1x256_S1x256_0_0
abbrev r3_5 : Rect S2000x256 := Rect.unit (s := S2000x256) ![0, 0] S2000x256.size inb_S2000x256_S2000x256_0_0

/-! ## What the body leaves in the output window's buffer -/

/-- Window 5's staging buffer after the body, from the input windows' blocks: its one store, of the payload
    computed from the loaded blocks. -/
def out3_5 (xa : Vec F S2000x256 .f32) (xb : Vec F S1x256 .f32) (xc : Vec F S1x256 .f32) (xd : Vec F S1x256 .f32) (xe : Vec F S1x256 .f32) : Vec F S2000x256 .f32 :=
  View.canon [⟨r3_5, k3_pay1 (View.ld xc r3_2) (View.ld xd r3_3) (View.ld xa r3_0) (View.ld xb r3_1) (View.ld xe r3_4)⟩]

/-- The store takes the whole buffer, so it covers it. -/
theorem cover3_5 (pw : Vec F S2000x256 .f32) (y : S2000x256.Idx) :
    ∃ pc ∈ ([⟨r3_5, pw⟩] : List (View.Piece (Elt F) S2000x256 .f32)), y ∈ pc.1.set :=
  View.cover_of_tiled [⟨r3_5, pw⟩] S2000x256.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (ma : Memref sig .tc .vmem S2000x256 .f32) (hma : ma.IsWhole) (mb : Memref sig .tc .vmem S1x256 .f32) (hmb : mb.IsWhole) (mc : Memref sig .tc .vmem S1x256 .f32) (hmc : mc.IsWhole) (md : Memref sig .tc .vmem S1x256 .f32) (hmd : md.IsWhole) (me : Memref sig .tc .vmem S1x256 .f32) (hme : me.IsWhole) (mf : Memref sig .tc .vmem S2000x256 .f32) (hmf : mf.IsWhole)
    (xa : Vec F S2000x256 .f32) (xb : Vec F S1x256 .f32) (xc : Vec F S1x256 .f32) (xd : Vec F S1x256 .f32) (xe : Vec F S1x256 .f32) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ (∃ d, owns (c : Thread nD τ) mf fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ owns (c : Thread nD τ) mf fullShare (out3_5 xa xb xc xd xe)) -∗ K ⟨⟩))
      ⊢ wp frame (wpE (defs₀ (F := F)) Variants.none c none) E (cc3__bn_finalize_kernel i ma hma mb hmb mc hmc md hmd me hme mf hmf) K := by
  simp only [cc3__bn_finalize_kernel_eq_skeleton]; unfold cc3__bn_finalize_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant
    holds the scoped buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- Every window is held at the full share, and the body owes nothing at any point. -/
theorem q_eq3 (c : Dev nD) : ∀ w, (dat3 V c).q w = fullShare := fun _ => rfl
theorem owed_eq3 (c : Dev nD) : ∀ t, (dat3 V c).owed t = 0 := fun _ => rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%da, Ha⟩, ⟨%db, Hb⟩, ⟨%dc, Hc⟩, ⟨%dd, Hd⟩, ⟨%de, He⟩, ⟨%df, Hf⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- The invariant at the first point, from the generator register at some state, the (empty) prefetched tables and the
    scoped buffers no window stages. -/
theorem hin3 (c : Dev nD) :
    (iprop((∃ r, prngReg c r) ∗ Pipeline.prefHeld (pcfgs (F := F) 3).pre c (fun _ => fullShare) (((cfgs 3).toPCfg_adm).1)
      ∗ Pipeline.scopedRest spec3 c) : sProp 𝕄) ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- The invariant at the last point gives back the generator register, no semaphore of the kernel's own, and those
    scoped buffers. -/
theorem hout3 (c : Dev nD) :
    (dat3 V c).Φ (Fin.last cfg3.N) ⊢ (iprop((∃ r, prngReg c r) ∗ Pipeline.ownSems0 (fun k : PEmpty => k.elim) c
      ∗ Pipeline.scopedRest spec3 c) : sProp 𝕄) := by
  rw [Pipeline.ownSems0_none, show (dat3 V c).Φ (Fin.last _) = Pipeline.ΦA spec3 c from rfl]; unfold Pipeline.ΦA
  iintro ⟨Hr, Hp⟩
  isplitl [Hp]; · iexact Hp
  isplitr; · iempintro
  iexact Hr

end Cert.Kernel.Hand

end
-- ==== Proof.K.R4.lean ====
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the first linear layer with its column statistics

The body at a grid point reads a block of rows of the two summands, the weight matrix and the bias row, stores the
block of the affine image, and adds the block's column sums and column sums of squares to two running rows kept in
scratch memory: zeroed at the first point, copied to the two statistics outputs at the last point. -/

/-- The zero offsets of a whole-buffer access, as a constant function. -/
theorem k4_hz : (![0, 0] : Fin 2 → Nat) = fun _ => 0 := funext fun a => by fin_cases a <;> rfl

/-- A buffer read after a list of stores whose LAST one overwrote the whole buffer holds that store's payload. -/
theorem k4_read_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole-buffer load made after such a list of stores reads the last store's payload. -/
theorem k4_readCov_store {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form -/

/-- The first conditional is taken at the grid's first point: there the running rows are zeroed. -/
abbrev k4_c1 (i : grid4.Coords) : Prop := (Scalar.cmpi .ne (Scalar.extui (Scalar.cmpi .eq (BitVec.ofNat 32 (i 0).val) 0#32)) 0#32) = 1#1
/-- The second at the last point: there the running rows are copied out. -/
abbrev k4_c2 (i : grid4.Coords) : Prop := k4_cond2 i = 1#1

theorem k4_hc1 : ∀ t : Fin cfg4.N, k4_c1 (grid4.coords t) ↔ t.val = 0 :=
  (by decide +kernel : ∀ t : Fin grid4.N, k4_c1 (grid4.coords t) ↔ t.val = 0)
theorem k4_hc2 : ∀ t : Fin cfg4.N, k4_c2 (grid4.coords t) ↔ t.val = 24 :=
  (by decide +kernel : ∀ t : Fin grid4.N, k4_c2 (grid4.coords t) ↔ t.val = 24)

/-- The inputs and the first output are live at every point; the two statistics outputs only at the last. -/
theorem k4_live_0 : ∀ t : Fin cfg4.N, cfg4.idle 0 (grid4.coords t) = false := by decide +kernel
theorem k4_live_1 : ∀ t : Fin cfg4.N, cfg4.idle 1 (grid4.coords t) = false := by decide +kernel
theorem k4_live_2 : ∀ t : Fin cfg4.N, cfg4.idle 2 (grid4.coords t) = false := by decide +kernel
theorem k4_live_3 : ∀ t : Fin cfg4.N, cfg4.idle 3 (grid4.coords t) = false := by decide +kernel
theorem k4_live_4 : ∀ t : Fin cfg4.N, cfg4.idle 4 (grid4.coords t) = false := by decide +kernel
theorem k4_idle_5 : ∀ t : Fin cfg4.N, t.val ≠ 24 → cfg4.idle 5 (grid4.coords t) = true := by decide +kernel
theorem k4_noflush_5 : ∀ t : Fin cfg4.N, t.val ≠ 24 → (cfg4.win 5).flush t = false := by decide +kernel
theorem k4_last_5 : ∀ t : Fin cfg4.N, t.val = 24 → cfg4.idle 5 (grid4.coords t) = false := by decide +kernel
theorem k4_idle_6 : ∀ t : Fin cfg4.N, t.val ≠ 24 → cfg4.idle 6 (grid4.coords t) = true := by decide +kernel
theorem k4_noflush_6 : ∀ t : Fin cfg4.N, t.val ≠ 24 → (cfg4.win 6).flush t = false := by decide +kernel
theorem k4_last_6 : ∀ t : Fin cfg4.N, t.val = 24 → cfg4.idle 6 (grid4.coords t) = false := by decide +kernel

/-- The two scratch rows, as whole memrefs. -/
abbrev k4_sc0 : Memref sig .tc .vmem S1x512 .f32 := Memref.whole cc4_scratch0
abbrev k4_sc1 : Memref sig .tc .vmem S1x512 .f32 := Memref.whole cc4_scratch1

/-! ## The body's triple, one per control case

On whole staging memrefs: the inputs at their contents, the first output at anything, the two statistics outputs handed
back untouched (or, at the last point, overwritten), the two scratch rows at what the point before left. -/

set_option maxHeartbeats 4000000 in
/-- At the first point: the running rows are zeroed, then this block's column sums are added. -/
theorem k4_runA (c : Dev nD) (i : grid4.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : k4_c1 i) (hc2 : ¬ k4_c2 i)
    (x0 : Vec F S2000x256 .f32) (x1 : Vec F S2000x256 .f32) (x2 : Vec F S256x512 .f32) (x3 : Vec F S1x512 .f32)
    (xi5 : Vec F S1x512 .f32) (xi6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay3 x0 x1 x2 x3)
            ∗ owns (c : Thread nD τ) arg6 fullShare xi5 ∗ owns (c : Thread nD τ) arg7 fullShare xi6
            ∗ owns (c : Thread nD τ) arg8 fullShare (k4_pay4 x0 x1 x2 x3 (k4_pay1 (F := F)))
            ∗ owns (c : Thread nD τ) arg9 fullShare (k4_pay5 x0 x1 x2 x3 (k4_pay2 (F := F)))) -∗ K ⟨⟩))
      ⊢ wp frame (wpE (defs₀ (F := F)) Variants.none c none) E
          (cc4__lin1_stats_kernel i arg1 harg1 arg2 harg2 arg3 harg3 arg4 harg4 arg5 harg5 arg6 harg6 arg7 harg7 arg8 harg8 arg9 harg9) K := by
  simp only [cc4__lin1_stats_kernel_eq_skeleton]; unfold cc4__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  iexists _; isplitr
  swap; · iexact H8
  ipureintro
  sl_unfold_words
  refine (k4_read_store _ _ k4_hz _ _ _).trans ?_
  simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]

set_option maxHeartbeats 4000000 in
/-- At a point between: this block's column sums are added to the running rows. -/
theorem k4_runB (c : Dev nD) (i : grid4.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k4_c1 i) (hc2 : ¬ k4_c2 i)
    (x0 : Vec F S2000x256 .f32) (x1 : Vec F S2000x256 .f32) (x2 : Vec F S256x512 .f32) (x3 : Vec F S1x512 .f32)
    (xi5 : Vec F S1x512 .f32) (xi6 : Vec F S1x512 .f32) (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay3 x0 x1 x2 x3)
            ∗ owns (c : Thread nD τ) arg6 fullShare xi5 ∗ owns (c : Thread nD τ) arg7 fullShare xi6
            ∗ owns (c : Thread nD τ) arg8 fullShare (k4_pay4 x0 x1 x2 x3 xs0)
            ∗ owns (c : Thread nD τ) arg9 fullShare (k4_pay5 x0 x1 x2 x3 xs1)) -∗ K ⟨⟩))
      ⊢ wp frame (wpE (defs₀ (F := F)) Variants.none c none) E
          (cc4__lin1_stats_kernel i arg1 harg1 arg2 harg2 arg3 harg3 arg4 harg4 arg5 harg5 arg6 harg6 arg7 harg7 arg8 harg8 arg9 harg9) K := by
  simp only [cc4__lin1_stats_kernel_eq_skeleton]; unfold cc4__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  iexists _; isplitr
  swap; · iexact H8
  ipureintro
  sl_unfold_words
  refine (k4_read_store _ _ k4_hz _ _ _).trans ?_
  simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]

set_option maxHeartbeats 4000000 in
/-- At the last point: the same, and the two running rows are then copied to the statistics outputs. -/
theorem k4_runC (c : Dev nD) (i : grid4.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k4_c1 i) (hc2 : k4_c2 i)
    (x0 : Vec F S2000x256 .f32) (x1 : Vec F S2000x256 .f32) (x2 : Vec F S256x512 .f32) (x3 : Vec F S1x512 .f32)
    (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay3 x0 x1 x2 x3)
            ∗ owns (c : Thread nD τ) arg6 fullShare (k4_pay4 x0 x1 x2 x3 xs0) ∗ owns (c : Thread nD τ) arg7 fullShare (k4_pay5 x0 x1 x2 x3 xs1)
            ∗ owns (c : Thread nD τ) arg8 fullShare (k4_pay4 x0 x1 x2 x3 xs0)
            ∗ owns (c : Thread nD τ) arg9 fullShare (k4_pay5 x0 x1 x2 x3 xs1)) -∗ K ⟨⟩))
      ⊢ wp frame (wpE (defs₀ (F := F)) Variants.none c none) E
          (cc4__lin1_stats_kernel i arg1 harg1 arg2 harg2 arg3 harg3 arg4 harg4 arg5 harg5 arg6 harg6 arg7 harg7 arg8 harg8 arg9 harg9) K := by
  simp only [cc4__lin1_stats_kernel_eq_skeleton]; unfold cc4__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H5]
  · iexists _; isplitr
    swap; · iexact H5
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H6]
  · iexists _; isplitr
    swap; · iexact H6
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H7]
  · iexists _; isplitr
    swap; · iexact H7
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  iexists _; isplitr
  swap; · iexact H8
  ipureintro
  sl_unfold_words
  refine (k4_read_store _ _ k4_hz _ _ _).trans ?_
  simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]

/-! ## The running rows, point by point -/

/-- One point's step on the two running rows: the block's column sums and column sums of squares added. -/
def k4_step (c : Dev nD) (t : Fin cfg4.N) (a : Vec F S1x512 .f32 × Vec F S1x512 .f32) : Vec F S1x512 .f32 × Vec F S1x512 .f32 :=
  (k4_pay4 (iblk4 V c 0 t) (iblk4 V c 1 t) (iblk4 V c 2 t) (iblk4 V c 3 t) a.1, k4_pay5 (iblk4 V c 0 t) (iblk4 V c 1 t) (iblk4 V c 2 t) (iblk4 V c 3 t) a.2)

/-- The first point, as a point of the grid. -/
abbrev k4_t0 : Fin cfg4.N := ⟨0, by rw [show cfg4.N = 25 from N_4]; decide⟩

/-- The two running rows after point `n`: from the zero rows, one step per point. -/
def k4_acc (c : Dev nD) : ℕ → Vec F S1x512 .f32 × Vec F S1x512 .f32
  | 0 => k4_step V c k4_t0 (k4_pay1 (F := F), k4_pay2 (F := F))
  | n + 1 => if h : n + 1 < cfg4.N then k4_step V c ⟨n + 1, h⟩ (k4_acc c n) else k4_acc c n

theorem k4_acc_zero (c : Dev nD) : k4_acc V c 0 = k4_step V c k4_t0 (k4_pay1 (F := F), k4_pay2 (F := F)) := rfl

theorem k4_acc_succ (c : Dev nD) (n : ℕ) (h : n + 1 < cfg4.N) : k4_acc V c (n + 1) = k4_step V c ⟨n + 1, h⟩ (k4_acc V c n) := by
  rw [k4_acc]; exact dif_pos h

/-- At the first point of the grid. -/
theorem k4_acc_first (c : Dev nD) (t : Fin cfg4.N) (h : t.val = 0) : k4_acc V c t.val = k4_step V c t (k4_pay1 (F := F), k4_pay2 (F := F)) := by
  obtain ⟨n, hn⟩ := t
  obtain rfl : n = 0 := h
  rfl

/-- At a later point. -/
theorem k4_acc_later (c : Dev nD) (t : Fin cfg4.N) (h : t.val ≠ 0) : k4_acc V c t.val = k4_step V c t (k4_acc V c (t.val - 1)) := by
  obtain ⟨n, hn⟩ := t
  cases n with
  | zero => exact absurd rfl h
  | succ n => exact k4_acc_succ V c n hn

/-- The region's invariant before point `n`: before the first point the two scratch rows hold anything; afterwards what
    the point before left; beside them the other scoped buffers, unopened, and the generator register at some state. -/
def k4_Phi (c : Dev nD) : ℕ → sProp 𝕄
  | 0 => iprop((∃ d, owns (c : Thread nD τ) k4_sc0 fullShare d) ∗ (∃ d, owns (c : Thread nD τ) k4_sc1 fullShare d)
      ∗ Pipeline.scopedRestBut (Ix := Unit) (Name := ℕ) (U := UR sig nD τ) (Lvl := ℕ) (Val := Elt F) spec4 c [cc4_scratch0, cc4_scratch1] ∗ ∃ r, prngReg c r)
  | n + 1 => iprop(owns (c : Thread nD τ) k4_sc0 fullShare (k4_acc V c n).1 ∗ owns (c : Thread nD τ) k4_sc1 fullShare (k4_acc V c n).2
      ∗ Pipeline.scopedRestBut (Ix := Unit) (Name := ℕ) (U := UR sig nD τ) (Lvl := ℕ) (Val := Elt F) spec4 c [cc4_scratch0, cc4_scratch1] ∗ ∃ r, prngReg c r)

theorem k4_Phi_zero (c : Dev nD) (n : ℕ) (h : n = 0) : k4_Phi V c n
    = iprop((∃ d, owns (c : Thread nD τ) k4_sc0 fullShare d) ∗ (∃ d, owns (c : Thread nD τ) k4_sc1 fullShare d)
      ∗ Pipeline.scopedRestBut (Ix := Unit) (Name := ℕ) (U := UR sig nD τ) (Lvl := ℕ) (Val := Elt F) spec4 c [cc4_scratch0, cc4_scratch1] ∗ ∃ r, prngReg c r) := by
  subst h; rfl

theorem k4_Phi_succ (c : Dev nD) (n : ℕ) : k4_Phi V c (n + 1)
    = iprop(owns (c : Thread nD τ) k4_sc0 fullShare (k4_acc V c n).1 ∗ owns (c : Thread nD τ) k4_sc1 fullShare (k4_acc V c n).2
      ∗ Pipeline.scopedRestBut (Ix := Unit) (Name := ℕ) (U := UR sig nD τ) (Lvl := ℕ) (Val := Elt F) spec4 c [cc4_scratch0, cc4_scratch1] ∗ ∃ r, prngReg c r) := rfl

theorem k4_Phi_pos (c : Dev nD) (n : ℕ) (h : n ≠ 0) : k4_Phi V c n
    = iprop(owns (c : Thread nD τ) k4_sc0 fullShare (k4_acc V c (n - 1)).1 ∗ owns (c : Thread nD τ) k4_sc1 fullShare (k4_acc V c (n - 1)).2
      ∗ Pipeline.scopedRestBut (Ix := Unit) (Name := ℕ) (U := UR sig nD τ) (Lvl := ℕ) (Val := Elt F) spec4 c [cc4_scratch0, cc4_scratch1] ∗ ∃ r, prngReg c r) := by
  cases n with
  | zero => exact absurd rfl h
  | succ n => rfl

/-! ## The pipeline's proof data -/

/-- The proof data of the region on core `c`: the arrays as the region finds them; after the body at point `t` each
    input's buffer at its block, the first output's at the affine image of the blocks, the statistics outputs' at the
    running rows (consulted at the last point only); the invariant `k4_Phi`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (iblk4 V c 0 t) (iblk4 V c 1 t) (iblk4 V c 2 t) (iblk4 V c 3 t)
    | ⟨5, _⟩ => (k4_acc V c t.val).1
    | ⟨6, _⟩ => (k4_acc V c t.val).2
  Φ t := k4_Phi V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = k4_pay3 (iblk4 V c 0 t) (iblk4 V c 1 t) (iblk4 V c 2 t) (iblk4 V c 3 t) := by dsimp only [dat4]
theorem after4_5 (c : Dev nD) (t : Fin cfg4.N) : (dat4 V c).after 5 t = (k4_acc V c t.val).1 := by dsimp only [dat4]
theorem after4_6 (c : Dev nD) (t : Fin cfg4.N) : (dat4 V c).after 6 t = (k4_acc V c t.val).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem k4_Phi_at (c : Dev nD) (t : Fin cfg4.N) : (dat4 V c).Φ t.castSucc = k4_Phi V c t.val := by
  dsimp only [dat4]; simp only [Fin.coe_castSucc]

/-! ## The body obligation -/

/-- What the body is called with at point `t`, the windows one by one, -/
def k4_bodyPre (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def k4_bodyPost (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

theorem k4_leaves_0 (c : Dev nD) (t : Fin cfg4.N) :
    (dat4 V c).leavesExact 0 t = owns (c : Thread nD τ) (st4_0 t) fullShare ((dat4 V c).after 0 t) := by
  unfold Dat.leavesExact; rw [k4_live_0 t]
theorem k4_leaves_1 (c : Dev nD) (t : Fin cfg4.N) :
    (dat4 V c).leavesExact 1 t = owns (c : Thread nD τ) (st4_1 t) fullShare ((dat4 V c).after 1 t) := by
  unfold Dat.leavesExact; rw [k4_live_1 t]
theorem k4_leaves_2 (c : Dev nD) (t : Fin cfg4.N) :
    (dat4 V c).leavesExact 2 t = owns (c : Thread nD τ) (st4_2 t) fullShare ((dat4 V c).after 2 t) := by
  unfold Dat.leavesExact; rw [k4_live_2 t]
theorem k4_leaves_3 (c : Dev nD) (t : Fin cfg4.N) :
    (dat4 V c).leavesExact 3 t = owns (c : Thread nD τ) (st4_3 t) fullShare ((dat4 V c).after 3 t) := by
  unfold Dat.leavesExact; rw [k4_live_3 t]
theorem k4_leaves_4 (c : Dev nD) (t : Fin cfg4.N) :
    (dat4 V c).leavesExact 4 t = owns (c : Thread nD τ) (st4_4 t) fullShare ((dat4 V c).after 4 t) := by
  unfold Dat.leavesExact; rw [k4_live_4 t]
theorem k4_leaves_5 (c : Dev nD) (t : Fin cfg4.N) (h : t.val = 24) :
    (dat4 V c).leavesExact 5 t = owns (c : Thread nD τ) (st4_5 t) fullShare ((dat4 V c).after 5 t) := by
  unfold Dat.leavesExact; rw [k4_last_5 t h]
theorem k4_leaves_6 (c : Dev nD) (t : Fin cfg4.N) (h : t.val = 24) :
    (dat4 V c).leavesExact 6 t = owns (c : Thread nD τ) (st4_6 t) fullShare ((dat4 V c).after 6 t) := by
  unfold Dat.leavesExact; rw [k4_last_6 t h]

set_option maxHeartbeats 4000000 in
/-- The body at any point: the inputs' memrefs hold their blocks; the point's position selects the case; the invariant
    hands the body the two scratch rows at what the point before left (at anything at the first point) and takes them
    back at this point's; a statistics output is handed back untouched at every point but the last. -/
theorem k4_sound_body (c : Dev nD) (t : Fin cfg4.N) :
    k4_bodyPre V c t ⊢ wp frame (wpE (defs₀ (F := F)) Variants.none c none) Set.univ (bodyAt4 t) (fun _ => k4_bodyPost V c t) := by
  unfold k4_bodyPre k4_bodyPost bodyAt4
  simp only [before4_0, before4_1, before4_2, before4_3]
  rw [show (dat4 V c).owesAt () t.succ = (dat4 V c).owesAt () t.castSucc from rfl]
  rw [show (dat4 V c).Φ t.succ = k4_Phi V c (t.val + 1) from rfl, k4_Phi_succ, k4_Phi_at]
  rw [k4_leaves_0, k4_leaves_1, k4_leaves_2, k4_leaves_3, k4_leaves_4, after4_0, after4_1, after4_2, after4_3, after4_4]
  have hN : t.val < 25 := lt_of_lt_of_eq t.isLt N_4
  by_cases h0 : t.val = 0
  · have h24 : t.val ≠ 24 := by omega
    rw [Dat.leavesExact_idle (dat4 V c) 5 t (k4_idle_5 t h24) (k4_noflush_5 t h24),
      Dat.leavesExact_idle (dat4 V c) 6 t (k4_idle_6 t h24) (k4_noflush_6 t h24)]
    rw [k4_acc_first V c t h0, k4_Phi_zero V c _ h0]
    unfold k4_step; dsimp only
    iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
    iapply (k4_runA c (grid4.coords t) Set.univ _ _ _ _ _ _ _ _ _ _ _ _ _ _ _ _ _ _ ((k4_hc1 t).mpr h0) (fun h => h24 ((k4_hc2 t).mp h))
        (iblk4 V c 0 t) (iblk4 V c 1 t) (iblk4 V c 2 t) (iblk4 V c 3 t) ((dat4 V c).before 5 t d5) ((dat4 V c).before 6 t d6) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h24 : t.val = 24
    · rw [k4_leaves_5 V c t h24, k4_leaves_6 V c t h24, after4_5, after4_6]
      rw [k4_acc_later V c t h0, k4_Phi_pos V c _ h0]
      unfold k4_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k4_runC c (grid4.coords t) Set.univ _ _ _ _ _ _ _ _ _ _ _ _ _ _ _ _ _ _ (fun h => h0 ((k4_hc1 t).mp h)) ((k4_hc2 t).mpr h24)
          (iblk4 V c 0 t) (iblk4 V c 1 t) (iblk4 V c 2 t) (iblk4 V c 3 t) (k4_acc V c (t.val - 1)).1 (k4_acc V c (t.val - 1)).2 _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat4 V c) 5 t (k4_idle_5 t h24) (k4_noflush_5 t h24),
        Dat.leavesExact_idle (dat4 V c) 6 t (k4_idle_6 t h24) (k4_noflush_6 t h24)]
      rw [k4_acc_later V c t h0, k4_Phi_pos V c _ h0]
      unfold k4_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k4_runB c (grid4.coords t) Set.univ _ _ _ _ _ _ _ _ _ _ _ _ _ _ _ _ _ _ (fun h => h0 ((k4_hc1 t).mp h)) (fun h => h24 ((k4_hc2 t).mp h))
          (iblk4 V c 0 t) (iblk4 V c 1 t) (iblk4 V c 2 t) (iblk4 V c 3 t) ((dat4 V c).before 5 t d5) ((dat4 V c).before 6 t d6) (k4_acc V c (t.val - 1)).1 (k4_acc V c (t.val - 1)).2 _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact k4_sound_body V c t

theorem q_eq4 (c : Dev nD) : ∀ w, (dat4 V c).q w = fullShare := fun _ => rfl
theorem owed_eq4 (c : Dev nD) : ∀ t, (dat4 V c).owed t = 0 := fun _ => rfl

/-! ## Into the invariant and out of it -/

/-- What the launch hands the region — the generator register and every scoped buffer no window stages — is the
    invariant before the first point: the two scratch rows are split out, at whatever they hold. -/
theorem hin4 (c : Dev nD) :
    (iprop((∃ r, prngReg c r) ∗ Pipeline.prefHeld (pcfgs (F := F) 4).pre c (fun _ => fullShare) (((cfgs 4).toPCfg_adm).1)
      ∗ Pipeline.scopedRest spec4 c) : sProp 𝕄) ⊢ (dat4 V c).Φ 0 := by
  rw [show (dat4 V c).Φ 0 = k4_Phi V c 0 from rfl, k4_Phi_zero V c 0 rfl, scopedRest4_split]
  simp only [k4_sc0, k4_sc1, owns_whole]
  iintro ⟨Hp, -, ⟨⟨HS0, HS1⟩, Hrest⟩⟩
  isplitl [HS0]; · iexact HS0
  isplitl [HS1]; · iexact HS1
  isplitl [Hrest]; · iexact Hrest
  iexact Hp

/-- After the last point the invariant gives them back: what the scratch rows then hold is forgotten. -/
theorem hout4 (c : Dev nD) :
    (dat4 V c).Φ (Fin.last cfg4.N) ⊢ (iprop((∃ r, prngReg c r) ∗ Pipeline.ownSems0 (fun k : PEmpty => k.elim) c
      ∗ Pipeline.scopedRest spec4 c) : sProp 𝕄) := by
  rw [Pipeline.ownSems0_none, show (dat4 V c).Φ (Fin.last cfg4.N) = k4_Phi V c (24 + 1) from rfl, k4_Phi_succ, scopedRest4_split]
  simp only [k4_sc0, k4_sc1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.Kernel.Hand

end
-- ==== Proof.K.R5.lean ====
/-
  Region 5 of the program: the second linear layer of a GIN block with its batch statistics, one grid of 25 points
  over blocks of 2000 rows.

  At each point the body normalises the block of the first layer's output with the batch mean and variance,
  rectifies it, multiplies by the second weights, adds the bias and the residual block, and stores the result as
  the block of the layer's output. Two scratch rows carry the column sums of that output and of its squares from
  point to point: the first point zeroes them, every point adds its block's column sums, and the last point copies
  them into the two statistics outputs, which no other point touches.

  This module states what each buffer holds after each point (the output block from the input blocks; the scratch
  rows by recursion on the point), proves the body's triple in each of its three cases (first point, a middle
  point, last point), and from them the body obligation of the pipeline's proof data, with the invariant carrying
  the scratch rows at the accumulated sums.
-/
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the second linear layer with batch statistics, at the entry contents `V` -/

/-! ## The body's branch conditions -/

/-- The body's first conditional: the grid coordinate is 0. -/
abbrev dat5_c0 (i : grid5.Coords) : Prop := (Scalar.cmpi .ne (Scalar.extui (Scalar.cmpi .eq (BitVec.ofNat 32 (i 0).val) 0#32)) 0#32) = 1#1
theorem dat5_hc0 : ∀ t : Fin cfg5.N, dat5_c0 (grid5.coords t) ↔ t.val = 0 :=
  (by decide +kernel : ∀ t : Fin grid5.N, dat5_c0 (grid5.coords t) ↔ t.val = 0)
/-- The body's second conditional: the grid coordinate is 24, the last. -/
abbrev dat5_c1 (i : grid5.Coords) : Prop := k5_cond2 i = 1#1
theorem dat5_hc1 : ∀ t : Fin cfg5.N, dat5_c1 (grid5.coords t) ↔ t.val = 24 :=
  (by decide +kernel : ∀ t : Fin grid5.N, dat5_c1 (grid5.coords t) ↔ t.val = 24)
theorem dat5_N : cfg5.N = 25 := by decide

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses: every load and store is of a whole buffer -/

abbrev dat5_rH : Rect S2000x512 := Rect.unit (s := S2000x512) ![0, 0] S2000x512.size inb_S2000x512_S2000x512_0_0
abbrev dat5_rR : Rect S1x512 := Rect.unit (s := S1x512) ![0, 0] S1x512.size inb_S1x512_S1x512_0_0
abbrev dat5_rX : Rect S2000x256 := Rect.unit (s := S2000x256) ![0, 0] S2000x256.size inb_S2000x256_S2000x256_0_0
abbrev dat5_rW : Rect S512x256 := Rect.unit (s := S512x256) ![0, 0] S512x256.size inb_S512x256_S512x256_0_0
abbrev dat5_rS : Rect S1x256 := Rect.unit (s := S1x256) ![0, 0] S1x256.size inb_S1x256_S1x256_0_0

/-- A whole-buffer rectangle holds every index of its shape (its one block tiles the shape). -/
theorem dat5_coverX (p0 : Vec F S2000x256 .f32) (y : S2000x256.Idx) : ∃ pc ∈ ([⟨dat5_rX, p0⟩] : List (View.Piece (Elt F) S2000x256 .f32)), y ∈ pc.1.set :=
  View.cover_of_tiled [⟨dat5_rX, p0⟩] S2000x256.size (by rfl) y
theorem dat5_coverS (p0 : Vec F S1x256 .f32) (y : S1x256.Idx) : ∃ pc ∈ ([⟨dat5_rS, p0⟩] : List (View.Piece (Elt F) S1x256 .f32)), y ∈ pc.1.set :=
  View.cover_of_tiled [⟨dat5_rS, p0⟩] S1x256.size (by rfl) y
theorem dat5_memX (y : S2000x256.Idx) : y ∈ dat5_rX.set := by
  obtain ⟨pc, hpc, hy⟩ := View.cover_of_tiled ([⟨dat5_rX, fun _ => ()⟩] : List (View.Piece (fun _ => Unit) S2000x256 .f32)) S2000x256.size (by rfl) y
  rw [List.mem_singleton] at hpc; subst hpc; exact hy
theorem dat5_memS (y : S1x256.Idx) : y ∈ dat5_rS.set := by
  obtain ⟨pc, hpc, hy⟩ := View.cover_of_tiled ([⟨dat5_rS, fun _ => ()⟩] : List (View.Piece (fun _ => Unit) S1x256 .f32)) S1x256.size (by rfl) y
  rw [List.mem_singleton] at hpc; subst hpc; exact hy

/-- What a store through a rectangle holding every index leaves, whatever the buffer held and whatever
    earlier stores wrote: its payload, as the one-piece canonical contents. -/
theorem dat5_read_whole {κ : Kind} {sp : Space} {s : Shape} {e : EltTy} (v : View sig κ sp s e) (f : v.ty.Contents (Elt F)) (r : Rect s)
    (hr : ∀ y : s.Idx, y ∈ r.set) (w w' : r.shape.Idx → Elt F e) (L : List (View.Piece (Elt F) s e)) (h : w = w') :
    v.read (Elt F) (v.writes (Elt F) f (⟨r, w⟩ :: L)) = View.canon [⟨r, w'⟩] := by
  subst h
  funext y
  obtain ⟨x, rfl⟩ : ∃ x, r.emb x = y := r.exists_idx_of_mem (hr y)
  rw [View.read_writes_cons_emb, View.canon_cons_emb]

/-! ## What the body leaves in the output windows' buffers and in the two scratch rows -/

/-- The normalised, rectified first layer times the second weights plus the bias (`%34`), of the input blocks. -/
def dat5_v34 (x0 : Vec F S2000x512 .f32) (x1 : Vec F S1x512 .f32) (x2 : Vec F S1x512 .f32) (x3 : Vec F S1x512 .f32) (x4 : Vec F S1x512 .f32) (x6 : Vec F S512x256 .f32) (x7 : Vec F S1x256 .f32) : FVec F S2000x256 .f32 :=
  k5_pay6 (View.ld x2 dat5_rR) (View.ld x3 dat5_rR) (View.ld x0 dat5_rH) (View.ld x1 dat5_rR) (View.ld x4 dat5_rR) (View.ld x6 dat5_rW) (View.ld x7 dat5_rS)
/-- The residual operand (`%36`). -/
def dat5_v36 (x5 : Vec F S2000x256 .f32) : FVec F S2000x256 .f32 := k5_pay7 (View.ld x5 dat5_rX)
/-- Output window 8's buffer after the body: the block of the layer's output (`%37`). -/
def dat5_o8 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) : Vec F S2000x256 .f32 :=
  View.canon [⟨dat5_rX, k5_pay1 (dat5_v34 x0 x1 x2 x3 x4 x6 x7) (dat5_v36 x5)⟩]
/-- The first scratch row after the body, from what it held (`a`): the block's column sums added. -/
def dat5_s0 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat5_rS, k5_pay2 (dat5_v34 x0 x1 x2 x3 x4 x6 x7) (dat5_v36 x5) (View.ld a dat5_rS)⟩]
/-- The second scratch row after the body, from what it held: the block's column sums of squares added. -/
def dat5_s1 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat5_rS, k5_pay3 (dat5_v34 x0 x1 x2 x3 x4 x6 x7) (dat5_v36 x5) (View.ld a dat5_rS)⟩]
/-- The scratch rows as the first point zeroes them. -/
def dat5_z0 : Vec F S1x256 .f32 := View.canon [⟨dat5_rS, k5_pay4 (F := F)⟩]
def dat5_z1 : Vec F S1x256 .f32 := View.canon [⟨dat5_rS, k5_pay5 (F := F)⟩]
/-- A statistics window's buffer after the last point: the scratch row copied. -/
def dat5_o9 (a : Vec F S1x256 .f32) : Vec F S1x256 .f32 := View.canon [⟨dat5_rS, View.ld a dat5_rS⟩]

set_option maxHeartbeats 4000000 in
/-- The body at a point that is neither the first nor the last (no conditional taken): from the inputs' buffers at
    their contents and the scratch rows at `a0`, `a1`, it leaves the inputs as they were, window 8 at the
    layer's output block, and the scratch rows with the block's column sums added. The statistics windows
    are not touched. -/
theorem dat5_runB (c : Dev nD) (E : Set ℕ) (i : grid5.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat5_c0 i) (hc1 : ¬dat5_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat5_o8 x0 x1 x2 x3 x4 x5 x6 x7) ∗ owns (c : Thread nD τ) arg12 fullShare (dat5_s0 x0 x1 x2 x3 x4 x5 x6 x7 a0) ∗ owns (c : Thread nD τ) arg13 fullShare (dat5_s1 x0 x1 x2 x3 x4 x5 x6 x7 a1)) -∗ K ⟨⟩))
      ⊢ wp frame (wpE (defs₀ (F := F)) Variants.none c none) E (cc5__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc5__lin2_stats_kernel_eq_skeleton]; unfold cc5__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat5_read_whole _ _ _ dat5_memX _ _ _ rfl
  isplitl [HS0]
  · iexists _; isplitr
    swap; · iexact HS0
    ipureintro
    exact dat5_read_whole _ _ _ dat5_memS _ _ _ rfl
  iexists _; isplitr
  swap; · iexact HS1
  ipureintro
  exact dat5_read_whole _ _ _ dat5_memS _ _ _ rfl

set_option maxHeartbeats 4000000 in
/-- The body at the first point (the first conditional taken, the second not): the scratch rows, at anything,
    are zeroed and then take the block's column sums. -/
theorem dat5_runA (c : Dev nD) (E : Set ℕ) (i : grid5.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : dat5_c0 i) (hc1 : ¬dat5_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat5_o8 x0 x1 x2 x3 x4 x5 x6 x7) ∗ owns (c : Thread nD τ) arg12 fullShare (dat5_s0 x0 x1 x2 x3 x4 x5 x6 x7 dat5_z0) ∗ owns (c : Thread nD τ) arg13 fullShare (dat5_s1 x0 x1 x2 x3 x4 x5 x6 x7 dat5_z1)) -∗ K ⟨⟩))
      ⊢ wp frame (wpE (defs₀ (F := F)) Variants.none c none) E (cc5__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc5__lin2_stats_kernel_eq_skeleton]; unfold cc5__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%da0, %fa0, -, HS0⟩, ⟨%da1, %fa1, -, HS1⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat5_read_whole _ _ _ dat5_memX _ _ _ rfl
  isplitl [HS0]
  · iexists _; isplitr
    swap; · iexact HS0
    ipureintro
    exact dat5_read_whole _ _ _ dat5_memS _ _ _
      (congrArg (k5_pay2 _ _) (View.readCov_eq_canon_ld _ _ _ (dat5_coverS _)))
  iexists _; isplitr
  swap; · iexact HS1
  ipureintro
  exact dat5_read_whole _ _ _ dat5_memS _ _ _
    (congrArg (k5_pay3 _ _) (View.readCov_eq_canon_ld _ _ _ (dat5_coverS _)))

set_option maxHeartbeats 4000000 in
/-- The body at the last point (the second conditional taken, the first not): as at a middle point, and then
    the two scratch rows are copied into the statistics windows 9 and 10. -/
theorem dat5_runC (c : Dev nD) (E : Set ℕ) (i : grid5.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat5_c0 i) (hc1 : dat5_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat5_o8 x0 x1 x2 x3 x4 x5 x6 x7) ∗ owns (c : Thread nD τ) arg10 fullShare (dat5_o9 (dat5_s0 x0 x1 x2 x3 x4 x5 x6 x7 a0)) ∗ owns (c : Thread nD τ) arg11 fullShare (dat5_o9 (dat5_s1 x0 x1 x2 x3 x4 x5 x6 x7 a1))
            ∗ owns (c : Thread nD τ) arg12 fullShare (dat5_s0 x0 x1 x2 x3 x4 x5 x6 x7 a0) ∗ owns (c : Thread nD τ) arg13 fullShare (dat5_s1 x0 x1 x2 x3 x4 x5 x6 x7 a1)) -∗ K ⟨⟩))
      ⊢ wp frame (wpE (defs₀ (F := F)) Variants.none c none) E (cc5__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc5__lin2_stats_kernel_eq_skeleton]; unfold cc5__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat5_read_whole _ _ _ dat5_memX _ _ _ rfl
  isplitl [H9]
  · iexists _; isplitr
    swap; · iexact H9
    ipureintro
    exact dat5_read_whole _ _ _ dat5_memS _ _ _
      (View.readCov_eq_canon_ld _ _ _ (dat5_coverS _))
  isplitl [H10]
  · iexists _; isplitr
    swap; · iexact H10
    ipureintro
    exact dat5_read_whole _ _ _ dat5_memS _ _ _
      (View.readCov_eq_canon_ld _ _ _ (dat5_coverS _))
  isplitl [HS0]
  · iexists _; isplitr
    swap; · iexact HS0
    ipureintro
    exact dat5_read_whole _ _ _ dat5_memS _ _ _ rfl
  iexists _; isplitr
  swap; · iexact HS1
  ipureintro
  exact dat5_read_whole _ _ _ dat5_memS _ _ _ rfl

/-! ## The blocks' contributions, point by point -/

/-- Window 8's buffer after the body at point `t`: the output block of the input blocks there. -/
def dat5_O8 (c : Dev nD) (t : Fin cfg5.N) : Vec F S2000x256 .f32 := dat5_o8 (iblk5 V c 0 t) (iblk5 V c 1 t) (iblk5 V c 2 t) (iblk5 V c 3 t) (iblk5 V c 4 t) (iblk5 V c 5 t) (iblk5 V c 6 t) (iblk5 V c 7 t)
/-- The first scratch row after the body at point `t`, from what it held. -/
def dat5_S0 (c : Dev nD) (t : Fin cfg5.N) (a : Vec F S1x256 .f32) : Vec F S1x256 .f32 := dat5_s0 (iblk5 V c 0 t) (iblk5 V c 1 t) (iblk5 V c 2 t) (iblk5 V c 3 t) (iblk5 V c 4 t) (iblk5 V c 5 t) (iblk5 V c 6 t) (iblk5 V c 7 t) a
/-- The second scratch row after the body at point `t`, from what it held. -/
def dat5_S1 (c : Dev nD) (t : Fin cfg5.N) (a : Vec F S1x256 .f32) : Vec F S1x256 .f32 := dat5_s1 (iblk5 V c 0 t) (iblk5 V c 1 t) (iblk5 V c 2 t) (iblk5 V c 3 t) (iblk5 V c 4 t) (iblk5 V c 5 t) (iblk5 V c 6 t) (iblk5 V c 7 t) a

/-- THE ACCUMULATION. What the two scratch rows hold after the body at position `n`: from zero at the first point,
    each point adds its block's column sums (of the values, of their squares) to what the point before left. -/
def dat5_acc (c : Dev nD) : (n : ℕ) → n < cfg5.N → Vec F S1x256 .f32 × Vec F S1x256 .f32
  | 0, hn => (dat5_S0 V c ⟨0, hn⟩ dat5_z0, dat5_S1 V c ⟨0, hn⟩ dat5_z1)
  | n + 1, hn => (dat5_S0 V c ⟨n + 1, hn⟩ (dat5_acc c n (Nat.lt_of_succ_lt hn)).1, dat5_S1 V c ⟨n + 1, hn⟩ (dat5_acc c n (Nat.lt_of_succ_lt hn)).2)

theorem dat5_acc_zero (c : Dev nD) (t : Fin cfg5.N) (h : t.val = 0) :
    dat5_acc V c t.val t.isLt = (dat5_S0 V c t dat5_z0, dat5_S1 V c t dat5_z1) := by
  obtain ⟨n, hn⟩ := t
  cases n with
  | zero => rfl
  | succ n => exact absurd h (Nat.succ_ne_zero n)

theorem dat5_acc_pos (c : Dev nD) (t : Fin cfg5.N) (h : t.val ≠ 0) :
    dat5_acc V c t.val t.isLt = (dat5_S0 V c t (dat5_acc V c (t.val - 1) (Nat.lt_of_le_of_lt (Nat.sub_le _ _) t.isLt)).1,
      dat5_S1 V c t (dat5_acc V c (t.val - 1) (Nat.lt_of_le_of_lt (Nat.sub_le _ _) t.isLt)).2) := by
  obtain ⟨n, hn⟩ := t
  cases n with
  | zero => exact absurd rfl h
  | succ n => rfl

/-! ## The region invariant -/

/-- The scratch rows as memrefs: whole scoped buffers of the kernel's own. -/
abbrev dat5_scM0 : Memref sig .tc .vmem S1x256 .f32 := Memref.whole cc5_scratch0
abbrev dat5_scM1 : Memref sig .tc .vmem S1x256 .f32 := Memref.whole cc5_scratch1

/-- Every other scoped buffer of the core, unopened. -/
abbrev dat5_rest (c : Dev nD) : sProp 𝕄 :=
  Pipeline.scopedRestBut (Ix := Unit) (Name := ℕ) (U := UR sig nD τ) (Lvl := ℕ) (Val := Elt F) spec5 c [cc5_scratch0, cc5_scratch1]

/-- The invariant before position `n`: before the first point every scoped buffer that is no staging buffer at
    anything and the generator register at some state; afterwards the two scratch rows at what the point before
    left (`dat5_acc`), the other scoped buffers unopened, the generator register at some state. -/
def dat5_Phi (c : Dev nD) : (n : ℕ) → n ≤ cfg5.N → sProp 𝕄
  | 0, _ => Pipeline.ΦA spec5 c
  | n + 1, hn => iprop(iprop(iprop(owns (c : Thread nD τ) dat5_scM0 fullShare (dat5_acc V c n hn).1 ∗ owns (c : Thread nD τ) dat5_scM1 fullShare (dat5_acc V c n hn).2) ∗ dat5_rest c) ∗ (∃ r, prngReg c r))

theorem dat5_Phi_zero (c : Dev nD) (n : ℕ) (h : n ≤ cfg5.N) (hz : n = 0) : dat5_Phi V c n h = Pipeline.ΦA spec5 c := by
  subst hz; rfl

theorem dat5_Phi_succ (c : Dev nD) (n : ℕ) (hn : n < cfg5.N) :
    dat5_Phi V c (n + 1) hn = iprop(iprop(iprop(owns (c : Thread nD τ) dat5_scM0 fullShare (dat5_acc V c n hn).1 ∗ owns (c : Thread nD τ) dat5_scM1 fullShare (dat5_acc V c n hn).2) ∗ dat5_rest c) ∗ (∃ r, prngReg c r)) := rfl

theorem dat5_Phi_pos (c : Dev nD) (n : ℕ) (h : n ≤ cfg5.N) (hz : n ≠ 0) :
    dat5_Phi V c n h = iprop(iprop(iprop(owns (c : Thread nD τ) dat5_scM0 fullShare (dat5_acc V c (n - 1) (by omega)).1 ∗ owns (c : Thread nD τ) dat5_scM1 fullShare (dat5_acc V c (n - 1) (by omega)).2) ∗ dat5_rest c) ∗ (∃ r, prngReg c r)) := by
  cases n with
  | zero => exact absurd rfl hz
  | succ n => rfl

/-- The first point's invariant with the two scratch rows as memrefs owned at some contents. -/
theorem dat5_PhiA_eq (c : Dev nD) :
    (Pipeline.ΦA spec5 c : sProp 𝕄)
      = iprop(iprop(iprop((∃ d, owns (c : Thread nD τ) dat5_scM0 fullShare d) ∗ (∃ d, owns (c : Thread nD τ) dat5_scM1 fullShare d)) ∗ dat5_rest c) ∗ (∃ r, prngReg c r)) := by
  unfold Pipeline.ΦA; rw [scopedRest5_split]; simp only [dat5_scM0, dat5_scM1, owns_whole]; try rfl

/-! ## The pipeline's proof data -/

/-- The proof data of the pipeline on core `c`: the arrays as the region finds them (`V`); after the body at point
    `t` each input's buffer at its block, window 8's at the output block, the statistics windows' at the copied
    accumulators (read at the last point only: elsewhere they are idle); the invariant `dat5_Phi`; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => dat5_O8 V c t
    | ⟨9, _⟩ => dat5_o9 (dat5_acc V c t.val t.isLt).1
    | ⟨10, _⟩ => dat5_o9 (dat5_acc V c t.val t.isLt).2
  Φ t := dat5_Phi V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) : ∀ w, (dat5 V c).q w = fullShare := fun _ => rfl
theorem owed_eq5 (c : Dev nD) : ∀ t, (dat5 V c).owed t = 0 := fun _ => rfl

theorem dat5_Phi_castSucc (c : Dev nD) (t : Fin cfg5.N) :
    (dat5 V c).Φ t.castSucc = dat5_Phi V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = dat5_O8 V c t := by dsimp only [dat5]
theorem after5_9 (c : Dev nD) (t : Fin cfg5.N) : (dat5 V c).after 9 t = dat5_o9 (dat5_acc V c t.val t.isLt).1 := by dsimp only [dat5]
theorem after5_10 (c : Dev nD) (t : Fin cfg5.N) : (dat5 V c).after 10 t = dat5_o9 (dat5_acc V c t.val t.isLt).2 := by dsimp only [dat5]

/-- Each input's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl) (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl) (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (fun _ => rfl) (fun _ _ _ => rfl) (fun t => by rw [after5_7]; unfold Dat.blockOf iblk5; rw [A_eq5]; try rfl) t d).trans
    (by unfold Dat.fetched Dat.blockOf iblk5; rw [A_eq5]; try rfl)

/-! ## Where the windows are idle -/

theorem dat5_live0 : ∀ t : Fin cfg5.N, cfg5.idle 0 (grid5.coords t) = false := fun _ => rfl
theorem dat5_live1 : ∀ t : Fin cfg5.N, cfg5.idle 1 (grid5.coords t) = false := fun _ => rfl
theorem dat5_live2 : ∀ t : Fin cfg5.N, cfg5.idle 2 (grid5.coords t) = false := fun _ => rfl
theorem dat5_live3 : ∀ t : Fin cfg5.N, cfg5.idle 3 (grid5.coords t) = false := fun _ => rfl
theorem dat5_live4 : ∀ t : Fin cfg5.N, cfg5.idle 4 (grid5.coords t) = false := fun _ => rfl
theorem dat5_live5 : ∀ t : Fin cfg5.N, cfg5.idle 5 (grid5.coords t) = false := fun _ => rfl
theorem dat5_live6 : ∀ t : Fin cfg5.N, cfg5.idle 6 (grid5.coords t) = false := fun _ => rfl
theorem dat5_live7 : ∀ t : Fin cfg5.N, cfg5.idle 7 (grid5.coords t) = false := fun _ => rfl
theorem dat5_live8 : ∀ t : Fin cfg5.N, cfg5.idle 8 (grid5.coords t) = false := fun _ => rfl
/-- Off the last point the body stores nothing into window 9, and the pipeline does not write it back. -/
theorem dat5_idle9 : ∀ t : Fin cfg5.N, ¬dat5_c1 (grid5.coords t) → cfg5.idle 9 (grid5.coords t) = true := by decide +kernel
theorem dat5_noFlush9 : ∀ t : Fin cfg5.N, ¬dat5_c1 (grid5.coords t) → (cfg5.win 9).flush t = false := by decide +kernel
/-- At the last point it does. -/
theorem dat5_live9 : ∀ t : Fin cfg5.N, dat5_c1 (grid5.coords t) → cfg5.idle 9 (grid5.coords t) = false := by decide +kernel
/-- Off the last point the body stores nothing into window 10, and the pipeline does not write it back. -/
theorem dat5_idle10 : ∀ t : Fin cfg5.N, ¬dat5_c1 (grid5.coords t) → cfg5.idle 10 (grid5.coords t) = true := by decide +kernel
theorem dat5_noFlush10 : ∀ t : Fin cfg5.N, ¬dat5_c1 (grid5.coords t) → (cfg5.win 10).flush t = false := by decide +kernel
/-- At the last point it does. -/
theorem dat5_live10 : ∀ t : Fin cfg5.N, dat5_c1 (grid5.coords t) → cfg5.idle 10 (grid5.coords t) = false := by decide +kernel

/-! ## The body obligation, at a generic point -/

/-- What the body is called with at point `t`, the windows one by one, -/
def dat5_pre (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def dat5_post (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t
    ∗ (dat5 V c).leavesExact 10 t)

set_option maxHeartbeats 4800000 in
/-- The body at any point: the inputs' memrefs hold their blocks; the point is the first, a middle one or the last,
    which decides the body's two conditionals; the invariant hands the body the scratch rows at what the point
    before left (at anything at the first point) and takes them back at this point's accumulators; off the
    last point the statistics windows pass by untouched; the core owes nothing throughout. -/
theorem dat5_sound_body (c : Dev nD) (t : Fin cfg5.N) :
    dat5_pre V c t ⊢ wp frame (wpE (defs₀ (F := F)) Variants.none c none) Set.univ (bodyAt5 t) (fun _ => dat5_post V c t) := by
  unfold dat5_pre dat5_post bodyAt5
  simp only [before5_0, before5_1, before5_2, before5_3, before5_4, before5_5, before5_6, before5_7]
  rw [show (dat5 V c).owesAt () t.succ = (dat5 V c).owesAt () t.castSucc from rfl]
  rw [show (dat5 V c).Φ t.succ = dat5_Phi V c (t.val + 1) t.isLt from rfl, dat5_Phi_succ]
  rw [show (dat5 V c).leavesExact 0 t = owns (c : Thread nD τ) (st5_0 t) fullShare ((dat5 V c).after 0 t) from by
    unfold Dat.leavesExact; rw [dat5_live0 t], after5_0]
  rw [show (dat5 V c).leavesExact 1 t = owns (c : Thread nD τ) (st5_1 t) fullShare ((dat5 V c).after 1 t) from by
    unfold Dat.leavesExact; rw [dat5_live1 t], after5_1]
  rw [show (dat5 V c).leavesExact 2 t = owns (c : Thread nD τ) (st5_2 t) fullShare ((dat5 V c).after 2 t) from by
    unfold Dat.leavesExact; rw [dat5_live2 t], after5_2]
  rw [show (dat5 V c).leavesExact 3 t = owns (c : Thread nD τ) (st5_3 t) fullShare ((dat5 V c).after 3 t) from by
    unfold Dat.leavesExact; rw [dat5_live3 t], after5_3]
  rw [show (dat5 V c).leavesExact 4 t = owns (c : Thread nD τ) (st5_4 t) fullShare ((dat5 V c).after 4 t) from by
    unfold Dat.leavesExact; rw [dat5_live4 t], after5_4]
  rw [show (dat5 V c).leavesExact 5 t = owns (c : Thread nD τ) (st5_5 t) fullShare ((dat5 V c).after 5 t) from by
    unfold Dat.leavesExact; rw [dat5_live5 t], after5_5]
  rw [show (dat5 V c).leavesExact 6 t = owns (c : Thread nD τ) (st5_6 t) fullShare ((dat5 V c).after 6 t) from by
    unfold Dat.leavesExact; rw [dat5_live6 t], after5_6]
  rw [show (dat5 V c).leavesExact 7 t = owns (c : Thread nD τ) (st5_7 t) fullShare ((dat5 V c).after 7 t) from by
    unfold Dat.leavesExact; rw [dat5_live7 t], after5_7]
  rw [show (dat5 V c).leavesExact 8 t = owns (c : Thread nD τ) (st5_8 t) fullShare ((dat5 V c).after 8 t) from by
    unfold Dat.leavesExact; rw [dat5_live8 t], after5_8]
  have hN : t.val < 25 := lt_of_lt_of_eq t.isLt dat5_N
  by_cases h0 : t.val = 0
  · have h1 : ¬t.val = 24 := by omega
    have hc0 : dat5_c0 (grid5.coords t) := (dat5_hc0 t).mpr h0
    have hc1 : ¬dat5_c1 (grid5.coords t) := fun h => h1 ((dat5_hc1 t).mp h)
    rw [Dat.leavesExact_idle (dat5 V c) 9 t (dat5_idle9 t hc1) (dat5_noFlush9 t hc1),
      Dat.leavesExact_idle (dat5 V c) 10 t (dat5_idle10 t hc1) (dat5_noFlush10 t hc1)]
    rw [dat5_acc_zero V c t h0]
    rw [dat5_Phi_castSucc V c t, dat5_Phi_zero V c _ _ h0, dat5_PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (dat5_runA c Set.univ (grid5.coords t) _ _ _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) (iblk5 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hpos : dat5_acc V c t.val t.isLt = _ := dat5_acc_pos V c t h0
    by_cases h1 : t.val = 24
    · have hc0 : ¬dat5_c0 (grid5.coords t) := fun h => h0 ((dat5_hc0 t).mp h)
      have hc1 : dat5_c1 (grid5.coords t) := (dat5_hc1 t).mpr h1
      rw [show (dat5 V c).leavesExact 9 t = owns (c : Thread nD τ) (st5_9 t) fullShare ((dat5 V c).after 9 t) from by
        unfold Dat.leavesExact; rw [dat5_live9 t hc1], after5_9]
      rw [show (dat5 V c).leavesExact 10 t = owns (c : Thread nD τ) (st5_10 t) fullShare ((dat5 V c).after 10 t) from by
        unfold Dat.leavesExact; rw [dat5_live10 t hc1], after5_10]
      rw [hpos]
      rw [dat5_Phi_castSucc V c t, dat5_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat5_runC c Set.univ (grid5.coords t) _ _ _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) (iblk5 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · icases H9 with ⟨%d9, H9⟩; iexists _; iexact H9
      isplitl [H10]; · icases H10 with ⟨%d10, H10⟩; iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬dat5_c0 (grid5.coords t) := fun h => h0 ((dat5_hc0 t).mp h)
      have hc1 : ¬dat5_c1 (grid5.coords t) := fun h => h1 ((dat5_hc1 t).mp h)
      rw [Dat.leavesExact_idle (dat5 V c) 9 t (dat5_idle9 t hc1) (dat5_noFlush9 t hc1),
        Dat.leavesExact_idle (dat5 V c) 10 t (dat5_idle10 t hc1) (dat5_noFlush10 t hc1)]
      rw [hpos]
      rw [dat5_Phi_castSucc V c t, dat5_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat5_runB c Set.univ (grid5.coords t) _ _ _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) (iblk5 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation5 (c : Dev nD) : BodyObligation (dat5 (F := F) V c) (defs₀ (F := F)) Variants.none () Set.univ := fun t => by
  rw [bigSep_W5, bigSep_W5]
  exact dat5_sound_body V c t

/-! ## Into the invariant and out of it -/

/-- What the region is entered with is the invariant before the first point (the prefetched tables, none here,
    are not used). -/
theorem hin5 (c : Dev nD) : iprop((∃ r, prngReg c r) ∗ Pipeline.prefHeld (pcfgs (F := F) 5).pre c (fun _ => fullShare) (((cfgs 5).toPCfg_adm).1) ∗ Pipeline.scopedRest spec5 c) ⊢ (dat5 V c).Φ 0 := by
  rw [show (dat5 V c).Φ 0 = Pipeline.ΦA spec5 c from rfl]; unfold Pipeline.ΦA
  iintro ⟨Hp, -, Hr⟩
  isplitl [Hr]; · iexact Hr
  iexact Hp

/-- After the last point the invariant gives the scoped buffers back: the scratch rows' named contents are forgotten. -/
theorem hout5 (c : Dev nD) : (dat5 V c).Φ (Fin.last cfg5.N) ⊢ iprop((∃ r, prngReg c r) ∗ Pipeline.ownSems0 (fun k : PEmpty => k.elim) c ∗ Pipeline.scopedRest spec5 c) := by
  rw [Pipeline.ownSems0_none, show (dat5 V c).Φ (Fin.last cfg5.N) = dat5_Phi V c (Fin.last cfg5.N).val (Nat.le_of_lt_succ (Fin.last cfg5.N).isLt) from rfl,
    dat5_Phi_pos V c _ _ (by rw [Fin.val_last]; have : cfg5.N = 25 := dat5_N; omega), scopedRest5_split]
  simp only [dat5_scM0, dat5_scM1, owns_whole]
  iintro ⟨⟨⟨HS0, HS1⟩, Hrest⟩, Hg⟩
  isplitl [Hg]; · iexact Hg
  isplitr; · iempintro
  isplitl [HS0 HS1]
  · isplitl [HS0]; · iexists _; iexact HS0
    iexists _; iexact HS1
  iexact Hrest

end Cert.Kernel.Hand

end
-- ==== Proof.K.R6.lean ====
/-
  Region 6 of the kernel's @main: the batch-norm finalize kernel
  out = g·(h − mean)·rsqrt(var + eps) + beta, one grid point per block of 2000 rows.
  At the buffer contents V the region is entered with: each window's block at a point, what the body leaves in the
  output window's buffer (its one whole-block store of the payload of the five loaded blocks), the body's triple, the
  pipeline's proof data and the body obligation, and the invariant at the region's two ends.
-/
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: where the window is not fetched its block index
    has not moved, so the buffer still holds the previous point's block, which is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: where the window is not fetched its block index
    has not moved, so the buffer still holds the previous point's block, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: where the window is not fetched its block index
    has not moved, so the buffer still holds the previous point's block, which is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place: where the window is not fetched its block index
    has not moved, so the buffer still holds the previous point's block, which is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place: where the window is not fetched its block index
    has not moved, so the buffer still holds the previous point's block, which is this point's. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take the whole block -/

abbrev r6_0 : Rect S2000x256 := Rect.unit (s := S2000x256) ![0, 0] S2000x256.size inb_S2000x256_S2000x256_0_0
abbrev r6_1 : Rect S1x256 := Rect.unit (s := S1x256) ![0, 0] S1x256.size inb_S1x256_S1x256_0_0
abbrev r6_2 : Rect S1x256 := Rect.unit (s := S1x256) ![0, 0] S1x256.size inb_S1x256_S1x256_0_0
abbrev r6_3 : Rect S1x256 := Rect.unit (s := S1x256) ![0, 0] S1x256.size inb_S1x256_S1x256_0_0
abbrev r6_4 : Rect S1x256 := Rect.unit (s := S1x256) ![0, 0] S1x256.size inb_S1x256_S1x256_0_0
abbrev r6_5 : Rect S2000x256 := Rect.unit (s := S2000x256) ![0, 0] S2000x256.size inb_S2000x256_S2000x256_0_0

/-! ## What the body leaves in the output window's buffer -/

/-- Window 5's staging buffer after the body, from the input windows' blocks: its one store, of the payload
    computed from the loaded blocks. -/
def out6_5 (xa : Vec F S2000x256 .f32) (xb : Vec F S1x256 .f32) (xc : Vec F S1x256 .f32) (xd : Vec F S1x256 .f32) (xe : Vec F S1x256 .f32) : Vec F S2000x256 .f32 :=
  View.canon [⟨r6_5, k6_pay1 (View.ld xc r6_2) (View.ld xd r6_3) (View.ld xa r6_0) (View.ld xb r6_1) (View.ld xe r6_4)⟩]

/-- The store takes the whole buffer, so it covers it. -/
theorem cover6_5 (pw : Vec F S2000x256 .f32) (y : S2000x256.Idx) :
    ∃ pc ∈ ([⟨r6_5, pw⟩] : List (View.Piece (Elt F) S2000x256 .f32)), y ∈ pc.1.set :=
  View.cover_of_tiled [⟨r6_5, pw⟩] S2000x256.size (by rfl) y

/-! ## The body's triple -/

set_option maxHeartbeats 1000000 in
/-- The kernel body on whole staging memrefs, the inputs' at read contents `xW` and the output's at anything, runs to
    the continuation holding the inputs' as they were and the output's at `out6_5` of the inputs'. -/
theorem sound_kernel6 (c : Dev nD) (E : Set ℕ) (i : grid6.Coords) (ma : Memref sig .tc .vmem S2000x256 .f32) (hma : ma.IsWhole) (mb : Memref sig .tc .vmem S1x256 .f32) (hmb : mb.IsWhole) (mc : Memref sig .tc .vmem S1x256 .f32) (hmc : mc.IsWhole) (md : Memref sig .tc .vmem S1x256 .f32) (hmd : md.IsWhole) (me : Memref sig .tc .vmem S1x256 .f32) (hme : me.IsWhole) (mf : Memref sig .tc .vmem S2000x256 .f32) (hmf : mf.IsWhole)
    (xa : Vec F S2000x256 .f32) (xb : Vec F S1x256 .f32) (xc : Vec F S1x256 .f32) (xd : Vec F S1x256 .f32) (xe : Vec F S1x256 .f32) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ (∃ d, owns (c : Thread nD τ) mf fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ owns (c : Thread nD τ) mf fullShare (out6_5 xa xb xc xd xe)) -∗ K ⟨⟩))
      ⊢ wp frame (wpE (defs₀ (F := F)) Variants.none c none) E (cc6__bn_finalize_kernel i ma hma mb hmb mc hmc md hmd me hme mf hmf) K := by
  simp only [cc6__bn_finalize_kernel_eq_skeleton]; unfold cc6__bn_finalize_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover6_5 _)

/-! ## The pipeline's proof data -/

/-- The proof data of pipeline 6 on core `c`: the arrays as the region finds them (`V`); after the body at
    point `t` each input's buffer at its block and the output's at `out6_5` of the input blocks; the invariant
    holds the scoped buffers no window stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- Every window is held at the full share, and the body owes nothing at any point. -/
theorem q_eq6 (c : Dev nD) : ∀ w, (dat6 V c).q w = fullShare := fun _ => rfl
theorem owed_eq6 (c : Dev nD) : ∀ t, (dat6 V c).owed t = 0 := fun _ => rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the kernel's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%da, Ha⟩, ⟨%db, Hb⟩, ⟨%dc, Hc⟩, ⟨%dd, Hd⟩, ⟨%de, He⟩, ⟨%df, Hf⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- The invariant at the first point, from the generator register at some state, the (empty) prefetched tables and the
    scoped buffers no window stages. -/
theorem hin6 (c : Dev nD) :
    (iprop((∃ r, prngReg c r) ∗ Pipeline.prefHeld (pcfgs (F := F) 6).pre c (fun _ => fullShare) (((cfgs 6).toPCfg_adm).1)
      ∗ Pipeline.scopedRest spec6 c) : sProp 𝕄) ⊢ (dat6 V c).Φ 0 := by
  rw [show (dat6 V c).Φ 0 = Pipeline.ΦA spec6 c from rfl]; unfold Pipeline.ΦA
  iintro ⟨Hp, -, Hr⟩
  isplitl [Hr]; · iexact Hr
  iexact Hp

/-- The invariant at the last point gives back the generator register, no semaphore of the kernel's own, and those
    scoped buffers. -/
theorem hout6 (c : Dev nD) :
    (dat6 V c).Φ (Fin.last cfg6.N) ⊢ (iprop((∃ r, prngReg c r) ∗ Pipeline.ownSems0 (fun k : PEmpty => k.elim) c
      ∗ Pipeline.scopedRest spec6 c) : sProp 𝕄) := by
  rw [Pipeline.ownSems0_none, show (dat6 V c).Φ (Fin.last _) = Pipeline.ΦA spec6 c from rfl]; unfold Pipeline.ΦA
  iintro ⟨Hr, Hp⟩
  isplitl [Hp]; · iexact Hp
  isplitr; · iempintro
  iexact Hr

end Cert.Kernel.Hand

end
-- ==== Proof.K.R7.lean ====
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the first linear layer with its column statistics

The body at a grid point reads a block of rows of the two summands, the weight matrix and the bias row, stores the
block of the affine image, and adds the block's column sums and column sums of squares to two running rows kept in
scratch memory: zeroed at the first point, copied to the two statistics outputs at the last point. -/

/-- The zero offsets of a whole-buffer access, as a constant function. -/
theorem k7_hz : (![0, 0] : Fin 2 → Nat) = fun _ => 0 := funext fun a => by fin_cases a <;> rfl

/-- A buffer read after a list of stores whose LAST one overwrote the whole buffer holds that store's payload. -/
theorem k7_read_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole-buffer load made after such a list of stores reads the last store's payload. -/
theorem k7_readCov_store {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form -/

/-- The first conditional is taken at the grid's first point: there the running rows are zeroed. -/
abbrev k7_c1 (i : grid7.Coords) : Prop := (Scalar.cmpi .ne (Scalar.extui (Scalar.cmpi .eq (BitVec.ofNat 32 (i 0).val) 0#32)) 0#32) = 1#1
/-- The second at the last point: there the running rows are copied out. -/
abbrev k7_c2 (i : grid7.Coords) : Prop := k7_cond2 i = 1#1

theorem k7_hc1 : ∀ t : Fin cfg7.N, k7_c1 (grid7.coords t) ↔ t.val = 0 :=
  (by decide +kernel : ∀ t : Fin grid7.N, k7_c1 (grid7.coords t) ↔ t.val = 0)
theorem k7_hc2 : ∀ t : Fin cfg7.N, k7_c2 (grid7.coords t) ↔ t.val = 24 :=
  (by decide +kernel : ∀ t : Fin grid7.N, k7_c2 (grid7.coords t) ↔ t.val = 24)

/-- The inputs and the first output are live at every point; the two statistics outputs only at the last. -/
theorem k7_live_0 : ∀ t : Fin cfg7.N, cfg7.idle 0 (grid7.coords t) = false := by decide +kernel
theorem k7_live_1 : ∀ t : Fin cfg7.N, cfg7.idle 1 (grid7.coords t) = false := by decide +kernel
theorem k7_live_2 : ∀ t : Fin cfg7.N, cfg7.idle 2 (grid7.coords t) = false := by decide +kernel
theorem k7_live_3 : ∀ t : Fin cfg7.N, cfg7.idle 3 (grid7.coords t) = false := by decide +kernel
theorem k7_live_4 : ∀ t : Fin cfg7.N, cfg7.idle 4 (grid7.coords t) = false := by decide +kernel
theorem k7_idle_5 : ∀ t : Fin cfg7.N, t.val ≠ 24 → cfg7.idle 5 (grid7.coords t) = true := by decide +kernel
theorem k7_noflush_5 : ∀ t : Fin cfg7.N, t.val ≠ 24 → (cfg7.win 5).flush t = false := by decide +kernel
theorem k7_last_5 : ∀ t : Fin cfg7.N, t.val = 24 → cfg7.idle 5 (grid7.coords t) = false := by decide +kernel
theorem k7_idle_6 : ∀ t : Fin cfg7.N, t.val ≠ 24 → cfg7.idle 6 (grid7.coords t) = true := by decide +kernel
theorem k7_noflush_6 : ∀ t : Fin cfg7.N, t.val ≠ 24 → (cfg7.win 6).flush t = false := by decide +kernel
theorem k7_last_6 : ∀ t : Fin cfg7.N, t.val = 24 → cfg7.idle 6 (grid7.coords t) = false := by decide +kernel

/-- The two scratch rows, as whole memrefs. -/
abbrev k7_sc0 : Memref sig .tc .vmem S1x512 .f32 := Memref.whole cc7_scratch0
abbrev k7_sc1 : Memref sig .tc .vmem S1x512 .f32 := Memref.whole cc7_scratch1

/-! ## The body's triple, one per control case

On whole staging memrefs: the inputs at their contents, the first output at anything, the two statistics outputs handed
back untouched (or, at the last point, overwritten), the two scratch rows at what the point before left. -/

set_option maxHeartbeats 4000000 in
/-- At the first point: the running rows are zeroed, then this block's column sums are added. -/
theorem k7_runA (c : Dev nD) (i : grid7.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : k7_c1 i) (hc2 : ¬ k7_c2 i)
    (x0 : Vec F S2000x256 .f32) (x1 : Vec F S2000x256 .f32) (x2 : Vec F S256x512 .f32) (x3 : Vec F S1x512 .f32)
    (xi5 : Vec F S1x512 .f32) (xi6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k7_pay3 x0 x1 x2 x3)
            ∗ owns (c : Thread nD τ) arg6 fullShare xi5 ∗ owns (c : Thread nD τ) arg7 fullShare xi6
            ∗ owns (c : Thread nD τ) arg8 fullShare (k7_pay4 x0 x1 x2 x3 (k7_pay1 (F := F)))
            ∗ owns (c : Thread nD τ) arg9 fullShare (k7_pay5 x0 x1 x2 x3 (k7_pay2 (F := F)))) -∗ K ⟨⟩))
      ⊢ wp frame (wpE (defs₀ (F := F)) Variants.none c none) E
          (cc7__lin1_stats_kernel i arg1 harg1 arg2 harg2 arg3 harg3 arg4 harg4 arg5 harg5 arg6 harg6 arg7 harg7 arg8 harg8 arg9 harg9) K := by
  simp only [cc7__lin1_stats_kernel_eq_skeleton]; unfold cc7__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  iexists _; isplitr
  swap; · iexact H8
  ipureintro
  sl_unfold_words
  refine (k7_read_store _ _ k7_hz _ _ _).trans ?_
  simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]

set_option maxHeartbeats 4000000 in
/-- At a point between: this block's column sums are added to the running rows. -/
theorem k7_runB (c : Dev nD) (i : grid7.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k7_c1 i) (hc2 : ¬ k7_c2 i)
    (x0 : Vec F S2000x256 .f32) (x1 : Vec F S2000x256 .f32) (x2 : Vec F S256x512 .f32) (x3 : Vec F S1x512 .f32)
    (xi5 : Vec F S1x512 .f32) (xi6 : Vec F S1x512 .f32) (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k7_pay3 x0 x1 x2 x3)
            ∗ owns (c : Thread nD τ) arg6 fullShare xi5 ∗ owns (c : Thread nD τ) arg7 fullShare xi6
            ∗ owns (c : Thread nD τ) arg8 fullShare (k7_pay4 x0 x1 x2 x3 xs0)
            ∗ owns (c : Thread nD τ) arg9 fullShare (k7_pay5 x0 x1 x2 x3 xs1)) -∗ K ⟨⟩))
      ⊢ wp frame (wpE (defs₀ (F := F)) Variants.none c none) E
          (cc7__lin1_stats_kernel i arg1 harg1 arg2 harg2 arg3 harg3 arg4 harg4 arg5 harg5 arg6 harg6 arg7 harg7 arg8 harg8 arg9 harg9) K := by
  simp only [cc7__lin1_stats_kernel_eq_skeleton]; unfold cc7__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  iexists _; isplitr
  swap; · iexact H8
  ipureintro
  sl_unfold_words
  refine (k7_read_store _ _ k7_hz _ _ _).trans ?_
  simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]

set_option maxHeartbeats 4000000 in
/-- At the last point: the same, and the two running rows are then copied to the statistics outputs. -/
theorem k7_runC (c : Dev nD) (i : grid7.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k7_c1 i) (hc2 : k7_c2 i)
    (x0 : Vec F S2000x256 .f32) (x1 : Vec F S2000x256 .f32) (x2 : Vec F S256x512 .f32) (x3 : Vec F S1x512 .f32)
    (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k7_pay3 x0 x1 x2 x3)
            ∗ owns (c : Thread nD τ) arg6 fullShare (k7_pay4 x0 x1 x2 x3 xs0) ∗ owns (c : Thread nD τ) arg7 fullShare (k7_pay5 x0 x1 x2 x3 xs1)
            ∗ owns (c : Thread nD τ) arg8 fullShare (k7_pay4 x0 x1 x2 x3 xs0)
            ∗ owns (c : Thread nD τ) arg9 fullShare (k7_pay5 x0 x1 x2 x3 xs1)) -∗ K ⟨⟩))
      ⊢ wp frame (wpE (defs₀ (F := F)) Variants.none c none) E
          (cc7__lin1_stats_kernel i arg1 harg1 arg2 harg2 arg3 harg3 arg4 harg4 arg5 harg5 arg6 harg6 arg7 harg7 arg8 harg8 arg9 harg9) K := by
  simp only [cc7__lin1_stats_kernel_eq_skeleton]; unfold cc7__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H5]
  · iexists _; isplitr
    swap; · iexact H5
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H6]
  · iexists _; isplitr
    swap; · iexact H6
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H7]
  · iexists _; isplitr
    swap; · iexact H7
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  iexists _; isplitr
  swap; · iexact H8
  ipureintro
  sl_unfold_words
  refine (k7_read_store _ _ k7_hz _ _ _).trans ?_
  simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]

/-! ## The running rows, point by point -/

/-- One point's step on the two running rows: the block's column sums and column sums of squares added. -/
def k7_step (c : Dev nD) (t : Fin cfg7.N) (a : Vec F S1x512 .f32 × Vec F S1x512 .f32) : Vec F S1x512 .f32 × Vec F S1x512 .f32 :=
  (k7_pay4 (iblk7 V c 0 t) (iblk7 V c 1 t) (iblk7 V c 2 t) (iblk7 V c 3 t) a.1, k7_pay5 (iblk7 V c 0 t) (iblk7 V c 1 t) (iblk7 V c 2 t) (iblk7 V c 3 t) a.2)

/-- The first point, as a point of the grid. -/
abbrev k7_t0 : Fin cfg7.N := ⟨0, by rw [show cfg7.N = 25 from N_7]; decide⟩

/-- The two running rows after point `n`: from the zero rows, one step per point. -/
def k7_acc (c : Dev nD) : ℕ → Vec F S1x512 .f32 × Vec F S1x512 .f32
  | 0 => k7_step V c k7_t0 (k7_pay1 (F := F), k7_pay2 (F := F))
  | n + 1 => if h : n + 1 < cfg7.N then k7_step V c ⟨n + 1, h⟩ (k7_acc c n) else k7_acc c n

theorem k7_acc_zero (c : Dev nD) : k7_acc V c 0 = k7_step V c k7_t0 (k7_pay1 (F := F), k7_pay2 (F := F)) := rfl

theorem k7_acc_succ (c : Dev nD) (n : ℕ) (h : n + 1 < cfg7.N) : k7_acc V c (n + 1) = k7_step V c ⟨n + 1, h⟩ (k7_acc V c n) := by
  rw [k7_acc]; exact dif_pos h

/-- At the first point of the grid. -/
theorem k7_acc_first (c : Dev nD) (t : Fin cfg7.N) (h : t.val = 0) : k7_acc V c t.val = k7_step V c t (k7_pay1 (F := F), k7_pay2 (F := F)) := by
  obtain ⟨n, hn⟩ := t
  obtain rfl : n = 0 := h
  rfl

/-- At a later point. -/
theorem k7_acc_later (c : Dev nD) (t : Fin cfg7.N) (h : t.val ≠ 0) : k7_acc V c t.val = k7_step V c t (k7_acc V c (t.val - 1)) := by
  obtain ⟨n, hn⟩ := t
  cases n with
  | zero => exact absurd rfl h
  | succ n => exact k7_acc_succ V c n hn

/-- The region's invariant before point `n`: before the first point the two scratch rows hold anything; afterwards what
    the point before left; beside them the other scoped buffers, unopened, and the generator register at some state. -/
def k7_Phi (c : Dev nD) : ℕ → sProp 𝕄
  | 0 => iprop((∃ d, owns (c : Thread nD τ) k7_sc0 fullShare d) ∗ (∃ d, owns (c : Thread nD τ) k7_sc1 fullShare d)
      ∗ Pipeline.scopedRestBut (Ix := Unit) (Name := ℕ) (U := UR sig nD τ) (Lvl := ℕ) (Val := Elt F) spec7 c [cc7_scratch0, cc7_scratch1] ∗ ∃ r, prngReg c r)
  | n + 1 => iprop(owns (c : Thread nD τ) k7_sc0 fullShare (k7_acc V c n).1 ∗ owns (c : Thread nD τ) k7_sc1 fullShare (k7_acc V c n).2
      ∗ Pipeline.scopedRestBut (Ix := Unit) (Name := ℕ) (U := UR sig nD τ) (Lvl := ℕ) (Val := Elt F) spec7 c [cc7_scratch0, cc7_scratch1] ∗ ∃ r, prngReg c r)

theorem k7_Phi_zero (c : Dev nD) (n : ℕ) (h : n = 0) : k7_Phi V c n
    = iprop((∃ d, owns (c : Thread nD τ) k7_sc0 fullShare d) ∗ (∃ d, owns (c : Thread nD τ) k7_sc1 fullShare d)
      ∗ Pipeline.scopedRestBut (Ix := Unit) (Name := ℕ) (U := UR sig nD τ) (Lvl := ℕ) (Val := Elt F) spec7 c [cc7_scratch0, cc7_scratch1] ∗ ∃ r, prngReg c r) := by
  subst h; rfl

theorem k7_Phi_succ (c : Dev nD) (n : ℕ) : k7_Phi V c (n + 1)
    = iprop(owns (c : Thread nD τ) k7_sc0 fullShare (k7_acc V c n).1 ∗ owns (c : Thread nD τ) k7_sc1 fullShare (k7_acc V c n).2
      ∗ Pipeline.scopedRestBut (Ix := Unit) (Name := ℕ) (U := UR sig nD τ) (Lvl := ℕ) (Val := Elt F) spec7 c [cc7_scratch0, cc7_scratch1] ∗ ∃ r, prngReg c r) := rfl

theorem k7_Phi_pos (c : Dev nD) (n : ℕ) (h : n ≠ 0) : k7_Phi V c n
    = iprop(owns (c : Thread nD τ) k7_sc0 fullShare (k7_acc V c (n - 1)).1 ∗ owns (c : Thread nD τ) k7_sc1 fullShare (k7_acc V c (n - 1)).2
      ∗ Pipeline.scopedRestBut (Ix := Unit) (Name := ℕ) (U := UR sig nD τ) (Lvl := ℕ) (Val := Elt F) spec7 c [cc7_scratch0, cc7_scratch1] ∗ ∃ r, prngReg c r) := by
  cases n with
  | zero => exact absurd rfl h
  | succ n => rfl

/-! ## The pipeline's proof data -/

/-- The proof data of the region on core `c`: the arrays as the region finds them; after the body at point `t` each
    input's buffer at its block, the first output's at the affine image of the blocks, the statistics outputs' at the
    running rows (consulted at the last point only); the invariant `k7_Phi`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => k7_pay3 (iblk7 V c 0 t) (iblk7 V c 1 t) (iblk7 V c 2 t) (iblk7 V c 3 t)
    | ⟨5, _⟩ => (k7_acc V c t.val).1
    | ⟨6, _⟩ => (k7_acc V c t.val).2
  Φ t := k7_Phi V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = k7_pay3 (iblk7 V c 0 t) (iblk7 V c 1 t) (iblk7 V c 2 t) (iblk7 V c 3 t) := by dsimp only [dat7]
theorem after7_5 (c : Dev nD) (t : Fin cfg7.N) : (dat7 V c).after 5 t = (k7_acc V c t.val).1 := by dsimp only [dat7]
theorem after7_6 (c : Dev nD) (t : Fin cfg7.N) : (dat7 V c).after 6 t = (k7_acc V c t.val).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

theorem k7_Phi_at (c : Dev nD) (t : Fin cfg7.N) : (dat7 V c).Φ t.castSucc = k7_Phi V c t.val := by
  dsimp only [dat7]; simp only [Fin.coe_castSucc]

/-! ## The body obligation -/

/-- What the body is called with at point `t`, the windows one by one, -/
def k7_bodyPre (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def k7_bodyPost (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

theorem k7_leaves_0 (c : Dev nD) (t : Fin cfg7.N) :
    (dat7 V c).leavesExact 0 t = owns (c : Thread nD τ) (st7_0 t) fullShare ((dat7 V c).after 0 t) := by
  unfold Dat.leavesExact; rw [k7_live_0 t]
theorem k7_leaves_1 (c : Dev nD) (t : Fin cfg7.N) :
    (dat7 V c).leavesExact 1 t = owns (c : Thread nD τ) (st7_1 t) fullShare ((dat7 V c).after 1 t) := by
  unfold Dat.leavesExact; rw [k7_live_1 t]
theorem k7_leaves_2 (c : Dev nD) (t : Fin cfg7.N) :
    (dat7 V c).leavesExact 2 t = owns (c : Thread nD τ) (st7_2 t) fullShare ((dat7 V c).after 2 t) := by
  unfold Dat.leavesExact; rw [k7_live_2 t]
theorem k7_leaves_3 (c : Dev nD) (t : Fin cfg7.N) :
    (dat7 V c).leavesExact 3 t = owns (c : Thread nD τ) (st7_3 t) fullShare ((dat7 V c).after 3 t) := by
  unfold Dat.leavesExact; rw [k7_live_3 t]
theorem k7_leaves_4 (c : Dev nD) (t : Fin cfg7.N) :
    (dat7 V c).leavesExact 4 t = owns (c : Thread nD τ) (st7_4 t) fullShare ((dat7 V c).after 4 t) := by
  unfold Dat.leavesExact; rw [k7_live_4 t]
theorem k7_leaves_5 (c : Dev nD) (t : Fin cfg7.N) (h : t.val = 24) :
    (dat7 V c).leavesExact 5 t = owns (c : Thread nD τ) (st7_5 t) fullShare ((dat7 V c).after 5 t) := by
  unfold Dat.leavesExact; rw [k7_last_5 t h]
theorem k7_leaves_6 (c : Dev nD) (t : Fin cfg7.N) (h : t.val = 24) :
    (dat7 V c).leavesExact 6 t = owns (c : Thread nD τ) (st7_6 t) fullShare ((dat7 V c).after 6 t) := by
  unfold Dat.leavesExact; rw [k7_last_6 t h]

set_option maxHeartbeats 4000000 in
/-- The body at any point: the inputs' memrefs hold their blocks; the point's position selects the case; the invariant
    hands the body the two scratch rows at what the point before left (at anything at the first point) and takes them
    back at this point's; a statistics output is handed back untouched at every point but the last. -/
theorem k7_sound_body (c : Dev nD) (t : Fin cfg7.N) :
    k7_bodyPre V c t ⊢ wp frame (wpE (defs₀ (F := F)) Variants.none c none) Set.univ (bodyAt7 t) (fun _ => k7_bodyPost V c t) := by
  unfold k7_bodyPre k7_bodyPost bodyAt7
  simp only [before7_0, before7_1, before7_2, before7_3]
  rw [show (dat7 V c).owesAt () t.succ = (dat7 V c).owesAt () t.castSucc from rfl]
  rw [show (dat7 V c).Φ t.succ = k7_Phi V c (t.val + 1) from rfl, k7_Phi_succ, k7_Phi_at]
  rw [k7_leaves_0, k7_leaves_1, k7_leaves_2, k7_leaves_3, k7_leaves_4, after7_0, after7_1, after7_2, after7_3, after7_4]
  have hN : t.val < 25 := lt_of_lt_of_eq t.isLt N_7
  by_cases h0 : t.val = 0
  · have h24 : t.val ≠ 24 := by omega
    rw [Dat.leavesExact_idle (dat7 V c) 5 t (k7_idle_5 t h24) (k7_noflush_5 t h24),
      Dat.leavesExact_idle (dat7 V c) 6 t (k7_idle_6 t h24) (k7_noflush_6 t h24)]
    rw [k7_acc_first V c t h0, k7_Phi_zero V c _ h0]
    unfold k7_step; dsimp only
    iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
    iapply (k7_runA c (grid7.coords t) Set.univ _ _ _ _ _ _ _ _ _ _ _ _ _ _ _ _ _ _ ((k7_hc1 t).mpr h0) (fun h => h24 ((k7_hc2 t).mp h))
        (iblk7 V c 0 t) (iblk7 V c 1 t) (iblk7 V c 2 t) (iblk7 V c 3 t) ((dat7 V c).before 5 t d5) ((dat7 V c).before 6 t d6) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h24 : t.val = 24
    · rw [k7_leaves_5 V c t h24, k7_leaves_6 V c t h24, after7_5, after7_6]
      rw [k7_acc_later V c t h0, k7_Phi_pos V c _ h0]
      unfold k7_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k7_runC c (grid7.coords t) Set.univ _ _ _ _ _ _ _ _ _ _ _ _ _ _ _ _ _ _ (fun h => h0 ((k7_hc1 t).mp h)) ((k7_hc2 t).mpr h24)
          (iblk7 V c 0 t) (iblk7 V c 1 t) (iblk7 V c 2 t) (iblk7 V c 3 t) (k7_acc V c (t.val - 1)).1 (k7_acc V c (t.val - 1)).2 _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat7 V c) 5 t (k7_idle_5 t h24) (k7_noflush_5 t h24),
        Dat.leavesExact_idle (dat7 V c) 6 t (k7_idle_6 t h24) (k7_noflush_6 t h24)]
      rw [k7_acc_later V c t h0, k7_Phi_pos V c _ h0]
      unfold k7_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k7_runB c (grid7.coords t) Set.univ _ _ _ _ _ _ _ _ _ _ _ _ _ _ _ _ _ _ (fun h => h0 ((k7_hc1 t).mp h)) (fun h => h24 ((k7_hc2 t).mp h))
          (iblk7 V c 0 t) (iblk7 V c 1 t) (iblk7 V c 2 t) (iblk7 V c 3 t) ((dat7 V c).before 5 t d5) ((dat7 V c).before 6 t d6) (k7_acc V c (t.val - 1)).1 (k7_acc V c (t.val - 1)).2 _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact k7_sound_body V c t

theorem q_eq7 (c : Dev nD) : ∀ w, (dat7 V c).q w = fullShare := fun _ => rfl
theorem owed_eq7 (c : Dev nD) : ∀ t, (dat7 V c).owed t = 0 := fun _ => rfl

/-! ## Into the invariant and out of it -/

/-- What the launch hands the region — the generator register and every scoped buffer no window stages — is the
    invariant before the first point: the two scratch rows are split out, at whatever they hold. -/
theorem hin7 (c : Dev nD) :
    (iprop((∃ r, prngReg c r) ∗ Pipeline.prefHeld (pcfgs (F := F) 7).pre c (fun _ => fullShare) (((cfgs 7).toPCfg_adm).1)
      ∗ Pipeline.scopedRest spec7 c) : sProp 𝕄) ⊢ (dat7 V c).Φ 0 := by
  rw [show (dat7 V c).Φ 0 = k7_Phi V c 0 from rfl, k7_Phi_zero V c 0 rfl, scopedRest7_split]
  simp only [k7_sc0, k7_sc1, owns_whole]
  iintro ⟨Hp, -, ⟨⟨HS0, HS1⟩, Hrest⟩⟩
  isplitl [HS0]; · iexact HS0
  isplitl [HS1]; · iexact HS1
  isplitl [Hrest]; · iexact Hrest
  iexact Hp

/-- After the last point the invariant gives them back: what the scratch rows then hold is forgotten. -/
theorem hout7 (c : Dev nD) :
    (dat7 V c).Φ (Fin.last cfg7.N) ⊢ (iprop((∃ r, prngReg c r) ∗ Pipeline.ownSems0 (fun k : PEmpty => k.elim) c
      ∗ Pipeline.scopedRest spec7 c) : sProp 𝕄) := by
  rw [Pipeline.ownSems0_none, show (dat7 V c).Φ (Fin.last cfg7.N) = k7_Phi V c (24 + 1) from rfl, k7_Phi_succ, scopedRest7_split]
  simp only [k7_sc0, k7_sc1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.Kernel.Hand

end
-- ==== Proof.K.R8.lean ====
/-
  Region 8 of the program: the second linear layer of a GIN block with its batch statistics, one grid of 25 points
  over blocks of 2000 rows.

  At each point the body normalises the block of the first layer's output with the batch mean and variance,
  rectifies it, multiplies by the second weights, adds the bias and the residual block, and stores the result as
  the block of the layer's output. Two scratch rows carry the column sums of that output and of its squares from
  point to point: the first point zeroes them, every point adds its block's column sums, and the last point copies
  them into the two statistics outputs, which no other point touches.

  This module states what each buffer holds after each point (the output block from the input blocks; the scratch
  rows by recursion on the point), proves the body's triple in each of its three cases (first point, a middle
  point, last point), and from them the body obligation of the pipeline's proof data, with the invariant carrying
  the scratch rows at the accumulated sums.
-/
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the second linear layer with batch statistics, at the entry contents `V` -/

/-! ## The body's branch conditions -/

/-- The body's first conditional: the grid coordinate is 0. -/
abbrev dat8_c0 (i : grid8.Coords) : Prop := (Scalar.cmpi .ne (Scalar.extui (Scalar.cmpi .eq (BitVec.ofNat 32 (i 0).val) 0#32)) 0#32) = 1#1
theorem dat8_hc0 : ∀ t : Fin cfg8.N, dat8_c0 (grid8.coords t) ↔ t.val = 0 :=
  (by decide +kernel : ∀ t : Fin grid8.N, dat8_c0 (grid8.coords t) ↔ t.val = 0)
/-- The body's second conditional: the grid coordinate is 24, the last. -/
abbrev dat8_c1 (i : grid8.Coords) : Prop := k8_cond2 i = 1#1
theorem dat8_hc1 : ∀ t : Fin cfg8.N, dat8_c1 (grid8.coords t) ↔ t.val = 24 :=
  (by decide +kernel : ∀ t : Fin grid8.N, dat8_c1 (grid8.coords t) ↔ t.val = 24)
theorem dat8_N : cfg8.N = 25 := by decide

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses: every load and store is of a whole buffer -/

abbrev dat8_rH : Rect S2000x512 := Rect.unit (s := S2000x512) ![0, 0] S2000x512.size inb_S2000x512_S2000x512_0_0
abbrev dat8_rR : Rect S1x512 := Rect.unit (s := S1x512) ![0, 0] S1x512.size inb_S1x512_S1x512_0_0
abbrev dat8_rX : Rect S2000x256 := Rect.unit (s := S2000x256) ![0, 0] S2000x256.size inb_S2000x256_S2000x256_0_0
abbrev dat8_rW : Rect S512x256 := Rect.unit (s := S512x256) ![0, 0] S512x256.size inb_S512x256_S512x256_0_0
abbrev dat8_rS : Rect S1x256 := Rect.unit (s := S1x256) ![0, 0] S1x256.size inb_S1x256_S1x256_0_0

/-- A whole-buffer rectangle holds every index of its shape (its one block tiles the shape). -/
theorem dat8_coverX (p0 : Vec F S2000x256 .f32) (y : S2000x256.Idx) : ∃ pc ∈ ([⟨dat8_rX, p0⟩] : List (View.Piece (Elt F) S2000x256 .f32)), y ∈ pc.1.set :=
  View.cover_of_tiled [⟨dat8_rX, p0⟩] S2000x256.size (by rfl) y
theorem dat8_coverS (p0 : Vec F S1x256 .f32) (y : S1x256.Idx) : ∃ pc ∈ ([⟨dat8_rS, p0⟩] : List (View.Piece (Elt F) S1x256 .f32)), y ∈ pc.1.set :=
  View.cover_of_tiled [⟨dat8_rS, p0⟩] S1x256.size (by rfl) y
theorem dat8_memX (y : S2000x256.Idx) : y ∈ dat8_rX.set := by
  obtain ⟨pc, hpc, hy⟩ := View.cover_of_tiled ([⟨dat8_rX, fun _ => ()⟩] : List (View.Piece (fun _ => Unit) S2000x256 .f32)) S2000x256.size (by rfl) y
  rw [List.mem_singleton] at hpc; subst hpc; exact hy
theorem dat8_memS (y : S1x256.Idx) : y ∈ dat8_rS.set := by
  obtain ⟨pc, hpc, hy⟩ := View.cover_of_tiled ([⟨dat8_rS, fun _ => ()⟩] : List (View.Piece (fun _ => Unit) S1x256 .f32)) S1x256.size (by rfl) y
  rw [List.mem_singleton] at hpc; subst hpc; exact hy

/-- What a store through a rectangle holding every index leaves, whatever the buffer held and whatever
    earlier stores wrote: its payload, as the one-piece canonical contents. -/
theorem dat8_read_whole {κ : Kind} {sp : Space} {s : Shape} {e : EltTy} (v : View sig κ sp s e) (f : v.ty.Contents (Elt F)) (r : Rect s)
    (hr : ∀ y : s.Idx, y ∈ r.set) (w w' : r.shape.Idx → Elt F e) (L : List (View.Piece (Elt F) s e)) (h : w = w') :
    v.read (Elt F) (v.writes (Elt F) f (⟨r, w⟩ :: L)) = View.canon [⟨r, w'⟩] := by
  subst h
  funext y
  obtain ⟨x, rfl⟩ : ∃ x, r.emb x = y := r.exists_idx_of_mem (hr y)
  rw [View.read_writes_cons_emb, View.canon_cons_emb]

/-! ## What the body leaves in the output windows' buffers and in the two scratch rows -/

/-- The normalised, rectified first layer times the second weights plus the bias (`%34`), of the input blocks. -/
def dat8_v34 (x0 : Vec F S2000x512 .f32) (x1 : Vec F S1x512 .f32) (x2 : Vec F S1x512 .f32) (x3 : Vec F S1x512 .f32) (x4 : Vec F S1x512 .f32) (x6 : Vec F S512x256 .f32) (x7 : Vec F S1x256 .f32) : FVec F S2000x256 .f32 :=
  k8_pay6 (View.ld x2 dat8_rR) (View.ld x3 dat8_rR) (View.ld x0 dat8_rH) (View.ld x1 dat8_rR) (View.ld x4 dat8_rR) (View.ld x6 dat8_rW) (View.ld x7 dat8_rS)
/-- The residual operand (`%36`). -/
def dat8_v36 (x5 : Vec F S2000x256 .f32) : FVec F S2000x256 .f32 := k8_pay7 (View.ld x5 dat8_rX)
/-- Output window 8's buffer after the body: the block of the layer's output (`%37`). -/
def dat8_o8 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) : Vec F S2000x256 .f32 :=
  View.canon [⟨dat8_rX, k8_pay1 (dat8_v34 x0 x1 x2 x3 x4 x6 x7) (dat8_v36 x5)⟩]
/-- The first scratch row after the body, from what it held (`a`): the block's column sums added. -/
def dat8_s0 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat8_rS, k8_pay2 (dat8_v34 x0 x1 x2 x3 x4 x6 x7) (dat8_v36 x5) (View.ld a dat8_rS)⟩]
/-- The second scratch row after the body, from what it held: the block's column sums of squares added. -/
def dat8_s1 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat8_rS, k8_pay3 (dat8_v34 x0 x1 x2 x3 x4 x6 x7) (dat8_v36 x5) (View.ld a dat8_rS)⟩]
/-- The scratch rows as the first point zeroes them. -/
def dat8_z0 : Vec F S1x256 .f32 := View.canon [⟨dat8_rS, k8_pay4 (F := F)⟩]
def dat8_z1 : Vec F S1x256 .f32 := View.canon [⟨dat8_rS, k8_pay5 (F := F)⟩]
/-- A statistics window's buffer after the last point: the scratch row copied. -/
def dat8_o9 (a : Vec F S1x256 .f32) : Vec F S1x256 .f32 := View.canon [⟨dat8_rS, View.ld a dat8_rS⟩]

set_option maxHeartbeats 4000000 in
/-- The body at a point that is neither the first nor the last (no conditional taken): from the inputs' buffers at
    their contents and the scratch rows at `a0`, `a1`, it leaves the inputs as they were, window 8 at the
    layer's output block, and the scratch rows with the block's column sums added. The statistics windows
    are not touched. -/
theorem dat8_runB (c : Dev nD) (E : Set ℕ) (i : grid8.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat8_c0 i) (hc1 : ¬dat8_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat8_o8 x0 x1 x2 x3 x4 x5 x6 x7) ∗ owns (c : Thread nD τ) arg12 fullShare (dat8_s0 x0 x1 x2 x3 x4 x5 x6 x7 a0) ∗ owns (c : Thread nD τ) arg13 fullShare (dat8_s1 x0 x1 x2 x3 x4 x5 x6 x7 a1)) -∗ K ⟨⟩))
      ⊢ wp frame (wpE (defs₀ (F := F)) Variants.none c none) E (cc8__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc8__lin2_stats_kernel_eq_skeleton]; unfold cc8__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat8_read_whole _ _ _ dat8_memX _ _ _ rfl
  isplitl [HS0]
  · iexists _; isplitr
    swap; · iexact HS0
    ipureintro
    exact dat8_read_whole _ _ _ dat8_memS _ _ _ rfl
  iexists _; isplitr
  swap; · iexact HS1
  ipureintro
  exact dat8_read_whole _ _ _ dat8_memS _ _ _ rfl

set_option maxHeartbeats 4000000 in
/-- The body at the first point (the first conditional taken, the second not): the scratch rows, at anything,
    are zeroed and then take the block's column sums. -/
theorem dat8_runA (c : Dev nD) (E : Set ℕ) (i : grid8.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : dat8_c0 i) (hc1 : ¬dat8_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat8_o8 x0 x1 x2 x3 x4 x5 x6 x7) ∗ owns (c : Thread nD τ) arg12 fullShare (dat8_s0 x0 x1 x2 x3 x4 x5 x6 x7 dat8_z0) ∗ owns (c : Thread nD τ) arg13 fullShare (dat8_s1 x0 x1 x2 x3 x4 x5 x6 x7 dat8_z1)) -∗ K ⟨⟩))
      ⊢ wp frame (wpE (defs₀ (F := F)) Variants.none c none) E (cc8__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc8__lin2_stats_kernel_eq_skeleton]; unfold cc8__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%da0, %fa0, -, HS0⟩, ⟨%da1, %fa1, -, HS1⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat8_read_whole _ _ _ dat8_memX _ _ _ rfl
  isplitl [HS0]
  · iexists _; isplitr
    swap; · iexact HS0
    ipureintro
    exact dat8_read_whole _ _ _ dat8_memS _ _ _
      (congrArg (k8_pay2 _ _) (View.readCov_eq_canon_ld _ _ _ (dat8_coverS _)))
  iexists _; isplitr
  swap; · iexact HS1
  ipureintro
  exact dat8_read_whole _ _ _ dat8_memS _ _ _
    (congrArg (k8_pay3 _ _) (View.readCov_eq_canon_ld _ _ _ (dat8_coverS _)))

set_option maxHeartbeats 4000000 in
/-- The body at the last point (the second conditional taken, the first not): as at a middle point, and then
    the two scratch rows are copied into the statistics windows 9 and 10. -/
theorem dat8_runC (c : Dev nD) (E : Set ℕ) (i : grid8.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat8_c0 i) (hc1 : dat8_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat8_o8 x0 x1 x2 x3 x4 x5 x6 x7) ∗ owns (c : Thread nD τ) arg10 fullShare (dat8_o9 (dat8_s0 x0 x1 x2 x3 x4 x5 x6 x7 a0)) ∗ owns (c : Thread nD τ) arg11 fullShare (dat8_o9 (dat8_s1 x0 x1 x2 x3 x4 x5 x6 x7 a1))
            ∗ owns (c : Thread nD τ) arg12 fullShare (dat8_s0 x0 x1 x2 x3 x4 x5 x6 x7 a0) ∗ owns (c : Thread nD τ) arg13 fullShare (dat8_s1 x0 x1 x2 x3 x4 x5 x6 x7 a1)) -∗ K ⟨⟩))
      ⊢ wp frame (wpE (defs₀ (F := F)) Variants.none c none) E (cc8__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc8__lin2_stats_kernel_eq_skeleton]; unfold cc8__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat8_read_whole _ _ _ dat8_memX _ _ _ rfl
  isplitl [H9]
  · iexists _; isplitr
    swap; · iexact H9
    ipureintro
    exact dat8_read_whole _ _ _ dat8_memS _ _ _
      (View.readCov_eq_canon_ld _ _ _ (dat8_coverS _))
  isplitl [H10]
  · iexists _; isplitr
    swap; · iexact H10
    ipureintro
    exact dat8_read_whole _ _ _ dat8_memS _ _ _
      (View.readCov_eq_canon_ld _ _ _ (dat8_coverS _))
  isplitl [HS0]
  · iexists _; isplitr
    swap; · iexact HS0
    ipureintro
    exact dat8_read_whole _ _ _ dat8_memS _ _ _ rfl
  iexists _; isplitr
  swap; · iexact HS1
  ipureintro
  exact dat8_read_whole _ _ _ dat8_memS _ _ _ rfl

/-! ## The blocks' contributions, point by point -/

/-- Window 8's buffer after the body at point `t`: the output block of the input blocks there. -/
def dat8_O8 (c : Dev nD) (t : Fin cfg8.N) : Vec F S2000x256 .f32 := dat8_o8 (iblk8 V c 0 t) (iblk8 V c 1 t) (iblk8 V c 2 t) (iblk8 V c 3 t) (iblk8 V c 4 t) (iblk8 V c 5 t) (iblk8 V c 6 t) (iblk8 V c 7 t)
/-- The first scratch row after the body at point `t`, from what it held. -/
def dat8_S0 (c : Dev nD) (t : Fin cfg8.N) (a : Vec F S1x256 .f32) : Vec F S1x256 .f32 := dat8_s0 (iblk8 V c 0 t) (iblk8 V c 1 t) (iblk8 V c 2 t) (iblk8 V c 3 t) (iblk8 V c 4 t) (iblk8 V c 5 t) (iblk8 V c 6 t) (iblk8 V c 7 t) a
/-- The second scratch row after the body at point `t`, from what it held. -/
def dat8_S1 (c : Dev nD) (t : Fin cfg8.N) (a : Vec F S1x256 .f32) : Vec F S1x256 .f32 := dat8_s1 (iblk8 V c 0 t) (iblk8 V c 1 t) (iblk8 V c 2 t) (iblk8 V c 3 t) (iblk8 V c 4 t) (iblk8 V c 5 t) (iblk8 V c 6 t) (iblk8 V c 7 t) a

/-- THE ACCUMULATION. What the two scratch rows hold after the body at position `n`: from zero at the first point,
    each point adds its block's column sums (of the values, of their squares) to what the point before left. -/
def dat8_acc (c : Dev nD) : (n : ℕ) → n < cfg8.N → Vec F S1x256 .f32 × Vec F S1x256 .f32
  | 0, hn => (dat8_S0 V c ⟨0, hn⟩ dat8_z0, dat8_S1 V c ⟨0, hn⟩ dat8_z1)
  | n + 1, hn => (dat8_S0 V c ⟨n + 1, hn⟩ (dat8_acc c n (Nat.lt_of_succ_lt hn)).1, dat8_S1 V c ⟨n + 1, hn⟩ (dat8_acc c n (Nat.lt_of_succ_lt hn)).2)

theorem dat8_acc_zero (c : Dev nD) (t : Fin cfg8.N) (h : t.val = 0) :
    dat8_acc V c t.val t.isLt = (dat8_S0 V c t dat8_z0, dat8_S1 V c t dat8_z1) := by
  obtain ⟨n, hn⟩ := t
  cases n with
  | zero => rfl
  | succ n => exact absurd h (Nat.succ_ne_zero n)

theorem dat8_acc_pos (c : Dev nD) (t : Fin cfg8.N) (h : t.val ≠ 0) :
    dat8_acc V c t.val t.isLt = (dat8_S0 V c t (dat8_acc V c (t.val - 1) (Nat.lt_of_le_of_lt (Nat.sub_le _ _) t.isLt)).1,
      dat8_S1 V c t (dat8_acc V c (t.val - 1) (Nat.lt_of_le_of_lt (Nat.sub_le _ _) t.isLt)).2) := by
  obtain ⟨n, hn⟩ := t
  cases n with
  | zero => exact absurd rfl h
  | succ n => rfl

/-! ## The region invariant -/

/-- The scratch rows as memrefs: whole scoped buffers of the kernel's own. -/
abbrev dat8_scM0 : Memref sig .tc .vmem S1x256 .f32 := Memref.whole cc8_scratch0
abbrev dat8_scM1 : Memref sig .tc .vmem S1x256 .f32 := Memref.whole cc8_scratch1

/-- Every other scoped buffer of the core, unopened. -/
abbrev dat8_rest (c : Dev nD) : sProp 𝕄 :=
  Pipeline.scopedRestBut (Ix := Unit) (Name := ℕ) (U := UR sig nD τ) (Lvl := ℕ) (Val := Elt F) spec8 c [cc8_scratch0, cc8_scratch1]

/-- The invariant before position `n`: before the first point every scoped buffer that is no staging buffer at
    anything and the generator register at some state; afterwards the two scratch rows at what the point before
    left (`dat8_acc`), the other scoped buffers unopened, the generator register at some state. -/
def dat8_Phi (c : Dev nD) : (n : ℕ) → n ≤ cfg8.N → sProp 𝕄
  | 0, _ => Pipeline.ΦA spec8 c
  | n + 1, hn => iprop(iprop(iprop(owns (c : Thread nD τ) dat8_scM0 fullShare (dat8_acc V c n hn).1 ∗ owns (c : Thread nD τ) dat8_scM1 fullShare (dat8_acc V c n hn).2) ∗ dat8_rest c) ∗ (∃ r, prngReg c r))

theorem dat8_Phi_zero (c : Dev nD) (n : ℕ) (h : n ≤ cfg8.N) (hz : n = 0) : dat8_Phi V c n h = Pipeline.ΦA spec8 c := by
  subst hz; rfl

theorem dat8_Phi_succ (c : Dev nD) (n : ℕ) (hn : n < cfg8.N) :
    dat8_Phi V c (n + 1) hn = iprop(iprop(iprop(owns (c : Thread nD τ) dat8_scM0 fullShare (dat8_acc V c n hn).1 ∗ owns (c : Thread nD τ) dat8_scM1 fullShare (dat8_acc V c n hn).2) ∗ dat8_rest c) ∗ (∃ r, prngReg c r)) := rfl

theorem dat8_Phi_pos (c : Dev nD) (n : ℕ) (h : n ≤ cfg8.N) (hz : n ≠ 0) :
    dat8_Phi V c n h = iprop(iprop(iprop(owns (c : Thread nD τ) dat8_scM0 fullShare (dat8_acc V c (n - 1) (by omega)).1 ∗ owns (c : Thread nD τ) dat8_scM1 fullShare (dat8_acc V c (n - 1) (by omega)).2) ∗ dat8_rest c) ∗ (∃ r, prngReg c r)) := by
  cases n with
  | zero => exact absurd rfl hz
  | succ n => rfl

/-- The first point's invariant with the two scratch rows as memrefs owned at some contents. -/
theorem dat8_PhiA_eq (c : Dev nD) :
    (Pipeline.ΦA spec8 c : sProp 𝕄)
      = iprop(iprop(iprop((∃ d, owns (c : Thread nD τ) dat8_scM0 fullShare d) ∗ (∃ d, owns (c : Thread nD τ) dat8_scM1 fullShare d)) ∗ dat8_rest c) ∗ (∃ r, prngReg c r)) := by
  unfold Pipeline.ΦA; rw [scopedRest8_split]; simp only [dat8_scM0, dat8_scM1, owns_whole]; try rfl

/-! ## The pipeline's proof data -/

/-- The proof data of the pipeline on core `c`: the arrays as the region finds them (`V`); after the body at point
    `t` each input's buffer at its block, window 8's at the output block, the statistics windows' at the copied
    accumulators (read at the last point only: elsewhere they are idle); the invariant `dat8_Phi`; nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => dat8_O8 V c t
    | ⟨9, _⟩ => dat8_o9 (dat8_acc V c t.val t.isLt).1
    | ⟨10, _⟩ => dat8_o9 (dat8_acc V c t.val t.isLt).2
  Φ t := dat8_Phi V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem q_eq8 (c : Dev nD) : ∀ w, (dat8 V c).q w = fullShare := fun _ => rfl
theorem owed_eq8 (c : Dev nD) : ∀ t, (dat8 V c).owed t = 0 := fun _ => rfl

theorem dat8_Phi_castSucc (c : Dev nD) (t : Fin cfg8.N) :
    (dat8 V c).Φ t.castSucc = dat8_Phi V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = dat8_O8 V c t := by dsimp only [dat8]
theorem after8_9 (c : Dev nD) (t : Fin cfg8.N) : (dat8 V c).after 9 t = dat8_o9 (dat8_acc V c t.val t.isLt).1 := by dsimp only [dat8]
theorem after8_10 (c : Dev nD) (t : Fin cfg8.N) : (dat8 V c).after 10 t = dat8_o9 (dat8_acc V c t.val t.isLt).2 := by dsimp only [dat8]

/-- Each input's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl) (fun t => by rw [after8_3]; unfold Dat.blockOf iblk8; rw [A_eq8]; try rfl) t d).trans
    (by unfold Dat.fetched Dat.blockOf iblk8; rw [A_eq8]; try rfl)
theorem before8_4 (c : Dev nD) (t : Fin cfg8.N) (d) : (dat8 V c).before 4 t d = iblk8 V c 4 t :=
  ((dat8 V c).before_in_eq_fetched 4 rfl (fun _ => rfl) (fun _ _ _ => rfl) (fun t => by rw [after8_4]; unfold Dat.blockOf iblk8; rw [A_eq8]; try rfl) t d).trans
    (by unfold Dat.fetched Dat.blockOf iblk8; rw [A_eq8]; try rfl)
theorem before8_5 (c : Dev nD) (t : Fin cfg8.N) (d) : (dat8 V c).before 5 t d = iblk8 V c 5 t :=
  ((dat8 V c).before_in_eq_fetched 5 rfl (fun _ => rfl) (fun _ _ _ => rfl) (fun t => by rw [after8_5]; unfold Dat.blockOf iblk8; rw [A_eq8]; try rfl) t d).trans
    (by unfold Dat.fetched Dat.blockOf iblk8; rw [A_eq8]; try rfl)
theorem before8_6 (c : Dev nD) (t : Fin cfg8.N) (d) : (dat8 V c).before 6 t d = iblk8 V c 6 t :=
  ((dat8 V c).before_in_eq_fetched 6 rfl (fun _ => rfl) (fun _ _ _ => rfl) (fun t => by rw [after8_6]; unfold Dat.blockOf iblk8; rw [A_eq8]; try rfl) t d).trans
    (by unfold Dat.fetched Dat.blockOf iblk8; rw [A_eq8]; try rfl)
theorem before8_7 (c : Dev nD) (t : Fin cfg8.N) (d) : (dat8 V c).before 7 t d = iblk8 V c 7 t :=
  ((dat8 V c).before_in_eq_fetched 7 rfl (fun _ => rfl) (fun _ _ _ => rfl) (fun t => by rw [after8_7]; unfold Dat.blockOf iblk8; rw [A_eq8]; try rfl) t d).trans
    (by unfold Dat.fetched Dat.blockOf iblk8; rw [A_eq8]; try rfl)

/-! ## Where the windows are idle -/

theorem dat8_live0 : ∀ t : Fin cfg8.N, cfg8.idle 0 (grid8.coords t) = false := fun _ => rfl
theorem dat8_live1 : ∀ t : Fin cfg8.N, cfg8.idle 1 (grid8.coords t) = false := fun _ => rfl
theorem dat8_live2 : ∀ t : Fin cfg8.N, cfg8.idle 2 (grid8.coords t) = false := fun _ => rfl
theorem dat8_live3 : ∀ t : Fin cfg8.N, cfg8.idle 3 (grid8.coords t) = false := fun _ => rfl
theorem dat8_live4 : ∀ t : Fin cfg8.N, cfg8.idle 4 (grid8.coords t) = false := fun _ => rfl
theorem dat8_live5 : ∀ t : Fin cfg8.N, cfg8.idle 5 (grid8.coords t) = false := fun _ => rfl
theorem dat8_live6 : ∀ t : Fin cfg8.N, cfg8.idle 6 (grid8.coords t) = false := fun _ => rfl
theorem dat8_live7 : ∀ t : Fin cfg8.N, cfg8.idle 7 (grid8.coords t) = false := fun _ => rfl
theorem dat8_live8 : ∀ t : Fin cfg8.N, cfg8.idle 8 (grid8.coords t) = false := fun _ => rfl
/-- Off the last point the body stores nothing into window 9, and the pipeline does not write it back. -/
theorem dat8_idle9 : ∀ t : Fin cfg8.N, ¬dat8_c1 (grid8.coords t) → cfg8.idle 9 (grid8.coords t) = true := by decide +kernel
theorem dat8_noFlush9 : ∀ t : Fin cfg8.N, ¬dat8_c1 (grid8.coords t) → (cfg8.win 9).flush t = false := by decide +kernel
/-- At the last point it does. -/
theorem dat8_live9 : ∀ t : Fin cfg8.N, dat8_c1 (grid8.coords t) → cfg8.idle 9 (grid8.coords t) = false := by decide +kernel
/-- Off the last point the body stores nothing into window 10, and the pipeline does not write it back. -/
theorem dat8_idle10 : ∀ t : Fin cfg8.N, ¬dat8_c1 (grid8.coords t) → cfg8.idle 10 (grid8.coords t) = true := by decide +kernel
theorem dat8_noFlush10 : ∀ t : Fin cfg8.N, ¬dat8_c1 (grid8.coords t) → (cfg8.win 10).flush t = false := by decide +kernel
/-- At the last point it does. -/
theorem dat8_live10 : ∀ t : Fin cfg8.N, dat8_c1 (grid8.coords t) → cfg8.idle 10 (grid8.coords t) = false := by decide +kernel

/-! ## The body obligation, at a generic point -/

/-- What the body is called with at point `t`, the windows one by one, -/
def dat8_pre (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d)))

/-- and what it returns. -/
def dat8_post (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t
    ∗ (dat8 V c).leavesExact 10 t)

set_option maxHeartbeats 4800000 in
/-- The body at any point: the inputs' memrefs hold their blocks; the point is the first, a middle one or the last,
    which decides the body's two conditionals; the invariant hands the body the scratch rows at what the point
    before left (at anything at the first point) and takes them back at this point's accumulators; off the
    last point the statistics windows pass by untouched; the core owes nothing throughout. -/
theorem dat8_sound_body (c : Dev nD) (t : Fin cfg8.N) :
    dat8_pre V c t ⊢ wp frame (wpE (defs₀ (F := F)) Variants.none c none) Set.univ (bodyAt8 t) (fun _ => dat8_post V c t) := by
  unfold dat8_pre dat8_post bodyAt8
  simp only [before8_0, before8_1, before8_2, before8_3, before8_4, before8_5, before8_6, before8_7]
  rw [show (dat8 V c).owesAt () t.succ = (dat8 V c).owesAt () t.castSucc from rfl]
  rw [show (dat8 V c).Φ t.succ = dat8_Phi V c (t.val + 1) t.isLt from rfl, dat8_Phi_succ]
  rw [show (dat8 V c).leavesExact 0 t = owns (c : Thread nD τ) (st8_0 t) fullShare ((dat8 V c).after 0 t) from by
    unfold Dat.leavesExact; rw [dat8_live0 t], after8_0]
  rw [show (dat8 V c).leavesExact 1 t = owns (c : Thread nD τ) (st8_1 t) fullShare ((dat8 V c).after 1 t) from by
    unfold Dat.leavesExact; rw [dat8_live1 t], after8_1]
  rw [show (dat8 V c).leavesExact 2 t = owns (c : Thread nD τ) (st8_2 t) fullShare ((dat8 V c).after 2 t) from by
    unfold Dat.leavesExact; rw [dat8_live2 t], after8_2]
  rw [show (dat8 V c).leavesExact 3 t = owns (c : Thread nD τ) (st8_3 t) fullShare ((dat8 V c).after 3 t) from by
    unfold Dat.leavesExact; rw [dat8_live3 t], after8_3]
  rw [show (dat8 V c).leavesExact 4 t = owns (c : Thread nD τ) (st8_4 t) fullShare ((dat8 V c).after 4 t) from by
    unfold Dat.leavesExact; rw [dat8_live4 t], after8_4]
  rw [show (dat8 V c).leavesExact 5 t = owns (c : Thread nD τ) (st8_5 t) fullShare ((dat8 V c).after 5 t) from by
    unfold Dat.leavesExact; rw [dat8_live5 t], after8_5]
  rw [show (dat8 V c).leavesExact 6 t = owns (c : Thread nD τ) (st8_6 t) fullShare ((dat8 V c).after 6 t) from by
    unfold Dat.leavesExact; rw [dat8_live6 t], after8_6]
  rw [show (dat8 V c).leavesExact 7 t = owns (c : Thread nD τ) (st8_7 t) fullShare ((dat8 V c).after 7 t) from by
    unfold Dat.leavesExact; rw [dat8_live7 t], after8_7]
  rw [show (dat8 V c).leavesExact 8 t = owns (c : Thread nD τ) (st8_8 t) fullShare ((dat8 V c).after 8 t) from by
    unfold Dat.leavesExact; rw [dat8_live8 t], after8_8]
  have hN : t.val < 25 := lt_of_lt_of_eq t.isLt dat8_N
  by_cases h0 : t.val = 0
  · have h1 : ¬t.val = 24 := by omega
    have hc0 : dat8_c0 (grid8.coords t) := (dat8_hc0 t).mpr h0
    have hc1 : ¬dat8_c1 (grid8.coords t) := fun h => h1 ((dat8_hc1 t).mp h)
    rw [Dat.leavesExact_idle (dat8 V c) 9 t (dat8_idle9 t hc1) (dat8_noFlush9 t hc1),
      Dat.leavesExact_idle (dat8 V c) 10 t (dat8_idle10 t hc1) (dat8_noFlush10 t hc1)]
    rw [dat8_acc_zero V c t h0]
    rw [dat8_Phi_castSucc V c t, dat8_Phi_zero V c _ _ h0, dat8_PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (dat8_runA c Set.univ (grid8.coords t) _ _ _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) (iblk8 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hpos : dat8_acc V c t.val t.isLt = _ := dat8_acc_pos V c t h0
    by_cases h1 : t.val = 24
    · have hc0 : ¬dat8_c0 (grid8.coords t) := fun h => h0 ((dat8_hc0 t).mp h)
      have hc1 : dat8_c1 (grid8.coords t) := (dat8_hc1 t).mpr h1
      rw [show (dat8 V c).leavesExact 9 t = owns (c : Thread nD τ) (st8_9 t) fullShare ((dat8 V c).after 9 t) from by
        unfold Dat.leavesExact; rw [dat8_live9 t hc1], after8_9]
      rw [show (dat8 V c).leavesExact 10 t = owns (c : Thread nD τ) (st8_10 t) fullShare ((dat8 V c).after 10 t) from by
        unfold Dat.leavesExact; rw [dat8_live10 t hc1], after8_10]
      rw [hpos]
      rw [dat8_Phi_castSucc V c t, dat8_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat8_runC c Set.univ (grid8.coords t) _ _ _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) (iblk8 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · icases H9 with ⟨%d9, H9⟩; iexists _; iexact H9
      isplitl [H10]; · icases H10 with ⟨%d10, H10⟩; iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬dat8_c0 (grid8.coords t) := fun h => h0 ((dat8_hc0 t).mp h)
      have hc1 : ¬dat8_c1 (grid8.coords t) := fun h => h1 ((dat8_hc1 t).mp h)
      rw [Dat.leavesExact_idle (dat8 V c) 9 t (dat8_idle9 t hc1) (dat8_noFlush9 t hc1),
        Dat.leavesExact_idle (dat8 V c) 10 t (dat8_idle10 t hc1) (dat8_noFlush10 t hc1)]
      rw [hpos]
      rw [dat8_Phi_castSucc V c t, dat8_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat8_runB c Set.univ (grid8.coords t) _ _ _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) (iblk8 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation8 (c : Dev nD) : BodyObligation (dat8 (F := F) V c) (defs₀ (F := F)) Variants.none () Set.univ := fun t => by
  rw [bigSep_W8, bigSep_W8]
  exact dat8_sound_body V c t

/-! ## Into the invariant and out of it -/

/-- What the region is entered with is the invariant before the first point (the prefetched tables, none here,
    are not used). -/
theorem hin8 (c : Dev nD) : iprop((∃ r, prngReg c r) ∗ Pipeline.prefHeld (pcfgs (F := F) 8).pre c (fun _ => fullShare) (((cfgs 8).toPCfg_adm).1) ∗ Pipeline.scopedRest spec8 c) ⊢ (dat8 V c).Φ 0 := by
  rw [show (dat8 V c).Φ 0 = Pipeline.ΦA spec8 c from rfl]; unfold Pipeline.ΦA
  iintro ⟨Hp, -, Hr⟩
  isplitl [Hr]; · iexact Hr
  iexact Hp

/-- After the last point the invariant gives the scoped buffers back: the scratch rows' named contents are forgotten. -/
theorem hout8 (c : Dev nD) : (dat8 V c).Φ (Fin.last cfg8.N) ⊢ iprop((∃ r, prngReg c r) ∗ Pipeline.ownSems0 (fun k : PEmpty => k.elim) c ∗ Pipeline.scopedRest spec8 c) := by
  rw [Pipeline.ownSems0_none, show (dat8 V c).Φ (Fin.last cfg8.N) = dat8_Phi V c (Fin.last cfg8.N).val (Nat.le_of_lt_succ (Fin.last cfg8.N).isLt) from rfl,
    dat8_Phi_pos V c _ _ (by rw [Fin.val_last]; have : cfg8.N = 25 := dat8_N; omega), scopedRest8_split]
  simp only [dat8_scM0, dat8_scM1, owns_whole]
  iintro ⟨⟨⟨HS0, HS1⟩, Hrest⟩, Hg⟩
  isplitl [Hg]; · iexact Hg
  isplitr; · iempintro
  isplitl [HS0 HS1]
  · isplitl [HS0]; · iexists _; iexact HS0
    iexists _; iexact HS1
  iexact Hrest

end Cert.Kernel.Hand

end
-- ==== Proof.K.R9.lean ====
/-
  Region 9 of the kernel's @main: the batch-norm finalize kernel
  out = g·(h − mean)·rsqrt(var + eps) + beta, one grid point per block of 2000 rows.
  At the buffer contents V the region is entered with: each window's block at a point, what the body leaves in the
  output window's buffer (its one whole-block store of the payload of the five loaded blocks), the body's triple, the
  pipeline's proof data and the body obligation, and the invariant at the region's two ends.
-/
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place: where the window is not fetched its block index
    has not moved, so the buffer still holds the previous point's block, which is this point's. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s and whose body leaves the block in place: where the window is not fetched its block index
    has not moved, so the buffer still holds the previous point's block, which is this point's. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s and whose body leaves the block in place: where the window is not fetched its block index
    has not moved, so the buffer still holds the previous point's block, which is this point's. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s and whose body leaves the block in place: where the window is not fetched its block index
    has not moved, so the buffer still holds the previous point's block, which is this point's. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s and whose body leaves the block in place: where the window is not fetched its block index
    has not moved, so the buffer still holds the previous point's block, which is this point's. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take the whole block -/

abbrev r9_0 : Rect S2000x256 := Rect.unit (s := S2000x256) ![0, 0] S2000x256.size inb_S2000x256_S2000x256_0_0
abbrev r9_1 : Rect S1x256 := Rect.unit (s := S1x256) ![0, 0] S1x256.size inb_S1x256_S1x256_0_0
abbrev r9_2 : Rect S1x256 := Rect.unit (s := S1x256) ![0, 0] S1x256.size inb_S1x256_S1x256_0_0
abbrev r9_3 : Rect S1x256 := Rect.unit (s := S1x256) ![0, 0] S1x256.size inb_S1x256_S1x256_0_0
abbrev r9_4 : Rect S1x256 := Rect.unit (s := S1x256) ![0, 0] S1x256.size inb_S1x256_S1x256_0_0
abbrev r9_5 : Rect S2000x256 := Rect.unit (s := S2000x256) ![0, 0] S2000x256.size inb_S2000x256_S2000x256_0_0

/-! ## What the body leaves in the output window's buffer -/

/-- Window 5's staging buffer after the body, from the input windows' blocks: its one store, of the payload
    computed from the loaded blocks. -/
def out9_5 (xa : Vec F S2000x256 .f32) (xb : Vec F S1x256 .f32) (xc : Vec F S1x256 .f32) (xd : Vec F S1x256 .f32) (xe : Vec F S1x256 .f32) : Vec F S2000x256 .f32 :=
  View.canon [⟨r9_5, k9_pay1 (View.ld xc r9_2) (View.ld xd r9_3) (View.ld xa r9_0) (View.ld xb r9_1) (View.ld xe r9_4)⟩]

/-- The store takes the whole buffer, so it covers it. -/
theorem cover9_5 (pw : Vec F S2000x256 .f32) (y : S2000x256.Idx) :
    ∃ pc ∈ ([⟨r9_5, pw⟩] : List (View.Piece (Elt F) S2000x256 .f32)), y ∈ pc.1.set :=
  View.cover_of_tiled [⟨r9_5, pw⟩] S2000x256.size (by rfl) y

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (ma : Memref sig .tc .vmem S2000x256 .f32) (hma : ma.IsWhole) (mb : Memref sig .tc .vmem S1x256 .f32) (hmb : mb.IsWhole) (mc : Memref sig .tc .vmem S1x256 .f32) (hmc : mc.IsWhole) (md : Memref sig .tc .vmem S1x256 .f32) (hmd : md.IsWhole) (me : Memref sig .tc .vmem S1x256 .f32) (hme : me.IsWhole) (mf : Memref sig .tc .vmem S2000x256 .f32) (hmf : mf.IsWhole)
    (xa : Vec F S2000x256 .f32) (xb : Vec F S1x256 .f32) (xc : Vec F S1x256 .f32) (xd : Vec F S1x256 .f32) (xe : Vec F S1x256 .f32) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ (∃ d, owns (c : Thread nD τ) mf fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ owns (c : Thread nD τ) mf fullShare (out9_5 xa xb xc xd xe)) -∗ K ⟨⟩))
      ⊢ wp frame (wpE (defs₀ (F := F)) Variants.none c none) E (cc9__bn_finalize_kernel i ma hma mb hmb mc hmc md hmd me hme mf hmf) K := by
  simp only [cc9__bn_finalize_kernel_eq_skeleton]; unfold cc9__bn_finalize_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover9_5 _)

/-! ## The pipeline's proof data -/

/-- The proof data of pipeline 9 on core `c`: the arrays as the region finds them (`V`); after the body at
    point `t` each input's buffer at its block and the output's at `out9_5` of the input blocks; the invariant
    holds the scoped buffers no window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- Every window is held at the full share, and the body owes nothing at any point. -/
theorem q_eq9 (c : Dev nD) : ∀ w, (dat9 V c).q w = fullShare := fun _ => rfl
theorem owed_eq9 (c : Dev nD) : ∀ t, (dat9 V c).owed t = 0 := fun _ => rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the kernel's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%da, Ha⟩, ⟨%db, Hb⟩, ⟨%dc, Hc⟩, ⟨%dd, Hd⟩, ⟨%de, He⟩, ⟨%df, Hf⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- The invariant at the first point, from the generator register at some state, the (empty) prefetched tables and the
    scoped buffers no window stages. -/
theorem hin9 (c : Dev nD) :
    (iprop((∃ r, prngReg c r) ∗ Pipeline.prefHeld (pcfgs (F := F) 9).pre c (fun _ => fullShare) (((cfgs 9).toPCfg_adm).1)
      ∗ Pipeline.scopedRest spec9 c) : sProp 𝕄) ⊢ (dat9 V c).Φ 0 := by
  rw [show (dat9 V c).Φ 0 = Pipeline.ΦA spec9 c from rfl]; unfold Pipeline.ΦA
  iintro ⟨Hp, -, Hr⟩
  isplitl [Hr]; · iexact Hr
  iexact Hp

/-- The invariant at the last point gives back the generator register, no semaphore of the kernel's own, and those
    scoped buffers. -/
theorem hout9 (c : Dev nD) :
    (dat9 V c).Φ (Fin.last cfg9.N) ⊢ (iprop((∃ r, prngReg c r) ∗ Pipeline.ownSems0 (fun k : PEmpty => k.elim) c
      ∗ Pipeline.scopedRest spec9 c) : sProp 𝕄) := by
  rw [Pipeline.ownSems0_none, show (dat9 V c).Φ (Fin.last _) = Pipeline.ΦA spec9 c from rfl]; unfold Pipeline.ΦA
  iintro ⟨Hr, Hp⟩
  isplitl [Hp]; · iexact Hp
  isplitr; · iempintro
  iexact Hr

end Cert.Kernel.Hand

end
-- ==== Proof.K.Chain.lean ====
/-
  The idealized kernel's @main between its ten kernel regions, per core: the contents of every unscoped buffer at each
  boundary between two items (the launch memory folded through the host stretches, each region's output arrays replaced by
  what its write-backs leave: the region's proof data's array after the last grid point), every region's proof data at its
  entry contents, and each region as a segment over the thread state "every unscoped buffer whole at the boundary's
  contents, the generator register at some state, nothing owed".
-/
import proofs.«132438_j6098853560655_1_alg».proof.Proof.Gen.Kernel.Launch
import proofs.«132438_j6098853560655_1_alg».proof.Proof.Gen.Kernel.Skeleton
import proofs.«132438_j6098853560655_1_alg».proof.Proof.Gen.Kernel.Points
import proofs.«132438_j6098853560655_1_alg».proof.Proof.Gen.Kernel.Regions
import proofs.«132438_j6098853560655_1_alg».proof.Proof.K.R0
import proofs.«132438_j6098853560655_1_alg».proof.Proof.K.R1
import proofs.«132438_j6098853560655_1_alg».proof.Proof.K.R2
import proofs.«132438_j6098853560655_1_alg».proof.Proof.K.R3
import proofs.«132438_j6098853560655_1_alg».proof.Proof.K.R4
import proofs.«132438_j6098853560655_1_alg».proof.Proof.K.R5
import proofs.«132438_j6098853560655_1_alg».proof.Proof.K.R6
import proofs.«132438_j6098853560655_1_alg».proof.Proof.K.R7
import proofs.«132438_j6098853560655_1_alg».proof.Proof.K.R8
import proofs.«132438_j6098853560655_1_alg».proof.Proof.K.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ
theorem fin4_forall {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3
theorem fin6_forall {P : Fin 6 → Prop} (h0 : P 0) (h1 : P 1) (h2 : P 2) (h3 : P 3) (h4 : P 4) (h5 : P 5) : ∀ w, P w
  | ⟨0, _⟩ => h0
  | ⟨1, _⟩ => h1
  | ⟨2, _⟩ => h2
  | ⟨3, _⟩ => h3
  | ⟨4, _⟩ => h4
  | ⟨5, _⟩ => h5
theorem fin7_forall {P : Fin 7 → Prop} (h0 : P 0) (h1 : P 1) (h2 : P 2) (h3 : P 3) (h4 : P 4) (h5 : P 5) (h6 : P 6) : ∀ w, P w
  | ⟨0, _⟩ => h0
  | ⟨1, _⟩ => h1
  | ⟨2, _⟩ => h2
  | ⟨3, _⟩ => h3
  | ⟨4, _⟩ => h4
  | ⟨5, _⟩ => h5
  | ⟨6, _⟩ => h6
theorem fin11_forall {P : Fin 11 → Prop} (h0 : P 0) (h1 : P 1) (h2 : P 2) (h3 : P 3) (h4 : P 4) (h5 : P 5) (h6 : P 6) (h7 : P 7) (h8 : P 8) (h9 : P 9) (h10 : P 10) : ∀ w, P w
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7
  | ⟨8, _⟩ => h8
  | ⟨9, _⟩ => h9
  | ⟨10, _⟩ => h10

variable (m : (ℓ : Loc nD τ sig) → Buf (Elt F) ℓ)

/-! ## The buffers' contents at every boundary between two items of @main, per core: the launch memory folded through
    the host stretches, each region's output arrays replaced by what its write-backs leave. -/

/-- Core `c`'s buffers at launch. -/
def W0 (c : Dev nD) : Valuation τ sig (Elt F) := fun b => m (c, b)

/-- After the host stretch before region 0. -/
def W1 (c : Dev nD) : Valuation τ sig (Elt F) := StableHlo.after hostOps0 (W0 m c)
/-- The same read at the TensorCore's references: what region 0 is entered with. -/
abbrev E1 : (c : Dev nD) → (b : Ref sig .tc) → Buf (Elt F) ((c : Thread nD τ).loc b) := fun c b => W1 m c b
/-- After region 0: its output arrays at what the region's write-backs leave, every other buffer as entered. -/
def W2 (c : Dev nD) : Valuation τ sig (Elt F) :=
  Function.update (W1 m c) main_v7 ((dat0 (E1 m) c).arrAt 3 cfg0.N)
abbrev E2 : (c : Dev nD) → (b : Ref sig .tc) → Buf (Elt F) ((c : Thread nD τ).loc b) := fun c b => W2 m c b
theorem W2_out0 (c : Dev nD) : W2 m c main_v7 = (dat0 (E1 m) c).arrAt 3 cfg0.N := by
  unfold W2; exact Function.update_self _ _ _
theorem W2_of_ne (c : Dev nD) (b : Ref sig .tc) (h0 : b ≠ main_v7) : W2 m c b = W1 m c b := by
  unfold W2; exact (Function.update_of_ne (StableHlo.devRef_ne_of_ne h0) _ _).trans (rfl)
theorem hF0_0 (c : Dev nD) : (dat0 (E1 m) c).arrAt 0 cfg0.N = E2 m c (Pipeline.arrRef spec0 0) :=
  (((dat0 (E1 m) c).arrAt_in 0 rfl _).trans (A_eq0 (E1 m) c 0)).trans (W2_of_ne m c main_v0 (by decide)).symm
theorem hF0_1 (c : Dev nD) : (dat0 (E1 m) c).arrAt 1 cfg0.N = E2 m c (Pipeline.arrRef spec0 1) :=
  (((dat0 (E1 m) c).arrAt_in 1 rfl _).trans (A_eq0 (E1 m) c 1)).trans (W2_of_ne m c main_arg2 (by decide)).symm
theorem hF0_2 (c : Dev nD) : (dat0 (E1 m) c).arrAt 2 cfg0.N = E2 m c (Pipeline.arrRef spec0 2) :=
  (((dat0 (E1 m) c).arrAt_in 2 rfl _).trans (A_eq0 (E1 m) c 2)).trans (W2_of_ne m c main_v6 (by decide)).symm
theorem hF0_3 (c : Dev nD) : (dat0 (E1 m) c).arrAt 3 cfg0.N = E2 m c (Pipeline.arrRef spec0 3) := (W2_out0 m c).symm
theorem hF0 (c : Dev nD) (w : Fin cfg0.W) : (dat0 (E1 m) c).arrAt w cfg0.N = E2 m c (Pipeline.arrRef spec0 w) := by
  exact fin4_forall (P := fun w : Fin 4 => (dat0 (E1 m) c).arrAt w cfg0.N = E2 m c (Pipeline.arrRef spec0 w)) (hF0_0 m c) (hF0_1 m c) (hF0_2 m c) (hF0_3 m c) w
theorem hrest0 (c : Dev nD) : ∀ b, b ∉ Finset.univ.image (Pipeline.arrRef spec0) → E2 m c b = E1 m c b :=
  fun b hb => W2_of_ne m c b (fun e => hb (Finset.mem_image.mpr ⟨3, Finset.mem_univ _, e.symm⟩))

/-- After the host stretch before region 1. -/
def W3 (c : Dev nD) : Valuation τ sig (Elt F) := StableHlo.after hostOps1 (W2 m c)
/-- The same read at the TensorCore's references: what region 1 is entered with. -/
abbrev E3 : (c : Dev nD) → (b : Ref sig .tc) → Buf (Elt F) ((c : Thread nD τ).loc b) := fun c b => W3 m c b
/-- After region 1: its output arrays at what the region's write-backs leave, every other buffer as entered. -/
def W4 (c : Dev nD) : Valuation τ sig (Elt F) :=
  Function.update (Function.update (Function.update (W3 m c) main_v23_0 ((dat1 (E3 m) c).arrAt 4 cfg1.N)) main_v23_1 ((dat1 (E3 m) c).arrAt 5 cfg1.N)) main_v23_2 ((dat1 (E3 m) c).arrAt 6 cfg1.N)
abbrev E4 : (c : Dev nD) → (b : Ref sig .tc) → Buf (Elt F) ((c : Thread nD τ).loc b) := fun c b => W4 m c b
theorem W4_out0 (c : Dev nD) : W4 m c main_v23_0 = (dat1 (E3 m) c).arrAt 4 cfg1.N := by
  unfold W4; exact (Function.update_of_ne (StableHlo.devRef_ne_of_ne (show (main_v23_0 : Ref sig .tc) ≠ main_v23_2 by decide)) _ _).trans ((Function.update_of_ne (StableHlo.devRef_ne_of_ne (show (main_v23_0 : Ref sig .tc) ≠ main_v23_1 by decide)) _ _).trans (Function.update_self _ _ _))
theorem W4_out1 (c : Dev nD) : W4 m c main_v23_1 = (dat1 (E3 m) c).arrAt 5 cfg1.N := by
  unfold W4; exact (Function.update_of_ne (StableHlo.devRef_ne_of_ne (show (main_v23_1 : Ref sig .tc) ≠ main_v23_2 by decide)) _ _).trans (Function.update_self _ _ _)
theorem W4_out2 (c : Dev nD) : W4 m c main_v23_2 = (dat1 (E3 m) c).arrAt 6 cfg1.N := by
  unfold W4; exact Function.update_self _ _ _
theorem W4_of_ne (c : Dev nD) (b : Ref sig .tc) (h0 : b ≠ main_v23_0) (h1 : b ≠ main_v23_1) (h2 : b ≠ main_v23_2) : W4 m c b = W3 m c b := by
  unfold W4; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF1_0 (c : Dev nD) : (dat1 (E3 m) c).arrAt 0 cfg1.N = E4 m c (Pipeline.arrRef spec1 0) :=
  (((dat1 (E3 m) c).arrAt_in 0 rfl _).trans (A_eq1 (E3 m) c 0)).trans (W4_of_ne m c main_v7 (by decide) (by decide) (by decide)).symm
theorem hF1_1 (c : Dev nD) : (dat1 (E3 m) c).arrAt 1 cfg1.N = E4 m c (Pipeline.arrRef spec1 1) :=
  (((dat1 (E3 m) c).arrAt_in 1 rfl _).trans (A_eq1 (E3 m) c 1)).trans (W4_of_ne m c main_v17 (by decide) (by decide) (by decide)).symm
theorem hF1_2 (c : Dev nD) : (dat1 (E3 m) c).arrAt 2 cfg1.N = E4 m c (Pipeline.arrRef spec1 2) :=
  (((dat1 (E3 m) c).arrAt_in 2 rfl _).trans (A_eq1 (E3 m) c 2)).trans (W4_of_ne m c main_v19 (by decide) (by decide) (by decide)).symm
theorem hF1_3 (c : Dev nD) : (dat1 (E3 m) c).arrAt 3 cfg1.N = E4 m c (Pipeline.arrRef spec1 3) :=
  (((dat1 (E3 m) c).arrAt_in 3 rfl _).trans (A_eq1 (E3 m) c 3)).trans (W4_of_ne m c main_v22 (by decide) (by decide) (by decide)).symm
theorem hF1_4 (c : Dev nD) : (dat1 (E3 m) c).arrAt 4 cfg1.N = E4 m c (Pipeline.arrRef spec1 4) := (W4_out0 m c).symm
theorem hF1_5 (c : Dev nD) : (dat1 (E3 m) c).arrAt 5 cfg1.N = E4 m c (Pipeline.arrRef spec1 5) := (W4_out1 m c).symm
theorem hF1_6 (c : Dev nD) : (dat1 (E3 m) c).arrAt 6 cfg1.N = E4 m c (Pipeline.arrRef spec1 6) := (W4_out2 m c).symm
theorem hF1 (c : Dev nD) (w : Fin cfg1.W) : (dat1 (E3 m) c).arrAt w cfg1.N = E4 m c (Pipeline.arrRef spec1 w) := by
  exact fin7_forall (P := fun w : Fin 7 => (dat1 (E3 m) c).arrAt w cfg1.N = E4 m c (Pipeline.arrRef spec1 w)) (hF1_0 m c) (hF1_1 m c) (hF1_2 m c) (hF1_3 m c) (hF1_4 m c) (hF1_5 m c) (hF1_6 m c) w
theorem hrest1 (c : Dev nD) : ∀ b, b ∉ Finset.univ.image (Pipeline.arrRef spec1) → E4 m c b = E3 m c b :=
  fun b hb => W4_of_ne m c b (fun e => hb (Finset.mem_image.mpr ⟨4, Finset.mem_univ _, e.symm⟩)) (fun e => hb (Finset.mem_image.mpr ⟨5, Finset.mem_univ _, e.symm⟩)) (fun e => hb (Finset.mem_image.mpr ⟨6, Finset.mem_univ _, e.symm⟩))

/-- After the host stretch before region 2. -/
def W5 (c : Dev nD) : Valuation τ sig (Elt F) := StableHlo.after hostOps2 (W4 m c)
/-- The same read at the TensorCore's references: what region 2 is entered with. -/
abbrev E5 : (c : Dev nD) → (b : Ref sig .tc) → Buf (Elt F) ((c : Thread nD τ).loc b) := fun c b => W5 m c b
/-- After region 2: its output arrays at what the region's write-backs leave, every other buffer as entered. -/
def W6 (c : Dev nD) : Valuation τ sig (Elt F) :=
  Function.update (Function.update (Function.update (W5 m c) main_v41_0 ((dat2 (E5 m) c).arrAt 8 cfg2.N)) main_v41_1 ((dat2 (E5 m) c).arrAt 9 cfg2.N)) main_v41_2 ((dat2 (E5 m) c).arrAt 10 cfg2.N)
abbrev E6 : (c : Dev nD) → (b : Ref sig .tc) → Buf (Elt F) ((c : Thread nD τ).loc b) := fun c b => W6 m c b
theorem W6_out0 (c : Dev nD) : W6 m c main_v41_0 = (dat2 (E5 m) c).arrAt 8 cfg2.N := by
  unfold W6; exact (Function.update_of_ne (StableHlo.devRef_ne_of_ne (show (main_v41_0 : Ref sig .tc) ≠ main_v41_2 by decide)) _ _).trans ((Function.update_of_ne (StableHlo.devRef_ne_of_ne (show (main_v41_0 : Ref sig .tc) ≠ main_v41_1 by decide)) _ _).trans (Function.update_self _ _ _))
theorem W6_out1 (c : Dev nD) : W6 m c main_v41_1 = (dat2 (E5 m) c).arrAt 9 cfg2.N := by
  unfold W6; exact (Function.update_of_ne (StableHlo.devRef_ne_of_ne (show (main_v41_1 : Ref sig .tc) ≠ main_v41_2 by decide)) _ _).trans (Function.update_self _ _ _)
theorem W6_out2 (c : Dev nD) : W6 m c main_v41_2 = (dat2 (E5 m) c).arrAt 10 cfg2.N := by
  unfold W6; exact Function.update_self _ _ _
theorem W6_of_ne (c : Dev nD) (b : Ref sig .tc) (h0 : b ≠ main_v41_0) (h1 : b ≠ main_v41_1) (h2 : b ≠ main_v41_2) : W6 m c b = W5 m c b := by
  unfold W6; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF2_0 (c : Dev nD) : (dat2 (E5 m) c).arrAt 0 cfg2.N = E6 m c (Pipeline.arrRef spec2 0) :=
  (((dat2 (E5 m) c).arrAt_in 0 rfl _).trans (A_eq2 (E5 m) c 0)).trans (W6_of_ne m c main_v23_0 (by decide) (by decide) (by decide)).symm
theorem hF2_1 (c : Dev nD) : (dat2 (E5 m) c).arrAt 1 cfg2.N = E6 m c (Pipeline.arrRef spec2 1) :=
  (((dat2 (E5 m) c).arrAt_in 1 rfl _).trans (A_eq2 (E5 m) c 1)).trans (W6_of_ne m c main_v25 (by decide) (by decide) (by decide)).symm
theorem hF2_2 (c : Dev nD) : (dat2 (E5 m) c).arrAt 2 cfg2.N = E6 m c (Pipeline.arrRef spec2 2) :=
  (((dat2 (E5 m) c).arrAt_in 2 rfl _).trans (A_eq2 (E5 m) c 2)).trans (W6_of_ne m c main_v29 (by decide) (by decide) (by decide)).symm
theorem hF2_3 (c : Dev nD) : (dat2 (E5 m) c).arrAt 3 cfg2.N = E6 m c (Pipeline.arrRef spec2 3) :=
  (((dat2 (E5 m) c).arrAt_in 3 rfl _).trans (A_eq2 (E5 m) c 3)).trans (W6_of_ne m c main_v38 (by decide) (by decide) (by decide)).symm
theorem hF2_4 (c : Dev nD) : (dat2 (E5 m) c).arrAt 4 cfg2.N = E6 m c (Pipeline.arrRef spec2 4) :=
  (((dat2 (E5 m) c).arrAt_in 4 rfl _).trans (A_eq2 (E5 m) c 4)).trans (W6_of_ne m c main_v39 (by decide) (by decide) (by decide)).symm
theorem hF2_5 (c : Dev nD) : (dat2 (E5 m) c).arrAt 5 cfg2.N = E6 m c (Pipeline.arrRef spec2 5) :=
  (((dat2 (E5 m) c).arrAt_in 5 rfl _).trans (A_eq2 (E5 m) c 5)).trans (W6_of_ne m c main_v7 (by decide) (by decide) (by decide)).symm
theorem hF2_6 (c : Dev nD) : (dat2 (E5 m) c).arrAt 6 cfg2.N = E6 m c (Pipeline.arrRef spec2 6) :=
  (((dat2 (E5 m) c).arrAt_in 6 rfl _).trans (A_eq2 (E5 m) c 6)).trans (W6_of_ne m c main_v35 (by decide) (by decide) (by decide)).symm
theorem hF2_7 (c : Dev nD) : (dat2 (E5 m) c).arrAt 7 cfg2.N = E6 m c (Pipeline.arrRef spec2 7) :=
  (((dat2 (E5 m) c).arrAt_in 7 rfl _).trans (A_eq2 (E5 m) c 7)).trans (W6_of_ne m c main_v40 (by decide) (by decide) (by decide)).symm
theorem hF2_8 (c : Dev nD) : (dat2 (E5 m) c).arrAt 8 cfg2.N = E6 m c (Pipeline.arrRef spec2 8) := (W6_out0 m c).symm
theorem hF2_9 (c : Dev nD) : (dat2 (E5 m) c).arrAt 9 cfg2.N = E6 m c (Pipeline.arrRef spec2 9) := (W6_out1 m c).symm
theorem hF2_10 (c : Dev nD) : (dat2 (E5 m) c).arrAt 10 cfg2.N = E6 m c (Pipeline.arrRef spec2 10) := (W6_out2 m c).symm
theorem hF2 (c : Dev nD) (w : Fin cfg2.W) : (dat2 (E5 m) c).arrAt w cfg2.N = E6 m c (Pipeline.arrRef spec2 w) := by
  exact fin11_forall (P := fun w : Fin 11 => (dat2 (E5 m) c).arrAt w cfg2.N = E6 m c (Pipeline.arrRef spec2 w)) (hF2_0 m c) (hF2_1 m c) (hF2_2 m c) (hF2_3 m c) (hF2_4 m c) (hF2_5 m c) (hF2_6 m c) (hF2_7 m c) (hF2_8 m c) (hF2_9 m c) (hF2_10 m c) w
theorem hrest2 (c : Dev nD) : ∀ b, b ∉ Finset.univ.image (Pipeline.arrRef spec2) → E6 m c b = E5 m c b :=
  fun b hb => W6_of_ne m c b (fun e => hb (Finset.mem_image.mpr ⟨8, Finset.mem_univ _, e.symm⟩)) (fun e => hb (Finset.mem_image.mpr ⟨9, Finset.mem_univ _, e.symm⟩)) (fun e => hb (Finset.mem_image.mpr ⟨10, Finset.mem_univ _, e.symm⟩))

/-- After the host stretch before region 3. -/
def W7 (c : Dev nD) : Valuation τ sig (Elt F) := StableHlo.after hostOps3 (W6 m c)
/-- The same read at the TensorCore's references: what region 3 is entered with. -/
abbrev E7 : (c : Dev nD) → (b : Ref sig .tc) → Buf (Elt F) ((c : Thread nD τ).loc b) := fun c b => W7 m c b
/-- After region 3: its output arrays at what the region's write-backs leave, every other buffer as entered. -/
def W8 (c : Dev nD) : Valuation τ sig (Elt F) :=
  Function.update (W7 m c) main_v54 ((dat3 (E7 m) c).arrAt 5 cfg3.N)
abbrev E8 : (c : Dev nD) → (b : Ref sig .tc) → Buf (Elt F) ((c : Thread nD τ).loc b) := fun c b => W8 m c b
theorem W8_out0 (c : Dev nD) : W8 m c main_v54 = (dat3 (E7 m) c).arrAt 5 cfg3.N := by
  unfold W8; exact Function.update_self _ _ _
theorem W8_of_ne (c : Dev nD) (b : Ref sig .tc) (h0 : b ≠ main_v54) : W8 m c b = W7 m c b := by
  unfold W8; exact (Function.update_of_ne (StableHlo.devRef_ne_of_ne h0) _ _).trans (rfl)
theorem hF3_0 (c : Dev nD) : (dat3 (E7 m) c).arrAt 0 cfg3.N = E8 m c (Pipeline.arrRef spec3 0) :=
  (((dat3 (E7 m) c).arrAt_in 0 rfl _).trans (A_eq3 (E7 m) c 0)).trans (W8_of_ne m c main_v41_0 (by decide)).symm
theorem hF3_1 (c : Dev nD) : (dat3 (E7 m) c).arrAt 1 cfg3.N = E8 m c (Pipeline.arrRef spec3 1) :=
  (((dat3 (E7 m) c).arrAt_in 1 rfl _).trans (A_eq3 (E7 m) c 1)).trans (W8_of_ne m c main_v43 (by decide)).symm
theorem hF3_2 (c : Dev nD) : (dat3 (E7 m) c).arrAt 2 cfg3.N = E8 m c (Pipeline.arrRef spec3 2) :=
  (((dat3 (E7 m) c).arrAt_in 2 rfl _).trans (A_eq3 (E7 m) c 2)).trans (W8_of_ne m c main_v47 (by decide)).symm
theorem hF3_3 (c : Dev nD) : (dat3 (E7 m) c).arrAt 3 cfg3.N = E8 m c (Pipeline.arrRef spec3 3) :=
  (((dat3 (E7 m) c).arrAt_in 3 rfl _).trans (A_eq3 (E7 m) c 3)).trans (W8_of_ne m c main_v52 (by decide)).symm
theorem hF3_4 (c : Dev nD) : (dat3 (E7 m) c).arrAt 4 cfg3.N = E8 m c (Pipeline.arrRef spec3 4) :=
  (((dat3 (E7 m) c).arrAt_in 4 rfl _).trans (A_eq3 (E7 m) c 4)).trans (W8_of_ne m c main_v53 (by decide)).symm
theorem hF3_5 (c : Dev nD) : (dat3 (E7 m) c).arrAt 5 cfg3.N = E8 m c (Pipeline.arrRef spec3 5) := (W8_out0 m c).symm
theorem hF3 (c : Dev nD) (w : Fin cfg3.W) : (dat3 (E7 m) c).arrAt w cfg3.N = E8 m c (Pipeline.arrRef spec3 w) := by
  exact fin6_forall (P := fun w : Fin 6 => (dat3 (E7 m) c).arrAt w cfg3.N = E8 m c (Pipeline.arrRef spec3 w)) (hF3_0 m c) (hF3_1 m c) (hF3_2 m c) (hF3_3 m c) (hF3_4 m c) (hF3_5 m c) w
theorem hrest3 (c : Dev nD) : ∀ b, b ∉ Finset.univ.image (Pipeline.arrRef spec3) → E8 m c b = E7 m c b :=
  fun b hb => W8_of_ne m c b (fun e => hb (Finset.mem_image.mpr ⟨5, Finset.mem_univ _, e.symm⟩))

/-- After the host stretch before region 4. -/
def W9 (c : Dev nD) : Valuation τ sig (Elt F) := StableHlo.after hostOps4 (W8 m c)
/-- The same read at the TensorCore's references: what region 4 is entered with. -/
abbrev E9 : (c : Dev nD) → (b : Ref sig .tc) → Buf (Elt F) ((c : Thread nD τ).loc b) := fun c b => W9 m c b
/-- After region 4: its output arrays at what the region's write-backs leave, every other buffer as entered. -/
def W10 (c : Dev nD) : Valuation τ sig (Elt F) :=
  Function.update (Function.update (Function.update (W9 m c) main_v70_0 ((dat4 (E9 m) c).arrAt 4 cfg4.N)) main_v70_1 ((dat4 (E9 m) c).arrAt 5 cfg4.N)) main_v70_2 ((dat4 (E9 m) c).arrAt 6 cfg4.N)
abbrev E10 : (c : Dev nD) → (b : Ref sig .tc) → Buf (Elt F) ((c : Thread nD τ).loc b) := fun c b => W10 m c b
theorem W10_out0 (c : Dev nD) : W10 m c main_v70_0 = (dat4 (E9 m) c).arrAt 4 cfg4.N := by
  unfold W10; exact (Function.update_of_ne (StableHlo.devRef_ne_of_ne (show (main_v70_0 : Ref sig .tc) ≠ main_v70_2 by decide)) _ _).trans ((Function.update_of_ne (StableHlo.devRef_ne_of_ne (show (main_v70_0 : Ref sig .tc) ≠ main_v70_1 by decide)) _ _).trans (Function.update_self _ _ _))
theorem W10_out1 (c : Dev nD) : W10 m c main_v70_1 = (dat4 (E9 m) c).arrAt 5 cfg4.N := by
  unfold W10; exact (Function.update_of_ne (StableHlo.devRef_ne_of_ne (show (main_v70_1 : Ref sig .tc) ≠ main_v70_2 by decide)) _ _).trans (Function.update_self _ _ _)
theorem W10_out2 (c : Dev nD) : W10 m c main_v70_2 = (dat4 (E9 m) c).arrAt 6 cfg4.N := by
  unfold W10; exact Function.update_self _ _ _
theorem W10_of_ne (c : Dev nD) (b : Ref sig .tc) (h0 : b ≠ main_v70_0) (h1 : b ≠ main_v70_1) (h2 : b ≠ main_v70_2) : W10 m c b = W9 m c b := by
  unfold W10; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF4_0 (c : Dev nD) : (dat4 (E9 m) c).arrAt 0 cfg4.N = E10 m c (Pipeline.arrRef spec4 0) :=
  (((dat4 (E9 m) c).arrAt_in 0 rfl _).trans (A_eq4 (E9 m) c 0)).trans (W10_of_ne m c main_v54 (by decide) (by decide) (by decide)).symm
theorem hF4_1 (c : Dev nD) : (dat4 (E9 m) c).arrAt 1 cfg4.N = E10 m c (Pipeline.arrRef spec4 1) :=
  (((dat4 (E9 m) c).arrAt_in 1 rfl _).trans (A_eq4 (E9 m) c 1)).trans (W10_of_ne m c main_v64 (by decide) (by decide) (by decide)).symm
theorem hF4_2 (c : Dev nD) : (dat4 (E9 m) c).arrAt 2 cfg4.N = E10 m c (Pipeline.arrRef spec4 2) :=
  (((dat4 (E9 m) c).arrAt_in 2 rfl _).trans (A_eq4 (E9 m) c 2)).trans (W10_of_ne m c main_v66 (by decide) (by decide) (by decide)).symm
theorem hF4_3 (c : Dev nD) : (dat4 (E9 m) c).arrAt 3 cfg4.N = E10 m c (Pipeline.arrRef spec4 3) :=
  (((dat4 (E9 m) c).arrAt_in 3 rfl _).trans (A_eq4 (E9 m) c 3)).trans (W10_of_ne m c main_v69 (by decide) (by decide) (by decide)).symm
theorem hF4_4 (c : Dev nD) : (dat4 (E9 m) c).arrAt 4 cfg4.N = E10 m c (Pipeline.arrRef spec4 4) := (W10_out0 m c).symm
theorem hF4_5 (c : Dev nD) : (dat4 (E9 m) c).arrAt 5 cfg4.N = E10 m c (Pipeline.arrRef spec4 5) := (W10_out1 m c).symm
theorem hF4_6 (c : Dev nD) : (dat4 (E9 m) c).arrAt 6 cfg4.N = E10 m c (Pipeline.arrRef spec4 6) := (W10_out2 m c).symm
theorem hF4 (c : Dev nD) (w : Fin cfg4.W) : (dat4 (E9 m) c).arrAt w cfg4.N = E10 m c (Pipeline.arrRef spec4 w) := by
  exact fin7_forall (P := fun w : Fin 7 => (dat4 (E9 m) c).arrAt w cfg4.N = E10 m c (Pipeline.arrRef spec4 w)) (hF4_0 m c) (hF4_1 m c) (hF4_2 m c) (hF4_3 m c) (hF4_4 m c) (hF4_5 m c) (hF4_6 m c) w
theorem hrest4 (c : Dev nD) : ∀ b, b ∉ Finset.univ.image (Pipeline.arrRef spec4) → E10 m c b = E9 m c b :=
  fun b hb => W10_of_ne m c b (fun e => hb (Finset.mem_image.mpr ⟨4, Finset.mem_univ _, e.symm⟩)) (fun e => hb (Finset.mem_image.mpr ⟨5, Finset.mem_univ _, e.symm⟩)) (fun e => hb (Finset.mem_image.mpr ⟨6, Finset.mem_univ _, e.symm⟩))

/-- After the host stretch before region 5. -/
def W11 (c : Dev nD) : Valuation τ sig (Elt F) := StableHlo.after hostOps5 (W10 m c)
/-- The same read at the TensorCore's references: what region 5 is entered with. -/
abbrev E11 : (c : Dev nD) → (b : Ref sig .tc) → Buf (Elt F) ((c : Thread nD τ).loc b) := fun c b => W11 m c b
/-- After region 5: its output arrays at what the region's write-backs leave, every other buffer as entered. -/
def W12 (c : Dev nD) : Valuation τ sig (Elt F) :=
  Function.update (Function.update (Function.update (W11 m c) main_v88_0 ((dat5 (E11 m) c).arrAt 8 cfg5.N)) main_v88_1 ((dat5 (E11 m) c).arrAt 9 cfg5.N)) main_v88_2 ((dat5 (E11 m) c).arrAt 10 cfg5.N)
abbrev E12 : (c : Dev nD) → (b : Ref sig .tc) → Buf (Elt F) ((c : Thread nD τ).loc b) := fun c b => W12 m c b
theorem W12_out0 (c : Dev nD) : W12 m c main_v88_0 = (dat5 (E11 m) c).arrAt 8 cfg5.N := by
  unfold W12; exact (Function.update_of_ne (StableHlo.devRef_ne_of_ne (show (main_v88_0 : Ref sig .tc) ≠ main_v88_2 by decide)) _ _).trans ((Function.update_of_ne (StableHlo.devRef_ne_of_ne (show (main_v88_0 : Ref sig .tc) ≠ main_v88_1 by decide)) _ _).trans (Function.update_self _ _ _))
theorem W12_out1 (c : Dev nD) : W12 m c main_v88_1 = (dat5 (E11 m) c).arrAt 9 cfg5.N := by
  unfold W12; exact (Function.update_of_ne (StableHlo.devRef_ne_of_ne (show (main_v88_1 : Ref sig .tc) ≠ main_v88_2 by decide)) _ _).trans (Function.update_self _ _ _)
theorem W12_out2 (c : Dev nD) : W12 m c main_v88_2 = (dat5 (E11 m) c).arrAt 10 cfg5.N := by
  unfold W12; exact Function.update_self _ _ _
theorem W12_of_ne (c : Dev nD) (b : Ref sig .tc) (h0 : b ≠ main_v88_0) (h1 : b ≠ main_v88_1) (h2 : b ≠ main_v88_2) : W12 m c b = W11 m c b := by
  unfold W12; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF5_0 (c : Dev nD) : (dat5 (E11 m) c).arrAt 0 cfg5.N = E12 m c (Pipeline.arrRef spec5 0) :=
  (((dat5 (E11 m) c).arrAt_in 0 rfl _).trans (A_eq5 (E11 m) c 0)).trans (W12_of_ne m c main_v70_0 (by decide) (by decide) (by decide)).symm
theorem hF5_1 (c : Dev nD) : (dat5 (E11 m) c).arrAt 1 cfg5.N = E12 m c (Pipeline.arrRef spec5 1) :=
  (((dat5 (E11 m) c).arrAt_in 1 rfl _).trans (A_eq5 (E11 m) c 1)).trans (W12_of_ne m c main_v72 (by decide) (by decide) (by decide)).symm
theorem hF5_2 (c : Dev nD) : (dat5 (E11 m) c).arrAt 2 cfg5.N = E12 m c (Pipeline.arrRef spec5 2) :=
  (((dat5 (E11 m) c).arrAt_in 2 rfl _).trans (A_eq5 (E11 m) c 2)).trans (W12_of_ne m c main_v76 (by decide) (by decide) (by decide)).symm
theorem hF5_3 (c : Dev nD) : (dat5 (E11 m) c).arrAt 3 cfg5.N = E12 m c (Pipeline.arrRef spec5 3) :=
  (((dat5 (E11 m) c).arrAt_in 3 rfl _).trans (A_eq5 (E11 m) c 3)).trans (W12_of_ne m c main_v85 (by decide) (by decide) (by decide)).symm
theorem hF5_4 (c : Dev nD) : (dat5 (E11 m) c).arrAt 4 cfg5.N = E12 m c (Pipeline.arrRef spec5 4) :=
  (((dat5 (E11 m) c).arrAt_in 4 rfl _).trans (A_eq5 (E11 m) c 4)).trans (W12_of_ne m c main_v86 (by decide) (by decide) (by decide)).symm
theorem hF5_5 (c : Dev nD) : (dat5 (E11 m) c).arrAt 5 cfg5.N = E12 m c (Pipeline.arrRef spec5 5) :=
  (((dat5 (E11 m) c).arrAt_in 5 rfl _).trans (A_eq5 (E11 m) c 5)).trans (W12_of_ne m c main_v54 (by decide) (by decide) (by decide)).symm
theorem hF5_6 (c : Dev nD) : (dat5 (E11 m) c).arrAt 6 cfg5.N = E12 m c (Pipeline.arrRef spec5 6) :=
  (((dat5 (E11 m) c).arrAt_in 6 rfl _).trans (A_eq5 (E11 m) c 6)).trans (W12_of_ne m c main_v82 (by decide) (by decide) (by decide)).symm
theorem hF5_7 (c : Dev nD) : (dat5 (E11 m) c).arrAt 7 cfg5.N = E12 m c (Pipeline.arrRef spec5 7) :=
  (((dat5 (E11 m) c).arrAt_in 7 rfl _).trans (A_eq5 (E11 m) c 7)).trans (W12_of_ne m c main_v87 (by decide) (by decide) (by decide)).symm
theorem hF5_8 (c : Dev nD) : (dat5 (E11 m) c).arrAt 8 cfg5.N = E12 m c (Pipeline.arrRef spec5 8) := (W12_out0 m c).symm
theorem hF5_9 (c : Dev nD) : (dat5 (E11 m) c).arrAt 9 cfg5.N = E12 m c (Pipeline.arrRef spec5 9) := (W12_out1 m c).symm
theorem hF5_10 (c : Dev nD) : (dat5 (E11 m) c).arrAt 10 cfg5.N = E12 m c (Pipeline.arrRef spec5 10) := (W12_out2 m c).symm
theorem hF5 (c : Dev nD) (w : Fin cfg5.W) : (dat5 (E11 m) c).arrAt w cfg5.N = E12 m c (Pipeline.arrRef spec5 w) := by
  exact fin11_forall (P := fun w : Fin 11 => (dat5 (E11 m) c).arrAt w cfg5.N = E12 m c (Pipeline.arrRef spec5 w)) (hF5_0 m c) (hF5_1 m c) (hF5_2 m c) (hF5_3 m c) (hF5_4 m c) (hF5_5 m c) (hF5_6 m c) (hF5_7 m c) (hF5_8 m c) (hF5_9 m c) (hF5_10 m c) w
theorem hrest5 (c : Dev nD) : ∀ b, b ∉ Finset.univ.image (Pipeline.arrRef spec5) → E12 m c b = E11 m c b :=
  fun b hb => W12_of_ne m c b (fun e => hb (Finset.mem_image.mpr ⟨8, Finset.mem_univ _, e.symm⟩)) (fun e => hb (Finset.mem_image.mpr ⟨9, Finset.mem_univ _, e.symm⟩)) (fun e => hb (Finset.mem_image.mpr ⟨10, Finset.mem_univ _, e.symm⟩))

/-- After the host stretch before region 6. -/
def W13 (c : Dev nD) : Valuation τ sig (Elt F) := StableHlo.after hostOps6 (W12 m c)
/-- The same read at the TensorCore's references: what region 6 is entered with. -/
abbrev E13 : (c : Dev nD) → (b : Ref sig .tc) → Buf (Elt F) ((c : Thread nD τ).loc b) := fun c b => W13 m c b
/-- After region 6: its output arrays at what the region's write-backs leave, every other buffer as entered. -/
def W14 (c : Dev nD) : Valuation τ sig (Elt F) :=
  Function.update (W13 m c) main_v101 ((dat6 (E13 m) c).arrAt 5 cfg6.N)
abbrev E14 : (c : Dev nD) → (b : Ref sig .tc) → Buf (Elt F) ((c : Thread nD τ).loc b) := fun c b => W14 m c b
theorem W14_out0 (c : Dev nD) : W14 m c main_v101 = (dat6 (E13 m) c).arrAt 5 cfg6.N := by
  unfold W14; exact Function.update_self _ _ _
theorem W14_of_ne (c : Dev nD) (b : Ref sig .tc) (h0 : b ≠ main_v101) : W14 m c b = W13 m c b := by
  unfold W14; exact (Function.update_of_ne (StableHlo.devRef_ne_of_ne h0) _ _).trans (rfl)
theorem hF6_0 (c : Dev nD) : (dat6 (E13 m) c).arrAt 0 cfg6.N = E14 m c (Pipeline.arrRef spec6 0) :=
  (((dat6 (E13 m) c).arrAt_in 0 rfl _).trans (A_eq6 (E13 m) c 0)).trans (W14_of_ne m c main_v88_0 (by decide)).symm
theorem hF6_1 (c : Dev nD) : (dat6 (E13 m) c).arrAt 1 cfg6.N = E14 m c (Pipeline.arrRef spec6 1) :=
  (((dat6 (E13 m) c).arrAt_in 1 rfl _).trans (A_eq6 (E13 m) c 1)).trans (W14_of_ne m c main_v90 (by decide)).symm
theorem hF6_2 (c : Dev nD) : (dat6 (E13 m) c).arrAt 2 cfg6.N = E14 m c (Pipeline.arrRef spec6 2) :=
  (((dat6 (E13 m) c).arrAt_in 2 rfl _).trans (A_eq6 (E13 m) c 2)).trans (W14_of_ne m c main_v94 (by decide)).symm
theorem hF6_3 (c : Dev nD) : (dat6 (E13 m) c).arrAt 3 cfg6.N = E14 m c (Pipeline.arrRef spec6 3) :=
  (((dat6 (E13 m) c).arrAt_in 3 rfl _).trans (A_eq6 (E13 m) c 3)).trans (W14_of_ne m c main_v99 (by decide)).symm
theorem hF6_4 (c : Dev nD) : (dat6 (E13 m) c).arrAt 4 cfg6.N = E14 m c (Pipeline.arrRef spec6 4) :=
  (((dat6 (E13 m) c).arrAt_in 4 rfl _).trans (A_eq6 (E13 m) c 4)).trans (W14_of_ne m c main_v100 (by decide)).symm
theorem hF6_5 (c : Dev nD) : (dat6 (E13 m) c).arrAt 5 cfg6.N = E14 m c (Pipeline.arrRef spec6 5) := (W14_out0 m c).symm
theorem hF6 (c : Dev nD) (w : Fin cfg6.W) : (dat6 (E13 m) c).arrAt w cfg6.N = E14 m c (Pipeline.arrRef spec6 w) := by
  exact fin6_forall (P := fun w : Fin 6 => (dat6 (E13 m) c).arrAt w cfg6.N = E14 m c (Pipeline.arrRef spec6 w)) (hF6_0 m c) (hF6_1 m c) (hF6_2 m c) (hF6_3 m c) (hF6_4 m c) (hF6_5 m c) w
theorem hrest6 (c : Dev nD) : ∀ b, b ∉ Finset.univ.image (Pipeline.arrRef spec6) → E14 m c b = E13 m c b :=
  fun b hb => W14_of_ne m c b (fun e => hb (Finset.mem_image.mpr ⟨5, Finset.mem_univ _, e.symm⟩))

/-- After the host stretch before region 7. -/
def W15 (c : Dev nD) : Valuation τ sig (Elt F) := StableHlo.after hostOps7 (W14 m c)
/-- The same read at the TensorCore's references: what region 7 is entered with. -/
abbrev E15 : (c : Dev nD) → (b : Ref sig .tc) → Buf (Elt F) ((c : Thread nD τ).loc b) := fun c b => W15 m c b
/-- After region 7: its output arrays at what the region's write-backs leave, every other buffer as entered. -/
def W16 (c : Dev nD) : Valuation τ sig (Elt F) :=
  Function.update (Function.update (Function.update (W15 m c) main_v117_0 ((dat7 (E15 m) c).arrAt 4 cfg7.N)) main_v117_1 ((dat7 (E15 m) c).arrAt 5 cfg7.N)) main_v117_2 ((dat7 (E15 m) c).arrAt 6 cfg7.N)
abbrev E16 : (c : Dev nD) → (b : Ref sig .tc) → Buf (Elt F) ((c : Thread nD τ).loc b) := fun c b => W16 m c b
theorem W16_out0 (c : Dev nD) : W16 m c main_v117_0 = (dat7 (E15 m) c).arrAt 4 cfg7.N := by
  unfold W16; exact (Function.update_of_ne (StableHlo.devRef_ne_of_ne (show (main_v117_0 : Ref sig .tc) ≠ main_v117_2 by decide)) _ _).trans ((Function.update_of_ne (StableHlo.devRef_ne_of_ne (show (main_v117_0 : Ref sig .tc) ≠ main_v117_1 by decide)) _ _).trans (Function.update_self _ _ _))
theorem W16_out1 (c : Dev nD) : W16 m c main_v117_1 = (dat7 (E15 m) c).arrAt 5 cfg7.N := by
  unfold W16; exact (Function.update_of_ne (StableHlo.devRef_ne_of_ne (show (main_v117_1 : Ref sig .tc) ≠ main_v117_2 by decide)) _ _).trans (Function.update_self _ _ _)
theorem W16_out2 (c : Dev nD) : W16 m c main_v117_2 = (dat7 (E15 m) c).arrAt 6 cfg7.N := by
  unfold W16; exact Function.update_self _ _ _
theorem W16_of_ne (c : Dev nD) (b : Ref sig .tc) (h0 : b ≠ main_v117_0) (h1 : b ≠ main_v117_1) (h2 : b ≠ main_v117_2) : W16 m c b = W15 m c b := by
  unfold W16; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF7_0 (c : Dev nD) : (dat7 (E15 m) c).arrAt 0 cfg7.N = E16 m c (Pipeline.arrRef spec7 0) :=
  (((dat7 (E15 m) c).arrAt_in 0 rfl _).trans (A_eq7 (E15 m) c 0)).trans (W16_of_ne m c main_v101 (by decide) (by decide) (by decide)).symm
theorem hF7_1 (c : Dev nD) : (dat7 (E15 m) c).arrAt 1 cfg7.N = E16 m c (Pipeline.arrRef spec7 1) :=
  (((dat7 (E15 m) c).arrAt_in 1 rfl _).trans (A_eq7 (E15 m) c 1)).trans (W16_of_ne m c main_v111 (by decide) (by decide) (by decide)).symm
theorem hF7_2 (c : Dev nD) : (dat7 (E15 m) c).arrAt 2 cfg7.N = E16 m c (Pipeline.arrRef spec7 2) :=
  (((dat7 (E15 m) c).arrAt_in 2 rfl _).trans (A_eq7 (E15 m) c 2)).trans (W16_of_ne m c main_v113 (by decide) (by decide) (by decide)).symm
theorem hF7_3 (c : Dev nD) : (dat7 (E15 m) c).arrAt 3 cfg7.N = E16 m c (Pipeline.arrRef spec7 3) :=
  (((dat7 (E15 m) c).arrAt_in 3 rfl _).trans (A_eq7 (E15 m) c 3)).trans (W16_of_ne m c main_v116 (by decide) (by decide) (by decide)).symm
theorem hF7_4 (c : Dev nD) : (dat7 (E15 m) c).arrAt 4 cfg7.N = E16 m c (Pipeline.arrRef spec7 4) := (W16_out0 m c).symm
theorem hF7_5 (c : Dev nD) : (dat7 (E15 m) c).arrAt 5 cfg7.N = E16 m c (Pipeline.arrRef spec7 5) := (W16_out1 m c).symm
theorem hF7_6 (c : Dev nD) : (dat7 (E15 m) c).arrAt 6 cfg7.N = E16 m c (Pipeline.arrRef spec7 6) := (W16_out2 m c).symm
theorem hF7 (c : Dev nD) (w : Fin cfg7.W) : (dat7 (E15 m) c).arrAt w cfg7.N = E16 m c (Pipeline.arrRef spec7 w) := by
  exact fin7_forall (P := fun w : Fin 7 => (dat7 (E15 m) c).arrAt w cfg7.N = E16 m c (Pipeline.arrRef spec7 w)) (hF7_0 m c) (hF7_1 m c) (hF7_2 m c) (hF7_3 m c) (hF7_4 m c) (hF7_5 m c) (hF7_6 m c) w
theorem hrest7 (c : Dev nD) : ∀ b, b ∉ Finset.univ.image (Pipeline.arrRef spec7) → E16 m c b = E15 m c b :=
  fun b hb => W16_of_ne m c b (fun e => hb (Finset.mem_image.mpr ⟨4, Finset.mem_univ _, e.symm⟩)) (fun e => hb (Finset.mem_image.mpr ⟨5, Finset.mem_univ _, e.symm⟩)) (fun e => hb (Finset.mem_image.mpr ⟨6, Finset.mem_univ _, e.symm⟩))

/-- After the host stretch before region 8. -/
def W17 (c : Dev nD) : Valuation τ sig (Elt F) := StableHlo.after hostOps8 (W16 m c)
/-- The same read at the TensorCore's references: what region 8 is entered with. -/
abbrev E17 : (c : Dev nD) → (b : Ref sig .tc) → Buf (Elt F) ((c : Thread nD τ).loc b) := fun c b => W17 m c b
/-- After region 8: its output arrays at what the region's write-backs leave, every other buffer as entered. -/
def W18 (c : Dev nD) : Valuation τ sig (Elt F) :=
  Function.update (Function.update (Function.update (W17 m c) main_v135_0 ((dat8 (E17 m) c).arrAt 8 cfg8.N)) main_v135_1 ((dat8 (E17 m) c).arrAt 9 cfg8.N)) main_v135_2 ((dat8 (E17 m) c).arrAt 10 cfg8.N)
abbrev E18 : (c : Dev nD) → (b : Ref sig .tc) → Buf (Elt F) ((c : Thread nD τ).loc b) := fun c b => W18 m c b
theorem W18_out0 (c : Dev nD) : W18 m c main_v135_0 = (dat8 (E17 m) c).arrAt 8 cfg8.N := by
  unfold W18; exact (Function.update_of_ne (StableHlo.devRef_ne_of_ne (show (main_v135_0 : Ref sig .tc) ≠ main_v135_2 by decide)) _ _).trans ((Function.update_of_ne (StableHlo.devRef_ne_of_ne (show (main_v135_0 : Ref sig .tc) ≠ main_v135_1 by decide)) _ _).trans (Function.update_self _ _ _))
theorem W18_out1 (c : Dev nD) : W18 m c main_v135_1 = (dat8 (E17 m) c).arrAt 9 cfg8.N := by
  unfold W18; exact (Function.update_of_ne (StableHlo.devRef_ne_of_ne (show (main_v135_1 : Ref sig .tc) ≠ main_v135_2 by decide)) _ _).trans (Function.update_self _ _ _)
theorem W18_out2 (c : Dev nD) : W18 m c main_v135_2 = (dat8 (E17 m) c).arrAt 10 cfg8.N := by
  unfold W18; exact Function.update_self _ _ _
theorem W18_of_ne (c : Dev nD) (b : Ref sig .tc) (h0 : b ≠ main_v135_0) (h1 : b ≠ main_v135_1) (h2 : b ≠ main_v135_2) : W18 m c b = W17 m c b := by
  unfold W18; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF8_0 (c : Dev nD) : (dat8 (E17 m) c).arrAt 0 cfg8.N = E18 m c (Pipeline.arrRef spec8 0) :=
  (((dat8 (E17 m) c).arrAt_in 0 rfl _).trans (A_eq8 (E17 m) c 0)).trans (W18_of_ne m c main_v117_0 (by decide) (by decide) (by decide)).symm
theorem hF8_1 (c : Dev nD) : (dat8 (E17 m) c).arrAt 1 cfg8.N = E18 m c (Pipeline.arrRef spec8 1) :=
  (((dat8 (E17 m) c).arrAt_in 1 rfl _).trans (A_eq8 (E17 m) c 1)).trans (W18_of_ne m c main_v119 (by decide) (by decide) (by decide)).symm
theorem hF8_2 (c : Dev nD) : (dat8 (E17 m) c).arrAt 2 cfg8.N = E18 m c (Pipeline.arrRef spec8 2) :=
  (((dat8 (E17 m) c).arrAt_in 2 rfl _).trans (A_eq8 (E17 m) c 2)).trans (W18_of_ne m c main_v123 (by decide) (by decide) (by decide)).symm
theorem hF8_3 (c : Dev nD) : (dat8 (E17 m) c).arrAt 3 cfg8.N = E18 m c (Pipeline.arrRef spec8 3) :=
  (((dat8 (E17 m) c).arrAt_in 3 rfl _).trans (A_eq8 (E17 m) c 3)).trans (W18_of_ne m c main_v132 (by decide) (by decide) (by decide)).symm
theorem hF8_4 (c : Dev nD) : (dat8 (E17 m) c).arrAt 4 cfg8.N = E18 m c (Pipeline.arrRef spec8 4) :=
  (((dat8 (E17 m) c).arrAt_in 4 rfl _).trans (A_eq8 (E17 m) c 4)).trans (W18_of_ne m c main_v133 (by decide) (by decide) (by decide)).symm
theorem hF8_5 (c : Dev nD) : (dat8 (E17 m) c).arrAt 5 cfg8.N = E18 m c (Pipeline.arrRef spec8 5) :=
  (((dat8 (E17 m) c).arrAt_in 5 rfl _).trans (A_eq8 (E17 m) c 5)).trans (W18_of_ne m c main_v101 (by decide) (by decide) (by decide)).symm
theorem hF8_6 (c : Dev nD) : (dat8 (E17 m) c).arrAt 6 cfg8.N = E18 m c (Pipeline.arrRef spec8 6) :=
  (((dat8 (E17 m) c).arrAt_in 6 rfl _).trans (A_eq8 (E17 m) c 6)).trans (W18_of_ne m c main_v129 (by decide) (by decide) (by decide)).symm
theorem hF8_7 (c : Dev nD) : (dat8 (E17 m) c).arrAt 7 cfg8.N = E18 m c (Pipeline.arrRef spec8 7) :=
  (((dat8 (E17 m) c).arrAt_in 7 rfl _).trans (A_eq8 (E17 m) c 7)).trans (W18_of_ne m c main_v134 (by decide) (by decide) (by decide)).symm
theorem hF8_8 (c : Dev nD) : (dat8 (E17 m) c).arrAt 8 cfg8.N = E18 m c (Pipeline.arrRef spec8 8) := (W18_out0 m c).symm
theorem hF8_9 (c : Dev nD) : (dat8 (E17 m) c).arrAt 9 cfg8.N = E18 m c (Pipeline.arrRef spec8 9) := (W18_out1 m c).symm
theorem hF8_10 (c : Dev nD) : (dat8 (E17 m) c).arrAt 10 cfg8.N = E18 m c (Pipeline.arrRef spec8 10) := (W18_out2 m c).symm
theorem hF8 (c : Dev nD) (w : Fin cfg8.W) : (dat8 (E17 m) c).arrAt w cfg8.N = E18 m c (Pipeline.arrRef spec8 w) := by
  exact fin11_forall (P := fun w : Fin 11 => (dat8 (E17 m) c).arrAt w cfg8.N = E18 m c (Pipeline.arrRef spec8 w)) (hF8_0 m c) (hF8_1 m c) (hF8_2 m c) (hF8_3 m c) (hF8_4 m c) (hF8_5 m c) (hF8_6 m c) (hF8_7 m c) (hF8_8 m c) (hF8_9 m c) (hF8_10 m c) w
theorem hrest8 (c : Dev nD) : ∀ b, b ∉ Finset.univ.image (Pipeline.arrRef spec8) → E18 m c b = E17 m c b :=
  fun b hb => W18_of_ne m c b (fun e => hb (Finset.mem_image.mpr ⟨8, Finset.mem_univ _, e.symm⟩)) (fun e => hb (Finset.mem_image.mpr ⟨9, Finset.mem_univ _, e.symm⟩)) (fun e => hb (Finset.mem_image.mpr ⟨10, Finset.mem_univ _, e.symm⟩))

/-- After the host stretch before region 9. -/
def W19 (c : Dev nD) : Valuation τ sig (Elt F) := StableHlo.after hostOps9 (W18 m c)
/-- The same read at the TensorCore's references: what region 9 is entered with. -/
abbrev E19 : (c : Dev nD) → (b : Ref sig .tc) → Buf (Elt F) ((c : Thread nD τ).loc b) := fun c b => W19 m c b
/-- After region 9: its output arrays at what the region's write-backs leave, every other buffer as entered. -/
def W20 (c : Dev nD) : Valuation τ sig (Elt F) :=
  Function.update (W19 m c) main_v148 ((dat9 (E19 m) c).arrAt 5 cfg9.N)
abbrev E20 : (c : Dev nD) → (b : Ref sig .tc) → Buf (Elt F) ((c : Thread nD τ).loc b) := fun c b => W20 m c b
theorem W20_out0 (c : Dev nD) : W20 m c main_v148 = (dat9 (E19 m) c).arrAt 5 cfg9.N := by
  unfold W20; exact Function.update_self _ _ _
theorem W20_of_ne (c : Dev nD) (b : Ref sig .tc) (h0 : b ≠ main_v148) : W20 m c b = W19 m c b := by
  unfold W20; exact (Function.update_of_ne (StableHlo.devRef_ne_of_ne h0) _ _).trans (rfl)
theorem hF9_0 (c : Dev nD) : (dat9 (E19 m) c).arrAt 0 cfg9.N = E20 m c (Pipeline.arrRef spec9 0) :=
  (((dat9 (E19 m) c).arrAt_in 0 rfl _).trans (A_eq9 (E19 m) c 0)).trans (W20_of_ne m c main_v135_0 (by decide)).symm
theorem hF9_1 (c : Dev nD) : (dat9 (E19 m) c).arrAt 1 cfg9.N = E20 m c (Pipeline.arrRef spec9 1) :=
  (((dat9 (E19 m) c).arrAt_in 1 rfl _).trans (A_eq9 (E19 m) c 1)).trans (W20_of_ne m c main_v137 (by decide)).symm
theorem hF9_2 (c : Dev nD) : (dat9 (E19 m) c).arrAt 2 cfg9.N = E20 m c (Pipeline.arrRef spec9 2) :=
  (((dat9 (E19 m) c).arrAt_in 2 rfl _).trans (A_eq9 (E19 m) c 2)).trans (W20_of_ne m c main_v141 (by decide)).symm
theorem hF9_3 (c : Dev nD) : (dat9 (E19 m) c).arrAt 3 cfg9.N = E20 m c (Pipeline.arrRef spec9 3) :=
  (((dat9 (E19 m) c).arrAt_in 3 rfl _).trans (A_eq9 (E19 m) c 3)).trans (W20_of_ne m c main_v146 (by decide)).symm
theorem hF9_4 (c : Dev nD) : (dat9 (E19 m) c).arrAt 4 cfg9.N = E20 m c (Pipeline.arrRef spec9 4) :=
  (((dat9 (E19 m) c).arrAt_in 4 rfl _).trans (A_eq9 (E19 m) c 4)).trans (W20_of_ne m c main_v147 (by decide)).symm
theorem hF9_5 (c : Dev nD) : (dat9 (E19 m) c).arrAt 5 cfg9.N = E20 m c (Pipeline.arrRef spec9 5) := (W20_out0 m c).symm
theorem hF9 (c : Dev nD) (w : Fin cfg9.W) : (dat9 (E19 m) c).arrAt w cfg9.N = E20 m c (Pipeline.arrRef spec9 w) := by
  exact fin6_forall (P := fun w : Fin 6 => (dat9 (E19 m) c).arrAt w cfg9.N = E20 m c (Pipeline.arrRef spec9 w)) (hF9_0 m c) (hF9_1 m c) (hF9_2 m c) (hF9_3 m c) (hF9_4 m c) (hF9_5 m c) w
theorem hrest9 (c : Dev nD) : ∀ b, b ∉ Finset.univ.image (Pipeline.arrRef spec9) → E20 m c b = E19 m c b :=
  fun b hb => W20_of_ne m c b (fun e => hb (Finset.mem_image.mpr ⟨5, Finset.mem_univ _, e.symm⟩))

/-! ## The proof data family, the thread state, the regions as segments -/

/-- Every pipeline's proof data, each at its region's entry contents: a literal match on the pipeline. -/
def pdats : (p : Fin 10) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨_ + 10, h⟩ => absurd h (Nat.not_lt.2 (Nat.le_add_left _ _))

/-- No core owes another anything: no level is assigned. -/
abbrev Lv0 : GSem nD τ sig → Finset Unit := fun _ => ∅
abbrev lv0 : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lv0 lv0 0 fun c t => owed_eq0 (E1 m) c t
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full (q_eq0 (E1 m) c)) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 0 c).owed 0 = 0 from owed_eq0 (E1 m) c 0]
      iexact HO
    isplitl [Hp]; · iexact Hp
    iexact Hrest
  hin c := hin0 (E1 m) c
  hout c := hout0 (E1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (q_eq0 (E1 m) c))
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (E1 m) c _]
    iexact HO

set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def reg1 : RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lv0 lv0 1 fun c t => owed_eq1 (E3 m) c t
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full (q_eq1 (E3 m) c)) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 1 c).owed 0 = 0 from owed_eq1 (E3 m) c 0]
      iexact HO
    isplitl [Hp]; · iexact Hp
    iexact Hrest
  hin c := hin1 (E3 m) c
  hout c := hout1 (E3 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (q_eq1 (E3 m) c))
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed_eq1 (E3 m) c _]
    iexact HO

set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def reg2 : RegionSeg (pcfgs (F := F)) adm (pdats m) () defs₀ Variants.none Lv0 lv0 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ Lv0 lv0 2 fun c t => owed_eq2 (E5 m) c t
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full (q_eq2 (E5 m) c)) (E5 m c) fun w => A_eq2 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 2 c).owed 0 = 0 from owed_eq2 (E5 m) c 0]
      iexact HO
    isplitl [Hp]; · iexact Hp
    iexact Hrest
  hin c := hin2 (E5 m) c
  hout c := hout2 (E5 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full (q_eq2 (E5 m) c))
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed_eq2 (E5 m) c _]
    iexact HO

set_option backward.isDefEq.respectTransparency.types false in
/-- Region 3 over the thread state: entered from every unscoped buffer at `W7`, left at `W8`. Its arrays are split
    out of the unscoped buffers and put back at the exit contents; the generator register goes into the region's
    invariant and comes back; nothing is owed; the kernel has no semaphore of its own. -/
def reg3 : RegionSeg (pcfgs (F := F)) adm (pdats m) () defs₀ Variants.none Lv0 lv0 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ Lv0 lv0 3 fun c t => owed_eq3 (E7 m) c t
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full (q_eq3 (E7 m) c)) (E7 m c) fun w => A_eq3 (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 3 c).owed 0 = 0 from owed_eq3 (E7 m) c 0]
      iexact HO
    isplitl [Hp]; · iexact Hp
    iexact Hrest
  hin c := hin3 (E7 m) c
  hout c := hout3 (E7 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full (q_eq3 (E7 m) c))
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 3 c).owed (Fin.last _) = 0 from owed_eq3 (E7 m) c _]
    iexact HO

set_option backward.isDefEq.respectTransparency.types false in
/-- Region 4 over the thread state: entered from every unscoped buffer at `W9`, left at `W10`. Its arrays are split
    out of the unscoped buffers and put back at the exit contents; the generator register goes into the region's
    invariant and comes back; nothing is owed; the kernel has no semaphore of its own. -/
def reg4 : RegionSeg (pcfgs (F := F)) adm (pdats m) () defs₀ Variants.none Lv0 lv0 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ Lv0 lv0 4 fun c t => owed_eq4 (E9 m) c t
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full (q_eq4 (E9 m) c)) (E9 m c) fun w => A_eq4 (E9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 4 c).owed 0 = 0 from owed_eq4 (E9 m) c 0]
      iexact HO
    isplitl [Hp]; · iexact Hp
    iexact Hrest
  hin c := hin4 (E9 m) c
  hout c := hout4 (E9 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full (q_eq4 (E9 m) c))
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 4 c).owed (Fin.last _) = 0 from owed_eq4 (E9 m) c _]
    iexact HO

set_option backward.isDefEq.respectTransparency.types false in
/-- Region 5 over the thread state: entered from every unscoped buffer at `W11`, left at `W12`. Its arrays are split
    out of the unscoped buffers and put back at the exit contents; the generator register goes into the region's
    invariant and comes back; nothing is owed; the kernel has no semaphore of its own. -/
def reg5 : RegionSeg (pcfgs (F := F)) adm (pdats m) () defs₀ Variants.none Lv0 lv0 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ Lv0 lv0 5 fun c t => owed_eq5 (E11 m) c t
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full (q_eq5 (E11 m) c)) (E11 m c) fun w => A_eq5 (E11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 5 c).owed 0 = 0 from owed_eq5 (E11 m) c 0]
      iexact HO
    isplitl [Hp]; · iexact Hp
    iexact Hrest
  hin c := hin5 (E11 m) c
  hout c := hout5 (E11 m) c
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full (q_eq5 (E11 m) c))
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 5 c).owed (Fin.last _) = 0 from owed_eq5 (E11 m) c _]
    iexact HO

set_option backward.isDefEq.respectTransparency.types false in
/-- Region 6 over the thread state: entered from every unscoped buffer at `W13`, left at `W14`. Its arrays are split
    out of the unscoped buffers and put back at the exit contents; the generator register goes into the region's
    invariant and comes back; nothing is owed; the kernel has no semaphore of its own. -/
def reg6 : RegionSeg (pcfgs (F := F)) adm (pdats m) () defs₀ Variants.none Lv0 lv0 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ Lv0 lv0 6 fun c t => owed_eq6 (E13 m) c t
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full (q_eq6 (E13 m) c)) (E13 m c) fun w => A_eq6 (E13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 6 c).owed 0 = 0 from owed_eq6 (E13 m) c 0]
      iexact HO
    isplitl [Hp]; · iexact Hp
    iexact Hrest
  hin c := hin6 (E13 m) c
  hout c := hout6 (E13 m) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full (q_eq6 (E13 m) c))
      (E13 m c) (E14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 6 c).owed (Fin.last _) = 0 from owed_eq6 (E13 m) c _]
    iexact HO

set_option backward.isDefEq.respectTransparency.types false in
/-- Region 7 over the thread state: entered from every unscoped buffer at `W15`, left at `W16`. Its arrays are split
    out of the unscoped buffers and put back at the exit contents; the generator register goes into the region's
    invariant and comes back; nothing is owed; the kernel has no semaphore of its own. -/
def reg7 : RegionSeg (pcfgs (F := F)) adm (pdats m) () defs₀ Variants.none Lv0 lv0 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ Lv0 lv0 7 fun c t => owed_eq7 (E15 m) c t
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full (q_eq7 (E15 m) c)) (E15 m c) fun w => A_eq7 (E15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 7 c).owed 0 = 0 from owed_eq7 (E15 m) c 0]
      iexact HO
    isplitl [Hp]; · iexact Hp
    iexact Hrest
  hin c := hin7 (E15 m) c
  hout c := hout7 (E15 m) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full (q_eq7 (E15 m) c))
      (E15 m c) (E16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 7 c).owed (Fin.last _) = 0 from owed_eq7 (E15 m) c _]
    iexact HO

set_option backward.isDefEq.respectTransparency.types false in
/-- Region 8 over the thread state: entered from every unscoped buffer at `W17`, left at `W18`. Its arrays are split
    out of the unscoped buffers and put back at the exit contents; the generator register goes into the region's
    invariant and comes back; nothing is owed; the kernel has no semaphore of its own. -/
def reg8 : RegionSeg (pcfgs (F := F)) adm (pdats m) () defs₀ Variants.none Lv0 lv0 8 where
  win := launch8.win.to₀
  block_pos := launch8.block_pos
  stage_whole := launch8.stage_whole
  K := PEmpty
  osem k := k.elim
  ho := Pipeline.OwnSemFacts.none _
  hbody c := (body_obligation8 (E17 m) c).loose
  hwaits := Pipeline.hwaits_of_owed_zero _ _ _ _ Lv0 lv0 8 fun c t => owed_eq8 (E17 m) c t
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full (q_eq8 (E17 m) c)) (E17 m c) fun w => A_eq8 (E17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 8 c).owed 0 = 0 from owed_eq8 (E17 m) c 0]
      iexact HO
    isplitl [Hp]; · iexact Hp
    iexact Hrest
  hin c := hin8 (E17 m) c
  hout c := hout8 (E17 m) c
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full (q_eq8 (E17 m) c))
      (E17 m c) (E18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 8 c).owed (Fin.last _) = 0 from owed_eq8 (E17 m) c _]
    iexact HO

set_option backward.isDefEq.respectTransparency.types false in
/-- Region 9 over the thread state: entered from every unscoped buffer at `W19`, left at `W20`. Its arrays are split
    out of the unscoped buffers and put back at the exit contents; the generator register goes into the region's
    invariant and comes back; nothing is owed; the kernel has no semaphore of its own. -/
def reg9 : RegionSeg (pcfgs (F := F)) adm (pdats m) () defs₀ Variants.none Lv0 lv0 9 where
  win := launch9.win.to₀
  block_pos := launch9.block_pos
  stage_whole := launch9.stage_whole
  K := PEmpty
  osem k := k.elim
  ho := Pipeline.OwnSemFacts.none _
  hbody c := (body_obligation9 (E19 m) c).loose
  hwaits := Pipeline.hwaits_of_owed_zero _ _ _ _ Lv0 lv0 9 fun c t => owed_eq9 (E19 m) c t
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) adm (pdats m) launch9.win launch9.arr_whole c
      ((pdats m 9 c).share_full (q_eq9 (E19 m) c)) (E19 m c) fun w => A_eq9 (E19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 9 c).owed 0 = 0 from owed_eq9 (E19 m) c 0]
      iexact HO
    isplitl [Hp]; · iexact Hp
    iexact Hrest
  hin c := hin9 (E19 m) c
  hout c := hout9 (E19 m) c
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full (q_eq9 (E19 m) c))
      (E19 m c) (E20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 9 c).owed (Fin.last _) = 0 from owed_eq9 (E19 m) c _]
    iexact HO

end Cert.Kernel.Hand

end
-- ==== Proof.K.RunCond.lean ====
/-
  The run of the kernel's @main with its RESULT named, given one segment record per kernel region.
  Between two items of @main core c holds every unscoped buffer whole, at the launch contents folded through the host
  stretches and, after region K, at the contents `outs` names for the arrays that region writes. The statement and the
  proof are those of the conditional frame over the same segments with one more conjunct read off the last valuation:
  the result array main_v148 ends at `outs 20 main_v148 c`, beside every argument array at its launch contents.
-/
import proofs.«132438_j6098853560655_1_alg».proof.Proof.Gen.Kernel.Regions

set_option maxRecDepth 1744

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

set_option backward.isDefEq.respectTransparency.types false in
/-- Every weakly fair execution of @main from memory `m` with zero counters terminates; in every final memory the
    result array holds what `outs` names for the last region's output and each argument array what it was launched with. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 10) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 11 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE10 : ∀ c : Dev nD, E 10 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c)) :
    θ_run defs (onTc (τ := τ) (main (F := F))) ⟨m, fun _ => 0, ρ⟩ (fun r => ∀ c : Dev nD,
      r.2.mem ((c.tc : Thread nD τ).loc main_v148) = outs 20 main_v148 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9)
    (fun c Q => by
      rewrite [main_chain c, Seg.run_eq_chain,
        show (segs m outs 𝒱₀ L lv E ι pdats R0 R1 R2 R3 R4 R5 R6 R7 R8 R9 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V20 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, (hpost9 c).trans (sep_mono .rfl (hE10 c))⟩)
    (hinit := ?_) (QY := fun c s => s.mem ((c.tc : Thread nD τ).loc main_v148) = outs 20 main_v148 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V20 m outs c) s') $$ [Hh HSI]
    · isplitl [Hh] <;> iassumption
    icases Hr with ⟨%h, HSI⟩
    imodintro
    isplitr
    · ipureintro
      exact ⟨(h (Proc.devRef .tc main_v148) (Finset.mem_filter.mpr ⟨StableHlo.devRef_mem_tcRefs main_v148, by decide⟩)).trans (Function.update_self _ _ _),
        (h (Proc.devRef .tc main_arg0) (Finset.mem_filter.mpr ⟨StableHlo.devRef_mem_tcRefs main_arg0, by decide⟩)).trans (V20_main_arg0 m outs c),
        (h (Proc.devRef .tc main_arg1) (Finset.mem_filter.mpr ⟨StableHlo.devRef_mem_tcRefs main_arg1, by decide⟩)).trans (V20_main_arg1 m outs c),
        (h (Proc.devRef .tc main_arg2) (Finset.mem_filter.mpr ⟨StableHlo.devRef_mem_tcRefs main_arg2, by decide⟩)).trans (V20_main_arg2 m outs c),
        (h (Proc.devRef .tc main_arg3) (Finset.mem_filter.mpr ⟨StableHlo.devRef_mem_tcRefs main_arg3, by decide⟩)).trans (V20_main_arg3 m outs c),
        (h (Proc.devRef .tc main_arg4) (Finset.mem_filter.mpr ⟨StableHlo.devRef_mem_tcRefs main_arg4, by decide⟩)).trans (V20_main_arg4 m outs c),
        (h (Proc.devRef .tc main_arg5) (Finset.mem_filter.mpr ⟨StableHlo.devRef_mem_tcRefs main_arg5, by decide⟩)).trans (V20_main_arg5 m outs c),
        (h (Proc.devRef .tc main_arg6) (Finset.mem_filter.mpr ⟨StableHlo.devRef_mem_tcRefs main_arg6, by decide⟩)).trans (V20_main_arg6 m outs c),
        (h (Proc.devRef .tc main_arg7) (Finset.mem_filter.mpr ⟨StableHlo.devRef_mem_tcRefs main_arg7, by decide⟩)).trans (V20_main_arg7 m outs c),
        (h (Proc.devRef .tc main_arg8) (Finset.mem_filter.mpr ⟨StableHlo.devRef_mem_tcRefs main_arg8, by decide⟩)).trans (V20_main_arg8 m outs c),
        (h (Proc.devRef .tc main_arg9) (Finset.mem_filter.mpr ⟨StableHlo.devRef_mem_tcRefs main_arg9, by decide⟩)).trans (V20_main_arg9 m outs c),
        (h (Proc.devRef .tc main_arg10) (Finset.mem_filter.mpr ⟨StableHlo.devRef_mem_tcRefs main_arg10, by decide⟩)).trans (V20_main_arg10 m outs c),
        (h (Proc.devRef .tc main_arg11) (Finset.mem_filter.mpr ⟨StableHlo.devRef_mem_tcRefs main_arg11, by decide⟩)).trans (V20_main_arg11 m outs c)⟩
    · iexact HSI

end Cert.Kernel.Hand

end
-- ==== Proof.K.Run.lean ====
/-
  The run of the kernel's @main with its result named: the boundary contents of Chain.lean are the valuations the
  conditional run is stated over (at the family `outsW` read off them), so its segments chain, and the result array ends at
  the last region's proof data's output array after the last grid point, every argument array at its launch contents.
-/
import proofs.«132438_j6098853560655_1_alg».proof.Proof.K.Chain
import proofs.«132438_j6098853560655_1_alg».proof.Proof.K.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

/-! ## What the regions leave, as the family the generated valuations are written over; the two folds agree -/

/-- The contents after item `J - 1`, read off the fold above (only the even `J` are ever read, at a region's output arrays). -/
def outsW : Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | _ => W0 m c r

theorem V0_eq (c : Dev nD) : V0 m c = W0 m c := rfl
theorem V1_eq (c : Dev nD) : V1 m c = W1 m c := by
  show StableHlo.after hostOps0 (V0 m c) = _
  rw [V0_eq]; rfl
theorem V2_eq (c : Dev nD) : V2 m (outsW m) c = W2 m c := by
  show Function.update (V1 m c) main_v7 (outsW m 2 main_v7 c) = _
  rw [V1_eq, show outsW m 2 main_v7 c = (dat0 (E1 m) c).arrAt 3 cfg0.N from W2_out0 m c]; rfl
theorem V3_eq (c : Dev nD) : V3 m (outsW m) c = W3 m c := by
  show StableHlo.after hostOps1 (V2 m (outsW m) c) = _
  rw [V2_eq]; rfl
theorem V4_eq (c : Dev nD) : V4 m (outsW m) c = W4 m c := by
  show Function.update (Function.update (Function.update (V3 m (outsW m) c) main_v23_0 (outsW m 4 main_v23_0 c)) main_v23_1 (outsW m 4 main_v23_1 c)) main_v23_2 (outsW m 4 main_v23_2 c) = _
  rw [V3_eq, show outsW m 4 main_v23_0 c = (dat1 (E3 m) c).arrAt 4 cfg1.N from W4_out0 m c, show outsW m 4 main_v23_1 c = (dat1 (E3 m) c).arrAt 5 cfg1.N from W4_out1 m c, show outsW m 4 main_v23_2 c = (dat1 (E3 m) c).arrAt 6 cfg1.N from W4_out2 m c]; rfl
theorem V5_eq (c : Dev nD) : V5 m (outsW m) c = W5 m c := by
  show StableHlo.after hostOps2 (V4 m (outsW m) c) = _
  rw [V4_eq]; rfl
theorem V6_eq (c : Dev nD) : V6 m (outsW m) c = W6 m c := by
  show Function.update (Function.update (Function.update (V5 m (outsW m) c) main_v41_0 (outsW m 6 main_v41_0 c)) main_v41_1 (outsW m 6 main_v41_1 c)) main_v41_2 (outsW m 6 main_v41_2 c) = _
  rw [V5_eq, show outsW m 6 main_v41_0 c = (dat2 (E5 m) c).arrAt 8 cfg2.N from W6_out0 m c, show outsW m 6 main_v41_1 c = (dat2 (E5 m) c).arrAt 9 cfg2.N from W6_out1 m c, show outsW m 6 main_v41_2 c = (dat2 (E5 m) c).arrAt 10 cfg2.N from W6_out2 m c]; rfl
theorem V7_eq (c : Dev nD) : V7 m (outsW m) c = W7 m c := by
  show StableHlo.after hostOps3 (V6 m (outsW m) c) = _
  rw [V6_eq]; rfl
theorem V8_eq (c : Dev nD) : V8 m (outsW m) c = W8 m c := by
  show Function.update (V7 m (outsW m) c) main_v54 (outsW m 8 main_v54 c) = _
  rw [V7_eq, show outsW m 8 main_v54 c = (dat3 (E7 m) c).arrAt 5 cfg3.N from W8_out0 m c]; rfl
theorem V9_eq (c : Dev nD) : V9 m (outsW m) c = W9 m c := by
  show StableHlo.after hostOps4 (V8 m (outsW m) c) = _
  rw [V8_eq]; rfl
theorem V10_eq (c : Dev nD) : V10 m (outsW m) c = W10 m c := by
  show Function.update (Function.update (Function.update (V9 m (outsW m) c) main_v70_0 (outsW m 10 main_v70_0 c)) main_v70_1 (outsW m 10 main_v70_1 c)) main_v70_2 (outsW m 10 main_v70_2 c) = _
  rw [V9_eq, show outsW m 10 main_v70_0 c = (dat4 (E9 m) c).arrAt 4 cfg4.N from W10_out0 m c, show outsW m 10 main_v70_1 c = (dat4 (E9 m) c).arrAt 5 cfg4.N from W10_out1 m c, show outsW m 10 main_v70_2 c = (dat4 (E9 m) c).arrAt 6 cfg4.N from W10_out2 m c]; rfl
theorem V11_eq (c : Dev nD) : V11 m (outsW m) c = W11 m c := by
  show StableHlo.after hostOps5 (V10 m (outsW m) c) = _
  rw [V10_eq]; rfl
theorem V12_eq (c : Dev nD) : V12 m (outsW m) c = W12 m c := by
  show Function.update (Function.update (Function.update (V11 m (outsW m) c) main_v88_0 (outsW m 12 main_v88_0 c)) main_v88_1 (outsW m 12 main_v88_1 c)) main_v88_2 (outsW m 12 main_v88_2 c) = _
  rw [V11_eq, show outsW m 12 main_v88_0 c = (dat5 (E11 m) c).arrAt 8 cfg5.N from W12_out0 m c, show outsW m 12 main_v88_1 c = (dat5 (E11 m) c).arrAt 9 cfg5.N from W12_out1 m c, show outsW m 12 main_v88_2 c = (dat5 (E11 m) c).arrAt 10 cfg5.N from W12_out2 m c]; rfl
theorem V13_eq (c : Dev nD) : V13 m (outsW m) c = W13 m c := by
  show StableHlo.after hostOps6 (V12 m (outsW m) c) = _
  rw [V12_eq]; rfl
theorem V14_eq (c : Dev nD) : V14 m (outsW m) c = W14 m c := by
  show Function.update (V13 m (outsW m) c) main_v101 (outsW m 14 main_v101 c) = _
  rw [V13_eq, show outsW m 14 main_v101 c = (dat6 (E13 m) c).arrAt 5 cfg6.N from W14_out0 m c]; rfl
theorem V15_eq (c : Dev nD) : V15 m (outsW m) c = W15 m c := by
  show StableHlo.after hostOps7 (V14 m (outsW m) c) = _
  rw [V14_eq]; rfl
theorem V16_eq (c : Dev nD) : V16 m (outsW m) c = W16 m c := by
  show Function.update (Function.update (Function.update (V15 m (outsW m) c) main_v117_0 (outsW m 16 main_v117_0 c)) main_v117_1 (outsW m 16 main_v117_1 c)) main_v117_2 (outsW m 16 main_v117_2 c) = _
  rw [V15_eq, show outsW m 16 main_v117_0 c = (dat7 (E15 m) c).arrAt 4 cfg7.N from W16_out0 m c, show outsW m 16 main_v117_1 c = (dat7 (E15 m) c).arrAt 5 cfg7.N from W16_out1 m c, show outsW m 16 main_v117_2 c = (dat7 (E15 m) c).arrAt 6 cfg7.N from W16_out2 m c]; rfl
theorem V17_eq (c : Dev nD) : V17 m (outsW m) c = W17 m c := by
  show StableHlo.after hostOps8 (V16 m (outsW m) c) = _
  rw [V16_eq]; rfl
theorem V18_eq (c : Dev nD) : V18 m (outsW m) c = W18 m c := by
  show Function.update (Function.update (Function.update (V17 m (outsW m) c) main_v135_0 (outsW m 18 main_v135_0 c)) main_v135_1 (outsW m 18 main_v135_1 c)) main_v135_2 (outsW m 18 main_v135_2 c) = _
  rw [V17_eq, show outsW m 18 main_v135_0 c = (dat8 (E17 m) c).arrAt 8 cfg8.N from W18_out0 m c, show outsW m 18 main_v135_1 c = (dat8 (E17 m) c).arrAt 9 cfg8.N from W18_out1 m c, show outsW m 18 main_v135_2 c = (dat8 (E17 m) c).arrAt 10 cfg8.N from W18_out2 m c]; rfl
theorem V19_eq (c : Dev nD) : V19 m (outsW m) c = W19 m c := by
  show StableHlo.after hostOps9 (V18 m (outsW m) c) = _
  rw [V18_eq]; rfl
theorem V20_eq (c : Dev nD) : V20 m (outsW m) c = W20 m c := by
  show Function.update (V19 m (outsW m) c) main_v148 (outsW m 20 main_v148 c) = _
  rw [V19_eq, show outsW m 20 main_v148 c = (dat9 (E19 m) c).arrAt 5 cfg9.N from W20_out0 m c]; rfl

/-! ## The run -/

set_option backward.isDefEq.respectTransparency.types false in
/-- Every weakly fair execution of @main terminates; the result array ends at the last boundary's contents and every
    argument array at its launch contents: the conditional run at the segments above. -/
theorem run_outs (ρ : Dev nD → PrngReg) :
    θ_run defs (onTc (τ := τ) (main (F := F))) ⟨m, fun _ => 0, ρ⟩ (fun r => ∀ c : Dev nD,
      r.2.mem ((c.tc : Thread nD τ).loc main_v148) = outsW m 20 main_v148 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine run_cond m emb₁ () Variants.none Lv0 lv0 (fun _ _ => rfl) ρ (outsW m) (pdats m) 0 (fun _ => iprop(emp))
    (initOf (Pipeline.cells cfgs cellOf_inj) (Pipeline.launchToks cfgs cellOf_inj)) ?_ (fun _ c => Rr c) ?_ ?_
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)
    (reg9 m) (fun c => by rw [V19_eq]; exact .rfl) (fun c => by rw [V20_eq]; exact .rfl)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hmono : (bigSep Finset.univ (fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) : sProp 𝕄)
        ⊢ bigSep Finset.univ (fun c : Dev nD => Rr (F := F) c) :=
      bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ Rr c from by
        iintro ⟨-, HO, -, Hp, -⟩
        isplitl [Hp]; · iexists _; iexact Hp
        iexists ∅; iexact HO)
    iintro ⟨H, -⟩
    imodintro
    iapply hmono
    iexact H
  · intro c
    iintro ⟨-, HO⟩; iexact HO

/-- The same with the result named by the last region's proof data: its output array after the last grid point. -/
theorem run_value (ρ : Dev nD → PrngReg) :
    θ_run defs (onTc (τ := τ) (main (F := F))) ⟨m, fun _ => 0, ρ⟩ (fun r => ∀ c : Dev nD,
      r.2.mem ((c.tc : Thread nD τ).loc main_v148) = (dat9 (E19 m) c).arrAt 5 cfg9.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W20_out0 m c), (h c).2⟩) (run_outs m ρ)

end Cert.Kernel.Hand

end
-- ==== Proof.KI.R0.lean ====
/-
  Region 0 of the idealized kernel's @main: the embedding kernel xa = emb·W0 + b0, one grid point per block of 2000 rows.
  At the buffer contents V the region is entered with: each window's block at a point, what the body leaves in the
  output window's buffer (its one whole-block store of the payload of the three loaded blocks), the body's triple, the
  pipeline's proof data and the body obligation, and the invariant at the region's two ends.
-/
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block index
    has not moved, so the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block index
    has not moved, so the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block index
    has not moved, so the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole block -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S2000x256 := Rect.unit (s := S2000x256) ![0, 0] S2000x256.size inb_S2000x256_S2000x256_0_0

/-! ## What the body leaves in the output window's buffer -/

/-- Window 3's staging buffer after the body, from the input windows' blocks: its one store, of the payload
    computed from the loaded blocks. -/
def out0_3 (xa : Vec F S2000x128 .f32) (xb : Vec F S128x256 .f32) (xc : Vec F S1x256 .f32) : Vec F S2000x256 .f32 :=
  View.canon [⟨r0_3, k0_pay1 (View.ld xa r0_0) (View.ld xb r0_1) (View.ld xc r0_2)⟩]

/-- The store takes the whole buffer, so it covers it. -/
theorem cover0_3 (pw : Vec F S2000x256 .f32) (y : S2000x256.Idx) :
    ∃ pc ∈ ([⟨r0_3, pw⟩] : List (View.Piece (Elt F) S2000x256 .f32)), y ∈ pc.1.set :=
  View.cover_of_tiled [⟨r0_3, pw⟩] S2000x256.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (ma : Memref sig .tc .vmem S2000x128 .f32) (hma : ma.IsWhole) (mb : Memref sig .tc .vmem S128x256 .f32) (hmb : mb.IsWhole) (mc : Memref sig .tc .vmem S1x256 .f32) (hmc : mc.IsWhole) (md : Memref sig .tc .vmem S2000x256 .f32) (hmd : md.IsWhole)
    (xa : Vec F S2000x128 .f32) (xb : Vec F S128x256 .f32) (xc : Vec F S1x256 .f32) (K : PUnit → sProp 𝕄) :
    iprop(owns (c : Thread nD τ) ma fullShare xa ∗ owns (c : Thread nD τ) mb fullShare xb ∗ owns (c : Thread nD τ) mc fullShare xc ∗ (∃ d, owns (c : Thread nD τ) md fullShare d)
        ∗ (iprop(owns (c : Thread nD τ) ma fullShare xa ∗ owns (c : Thread nD τ) mb fullShare xb ∗ owns (c : Thread nD τ) mc fullShare xc ∗ owns (c : Thread nD τ) md fullShare (out0_3 xa xb xc)) -∗ K ⟨⟩))
      ⊢ wp frame (wpE (defs₀ (F := F)) Variants.none c none) E (cc0__embed_kernel i ma hma mb hmb mc hmc md hmd) K := by
  simp only [cc0__embed_kernel_eq_skeleton]; unfold cc0__embed_kernel_skel
  unfold owns
  iintro ⟨⟨%fa, %hfa, Ha⟩, ⟨%fb, %hfb, Hb⟩, ⟨%fc, %hfc, Hc⟩, ⟨%dd, %fd, -, Hd⟩, Hk⟩
  subst hfa hfb hfc
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  iexists _; isplitr
  swap; · iexact Hd
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    holds the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Every window is held at the full share, and the body owes nothing at any point. -/
theorem q_eq0 (c : Dev nD) : ∀ w, (dat0 V c).q w = fullShare := fun _ => rfl
theorem owed_eq0 (c : Dev nD) : ∀ t, (dat0 V c).owed t = 0 := fun _ => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%da, Ha⟩, ⟨%db, Hb⟩, ⟨%dc, Hc⟩, ⟨%dd, Hd⟩⟩
  iapply (sound_kernel0 c Set.univ (grid0.coords t) _ _ _ _ _ _ _ _ (iblk0 V c 0 t) (iblk0 V c 1 t) (iblk0 V c 2 t) _)
  isplitl [Ha]; · iexact Ha
  isplitl [Hb]; · iexact Hb
  isplitl [Hc]; · iexact Hc
  isplitl [Hd]; · iexists _; iexact Hd
  iintro ⟨Ha, Hb, Hc, Hd⟩
  isplitl [HΦ]; · iexact HΦ
  isplitl [Ho]; · iexact Ho
  isplitl [Ha]; · iexact Ha
  isplitl [Hb]; · iexact Hb
  isplitl [Hc]; · iexact Hc
  iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The invariant at the first point, from the generator register at some state, the (empty) prefetched tables and the
    scoped buffers no window stages. -/
theorem hin0 (c : Dev nD) :
    (iprop((∃ r, prngReg c r) ∗ Pipeline.prefHeld (pcfgs (F := F) 0).pre c (fun _ => fullShare) (((cfgs 0).toPCfg_adm).1)
      ∗ Pipeline.scopedRest spec0 c) : sProp 𝕄) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- The invariant at the last point gives back the generator register, no semaphore of the kernel's own, and those
    scoped buffers. -/
theorem hout0 (c : Dev nD) :
    (dat0 V c).Φ (Fin.last cfg0.N) ⊢ (iprop((∃ r, prngReg c r) ∗ Pipeline.ownSems0 (fun k : PEmpty => k.elim) c
      ∗ Pipeline.scopedRest spec0 c) : sProp 𝕄) := by
  rw [Pipeline.ownSems0_none, show (dat0 V c).Φ (Fin.last _) = Pipeline.ΦA spec0 c from rfl]; unfold Pipeline.ΦA
  iintro ⟨Hr, Hp⟩
  isplitl [Hp]; · iexact Hp
  isplitr; · iempintro
  iexact Hr

end Cert.KernelIdeal.Hand

end
-- ==== Proof.KI.R1.lean ====
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the first linear layer with its column statistics

The body at a grid point reads a block of rows of the two summands, the weight matrix and the bias row, stores the
block of the affine image, and adds the block's column sums and column sums of squares to two running rows kept in
scratch memory: zeroed at the first point, copied to the two statistics outputs at the last point. -/

/-- The zero offsets of a whole-buffer access, as a constant function. -/
theorem k1_hz : (![0, 0] : Fin 2 → Nat) = fun _ => 0 := funext fun a => by fin_cases a <;> rfl

/-- A buffer read after a list of stores whose LAST one overwrote the whole buffer holds that store's payload. -/
theorem k1_read_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole-buffer load made after such a list of stores reads the last store's payload. -/
theorem k1_readCov_store {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The first conditional is taken at the grid's first point: there the running rows are zeroed. -/
abbrev k1_c1 (i : grid1.Coords) : Prop := (Scalar.cmpi .ne (Scalar.extui (Scalar.cmpi .eq (BitVec.ofNat 32 (i 0).val) 0#32)) 0#32) = 1#1
/-- The second at the last point: there the running rows are copied out. -/
abbrev k1_c2 (i : grid1.Coords) : Prop := k1_cond2 i = 1#1

theorem k1_hc1 : ∀ t : Fin cfg1.N, k1_c1 (grid1.coords t) ↔ t.val = 0 :=
  (by decide +kernel : ∀ t : Fin grid1.N, k1_c1 (grid1.coords t) ↔ t.val = 0)
theorem k1_hc2 : ∀ t : Fin cfg1.N, k1_c2 (grid1.coords t) ↔ t.val = 24 :=
  (by decide +kernel : ∀ t : Fin grid1.N, k1_c2 (grid1.coords t) ↔ t.val = 24)

/-- The inputs and the first output are live at every point; the two statistics outputs only at the last. -/
theorem k1_live_0 : ∀ t : Fin cfg1.N, cfg1.idle 0 (grid1.coords t) = false := by decide +kernel
theorem k1_live_1 : ∀ t : Fin cfg1.N, cfg1.idle 1 (grid1.coords t) = false := by decide +kernel
theorem k1_live_2 : ∀ t : Fin cfg1.N, cfg1.idle 2 (grid1.coords t) = false := by decide +kernel
theorem k1_live_3 : ∀ t : Fin cfg1.N, cfg1.idle 3 (grid1.coords t) = false := by decide +kernel
theorem k1_live_4 : ∀ t : Fin cfg1.N, cfg1.idle 4 (grid1.coords t) = false := by decide +kernel
theorem k1_idle_5 : ∀ t : Fin cfg1.N, t.val ≠ 24 → cfg1.idle 5 (grid1.coords t) = true := by decide +kernel
theorem k1_noflush_5 : ∀ t : Fin cfg1.N, t.val ≠ 24 → (cfg1.win 5).flush t = false := by decide +kernel
theorem k1_last_5 : ∀ t : Fin cfg1.N, t.val = 24 → cfg1.idle 5 (grid1.coords t) = false := by decide +kernel
theorem k1_idle_6 : ∀ t : Fin cfg1.N, t.val ≠ 24 → cfg1.idle 6 (grid1.coords t) = true := by decide +kernel
theorem k1_noflush_6 : ∀ t : Fin cfg1.N, t.val ≠ 24 → (cfg1.win 6).flush t = false := by decide +kernel
theorem k1_last_6 : ∀ t : Fin cfg1.N, t.val = 24 → cfg1.idle 6 (grid1.coords t) = false := by decide +kernel

/-- The two scratch rows, as whole memrefs. -/
abbrev k1_sc0 : Memref sig .tc .vmem S1x512 .f32 := Memref.whole cc1_scratch0
abbrev k1_sc1 : Memref sig .tc .vmem S1x512 .f32 := Memref.whole cc1_scratch1

/-! ## The body's triple, one per control case

On whole staging memrefs: the inputs at their contents, the first output at anything, the two statistics outputs handed
back untouched (or, at the last point, overwritten), the two scratch rows at what the point before left. -/

set_option maxHeartbeats 4000000 in
/-- At the first point: the running rows are zeroed, then this block's column sums are added. -/
theorem k1_runA (c : Dev nD) (i : grid1.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : k1_c1 i) (hc2 : ¬ k1_c2 i)
    (x0 : Vec F S2000x256 .f32) (x1 : Vec F S2000x256 .f32) (x2 : Vec F S256x512 .f32) (x3 : Vec F S1x512 .f32)
    (xi5 : Vec F S1x512 .f32) (xi6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay3 x0 x1 x2 x3)
            ∗ owns (c : Thread nD τ) arg6 fullShare xi5 ∗ owns (c : Thread nD τ) arg7 fullShare xi6
            ∗ owns (c : Thread nD τ) arg8 fullShare (k1_pay4 x0 x1 x2 x3 (k1_pay1 (F := F)))
            ∗ owns (c : Thread nD τ) arg9 fullShare (k1_pay5 x0 x1 x2 x3 (k1_pay2 (F := F)))) -∗ K ⟨⟩))
      ⊢ wp frame (wpE (defs₀ (F := F)) Variants.none c none) E
          (cc1__lin1_stats_kernel i arg1 harg1 arg2 harg2 arg3 harg3 arg4 harg4 arg5 harg5 arg6 harg6 arg7 harg7 arg8 harg8 arg9 harg9) K := by
  simp only [cc1__lin1_stats_kernel_eq_skeleton]; unfold cc1__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  iexists _; isplitr
  swap; · iexact H8
  ipureintro
  sl_unfold_words
  refine (k1_read_store _ _ k1_hz _ _ _).trans ?_
  simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]

set_option maxHeartbeats 4000000 in
/-- At a point between: this block's column sums are added to the running rows. -/
theorem k1_runB (c : Dev nD) (i : grid1.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k1_c1 i) (hc2 : ¬ k1_c2 i)
    (x0 : Vec F S2000x256 .f32) (x1 : Vec F S2000x256 .f32) (x2 : Vec F S256x512 .f32) (x3 : Vec F S1x512 .f32)
    (xi5 : Vec F S1x512 .f32) (xi6 : Vec F S1x512 .f32) (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay3 x0 x1 x2 x3)
            ∗ owns (c : Thread nD τ) arg6 fullShare xi5 ∗ owns (c : Thread nD τ) arg7 fullShare xi6
            ∗ owns (c : Thread nD τ) arg8 fullShare (k1_pay4 x0 x1 x2 x3 xs0)
            ∗ owns (c : Thread nD τ) arg9 fullShare (k1_pay5 x0 x1 x2 x3 xs1)) -∗ K ⟨⟩))
      ⊢ wp frame (wpE (defs₀ (F := F)) Variants.none c none) E
          (cc1__lin1_stats_kernel i arg1 harg1 arg2 harg2 arg3 harg3 arg4 harg4 arg5 harg5 arg6 harg6 arg7 harg7 arg8 harg8 arg9 harg9) K := by
  simp only [cc1__lin1_stats_kernel_eq_skeleton]; unfold cc1__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  iexists _; isplitr
  swap; · iexact H8
  ipureintro
  sl_unfold_words
  refine (k1_read_store _ _ k1_hz _ _ _).trans ?_
  simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]

set_option maxHeartbeats 4000000 in
/-- At the last point: the same, and the two running rows are then copied to the statistics outputs. -/
theorem k1_runC (c : Dev nD) (i : grid1.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k1_c1 i) (hc2 : k1_c2 i)
    (x0 : Vec F S2000x256 .f32) (x1 : Vec F S2000x256 .f32) (x2 : Vec F S256x512 .f32) (x3 : Vec F S1x512 .f32)
    (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay3 x0 x1 x2 x3)
            ∗ owns (c : Thread nD τ) arg6 fullShare (k1_pay4 x0 x1 x2 x3 xs0) ∗ owns (c : Thread nD τ) arg7 fullShare (k1_pay5 x0 x1 x2 x3 xs1)
            ∗ owns (c : Thread nD τ) arg8 fullShare (k1_pay4 x0 x1 x2 x3 xs0)
            ∗ owns (c : Thread nD τ) arg9 fullShare (k1_pay5 x0 x1 x2 x3 xs1)) -∗ K ⟨⟩))
      ⊢ wp frame (wpE (defs₀ (F := F)) Variants.none c none) E
          (cc1__lin1_stats_kernel i arg1 harg1 arg2 harg2 arg3 harg3 arg4 harg4 arg5 harg5 arg6 harg6 arg7 harg7 arg8 harg8 arg9 harg9) K := by
  simp only [cc1__lin1_stats_kernel_eq_skeleton]; unfold cc1__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H5]
  · iexists _; isplitr
    swap; · iexact H5
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H6]
  · iexists _; isplitr
    swap; · iexact H6
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  isplitl [H7]
  · iexists _; isplitr
    swap; · iexact H7
    ipureintro
    sl_unfold_words
    refine (k1_read_store _ _ k1_hz _ _ _).trans ?_
    simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]
  iexists _; isplitr
  swap; · iexact H8
  ipureintro
  sl_unfold_words
  refine (k1_read_store _ _ k1_hz _ _ _).trans ?_
  simp only [View.readAt_eq_ld, harg1.read_unread, harg2.read_unread, harg3.read_unread, harg4.read_unread, harg8.read_unread, harg9.read_unread,
      View.ld_unit_zero (S := S2000x256) k1_hz, View.ld_unit_zero (S := S256x512) k1_hz, View.ld_unit_zero (S := S1x512) k1_hz,
      View.readCov_unit_zero (S := S1x512) _ k1_hz, k1_readCov_store]

/-! ## The running rows, point by point -/

/-- One point's step on the two running rows: the block's column sums and column sums of squares added. -/
def k1_step (c : Dev nD) (t : Fin cfg1.N) (a : Vec F S1x512 .f32 × Vec F S1x512 .f32) : Vec F S1x512 .f32 × Vec F S1x512 .f32 :=
  (k1_pay4 (iblk1 V c 0 t) (iblk1 V c 1 t) (iblk1 V c 2 t) (iblk1 V c 3 t) a.1, k1_pay5 (iblk1 V c 0 t) (iblk1 V c 1 t) (iblk1 V c 2 t) (iblk1 V c 3 t) a.2)

/-- The first point, as a point of the grid. -/
abbrev k1_t0 : Fin cfg1.N := ⟨0, by rw [show cfg1.N = 25 from N_1]; decide⟩

/-- The two running rows after point `n`: from the zero rows, one step per point. -/
def k1_acc (c : Dev nD) : ℕ → Vec F S1x512 .f32 × Vec F S1x512 .f32
  | 0 => k1_step V c k1_t0 (k1_pay1 (F := F), k1_pay2 (F := F))
  | n + 1 => if h : n + 1 < cfg1.N then k1_step V c ⟨n + 1, h⟩ (k1_acc c n) else k1_acc c n

theorem k1_acc_zero (c : Dev nD) : k1_acc V c 0 = k1_step V c k1_t0 (k1_pay1 (F := F), k1_pay2 (F := F)) := rfl

theorem k1_acc_succ (c : Dev nD) (n : ℕ) (h : n + 1 < cfg1.N) : k1_acc V c (n + 1) = k1_step V c ⟨n + 1, h⟩ (k1_acc V c n) := by
  rw [k1_acc]; exact dif_pos h

/-- At the first point of the grid. -/
theorem k1_acc_first (c : Dev nD) (t : Fin cfg1.N) (h : t.val = 0) : k1_acc V c t.val = k1_step V c t (k1_pay1 (F := F), k1_pay2 (F := F)) := by
  obtain ⟨n, hn⟩ := t
  obtain rfl : n = 0 := h
  rfl

/-- At a later point. -/
theorem k1_acc_later (c : Dev nD) (t : Fin cfg1.N) (h : t.val ≠ 0) : k1_acc V c t.val = k1_step V c t (k1_acc V c (t.val - 1)) := by
  obtain ⟨n, hn⟩ := t
  cases n with
  | zero => exact absurd rfl h
  | succ n => exact k1_acc_succ V c n hn

/-- The region's invariant before point `n`: before the first point the two scratch rows hold anything; afterwards what
    the point before left; beside them the other scoped buffers, unopened, and the generator register at some state. -/
def k1_Phi (c : Dev nD) : ℕ → sProp 𝕄
  | 0 => iprop((∃ d, owns (c : Thread nD τ) k1_sc0 fullShare d) ∗ (∃ d, owns (c : Thread nD τ) k1_sc1 fullShare d)
      ∗ Pipeline.scopedRestBut (Ix := Unit) (Name := ℕ) (U := UR sig nD τ) (Lvl := ℕ) (Val := Elt F) spec1 c [cc1_scratch0, cc1_scratch1] ∗ ∃ r, prngReg c r)
  | n + 1 => iprop(owns (c : Thread nD τ) k1_sc0 fullShare (k1_acc V c n).1 ∗ owns (c : Thread nD τ) k1_sc1 fullShare (k1_acc V c n).2
      ∗ Pipeline.scopedRestBut (Ix := Unit) (Name := ℕ) (U := UR sig nD τ) (Lvl := ℕ) (Val := Elt F) spec1 c [cc1_scratch0, cc1_scratch1] ∗ ∃ r, prngReg c r)

theorem k1_Phi_zero (c : Dev nD) (n : ℕ) (h : n = 0) : k1_Phi V c n
    = iprop((∃ d, owns (c : Thread nD τ) k1_sc0 fullShare d) ∗ (∃ d, owns (c : Thread nD τ) k1_sc1 fullShare d)
      ∗ Pipeline.scopedRestBut (Ix := Unit) (Name := ℕ) (U := UR sig nD τ) (Lvl := ℕ) (Val := Elt F) spec1 c [cc1_scratch0, cc1_scratch1] ∗ ∃ r, prngReg c r) := by
  subst h; rfl

theorem k1_Phi_succ (c : Dev nD) (n : ℕ) : k1_Phi V c (n + 1)
    = iprop(owns (c : Thread nD τ) k1_sc0 fullShare (k1_acc V c n).1 ∗ owns (c : Thread nD τ) k1_sc1 fullShare (k1_acc V c n).2
      ∗ Pipeline.scopedRestBut (Ix := Unit) (Name := ℕ) (U := UR sig nD τ) (Lvl := ℕ) (Val := Elt F) spec1 c [cc1_scratch0, cc1_scratch1] ∗ ∃ r, prngReg c r) := rfl

theorem k1_Phi_pos (c : Dev nD) (n : ℕ) (h : n ≠ 0) : k1_Phi V c n
    = iprop(owns (c : Thread nD τ) k1_sc0 fullShare (k1_acc V c (n - 1)).1 ∗ owns (c : Thread nD τ) k1_sc1 fullShare (k1_acc V c (n - 1)).2
      ∗ Pipeline.scopedRestBut (Ix := Unit) (Name := ℕ) (U := UR sig nD τ) (Lvl := ℕ) (Val := Elt F) spec1 c [cc1_scratch0, cc1_scratch1] ∗ ∃ r, prngReg c r) := by
  cases n with
  | zero => exact absurd rfl h
  | succ n => rfl

/-! ## The pipeline's proof data -/

/-- The proof data of the region on core `c`: the arrays as the region finds them; after the body at point `t` each
    input's buffer at its block, the first output's at the affine image of the blocks, the statistics outputs' at the
    running rows (consulted at the last point only); the invariant `k1_Phi`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 0 t) (iblk1 V c 1 t) (iblk1 V c 2 t) (iblk1 V c 3 t)
    | ⟨5, _⟩ => (k1_acc V c t.val).1
    | ⟨6, _⟩ => (k1_acc V c t.val).2
  Φ t := k1_Phi V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (iblk1 V c 0 t) (iblk1 V c 1 t) (iblk1 V c 2 t) (iblk1 V c 3 t) := by dsimp only [dat1]
theorem after1_5 (c : Dev nD) (t : Fin cfg1.N) : (dat1 V c).after 5 t = (k1_acc V c t.val).1 := by dsimp only [dat1]
theorem after1_6 (c : Dev nD) (t : Fin cfg1.N) : (dat1 V c).after 6 t = (k1_acc V c t.val).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem k1_Phi_at (c : Dev nD) (t : Fin cfg1.N) : (dat1 V c).Φ t.castSucc = k1_Phi V c t.val := by
  dsimp only [dat1]; simp only [Fin.coe_castSucc]

/-! ## The body obligation -/

/-- What the body is called with at point `t`, the windows one by one, -/
def k1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def k1_bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem k1_leaves_0 (c : Dev nD) (t : Fin cfg1.N) :
    (dat1 V c).leavesExact 0 t = owns (c : Thread nD τ) (st1_0 t) fullShare ((dat1 V c).after 0 t) := by
  unfold Dat.leavesExact; rw [k1_live_0 t]
theorem k1_leaves_1 (c : Dev nD) (t : Fin cfg1.N) :
    (dat1 V c).leavesExact 1 t = owns (c : Thread nD τ) (st1_1 t) fullShare ((dat1 V c).after 1 t) := by
  unfold Dat.leavesExact; rw [k1_live_1 t]
theorem k1_leaves_2 (c : Dev nD) (t : Fin cfg1.N) :
    (dat1 V c).leavesExact 2 t = owns (c : Thread nD τ) (st1_2 t) fullShare ((dat1 V c).after 2 t) := by
  unfold Dat.leavesExact; rw [k1_live_2 t]
theorem k1_leaves_3 (c : Dev nD) (t : Fin cfg1.N) :
    (dat1 V c).leavesExact 3 t = owns (c : Thread nD τ) (st1_3 t) fullShare ((dat1 V c).after 3 t) := by
  unfold Dat.leavesExact; rw [k1_live_3 t]
theorem k1_leaves_4 (c : Dev nD) (t : Fin cfg1.N) :
    (dat1 V c).leavesExact 4 t = owns (c : Thread nD τ) (st1_4 t) fullShare ((dat1 V c).after 4 t) := by
  unfold Dat.leavesExact; rw [k1_live_4 t]
theorem k1_leaves_5 (c : Dev nD) (t : Fin cfg1.N) (h : t.val = 24) :
    (dat1 V c).leavesExact 5 t = owns (c : Thread nD τ) (st1_5 t) fullShare ((dat1 V c).after 5 t) := by
  unfold Dat.leavesExact; rw [k1_last_5 t h]
theorem k1_leaves_6 (c : Dev nD) (t : Fin cfg1.N) (h : t.val = 24) :
    (dat1 V c).leavesExact 6 t = owns (c : Thread nD τ) (st1_6 t) fullShare ((dat1 V c).after 6 t) := by
  unfold Dat.leavesExact; rw [k1_last_6 t h]

set_option maxHeartbeats 4000000 in
/-- The body at any point: the inputs' memrefs hold their blocks; the point's position selects the case; the invariant
    hands the body the two scratch rows at what the point before left (at anything at the first point) and takes them
    back at this point's; a statistics output is handed back untouched at every point but the last. -/
theorem k1_sound_body (c : Dev nD) (t : Fin cfg1.N) :
    k1_bodyPre V c t ⊢ wp frame (wpE (defs₀ (F := F)) Variants.none c none) Set.univ (bodyAt1 t) (fun _ => k1_bodyPost V c t) := by
  unfold k1_bodyPre k1_bodyPost bodyAt1
  simp only [before1_0, before1_1, before1_2, before1_3]
  rw [show (dat1 V c).owesAt () t.succ = (dat1 V c).owesAt () t.castSucc from rfl]
  rw [show (dat1 V c).Φ t.succ = k1_Phi V c (t.val + 1) from rfl, k1_Phi_succ, k1_Phi_at]
  rw [k1_leaves_0, k1_leaves_1, k1_leaves_2, k1_leaves_3, k1_leaves_4, after1_0, after1_1, after1_2, after1_3, after1_4]
  have hN : t.val < 25 := lt_of_lt_of_eq t.isLt N_1
  by_cases h0 : t.val = 0
  · have h24 : t.val ≠ 24 := by omega
    rw [Dat.leavesExact_idle (dat1 V c) 5 t (k1_idle_5 t h24) (k1_noflush_5 t h24),
      Dat.leavesExact_idle (dat1 V c) 6 t (k1_idle_6 t h24) (k1_noflush_6 t h24)]
    rw [k1_acc_first V c t h0, k1_Phi_zero V c _ h0]
    unfold k1_step; dsimp only
    iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
    iapply (k1_runA c (grid1.coords t) Set.univ _ _ _ _ _ _ _ _ _ _ _ _ _ _ _ _ _ _ ((k1_hc1 t).mpr h0) (fun h => h24 ((k1_hc2 t).mp h))
        (iblk1 V c 0 t) (iblk1 V c 1 t) (iblk1 V c 2 t) (iblk1 V c 3 t) ((dat1 V c).before 5 t d5) ((dat1 V c).before 6 t d6) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h24 : t.val = 24
    · rw [k1_leaves_5 V c t h24, k1_leaves_6 V c t h24, after1_5, after1_6]
      rw [k1_acc_later V c t h0, k1_Phi_pos V c _ h0]
      unfold k1_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k1_runC c (grid1.coords t) Set.univ _ _ _ _ _ _ _ _ _ _ _ _ _ _ _ _ _ _ (fun h => h0 ((k1_hc1 t).mp h)) ((k1_hc2 t).mpr h24)
          (iblk1 V c 0 t) (iblk1 V c 1 t) (iblk1 V c 2 t) (iblk1 V c 3 t) (k1_acc V c (t.val - 1)).1 (k1_acc V c (t.val - 1)).2 _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 5 t (k1_idle_5 t h24) (k1_noflush_5 t h24),
        Dat.leavesExact_idle (dat1 V c) 6 t (k1_idle_6 t h24) (k1_noflush_6 t h24)]
      rw [k1_acc_later V c t h0, k1_Phi_pos V c _ h0]
      unfold k1_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k1_runB c (grid1.coords t) Set.univ _ _ _ _ _ _ _ _ _ _ _ _ _ _ _ _ _ _ (fun h => h0 ((k1_hc1 t).mp h)) (fun h => h24 ((k1_hc2 t).mp h))
          (iblk1 V c 0 t) (iblk1 V c 1 t) (iblk1 V c 2 t) (iblk1 V c 3 t) ((dat1 V c).before 5 t d5) ((dat1 V c).before 6 t d6) (k1_acc V c (t.val - 1)).1 (k1_acc V c (t.val - 1)).2 _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact k1_sound_body V c t

theorem q_eq1 (c : Dev nD) : ∀ w, (dat1 V c).q w = fullShare := fun _ => rfl
theorem owed_eq1 (c : Dev nD) : ∀ t, (dat1 V c).owed t = 0 := fun _ => rfl

/-! ## Into the invariant and out of it -/

/-- What the launch hands the region — the generator register and every scoped buffer no window stages — is the
    invariant before the first point: the two scratch rows are split out, at whatever they hold. -/
theorem hin1 (c : Dev nD) :
    (iprop((∃ r, prngReg c r) ∗ Pipeline.prefHeld (pcfgs (F := F) 1).pre c (fun _ => fullShare) (((cfgs 1).toPCfg_adm).1)
      ∗ Pipeline.scopedRest spec1 c) : sProp 𝕄) ⊢ (dat1 V c).Φ 0 := by
  rw [show (dat1 V c).Φ 0 = k1_Phi V c 0 from rfl, k1_Phi_zero V c 0 rfl, scopedRest1_split]
  simp only [k1_sc0, k1_sc1, owns_whole]
  iintro ⟨Hp, -, ⟨⟨HS0, HS1⟩, Hrest⟩⟩
  isplitl [HS0]; · iexact HS0
  isplitl [HS1]; · iexact HS1
  isplitl [Hrest]; · iexact Hrest
  iexact Hp

/-- After the last point the invariant gives them back: what the scratch rows then hold is forgotten. -/
theorem hout1 (c : Dev nD) :
    (dat1 V c).Φ (Fin.last cfg1.N) ⊢ (iprop((∃ r, prngReg c r) ∗ Pipeline.ownSems0 (fun k : PEmpty => k.elim) c
      ∗ Pipeline.scopedRest spec1 c) : sProp 𝕄) := by
  rw [Pipeline.ownSems0_none, show (dat1 V c).Φ (Fin.last cfg1.N) = k1_Phi V c (24 + 1) from rfl, k1_Phi_succ, scopedRest1_split]
  simp only [k1_sc0, k1_sc1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.KernelIdeal.Hand

end
-- ==== Proof.KI.R2.lean ====
/-
  Region 2 of the program: the second linear layer of a GIN block with its batch statistics, one grid of 25 points
  over blocks of 2000 rows.

  At each point the body normalises the block of the first layer's output with the batch mean and variance,
  rectifies it, multiplies by the second weights, adds the bias and the residual block, and stores the result as
  the block of the layer's output. Two scratch rows carry the column sums of that output and of its squares from
  point to point: the first point zeroes them, every point adds its block's column sums, and the last point copies
  them into the two statistics outputs, which no other point touches.

  This module states what each buffer holds after each point (the output block from the input blocks; the scratch
  rows by recursion on the point), proves the body's triple in each of its three cases (first point, a middle
  point, last point), and from them the body obligation of the pipeline's proof data, with the invariant carrying
  the scratch rows at the accumulated sums.
-/
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the second linear layer with batch statistics, at the entry contents `V` -/

/-! ## The body's branch conditions -/

/-- The body's first conditional: the grid coordinate is 0. -/
abbrev dat2_c0 (i : grid2.Coords) : Prop := (Scalar.cmpi .ne (Scalar.extui (Scalar.cmpi .eq (BitVec.ofNat 32 (i 0).val) 0#32)) 0#32) = 1#1
theorem dat2_hc0 : ∀ t : Fin cfg2.N, dat2_c0 (grid2.coords t) ↔ t.val = 0 :=
  (by decide +kernel : ∀ t : Fin grid2.N, dat2_c0 (grid2.coords t) ↔ t.val = 0)
/-- The body's second conditional: the grid coordinate is 24, the last. -/
abbrev dat2_c1 (i : grid2.Coords) : Prop := k2_cond2 i = 1#1
theorem dat2_hc1 : ∀ t : Fin cfg2.N, dat2_c1 (grid2.coords t) ↔ t.val = 24 :=
  (by decide +kernel : ∀ t : Fin grid2.N, dat2_c1 (grid2.coords t) ↔ t.val = 24)
theorem dat2_N : cfg2.N = 25 := by decide

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

abbrev dat2_rH : Rect S2000x512 := Rect.unit (s := S2000x512) ![0, 0] S2000x512.size inb_S2000x512_S2000x512_0_0
abbrev dat2_rR : Rect S1x512 := Rect.unit (s := S1x512) ![0, 0] S1x512.size inb_S1x512_S1x512_0_0
abbrev dat2_rX : Rect S2000x256 := Rect.unit (s := S2000x256) ![0, 0] S2000x256.size inb_S2000x256_S2000x256_0_0
abbrev dat2_rW : Rect S512x256 := Rect.unit (s := S512x256) ![0, 0] S512x256.size inb_S512x256_S512x256_0_0
abbrev dat2_rS : Rect S1x256 := Rect.unit (s := S1x256) ![0, 0] S1x256.size inb_S1x256_S1x256_0_0

/-- A whole-buffer rectangle holds every index of its shape (its one block tiles the shape). -/
theorem dat2_coverX (p0 : Vec F S2000x256 .f32) (y : S2000x256.Idx) : ∃ pc ∈ ([⟨dat2_rX, p0⟩] : List (View.Piece (Elt F) S2000x256 .f32)), y ∈ pc.1.set :=
  View.cover_of_tiled [⟨dat2_rX, p0⟩] S2000x256.size (by rfl) y
theorem dat2_coverS (p0 : Vec F S1x256 .f32) (y : S1x256.Idx) : ∃ pc ∈ ([⟨dat2_rS, p0⟩] : List (View.Piece (Elt F) S1x256 .f32)), y ∈ pc.1.set :=
  View.cover_of_tiled [⟨dat2_rS, p0⟩] S1x256.size (by rfl) y
theorem dat2_memX (y : S2000x256.Idx) : y ∈ dat2_rX.set := by
  obtain ⟨pc, hpc, hy⟩ := View.cover_of_tiled ([⟨dat2_rX, fun _ => ()⟩] : List (View.Piece (fun _ => Unit) S2000x256 .f32)) S2000x256.size (by rfl) y
  rw [List.mem_singleton] at hpc; subst hpc; exact hy
theorem dat2_memS (y : S1x256.Idx) : y ∈ dat2_rS.set := by
  obtain ⟨pc, hpc, hy⟩ := View.cover_of_tiled ([⟨dat2_rS, fun _ => ()⟩] : List (View.Piece (fun _ => Unit) S1x256 .f32)) S1x256.size (by rfl) y
  rw [List.mem_singleton] at hpc; subst hpc; exact hy

/-- What a store through a rectangle holding every index leaves, whatever the buffer held and whatever
    earlier stores wrote: its payload, as the one-piece canonical contents. -/
theorem dat2_read_whole {κ : Kind} {sp : Space} {s : Shape} {e : EltTy} (v : View sig κ sp s e) (f : v.ty.Contents (Elt F)) (r : Rect s)
    (hr : ∀ y : s.Idx, y ∈ r.set) (w w' : r.shape.Idx → Elt F e) (L : List (View.Piece (Elt F) s e)) (h : w = w') :
    v.read (Elt F) (v.writes (Elt F) f (⟨r, w⟩ :: L)) = View.canon [⟨r, w'⟩] := by
  subst h
  funext y
  obtain ⟨x, rfl⟩ : ∃ x, r.emb x = y := r.exists_idx_of_mem (hr y)
  rw [View.read_writes_cons_emb, View.canon_cons_emb]

/-! ## What the body leaves in the output windows' buffers and in the two scratch rows -/

/-- The normalised, rectified first layer times the second weights plus the bias (`%34`), of the input blocks. -/
def dat2_v34 (x0 : Vec F S2000x512 .f32) (x1 : Vec F S1x512 .f32) (x2 : Vec F S1x512 .f32) (x3 : Vec F S1x512 .f32) (x4 : Vec F S1x512 .f32) (x6 : Vec F S512x256 .f32) (x7 : Vec F S1x256 .f32) : FVec F S2000x256 .f32 :=
  k2_pay6 (View.ld x2 dat2_rR) (View.ld x3 dat2_rR) (View.ld x0 dat2_rH) (View.ld x1 dat2_rR) (View.ld x4 dat2_rR) (View.ld x6 dat2_rW) (View.ld x7 dat2_rS)
/-- The residual operand (`%36`). -/
def dat2_v36 (x5 : Vec F S2000x256 .f32) : FVec F S2000x256 .f32 := k2_pay7 (View.ld x5 dat2_rX)
/-- Output window 8's buffer after the body: the block of the layer's output (`%37`). -/
def dat2_o8 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) : Vec F S2000x256 .f32 :=
  View.canon [⟨dat2_rX, k2_pay1 (dat2_v34 x0 x1 x2 x3 x4 x6 x7) (dat2_v36 x5)⟩]
/-- The first scratch row after the body, from what it held (`a`): the block's column sums added. -/
def dat2_s0 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat2_rS, k2_pay2 (dat2_v34 x0 x1 x2 x3 x4 x6 x7) (dat2_v36 x5) (View.ld a dat2_rS)⟩]
/-- The second scratch row after the body, from what it held: the block's column sums of squares added. -/
def dat2_s1 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat2_rS, k2_pay3 (dat2_v34 x0 x1 x2 x3 x4 x6 x7) (dat2_v36 x5) (View.ld a dat2_rS)⟩]
/-- The scratch rows as the first point zeroes them. -/
def dat2_z0 : Vec F S1x256 .f32 := View.canon [⟨dat2_rS, k2_pay4 (F := F)⟩]
def dat2_z1 : Vec F S1x256 .f32 := View.canon [⟨dat2_rS, k2_pay5 (F := F)⟩]
/-- A statistics window's buffer after the last point: the scratch row copied. -/
def dat2_o9 (a : Vec F S1x256 .f32) : Vec F S1x256 .f32 := View.canon [⟨dat2_rS, View.ld a dat2_rS⟩]

set_option maxHeartbeats 4000000 in
/-- The body at a point that is neither the first nor the last (no conditional taken): from the inputs' buffers at
    their contents and the scratch rows at `a0`, `a1`, it leaves the inputs as they were, window 8 at the
    layer's output block, and the scratch rows with the block's column sums added. The statistics windows
    are not touched. -/
theorem dat2_runB (c : Dev nD) (E : Set ℕ) (i : grid2.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat2_c0 i) (hc1 : ¬dat2_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat2_o8 x0 x1 x2 x3 x4 x5 x6 x7) ∗ owns (c : Thread nD τ) arg12 fullShare (dat2_s0 x0 x1 x2 x3 x4 x5 x6 x7 a0) ∗ owns (c : Thread nD τ) arg13 fullShare (dat2_s1 x0 x1 x2 x3 x4 x5 x6 x7 a1)) -∗ K ⟨⟩))
      ⊢ wp frame (wpE (defs₀ (F := F)) Variants.none c none) E (cc2__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc2__lin2_stats_kernel_eq_skeleton]; unfold cc2__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat2_read_whole _ _ _ dat2_memX _ _ _ rfl
  isplitl [HS0]
  · iexists _; isplitr
    swap; · iexact HS0
    ipureintro
    exact dat2_read_whole _ _ _ dat2_memS _ _ _ rfl
  iexists _; isplitr
  swap; · iexact HS1
  ipureintro
  exact dat2_read_whole _ _ _ dat2_memS _ _ _ rfl

set_option maxHeartbeats 4000000 in
/-- The body at the first point (the first conditional taken, the second not): the scratch rows, at anything,
    are zeroed and then take the block's column sums. -/
theorem dat2_runA (c : Dev nD) (E : Set ℕ) (i : grid2.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : dat2_c0 i) (hc1 : ¬dat2_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat2_o8 x0 x1 x2 x3 x4 x5 x6 x7) ∗ owns (c : Thread nD τ) arg12 fullShare (dat2_s0 x0 x1 x2 x3 x4 x5 x6 x7 dat2_z0) ∗ owns (c : Thread nD τ) arg13 fullShare (dat2_s1 x0 x1 x2 x3 x4 x5 x6 x7 dat2_z1)) -∗ K ⟨⟩))
      ⊢ wp frame (wpE (defs₀ (F := F)) Variants.none c none) E (cc2__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc2__lin2_stats_kernel_eq_skeleton]; unfold cc2__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%da0, %fa0, -, HS0⟩, ⟨%da1, %fa1, -, HS1⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat2_read_whole _ _ _ dat2_memX _ _ _ rfl
  isplitl [HS0]
  · iexists _; isplitr
    swap; · iexact HS0
    ipureintro
    exact dat2_read_whole _ _ _ dat2_memS _ _ _
      (congrArg (k2_pay2 _ _) (View.readCov_eq_canon_ld _ _ _ (dat2_coverS _)))
  iexists _; isplitr
  swap; · iexact HS1
  ipureintro
  exact dat2_read_whole _ _ _ dat2_memS _ _ _
    (congrArg (k2_pay3 _ _) (View.readCov_eq_canon_ld _ _ _ (dat2_coverS _)))

set_option maxHeartbeats 4000000 in
/-- The body at the last point (the second conditional taken, the first not): as at a middle point, and then
    the two scratch rows are copied into the statistics windows 9 and 10. -/
theorem dat2_runC (c : Dev nD) (E : Set ℕ) (i : grid2.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat2_c0 i) (hc1 : dat2_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat2_o8 x0 x1 x2 x3 x4 x5 x6 x7) ∗ owns (c : Thread nD τ) arg10 fullShare (dat2_o9 (dat2_s0 x0 x1 x2 x3 x4 x5 x6 x7 a0)) ∗ owns (c : Thread nD τ) arg11 fullShare (dat2_o9 (dat2_s1 x0 x1 x2 x3 x4 x5 x6 x7 a1))
            ∗ owns (c : Thread nD τ) arg12 fullShare (dat2_s0 x0 x1 x2 x3 x4 x5 x6 x7 a0) ∗ owns (c : Thread nD τ) arg13 fullShare (dat2_s1 x0 x1 x2 x3 x4 x5 x6 x7 a1)) -∗ K ⟨⟩))
      ⊢ wp frame (wpE (defs₀ (F := F)) Variants.none c none) E (cc2__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc2__lin2_stats_kernel_eq_skeleton]; unfold cc2__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat2_read_whole _ _ _ dat2_memX _ _ _ rfl
  isplitl [H9]
  · iexists _; isplitr
    swap; · iexact H9
    ipureintro
    exact dat2_read_whole _ _ _ dat2_memS _ _ _
      (View.readCov_eq_canon_ld _ _ _ (dat2_coverS _))
  isplitl [H10]
  · iexists _; isplitr
    swap; · iexact H10
    ipureintro
    exact dat2_read_whole _ _ _ dat2_memS _ _ _
      (View.readCov_eq_canon_ld _ _ _ (dat2_coverS _))
  isplitl [HS0]
  · iexists _; isplitr
    swap; · iexact HS0
    ipureintro
    exact dat2_read_whole _ _ _ dat2_memS _ _ _ rfl
  iexists _; isplitr
  swap; · iexact HS1
  ipureintro
  exact dat2_read_whole _ _ _ dat2_memS _ _ _ rfl

/-! ## The blocks' contributions, point by point -/

/-- Window 8's buffer after the body at point `t`: the output block of the input blocks there. -/
def dat2_O8 (c : Dev nD) (t : Fin cfg2.N) : Vec F S2000x256 .f32 := dat2_o8 (iblk2 V c 0 t) (iblk2 V c 1 t) (iblk2 V c 2 t) (iblk2 V c 3 t) (iblk2 V c 4 t) (iblk2 V c 5 t) (iblk2 V c 6 t) (iblk2 V c 7 t)
/-- The first scratch row after the body at point `t`, from what it held. -/
def dat2_S0 (c : Dev nD) (t : Fin cfg2.N) (a : Vec F S1x256 .f32) : Vec F S1x256 .f32 := dat2_s0 (iblk2 V c 0 t) (iblk2 V c 1 t) (iblk2 V c 2 t) (iblk2 V c 3 t) (iblk2 V c 4 t) (iblk2 V c 5 t) (iblk2 V c 6 t) (iblk2 V c 7 t) a
/-- The second scratch row after the body at point `t`, from what it held. -/
def dat2_S1 (c : Dev nD) (t : Fin cfg2.N) (a : Vec F S1x256 .f32) : Vec F S1x256 .f32 := dat2_s1 (iblk2 V c 0 t) (iblk2 V c 1 t) (iblk2 V c 2 t) (iblk2 V c 3 t) (iblk2 V c 4 t) (iblk2 V c 5 t) (iblk2 V c 6 t) (iblk2 V c 7 t) a

/-- THE ACCUMULATION. What the two scratch rows hold after the body at position `n`: from zero at the first point,
    each point adds its block's column sums (of the values, of their squares) to what the point before left. -/
def dat2_acc (c : Dev nD) : (n : ℕ) → n < cfg2.N → Vec F S1x256 .f32 × Vec F S1x256 .f32
  | 0, hn => (dat2_S0 V c ⟨0, hn⟩ dat2_z0, dat2_S1 V c ⟨0, hn⟩ dat2_z1)
  | n + 1, hn => (dat2_S0 V c ⟨n + 1, hn⟩ (dat2_acc c n (Nat.lt_of_succ_lt hn)).1, dat2_S1 V c ⟨n + 1, hn⟩ (dat2_acc c n (Nat.lt_of_succ_lt hn)).2)

theorem dat2_acc_zero (c : Dev nD) (t : Fin cfg2.N) (h : t.val = 0) :
    dat2_acc V c t.val t.isLt = (dat2_S0 V c t dat2_z0, dat2_S1 V c t dat2_z1) := by
  obtain ⟨n, hn⟩ := t
  cases n with
  | zero => rfl
  | succ n => exact absurd h (Nat.succ_ne_zero n)

theorem dat2_acc_pos (c : Dev nD) (t : Fin cfg2.N) (h : t.val ≠ 0) :
    dat2_acc V c t.val t.isLt = (dat2_S0 V c t (dat2_acc V c (t.val - 1) (Nat.lt_of_le_of_lt (Nat.sub_le _ _) t.isLt)).1,
      dat2_S1 V c t (dat2_acc V c (t.val - 1) (Nat.lt_of_le_of_lt (Nat.sub_le _ _) t.isLt)).2) := by
  obtain ⟨n, hn⟩ := t
  cases n with
  | zero => exact absurd rfl h
  | succ n => rfl

/-! ## The region invariant -/

/-- The scratch rows as memrefs: whole scoped buffers of the kernel's own. -/
abbrev dat2_scM0 : Memref sig .tc .vmem S1x256 .f32 := Memref.whole cc2_scratch0
abbrev dat2_scM1 : Memref sig .tc .vmem S1x256 .f32 := Memref.whole cc2_scratch1

/-- Every other scoped buffer of the core, unopened. -/
abbrev dat2_rest (c : Dev nD) : sProp 𝕄 :=
  Pipeline.scopedRestBut (Ix := Unit) (Name := ℕ) (U := UR sig nD τ) (Lvl := ℕ) (Val := Elt F) spec2 c [cc2_scratch0, cc2_scratch1]

/-- The invariant before position `n`: before the first point every scoped buffer that is no staging buffer at
    anything and the generator register at some state; afterwards the two scratch rows at what the point before
    left (`dat2_acc`), the other scoped buffers unopened, the generator register at some state. -/
def dat2_Phi (c : Dev nD) : (n : ℕ) → n ≤ cfg2.N → sProp 𝕄
  | 0, _ => Pipeline.ΦA spec2 c
  | n + 1, hn => iprop(iprop(iprop(owns (c : Thread nD τ) dat2_scM0 fullShare (dat2_acc V c n hn).1 ∗ owns (c : Thread nD τ) dat2_scM1 fullShare (dat2_acc V c n hn).2) ∗ dat2_rest c) ∗ (∃ r, prngReg c r))

theorem dat2_Phi_zero (c : Dev nD) (n : ℕ) (h : n ≤ cfg2.N) (hz : n = 0) : dat2_Phi V c n h = Pipeline.ΦA spec2 c := by
  subst hz; rfl

theorem dat2_Phi_succ (c : Dev nD) (n : ℕ) (hn : n < cfg2.N) :
    dat2_Phi V c (n + 1) hn = iprop(iprop(iprop(owns (c : Thread nD τ) dat2_scM0 fullShare (dat2_acc V c n hn).1 ∗ owns (c : Thread nD τ) dat2_scM1 fullShare (dat2_acc V c n hn).2) ∗ dat2_rest c) ∗ (∃ r, prngReg c r)) := rfl

theorem dat2_Phi_pos (c : Dev nD) (n : ℕ) (h : n ≤ cfg2.N) (hz : n ≠ 0) :
    dat2_Phi V c n h = iprop(iprop(iprop(owns (c : Thread nD τ) dat2_scM0 fullShare (dat2_acc V c (n - 1) (by omega)).1 ∗ owns (c : Thread nD τ) dat2_scM1 fullShare (dat2_acc V c (n - 1) (by omega)).2) ∗ dat2_rest c) ∗ (∃ r, prngReg c r)) := by
  cases n with
  | zero => exact absurd rfl hz
  | succ n => rfl

/-- The first point's invariant with the two scratch rows as memrefs owned at some contents. -/
theorem dat2_PhiA_eq (c : Dev nD) :
    (Pipeline.ΦA spec2 c : sProp 𝕄)
      = iprop(iprop(iprop((∃ d, owns (c : Thread nD τ) dat2_scM0 fullShare d) ∗ (∃ d, owns (c : Thread nD τ) dat2_scM1 fullShare d)) ∗ dat2_rest c) ∗ (∃ r, prngReg c r)) := by
  unfold Pipeline.ΦA; rw [scopedRest2_split]; simp only [dat2_scM0, dat2_scM1, owns_whole]; try rfl

/-! ## The pipeline's proof data -/

/-- The proof data of the pipeline on core `c`: the arrays as the region finds them (`V`); after the body at point
    `t` each input's buffer at its block, window 8's at the output block, the statistics windows' at the copied
    accumulators (read at the last point only: elsewhere they are idle); the invariant `dat2_Phi`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => dat2_O8 V c t
    | ⟨9, _⟩ => dat2_o9 (dat2_acc V c t.val t.isLt).1
    | ⟨10, _⟩ => dat2_o9 (dat2_acc V c t.val t.isLt).2
  Φ t := dat2_Phi V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) : ∀ w, (dat2 V c).q w = fullShare := fun _ => rfl
theorem owed_eq2 (c : Dev nD) : ∀ t, (dat2 V c).owed t = 0 := fun _ => rfl

theorem dat2_Phi_castSucc (c : Dev nD) (t : Fin cfg2.N) :
    (dat2 V c).Φ t.castSucc = dat2_Phi V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = dat2_O8 V c t := by dsimp only [dat2]
theorem after2_9 (c : Dev nD) (t : Fin cfg2.N) : (dat2 V c).after 9 t = dat2_o9 (dat2_acc V c t.val t.isLt).1 := by dsimp only [dat2]
theorem after2_10 (c : Dev nD) (t : Fin cfg2.N) : (dat2 V c).after 10 t = dat2_o9 (dat2_acc V c t.val t.isLt).2 := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## Where the windows are idle -/

theorem dat2_live0 : ∀ t : Fin cfg2.N, cfg2.idle 0 (grid2.coords t) = false := fun _ => rfl
theorem dat2_live1 : ∀ t : Fin cfg2.N, cfg2.idle 1 (grid2.coords t) = false := fun _ => rfl
theorem dat2_live2 : ∀ t : Fin cfg2.N, cfg2.idle 2 (grid2.coords t) = false := fun _ => rfl
theorem dat2_live3 : ∀ t : Fin cfg2.N, cfg2.idle 3 (grid2.coords t) = false := fun _ => rfl
theorem dat2_live4 : ∀ t : Fin cfg2.N, cfg2.idle 4 (grid2.coords t) = false := fun _ => rfl
theorem dat2_live5 : ∀ t : Fin cfg2.N, cfg2.idle 5 (grid2.coords t) = false := fun _ => rfl
theorem dat2_live6 : ∀ t : Fin cfg2.N, cfg2.idle 6 (grid2.coords t) = false := fun _ => rfl
theorem dat2_live7 : ∀ t : Fin cfg2.N, cfg2.idle 7 (grid2.coords t) = false := fun _ => rfl
theorem dat2_live8 : ∀ t : Fin cfg2.N, cfg2.idle 8 (grid2.coords t) = false := fun _ => rfl
/-- Off the last point the body stores nothing into window 9, and the pipeline does not write it back. -/
theorem dat2_idle9 : ∀ t : Fin cfg2.N, ¬dat2_c1 (grid2.coords t) → cfg2.idle 9 (grid2.coords t) = true := by decide +kernel
theorem dat2_noFlush9 : ∀ t : Fin cfg2.N, ¬dat2_c1 (grid2.coords t) → (cfg2.win 9).flush t = false := by decide +kernel
/-- At the last point it does. -/
theorem dat2_live9 : ∀ t : Fin cfg2.N, dat2_c1 (grid2.coords t) → cfg2.idle 9 (grid2.coords t) = false := by decide +kernel
/-- Off the last point the body stores nothing into window 10, and the pipeline does not write it back. -/
theorem dat2_idle10 : ∀ t : Fin cfg2.N, ¬dat2_c1 (grid2.coords t) → cfg2.idle 10 (grid2.coords t) = true := by decide +kernel
theorem dat2_noFlush10 : ∀ t : Fin cfg2.N, ¬dat2_c1 (grid2.coords t) → (cfg2.win 10).flush t = false := by decide +kernel
/-- At the last point it does. -/
theorem dat2_live10 : ∀ t : Fin cfg2.N, dat2_c1 (grid2.coords t) → cfg2.idle 10 (grid2.coords t) = false := by decide +kernel

/-! ## The body obligation, at a generic point -/

/-- What the body is called with at point `t`, the windows one by one, -/
def dat2_pre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def dat2_post (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 4800000 in
/-- The body at any point: the inputs' memrefs hold their blocks; the point is the first, a middle one or the last,
    which decides the body's two conditionals; the invariant hands the body the scratch rows at what the point
    before left (at anything at the first point) and takes them back at this point's accumulators; off the
    last point the statistics windows pass by untouched; the core owes nothing throughout. -/
theorem dat2_sound_body (c : Dev nD) (t : Fin cfg2.N) :
    dat2_pre V c t ⊢ wp frame (wpE (defs₀ (F := F)) Variants.none c none) Set.univ (bodyAt2 t) (fun _ => dat2_post V c t) := by
  unfold dat2_pre dat2_post bodyAt2
  simp only [before2_0, before2_1, before2_2, before2_3, before2_4, before2_5, before2_6, before2_7]
  rw [show (dat2 V c).owesAt () t.succ = (dat2 V c).owesAt () t.castSucc from rfl]
  rw [show (dat2 V c).Φ t.succ = dat2_Phi V c (t.val + 1) t.isLt from rfl, dat2_Phi_succ]
  rw [show (dat2 V c).leavesExact 0 t = owns (c : Thread nD τ) (st2_0 t) fullShare ((dat2 V c).after 0 t) from by
    unfold Dat.leavesExact; rw [dat2_live0 t], after2_0]
  rw [show (dat2 V c).leavesExact 1 t = owns (c : Thread nD τ) (st2_1 t) fullShare ((dat2 V c).after 1 t) from by
    unfold Dat.leavesExact; rw [dat2_live1 t], after2_1]
  rw [show (dat2 V c).leavesExact 2 t = owns (c : Thread nD τ) (st2_2 t) fullShare ((dat2 V c).after 2 t) from by
    unfold Dat.leavesExact; rw [dat2_live2 t], after2_2]
  rw [show (dat2 V c).leavesExact 3 t = owns (c : Thread nD τ) (st2_3 t) fullShare ((dat2 V c).after 3 t) from by
    unfold Dat.leavesExact; rw [dat2_live3 t], after2_3]
  rw [show (dat2 V c).leavesExact 4 t = owns (c : Thread nD τ) (st2_4 t) fullShare ((dat2 V c).after 4 t) from by
    unfold Dat.leavesExact; rw [dat2_live4 t], after2_4]
  rw [show (dat2 V c).leavesExact 5 t = owns (c : Thread nD τ) (st2_5 t) fullShare ((dat2 V c).after 5 t) from by
    unfold Dat.leavesExact; rw [dat2_live5 t], after2_5]
  rw [show (dat2 V c).leavesExact 6 t = owns (c : Thread nD τ) (st2_6 t) fullShare ((dat2 V c).after 6 t) from by
    unfold Dat.leavesExact; rw [dat2_live6 t], after2_6]
  rw [show (dat2 V c).leavesExact 7 t = owns (c : Thread nD τ) (st2_7 t) fullShare ((dat2 V c).after 7 t) from by
    unfold Dat.leavesExact; rw [dat2_live7 t], after2_7]
  rw [show (dat2 V c).leavesExact 8 t = owns (c : Thread nD τ) (st2_8 t) fullShare ((dat2 V c).after 8 t) from by
    unfold Dat.leavesExact; rw [dat2_live8 t], after2_8]
  have hN : t.val < 25 := lt_of_lt_of_eq t.isLt dat2_N
  by_cases h0 : t.val = 0
  · have h1 : ¬t.val = 24 := by omega
    have hc0 : dat2_c0 (grid2.coords t) := (dat2_hc0 t).mpr h0
    have hc1 : ¬dat2_c1 (grid2.coords t) := fun h => h1 ((dat2_hc1 t).mp h)
    rw [Dat.leavesExact_idle (dat2 V c) 9 t (dat2_idle9 t hc1) (dat2_noFlush9 t hc1),
      Dat.leavesExact_idle (dat2 V c) 10 t (dat2_idle10 t hc1) (dat2_noFlush10 t hc1)]
    rw [dat2_acc_zero V c t h0]
    rw [dat2_Phi_castSucc V c t, dat2_Phi_zero V c _ _ h0, dat2_PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (dat2_runA c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hpos : dat2_acc V c t.val t.isLt = _ := dat2_acc_pos V c t h0
    by_cases h1 : t.val = 24
    · have hc0 : ¬dat2_c0 (grid2.coords t) := fun h => h0 ((dat2_hc0 t).mp h)
      have hc1 : dat2_c1 (grid2.coords t) := (dat2_hc1 t).mpr h1
      rw [show (dat2 V c).leavesExact 9 t = owns (c : Thread nD τ) (st2_9 t) fullShare ((dat2 V c).after 9 t) from by
        unfold Dat.leavesExact; rw [dat2_live9 t hc1], after2_9]
      rw [show (dat2 V c).leavesExact 10 t = owns (c : Thread nD τ) (st2_10 t) fullShare ((dat2 V c).after 10 t) from by
        unfold Dat.leavesExact; rw [dat2_live10 t hc1], after2_10]
      rw [hpos]
      rw [dat2_Phi_castSucc V c t, dat2_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat2_runC c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · icases H9 with ⟨%d9, H9⟩; iexists _; iexact H9
      isplitl [H10]; · icases H10 with ⟨%d10, H10⟩; iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬dat2_c0 (grid2.coords t) := fun h => h0 ((dat2_hc0 t).mp h)
      have hc1 : ¬dat2_c1 (grid2.coords t) := fun h => h1 ((dat2_hc1 t).mp h)
      rw [Dat.leavesExact_idle (dat2 V c) 9 t (dat2_idle9 t hc1) (dat2_noFlush9 t hc1),
        Dat.leavesExact_idle (dat2 V c) 10 t (dat2_idle10 t hc1) (dat2_noFlush10 t hc1)]
      rw [hpos]
      rw [dat2_Phi_castSucc V c t, dat2_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat2_runB c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation2 (c : Dev nD) : BodyObligation (dat2 (F := F) V c) (defs₀ (F := F)) Variants.none () Set.univ := fun t => by
  rw [bigSep_W2, bigSep_W2]
  exact dat2_sound_body V c t

/-! ## Into the invariant and out of it -/

/-- What the region is entered with is the invariant before the first point (the prefetched tables, none here,
    are not used). -/
theorem hin2 (c : Dev nD) : iprop((∃ r, prngReg c r) ∗ Pipeline.prefHeld (pcfgs (F := F) 2).pre c (fun _ => fullShare) (((cfgs 2).toPCfg_adm).1) ∗ Pipeline.scopedRest spec2 c) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After the last point the invariant gives the scoped buffers back: the scratch rows' named contents are forgotten. -/
theorem hout2 (c : Dev nD) : (dat2 V c).Φ (Fin.last cfg2.N) ⊢ iprop((∃ r, prngReg c r) ∗ Pipeline.ownSems0 (fun k : PEmpty => k.elim) c ∗ Pipeline.scopedRest spec2 c) := by
  rw [Pipeline.ownSems0_none, show (dat2 V c).Φ (Fin.last cfg2.N) = dat2_Phi V c (Fin.last cfg2.N).val (Nat.le_of_lt_succ (Fin.last cfg2.N).isLt) from rfl,
    dat2_Phi_pos V c _ _ (by rw [Fin.val_last]; have : cfg2.N = 25 := dat2_N; omega), scopedRest2_split]
  simp only [dat2_scM0, dat2_scM1, owns_whole]
  iintro ⟨⟨⟨HS0, HS1⟩, Hrest⟩, Hg⟩
  isplitl [Hg]; · iexact Hg
  isplitr; · iempintro
  isplitl [HS0 HS1]
  · isplitl [HS0]; · iexists _; iexact HS0
    iexists _; iexact HS1
  iexact Hrest

end Cert.KernelIdeal.Hand

end
-- ==== Proof.KI.R3.lean ====
/-
  Region 3 of the idealized kernel's @main: the batch-norm finalize kernel
  out = g·(h − mean)·rsqrt(var + eps) + beta, one grid point per block of 2000 rows.
  At the buffer contents V the region is entered with: each window's block at a point, what the body leaves in the
  output window's buffer (its one whole-block store of the payload of the five loaded blocks), the body's triple, the
  pipeline's proof data and the body obligation, and the invariant at the region's two ends.
-/
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: where the window is not fetched its block index
    has not moved, so the buffer still holds the previous point's block, which is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: where the window is not fetched its block index
    has not moved, so the buffer still holds the previous point's block, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: where the window is not fetched its block index
    has not moved, so the buffer still holds the previous point's block, which is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: where the window is not fetched its block index
    has not moved, so the buffer still holds the previous point's block, which is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: where the window is not fetched its block index
    has not moved, so the buffer still holds the previous point's block, which is this point's. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole block -/

abbrev r3_0 : Rect S2000x256 := Rect.unit (s := S2000x256) ![0, 0] S2000x256.size inb_S2000x256_S2000x256_0_0
abbrev r3_1 : Rect S1x256 := Rect.unit (s := S1x256) ![0, 0] S1x256.size inb_S1x256_S1x256_0_0
abbrev r3_2 : Rect S1x256 := Rect.unit (s := S1x256) ![0, 0] S1x256.size inb_S1x256_S1x256_0_0
abbrev r3_3 : Rect S1x256 := Rect.unit (s := S1x256) ![0, 0] S1x256.size inb_S1x256_S1x256_0_0
abbrev r3_4 : Rect S1x256 := Rect.unit (s := S1x256) ![0, 0] S1x256.size inb_S1x256_S1x256_0_0
abbrev r3_5 : Rect S2000x256 := Rect.unit (s := S2000x256) ![0, 0] S2000x256.size inb_S2000x256_S2000x256_0_0

/-! ## What the body leaves in the output window's buffer -/

/-- Window 5's staging buffer after the body, from the input windows' blocks: its one store, of the payload
    computed from the loaded blocks. -/
def out3_5 (xa : Vec F S2000x256 .f32) (xb : Vec F S1x256 .f32) (xc : Vec F S1x256 .f32) (xd : Vec F S1x256 .f32) (xe : Vec F S1x256 .f32) : Vec F S2000x256 .f32 :=
  View.canon [⟨r3_5, k3_pay1 (View.ld xc r3_2) (View.ld xd r3_3) (View.ld xa r3_0) (View.ld xb r3_1) (View.ld xe r3_4)⟩]

/-- The store takes the whole buffer, so it covers it. -/
theorem cover3_5 (pw : Vec F S2000x256 .f32) (y : S2000x256.Idx) :
    ∃ pc ∈ ([⟨r3_5, pw⟩] : List (View.Piece (Elt F) S2000x256 .f32)), y ∈ pc.1.set :=
  View.cover_of_tiled [⟨r3_5, pw⟩] S2000x256.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (ma : Memref sig .tc .vmem S2000x256 .f32) (hma : ma.IsWhole) (mb : Memref sig .tc .vmem S1x256 .f32) (hmb : mb.IsWhole) (mc : Memref sig .tc .vmem S1x256 .f32) (hmc : mc.IsWhole) (md : Memref sig .tc .vmem S1x256 .f32) (hmd : md.IsWhole) (me : Memref sig .tc .vmem S1x256 .f32) (hme : me.IsWhole) (mf : Memref sig .tc .vmem S2000x256 .f32) (hmf : mf.IsWhole)
    (xa : Vec F S2000x256 .f32) (xb : Vec F S1x256 .f32) (xc : Vec F S1x256 .f32) (xd : Vec F S1x256 .f32) (xe : Vec F S1x256 .f32) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ (∃ d, owns (c : Thread nD τ) mf fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ owns (c : Thread nD τ) mf fullShare (out3_5 xa xb xc xd xe)) -∗ K ⟨⟩))
      ⊢ wp frame (wpE (defs₀ (F := F)) Variants.none c none) E (cc3__bn_finalize_kernel i ma hma mb hmb mc hmc md hmd me hme mf hmf) K := by
  simp only [cc3__bn_finalize_kernel_eq_skeleton]; unfold cc3__bn_finalize_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant
    holds the scoped buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- Every window is held at the full share, and the body owes nothing at any point. -/
theorem q_eq3 (c : Dev nD) : ∀ w, (dat3 V c).q w = fullShare := fun _ => rfl
theorem owed_eq3 (c : Dev nD) : ∀ t, (dat3 V c).owed t = 0 := fun _ => rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%da, Ha⟩, ⟨%db, Hb⟩, ⟨%dc, Hc⟩, ⟨%dd, Hd⟩, ⟨%de, He⟩, ⟨%df, Hf⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- The invariant at the first point, from the generator register at some state, the (empty) prefetched tables and the
    scoped buffers no window stages. -/
theorem hin3 (c : Dev nD) :
    (iprop((∃ r, prngReg c r) ∗ Pipeline.prefHeld (pcfgs (F := F) 3).pre c (fun _ => fullShare) (((cfgs 3).toPCfg_adm).1)
      ∗ Pipeline.scopedRest spec3 c) : sProp 𝕄) ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- The invariant at the last point gives back the generator register, no semaphore of the kernel's own, and those
    scoped buffers. -/
theorem hout3 (c : Dev nD) :
    (dat3 V c).Φ (Fin.last cfg3.N) ⊢ (iprop((∃ r, prngReg c r) ∗ Pipeline.ownSems0 (fun k : PEmpty => k.elim) c
      ∗ Pipeline.scopedRest spec3 c) : sProp 𝕄) := by
  rw [Pipeline.ownSems0_none, show (dat3 V c).Φ (Fin.last _) = Pipeline.ΦA spec3 c from rfl]; unfold Pipeline.ΦA
  iintro ⟨Hr, Hp⟩
  isplitl [Hp]; · iexact Hp
  isplitr; · iempintro
  iexact Hr

end Cert.KernelIdeal.Hand

end
-- ==== Proof.KI.R4.lean ====
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the first linear layer with its column statistics

The body at a grid point reads a block of rows of the two summands, the weight matrix and the bias row, stores the
block of the affine image, and adds the block's column sums and column sums of squares to two running rows kept in
scratch memory: zeroed at the first point, copied to the two statistics outputs at the last point. -/

/-- The zero offsets of a whole-buffer access, as a constant function. -/
theorem k4_hz : (![0, 0] : Fin 2 → Nat) = fun _ => 0 := funext fun a => by fin_cases a <;> rfl

/-- A buffer read after a list of stores whose LAST one overwrote the whole buffer holds that store's payload. -/
theorem k4_read_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole-buffer load made after such a list of stores reads the last store's payload. -/
theorem k4_readCov_store {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form -/

/-- The first conditional is taken at the grid's first point: there the running rows are zeroed. -/
abbrev k4_c1 (i : grid4.Coords) : Prop := (Scalar.cmpi .ne (Scalar.extui (Scalar.cmpi .eq (BitVec.ofNat 32 (i 0).val) 0#32)) 0#32) = 1#1
/-- The second at the last point: there the running rows are copied out. -/
abbrev k4_c2 (i : grid4.Coords) : Prop := k4_cond2 i = 1#1

theorem k4_hc1 : ∀ t : Fin cfg4.N, k4_c1 (grid4.coords t) ↔ t.val = 0 :=
  (by decide +kernel : ∀ t : Fin grid4.N, k4_c1 (grid4.coords t) ↔ t.val = 0)
theorem k4_hc2 : ∀ t : Fin cfg4.N, k4_c2 (grid4.coords t) ↔ t.val = 24 :=
  (by decide +kernel : ∀ t : Fin grid4.N, k4_c2 (grid4.coords t) ↔ t.val = 24)

/-- The inputs and the first output are live at every point; the two statistics outputs only at the last. -/
theorem k4_live_0 : ∀ t : Fin cfg4.N, cfg4.idle 0 (grid4.coords t) = false := by decide +kernel
theorem k4_live_1 : ∀ t : Fin cfg4.N, cfg4.idle 1 (grid4.coords t) = false := by decide +kernel
theorem k4_live_2 : ∀ t : Fin cfg4.N, cfg4.idle 2 (grid4.coords t) = false := by decide +kernel
theorem k4_live_3 : ∀ t : Fin cfg4.N, cfg4.idle 3 (grid4.coords t) = false := by decide +kernel
theorem k4_live_4 : ∀ t : Fin cfg4.N, cfg4.idle 4 (grid4.coords t) = false := by decide +kernel
theorem k4_idle_5 : ∀ t : Fin cfg4.N, t.val ≠ 24 → cfg4.idle 5 (grid4.coords t) = true := by decide +kernel
theorem k4_noflush_5 : ∀ t : Fin cfg4.N, t.val ≠ 24 → (cfg4.win 5).flush t = false := by decide +kernel
theorem k4_last_5 : ∀ t : Fin cfg4.N, t.val = 24 → cfg4.idle 5 (grid4.coords t) = false := by decide +kernel
theorem k4_idle_6 : ∀ t : Fin cfg4.N, t.val ≠ 24 → cfg4.idle 6 (grid4.coords t) = true := by decide +kernel
theorem k4_noflush_6 : ∀ t : Fin cfg4.N, t.val ≠ 24 → (cfg4.win 6).flush t = false := by decide +kernel
theorem k4_last_6 : ∀ t : Fin cfg4.N, t.val = 24 → cfg4.idle 6 (grid4.coords t) = false := by decide +kernel

/-- The two scratch rows, as whole memrefs. -/
abbrev k4_sc0 : Memref sig .tc .vmem S1x512 .f32 := Memref.whole cc4_scratch0
abbrev k4_sc1 : Memref sig .tc .vmem S1x512 .f32 := Memref.whole cc4_scratch1

/-! ## The body's triple, one per control case

On whole staging memrefs: the inputs at their contents, the first output at anything, the two statistics outputs handed
back untouched (or, at the last point, overwritten), the two scratch rows at what the point before left. -/

set_option maxHeartbeats 4000000 in
/-- At the first point: the running rows are zeroed, then this block's column sums are added. -/
theorem k4_runA (c : Dev nD) (i : grid4.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : k4_c1 i) (hc2 : ¬ k4_c2 i)
    (x0 : Vec F S2000x256 .f32) (x1 : Vec F S2000x256 .f32) (x2 : Vec F S256x512 .f32) (x3 : Vec F S1x512 .f32)
    (xi5 : Vec F S1x512 .f32) (xi6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay3 x0 x1 x2 x3)
            ∗ owns (c : Thread nD τ) arg6 fullShare xi5 ∗ owns (c : Thread nD τ) arg7 fullShare xi6
            ∗ owns (c : Thread nD τ) arg8 fullShare (k4_pay4 x0 x1 x2 x3 (k4_pay1 (F := F)))
            ∗ owns (c : Thread nD τ) arg9 fullShare (k4_pay5 x0 x1 x2 x3 (k4_pay2 (F := F)))) -∗ K ⟨⟩))
      ⊢ wp frame (wpE (defs₀ (F := F)) Variants.none c none) E
          (cc4__lin1_stats_kernel i arg1 harg1 arg2 harg2 arg3 harg3 arg4 harg4 arg5 harg5 arg6 harg6 arg7 harg7 arg8 harg8 arg9 harg9) K := by
  simp only [cc4__lin1_stats_kernel_eq_skeleton]; unfold cc4__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  iexists _; isplitr
  swap; · iexact H8
  ipureintro
  sl_unfold_words
  refine (k4_read_store _ _ k4_hz _ _ _).trans ?_
  simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]

set_option maxHeartbeats 4000000 in
/-- At a point between: this block's column sums are added to the running rows. -/
theorem k4_runB (c : Dev nD) (i : grid4.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k4_c1 i) (hc2 : ¬ k4_c2 i)
    (x0 : Vec F S2000x256 .f32) (x1 : Vec F S2000x256 .f32) (x2 : Vec F S256x512 .f32) (x3 : Vec F S1x512 .f32)
    (xi5 : Vec F S1x512 .f32) (xi6 : Vec F S1x512 .f32) (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay3 x0 x1 x2 x3)
            ∗ owns (c : Thread nD τ) arg6 fullShare xi5 ∗ owns (c : Thread nD τ) arg7 fullShare xi6
            ∗ owns (c : Thread nD τ) arg8 fullShare (k4_pay4 x0 x1 x2 x3 xs0)
            ∗ owns (c : Thread nD τ) arg9 fullShare (k4_pay5 x0 x1 x2 x3 xs1)) -∗ K ⟨⟩))
      ⊢ wp frame (wpE (defs₀ (F := F)) Variants.none c none) E
          (cc4__lin1_stats_kernel i arg1 harg1 arg2 harg2 arg3 harg3 arg4 harg4 arg5 harg5 arg6 harg6 arg7 harg7 arg8 harg8 arg9 harg9) K := by
  simp only [cc4__lin1_stats_kernel_eq_skeleton]; unfold cc4__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  iexists _; isplitr
  swap; · iexact H8
  ipureintro
  sl_unfold_words
  refine (k4_read_store _ _ k4_hz _ _ _).trans ?_
  simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]

set_option maxHeartbeats 4000000 in
/-- At the last point: the same, and the two running rows are then copied to the statistics outputs. -/
theorem k4_runC (c : Dev nD) (i : grid4.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k4_c1 i) (hc2 : k4_c2 i)
    (x0 : Vec F S2000x256 .f32) (x1 : Vec F S2000x256 .f32) (x2 : Vec F S256x512 .f32) (x3 : Vec F S1x512 .f32)
    (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay3 x0 x1 x2 x3)
            ∗ owns (c : Thread nD τ) arg6 fullShare (k4_pay4 x0 x1 x2 x3 xs0) ∗ owns (c : Thread nD τ) arg7 fullShare (k4_pay5 x0 x1 x2 x3 xs1)
            ∗ owns (c : Thread nD τ) arg8 fullShare (k4_pay4 x0 x1 x2 x3 xs0)
            ∗ owns (c : Thread nD τ) arg9 fullShare (k4_pay5 x0 x1 x2 x3 xs1)) -∗ K ⟨⟩))
      ⊢ wp frame (wpE (defs₀ (F := F)) Variants.none c none) E
          (cc4__lin1_stats_kernel i arg1 harg1 arg2 harg2 arg3 harg3 arg4 harg4 arg5 harg5 arg6 harg6 arg7 harg7 arg8 harg8 arg9 harg9) K := by
  simp only [cc4__lin1_stats_kernel_eq_skeleton]; unfold cc4__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H5]
  · iexists _; isplitr
    swap; · iexact H5
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H6]
  · iexists _; isplitr
    swap; · iexact H6
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  isplitl [H7]
  · iexists _; isplitr
    swap; · iexact H7
    ipureintro
    sl_unfold_words
    refine (k4_read_store _ _ k4_hz _ _ _).trans ?_
    simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]
  iexists _; isplitr
  swap; · iexact H8
  ipureintro
  sl_unfold_words
  refine (k4_read_store _ _ k4_hz _ _ _).trans ?_
  simp only [View.readAt_eq_ld, harg1.read_unread, harg2.read_unread, harg3.read_unread, harg4.read_unread, harg8.read_unread, harg9.read_unread,
      View.ld_unit_zero (S := S2000x256) k4_hz, View.ld_unit_zero (S := S256x512) k4_hz, View.ld_unit_zero (S := S1x512) k4_hz,
      View.readCov_unit_zero (S := S1x512) _ k4_hz, k4_readCov_store]

/-! ## The running rows, point by point -/

/-- One point's step on the two running rows: the block's column sums and column sums of squares added. -/
def k4_step (c : Dev nD) (t : Fin cfg4.N) (a : Vec F S1x512 .f32 × Vec F S1x512 .f32) : Vec F S1x512 .f32 × Vec F S1x512 .f32 :=
  (k4_pay4 (iblk4 V c 0 t) (iblk4 V c 1 t) (iblk4 V c 2 t) (iblk4 V c 3 t) a.1, k4_pay5 (iblk4 V c 0 t) (iblk4 V c 1 t) (iblk4 V c 2 t) (iblk4 V c 3 t) a.2)

/-- The first point, as a point of the grid. -/
abbrev k4_t0 : Fin cfg4.N := ⟨0, by rw [show cfg4.N = 25 from N_4]; decide⟩

/-- The two running rows after point `n`: from the zero rows, one step per point. -/
def k4_acc (c : Dev nD) : ℕ → Vec F S1x512 .f32 × Vec F S1x512 .f32
  | 0 => k4_step V c k4_t0 (k4_pay1 (F := F), k4_pay2 (F := F))
  | n + 1 => if h : n + 1 < cfg4.N then k4_step V c ⟨n + 1, h⟩ (k4_acc c n) else k4_acc c n

theorem k4_acc_zero (c : Dev nD) : k4_acc V c 0 = k4_step V c k4_t0 (k4_pay1 (F := F), k4_pay2 (F := F)) := rfl

theorem k4_acc_succ (c : Dev nD) (n : ℕ) (h : n + 1 < cfg4.N) : k4_acc V c (n + 1) = k4_step V c ⟨n + 1, h⟩ (k4_acc V c n) := by
  rw [k4_acc]; exact dif_pos h

/-- At the first point of the grid. -/
theorem k4_acc_first (c : Dev nD) (t : Fin cfg4.N) (h : t.val = 0) : k4_acc V c t.val = k4_step V c t (k4_pay1 (F := F), k4_pay2 (F := F)) := by
  obtain ⟨n, hn⟩ := t
  obtain rfl : n = 0 := h
  rfl

/-- At a later point. -/
theorem k4_acc_later (c : Dev nD) (t : Fin cfg4.N) (h : t.val ≠ 0) : k4_acc V c t.val = k4_step V c t (k4_acc V c (t.val - 1)) := by
  obtain ⟨n, hn⟩ := t
  cases n with
  | zero => exact absurd rfl h
  | succ n => exact k4_acc_succ V c n hn

/-- The region's invariant before point `n`: before the first point the two scratch rows hold anything; afterwards what
    the point before left; beside them the other scoped buffers, unopened, and the generator register at some state. -/
def k4_Phi (c : Dev nD) : ℕ → sProp 𝕄
  | 0 => iprop((∃ d, owns (c : Thread nD τ) k4_sc0 fullShare d) ∗ (∃ d, owns (c : Thread nD τ) k4_sc1 fullShare d)
      ∗ Pipeline.scopedRestBut (Ix := Unit) (Name := ℕ) (U := UR sig nD τ) (Lvl := ℕ) (Val := Elt F) spec4 c [cc4_scratch0, cc4_scratch1] ∗ ∃ r, prngReg c r)
  | n + 1 => iprop(owns (c : Thread nD τ) k4_sc0 fullShare (k4_acc V c n).1 ∗ owns (c : Thread nD τ) k4_sc1 fullShare (k4_acc V c n).2
      ∗ Pipeline.scopedRestBut (Ix := Unit) (Name := ℕ) (U := UR sig nD τ) (Lvl := ℕ) (Val := Elt F) spec4 c [cc4_scratch0, cc4_scratch1] ∗ ∃ r, prngReg c r)

theorem k4_Phi_zero (c : Dev nD) (n : ℕ) (h : n = 0) : k4_Phi V c n
    = iprop((∃ d, owns (c : Thread nD τ) k4_sc0 fullShare d) ∗ (∃ d, owns (c : Thread nD τ) k4_sc1 fullShare d)
      ∗ Pipeline.scopedRestBut (Ix := Unit) (Name := ℕ) (U := UR sig nD τ) (Lvl := ℕ) (Val := Elt F) spec4 c [cc4_scratch0, cc4_scratch1] ∗ ∃ r, prngReg c r) := by
  subst h; rfl

theorem k4_Phi_succ (c : Dev nD) (n : ℕ) : k4_Phi V c (n + 1)
    = iprop(owns (c : Thread nD τ) k4_sc0 fullShare (k4_acc V c n).1 ∗ owns (c : Thread nD τ) k4_sc1 fullShare (k4_acc V c n).2
      ∗ Pipeline.scopedRestBut (Ix := Unit) (Name := ℕ) (U := UR sig nD τ) (Lvl := ℕ) (Val := Elt F) spec4 c [cc4_scratch0, cc4_scratch1] ∗ ∃ r, prngReg c r) := rfl

theorem k4_Phi_pos (c : Dev nD) (n : ℕ) (h : n ≠ 0) : k4_Phi V c n
    = iprop(owns (c : Thread nD τ) k4_sc0 fullShare (k4_acc V c (n - 1)).1 ∗ owns (c : Thread nD τ) k4_sc1 fullShare (k4_acc V c (n - 1)).2
      ∗ Pipeline.scopedRestBut (Ix := Unit) (Name := ℕ) (U := UR sig nD τ) (Lvl := ℕ) (Val := Elt F) spec4 c [cc4_scratch0, cc4_scratch1] ∗ ∃ r, prngReg c r) := by
  cases n with
  | zero => exact absurd rfl h
  | succ n => rfl

/-! ## The pipeline's proof data -/

/-- The proof data of the region on core `c`: the arrays as the region finds them; after the body at point `t` each
    input's buffer at its block, the first output's at the affine image of the blocks, the statistics outputs' at the
    running rows (consulted at the last point only); the invariant `k4_Phi`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (iblk4 V c 0 t) (iblk4 V c 1 t) (iblk4 V c 2 t) (iblk4 V c 3 t)
    | ⟨5, _⟩ => (k4_acc V c t.val).1
    | ⟨6, _⟩ => (k4_acc V c t.val).2
  Φ t := k4_Phi V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = k4_pay3 (iblk4 V c 0 t) (iblk4 V c 1 t) (iblk4 V c 2 t) (iblk4 V c 3 t) := by dsimp only [dat4]
theorem after4_5 (c : Dev nD) (t : Fin cfg4.N) : (dat4 V c).after 5 t = (k4_acc V c t.val).1 := by dsimp only [dat4]
theorem after4_6 (c : Dev nD) (t : Fin cfg4.N) : (dat4 V c).after 6 t = (k4_acc V c t.val).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem k4_Phi_at (c : Dev nD) (t : Fin cfg4.N) : (dat4 V c).Φ t.castSucc = k4_Phi V c t.val := by
  dsimp only [dat4]; simp only [Fin.coe_castSucc]

/-! ## The body obligation -/

/-- What the body is called with at point `t`, the windows one by one, -/
def k4_bodyPre (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def k4_bodyPost (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

theorem k4_leaves_0 (c : Dev nD) (t : Fin cfg4.N) :
    (dat4 V c).leavesExact 0 t = owns (c : Thread nD τ) (st4_0 t) fullShare ((dat4 V c).after 0 t) := by
  unfold Dat.leavesExact; rw [k4_live_0 t]
theorem k4_leaves_1 (c : Dev nD) (t : Fin cfg4.N) :
    (dat4 V c).leavesExact 1 t = owns (c : Thread nD τ) (st4_1 t) fullShare ((dat4 V c).after 1 t) := by
  unfold Dat.leavesExact; rw [k4_live_1 t]
theorem k4_leaves_2 (c : Dev nD) (t : Fin cfg4.N) :
    (dat4 V c).leavesExact 2 t = owns (c : Thread nD τ) (st4_2 t) fullShare ((dat4 V c).after 2 t) := by
  unfold Dat.leavesExact; rw [k4_live_2 t]
theorem k4_leaves_3 (c : Dev nD) (t : Fin cfg4.N) :
    (dat4 V c).leavesExact 3 t = owns (c : Thread nD τ) (st4_3 t) fullShare ((dat4 V c).after 3 t) := by
  unfold Dat.leavesExact; rw [k4_live_3 t]
theorem k4_leaves_4 (c : Dev nD) (t : Fin cfg4.N) :
    (dat4 V c).leavesExact 4 t = owns (c : Thread nD τ) (st4_4 t) fullShare ((dat4 V c).after 4 t) := by
  unfold Dat.leavesExact; rw [k4_live_4 t]
theorem k4_leaves_5 (c : Dev nD) (t : Fin cfg4.N) (h : t.val = 24) :
    (dat4 V c).leavesExact 5 t = owns (c : Thread nD τ) (st4_5 t) fullShare ((dat4 V c).after 5 t) := by
  unfold Dat.leavesExact; rw [k4_last_5 t h]
theorem k4_leaves_6 (c : Dev nD) (t : Fin cfg4.N) (h : t.val = 24) :
    (dat4 V c).leavesExact 6 t = owns (c : Thread nD τ) (st4_6 t) fullShare ((dat4 V c).after 6 t) := by
  unfold Dat.leavesExact; rw [k4_last_6 t h]

set_option maxHeartbeats 4000000 in
/-- The body at any point: the inputs' memrefs hold their blocks; the point's position selects the case; the invariant
    hands the body the two scratch rows at what the point before left (at anything at the first point) and takes them
    back at this point's; a statistics output is handed back untouched at every point but the last. -/
theorem k4_sound_body (c : Dev nD) (t : Fin cfg4.N) :
    k4_bodyPre V c t ⊢ wp frame (wpE (defs₀ (F := F)) Variants.none c none) Set.univ (bodyAt4 t) (fun _ => k4_bodyPost V c t) := by
  unfold k4_bodyPre k4_bodyPost bodyAt4
  simp only [before4_0, before4_1, before4_2, before4_3]
  rw [show (dat4 V c).owesAt () t.succ = (dat4 V c).owesAt () t.castSucc from rfl]
  rw [show (dat4 V c).Φ t.succ = k4_Phi V c (t.val + 1) from rfl, k4_Phi_succ, k4_Phi_at]
  rw [k4_leaves_0, k4_leaves_1, k4_leaves_2, k4_leaves_3, k4_leaves_4, after4_0, after4_1, after4_2, after4_3, after4_4]
  have hN : t.val < 25 := lt_of_lt_of_eq t.isLt N_4
  by_cases h0 : t.val = 0
  · have h24 : t.val ≠ 24 := by omega
    rw [Dat.leavesExact_idle (dat4 V c) 5 t (k4_idle_5 t h24) (k4_noflush_5 t h24),
      Dat.leavesExact_idle (dat4 V c) 6 t (k4_idle_6 t h24) (k4_noflush_6 t h24)]
    rw [k4_acc_first V c t h0, k4_Phi_zero V c _ h0]
    unfold k4_step; dsimp only
    iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
    iapply (k4_runA c (grid4.coords t) Set.univ _ _ _ _ _ _ _ _ _ _ _ _ _ _ _ _ _ _ ((k4_hc1 t).mpr h0) (fun h => h24 ((k4_hc2 t).mp h))
        (iblk4 V c 0 t) (iblk4 V c 1 t) (iblk4 V c 2 t) (iblk4 V c 3 t) ((dat4 V c).before 5 t d5) ((dat4 V c).before 6 t d6) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h24 : t.val = 24
    · rw [k4_leaves_5 V c t h24, k4_leaves_6 V c t h24, after4_5, after4_6]
      rw [k4_acc_later V c t h0, k4_Phi_pos V c _ h0]
      unfold k4_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k4_runC c (grid4.coords t) Set.univ _ _ _ _ _ _ _ _ _ _ _ _ _ _ _ _ _ _ (fun h => h0 ((k4_hc1 t).mp h)) ((k4_hc2 t).mpr h24)
          (iblk4 V c 0 t) (iblk4 V c 1 t) (iblk4 V c 2 t) (iblk4 V c 3 t) (k4_acc V c (t.val - 1)).1 (k4_acc V c (t.val - 1)).2 _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat4 V c) 5 t (k4_idle_5 t h24) (k4_noflush_5 t h24),
        Dat.leavesExact_idle (dat4 V c) 6 t (k4_idle_6 t h24) (k4_noflush_6 t h24)]
      rw [k4_acc_later V c t h0, k4_Phi_pos V c _ h0]
      unfold k4_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k4_runB c (grid4.coords t) Set.univ _ _ _ _ _ _ _ _ _ _ _ _ _ _ _ _ _ _ (fun h => h0 ((k4_hc1 t).mp h)) (fun h => h24 ((k4_hc2 t).mp h))
          (iblk4 V c 0 t) (iblk4 V c 1 t) (iblk4 V c 2 t) (iblk4 V c 3 t) ((dat4 V c).before 5 t d5) ((dat4 V c).before 6 t d6) (k4_acc V c (t.val - 1)).1 (k4_acc V c (t.val - 1)).2 _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact k4_sound_body V c t

theorem q_eq4 (c : Dev nD) : ∀ w, (dat4 V c).q w = fullShare := fun _ => rfl
theorem owed_eq4 (c : Dev nD) : ∀ t, (dat4 V c).owed t = 0 := fun _ => rfl

/-! ## Into the invariant and out of it -/

/-- What the launch hands the region — the generator register and every scoped buffer no window stages — is the
    invariant before the first point: the two scratch rows are split out, at whatever they hold. -/
theorem hin4 (c : Dev nD) :
    (iprop((∃ r, prngReg c r) ∗ Pipeline.prefHeld (pcfgs (F := F) 4).pre c (fun _ => fullShare) (((cfgs 4).toPCfg_adm).1)
      ∗ Pipeline.scopedRest spec4 c) : sProp 𝕄) ⊢ (dat4 V c).Φ 0 := by
  rw [show (dat4 V c).Φ 0 = k4_Phi V c 0 from rfl, k4_Phi_zero V c 0 rfl, scopedRest4_split]
  simp only [k4_sc0, k4_sc1, owns_whole]
  iintro ⟨Hp, -, ⟨⟨HS0, HS1⟩, Hrest⟩⟩
  isplitl [HS0]; · iexact HS0
  isplitl [HS1]; · iexact HS1
  isplitl [Hrest]; · iexact Hrest
  iexact Hp

/-- After the last point the invariant gives them back: what the scratch rows then hold is forgotten. -/
theorem hout4 (c : Dev nD) :
    (dat4 V c).Φ (Fin.last cfg4.N) ⊢ (iprop((∃ r, prngReg c r) ∗ Pipeline.ownSems0 (fun k : PEmpty => k.elim) c
      ∗ Pipeline.scopedRest spec4 c) : sProp 𝕄) := by
  rw [Pipeline.ownSems0_none, show (dat4 V c).Φ (Fin.last cfg4.N) = k4_Phi V c (24 + 1) from rfl, k4_Phi_succ, scopedRest4_split]
  simp only [k4_sc0, k4_sc1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.KernelIdeal.Hand

end
-- ==== Proof.KI.R5.lean ====
/-
  Region 5 of the program: the second linear layer of a GIN block with its batch statistics, one grid of 25 points
  over blocks of 2000 rows.

  At each point the body normalises the block of the first layer's output with the batch mean and variance,
  rectifies it, multiplies by the second weights, adds the bias and the residual block, and stores the result as
  the block of the layer's output. Two scratch rows carry the column sums of that output and of its squares from
  point to point: the first point zeroes them, every point adds its block's column sums, and the last point copies
  them into the two statistics outputs, which no other point touches.

  This module states what each buffer holds after each point (the output block from the input blocks; the scratch
  rows by recursion on the point), proves the body's triple in each of its three cases (first point, a middle
  point, last point), and from them the body obligation of the pipeline's proof data, with the invariant carrying
  the scratch rows at the accumulated sums.
-/
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the second linear layer with batch statistics, at the entry contents `V` -/

/-! ## The body's branch conditions -/

/-- The body's first conditional: the grid coordinate is 0. -/
abbrev dat5_c0 (i : grid5.Coords) : Prop := (Scalar.cmpi .ne (Scalar.extui (Scalar.cmpi .eq (BitVec.ofNat 32 (i 0).val) 0#32)) 0#32) = 1#1
theorem dat5_hc0 : ∀ t : Fin cfg5.N, dat5_c0 (grid5.coords t) ↔ t.val = 0 :=
  (by decide +kernel : ∀ t : Fin grid5.N, dat5_c0 (grid5.coords t) ↔ t.val = 0)
/-- The body's second conditional: the grid coordinate is 24, the last. -/
abbrev dat5_c1 (i : grid5.Coords) : Prop := k5_cond2 i = 1#1
theorem dat5_hc1 : ∀ t : Fin cfg5.N, dat5_c1 (grid5.coords t) ↔ t.val = 24 :=
  (by decide +kernel : ∀ t : Fin grid5.N, dat5_c1 (grid5.coords t) ↔ t.val = 24)
theorem dat5_N : cfg5.N = 25 := by decide

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses: every load and store is of a whole buffer -/

abbrev dat5_rH : Rect S2000x512 := Rect.unit (s := S2000x512) ![0, 0] S2000x512.size inb_S2000x512_S2000x512_0_0
abbrev dat5_rR : Rect S1x512 := Rect.unit (s := S1x512) ![0, 0] S1x512.size inb_S1x512_S1x512_0_0
abbrev dat5_rX : Rect S2000x256 := Rect.unit (s := S2000x256) ![0, 0] S2000x256.size inb_S2000x256_S2000x256_0_0
abbrev dat5_rW : Rect S512x256 := Rect.unit (s := S512x256) ![0, 0] S512x256.size inb_S512x256_S512x256_0_0
abbrev dat5_rS : Rect S1x256 := Rect.unit (s := S1x256) ![0, 0] S1x256.size inb_S1x256_S1x256_0_0

/-- A whole-buffer rectangle holds every index of its shape (its one block tiles the shape). -/
theorem dat5_coverX (p0 : Vec F S2000x256 .f32) (y : S2000x256.Idx) : ∃ pc ∈ ([⟨dat5_rX, p0⟩] : List (View.Piece (Elt F) S2000x256 .f32)), y ∈ pc.1.set :=
  View.cover_of_tiled [⟨dat5_rX, p0⟩] S2000x256.size (by rfl) y
theorem dat5_coverS (p0 : Vec F S1x256 .f32) (y : S1x256.Idx) : ∃ pc ∈ ([⟨dat5_rS, p0⟩] : List (View.Piece (Elt F) S1x256 .f32)), y ∈ pc.1.set :=
  View.cover_of_tiled [⟨dat5_rS, p0⟩] S1x256.size (by rfl) y
theorem dat5_memX (y : S2000x256.Idx) : y ∈ dat5_rX.set := by
  obtain ⟨pc, hpc, hy⟩ := View.cover_of_tiled ([⟨dat5_rX, fun _ => ()⟩] : List (View.Piece (fun _ => Unit) S2000x256 .f32)) S2000x256.size (by rfl) y
  rw [List.mem_singleton] at hpc; subst hpc; exact hy
theorem dat5_memS (y : S1x256.Idx) : y ∈ dat5_rS.set := by
  obtain ⟨pc, hpc, hy⟩ := View.cover_of_tiled ([⟨dat5_rS, fun _ => ()⟩] : List (View.Piece (fun _ => Unit) S1x256 .f32)) S1x256.size (by rfl) y
  rw [List.mem_singleton] at hpc; subst hpc; exact hy

/-- What a store through a rectangle holding every index leaves, whatever the buffer held and whatever
    earlier stores wrote: its payload, as the one-piece canonical contents. -/
theorem dat5_read_whole {κ : Kind} {sp : Space} {s : Shape} {e : EltTy} (v : View sig κ sp s e) (f : v.ty.Contents (Elt F)) (r : Rect s)
    (hr : ∀ y : s.Idx, y ∈ r.set) (w w' : r.shape.Idx → Elt F e) (L : List (View.Piece (Elt F) s e)) (h : w = w') :
    v.read (Elt F) (v.writes (Elt F) f (⟨r, w⟩ :: L)) = View.canon [⟨r, w'⟩] := by
  subst h
  funext y
  obtain ⟨x, rfl⟩ : ∃ x, r.emb x = y := r.exists_idx_of_mem (hr y)
  rw [View.read_writes_cons_emb, View.canon_cons_emb]

/-! ## What the body leaves in the output windows' buffers and in the two scratch rows -/

/-- The normalised, rectified first layer times the second weights plus the bias (`%34`), of the input blocks. -/
def dat5_v34 (x0 : Vec F S2000x512 .f32) (x1 : Vec F S1x512 .f32) (x2 : Vec F S1x512 .f32) (x3 : Vec F S1x512 .f32) (x4 : Vec F S1x512 .f32) (x6 : Vec F S512x256 .f32) (x7 : Vec F S1x256 .f32) : FVec F S2000x256 .f32 :=
  k5_pay6 (View.ld x2 dat5_rR) (View.ld x3 dat5_rR) (View.ld x0 dat5_rH) (View.ld x1 dat5_rR) (View.ld x4 dat5_rR) (View.ld x6 dat5_rW) (View.ld x7 dat5_rS)
/-- The residual operand (`%36`). -/
def dat5_v36 (x5 : Vec F S2000x256 .f32) : FVec F S2000x256 .f32 := k5_pay7 (View.ld x5 dat5_rX)
/-- Output window 8's buffer after the body: the block of the layer's output (`%37`). -/
def dat5_o8 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) : Vec F S2000x256 .f32 :=
  View.canon [⟨dat5_rX, k5_pay1 (dat5_v34 x0 x1 x2 x3 x4 x6 x7) (dat5_v36 x5)⟩]
/-- The first scratch row after the body, from what it held (`a`): the block's column sums added. -/
def dat5_s0 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat5_rS, k5_pay2 (dat5_v34 x0 x1 x2 x3 x4 x6 x7) (dat5_v36 x5) (View.ld a dat5_rS)⟩]
/-- The second scratch row after the body, from what it held: the block's column sums of squares added. -/
def dat5_s1 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat5_rS, k5_pay3 (dat5_v34 x0 x1 x2 x3 x4 x6 x7) (dat5_v36 x5) (View.ld a dat5_rS)⟩]
/-- The scratch rows as the first point zeroes them. -/
def dat5_z0 : Vec F S1x256 .f32 := View.canon [⟨dat5_rS, k5_pay4 (F := F)⟩]
def dat5_z1 : Vec F S1x256 .f32 := View.canon [⟨dat5_rS, k5_pay5 (F := F)⟩]
/-- A statistics window's buffer after the last point: the scratch row copied. -/
def dat5_o9 (a : Vec F S1x256 .f32) : Vec F S1x256 .f32 := View.canon [⟨dat5_rS, View.ld a dat5_rS⟩]

set_option maxHeartbeats 4000000 in
/-- The body at a point that is neither the first nor the last (no conditional taken): from the inputs' buffers at
    their contents and the scratch rows at `a0`, `a1`, it leaves the inputs as they were, window 8 at the
    layer's output block, and the scratch rows with the block's column sums added. The statistics windows
    are not touched. -/
theorem dat5_runB (c : Dev nD) (E : Set ℕ) (i : grid5.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat5_c0 i) (hc1 : ¬dat5_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat5_o8 x0 x1 x2 x3 x4 x5 x6 x7) ∗ owns (c : Thread nD τ) arg12 fullShare (dat5_s0 x0 x1 x2 x3 x4 x5 x6 x7 a0) ∗ owns (c : Thread nD τ) arg13 fullShare (dat5_s1 x0 x1 x2 x3 x4 x5 x6 x7 a1)) -∗ K ⟨⟩))
      ⊢ wp frame (wpE (defs₀ (F := F)) Variants.none c none) E (cc5__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc5__lin2_stats_kernel_eq_skeleton]; unfold cc5__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat5_read_whole _ _ _ dat5_memX _ _ _ rfl
  isplitl [HS0]
  · iexists _; isplitr
    swap; · iexact HS0
    ipureintro
    exact dat5_read_whole _ _ _ dat5_memS _ _ _ rfl
  iexists _; isplitr
  swap; · iexact HS1
  ipureintro
  exact dat5_read_whole _ _ _ dat5_memS _ _ _ rfl

set_option maxHeartbeats 4000000 in
/-- The body at the first point (the first conditional taken, the second not): the scratch rows, at anything,
    are zeroed and then take the block's column sums. -/
theorem dat5_runA (c : Dev nD) (E : Set ℕ) (i : grid5.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : dat5_c0 i) (hc1 : ¬dat5_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat5_o8 x0 x1 x2 x3 x4 x5 x6 x7) ∗ owns (c : Thread nD τ) arg12 fullShare (dat5_s0 x0 x1 x2 x3 x4 x5 x6 x7 dat5_z0) ∗ owns (c : Thread nD τ) arg13 fullShare (dat5_s1 x0 x1 x2 x3 x4 x5 x6 x7 dat5_z1)) -∗ K ⟨⟩))
      ⊢ wp frame (wpE (defs₀ (F := F)) Variants.none c none) E (cc5__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc5__lin2_stats_kernel_eq_skeleton]; unfold cc5__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%da0, %fa0, -, HS0⟩, ⟨%da1, %fa1, -, HS1⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat5_read_whole _ _ _ dat5_memX _ _ _ rfl
  isplitl [HS0]
  · iexists _; isplitr
    swap; · iexact HS0
    ipureintro
    exact dat5_read_whole _ _ _ dat5_memS _ _ _
      (congrArg (k5_pay2 _ _) (View.readCov_eq_canon_ld _ _ _ (dat5_coverS _)))
  iexists _; isplitr
  swap; · iexact HS1
  ipureintro
  exact dat5_read_whole _ _ _ dat5_memS _ _ _
    (congrArg (k5_pay3 _ _) (View.readCov_eq_canon_ld _ _ _ (dat5_coverS _)))

set_option maxHeartbeats 4000000 in
/-- The body at the last point (the second conditional taken, the first not): as at a middle point, and then
    the two scratch rows are copied into the statistics windows 9 and 10. -/
theorem dat5_runC (c : Dev nD) (E : Set ℕ) (i : grid5.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat5_c0 i) (hc1 : dat5_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat5_o8 x0 x1 x2 x3 x4 x5 x6 x7) ∗ owns (c : Thread nD τ) arg10 fullShare (dat5_o9 (dat5_s0 x0 x1 x2 x3 x4 x5 x6 x7 a0)) ∗ owns (c : Thread nD τ) arg11 fullShare (dat5_o9 (dat5_s1 x0 x1 x2 x3 x4 x5 x6 x7 a1))
            ∗ owns (c : Thread nD τ) arg12 fullShare (dat5_s0 x0 x1 x2 x3 x4 x5 x6 x7 a0) ∗ owns (c : Thread nD τ) arg13 fullShare (dat5_s1 x0 x1 x2 x3 x4 x5 x6 x7 a1)) -∗ K ⟨⟩))
      ⊢ wp frame (wpE (defs₀ (F := F)) Variants.none c none) E (cc5__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc5__lin2_stats_kernel_eq_skeleton]; unfold cc5__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat5_read_whole _ _ _ dat5_memX _ _ _ rfl
  isplitl [H9]
  · iexists _; isplitr
    swap; · iexact H9
    ipureintro
    exact dat5_read_whole _ _ _ dat5_memS _ _ _
      (View.readCov_eq_canon_ld _ _ _ (dat5_coverS _))
  isplitl [H10]
  · iexists _; isplitr
    swap; · iexact H10
    ipureintro
    exact dat5_read_whole _ _ _ dat5_memS _ _ _
      (View.readCov_eq_canon_ld _ _ _ (dat5_coverS _))
  isplitl [HS0]
  · iexists _; isplitr
    swap; · iexact HS0
    ipureintro
    exact dat5_read_whole _ _ _ dat5_memS _ _ _ rfl
  iexists _; isplitr
  swap; · iexact HS1
  ipureintro
  exact dat5_read_whole _ _ _ dat5_memS _ _ _ rfl

/-! ## The blocks' contributions, point by point -/

/-- Window 8's buffer after the body at point `t`: the output block of the input blocks there. -/
def dat5_O8 (c : Dev nD) (t : Fin cfg5.N) : Vec F S2000x256 .f32 := dat5_o8 (iblk5 V c 0 t) (iblk5 V c 1 t) (iblk5 V c 2 t) (iblk5 V c 3 t) (iblk5 V c 4 t) (iblk5 V c 5 t) (iblk5 V c 6 t) (iblk5 V c 7 t)
/-- The first scratch row after the body at point `t`, from what it held. -/
def dat5_S0 (c : Dev nD) (t : Fin cfg5.N) (a : Vec F S1x256 .f32) : Vec F S1x256 .f32 := dat5_s0 (iblk5 V c 0 t) (iblk5 V c 1 t) (iblk5 V c 2 t) (iblk5 V c 3 t) (iblk5 V c 4 t) (iblk5 V c 5 t) (iblk5 V c 6 t) (iblk5 V c 7 t) a
/-- The second scratch row after the body at point `t`, from what it held. -/
def dat5_S1 (c : Dev nD) (t : Fin cfg5.N) (a : Vec F S1x256 .f32) : Vec F S1x256 .f32 := dat5_s1 (iblk5 V c 0 t) (iblk5 V c 1 t) (iblk5 V c 2 t) (iblk5 V c 3 t) (iblk5 V c 4 t) (iblk5 V c 5 t) (iblk5 V c 6 t) (iblk5 V c 7 t) a

/-- THE ACCUMULATION. What the two scratch rows hold after the body at position `n`: from zero at the first point,
    each point adds its block's column sums (of the values, of their squares) to what the point before left. -/
def dat5_acc (c : Dev nD) : (n : ℕ) → n < cfg5.N → Vec F S1x256 .f32 × Vec F S1x256 .f32
  | 0, hn => (dat5_S0 V c ⟨0, hn⟩ dat5_z0, dat5_S1 V c ⟨0, hn⟩ dat5_z1)
  | n + 1, hn => (dat5_S0 V c ⟨n + 1, hn⟩ (dat5_acc c n (Nat.lt_of_succ_lt hn)).1, dat5_S1 V c ⟨n + 1, hn⟩ (dat5_acc c n (Nat.lt_of_succ_lt hn)).2)

theorem dat5_acc_zero (c : Dev nD) (t : Fin cfg5.N) (h : t.val = 0) :
    dat5_acc V c t.val t.isLt = (dat5_S0 V c t dat5_z0, dat5_S1 V c t dat5_z1) := by
  obtain ⟨n, hn⟩ := t
  cases n with
  | zero => rfl
  | succ n => exact absurd h (Nat.succ_ne_zero n)

theorem dat5_acc_pos (c : Dev nD) (t : Fin cfg5.N) (h : t.val ≠ 0) :
    dat5_acc V c t.val t.isLt = (dat5_S0 V c t (dat5_acc V c (t.val - 1) (Nat.lt_of_le_of_lt (Nat.sub_le _ _) t.isLt)).1,
      dat5_S1 V c t (dat5_acc V c (t.val - 1) (Nat.lt_of_le_of_lt (Nat.sub_le _ _) t.isLt)).2) := by
  obtain ⟨n, hn⟩ := t
  cases n with
  | zero => exact absurd rfl h
  | succ n => rfl

/-! ## The region invariant -/

/-- The scratch rows as memrefs: whole scoped buffers of the kernel's own. -/
abbrev dat5_scM0 : Memref sig .tc .vmem S1x256 .f32 := Memref.whole cc5_scratch0
abbrev dat5_scM1 : Memref sig .tc .vmem S1x256 .f32 := Memref.whole cc5_scratch1

/-- Every other scoped buffer of the core, unopened. -/
abbrev dat5_rest (c : Dev nD) : sProp 𝕄 :=
  Pipeline.scopedRestBut (Ix := Unit) (Name := ℕ) (U := UR sig nD τ) (Lvl := ℕ) (Val := Elt F) spec5 c [cc5_scratch0, cc5_scratch1]

/-- The invariant before position `n`: before the first point every scoped buffer that is no staging buffer at
    anything and the generator register at some state; afterwards the two scratch rows at what the point before
    left (`dat5_acc`), the other scoped buffers unopened, the generator register at some state. -/
def dat5_Phi (c : Dev nD) : (n : ℕ) → n ≤ cfg5.N → sProp 𝕄
  | 0, _ => Pipeline.ΦA spec5 c
  | n + 1, hn => iprop(iprop(iprop(owns (c : Thread nD τ) dat5_scM0 fullShare (dat5_acc V c n hn).1 ∗ owns (c : Thread nD τ) dat5_scM1 fullShare (dat5_acc V c n hn).2) ∗ dat5_rest c) ∗ (∃ r, prngReg c r))

theorem dat5_Phi_zero (c : Dev nD) (n : ℕ) (h : n ≤ cfg5.N) (hz : n = 0) : dat5_Phi V c n h = Pipeline.ΦA spec5 c := by
  subst hz; rfl

theorem dat5_Phi_succ (c : Dev nD) (n : ℕ) (hn : n < cfg5.N) :
    dat5_Phi V c (n + 1) hn = iprop(iprop(iprop(owns (c : Thread nD τ) dat5_scM0 fullShare (dat5_acc V c n hn).1 ∗ owns (c : Thread nD τ) dat5_scM1 fullShare (dat5_acc V c n hn).2) ∗ dat5_rest c) ∗ (∃ r, prngReg c r)) := rfl

theorem dat5_Phi_pos (c : Dev nD) (n : ℕ) (h : n ≤ cfg5.N) (hz : n ≠ 0) :
    dat5_Phi V c n h = iprop(iprop(iprop(owns (c : Thread nD τ) dat5_scM0 fullShare (dat5_acc V c (n - 1) (by omega)).1 ∗ owns (c : Thread nD τ) dat5_scM1 fullShare (dat5_acc V c (n - 1) (by omega)).2) ∗ dat5_rest c) ∗ (∃ r, prngReg c r)) := by
  cases n with
  | zero => exact absurd rfl hz
  | succ n => rfl

/-- The first point's invariant with the two scratch rows as memrefs owned at some contents. -/
theorem dat5_PhiA_eq (c : Dev nD) :
    (Pipeline.ΦA spec5 c : sProp 𝕄)
      = iprop(iprop(iprop((∃ d, owns (c : Thread nD τ) dat5_scM0 fullShare d) ∗ (∃ d, owns (c : Thread nD τ) dat5_scM1 fullShare d)) ∗ dat5_rest c) ∗ (∃ r, prngReg c r)) := by
  unfold Pipeline.ΦA; rw [scopedRest5_split]; simp only [dat5_scM0, dat5_scM1, owns_whole]; try rfl

/-! ## The pipeline's proof data -/

/-- The proof data of the pipeline on core `c`: the arrays as the region finds them (`V`); after the body at point
    `t` each input's buffer at its block, window 8's at the output block, the statistics windows' at the copied
    accumulators (read at the last point only: elsewhere they are idle); the invariant `dat5_Phi`; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => dat5_O8 V c t
    | ⟨9, _⟩ => dat5_o9 (dat5_acc V c t.val t.isLt).1
    | ⟨10, _⟩ => dat5_o9 (dat5_acc V c t.val t.isLt).2
  Φ t := dat5_Phi V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) : ∀ w, (dat5 V c).q w = fullShare := fun _ => rfl
theorem owed_eq5 (c : Dev nD) : ∀ t, (dat5 V c).owed t = 0 := fun _ => rfl

theorem dat5_Phi_castSucc (c : Dev nD) (t : Fin cfg5.N) :
    (dat5 V c).Φ t.castSucc = dat5_Phi V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = dat5_O8 V c t := by dsimp only [dat5]
theorem after5_9 (c : Dev nD) (t : Fin cfg5.N) : (dat5 V c).after 9 t = dat5_o9 (dat5_acc V c t.val t.isLt).1 := by dsimp only [dat5]
theorem after5_10 (c : Dev nD) (t : Fin cfg5.N) : (dat5 V c).after 10 t = dat5_o9 (dat5_acc V c t.val t.isLt).2 := by dsimp only [dat5]

/-- Each input's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl) (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl) (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (fun _ => rfl) (fun _ _ _ => rfl) (fun t => by rw [after5_7]; unfold Dat.blockOf iblk5; rw [A_eq5]; try rfl) t d).trans
    (by unfold Dat.fetched Dat.blockOf iblk5; rw [A_eq5]; try rfl)

/-! ## Where the windows are idle -/

theorem dat5_live0 : ∀ t : Fin cfg5.N, cfg5.idle 0 (grid5.coords t) = false := fun _ => rfl
theorem dat5_live1 : ∀ t : Fin cfg5.N, cfg5.idle 1 (grid5.coords t) = false := fun _ => rfl
theorem dat5_live2 : ∀ t : Fin cfg5.N, cfg5.idle 2 (grid5.coords t) = false := fun _ => rfl
theorem dat5_live3 : ∀ t : Fin cfg5.N, cfg5.idle 3 (grid5.coords t) = false := fun _ => rfl
theorem dat5_live4 : ∀ t : Fin cfg5.N, cfg5.idle 4 (grid5.coords t) = false := fun _ => rfl
theorem dat5_live5 : ∀ t : Fin cfg5.N, cfg5.idle 5 (grid5.coords t) = false := fun _ => rfl
theorem dat5_live6 : ∀ t : Fin cfg5.N, cfg5.idle 6 (grid5.coords t) = false := fun _ => rfl
theorem dat5_live7 : ∀ t : Fin cfg5.N, cfg5.idle 7 (grid5.coords t) = false := fun _ => rfl
theorem dat5_live8 : ∀ t : Fin cfg5.N, cfg5.idle 8 (grid5.coords t) = false := fun _ => rfl
/-- Off the last point the body stores nothing into window 9, and the pipeline does not write it back. -/
theorem dat5_idle9 : ∀ t : Fin cfg5.N, ¬dat5_c1 (grid5.coords t) → cfg5.idle 9 (grid5.coords t) = true := by decide +kernel
theorem dat5_noFlush9 : ∀ t : Fin cfg5.N, ¬dat5_c1 (grid5.coords t) → (cfg5.win 9).flush t = false := by decide +kernel
/-- At the last point it does. -/
theorem dat5_live9 : ∀ t : Fin cfg5.N, dat5_c1 (grid5.coords t) → cfg5.idle 9 (grid5.coords t) = false := by decide +kernel
/-- Off the last point the body stores nothing into window 10, and the pipeline does not write it back. -/
theorem dat5_idle10 : ∀ t : Fin cfg5.N, ¬dat5_c1 (grid5.coords t) → cfg5.idle 10 (grid5.coords t) = true := by decide +kernel
theorem dat5_noFlush10 : ∀ t : Fin cfg5.N, ¬dat5_c1 (grid5.coords t) → (cfg5.win 10).flush t = false := by decide +kernel
/-- At the last point it does. -/
theorem dat5_live10 : ∀ t : Fin cfg5.N, dat5_c1 (grid5.coords t) → cfg5.idle 10 (grid5.coords t) = false := by decide +kernel

/-! ## The body obligation, at a generic point -/

/-- What the body is called with at point `t`, the windows one by one, -/
def dat5_pre (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def dat5_post (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t
    ∗ (dat5 V c).leavesExact 10 t)

set_option maxHeartbeats 4800000 in
/-- The body at any point: the inputs' memrefs hold their blocks; the point is the first, a middle one or the last,
    which decides the body's two conditionals; the invariant hands the body the scratch rows at what the point
    before left (at anything at the first point) and takes them back at this point's accumulators; off the
    last point the statistics windows pass by untouched; the core owes nothing throughout. -/
theorem dat5_sound_body (c : Dev nD) (t : Fin cfg5.N) :
    dat5_pre V c t ⊢ wp frame (wpE (defs₀ (F := F)) Variants.none c none) Set.univ (bodyAt5 t) (fun _ => dat5_post V c t) := by
  unfold dat5_pre dat5_post bodyAt5
  simp only [before5_0, before5_1, before5_2, before5_3, before5_4, before5_5, before5_6, before5_7]
  rw [show (dat5 V c).owesAt () t.succ = (dat5 V c).owesAt () t.castSucc from rfl]
  rw [show (dat5 V c).Φ t.succ = dat5_Phi V c (t.val + 1) t.isLt from rfl, dat5_Phi_succ]
  rw [show (dat5 V c).leavesExact 0 t = owns (c : Thread nD τ) (st5_0 t) fullShare ((dat5 V c).after 0 t) from by
    unfold Dat.leavesExact; rw [dat5_live0 t], after5_0]
  rw [show (dat5 V c).leavesExact 1 t = owns (c : Thread nD τ) (st5_1 t) fullShare ((dat5 V c).after 1 t) from by
    unfold Dat.leavesExact; rw [dat5_live1 t], after5_1]
  rw [show (dat5 V c).leavesExact 2 t = owns (c : Thread nD τ) (st5_2 t) fullShare ((dat5 V c).after 2 t) from by
    unfold Dat.leavesExact; rw [dat5_live2 t], after5_2]
  rw [show (dat5 V c).leavesExact 3 t = owns (c : Thread nD τ) (st5_3 t) fullShare ((dat5 V c).after 3 t) from by
    unfold Dat.leavesExact; rw [dat5_live3 t], after5_3]
  rw [show (dat5 V c).leavesExact 4 t = owns (c : Thread nD τ) (st5_4 t) fullShare ((dat5 V c).after 4 t) from by
    unfold Dat.leavesExact; rw [dat5_live4 t], after5_4]
  rw [show (dat5 V c).leavesExact 5 t = owns (c : Thread nD τ) (st5_5 t) fullShare ((dat5 V c).after 5 t) from by
    unfold Dat.leavesExact; rw [dat5_live5 t], after5_5]
  rw [show (dat5 V c).leavesExact 6 t = owns (c : Thread nD τ) (st5_6 t) fullShare ((dat5 V c).after 6 t) from by
    unfold Dat.leavesExact; rw [dat5_live6 t], after5_6]
  rw [show (dat5 V c).leavesExact 7 t = owns (c : Thread nD τ) (st5_7 t) fullShare ((dat5 V c).after 7 t) from by
    unfold Dat.leavesExact; rw [dat5_live7 t], after5_7]
  rw [show (dat5 V c).leavesExact 8 t = owns (c : Thread nD τ) (st5_8 t) fullShare ((dat5 V c).after 8 t) from by
    unfold Dat.leavesExact; rw [dat5_live8 t], after5_8]
  have hN : t.val < 25 := lt_of_lt_of_eq t.isLt dat5_N
  by_cases h0 : t.val = 0
  · have h1 : ¬t.val = 24 := by omega
    have hc0 : dat5_c0 (grid5.coords t) := (dat5_hc0 t).mpr h0
    have hc1 : ¬dat5_c1 (grid5.coords t) := fun h => h1 ((dat5_hc1 t).mp h)
    rw [Dat.leavesExact_idle (dat5 V c) 9 t (dat5_idle9 t hc1) (dat5_noFlush9 t hc1),
      Dat.leavesExact_idle (dat5 V c) 10 t (dat5_idle10 t hc1) (dat5_noFlush10 t hc1)]
    rw [dat5_acc_zero V c t h0]
    rw [dat5_Phi_castSucc V c t, dat5_Phi_zero V c _ _ h0, dat5_PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (dat5_runA c Set.univ (grid5.coords t) _ _ _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) (iblk5 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hpos : dat5_acc V c t.val t.isLt = _ := dat5_acc_pos V c t h0
    by_cases h1 : t.val = 24
    · have hc0 : ¬dat5_c0 (grid5.coords t) := fun h => h0 ((dat5_hc0 t).mp h)
      have hc1 : dat5_c1 (grid5.coords t) := (dat5_hc1 t).mpr h1
      rw [show (dat5 V c).leavesExact 9 t = owns (c : Thread nD τ) (st5_9 t) fullShare ((dat5 V c).after 9 t) from by
        unfold Dat.leavesExact; rw [dat5_live9 t hc1], after5_9]
      rw [show (dat5 V c).leavesExact 10 t = owns (c : Thread nD τ) (st5_10 t) fullShare ((dat5 V c).after 10 t) from by
        unfold Dat.leavesExact; rw [dat5_live10 t hc1], after5_10]
      rw [hpos]
      rw [dat5_Phi_castSucc V c t, dat5_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat5_runC c Set.univ (grid5.coords t) _ _ _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) (iblk5 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · icases H9 with ⟨%d9, H9⟩; iexists _; iexact H9
      isplitl [H10]; · icases H10 with ⟨%d10, H10⟩; iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬dat5_c0 (grid5.coords t) := fun h => h0 ((dat5_hc0 t).mp h)
      have hc1 : ¬dat5_c1 (grid5.coords t) := fun h => h1 ((dat5_hc1 t).mp h)
      rw [Dat.leavesExact_idle (dat5 V c) 9 t (dat5_idle9 t hc1) (dat5_noFlush9 t hc1),
        Dat.leavesExact_idle (dat5 V c) 10 t (dat5_idle10 t hc1) (dat5_noFlush10 t hc1)]
      rw [hpos]
      rw [dat5_Phi_castSucc V c t, dat5_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat5_runB c Set.univ (grid5.coords t) _ _ _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) (iblk5 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation5 (c : Dev nD) : BodyObligation (dat5 (F := F) V c) (defs₀ (F := F)) Variants.none () Set.univ := fun t => by
  rw [bigSep_W5, bigSep_W5]
  exact dat5_sound_body V c t

/-! ## Into the invariant and out of it -/

/-- What the region is entered with is the invariant before the first point (the prefetched tables, none here,
    are not used). -/
theorem hin5 (c : Dev nD) : iprop((∃ r, prngReg c r) ∗ Pipeline.prefHeld (pcfgs (F := F) 5).pre c (fun _ => fullShare) (((cfgs 5).toPCfg_adm).1) ∗ Pipeline.scopedRest spec5 c) ⊢ (dat5 V c).Φ 0 := by
  rw [show (dat5 V c).Φ 0 = Pipeline.ΦA spec5 c from rfl]; unfold Pipeline.ΦA
  iintro ⟨Hp, -, Hr⟩
  isplitl [Hr]; · iexact Hr
  iexact Hp

/-- After the last point the invariant gives the scoped buffers back: the scratch rows' named contents are forgotten. -/
theorem hout5 (c : Dev nD) : (dat5 V c).Φ (Fin.last cfg5.N) ⊢ iprop((∃ r, prngReg c r) ∗ Pipeline.ownSems0 (fun k : PEmpty => k.elim) c ∗ Pipeline.scopedRest spec5 c) := by
  rw [Pipeline.ownSems0_none, show (dat5 V c).Φ (Fin.last cfg5.N) = dat5_Phi V c (Fin.last cfg5.N).val (Nat.le_of_lt_succ (Fin.last cfg5.N).isLt) from rfl,
    dat5_Phi_pos V c _ _ (by rw [Fin.val_last]; have : cfg5.N = 25 := dat5_N; omega), scopedRest5_split]
  simp only [dat5_scM0, dat5_scM1, owns_whole]
  iintro ⟨⟨⟨HS0, HS1⟩, Hrest⟩, Hg⟩
  isplitl [Hg]; · iexact Hg
  isplitr; · iempintro
  isplitl [HS0 HS1]
  · isplitl [HS0]; · iexists _; iexact HS0
    iexists _; iexact HS1
  iexact Hrest

end Cert.KernelIdeal.Hand

end
-- ==== Proof.KI.R6.lean ====
/-
  Region 6 of the idealized kernel's @main: the batch-norm finalize kernel
  out = g·(h − mean)·rsqrt(var + eps) + beta, one grid point per block of 2000 rows.
  At the buffer contents V the region is entered with: each window's block at a point, what the body leaves in the
  output window's buffer (its one whole-block store of the payload of the five loaded blocks), the body's triple, the
  pipeline's proof data and the body obligation, and the invariant at the region's two ends.
-/
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: where the window is not fetched its block index
    has not moved, so the buffer still holds the previous point's block, which is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: where the window is not fetched its block index
    has not moved, so the buffer still holds the previous point's block, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: where the window is not fetched its block index
    has not moved, so the buffer still holds the previous point's block, which is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place: where the window is not fetched its block index
    has not moved, so the buffer still holds the previous point's block, which is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place: where the window is not fetched its block index
    has not moved, so the buffer still holds the previous point's block, which is this point's. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take the whole block -/

abbrev r6_0 : Rect S2000x256 := Rect.unit (s := S2000x256) ![0, 0] S2000x256.size inb_S2000x256_S2000x256_0_0
abbrev r6_1 : Rect S1x256 := Rect.unit (s := S1x256) ![0, 0] S1x256.size inb_S1x256_S1x256_0_0
abbrev r6_2 : Rect S1x256 := Rect.unit (s := S1x256) ![0, 0] S1x256.size inb_S1x256_S1x256_0_0
abbrev r6_3 : Rect S1x256 := Rect.unit (s := S1x256) ![0, 0] S1x256.size inb_S1x256_S1x256_0_0
abbrev r6_4 : Rect S1x256 := Rect.unit (s := S1x256) ![0, 0] S1x256.size inb_S1x256_S1x256_0_0
abbrev r6_5 : Rect S2000x256 := Rect.unit (s := S2000x256) ![0, 0] S2000x256.size inb_S2000x256_S2000x256_0_0

/-! ## What the body leaves in the output window's buffer -/

/-- Window 5's staging buffer after the body, from the input windows' blocks: its one store, of the payload
    computed from the loaded blocks. -/
def out6_5 (xa : Vec F S2000x256 .f32) (xb : Vec F S1x256 .f32) (xc : Vec F S1x256 .f32) (xd : Vec F S1x256 .f32) (xe : Vec F S1x256 .f32) : Vec F S2000x256 .f32 :=
  View.canon [⟨r6_5, k6_pay1 (View.ld xc r6_2) (View.ld xd r6_3) (View.ld xa r6_0) (View.ld xb r6_1) (View.ld xe r6_4)⟩]

/-- The store takes the whole buffer, so it covers it. -/
theorem cover6_5 (pw : Vec F S2000x256 .f32) (y : S2000x256.Idx) :
    ∃ pc ∈ ([⟨r6_5, pw⟩] : List (View.Piece (Elt F) S2000x256 .f32)), y ∈ pc.1.set :=
  View.cover_of_tiled [⟨r6_5, pw⟩] S2000x256.size (by rfl) y

/-! ## The body's triple -/

set_option maxHeartbeats 1000000 in
/-- The kernel body on whole staging memrefs, the inputs' at read contents `xW` and the output's at anything, runs to
    the continuation holding the inputs' as they were and the output's at `out6_5` of the inputs'. -/
theorem sound_kernel6 (c : Dev nD) (E : Set ℕ) (i : grid6.Coords) (ma : Memref sig .tc .vmem S2000x256 .f32) (hma : ma.IsWhole) (mb : Memref sig .tc .vmem S1x256 .f32) (hmb : mb.IsWhole) (mc : Memref sig .tc .vmem S1x256 .f32) (hmc : mc.IsWhole) (md : Memref sig .tc .vmem S1x256 .f32) (hmd : md.IsWhole) (me : Memref sig .tc .vmem S1x256 .f32) (hme : me.IsWhole) (mf : Memref sig .tc .vmem S2000x256 .f32) (hmf : mf.IsWhole)
    (xa : Vec F S2000x256 .f32) (xb : Vec F S1x256 .f32) (xc : Vec F S1x256 .f32) (xd : Vec F S1x256 .f32) (xe : Vec F S1x256 .f32) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ (∃ d, owns (c : Thread nD τ) mf fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ owns (c : Thread nD τ) mf fullShare (out6_5 xa xb xc xd xe)) -∗ K ⟨⟩))
      ⊢ wp frame (wpE (defs₀ (F := F)) Variants.none c none) E (cc6__bn_finalize_kernel i ma hma mb hmb mc hmc md hmd me hme mf hmf) K := by
  simp only [cc6__bn_finalize_kernel_eq_skeleton]; unfold cc6__bn_finalize_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover6_5 _)

/-! ## The pipeline's proof data -/

/-- The proof data of pipeline 6 on core `c`: the arrays as the region finds them (`V`); after the body at
    point `t` each input's buffer at its block and the output's at `out6_5` of the input blocks; the invariant
    holds the scoped buffers no window stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- Every window is held at the full share, and the body owes nothing at any point. -/
theorem q_eq6 (c : Dev nD) : ∀ w, (dat6 V c).q w = fullShare := fun _ => rfl
theorem owed_eq6 (c : Dev nD) : ∀ t, (dat6 V c).owed t = 0 := fun _ => rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the kernel's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%da, Ha⟩, ⟨%db, Hb⟩, ⟨%dc, Hc⟩, ⟨%dd, Hd⟩, ⟨%de, He⟩, ⟨%df, Hf⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- The invariant at the first point, from the generator register at some state, the (empty) prefetched tables and the
    scoped buffers no window stages. -/
theorem hin6 (c : Dev nD) :
    (iprop((∃ r, prngReg c r) ∗ Pipeline.prefHeld (pcfgs (F := F) 6).pre c (fun _ => fullShare) (((cfgs 6).toPCfg_adm).1)
      ∗ Pipeline.scopedRest spec6 c) : sProp 𝕄) ⊢ (dat6 V c).Φ 0 := by
  rw [show (dat6 V c).Φ 0 = Pipeline.ΦA spec6 c from rfl]; unfold Pipeline.ΦA
  iintro ⟨Hp, -, Hr⟩
  isplitl [Hr]; · iexact Hr
  iexact Hp

/-- The invariant at the last point gives back the generator register, no semaphore of the kernel's own, and those
    scoped buffers. -/
theorem hout6 (c : Dev nD) :
    (dat6 V c).Φ (Fin.last cfg6.N) ⊢ (iprop((∃ r, prngReg c r) ∗ Pipeline.ownSems0 (fun k : PEmpty => k.elim) c
      ∗ Pipeline.scopedRest spec6 c) : sProp 𝕄) := by
  rw [Pipeline.ownSems0_none, show (dat6 V c).Φ (Fin.last _) = Pipeline.ΦA spec6 c from rfl]; unfold Pipeline.ΦA
  iintro ⟨Hr, Hp⟩
  isplitl [Hp]; · iexact Hp
  isplitr; · iempintro
  iexact Hr

end Cert.KernelIdeal.Hand

end
-- ==== Proof.KI.R7.lean ====
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the first linear layer with its column statistics

The body at a grid point reads a block of rows of the two summands, the weight matrix and the bias row, stores the
block of the affine image, and adds the block's column sums and column sums of squares to two running rows kept in
scratch memory: zeroed at the first point, copied to the two statistics outputs at the last point. -/

/-- The zero offsets of a whole-buffer access, as a constant function. -/
theorem k7_hz : (![0, 0] : Fin 2 → Nat) = fun _ => 0 := funext fun a => by fin_cases a <;> rfl

/-- A buffer read after a list of stores whose LAST one overwrote the whole buffer holds that store's payload. -/
theorem k7_read_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A whole-buffer load made after such a list of stores reads the last store's payload. -/
theorem k7_readCov_store {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form -/

/-- The first conditional is taken at the grid's first point: there the running rows are zeroed. -/
abbrev k7_c1 (i : grid7.Coords) : Prop := (Scalar.cmpi .ne (Scalar.extui (Scalar.cmpi .eq (BitVec.ofNat 32 (i 0).val) 0#32)) 0#32) = 1#1
/-- The second at the last point: there the running rows are copied out. -/
abbrev k7_c2 (i : grid7.Coords) : Prop := k7_cond2 i = 1#1

theorem k7_hc1 : ∀ t : Fin cfg7.N, k7_c1 (grid7.coords t) ↔ t.val = 0 :=
  (by decide +kernel : ∀ t : Fin grid7.N, k7_c1 (grid7.coords t) ↔ t.val = 0)
theorem k7_hc2 : ∀ t : Fin cfg7.N, k7_c2 (grid7.coords t) ↔ t.val = 24 :=
  (by decide +kernel : ∀ t : Fin grid7.N, k7_c2 (grid7.coords t) ↔ t.val = 24)

/-- The inputs and the first output are live at every point; the two statistics outputs only at the last. -/
theorem k7_live_0 : ∀ t : Fin cfg7.N, cfg7.idle 0 (grid7.coords t) = false := by decide +kernel
theorem k7_live_1 : ∀ t : Fin cfg7.N, cfg7.idle 1 (grid7.coords t) = false := by decide +kernel
theorem k7_live_2 : ∀ t : Fin cfg7.N, cfg7.idle 2 (grid7.coords t) = false := by decide +kernel
theorem k7_live_3 : ∀ t : Fin cfg7.N, cfg7.idle 3 (grid7.coords t) = false := by decide +kernel
theorem k7_live_4 : ∀ t : Fin cfg7.N, cfg7.idle 4 (grid7.coords t) = false := by decide +kernel
theorem k7_idle_5 : ∀ t : Fin cfg7.N, t.val ≠ 24 → cfg7.idle 5 (grid7.coords t) = true := by decide +kernel
theorem k7_noflush_5 : ∀ t : Fin cfg7.N, t.val ≠ 24 → (cfg7.win 5).flush t = false := by decide +kernel
theorem k7_last_5 : ∀ t : Fin cfg7.N, t.val = 24 → cfg7.idle 5 (grid7.coords t) = false := by decide +kernel
theorem k7_idle_6 : ∀ t : Fin cfg7.N, t.val ≠ 24 → cfg7.idle 6 (grid7.coords t) = true := by decide +kernel
theorem k7_noflush_6 : ∀ t : Fin cfg7.N, t.val ≠ 24 → (cfg7.win 6).flush t = false := by decide +kernel
theorem k7_last_6 : ∀ t : Fin cfg7.N, t.val = 24 → cfg7.idle 6 (grid7.coords t) = false := by decide +kernel

/-- The two scratch rows, as whole memrefs. -/
abbrev k7_sc0 : Memref sig .tc .vmem S1x512 .f32 := Memref.whole cc7_scratch0
abbrev k7_sc1 : Memref sig .tc .vmem S1x512 .f32 := Memref.whole cc7_scratch1

/-! ## The body's triple, one per control case

On whole staging memrefs: the inputs at their contents, the first output at anything, the two statistics outputs handed
back untouched (or, at the last point, overwritten), the two scratch rows at what the point before left. -/

set_option maxHeartbeats 4000000 in
/-- At the first point: the running rows are zeroed, then this block's column sums are added. -/
theorem k7_runA (c : Dev nD) (i : grid7.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : k7_c1 i) (hc2 : ¬ k7_c2 i)
    (x0 : Vec F S2000x256 .f32) (x1 : Vec F S2000x256 .f32) (x2 : Vec F S256x512 .f32) (x3 : Vec F S1x512 .f32)
    (xi5 : Vec F S1x512 .f32) (xi6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k7_pay3 x0 x1 x2 x3)
            ∗ owns (c : Thread nD τ) arg6 fullShare xi5 ∗ owns (c : Thread nD τ) arg7 fullShare xi6
            ∗ owns (c : Thread nD τ) arg8 fullShare (k7_pay4 x0 x1 x2 x3 (k7_pay1 (F := F)))
            ∗ owns (c : Thread nD τ) arg9 fullShare (k7_pay5 x0 x1 x2 x3 (k7_pay2 (F := F)))) -∗ K ⟨⟩))
      ⊢ wp frame (wpE (defs₀ (F := F)) Variants.none c none) E
          (cc7__lin1_stats_kernel i arg1 harg1 arg2 harg2 arg3 harg3 arg4 harg4 arg5 harg5 arg6 harg6 arg7 harg7 arg8 harg8 arg9 harg9) K := by
  simp only [cc7__lin1_stats_kernel_eq_skeleton]; unfold cc7__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  iexists _; isplitr
  swap; · iexact H8
  ipureintro
  sl_unfold_words
  refine (k7_read_store _ _ k7_hz _ _ _).trans ?_
  simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]

set_option maxHeartbeats 4000000 in
/-- At a point between: this block's column sums are added to the running rows. -/
theorem k7_runB (c : Dev nD) (i : grid7.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k7_c1 i) (hc2 : ¬ k7_c2 i)
    (x0 : Vec F S2000x256 .f32) (x1 : Vec F S2000x256 .f32) (x2 : Vec F S256x512 .f32) (x3 : Vec F S1x512 .f32)
    (xi5 : Vec F S1x512 .f32) (xi6 : Vec F S1x512 .f32) (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare xi5 ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k7_pay3 x0 x1 x2 x3)
            ∗ owns (c : Thread nD τ) arg6 fullShare xi5 ∗ owns (c : Thread nD τ) arg7 fullShare xi6
            ∗ owns (c : Thread nD τ) arg8 fullShare (k7_pay4 x0 x1 x2 x3 xs0)
            ∗ owns (c : Thread nD τ) arg9 fullShare (k7_pay5 x0 x1 x2 x3 xs1)) -∗ K ⟨⟩))
      ⊢ wp frame (wpE (defs₀ (F := F)) Variants.none c none) E
          (cc7__lin1_stats_kernel i arg1 harg1 arg2 harg2 arg3 harg3 arg4 harg4 arg5 harg5 arg6 harg6 arg7 harg7 arg8 harg8 arg9 harg9) K := by
  simp only [cc7__lin1_stats_kernel_eq_skeleton]; unfold cc7__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  iexists _; isplitr
  swap; · iexact H8
  ipureintro
  sl_unfold_words
  refine (k7_read_store _ _ k7_hz _ _ _).trans ?_
  simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]

set_option maxHeartbeats 4000000 in
/-- At the last point: the same, and the two running rows are then copied to the statistics outputs. -/
theorem k7_runC (c : Dev nD) (i : grid7.Coords) (E : Set ℕ)
    (arg1 : Memref sig .tc .vmem S2000x256 .f32) (harg1 : arg1.IsWhole) (arg2 : Memref sig .tc .vmem S2000x256 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (arg9 : Memref sig .tc .vmem S1x512 .f32) (harg9 : arg9.IsWhole) (hc1 : ¬ k7_c1 i) (hc2 : k7_c2 i)
    (x0 : Vec F S2000x256 .f32) (x1 : Vec F S2000x256 .f32) (x2 : Vec F S256x512 .f32) (x3 : Vec F S1x512 .f32)
    (xs0 : Vec F S1x512 .f32) (xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k7_pay3 x0 x1 x2 x3)
            ∗ owns (c : Thread nD τ) arg6 fullShare (k7_pay4 x0 x1 x2 x3 xs0) ∗ owns (c : Thread nD τ) arg7 fullShare (k7_pay5 x0 x1 x2 x3 xs1)
            ∗ owns (c : Thread nD τ) arg8 fullShare (k7_pay4 x0 x1 x2 x3 xs0)
            ∗ owns (c : Thread nD τ) arg9 fullShare (k7_pay5 x0 x1 x2 x3 xs1)) -∗ K ⟨⟩))
      ⊢ wp frame (wpE (defs₀ (F := F)) Variants.none c none) E
          (cc7__lin1_stats_kernel i arg1 harg1 arg2 harg2 arg3 harg3 arg4 harg4 arg5 harg5 arg6 harg6 arg7 harg7 arg8 harg8 arg9 harg9) K := by
  simp only [cc7__lin1_stats_kernel_eq_skeleton]; unfold cc7__lin1_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg8.eq_unread hf7; obtain rfl := harg9.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H5]
  · iexists _; isplitr
    swap; · iexact H5
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H6]
  · iexists _; isplitr
    swap; · iexact H6
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  isplitl [H7]
  · iexists _; isplitr
    swap; · iexact H7
    ipureintro
    sl_unfold_words
    refine (k7_read_store _ _ k7_hz _ _ _).trans ?_
    simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]
  iexists _; isplitr
  swap; · iexact H8
  ipureintro
  sl_unfold_words
  refine (k7_read_store _ _ k7_hz _ _ _).trans ?_
  simp only [View.readAt_eq_ld, harg1.read_unread, harg2.read_unread, harg3.read_unread, harg4.read_unread, harg8.read_unread, harg9.read_unread,
      View.ld_unit_zero (S := S2000x256) k7_hz, View.ld_unit_zero (S := S256x512) k7_hz, View.ld_unit_zero (S := S1x512) k7_hz,
      View.readCov_unit_zero (S := S1x512) _ k7_hz, k7_readCov_store]

/-! ## The running rows, point by point -/

/-- One point's step on the two running rows: the block's column sums and column sums of squares added. -/
def k7_step (c : Dev nD) (t : Fin cfg7.N) (a : Vec F S1x512 .f32 × Vec F S1x512 .f32) : Vec F S1x512 .f32 × Vec F S1x512 .f32 :=
  (k7_pay4 (iblk7 V c 0 t) (iblk7 V c 1 t) (iblk7 V c 2 t) (iblk7 V c 3 t) a.1, k7_pay5 (iblk7 V c 0 t) (iblk7 V c 1 t) (iblk7 V c 2 t) (iblk7 V c 3 t) a.2)

/-- The first point, as a point of the grid. -/
abbrev k7_t0 : Fin cfg7.N := ⟨0, by rw [show cfg7.N = 25 from N_7]; decide⟩

/-- The two running rows after point `n`: from the zero rows, one step per point. -/
def k7_acc (c : Dev nD) : ℕ → Vec F S1x512 .f32 × Vec F S1x512 .f32
  | 0 => k7_step V c k7_t0 (k7_pay1 (F := F), k7_pay2 (F := F))
  | n + 1 => if h : n + 1 < cfg7.N then k7_step V c ⟨n + 1, h⟩ (k7_acc c n) else k7_acc c n

theorem k7_acc_zero (c : Dev nD) : k7_acc V c 0 = k7_step V c k7_t0 (k7_pay1 (F := F), k7_pay2 (F := F)) := rfl

theorem k7_acc_succ (c : Dev nD) (n : ℕ) (h : n + 1 < cfg7.N) : k7_acc V c (n + 1) = k7_step V c ⟨n + 1, h⟩ (k7_acc V c n) := by
  rw [k7_acc]; exact dif_pos h

/-- At the first point of the grid. -/
theorem k7_acc_first (c : Dev nD) (t : Fin cfg7.N) (h : t.val = 0) : k7_acc V c t.val = k7_step V c t (k7_pay1 (F := F), k7_pay2 (F := F)) := by
  obtain ⟨n, hn⟩ := t
  obtain rfl : n = 0 := h
  rfl

/-- At a later point. -/
theorem k7_acc_later (c : Dev nD) (t : Fin cfg7.N) (h : t.val ≠ 0) : k7_acc V c t.val = k7_step V c t (k7_acc V c (t.val - 1)) := by
  obtain ⟨n, hn⟩ := t
  cases n with
  | zero => exact absurd rfl h
  | succ n => exact k7_acc_succ V c n hn

/-- The region's invariant before point `n`: before the first point the two scratch rows hold anything; afterwards what
    the point before left; beside them the other scoped buffers, unopened, and the generator register at some state. -/
def k7_Phi (c : Dev nD) : ℕ → sProp 𝕄
  | 0 => iprop((∃ d, owns (c : Thread nD τ) k7_sc0 fullShare d) ∗ (∃ d, owns (c : Thread nD τ) k7_sc1 fullShare d)
      ∗ Pipeline.scopedRestBut (Ix := Unit) (Name := ℕ) (U := UR sig nD τ) (Lvl := ℕ) (Val := Elt F) spec7 c [cc7_scratch0, cc7_scratch1] ∗ ∃ r, prngReg c r)
  | n + 1 => iprop(owns (c : Thread nD τ) k7_sc0 fullShare (k7_acc V c n).1 ∗ owns (c : Thread nD τ) k7_sc1 fullShare (k7_acc V c n).2
      ∗ Pipeline.scopedRestBut (Ix := Unit) (Name := ℕ) (U := UR sig nD τ) (Lvl := ℕ) (Val := Elt F) spec7 c [cc7_scratch0, cc7_scratch1] ∗ ∃ r, prngReg c r)

theorem k7_Phi_zero (c : Dev nD) (n : ℕ) (h : n = 0) : k7_Phi V c n
    = iprop((∃ d, owns (c : Thread nD τ) k7_sc0 fullShare d) ∗ (∃ d, owns (c : Thread nD τ) k7_sc1 fullShare d)
      ∗ Pipeline.scopedRestBut (Ix := Unit) (Name := ℕ) (U := UR sig nD τ) (Lvl := ℕ) (Val := Elt F) spec7 c [cc7_scratch0, cc7_scratch1] ∗ ∃ r, prngReg c r) := by
  subst h; rfl

theorem k7_Phi_succ (c : Dev nD) (n : ℕ) : k7_Phi V c (n + 1)
    = iprop(owns (c : Thread nD τ) k7_sc0 fullShare (k7_acc V c n).1 ∗ owns (c : Thread nD τ) k7_sc1 fullShare (k7_acc V c n).2
      ∗ Pipeline.scopedRestBut (Ix := Unit) (Name := ℕ) (U := UR sig nD τ) (Lvl := ℕ) (Val := Elt F) spec7 c [cc7_scratch0, cc7_scratch1] ∗ ∃ r, prngReg c r) := rfl

theorem k7_Phi_pos (c : Dev nD) (n : ℕ) (h : n ≠ 0) : k7_Phi V c n
    = iprop(owns (c : Thread nD τ) k7_sc0 fullShare (k7_acc V c (n - 1)).1 ∗ owns (c : Thread nD τ) k7_sc1 fullShare (k7_acc V c (n - 1)).2
      ∗ Pipeline.scopedRestBut (Ix := Unit) (Name := ℕ) (U := UR sig nD τ) (Lvl := ℕ) (Val := Elt F) spec7 c [cc7_scratch0, cc7_scratch1] ∗ ∃ r, prngReg c r) := by
  cases n with
  | zero => exact absurd rfl h
  | succ n => rfl

/-! ## The pipeline's proof data -/

/-- The proof data of the region on core `c`: the arrays as the region finds them; after the body at point `t` each
    input's buffer at its block, the first output's at the affine image of the blocks, the statistics outputs' at the
    running rows (consulted at the last point only); the invariant `k7_Phi`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => k7_pay3 (iblk7 V c 0 t) (iblk7 V c 1 t) (iblk7 V c 2 t) (iblk7 V c 3 t)
    | ⟨5, _⟩ => (k7_acc V c t.val).1
    | ⟨6, _⟩ => (k7_acc V c t.val).2
  Φ t := k7_Phi V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = k7_pay3 (iblk7 V c 0 t) (iblk7 V c 1 t) (iblk7 V c 2 t) (iblk7 V c 3 t) := by dsimp only [dat7]
theorem after7_5 (c : Dev nD) (t : Fin cfg7.N) : (dat7 V c).after 5 t = (k7_acc V c t.val).1 := by dsimp only [dat7]
theorem after7_6 (c : Dev nD) (t : Fin cfg7.N) : (dat7 V c).after 6 t = (k7_acc V c t.val).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

theorem k7_Phi_at (c : Dev nD) (t : Fin cfg7.N) : (dat7 V c).Φ t.castSucc = k7_Phi V c t.val := by
  dsimp only [dat7]; simp only [Fin.coe_castSucc]

/-! ## The body obligation -/

/-- What the body is called with at point `t`, the windows one by one, -/
def k7_bodyPre (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def k7_bodyPost (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

theorem k7_leaves_0 (c : Dev nD) (t : Fin cfg7.N) :
    (dat7 V c).leavesExact 0 t = owns (c : Thread nD τ) (st7_0 t) fullShare ((dat7 V c).after 0 t) := by
  unfold Dat.leavesExact; rw [k7_live_0 t]
theorem k7_leaves_1 (c : Dev nD) (t : Fin cfg7.N) :
    (dat7 V c).leavesExact 1 t = owns (c : Thread nD τ) (st7_1 t) fullShare ((dat7 V c).after 1 t) := by
  unfold Dat.leavesExact; rw [k7_live_1 t]
theorem k7_leaves_2 (c : Dev nD) (t : Fin cfg7.N) :
    (dat7 V c).leavesExact 2 t = owns (c : Thread nD τ) (st7_2 t) fullShare ((dat7 V c).after 2 t) := by
  unfold Dat.leavesExact; rw [k7_live_2 t]
theorem k7_leaves_3 (c : Dev nD) (t : Fin cfg7.N) :
    (dat7 V c).leavesExact 3 t = owns (c : Thread nD τ) (st7_3 t) fullShare ((dat7 V c).after 3 t) := by
  unfold Dat.leavesExact; rw [k7_live_3 t]
theorem k7_leaves_4 (c : Dev nD) (t : Fin cfg7.N) :
    (dat7 V c).leavesExact 4 t = owns (c : Thread nD τ) (st7_4 t) fullShare ((dat7 V c).after 4 t) := by
  unfold Dat.leavesExact; rw [k7_live_4 t]
theorem k7_leaves_5 (c : Dev nD) (t : Fin cfg7.N) (h : t.val = 24) :
    (dat7 V c).leavesExact 5 t = owns (c : Thread nD τ) (st7_5 t) fullShare ((dat7 V c).after 5 t) := by
  unfold Dat.leavesExact; rw [k7_last_5 t h]
theorem k7_leaves_6 (c : Dev nD) (t : Fin cfg7.N) (h : t.val = 24) :
    (dat7 V c).leavesExact 6 t = owns (c : Thread nD τ) (st7_6 t) fullShare ((dat7 V c).after 6 t) := by
  unfold Dat.leavesExact; rw [k7_last_6 t h]

set_option maxHeartbeats 4000000 in
/-- The body at any point: the inputs' memrefs hold their blocks; the point's position selects the case; the invariant
    hands the body the two scratch rows at what the point before left (at anything at the first point) and takes them
    back at this point's; a statistics output is handed back untouched at every point but the last. -/
theorem k7_sound_body (c : Dev nD) (t : Fin cfg7.N) :
    k7_bodyPre V c t ⊢ wp frame (wpE (defs₀ (F := F)) Variants.none c none) Set.univ (bodyAt7 t) (fun _ => k7_bodyPost V c t) := by
  unfold k7_bodyPre k7_bodyPost bodyAt7
  simp only [before7_0, before7_1, before7_2, before7_3]
  rw [show (dat7 V c).owesAt () t.succ = (dat7 V c).owesAt () t.castSucc from rfl]
  rw [show (dat7 V c).Φ t.succ = k7_Phi V c (t.val + 1) from rfl, k7_Phi_succ, k7_Phi_at]
  rw [k7_leaves_0, k7_leaves_1, k7_leaves_2, k7_leaves_3, k7_leaves_4, after7_0, after7_1, after7_2, after7_3, after7_4]
  have hN : t.val < 25 := lt_of_lt_of_eq t.isLt N_7
  by_cases h0 : t.val = 0
  · have h24 : t.val ≠ 24 := by omega
    rw [Dat.leavesExact_idle (dat7 V c) 5 t (k7_idle_5 t h24) (k7_noflush_5 t h24),
      Dat.leavesExact_idle (dat7 V c) 6 t (k7_idle_6 t h24) (k7_noflush_6 t h24)]
    rw [k7_acc_first V c t h0, k7_Phi_zero V c _ h0]
    unfold k7_step; dsimp only
    iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
    iapply (k7_runA c (grid7.coords t) Set.univ _ _ _ _ _ _ _ _ _ _ _ _ _ _ _ _ _ _ ((k7_hc1 t).mpr h0) (fun h => h24 ((k7_hc2 t).mp h))
        (iblk7 V c 0 t) (iblk7 V c 1 t) (iblk7 V c 2 t) (iblk7 V c 3 t) ((dat7 V c).before 5 t d5) ((dat7 V c).before 6 t d6) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h24 : t.val = 24
    · rw [k7_leaves_5 V c t h24, k7_leaves_6 V c t h24, after7_5, after7_6]
      rw [k7_acc_later V c t h0, k7_Phi_pos V c _ h0]
      unfold k7_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k7_runC c (grid7.coords t) Set.univ _ _ _ _ _ _ _ _ _ _ _ _ _ _ _ _ _ _ (fun h => h0 ((k7_hc1 t).mp h)) ((k7_hc2 t).mpr h24)
          (iblk7 V c 0 t) (iblk7 V c 1 t) (iblk7 V c 2 t) (iblk7 V c 3 t) (k7_acc V c (t.val - 1)).1 (k7_acc V c (t.val - 1)).2 _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat7 V c) 5 t (k7_idle_5 t h24) (k7_noflush_5 t h24),
        Dat.leavesExact_idle (dat7 V c) 6 t (k7_idle_6 t h24) (k7_noflush_6 t h24)]
      rw [k7_acc_later V c t h0, k7_Phi_pos V c _ h0]
      unfold k7_step; dsimp only
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (k7_runB c (grid7.coords t) Set.univ _ _ _ _ _ _ _ _ _ _ _ _ _ _ _ _ _ _ (fun h => h0 ((k7_hc1 t).mp h)) (fun h => h24 ((k7_hc2 t).mp h))
          (iblk7 V c 0 t) (iblk7 V c 1 t) (iblk7 V c 2 t) (iblk7 V c 3 t) ((dat7 V c).before 5 t d5) ((dat7 V c).before 6 t d6) (k7_acc V c (t.val - 1)).1 (k7_acc V c (t.val - 1)).2 _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact k7_sound_body V c t

theorem q_eq7 (c : Dev nD) : ∀ w, (dat7 V c).q w = fullShare := fun _ => rfl
theorem owed_eq7 (c : Dev nD) : ∀ t, (dat7 V c).owed t = 0 := fun _ => rfl

/-! ## Into the invariant and out of it -/

/-- What the launch hands the region — the generator register and every scoped buffer no window stages — is the
    invariant before the first point: the two scratch rows are split out, at whatever they hold. -/
theorem hin7 (c : Dev nD) :
    (iprop((∃ r, prngReg c r) ∗ Pipeline.prefHeld (pcfgs (F := F) 7).pre c (fun _ => fullShare) (((cfgs 7).toPCfg_adm).1)
      ∗ Pipeline.scopedRest spec7 c) : sProp 𝕄) ⊢ (dat7 V c).Φ 0 := by
  rw [show (dat7 V c).Φ 0 = k7_Phi V c 0 from rfl, k7_Phi_zero V c 0 rfl, scopedRest7_split]
  simp only [k7_sc0, k7_sc1, owns_whole]
  iintro ⟨Hp, -, ⟨⟨HS0, HS1⟩, Hrest⟩⟩
  isplitl [HS0]; · iexact HS0
  isplitl [HS1]; · iexact HS1
  isplitl [Hrest]; · iexact Hrest
  iexact Hp

/-- After the last point the invariant gives them back: what the scratch rows then hold is forgotten. -/
theorem hout7 (c : Dev nD) :
    (dat7 V c).Φ (Fin.last cfg7.N) ⊢ (iprop((∃ r, prngReg c r) ∗ Pipeline.ownSems0 (fun k : PEmpty => k.elim) c
      ∗ Pipeline.scopedRest spec7 c) : sProp 𝕄) := by
  rw [Pipeline.ownSems0_none, show (dat7 V c).Φ (Fin.last cfg7.N) = k7_Phi V c (24 + 1) from rfl, k7_Phi_succ, scopedRest7_split]
  simp only [k7_sc0, k7_sc1, owns_whole]
  iintro ⟨HS0, HS1, Hrest, Hg⟩
  isplitl [Hg]; · iexact Hg
  isplitr; · iempintro
  isplitl [HS0 HS1]
  · isplitl [HS0]; · iexists _; iexact HS0
    iexists _; iexact HS1
  iexact Hrest

end Cert.KernelIdeal.Hand

end
-- ==== Proof.KI.R8.lean ====
/-
  Region 8 of the program: the second linear layer of a GIN block with its batch statistics, one grid of 25 points
  over blocks of 2000 rows.

  At each point the body normalises the block of the first layer's output with the batch mean and variance,
  rectifies it, multiplies by the second weights, adds the bias and the residual block, and stores the result as
  the block of the layer's output. Two scratch rows carry the column sums of that output and of its squares from
  point to point: the first point zeroes them, every point adds its block's column sums, and the last point copies
  them into the two statistics outputs, which no other point touches.

  This module states what each buffer holds after each point (the output block from the input blocks; the scratch
  rows by recursion on the point), proves the body's triple in each of its three cases (first point, a middle
  point, last point), and from them the body obligation of the pipeline's proof data, with the invariant carrying
  the scratch rows at the accumulated sums.
-/
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the second linear layer with batch statistics, at the entry contents `V` -/

/-! ## The body's branch conditions -/

/-- The body's first conditional: the grid coordinate is 0. -/
abbrev dat8_c0 (i : grid8.Coords) : Prop := (Scalar.cmpi .ne (Scalar.extui (Scalar.cmpi .eq (BitVec.ofNat 32 (i 0).val) 0#32)) 0#32) = 1#1
theorem dat8_hc0 : ∀ t : Fin cfg8.N, dat8_c0 (grid8.coords t) ↔ t.val = 0 :=
  (by decide +kernel : ∀ t : Fin grid8.N, dat8_c0 (grid8.coords t) ↔ t.val = 0)
/-- The body's second conditional: the grid coordinate is 24, the last. -/
abbrev dat8_c1 (i : grid8.Coords) : Prop := k8_cond2 i = 1#1
theorem dat8_hc1 : ∀ t : Fin cfg8.N, dat8_c1 (grid8.coords t) ↔ t.val = 24 :=
  (by decide +kernel : ∀ t : Fin grid8.N, dat8_c1 (grid8.coords t) ↔ t.val = 24)
theorem dat8_N : cfg8.N = 25 := by decide

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses: every load and store is of a whole buffer -/

abbrev dat8_rH : Rect S2000x512 := Rect.unit (s := S2000x512) ![0, 0] S2000x512.size inb_S2000x512_S2000x512_0_0
abbrev dat8_rR : Rect S1x512 := Rect.unit (s := S1x512) ![0, 0] S1x512.size inb_S1x512_S1x512_0_0
abbrev dat8_rX : Rect S2000x256 := Rect.unit (s := S2000x256) ![0, 0] S2000x256.size inb_S2000x256_S2000x256_0_0
abbrev dat8_rW : Rect S512x256 := Rect.unit (s := S512x256) ![0, 0] S512x256.size inb_S512x256_S512x256_0_0
abbrev dat8_rS : Rect S1x256 := Rect.unit (s := S1x256) ![0, 0] S1x256.size inb_S1x256_S1x256_0_0

/-- A whole-buffer rectangle holds every index of its shape (its one block tiles the shape). -/
theorem dat8_coverX (p0 : Vec F S2000x256 .f32) (y : S2000x256.Idx) : ∃ pc ∈ ([⟨dat8_rX, p0⟩] : List (View.Piece (Elt F) S2000x256 .f32)), y ∈ pc.1.set :=
  View.cover_of_tiled [⟨dat8_rX, p0⟩] S2000x256.size (by rfl) y
theorem dat8_coverS (p0 : Vec F S1x256 .f32) (y : S1x256.Idx) : ∃ pc ∈ ([⟨dat8_rS, p0⟩] : List (View.Piece (Elt F) S1x256 .f32)), y ∈ pc.1.set :=
  View.cover_of_tiled [⟨dat8_rS, p0⟩] S1x256.size (by rfl) y
theorem dat8_memX (y : S2000x256.Idx) : y ∈ dat8_rX.set := by
  obtain ⟨pc, hpc, hy⟩ := View.cover_of_tiled ([⟨dat8_rX, fun _ => ()⟩] : List (View.Piece (fun _ => Unit) S2000x256 .f32)) S2000x256.size (by rfl) y
  rw [List.mem_singleton] at hpc; subst hpc; exact hy
theorem dat8_memS (y : S1x256.Idx) : y ∈ dat8_rS.set := by
  obtain ⟨pc, hpc, hy⟩ := View.cover_of_tiled ([⟨dat8_rS, fun _ => ()⟩] : List (View.Piece (fun _ => Unit) S1x256 .f32)) S1x256.size (by rfl) y
  rw [List.mem_singleton] at hpc; subst hpc; exact hy

/-- What a store through a rectangle holding every index leaves, whatever the buffer held and whatever
    earlier stores wrote: its payload, as the one-piece canonical contents. -/
theorem dat8_read_whole {κ : Kind} {sp : Space} {s : Shape} {e : EltTy} (v : View sig κ sp s e) (f : v.ty.Contents (Elt F)) (r : Rect s)
    (hr : ∀ y : s.Idx, y ∈ r.set) (w w' : r.shape.Idx → Elt F e) (L : List (View.Piece (Elt F) s e)) (h : w = w') :
    v.read (Elt F) (v.writes (Elt F) f (⟨r, w⟩ :: L)) = View.canon [⟨r, w'⟩] := by
  subst h
  funext y
  obtain ⟨x, rfl⟩ : ∃ x, r.emb x = y := r.exists_idx_of_mem (hr y)
  rw [View.read_writes_cons_emb, View.canon_cons_emb]

/-! ## What the body leaves in the output windows' buffers and in the two scratch rows -/

/-- The normalised, rectified first layer times the second weights plus the bias (`%34`), of the input blocks. -/
def dat8_v34 (x0 : Vec F S2000x512 .f32) (x1 : Vec F S1x512 .f32) (x2 : Vec F S1x512 .f32) (x3 : Vec F S1x512 .f32) (x4 : Vec F S1x512 .f32) (x6 : Vec F S512x256 .f32) (x7 : Vec F S1x256 .f32) : FVec F S2000x256 .f32 :=
  k8_pay6 (View.ld x2 dat8_rR) (View.ld x3 dat8_rR) (View.ld x0 dat8_rH) (View.ld x1 dat8_rR) (View.ld x4 dat8_rR) (View.ld x6 dat8_rW) (View.ld x7 dat8_rS)
/-- The residual operand (`%36`). -/
def dat8_v36 (x5 : Vec F S2000x256 .f32) : FVec F S2000x256 .f32 := k8_pay7 (View.ld x5 dat8_rX)
/-- Output window 8's buffer after the body: the block of the layer's output (`%37`). -/
def dat8_o8 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) : Vec F S2000x256 .f32 :=
  View.canon [⟨dat8_rX, k8_pay1 (dat8_v34 x0 x1 x2 x3 x4 x6 x7) (dat8_v36 x5)⟩]
/-- The first scratch row after the body, from what it held (`a`): the block's column sums added. -/
def dat8_s0 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat8_rS, k8_pay2 (dat8_v34 x0 x1 x2 x3 x4 x6 x7) (dat8_v36 x5) (View.ld a dat8_rS)⟩]
/-- The second scratch row after the body, from what it held: the block's column sums of squares added. -/
def dat8_s1 (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a : Vec F S1x256 .f32) : Vec F S1x256 .f32 :=
  View.canon [⟨dat8_rS, k8_pay3 (dat8_v34 x0 x1 x2 x3 x4 x6 x7) (dat8_v36 x5) (View.ld a dat8_rS)⟩]
/-- The scratch rows as the first point zeroes them. -/
def dat8_z0 : Vec F S1x256 .f32 := View.canon [⟨dat8_rS, k8_pay4 (F := F)⟩]
def dat8_z1 : Vec F S1x256 .f32 := View.canon [⟨dat8_rS, k8_pay5 (F := F)⟩]
/-- A statistics window's buffer after the last point: the scratch row copied. -/
def dat8_o9 (a : Vec F S1x256 .f32) : Vec F S1x256 .f32 := View.canon [⟨dat8_rS, View.ld a dat8_rS⟩]

set_option maxHeartbeats 4000000 in
/-- The body at a point that is neither the first nor the last (no conditional taken): from the inputs' buffers at
    their contents and the scratch rows at `a0`, `a1`, it leaves the inputs as they were, window 8 at the
    layer's output block, and the scratch rows with the block's column sums added. The statistics windows
    are not touched. -/
theorem dat8_runB (c : Dev nD) (E : Set ℕ) (i : grid8.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat8_c0 i) (hc1 : ¬dat8_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat8_o8 x0 x1 x2 x3 x4 x5 x6 x7) ∗ owns (c : Thread nD τ) arg12 fullShare (dat8_s0 x0 x1 x2 x3 x4 x5 x6 x7 a0) ∗ owns (c : Thread nD τ) arg13 fullShare (dat8_s1 x0 x1 x2 x3 x4 x5 x6 x7 a1)) -∗ K ⟨⟩))
      ⊢ wp frame (wpE (defs₀ (F := F)) Variants.none c none) E (cc8__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc8__lin2_stats_kernel_eq_skeleton]; unfold cc8__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat8_read_whole _ _ _ dat8_memX _ _ _ rfl
  isplitl [HS0]
  · iexists _; isplitr
    swap; · iexact HS0
    ipureintro
    exact dat8_read_whole _ _ _ dat8_memS _ _ _ rfl
  iexists _; isplitr
  swap; · iexact HS1
  ipureintro
  exact dat8_read_whole _ _ _ dat8_memS _ _ _ rfl

set_option maxHeartbeats 4000000 in
/-- The body at the first point (the first conditional taken, the second not): the scratch rows, at anything,
    are zeroed and then take the block's column sums. -/
theorem dat8_runA (c : Dev nD) (E : Set ℕ) (i : grid8.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : dat8_c0 i) (hc1 : ¬dat8_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat8_o8 x0 x1 x2 x3 x4 x5 x6 x7) ∗ owns (c : Thread nD τ) arg12 fullShare (dat8_s0 x0 x1 x2 x3 x4 x5 x6 x7 dat8_z0) ∗ owns (c : Thread nD τ) arg13 fullShare (dat8_s1 x0 x1 x2 x3 x4 x5 x6 x7 dat8_z1)) -∗ K ⟨⟩))
      ⊢ wp frame (wpE (defs₀ (F := F)) Variants.none c none) E (cc8__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc8__lin2_stats_kernel_eq_skeleton]; unfold cc8__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%da0, %fa0, -, HS0⟩, ⟨%da1, %fa1, -, HS1⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat8_read_whole _ _ _ dat8_memX _ _ _ rfl
  isplitl [HS0]
  · iexists _; isplitr
    swap; · iexact HS0
    ipureintro
    exact dat8_read_whole _ _ _ dat8_memS _ _ _
      (congrArg (k8_pay2 _ _) (View.readCov_eq_canon_ld _ _ _ (dat8_coverS _)))
  iexists _; isplitr
  swap; · iexact HS1
  ipureintro
  exact dat8_read_whole _ _ _ dat8_memS _ _ _
    (congrArg (k8_pay3 _ _) (View.readCov_eq_canon_ld _ _ _ (dat8_coverS _)))

set_option maxHeartbeats 4000000 in
/-- The body at the last point (the second conditional taken, the first not): as at a middle point, and then
    the two scratch rows are copied into the statistics windows 9 and 10. -/
theorem dat8_runC (c : Dev nD) (E : Set ℕ) (i : grid8.Coords)
    (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S2000x256 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S2000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬dat8_c0 i) (hc1 : dat8_c1 i)
    (x0 : Vec F S2000x512 .f32) (x1 : Vec F S1x512 .f32) (x2 : Vec F S1x512 .f32) (x3 : Vec F S1x512 .f32) (x4 : Vec F S1x512 .f32) (x5 : Vec F S2000x256 .f32) (x6 : Vec F S512x256 .f32) (x7 : Vec F S1x256 .f32) (a0 : Vec F S1x256 .f32) (a1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare a0 ∗ owns (c : Thread nD τ) arg13 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (dat8_o8 x0 x1 x2 x3 x4 x5 x6 x7) ∗ owns (c : Thread nD τ) arg10 fullShare (dat8_o9 (dat8_s0 x0 x1 x2 x3 x4 x5 x6 x7 a0)) ∗ owns (c : Thread nD τ) arg11 fullShare (dat8_o9 (dat8_s1 x0 x1 x2 x3 x4 x5 x6 x7 a1))
            ∗ owns (c : Thread nD τ) arg12 fullShare (dat8_s0 x0 x1 x2 x3 x4 x5 x6 x7 a0) ∗ owns (c : Thread nD τ) arg13 fullShare (dat8_s1 x0 x1 x2 x3 x4 x5 x6 x7 a1)) -∗ K ⟨⟩))
      ⊢ wp frame (wpE (defs₀ (F := F)) Variants.none c none) E (cc8__lin2_stats_kernel i arg1 harg1 arg2 harg2 arg3 harg3 arg4 harg4 arg5 harg5 arg6 harg6 arg7 harg7 arg8 harg8 arg9 harg9 arg10 harg10 arg11 harg11 arg12 harg12 arg13 harg13) K := by
  simp only [cc8__lin2_stats_kernel_eq_skeleton]; unfold cc8__lin2_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fa0, %hfa0, HS0⟩, ⟨%fa1, %hfa1, HS1⟩, Hk⟩
  subst hf0; subst hf1; subst hf2; subst hf3; subst hf4; subst hf5; subst hf6; subst hf7; subst hfa0; subst hfa1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact dat8_read_whole _ _ _ dat8_memX _ _ _ rfl
  isplitl [H9]
  · iexists _; isplitr
    swap; · iexact H9
    ipureintro
    exact dat8_read_whole _ _ _ dat8_memS _ _ _
      (View.readCov_eq_canon_ld _ _ _ (dat8_coverS _))
  isplitl [H10]
  · iexists _; isplitr
    swap; · iexact H10
    ipureintro
    exact dat8_read_whole _ _ _ dat8_memS _ _ _
      (View.readCov_eq_canon_ld _ _ _ (dat8_coverS _))
  isplitl [HS0]
  · iexists _; isplitr
    swap; · iexact HS0
    ipureintro
    exact dat8_read_whole _ _ _ dat8_memS _ _ _ rfl
  iexists _; isplitr
  swap; · iexact HS1
  ipureintro
  exact dat8_read_whole _ _ _ dat8_memS _ _ _ rfl

/-! ## The blocks' contributions, point by point -/

/-- Window 8's buffer after the body at point `t`: the output block of the input blocks there. -/
def dat8_O8 (c : Dev nD) (t : Fin cfg8.N) : Vec F S2000x256 .f32 := dat8_o8 (iblk8 V c 0 t) (iblk8 V c 1 t) (iblk8 V c 2 t) (iblk8 V c 3 t) (iblk8 V c 4 t) (iblk8 V c 5 t) (iblk8 V c 6 t) (iblk8 V c 7 t)
/-- The first scratch row after the body at point `t`, from what it held. -/
def dat8_S0 (c : Dev nD) (t : Fin cfg8.N) (a : Vec F S1x256 .f32) : Vec F S1x256 .f32 := dat8_s0 (iblk8 V c 0 t) (iblk8 V c 1 t) (iblk8 V c 2 t) (iblk8 V c 3 t) (iblk8 V c 4 t) (iblk8 V c 5 t) (iblk8 V c 6 t) (iblk8 V c 7 t) a
/-- The second scratch row after the body at point `t`, from what it held. -/
def dat8_S1 (c : Dev nD) (t : Fin cfg8.N) (a : Vec F S1x256 .f32) : Vec F S1x256 .f32 := dat8_s1 (iblk8 V c 0 t) (iblk8 V c 1 t) (iblk8 V c 2 t) (iblk8 V c 3 t) (iblk8 V c 4 t) (iblk8 V c 5 t) (iblk8 V c 6 t) (iblk8 V c 7 t) a

/-- THE ACCUMULATION. What the two scratch rows hold after the body at position `n`: from zero at the first point,
    each point adds its block's column sums (of the values, of their squares) to what the point before left. -/
def dat8_acc (c : Dev nD) : (n : ℕ) → n < cfg8.N → Vec F S1x256 .f32 × Vec F S1x256 .f32
  | 0, hn => (dat8_S0 V c ⟨0, hn⟩ dat8_z0, dat8_S1 V c ⟨0, hn⟩ dat8_z1)
  | n + 1, hn => (dat8_S0 V c ⟨n + 1, hn⟩ (dat8_acc c n (Nat.lt_of_succ_lt hn)).1, dat8_S1 V c ⟨n + 1, hn⟩ (dat8_acc c n (Nat.lt_of_succ_lt hn)).2)

theorem dat8_acc_zero (c : Dev nD) (t : Fin cfg8.N) (h : t.val = 0) :
    dat8_acc V c t.val t.isLt = (dat8_S0 V c t dat8_z0, dat8_S1 V c t dat8_z1) := by
  obtain ⟨n, hn⟩ := t
  cases n with
  | zero => rfl
  | succ n => exact absurd h (Nat.succ_ne_zero n)

theorem dat8_acc_pos (c : Dev nD) (t : Fin cfg8.N) (h : t.val ≠ 0) :
    dat8_acc V c t.val t.isLt = (dat8_S0 V c t (dat8_acc V c (t.val - 1) (Nat.lt_of_le_of_lt (Nat.sub_le _ _) t.isLt)).1,
      dat8_S1 V c t (dat8_acc V c (t.val - 1) (Nat.lt_of_le_of_lt (Nat.sub_le _ _) t.isLt)).2) := by
  obtain ⟨n, hn⟩ := t
  cases n with
  | zero => exact absurd rfl h
  | succ n => rfl

/-! ## The region invariant -/

/-- The scratch rows as memrefs: whole scoped buffers of the kernel's own. -/
abbrev dat8_scM0 : Memref sig .tc .vmem S1x256 .f32 := Memref.whole cc8_scratch0
abbrev dat8_scM1 : Memref sig .tc .vmem S1x256 .f32 := Memref.whole cc8_scratch1

/-- Every other scoped buffer of the core, unopened. -/
abbrev dat8_rest (c : Dev nD) : sProp 𝕄 :=
  Pipeline.scopedRestBut (Ix := Unit) (Name := ℕ) (U := UR sig nD τ) (Lvl := ℕ) (Val := Elt F) spec8 c [cc8_scratch0, cc8_scratch1]

/-- The invariant before position `n`: before the first point every scoped buffer that is no staging buffer at
    anything and the generator register at some state; afterwards the two scratch rows at what the point before
    left (`dat8_acc`), the other scoped buffers unopened, the generator register at some state. -/
def dat8_Phi (c : Dev nD) : (n : ℕ) → n ≤ cfg8.N → sProp 𝕄
  | 0, _ => Pipeline.ΦA spec8 c
  | n + 1, hn => iprop(iprop(iprop(owns (c : Thread nD τ) dat8_scM0 fullShare (dat8_acc V c n hn).1 ∗ owns (c : Thread nD τ) dat8_scM1 fullShare (dat8_acc V c n hn).2) ∗ dat8_rest c) ∗ (∃ r, prngReg c r))

theorem dat8_Phi_zero (c : Dev nD) (n : ℕ) (h : n ≤ cfg8.N) (hz : n = 0) : dat8_Phi V c n h = Pipeline.ΦA spec8 c := by
  subst hz; rfl

theorem dat8_Phi_succ (c : Dev nD) (n : ℕ) (hn : n < cfg8.N) :
    dat8_Phi V c (n + 1) hn = iprop(iprop(iprop(owns (c : Thread nD τ) dat8_scM0 fullShare (dat8_acc V c n hn).1 ∗ owns (c : Thread nD τ) dat8_scM1 fullShare (dat8_acc V c n hn).2) ∗ dat8_rest c) ∗ (∃ r, prngReg c r)) := rfl

theorem dat8_Phi_pos (c : Dev nD) (n : ℕ) (h : n ≤ cfg8.N) (hz : n ≠ 0) :
    dat8_Phi V c n h = iprop(iprop(iprop(owns (c : Thread nD τ) dat8_scM0 fullShare (dat8_acc V c (n - 1) (by omega)).1 ∗ owns (c : Thread nD τ) dat8_scM1 fullShare (dat8_acc V c (n - 1) (by omega)).2) ∗ dat8_rest c) ∗ (∃ r, prngReg c r)) := by
  cases n with
  | zero => exact absurd rfl hz
  | succ n => rfl

/-- The first point's invariant with the two scratch rows as memrefs owned at some contents. -/
theorem dat8_PhiA_eq (c : Dev nD) :
    (Pipeline.ΦA spec8 c : sProp 𝕄)
      = iprop(iprop(iprop((∃ d, owns (c : Thread nD τ) dat8_scM0 fullShare d) ∗ (∃ d, owns (c : Thread nD τ) dat8_scM1 fullShare d)) ∗ dat8_rest c) ∗ (∃ r, prngReg c r)) := by
  unfold Pipeline.ΦA; rw [scopedRest8_split]; simp only [dat8_scM0, dat8_scM1, owns_whole]; try rfl

/-! ## The pipeline's proof data -/

/-- The proof data of the pipeline on core `c`: the arrays as the region finds them (`V`); after the body at point
    `t` each input's buffer at its block, window 8's at the output block, the statistics windows' at the copied
    accumulators (read at the last point only: elsewhere they are idle); the invariant `dat8_Phi`; nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => dat8_O8 V c t
    | ⟨9, _⟩ => dat8_o9 (dat8_acc V c t.val t.isLt).1
    | ⟨10, _⟩ => dat8_o9 (dat8_acc V c t.val t.isLt).2
  Φ t := dat8_Phi V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem q_eq8 (c : Dev nD) : ∀ w, (dat8 V c).q w = fullShare := fun _ => rfl
theorem owed_eq8 (c : Dev nD) : ∀ t, (dat8 V c).owed t = 0 := fun _ => rfl

theorem dat8_Phi_castSucc (c : Dev nD) (t : Fin cfg8.N) :
    (dat8 V c).Φ t.castSucc = dat8_Phi V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = dat8_O8 V c t := by dsimp only [dat8]
theorem after8_9 (c : Dev nD) (t : Fin cfg8.N) : (dat8 V c).after 9 t = dat8_o9 (dat8_acc V c t.val t.isLt).1 := by dsimp only [dat8]
theorem after8_10 (c : Dev nD) (t : Fin cfg8.N) : (dat8 V c).after 10 t = dat8_o9 (dat8_acc V c t.val t.isLt).2 := by dsimp only [dat8]

/-- Each input's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl) (fun t => by rw [after8_3]; unfold Dat.blockOf iblk8; rw [A_eq8]; try rfl) t d).trans
    (by unfold Dat.fetched Dat.blockOf iblk8; rw [A_eq8]; try rfl)
theorem before8_4 (c : Dev nD) (t : Fin cfg8.N) (d) : (dat8 V c).before 4 t d = iblk8 V c 4 t :=
  ((dat8 V c).before_in_eq_fetched 4 rfl (fun _ => rfl) (fun _ _ _ => rfl) (fun t => by rw [after8_4]; unfold Dat.blockOf iblk8; rw [A_eq8]; try rfl) t d).trans
    (by unfold Dat.fetched Dat.blockOf iblk8; rw [A_eq8]; try rfl)
theorem before8_5 (c : Dev nD) (t : Fin cfg8.N) (d) : (dat8 V c).before 5 t d = iblk8 V c 5 t :=
  ((dat8 V c).before_in_eq_fetched 5 rfl (fun _ => rfl) (fun _ _ _ => rfl) (fun t => by rw [after8_5]; unfold Dat.blockOf iblk8; rw [A_eq8]; try rfl) t d).trans
    (by unfold Dat.fetched Dat.blockOf iblk8; rw [A_eq8]; try rfl)
theorem before8_6 (c : Dev nD) (t : Fin cfg8.N) (d) : (dat8 V c).before 6 t d = iblk8 V c 6 t :=
  ((dat8 V c).before_in_eq_fetched 6 rfl (fun _ => rfl) (fun _ _ _ => rfl) (fun t => by rw [after8_6]; unfold Dat.blockOf iblk8; rw [A_eq8]; try rfl) t d).trans
    (by unfold Dat.fetched Dat.blockOf iblk8; rw [A_eq8]; try rfl)
theorem before8_7 (c : Dev nD) (t : Fin cfg8.N) (d) : (dat8 V c).before 7 t d = iblk8 V c 7 t :=
  ((dat8 V c).before_in_eq_fetched 7 rfl (fun _ => rfl) (fun _ _ _ => rfl) (fun t => by rw [after8_7]; unfold Dat.blockOf iblk8; rw [A_eq8]; try rfl) t d).trans
    (by unfold Dat.fetched Dat.blockOf iblk8; rw [A_eq8]; try rfl)

/-! ## Where the windows are idle -/

theorem dat8_live0 : ∀ t : Fin cfg8.N, cfg8.idle 0 (grid8.coords t) = false := fun _ => rfl
theorem dat8_live1 : ∀ t : Fin cfg8.N, cfg8.idle 1 (grid8.coords t) = false := fun _ => rfl
theorem dat8_live2 : ∀ t : Fin cfg8.N, cfg8.idle 2 (grid8.coords t) = false := fun _ => rfl
theorem dat8_live3 : ∀ t : Fin cfg8.N, cfg8.idle 3 (grid8.coords t) = false := fun _ => rfl
theorem dat8_live4 : ∀ t : Fin cfg8.N, cfg8.idle 4 (grid8.coords t) = false := fun _ => rfl
theorem dat8_live5 : ∀ t : Fin cfg8.N, cfg8.idle 5 (grid8.coords t) = false := fun _ => rfl
theorem dat8_live6 : ∀ t : Fin cfg8.N, cfg8.idle 6 (grid8.coords t) = false := fun _ => rfl
theorem dat8_live7 : ∀ t : Fin cfg8.N, cfg8.idle 7 (grid8.coords t) = false := fun _ => rfl
theorem dat8_live8 : ∀ t : Fin cfg8.N, cfg8.idle 8 (grid8.coords t) = false := fun _ => rfl
/-- Off the last point the body stores nothing into window 9, and the pipeline does not write it back. -/
theorem dat8_idle9 : ∀ t : Fin cfg8.N, ¬dat8_c1 (grid8.coords t) → cfg8.idle 9 (grid8.coords t) = true := by decide +kernel
theorem dat8_noFlush9 : ∀ t : Fin cfg8.N, ¬dat8_c1 (grid8.coords t) → (cfg8.win 9).flush t = false := by decide +kernel
/-- At the last point it does. -/
theorem dat8_live9 : ∀ t : Fin cfg8.N, dat8_c1 (grid8.coords t) → cfg8.idle 9 (grid8.coords t) = false := by decide +kernel
/-- Off the last point the body stores nothing into window 10, and the pipeline does not write it back. -/
theorem dat8_idle10 : ∀ t : Fin cfg8.N, ¬dat8_c1 (grid8.coords t) → cfg8.idle 10 (grid8.coords t) = true := by decide +kernel
theorem dat8_noFlush10 : ∀ t : Fin cfg8.N, ¬dat8_c1 (grid8.coords t) → (cfg8.win 10).flush t = false := by decide +kernel
/-- At the last point it does. -/
theorem dat8_live10 : ∀ t : Fin cfg8.N, dat8_c1 (grid8.coords t) → cfg8.idle 10 (grid8.coords t) = false := by decide +kernel

/-! ## The body obligation, at a generic point -/

/-- What the body is called with at point `t`, the windows one by one, -/
def dat8_pre (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d)))

/-- and what it returns. -/
def dat8_post (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t
    ∗ (dat8 V c).leavesExact 10 t)

set_option maxHeartbeats 4800000 in
/-- The body at any point: the inputs' memrefs hold their blocks; the point is the first, a middle one or the last,
    which decides the body's two conditionals; the invariant hands the body the scratch rows at what the point
    before left (at anything at the first point) and takes them back at this point's accumulators; off the
    last point the statistics windows pass by untouched; the core owes nothing throughout. -/
theorem dat8_sound_body (c : Dev nD) (t : Fin cfg8.N) :
    dat8_pre V c t ⊢ wp frame (wpE (defs₀ (F := F)) Variants.none c none) Set.univ (bodyAt8 t) (fun _ => dat8_post V c t) := by
  unfold dat8_pre dat8_post bodyAt8
  simp only [before8_0, before8_1, before8_2, before8_3, before8_4, before8_5, before8_6, before8_7]
  rw [show (dat8 V c).owesAt () t.succ = (dat8 V c).owesAt () t.castSucc from rfl]
  rw [show (dat8 V c).Φ t.succ = dat8_Phi V c (t.val + 1) t.isLt from rfl, dat8_Phi_succ]
  rw [show (dat8 V c).leavesExact 0 t = owns (c : Thread nD τ) (st8_0 t) fullShare ((dat8 V c).after 0 t) from by
    unfold Dat.leavesExact; rw [dat8_live0 t], after8_0]
  rw [show (dat8 V c).leavesExact 1 t = owns (c : Thread nD τ) (st8_1 t) fullShare ((dat8 V c).after 1 t) from by
    unfold Dat.leavesExact; rw [dat8_live1 t], after8_1]
  rw [show (dat8 V c).leavesExact 2 t = owns (c : Thread nD τ) (st8_2 t) fullShare ((dat8 V c).after 2 t) from by
    unfold Dat.leavesExact; rw [dat8_live2 t], after8_2]
  rw [show (dat8 V c).leavesExact 3 t = owns (c : Thread nD τ) (st8_3 t) fullShare ((dat8 V c).after 3 t) from by
    unfold Dat.leavesExact; rw [dat8_live3 t], after8_3]
  rw [show (dat8 V c).leavesExact 4 t = owns (c : Thread nD τ) (st8_4 t) fullShare ((dat8 V c).after 4 t) from by
    unfold Dat.leavesExact; rw [dat8_live4 t], after8_4]
  rw [show (dat8 V c).leavesExact 5 t = owns (c : Thread nD τ) (st8_5 t) fullShare ((dat8 V c).after 5 t) from by
    unfold Dat.leavesExact; rw [dat8_live5 t], after8_5]
  rw [show (dat8 V c).leavesExact 6 t = owns (c : Thread nD τ) (st8_6 t) fullShare ((dat8 V c).after 6 t) from by
    unfold Dat.leavesExact; rw [dat8_live6 t], after8_6]
  rw [show (dat8 V c).leavesExact 7 t = owns (c : Thread nD τ) (st8_7 t) fullShare ((dat8 V c).after 7 t) from by
    unfold Dat.leavesExact; rw [dat8_live7 t], after8_7]
  rw [show (dat8 V c).leavesExact 8 t = owns (c : Thread nD τ) (st8_8 t) fullShare ((dat8 V c).after 8 t) from by
    unfold Dat.leavesExact; rw [dat8_live8 t], after8_8]
  have hN : t.val < 25 := lt_of_lt_of_eq t.isLt dat8_N
  by_cases h0 : t.val = 0
  · have h1 : ¬t.val = 24 := by omega
    have hc0 : dat8_c0 (grid8.coords t) := (dat8_hc0 t).mpr h0
    have hc1 : ¬dat8_c1 (grid8.coords t) := fun h => h1 ((dat8_hc1 t).mp h)
    rw [Dat.leavesExact_idle (dat8 V c) 9 t (dat8_idle9 t hc1) (dat8_noFlush9 t hc1),
      Dat.leavesExact_idle (dat8 V c) 10 t (dat8_idle10 t hc1) (dat8_noFlush10 t hc1)]
    rw [dat8_acc_zero V c t h0]
    rw [dat8_Phi_castSucc V c t, dat8_Phi_zero V c _ _ h0, dat8_PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (dat8_runA c Set.univ (grid8.coords t) _ _ _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) (iblk8 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hpos : dat8_acc V c t.val t.isLt = _ := dat8_acc_pos V c t h0
    by_cases h1 : t.val = 24
    · have hc0 : ¬dat8_c0 (grid8.coords t) := fun h => h0 ((dat8_hc0 t).mp h)
      have hc1 : dat8_c1 (grid8.coords t) := (dat8_hc1 t).mpr h1
      rw [show (dat8 V c).leavesExact 9 t = owns (c : Thread nD τ) (st8_9 t) fullShare ((dat8 V c).after 9 t) from by
        unfold Dat.leavesExact; rw [dat8_live9 t hc1], after8_9]
      rw [show (dat8 V c).leavesExact 10 t = owns (c : Thread nD τ) (st8_10 t) fullShare ((dat8 V c).after 10 t) from by
        unfold Dat.leavesExact; rw [dat8_live10 t hc1], after8_10]
      rw [hpos]
      rw [dat8_Phi_castSucc V c t, dat8_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat8_runC c Set.univ (grid8.coords t) _ _ _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) (iblk8 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · icases H9 with ⟨%d9, H9⟩; iexists _; iexact H9
      isplitl [H10]; · icases H10 with ⟨%d10, H10⟩; iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬dat8_c0 (grid8.coords t) := fun h => h0 ((dat8_hc0 t).mp h)
      have hc1 : ¬dat8_c1 (grid8.coords t) := fun h => h1 ((dat8_hc1 t).mp h)
      rw [Dat.leavesExact_idle (dat8 V c) 9 t (dat8_idle9 t hc1) (dat8_noFlush9 t hc1),
        Dat.leavesExact_idle (dat8 V c) 10 t (dat8_idle10 t hc1) (dat8_noFlush10 t hc1)]
      rw [hpos]
      rw [dat8_Phi_castSucc V c t, dat8_Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply (dat8_runB c Set.univ (grid8.coords t) _ _ _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) (iblk8 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation8 (c : Dev nD) : BodyObligation (dat8 (F := F) V c) (defs₀ (F := F)) Variants.none () Set.univ := fun t => by
  rw [bigSep_W8, bigSep_W8]
  exact dat8_sound_body V c t

/-! ## Into the invariant and out of it -/

/-- What the region is entered with is the invariant before the first point (the prefetched tables, none here,
    are not used). -/
theorem hin8 (c : Dev nD) : iprop((∃ r, prngReg c r) ∗ Pipeline.prefHeld (pcfgs (F := F) 8).pre c (fun _ => fullShare) (((cfgs 8).toPCfg_adm).1) ∗ Pipeline.scopedRest spec8 c) ⊢ (dat8 V c).Φ 0 := by
  rw [show (dat8 V c).Φ 0 = Pipeline.ΦA spec8 c from rfl]; unfold Pipeline.ΦA
  iintro ⟨Hp, -, Hr⟩
  isplitl [Hr]; · iexact Hr
  iexact Hp

/-- After the last point the invariant gives the scoped buffers back: the scratch rows' named contents are forgotten. -/
theorem hout8 (c : Dev nD) : (dat8 V c).Φ (Fin.last cfg8.N) ⊢ iprop((∃ r, prngReg c r) ∗ Pipeline.ownSems0 (fun k : PEmpty => k.elim) c ∗ Pipeline.scopedRest spec8 c) := by
  rw [Pipeline.ownSems0_none, show (dat8 V c).Φ (Fin.last cfg8.N) = dat8_Phi V c (Fin.last cfg8.N).val (Nat.le_of_lt_succ (Fin.last cfg8.N).isLt) from rfl,
    dat8_Phi_pos V c _ _ (by rw [Fin.val_last]; have : cfg8.N = 25 := dat8_N; omega), scopedRest8_split]
  simp only [dat8_scM0, dat8_scM1, owns_whole]
  iintro ⟨⟨⟨HS0, HS1⟩, Hrest⟩, Hg⟩
  isplitl [Hg]; · iexact Hg
  isplitr; · iempintro
  isplitl [HS0 HS1]
  · isplitl [HS0]; · iexists _; iexact HS0
    iexists _; iexact HS1
  iexact Hrest

end Cert.KernelIdeal.Hand

end
-- ==== Proof.KI.R9.lean ====
/-
  Region 9 of the idealized kernel's @main: the batch-norm finalize kernel
  out = g·(h − mean)·rsqrt(var + eps) + beta, one grid point per block of 2000 rows.
  At the buffer contents V the region is entered with: each window's block at a point, what the body leaves in the
  output window's buffer (its one whole-block store of the payload of the five loaded blocks), the body's triple, the
  pipeline's proof data and the body obligation, and the invariant at the region's two ends.
-/
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place: where the window is not fetched its block index
    has not moved, so the buffer still holds the previous point's block, which is this point's. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s and whose body leaves the block in place: where the window is not fetched its block index
    has not moved, so the buffer still holds the previous point's block, which is this point's. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s and whose body leaves the block in place: where the window is not fetched its block index
    has not moved, so the buffer still holds the previous point's block, which is this point's. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s and whose body leaves the block in place: where the window is not fetched its block index
    has not moved, so the buffer still holds the previous point's block, which is this point's. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s and whose body leaves the block in place: where the window is not fetched its block index
    has not moved, so the buffer still holds the previous point's block, which is this point's. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take the whole block -/

abbrev r9_0 : Rect S2000x256 := Rect.unit (s := S2000x256) ![0, 0] S2000x256.size inb_S2000x256_S2000x256_0_0
abbrev r9_1 : Rect S1x256 := Rect.unit (s := S1x256) ![0, 0] S1x256.size inb_S1x256_S1x256_0_0
abbrev r9_2 : Rect S1x256 := Rect.unit (s := S1x256) ![0, 0] S1x256.size inb_S1x256_S1x256_0_0
abbrev r9_3 : Rect S1x256 := Rect.unit (s := S1x256) ![0, 0] S1x256.size inb_S1x256_S1x256_0_0
abbrev r9_4 : Rect S1x256 := Rect.unit (s := S1x256) ![0, 0] S1x256.size inb_S1x256_S1x256_0_0
abbrev r9_5 : Rect S2000x256 := Rect.unit (s := S2000x256) ![0, 0] S2000x256.size inb_S2000x256_S2000x256_0_0

/-! ## What the body leaves in the output window's buffer -/

/-- Window 5's staging buffer after the body, from the input windows' blocks: its one store, of the payload
    computed from the loaded blocks. -/
def out9_5 (xa : Vec F S2000x256 .f32) (xb : Vec F S1x256 .f32) (xc : Vec F S1x256 .f32) (xd : Vec F S1x256 .f32) (xe : Vec F S1x256 .f32) : Vec F S2000x256 .f32 :=
  View.canon [⟨r9_5, k9_pay1 (View.ld xc r9_2) (View.ld xd r9_3) (View.ld xa r9_0) (View.ld xb r9_1) (View.ld xe r9_4)⟩]

/-- The store takes the whole buffer, so it covers it. -/
theorem cover9_5 (pw : Vec F S2000x256 .f32) (y : S2000x256.Idx) :
    ∃ pc ∈ ([⟨r9_5, pw⟩] : List (View.Piece (Elt F) S2000x256 .f32)), y ∈ pc.1.set :=
  View.cover_of_tiled [⟨r9_5, pw⟩] S2000x256.size (by rfl) y

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (ma : Memref sig .tc .vmem S2000x256 .f32) (hma : ma.IsWhole) (mb : Memref sig .tc .vmem S1x256 .f32) (hmb : mb.IsWhole) (mc : Memref sig .tc .vmem S1x256 .f32) (hmc : mc.IsWhole) (md : Memref sig .tc .vmem S1x256 .f32) (hmd : md.IsWhole) (me : Memref sig .tc .vmem S1x256 .f32) (hme : me.IsWhole) (mf : Memref sig .tc .vmem S2000x256 .f32) (hmf : mf.IsWhole)
    (xa : Vec F S2000x256 .f32) (xb : Vec F S1x256 .f32) (xc : Vec F S1x256 .f32) (xd : Vec F S1x256 .f32) (xe : Vec F S1x256 .f32) (K : PUnit → sProp 𝕄) :
    iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ (∃ d, owns (c : Thread nD τ) mf fullShare d)
        ∗ (iprop(owns (c : Thread nD τ) ma fullShare xa ∗ owns (c : Thread nD τ) mb fullShare xb ∗ owns (c : Thread nD τ) mc fullShare xc ∗ owns (c : Thread nD τ) md fullShare xd ∗ owns (c : Thread nD τ) me fullShare xe ∗ owns (c : Thread nD τ) mf fullShare (out9_5 xa xb xc xd xe)) -∗ K ⟨⟩))
      ⊢ wp frame (wpE (defs₀ (F := F)) Variants.none c none) E (cc9__bn_finalize_kernel i ma hma mb hmb mc hmc md hmd me hme mf hmf) K := by
  simp only [cc9__bn_finalize_kernel_eq_skeleton]; unfold cc9__bn_finalize_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hf
  ipureintro
  exact View.read_writes_eq_canon _ _ _ (cover9_5 _)

/-! ## The pipeline's proof data -/

/-- The proof data of pipeline 9 on core `c`: the arrays as the region finds them (`V`); after the body at
    point `t` each input's buffer at its block and the output's at `out9_5` of the input blocks; the invariant
    holds the scoped buffers no window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- Every window is held at the full share, and the body owes nothing at any point. -/
theorem q_eq9 (c : Dev nD) : ∀ w, (dat9 V c).q w = fullShare := fun _ => rfl
theorem owed_eq9 (c : Dev nD) : ∀ t, (dat9 V c).owed t = 0 := fun _ => rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the kernel's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%da, Ha⟩, ⟨%db, Hb⟩, ⟨%dc, Hc⟩, ⟨%dd, Hd⟩, ⟨%de, He⟩, ⟨%df, Hf⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [Ha]; · iexact Ha
  isplitl [Hb]; · iexact Hb
  isplitl [Hc]; · iexact Hc
  isplitl [Hd]; · iexact Hd
  isplitl [He]; · iexact He
  isplitl [Hf]; · iexists _; iexact Hf
  iintro ⟨Ha, Hb, Hc, Hd, He, Hf⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hf

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- The invariant at the first point, from the generator register at some state, the (empty) prefetched tables and the
    scoped buffers no window stages. -/
theorem hin9 (c : Dev nD) :
    (iprop((∃ r, prngReg c r) ∗ Pipeline.prefHeld (pcfgs (F := F) 9).pre c (fun _ => fullShare) (((cfgs 9).toPCfg_adm).1)
      ∗ Pipeline.scopedRest spec9 c) : sProp 𝕄) ⊢ (dat9 V c).Φ 0 := by
  rw [show (dat9 V c).Φ 0 = Pipeline.ΦA spec9 c from rfl]; unfold Pipeline.ΦA
  iintro ⟨Hp, -, Hr⟩
  isplitl [Hr]; · iexact Hr
  iexact Hp

/-- The invariant at the last point gives back the generator register, no semaphore of the kernel's own, and those
    scoped buffers. -/
theorem hout9 (c : Dev nD) :
    (dat9 V c).Φ (Fin.last cfg9.N) ⊢ (iprop((∃ r, prngReg c r) ∗ Pipeline.ownSems0 (fun k : PEmpty => k.elim) c
      ∗ Pipeline.scopedRest spec9 c) : sProp 𝕄) := by
  rw [Pipeline.ownSems0_none, show (dat9 V c).Φ (Fin.last _) = Pipeline.ΦA spec9 c from rfl]; unfold Pipeline.ΦA
  iintro ⟨Hr, Hp⟩
  isplitl [Hp]; · iexact Hp
  isplitr; · iempintro
  iexact Hr

end Cert.KernelIdeal.Hand

end
-- ==== Proof.KI.Chain.lean ====
/-
  The idealized kernel's @main between its ten kernel regions, per core: the contents of every unscoped buffer at each
  boundary between two items (the launch memory folded through the host stretches, each region's output arrays replaced by
  what its write-backs leave: the region's proof data's array after the last grid point), every region's proof data at its
  entry contents, and each region as a segment over the thread state "every unscoped buffer whole at the boundary's
  contents, the generator register at some state, nothing owed".
-/
import proofs.«132438_j6098853560655_1_alg».proof.Proof.Gen.KernelIdeal.Launch
import proofs.«132438_j6098853560655_1_alg».proof.Proof.Gen.KernelIdeal.Skeleton
import proofs.«132438_j6098853560655_1_alg».proof.Proof.Gen.KernelIdeal.Points
import proofs.«132438_j6098853560655_1_alg».proof.Proof.Gen.KernelIdeal.Regions
import proofs.«132438_j6098853560655_1_alg».proof.Proof.KI.R0
import proofs.«132438_j6098853560655_1_alg».proof.Proof.KI.R1
import proofs.«132438_j6098853560655_1_alg».proof.Proof.KI.R2
import proofs.«132438_j6098853560655_1_alg».proof.Proof.KI.R3
import proofs.«132438_j6098853560655_1_alg».proof.Proof.KI.R4
import proofs.«132438_j6098853560655_1_alg».proof.Proof.KI.R5
import proofs.«132438_j6098853560655_1_alg».proof.Proof.KI.R6
import proofs.«132438_j6098853560655_1_alg».proof.Proof.KI.R7
import proofs.«132438_j6098853560655_1_alg».proof.Proof.KI.R8
import proofs.«132438_j6098853560655_1_alg».proof.Proof.KI.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ
theorem fin4_forall {P : Fin 4 → Prop} (h0 : P 0) (h1 : P 1) (h2 : P 2) (h3 : P 3) : ∀ w, P w
  | ⟨0, _⟩ => h0
  | ⟨1, _⟩ => h1
  | ⟨2, _⟩ => h2
  | ⟨3, _⟩ => h3
theorem fin6_forall {P : Fin 6 → Prop} (h0 : P 0) (h1 : P 1) (h2 : P 2) (h3 : P 3) (h4 : P 4) (h5 : P 5) : ∀ w, P w
  | ⟨0, _⟩ => h0
  | ⟨1, _⟩ => h1
  | ⟨2, _⟩ => h2
  | ⟨3, _⟩ => h3
  | ⟨4, _⟩ => h4
  | ⟨5, _⟩ => h5
theorem fin7_forall {P : Fin 7 → Prop} (h0 : P 0) (h1 : P 1) (h2 : P 2) (h3 : P 3) (h4 : P 4) (h5 : P 5) (h6 : P 6) : ∀ w, P w
  | ⟨0, _⟩ => h0
  | ⟨1, _⟩ => h1
  | ⟨2, _⟩ => h2
  | ⟨3, _⟩ => h3
  | ⟨4, _⟩ => h4
  | ⟨5, _⟩ => h5
  | ⟨6, _⟩ => h6
theorem fin11_forall {P : Fin 11 → Prop} (h0 : P 0) (h1 : P 1) (h2 : P 2) (h3 : P 3) (h4 : P 4) (h5 : P 5) (h6 : P 6) (h7 : P 7) (h8 : P 8) (h9 : P 9) (h10 : P 10) : ∀ w, P w
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7
  | ⟨8, _⟩ => h8
  | ⟨9, _⟩ => h9
  | ⟨10, _⟩ => h10

variable (m : (ℓ : Loc nD τ sig) → Buf (Elt F) ℓ)

/-! ## The buffers' contents at every boundary between two items of @main, per core: the launch memory folded through
    the host stretches, each region's output arrays replaced by what its write-backs leave. -/

/-- Core `c`'s buffers at launch. -/
def W0 (c : Dev nD) : Valuation τ sig (Elt F) := fun b => m (c, b)

/-- After the host stretch before region 0. -/
def W1 (c : Dev nD) : Valuation τ sig (Elt F) := StableHlo.after hostOps0 (W0 m c)
/-- The same read at the TensorCore's references: what region 0 is entered with. -/
abbrev E1 : (c : Dev nD) → (b : Ref sig .tc) → Buf (Elt F) ((c : Thread nD τ).loc b) := fun c b => W1 m c b
/-- After region 0: its output arrays at what the region's write-backs leave, every other buffer as entered. -/
def W2 (c : Dev nD) : Valuation τ sig (Elt F) :=
  Function.update (W1 m c) main_v7 ((dat0 (E1 m) c).arrAt 3 cfg0.N)
abbrev E2 : (c : Dev nD) → (b : Ref sig .tc) → Buf (Elt F) ((c : Thread nD τ).loc b) := fun c b => W2 m c b
theorem W2_out0 (c : Dev nD) : W2 m c main_v7 = (dat0 (E1 m) c).arrAt 3 cfg0.N := by
  unfold W2; exact Function.update_self _ _ _
theorem W2_of_ne (c : Dev nD) (b : Ref sig .tc) (h0 : b ≠ main_v7) : W2 m c b = W1 m c b := by
  unfold W2; exact (Function.update_of_ne (StableHlo.devRef_ne_of_ne h0) _ _).trans (rfl)
theorem hF0_0 (c : Dev nD) : (dat0 (E1 m) c).arrAt 0 cfg0.N = E2 m c (Pipeline.arrRef spec0 0) :=
  (((dat0 (E1 m) c).arrAt_in 0 rfl _).trans (A_eq0 (E1 m) c 0)).trans (W2_of_ne m c main_v0 (by decide)).symm
theorem hF0_1 (c : Dev nD) : (dat0 (E1 m) c).arrAt 1 cfg0.N = E2 m c (Pipeline.arrRef spec0 1) :=
  (((dat0 (E1 m) c).arrAt_in 1 rfl _).trans (A_eq0 (E1 m) c 1)).trans (W2_of_ne m c main_arg2 (by decide)).symm
theorem hF0_2 (c : Dev nD) : (dat0 (E1 m) c).arrAt 2 cfg0.N = E2 m c (Pipeline.arrRef spec0 2) :=
  (((dat0 (E1 m) c).arrAt_in 2 rfl _).trans (A_eq0 (E1 m) c 2)).trans (W2_of_ne m c main_v6 (by decide)).symm
theorem hF0_3 (c : Dev nD) : (dat0 (E1 m) c).arrAt 3 cfg0.N = E2 m c (Pipeline.arrRef spec0 3) := (W2_out0 m c).symm
theorem hF0 (c : Dev nD) (w : Fin cfg0.W) : (dat0 (E1 m) c).arrAt w cfg0.N = E2 m c (Pipeline.arrRef spec0 w) := by
  exact fin4_forall (P := fun w : Fin 4 => (dat0 (E1 m) c).arrAt w cfg0.N = E2 m c (Pipeline.arrRef spec0 w)) (hF0_0 m c) (hF0_1 m c) (hF0_2 m c) (hF0_3 m c) w
theorem hrest0 (c : Dev nD) : ∀ b, b ∉ Finset.univ.image (Pipeline.arrRef spec0) → E2 m c b = E1 m c b :=
  fun b hb => W2_of_ne m c b (fun e => hb (Finset.mem_image.mpr ⟨3, Finset.mem_univ _, e.symm⟩))

/-- After the host stretch before region 1. -/
def W3 (c : Dev nD) : Valuation τ sig (Elt F) := StableHlo.after hostOps1 (W2 m c)
/-- The same read at the TensorCore's references: what region 1 is entered with. -/
abbrev E3 : (c : Dev nD) → (b : Ref sig .tc) → Buf (Elt F) ((c : Thread nD τ).loc b) := fun c b => W3 m c b
/-- After region 1: its output arrays at what the region's write-backs leave, every other buffer as entered. -/
def W4 (c : Dev nD) : Valuation τ sig (Elt F) :=
  Function.update (Function.update (Function.update (W3 m c) main_v23_0 ((dat1 (E3 m) c).arrAt 4 cfg1.N)) main_v23_1 ((dat1 (E3 m) c).arrAt 5 cfg1.N)) main_v23_2 ((dat1 (E3 m) c).arrAt 6 cfg1.N)
abbrev E4 : (c : Dev nD) → (b : Ref sig .tc) → Buf (Elt F) ((c : Thread nD τ).loc b) := fun c b => W4 m c b
theorem W4_out0 (c : Dev nD) : W4 m c main_v23_0 = (dat1 (E3 m) c).arrAt 4 cfg1.N := by
  unfold W4; exact (Function.update_of_ne (StableHlo.devRef_ne_of_ne (show (main_v23_0 : Ref sig .tc) ≠ main_v23_2 by decide)) _ _).trans ((Function.update_of_ne (StableHlo.devRef_ne_of_ne (show (main_v23_0 : Ref sig .tc) ≠ main_v23_1 by decide)) _ _).trans (Function.update_self _ _ _))
theorem W4_out1 (c : Dev nD) : W4 m c main_v23_1 = (dat1 (E3 m) c).arrAt 5 cfg1.N := by
  unfold W4; exact (Function.update_of_ne (StableHlo.devRef_ne_of_ne (show (main_v23_1 : Ref sig .tc) ≠ main_v23_2 by decide)) _ _).trans (Function.update_self _ _ _)
theorem W4_out2 (c : Dev nD) : W4 m c main_v23_2 = (dat1 (E3 m) c).arrAt 6 cfg1.N := by
  unfold W4; exact Function.update_self _ _ _
theorem W4_of_ne (c : Dev nD) (b : Ref sig .tc) (h0 : b ≠ main_v23_0) (h1 : b ≠ main_v23_1) (h2 : b ≠ main_v23_2) : W4 m c b = W3 m c b := by
  unfold W4; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF1_0 (c : Dev nD) : (dat1 (E3 m) c).arrAt 0 cfg1.N = E4 m c (Pipeline.arrRef spec1 0) :=
  (((dat1 (E3 m) c).arrAt_in 0 rfl _).trans (A_eq1 (E3 m) c 0)).trans (W4_of_ne m c main_v7 (by decide) (by decide) (by decide)).symm
theorem hF1_1 (c : Dev nD) : (dat1 (E3 m) c).arrAt 1 cfg1.N = E4 m c (Pipeline.arrRef spec1 1) :=
  (((dat1 (E3 m) c).arrAt_in 1 rfl _).trans (A_eq1 (E3 m) c 1)).trans (W4_of_ne m c main_v17 (by decide) (by decide) (by decide)).symm
theorem hF1_2 (c : Dev nD) : (dat1 (E3 m) c).arrAt 2 cfg1.N = E4 m c (Pipeline.arrRef spec1 2) :=
  (((dat1 (E3 m) c).arrAt_in 2 rfl _).trans (A_eq1 (E3 m) c 2)).trans (W4_of_ne m c main_v19 (by decide) (by decide) (by decide)).symm
theorem hF1_3 (c : Dev nD) : (dat1 (E3 m) c).arrAt 3 cfg1.N = E4 m c (Pipeline.arrRef spec1 3) :=
  (((dat1 (E3 m) c).arrAt_in 3 rfl _).trans (A_eq1 (E3 m) c 3)).trans (W4_of_ne m c main_v22 (by decide) (by decide) (by decide)).symm
theorem hF1_4 (c : Dev nD) : (dat1 (E3 m) c).arrAt 4 cfg1.N = E4 m c (Pipeline.arrRef spec1 4) := (W4_out0 m c).symm
theorem hF1_5 (c : Dev nD) : (dat1 (E3 m) c).arrAt 5 cfg1.N = E4 m c (Pipeline.arrRef spec1 5) := (W4_out1 m c).symm
theorem hF1_6 (c : Dev nD) : (dat1 (E3 m) c).arrAt 6 cfg1.N = E4 m c (Pipeline.arrRef spec1 6) := (W4_out2 m c).symm
theorem hF1 (c : Dev nD) (w : Fin cfg1.W) : (dat1 (E3 m) c).arrAt w cfg1.N = E4 m c (Pipeline.arrRef spec1 w) := by
  exact fin7_forall (P := fun w : Fin 7 => (dat1 (E3 m) c).arrAt w cfg1.N = E4 m c (Pipeline.arrRef spec1 w)) (hF1_0 m c) (hF1_1 m c) (hF1_2 m c) (hF1_3 m c) (hF1_4 m c) (hF1_5 m c) (hF1_6 m c) w
theorem hrest1 (c : Dev nD) : ∀ b, b ∉ Finset.univ.image (Pipeline.arrRef spec1) → E4 m c b = E3 m c b :=
  fun b hb => W4_of_ne m c b (fun e => hb (Finset.mem_image.mpr ⟨4, Finset.mem_univ _, e.symm⟩)) (fun e => hb (Finset.mem_image.mpr ⟨5, Finset.mem_univ _, e.symm⟩)) (fun e => hb (Finset.mem_image.mpr ⟨6, Finset.mem_univ _, e.symm⟩))

/-- After the host stretch before region 2. -/
def W5 (c : Dev nD) : Valuation τ sig (Elt F) := StableHlo.after hostOps2 (W4 m c)
/-- The same read at the TensorCore's references: what region 2 is entered with. -/
abbrev E5 : (c : Dev nD) → (b : Ref sig .tc) → Buf (Elt F) ((c : Thread nD τ).loc b) := fun c b => W5 m c b
/-- After region 2: its output arrays at what the region's write-backs leave, every other buffer as entered. -/
def W6 (c : Dev nD) : Valuation τ sig (Elt F) :=
  Function.update (Function.update (Function.update (W5 m c) main_v41_0 ((dat2 (E5 m) c).arrAt 8 cfg2.N)) main_v41_1 ((dat2 (E5 m) c).arrAt 9 cfg2.N)) main_v41_2 ((dat2 (E5 m) c).arrAt 10 cfg2.N)
abbrev E6 : (c : Dev nD) → (b : Ref sig .tc) → Buf (Elt F) ((c : Thread nD τ).loc b) := fun c b => W6 m c b
theorem W6_out0 (c : Dev nD) : W6 m c main_v41_0 = (dat2 (E5 m) c).arrAt 8 cfg2.N := by
  unfold W6; exact (Function.update_of_ne (StableHlo.devRef_ne_of_ne (show (main_v41_0 : Ref sig .tc) ≠ main_v41_2 by decide)) _ _).trans ((Function.update_of_ne (StableHlo.devRef_ne_of_ne (show (main_v41_0 : Ref sig .tc) ≠ main_v41_1 by decide)) _ _).trans (Function.update_self _ _ _))
theorem W6_out1 (c : Dev nD) : W6 m c main_v41_1 = (dat2 (E5 m) c).arrAt 9 cfg2.N := by
  unfold W6; exact (Function.update_of_ne (StableHlo.devRef_ne_of_ne (show (main_v41_1 : Ref sig .tc) ≠ main_v41_2 by decide)) _ _).trans (Function.update_self _ _ _)
theorem W6_out2 (c : Dev nD) : W6 m c main_v41_2 = (dat2 (E5 m) c).arrAt 10 cfg2.N := by
  unfold W6; exact Function.update_self _ _ _
theorem W6_of_ne (c : Dev nD) (b : Ref sig .tc) (h0 : b ≠ main_v41_0) (h1 : b ≠ main_v41_1) (h2 : b ≠ main_v41_2) : W6 m c b = W5 m c b := by
  unfold W6; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF2_0 (c : Dev nD) : (dat2 (E5 m) c).arrAt 0 cfg2.N = E6 m c (Pipeline.arrRef spec2 0) :=
  (((dat2 (E5 m) c).arrAt_in 0 rfl _).trans (A_eq2 (E5 m) c 0)).trans (W6_of_ne m c main_v23_0 (by decide) (by decide) (by decide)).symm
theorem hF2_1 (c : Dev nD) : (dat2 (E5 m) c).arrAt 1 cfg2.N = E6 m c (Pipeline.arrRef spec2 1) :=
  (((dat2 (E5 m) c).arrAt_in 1 rfl _).trans (A_eq2 (E5 m) c 1)).trans (W6_of_ne m c main_v25 (by decide) (by decide) (by decide)).symm
theorem hF2_2 (c : Dev nD) : (dat2 (E5 m) c).arrAt 2 cfg2.N = E6 m c (Pipeline.arrRef spec2 2) :=
  (((dat2 (E5 m) c).arrAt_in 2 rfl _).trans (A_eq2 (E5 m) c 2)).trans (W6_of_ne m c main_v29 (by decide) (by decide) (by decide)).symm
theorem hF2_3 (c : Dev nD) : (dat2 (E5 m) c).arrAt 3 cfg2.N = E6 m c (Pipeline.arrRef spec2 3) :=
  (((dat2 (E5 m) c).arrAt_in 3 rfl _).trans (A_eq2 (E5 m) c 3)).trans (W6_of_ne m c main_v38 (by decide) (by decide) (by decide)).symm
theorem hF2_4 (c : Dev nD) : (dat2 (E5 m) c).arrAt 4 cfg2.N = E6 m c (Pipeline.arrRef spec2 4) :=
  (((dat2 (E5 m) c).arrAt_in 4 rfl _).trans (A_eq2 (E5 m) c 4)).trans (W6_of_ne m c main_v39 (by decide) (by decide) (by decide)).symm
theorem hF2_5 (c : Dev nD) : (dat2 (E5 m) c).arrAt 5 cfg2.N = E6 m c (Pipeline.arrRef spec2 5) :=
  (((dat2 (E5 m) c).arrAt_in 5 rfl _).trans (A_eq2 (E5 m) c 5)).trans (W6_of_ne m c main_v7 (by decide) (by decide) (by decide)).symm
theorem hF2_6 (c : Dev nD) : (dat2 (E5 m) c).arrAt 6 cfg2.N = E6 m c (Pipeline.arrRef spec2 6) :=
  (((dat2 (E5 m) c).arrAt_in 6 rfl _).trans (A_eq2 (E5 m) c 6)).trans (W6_of_ne m c main_v35 (by decide) (by decide) (by decide)).symm
theorem hF2_7 (c : Dev nD) : (dat2 (E5 m) c).arrAt 7 cfg2.N = E6 m c (Pipeline.arrRef spec2 7) :=
  (((dat2 (E5 m) c).arrAt_in 7 rfl _).trans (A_eq2 (E5 m) c 7)).trans (W6_of_ne m c main_v40 (by decide) (by decide) (by decide)).symm
theorem hF2_8 (c : Dev nD) : (dat2 (E5 m) c).arrAt 8 cfg2.N = E6 m c (Pipeline.arrRef spec2 8) := (W6_out0 m c).symm
theorem hF2_9 (c : Dev nD) : (dat2 (E5 m) c).arrAt 9 cfg2.N = E6 m c (Pipeline.arrRef spec2 9) := (W6_out1 m c).symm
theorem hF2_10 (c : Dev nD) : (dat2 (E5 m) c).arrAt 10 cfg2.N = E6 m c (Pipeline.arrRef spec2 10) := (W6_out2 m c).symm
theorem hF2 (c : Dev nD) (w : Fin cfg2.W) : (dat2 (E5 m) c).arrAt w cfg2.N = E6 m c (Pipeline.arrRef spec2 w) := by
  exact fin11_forall (P := fun w : Fin 11 => (dat2 (E5 m) c).arrAt w cfg2.N = E6 m c (Pipeline.arrRef spec2 w)) (hF2_0 m c) (hF2_1 m c) (hF2_2 m c) (hF2_3 m c) (hF2_4 m c) (hF2_5 m c) (hF2_6 m c) (hF2_7 m c) (hF2_8 m c) (hF2_9 m c) (hF2_10 m c) w
theorem hrest2 (c : Dev nD) : ∀ b, b ∉ Finset.univ.image (Pipeline.arrRef spec2) → E6 m c b = E5 m c b :=
  fun b hb => W6_of_ne m c b (fun e => hb (Finset.mem_image.mpr ⟨8, Finset.mem_univ _, e.symm⟩)) (fun e => hb (Finset.mem_image.mpr ⟨9, Finset.mem_univ _, e.symm⟩)) (fun e => hb (Finset.mem_image.mpr ⟨10, Finset.mem_univ _, e.symm⟩))

/-- After the host stretch before region 3. -/
def W7 (c : Dev nD) : Valuation τ sig (Elt F) := StableHlo.after hostOps3 (W6 m c)
/-- The same read at the TensorCore's references: what region 3 is entered with. -/
abbrev E7 : (c : Dev nD) → (b : Ref sig .tc) → Buf (Elt F) ((c : Thread nD τ).loc b) := fun c b => W7 m c b
/-- After region 3: its output arrays at what the region's write-backs leave, every other buffer as entered. -/
def W8 (c : Dev nD) : Valuation τ sig (Elt F) :=
  Function.update (W7 m c) main_v54 ((dat3 (E7 m) c).arrAt 5 cfg3.N)
abbrev E8 : (c : Dev nD) → (b : Ref sig .tc) → Buf (Elt F) ((c : Thread nD τ).loc b) := fun c b => W8 m c b
theorem W8_out0 (c : Dev nD) : W8 m c main_v54 = (dat3 (E7 m) c).arrAt 5 cfg3.N := by
  unfold W8; exact Function.update_self _ _ _
theorem W8_of_ne (c : Dev nD) (b : Ref sig .tc) (h0 : b ≠ main_v54) : W8 m c b = W7 m c b := by
  unfold W8; exact (Function.update_of_ne (StableHlo.devRef_ne_of_ne h0) _ _).trans (rfl)
theorem hF3_0 (c : Dev nD) : (dat3 (E7 m) c).arrAt 0 cfg3.N = E8 m c (Pipeline.arrRef spec3 0) :=
  (((dat3 (E7 m) c).arrAt_in 0 rfl _).trans (A_eq3 (E7 m) c 0)).trans (W8_of_ne m c main_v41_0 (by decide)).symm
theorem hF3_1 (c : Dev nD) : (dat3 (E7 m) c).arrAt 1 cfg3.N = E8 m c (Pipeline.arrRef spec3 1) :=
  (((dat3 (E7 m) c).arrAt_in 1 rfl _).trans (A_eq3 (E7 m) c 1)).trans (W8_of_ne m c main_v43 (by decide)).symm
theorem hF3_2 (c : Dev nD) : (dat3 (E7 m) c).arrAt 2 cfg3.N = E8 m c (Pipeline.arrRef spec3 2) :=
  (((dat3 (E7 m) c).arrAt_in 2 rfl _).trans (A_eq3 (E7 m) c 2)).trans (W8_of_ne m c main_v47 (by decide)).symm
theorem hF3_3 (c : Dev nD) : (dat3 (E7 m) c).arrAt 3 cfg3.N = E8 m c (Pipeline.arrRef spec3 3) :=
  (((dat3 (E7 m) c).arrAt_in 3 rfl _).trans (A_eq3 (E7 m) c 3)).trans (W8_of_ne m c main_v52 (by decide)).symm
theorem hF3_4 (c : Dev nD) : (dat3 (E7 m) c).arrAt 4 cfg3.N = E8 m c (Pipeline.arrRef spec3 4) :=
  (((dat3 (E7 m) c).arrAt_in 4 rfl _).trans (A_eq3 (E7 m) c 4)).trans (W8_of_ne m c main_v53 (by decide)).symm
theorem hF3_5 (c : Dev nD) : (dat3 (E7 m) c).arrAt 5 cfg3.N = E8 m c (Pipeline.arrRef spec3 5) := (W8_out0 m c).symm
theorem hF3 (c : Dev nD) (w : Fin cfg3.W) : (dat3 (E7 m) c).arrAt w cfg3.N = E8 m c (Pipeline.arrRef spec3 w) := by
  exact fin6_forall (P := fun w : Fin 6 => (dat3 (E7 m) c).arrAt w cfg3.N = E8 m c (Pipeline.arrRef spec3 w)) (hF3_0 m c) (hF3_1 m c) (hF3_2 m c) (hF3_3 m c) (hF3_4 m c) (hF3_5 m c) w
theorem hrest3 (c : Dev nD) : ∀ b, b ∉ Finset.univ.image (Pipeline.arrRef spec3) → E8 m c b = E7 m c b :=
  fun b hb => W8_of_ne m c b (fun e => hb (Finset.mem_image.mpr ⟨5, Finset.mem_univ _, e.symm⟩))

/-- After the host stretch before region 4. -/
def W9 (c : Dev nD) : Valuation τ sig (Elt F) := StableHlo.after hostOps4 (W8 m c)
/-- The same read at the TensorCore's references: what region 4 is entered with. -/
abbrev E9 : (c : Dev nD) → (b : Ref sig .tc) → Buf (Elt F) ((c : Thread nD τ).loc b) := fun c b => W9 m c b
/-- After region 4: its output arrays at what the region's write-backs leave, every other buffer as entered. -/
def W10 (c : Dev nD) : Valuation τ sig (Elt F) :=
  Function.update (Function.update (Function.update (W9 m c) main_v70_0 ((dat4 (E9 m) c).arrAt 4 cfg4.N)) main_v70_1 ((dat4 (E9 m) c).arrAt 5 cfg4.N)) main_v70_2 ((dat4 (E9 m) c).arrAt 6 cfg4.N)
abbrev E10 : (c : Dev nD) → (b : Ref sig .tc) → Buf (Elt F) ((c : Thread nD τ).loc b) := fun c b => W10 m c b
theorem W10_out0 (c : Dev nD) : W10 m c main_v70_0 = (dat4 (E9 m) c).arrAt 4 cfg4.N := by
  unfold W10; exact (Function.update_of_ne (StableHlo.devRef_ne_of_ne (show (main_v70_0 : Ref sig .tc) ≠ main_v70_2 by decide)) _ _).trans ((Function.update_of_ne (StableHlo.devRef_ne_of_ne (show (main_v70_0 : Ref sig .tc) ≠ main_v70_1 by decide)) _ _).trans (Function.update_self _ _ _))
theorem W10_out1 (c : Dev nD) : W10 m c main_v70_1 = (dat4 (E9 m) c).arrAt 5 cfg4.N := by
  unfold W10; exact (Function.update_of_ne (StableHlo.devRef_ne_of_ne (show (main_v70_1 : Ref sig .tc) ≠ main_v70_2 by decide)) _ _).trans (Function.update_self _ _ _)
theorem W10_out2 (c : Dev nD) : W10 m c main_v70_2 = (dat4 (E9 m) c).arrAt 6 cfg4.N := by
  unfold W10; exact Function.update_self _ _ _
theorem W10_of_ne (c : Dev nD) (b : Ref sig .tc) (h0 : b ≠ main_v70_0) (h1 : b ≠ main_v70_1) (h2 : b ≠ main_v70_2) : W10 m c b = W9 m c b := by
  unfold W10; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF4_0 (c : Dev nD) : (dat4 (E9 m) c).arrAt 0 cfg4.N = E10 m c (Pipeline.arrRef spec4 0) :=
  (((dat4 (E9 m) c).arrAt_in 0 rfl _).trans (A_eq4 (E9 m) c 0)).trans (W10_of_ne m c main_v54 (by decide) (by decide) (by decide)).symm
theorem hF4_1 (c : Dev nD) : (dat4 (E9 m) c).arrAt 1 cfg4.N = E10 m c (Pipeline.arrRef spec4 1) :=
  (((dat4 (E9 m) c).arrAt_in 1 rfl _).trans (A_eq4 (E9 m) c 1)).trans (W10_of_ne m c main_v64 (by decide) (by decide) (by decide)).symm
theorem hF4_2 (c : Dev nD) : (dat4 (E9 m) c).arrAt 2 cfg4.N = E10 m c (Pipeline.arrRef spec4 2) :=
  (((dat4 (E9 m) c).arrAt_in 2 rfl _).trans (A_eq4 (E9 m) c 2)).trans (W10_of_ne m c main_v66 (by decide) (by decide) (by decide)).symm
theorem hF4_3 (c : Dev nD) : (dat4 (E9 m) c).arrAt 3 cfg4.N = E10 m c (Pipeline.arrRef spec4 3) :=
  (((dat4 (E9 m) c).arrAt_in 3 rfl _).trans (A_eq4 (E9 m) c 3)).trans (W10_of_ne m c main_v69 (by decide) (by decide) (by decide)).symm
theorem hF4_4 (c : Dev nD) : (dat4 (E9 m) c).arrAt 4 cfg4.N = E10 m c (Pipeline.arrRef spec4 4) := (W10_out0 m c).symm
theorem hF4_5 (c : Dev nD) : (dat4 (E9 m) c).arrAt 5 cfg4.N = E10 m c (Pipeline.arrRef spec4 5) := (W10_out1 m c).symm
theorem hF4_6 (c : Dev nD) : (dat4 (E9 m) c).arrAt 6 cfg4.N = E10 m c (Pipeline.arrRef spec4 6) := (W10_out2 m c).symm
theorem hF4 (c : Dev nD) (w : Fin cfg4.W) : (dat4 (E9 m) c).arrAt w cfg4.N = E10 m c (Pipeline.arrRef spec4 w) := by
  exact fin7_forall (P := fun w : Fin 7 => (dat4 (E9 m) c).arrAt w cfg4.N = E10 m c (Pipeline.arrRef spec4 w)) (hF4_0 m c) (hF4_1 m c) (hF4_2 m c) (hF4_3 m c) (hF4_4 m c) (hF4_5 m c) (hF4_6 m c) w
theorem hrest4 (c : Dev nD) : ∀ b, b ∉ Finset.univ.image (Pipeline.arrRef spec4) → E10 m c b = E9 m c b :=
  fun b hb => W10_of_ne m c b (fun e => hb (Finset.mem_image.mpr ⟨4, Finset.mem_univ _, e.symm⟩)) (fun e => hb (Finset.mem_image.mpr ⟨5, Finset.mem_univ _, e.symm⟩)) (fun e => hb (Finset.mem_image.mpr ⟨6, Finset.mem_univ _, e.symm⟩))

/-- After the host stretch before region 5. -/
def W11 (c : Dev nD) : Valuation τ sig (Elt F) := StableHlo.after hostOps5 (W10 m c)
/-- The same read at the TensorCore's references: what region 5 is entered with. -/
abbrev E11 : (c : Dev nD) → (b : Ref sig .tc) → Buf (Elt F) ((c : Thread nD τ).loc b) := fun c b => W11 m c b
/-- After region 5: its output arrays at what the region's write-backs leave, every other buffer as entered. -/
def W12 (c : Dev nD) : Valuation τ sig (Elt F) :=
  Function.update (Function.update (Function.update (W11 m c) main_v88_0 ((dat5 (E11 m) c).arrAt 8 cfg5.N)) main_v88_1 ((dat5 (E11 m) c).arrAt 9 cfg5.N)) main_v88_2 ((dat5 (E11 m) c).arrAt 10 cfg5.N)
abbrev E12 : (c : Dev nD) → (b : Ref sig .tc) → Buf (Elt F) ((c : Thread nD τ).loc b) := fun c b => W12 m c b
theorem W12_out0 (c : Dev nD) : W12 m c main_v88_0 = (dat5 (E11 m) c).arrAt 8 cfg5.N := by
  unfold W12; exact (Function.update_of_ne (StableHlo.devRef_ne_of_ne (show (main_v88_0 : Ref sig .tc) ≠ main_v88_2 by decide)) _ _).trans ((Function.update_of_ne (StableHlo.devRef_ne_of_ne (show (main_v88_0 : Ref sig .tc) ≠ main_v88_1 by decide)) _ _).trans (Function.update_self _ _ _))
theorem W12_out1 (c : Dev nD) : W12 m c main_v88_1 = (dat5 (E11 m) c).arrAt 9 cfg5.N := by
  unfold W12; exact (Function.update_of_ne (StableHlo.devRef_ne_of_ne (show (main_v88_1 : Ref sig .tc) ≠ main_v88_2 by decide)) _ _).trans (Function.update_self _ _ _)
theorem W12_out2 (c : Dev nD) : W12 m c main_v88_2 = (dat5 (E11 m) c).arrAt 10 cfg5.N := by
  unfold W12; exact Function.update_self _ _ _
theorem W12_of_ne (c : Dev nD) (b : Ref sig .tc) (h0 : b ≠ main_v88_0) (h1 : b ≠ main_v88_1) (h2 : b ≠ main_v88_2) : W12 m c b = W11 m c b := by
  unfold W12; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF5_0 (c : Dev nD) : (dat5 (E11 m) c).arrAt 0 cfg5.N = E12 m c (Pipeline.arrRef spec5 0) :=
  (((dat5 (E11 m) c).arrAt_in 0 rfl _).trans (A_eq5 (E11 m) c 0)).trans (W12_of_ne m c main_v70_0 (by decide) (by decide) (by decide)).symm
theorem hF5_1 (c : Dev nD) : (dat5 (E11 m) c).arrAt 1 cfg5.N = E12 m c (Pipeline.arrRef spec5 1) :=
  (((dat5 (E11 m) c).arrAt_in 1 rfl _).trans (A_eq5 (E11 m) c 1)).trans (W12_of_ne m c main_v72 (by decide) (by decide) (by decide)).symm
theorem hF5_2 (c : Dev nD) : (dat5 (E11 m) c).arrAt 2 cfg5.N = E12 m c (Pipeline.arrRef spec5 2) :=
  (((dat5 (E11 m) c).arrAt_in 2 rfl _).trans (A_eq5 (E11 m) c 2)).trans (W12_of_ne m c main_v76 (by decide) (by decide) (by decide)).symm
theorem hF5_3 (c : Dev nD) : (dat5 (E11 m) c).arrAt 3 cfg5.N = E12 m c (Pipeline.arrRef spec5 3) :=
  (((dat5 (E11 m) c).arrAt_in 3 rfl _).trans (A_eq5 (E11 m) c 3)).trans (W12_of_ne m c main_v85 (by decide) (by decide) (by decide)).symm
theorem hF5_4 (c : Dev nD) : (dat5 (E11 m) c).arrAt 4 cfg5.N = E12 m c (Pipeline.arrRef spec5 4) :=
  (((dat5 (E11 m) c).arrAt_in 4 rfl _).trans (A_eq5 (E11 m) c 4)).trans (W12_of_ne m c main_v86 (by decide) (by decide) (by decide)).symm
theorem hF5_5 (c : Dev nD) : (dat5 (E11 m) c).arrAt 5 cfg5.N = E12 m c (Pipeline.arrRef spec5 5) :=
  (((dat5 (E11 m) c).arrAt_in 5 rfl _).trans (A_eq5 (E11 m) c 5)).trans (W12_of_ne m c main_v54 (by decide) (by decide) (by decide)).symm
theorem hF5_6 (c : Dev nD) : (dat5 (E11 m) c).arrAt 6 cfg5.N = E12 m c (Pipeline.arrRef spec5 6) :=
  (((dat5 (E11 m) c).arrAt_in 6 rfl _).trans (A_eq5 (E11 m) c 6)).trans (W12_of_ne m c main_v82 (by decide) (by decide) (by decide)).symm
theorem hF5_7 (c : Dev nD) : (dat5 (E11 m) c).arrAt 7 cfg5.N = E12 m c (Pipeline.arrRef spec5 7) :=
  (((dat5 (E11 m) c).arrAt_in 7 rfl _).trans (A_eq5 (E11 m) c 7)).trans (W12_of_ne m c main_v87 (by decide) (by decide) (by decide)).symm
theorem hF5_8 (c : Dev nD) : (dat5 (E11 m) c).arrAt 8 cfg5.N = E12 m c (Pipeline.arrRef spec5 8) := (W12_out0 m c).symm
theorem hF5_9 (c : Dev nD) : (dat5 (E11 m) c).arrAt 9 cfg5.N = E12 m c (Pipeline.arrRef spec5 9) := (W12_out1 m c).symm
theorem hF5_10 (c : Dev nD) : (dat5 (E11 m) c).arrAt 10 cfg5.N = E12 m c (Pipeline.arrRef spec5 10) := (W12_out2 m c).symm
theorem hF5 (c : Dev nD) (w : Fin cfg5.W) : (dat5 (E11 m) c).arrAt w cfg5.N = E12 m c (Pipeline.arrRef spec5 w) := by
  exact fin11_forall (P := fun w : Fin 11 => (dat5 (E11 m) c).arrAt w cfg5.N = E12 m c (Pipeline.arrRef spec5 w)) (hF5_0 m c) (hF5_1 m c) (hF5_2 m c) (hF5_3 m c) (hF5_4 m c) (hF5_5 m c) (hF5_6 m c) (hF5_7 m c) (hF5_8 m c) (hF5_9 m c) (hF5_10 m c) w
theorem hrest5 (c : Dev nD) : ∀ b, b ∉ Finset.univ.image (Pipeline.arrRef spec5) → E12 m c b = E11 m c b :=
  fun b hb => W12_of_ne m c b (fun e => hb (Finset.mem_image.mpr ⟨8, Finset.mem_univ _, e.symm⟩)) (fun e => hb (Finset.mem_image.mpr ⟨9, Finset.mem_univ _, e.symm⟩)) (fun e => hb (Finset.mem_image.mpr ⟨10, Finset.mem_univ _, e.symm⟩))

/-- After the host stretch before region 6. -/
def W13 (c : Dev nD) : Valuation τ sig (Elt F) := StableHlo.after hostOps6 (W12 m c)
/-- The same read at the TensorCore's references: what region 6 is entered with. -/
abbrev E13 : (c : Dev nD) → (b : Ref sig .tc) → Buf (Elt F) ((c : Thread nD τ).loc b) := fun c b => W13 m c b
/-- After region 6: its output arrays at what the region's write-backs leave, every other buffer as entered. -/
def W14 (c : Dev nD) : Valuation τ sig (Elt F) :=
  Function.update (W13 m c) main_v101 ((dat6 (E13 m) c).arrAt 5 cfg6.N)
abbrev E14 : (c : Dev nD) → (b : Ref sig .tc) → Buf (Elt F) ((c : Thread nD τ).loc b) := fun c b => W14 m c b
theorem W14_out0 (c : Dev nD) : W14 m c main_v101 = (dat6 (E13 m) c).arrAt 5 cfg6.N := by
  unfold W14; exact Function.update_self _ _ _
theorem W14_of_ne (c : Dev nD) (b : Ref sig .tc) (h0 : b ≠ main_v101) : W14 m c b = W13 m c b := by
  unfold W14; exact (Function.update_of_ne (StableHlo.devRef_ne_of_ne h0) _ _).trans (rfl)
theorem hF6_0 (c : Dev nD) : (dat6 (E13 m) c).arrAt 0 cfg6.N = E14 m c (Pipeline.arrRef spec6 0) :=
  (((dat6 (E13 m) c).arrAt_in 0 rfl _).trans (A_eq6 (E13 m) c 0)).trans (W14_of_ne m c main_v88_0 (by decide)).symm
theorem hF6_1 (c : Dev nD) : (dat6 (E13 m) c).arrAt 1 cfg6.N = E14 m c (Pipeline.arrRef spec6 1) :=
  (((dat6 (E13 m) c).arrAt_in 1 rfl _).trans (A_eq6 (E13 m) c 1)).trans (W14_of_ne m c main_v90 (by decide)).symm
theorem hF6_2 (c : Dev nD) : (dat6 (E13 m) c).arrAt 2 cfg6.N = E14 m c (Pipeline.arrRef spec6 2) :=
  (((dat6 (E13 m) c).arrAt_in 2 rfl _).trans (A_eq6 (E13 m) c 2)).trans (W14_of_ne m c main_v94 (by decide)).symm
theorem hF6_3 (c : Dev nD) : (dat6 (E13 m) c).arrAt 3 cfg6.N = E14 m c (Pipeline.arrRef spec6 3) :=
  (((dat6 (E13 m) c).arrAt_in 3 rfl _).trans (A_eq6 (E13 m) c 3)).trans (W14_of_ne m c main_v99 (by decide)).symm
theorem hF6_4 (c : Dev nD) : (dat6 (E13 m) c).arrAt 4 cfg6.N = E14 m c (Pipeline.arrRef spec6 4) :=
  (((dat6 (E13 m) c).arrAt_in 4 rfl _).trans (A_eq6 (E13 m) c 4)).trans (W14_of_ne m c main_v100 (by decide)).symm
theorem hF6_5 (c : Dev nD) : (dat6 (E13 m) c).arrAt 5 cfg6.N = E14 m c (Pipeline.arrRef spec6 5) := (W14_out0 m c).symm
theorem hF6 (c : Dev nD) (w : Fin cfg6.W) : (dat6 (E13 m) c).arrAt w cfg6.N = E14 m c (Pipeline.arrRef spec6 w) := by
  exact fin6_forall (P := fun w : Fin 6 => (dat6 (E13 m) c).arrAt w cfg6.N = E14 m c (Pipeline.arrRef spec6 w)) (hF6_0 m c) (hF6_1 m c) (hF6_2 m c) (hF6_3 m c) (hF6_4 m c) (hF6_5 m c) w
theorem hrest6 (c : Dev nD) : ∀ b, b ∉ Finset.univ.image (Pipeline.arrRef spec6) → E14 m c b = E13 m c b :=
  fun b hb => W14_of_ne m c b (fun e => hb (Finset.mem_image.mpr ⟨5, Finset.mem_univ _, e.symm⟩))

/-- After the host stretch before region 7. -/
def W15 (c : Dev nD) : Valuation τ sig (Elt F) := StableHlo.after hostOps7 (W14 m c)
/-- The same read at the TensorCore's references: what region 7 is entered with. -/
abbrev E15 : (c : Dev nD) → (b : Ref sig .tc) → Buf (Elt F) ((c : Thread nD τ).loc b) := fun c b => W15 m c b
/-- After region 7: its output arrays at what the region's write-backs leave, every other buffer as entered. -/
def W16 (c : Dev nD) : Valuation τ sig (Elt F) :=
  Function.update (Function.update (Function.update (W15 m c) main_v117_0 ((dat7 (E15 m) c).arrAt 4 cfg7.N)) main_v117_1 ((dat7 (E15 m) c).arrAt 5 cfg7.N)) main_v117_2 ((dat7 (E15 m) c).arrAt 6 cfg7.N)
abbrev E16 : (c : Dev nD) → (b : Ref sig .tc) → Buf (Elt F) ((c : Thread nD τ).loc b) := fun c b => W16 m c b
theorem W16_out0 (c : Dev nD) : W16 m c main_v117_0 = (dat7 (E15 m) c).arrAt 4 cfg7.N := by
  unfold W16; exact (Function.update_of_ne (StableHlo.devRef_ne_of_ne (show (main_v117_0 : Ref sig .tc) ≠ main_v117_2 by decide)) _ _).trans ((Function.update_of_ne (StableHlo.devRef_ne_of_ne (show (main_v117_0 : Ref sig .tc) ≠ main_v117_1 by decide)) _ _).trans (Function.update_self _ _ _))
theorem W16_out1 (c : Dev nD) : W16 m c main_v117_1 = (dat7 (E15 m) c).arrAt 5 cfg7.N := by
  unfold W16; exact (Function.update_of_ne (StableHlo.devRef_ne_of_ne (show (main_v117_1 : Ref sig .tc) ≠ main_v117_2 by decide)) _ _).trans (Function.update_self _ _ _)
theorem W16_out2 (c : Dev nD) : W16 m c main_v117_2 = (dat7 (E15 m) c).arrAt 6 cfg7.N := by
  unfold W16; exact Function.update_self _ _ _
theorem W16_of_ne (c : Dev nD) (b : Ref sig .tc) (h0 : b ≠ main_v117_0) (h1 : b ≠ main_v117_1) (h2 : b ≠ main_v117_2) : W16 m c b = W15 m c b := by
  unfold W16; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF7_0 (c : Dev nD) : (dat7 (E15 m) c).arrAt 0 cfg7.N = E16 m c (Pipeline.arrRef spec7 0) :=
  (((dat7 (E15 m) c).arrAt_in 0 rfl _).trans (A_eq7 (E15 m) c 0)).trans (W16_of_ne m c main_v101 (by decide) (by decide) (by decide)).symm
theorem hF7_1 (c : Dev nD) : (dat7 (E15 m) c).arrAt 1 cfg7.N = E16 m c (Pipeline.arrRef spec7 1) :=
  (((dat7 (E15 m) c).arrAt_in 1 rfl _).trans (A_eq7 (E15 m) c 1)).trans (W16_of_ne m c main_v111 (by decide) (by decide) (by decide)).symm
theorem hF7_2 (c : Dev nD) : (dat7 (E15 m) c).arrAt 2 cfg7.N = E16 m c (Pipeline.arrRef spec7 2) :=
  (((dat7 (E15 m) c).arrAt_in 2 rfl _).trans (A_eq7 (E15 m) c 2)).trans (W16_of_ne m c main_v113 (by decide) (by decide) (by decide)).symm
theorem hF7_3 (c : Dev nD) : (dat7 (E15 m) c).arrAt 3 cfg7.N = E16 m c (Pipeline.arrRef spec7 3) :=
  (((dat7 (E15 m) c).arrAt_in 3 rfl _).trans (A_eq7 (E15 m) c 3)).trans (W16_of_ne m c main_v116 (by decide) (by decide) (by decide)).symm
theorem hF7_4 (c : Dev nD) : (dat7 (E15 m) c).arrAt 4 cfg7.N = E16 m c (Pipeline.arrRef spec7 4) := (W16_out0 m c).symm
theorem hF7_5 (c : Dev nD) : (dat7 (E15 m) c).arrAt 5 cfg7.N = E16 m c (Pipeline.arrRef spec7 5) := (W16_out1 m c).symm
theorem hF7_6 (c : Dev nD) : (dat7 (E15 m) c).arrAt 6 cfg7.N = E16 m c (Pipeline.arrRef spec7 6) := (W16_out2 m c).symm
theorem hF7 (c : Dev nD) (w : Fin cfg7.W) : (dat7 (E15 m) c).arrAt w cfg7.N = E16 m c (Pipeline.arrRef spec7 w) := by
  exact fin7_forall (P := fun w : Fin 7 => (dat7 (E15 m) c).arrAt w cfg7.N = E16 m c (Pipeline.arrRef spec7 w)) (hF7_0 m c) (hF7_1 m c) (hF7_2 m c) (hF7_3 m c) (hF7_4 m c) (hF7_5 m c) (hF7_6 m c) w
theorem hrest7 (c : Dev nD) : ∀ b, b ∉ Finset.univ.image (Pipeline.arrRef spec7) → E16 m c b = E15 m c b :=
  fun b hb => W16_of_ne m c b (fun e => hb (Finset.mem_image.mpr ⟨4, Finset.mem_univ _, e.symm⟩)) (fun e => hb (Finset.mem_image.mpr ⟨5, Finset.mem_univ _, e.symm⟩)) (fun e => hb (Finset.mem_image.mpr ⟨6, Finset.mem_univ _, e.symm⟩))

/-- After the host stretch before region 8. -/
def W17 (c : Dev nD) : Valuation τ sig (Elt F) := StableHlo.after hostOps8 (W16 m c)
/-- The same read at the TensorCore's references: what region 8 is entered with. -/
abbrev E17 : (c : Dev nD) → (b : Ref sig .tc) → Buf (Elt F) ((c : Thread nD τ).loc b) := fun c b => W17 m c b
/-- After region 8: its output arrays at what the region's write-backs leave, every other buffer as entered. -/
def W18 (c : Dev nD) : Valuation τ sig (Elt F) :=
  Function.update (Function.update (Function.update (W17 m c) main_v135_0 ((dat8 (E17 m) c).arrAt 8 cfg8.N)) main_v135_1 ((dat8 (E17 m) c).arrAt 9 cfg8.N)) main_v135_2 ((dat8 (E17 m) c).arrAt 10 cfg8.N)
abbrev E18 : (c : Dev nD) → (b : Ref sig .tc) → Buf (Elt F) ((c : Thread nD τ).loc b) := fun c b => W18 m c b
theorem W18_out0 (c : Dev nD) : W18 m c main_v135_0 = (dat8 (E17 m) c).arrAt 8 cfg8.N := by
  unfold W18; exact (Function.update_of_ne (StableHlo.devRef_ne_of_ne (show (main_v135_0 : Ref sig .tc) ≠ main_v135_2 by decide)) _ _).trans ((Function.update_of_ne (StableHlo.devRef_ne_of_ne (show (main_v135_0 : Ref sig .tc) ≠ main_v135_1 by decide)) _ _).trans (Function.update_self _ _ _))
theorem W18_out1 (c : Dev nD) : W18 m c main_v135_1 = (dat8 (E17 m) c).arrAt 9 cfg8.N := by
  unfold W18; exact (Function.update_of_ne (StableHlo.devRef_ne_of_ne (show (main_v135_1 : Ref sig .tc) ≠ main_v135_2 by decide)) _ _).trans (Function.update_self _ _ _)
theorem W18_out2 (c : Dev nD) : W18 m c main_v135_2 = (dat8 (E17 m) c).arrAt 10 cfg8.N := by
  unfold W18; exact Function.update_self _ _ _
theorem W18_of_ne (c : Dev nD) (b : Ref sig .tc) (h0 : b ≠ main_v135_0) (h1 : b ≠ main_v135_1) (h2 : b ≠ main_v135_2) : W18 m c b = W17 m c b := by
  unfold W18; exact (Function.update_of_ne (StableHlo.devRef_ne_of_ne h2) _ _).trans ((Function.update_of_ne (StableHlo.devRef_ne_of_ne h1) _ _).trans ((Function.update_of_ne (StableHlo.devRef_ne_of_ne h0) _ _).trans (rfl)))
theorem hF8_0 (c : Dev nD) : (dat8 (E17 m) c).arrAt 0 cfg8.N = E18 m c (Pipeline.arrRef spec8 0) :=
  (((dat8 (E17 m) c).arrAt_in 0 rfl _).trans (A_eq8 (E17 m) c 0)).trans (W18_of_ne m c main_v117_0 (by decide) (by decide) (by decide)).symm
theorem hF8_1 (c : Dev nD) : (dat8 (E17 m) c).arrAt 1 cfg8.N = E18 m c (Pipeline.arrRef spec8 1) :=
  (((dat8 (E17 m) c).arrAt_in 1 rfl _).trans (A_eq8 (E17 m) c 1)).trans (W18_of_ne m c main_v119 (by decide) (by decide) (by decide)).symm
theorem hF8_2 (c : Dev nD) : (dat8 (E17 m) c).arrAt 2 cfg8.N = E18 m c (Pipeline.arrRef spec8 2) :=
  (((dat8 (E17 m) c).arrAt_in 2 rfl _).trans (A_eq8 (E17 m) c 2)).trans (W18_of_ne m c main_v123 (by decide) (by decide) (by decide)).symm
theorem hF8_3 (c : Dev nD) : (dat8 (E17 m) c).arrAt 3 cfg8.N = E18 m c (Pipeline.arrRef spec8 3) :=
  (((dat8 (E17 m) c).arrAt_in 3 rfl _).trans (A_eq8 (E17 m) c 3)).trans (W18_of_ne m c main_v132 (by decide) (by decide) (by decide)).symm
theorem hF8_4 (c : Dev nD) : (dat8 (E17 m) c).arrAt 4 cfg8.N = E18 m c (Pipeline.arrRef spec8 4) :=
  (((dat8 (E17 m) c).arrAt_in 4 rfl _).trans (A_eq8 (E17 m) c 4)).trans (W18_of_ne m c main_v133 (by decide) (by decide) (by decide)).symm
theorem hF8_5 (c : Dev nD) : (dat8 (E17 m) c).arrAt 5 cfg8.N = E18 m c (Pipeline.arrRef spec8 5) :=
  (((dat8 (E17 m) c).arrAt_in 5 rfl _).trans (A_eq8 (E17 m) c 5)).trans (W18_of_ne m c main_v101 (by decide) (by decide) (by decide)).symm
theorem hF8_6 (c : Dev nD) : (dat8 (E17 m) c).arrAt 6 cfg8.N = E18 m c (Pipeline.arrRef spec8 6) :=
  (((dat8 (E17 m) c).arrAt_in 6 rfl _).trans (A_eq8 (E17 m) c 6)).trans (W18_of_ne m c main_v129 (by decide) (by decide) (by decide)).symm
theorem hF8_7 (c : Dev nD) : (dat8 (E17 m) c).arrAt 7 cfg8.N = E18 m c (Pipeline.arrRef spec8 7) :=
  (((dat8 (E17 m) c).arrAt_in 7 rfl _).trans (A_eq8 (E17 m) c 7)).trans (W18_of_ne m c main_v134 (by decide) (by decide) (by decide)).symm
theorem hF8_8 (c : Dev nD) : (dat8 (E17 m) c).arrAt 8 cfg8.N = E18 m c (Pipeline.arrRef spec8 8) := (W18_out0 m c).symm
theorem hF8_9 (c : Dev nD) : (dat8 (E17 m) c).arrAt 9 cfg8.N = E18 m c (Pipeline.arrRef spec8 9) := (W18_out1 m c).symm
theorem hF8_10 (c : Dev nD) : (dat8 (E17 m) c).arrAt 10 cfg8.N = E18 m c (Pipeline.arrRef spec8 10) := (W18_out2 m c).symm
theorem hF8 (c : Dev nD) (w : Fin cfg8.W) : (dat8 (E17 m) c).arrAt w cfg8.N = E18 m c (Pipeline.arrRef spec8 w) := by
  exact fin11_forall (P := fun w : Fin 11 => (dat8 (E17 m) c).arrAt w cfg8.N = E18 m c (Pipeline.arrRef spec8 w)) (hF8_0 m c) (hF8_1 m c) (hF8_2 m c) (hF8_3 m c) (hF8_4 m c) (hF8_5 m c) (hF8_6 m c) (hF8_7 m c) (hF8_8 m c) (hF8_9 m c) (hF8_10 m c) w
theorem hrest8 (c : Dev nD) : ∀ b, b ∉ Finset.univ.image (Pipeline.arrRef spec8) → E18 m c b = E17 m c b :=
  fun b hb => W18_of_ne m c b (fun e => hb (Finset.mem_image.mpr ⟨8, Finset.mem_univ _, e.symm⟩)) (fun e => hb (Finset.mem_image.mpr ⟨9, Finset.mem_univ _, e.symm⟩)) (fun e => hb (Finset.mem_image.mpr ⟨10, Finset.mem_univ _, e.symm⟩))

/-- After the host stretch before region 9. -/
def W19 (c : Dev nD) : Valuation τ sig (Elt F) := StableHlo.after hostOps9 (W18 m c)
/-- The same read at the TensorCore's references: what region 9 is entered with. -/
abbrev E19 : (c : Dev nD) → (b : Ref sig .tc) → Buf (Elt F) ((c : Thread nD τ).loc b) := fun c b => W19 m c b
/-- After region 9: its output arrays at what the region's write-backs leave, every other buffer as entered. -/
def W20 (c : Dev nD) : Valuation τ sig (Elt F) :=
  Function.update (W19 m c) main_v148 ((dat9 (E19 m) c).arrAt 5 cfg9.N)
abbrev E20 : (c : Dev nD) → (b : Ref sig .tc) → Buf (Elt F) ((c : Thread nD τ).loc b) := fun c b => W20 m c b
theorem W20_out0 (c : Dev nD) : W20 m c main_v148 = (dat9 (E19 m) c).arrAt 5 cfg9.N := by
  unfold W20; exact Function.update_self _ _ _
theorem W20_of_ne (c : Dev nD) (b : Ref sig .tc) (h0 : b ≠ main_v148) : W20 m c b = W19 m c b := by
  unfold W20; exact (Function.update_of_ne (StableHlo.devRef_ne_of_ne h0) _ _).trans (rfl)
theorem hF9_0 (c : Dev nD) : (dat9 (E19 m) c).arrAt 0 cfg9.N = E20 m c (Pipeline.arrRef spec9 0) :=
  (((dat9 (E19 m) c).arrAt_in 0 rfl _).trans (A_eq9 (E19 m) c 0)).trans (W20_of_ne m c main_v135_0 (by decide)).symm
theorem hF9_1 (c : Dev nD) : (dat9 (E19 m) c).arrAt 1 cfg9.N = E20 m c (Pipeline.arrRef spec9 1) :=
  (((dat9 (E19 m) c).arrAt_in 1 rfl _).trans (A_eq9 (E19 m) c 1)).trans (W20_of_ne m c main_v137 (by decide)).symm
theorem hF9_2 (c : Dev nD) : (dat9 (E19 m) c).arrAt 2 cfg9.N = E20 m c (Pipeline.arrRef spec9 2) :=
  (((dat9 (E19 m) c).arrAt_in 2 rfl _).trans (A_eq9 (E19 m) c 2)).trans (W20_of_ne m c main_v141 (by decide)).symm
theorem hF9_3 (c : Dev nD) : (dat9 (E19 m) c).arrAt 3 cfg9.N = E20 m c (Pipeline.arrRef spec9 3) :=
  (((dat9 (E19 m) c).arrAt_in 3 rfl _).trans (A_eq9 (E19 m) c 3)).trans (W20_of_ne m c main_v146 (by decide)).symm
theorem hF9_4 (c : Dev nD) : (dat9 (E19 m) c).arrAt 4 cfg9.N = E20 m c (Pipeline.arrRef spec9 4) :=
  (((dat9 (E19 m) c).arrAt_in 4 rfl _).trans (A_eq9 (E19 m) c 4)).trans (W20_of_ne m c main_v147 (by decide)).symm
theorem hF9_5 (c : Dev nD) : (dat9 (E19 m) c).arrAt 5 cfg9.N = E20 m c (Pipeline.arrRef spec9 5) := (W20_out0 m c).symm
theorem hF9 (c : Dev nD) (w : Fin cfg9.W) : (dat9 (E19 m) c).arrAt w cfg9.N = E20 m c (Pipeline.arrRef spec9 w) := by
  exact fin6_forall (P := fun w : Fin 6 => (dat9 (E19 m) c).arrAt w cfg9.N = E20 m c (Pipeline.arrRef spec9 w)) (hF9_0 m c) (hF9_1 m c) (hF9_2 m c) (hF9_3 m c) (hF9_4 m c) (hF9_5 m c) w
theorem hrest9 (c : Dev nD) : ∀ b, b ∉ Finset.univ.image (Pipeline.arrRef spec9) → E20 m c b = E19 m c b :=
  fun b hb => W20_of_ne m c b (fun e => hb (Finset.mem_image.mpr ⟨5, Finset.mem_univ _, e.symm⟩))

/-! ## The proof data family, the thread state, the regions as segments -/

/-- Every pipeline's proof data, each at its region's entry contents: a literal match on the pipeline. -/
def pdats : (p : Fin 10) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨_ + 10, h⟩ => absurd h (Nat.not_lt.2 (Nat.le_add_left _ _))

/-- No core owes another anything: no level is assigned. -/
abbrev Lv0 : GSem nD τ sig → Finset Unit := fun _ => ∅
abbrev lv0 : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lv0 lv0 0 fun c t => owed_eq0 (E1 m) c t
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full (q_eq0 (E1 m) c)) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 0 c).owed 0 = 0 from owed_eq0 (E1 m) c 0]
      iexact HO
    isplitl [Hp]; · iexact Hp
    iexact Hrest
  hin c := hin0 (E1 m) c
  hout c := hout0 (E1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (q_eq0 (E1 m) c))
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (E1 m) c _]
    iexact HO

set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def reg1 : RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lv0 lv0 1 fun c t => owed_eq1 (E3 m) c t
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full (q_eq1 (E3 m) c)) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 1 c).owed 0 = 0 from owed_eq1 (E3 m) c 0]
      iexact HO
    isplitl [Hp]; · iexact Hp
    iexact Hrest
  hin c := hin1 (E3 m) c
  hout c := hout1 (E3 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (q_eq1 (E3 m) c))
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed_eq1 (E3 m) c _]
    iexact HO

set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def reg2 : RegionSeg (pcfgs (F := F)) adm (pdats m) () defs₀ Variants.none Lv0 lv0 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ Lv0 lv0 2 fun c t => owed_eq2 (E5 m) c t
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full (q_eq2 (E5 m) c)) (E5 m c) fun w => A_eq2 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 2 c).owed 0 = 0 from owed_eq2 (E5 m) c 0]
      iexact HO
    isplitl [Hp]; · iexact Hp
    iexact Hrest
  hin c := hin2 (E5 m) c
  hout c := hout2 (E5 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full (q_eq2 (E5 m) c))
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed_eq2 (E5 m) c _]
    iexact HO

set_option backward.isDefEq.respectTransparency.types false in
/-- Region 3 over the thread state: entered from every unscoped buffer at `W7`, left at `W8`. Its arrays are split
    out of the unscoped buffers and put back at the exit contents; the generator register goes into the region's
    invariant and comes back; nothing is owed; the kernel has no semaphore of its own. -/
def reg3 : RegionSeg (pcfgs (F := F)) adm (pdats m) () defs₀ Variants.none Lv0 lv0 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ Lv0 lv0 3 fun c t => owed_eq3 (E7 m) c t
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full (q_eq3 (E7 m) c)) (E7 m c) fun w => A_eq3 (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 3 c).owed 0 = 0 from owed_eq3 (E7 m) c 0]
      iexact HO
    isplitl [Hp]; · iexact Hp
    iexact Hrest
  hin c := hin3 (E7 m) c
  hout c := hout3 (E7 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full (q_eq3 (E7 m) c))
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 3 c).owed (Fin.last _) = 0 from owed_eq3 (E7 m) c _]
    iexact HO

set_option backward.isDefEq.respectTransparency.types false in
/-- Region 4 over the thread state: entered from every unscoped buffer at `W9`, left at `W10`. Its arrays are split
    out of the unscoped buffers and put back at the exit contents; the generator register goes into the region's
    invariant and comes back; nothing is owed; the kernel has no semaphore of its own. -/
def reg4 : RegionSeg (pcfgs (F := F)) adm (pdats m) () defs₀ Variants.none Lv0 lv0 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ Lv0 lv0 4 fun c t => owed_eq4 (E9 m) c t
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full (q_eq4 (E9 m) c)) (E9 m c) fun w => A_eq4 (E9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 4 c).owed 0 = 0 from owed_eq4 (E9 m) c 0]
      iexact HO
    isplitl [Hp]; · iexact Hp
    iexact Hrest
  hin c := hin4 (E9 m) c
  hout c := hout4 (E9 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full (q_eq4 (E9 m) c))
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 4 c).owed (Fin.last _) = 0 from owed_eq4 (E9 m) c _]
    iexact HO

set_option backward.isDefEq.respectTransparency.types false in
/-- Region 5 over the thread state: entered from every unscoped buffer at `W11`, left at `W12`. Its arrays are split
    out of the unscoped buffers and put back at the exit contents; the generator register goes into the region's
    invariant and comes back; nothing is owed; the kernel has no semaphore of its own. -/
def reg5 : RegionSeg (pcfgs (F := F)) adm (pdats m) () defs₀ Variants.none Lv0 lv0 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ Lv0 lv0 5 fun c t => owed_eq5 (E11 m) c t
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full (q_eq5 (E11 m) c)) (E11 m c) fun w => A_eq5 (E11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 5 c).owed 0 = 0 from owed_eq5 (E11 m) c 0]
      iexact HO
    isplitl [Hp]; · iexact Hp
    iexact Hrest
  hin c := hin5 (E11 m) c
  hout c := hout5 (E11 m) c
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full (q_eq5 (E11 m) c))
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 5 c).owed (Fin.last _) = 0 from owed_eq5 (E11 m) c _]
    iexact HO

set_option backward.isDefEq.respectTransparency.types false in
/-- Region 6 over the thread state: entered from every unscoped buffer at `W13`, left at `W14`. Its arrays are split
    out of the unscoped buffers and put back at the exit contents; the generator register goes into the region's
    invariant and comes back; nothing is owed; the kernel has no semaphore of its own. -/
def reg6 : RegionSeg (pcfgs (F := F)) adm (pdats m) () defs₀ Variants.none Lv0 lv0 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ Lv0 lv0 6 fun c t => owed_eq6 (E13 m) c t
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full (q_eq6 (E13 m) c)) (E13 m c) fun w => A_eq6 (E13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 6 c).owed 0 = 0 from owed_eq6 (E13 m) c 0]
      iexact HO
    isplitl [Hp]; · iexact Hp
    iexact Hrest
  hin c := hin6 (E13 m) c
  hout c := hout6 (E13 m) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full (q_eq6 (E13 m) c))
      (E13 m c) (E14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 6 c).owed (Fin.last _) = 0 from owed_eq6 (E13 m) c _]
    iexact HO

set_option backward.isDefEq.respectTransparency.types false in
/-- Region 7 over the thread state: entered from every unscoped buffer at `W15`, left at `W16`. Its arrays are split
    out of the unscoped buffers and put back at the exit contents; the generator register goes into the region's
    invariant and comes back; nothing is owed; the kernel has no semaphore of its own. -/
def reg7 : RegionSeg (pcfgs (F := F)) adm (pdats m) () defs₀ Variants.none Lv0 lv0 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ Lv0 lv0 7 fun c t => owed_eq7 (E15 m) c t
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full (q_eq7 (E15 m) c)) (E15 m c) fun w => A_eq7 (E15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 7 c).owed 0 = 0 from owed_eq7 (E15 m) c 0]
      iexact HO
    isplitl [Hp]; · iexact Hp
    iexact Hrest
  hin c := hin7 (E15 m) c
  hout c := hout7 (E15 m) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full (q_eq7 (E15 m) c))
      (E15 m c) (E16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 7 c).owed (Fin.last _) = 0 from owed_eq7 (E15 m) c _]
    iexact HO

set_option backward.isDefEq.respectTransparency.types false in
/-- Region 8 over the thread state: entered from every unscoped buffer at `W17`, left at `W18`. Its arrays are split
    out of the unscoped buffers and put back at the exit contents; the generator register goes into the region's
    invariant and comes back; nothing is owed; the kernel has no semaphore of its own. -/
def reg8 : RegionSeg (pcfgs (F := F)) adm (pdats m) () defs₀ Variants.none Lv0 lv0 8 where
  win := launch8.win.to₀
  block_pos := launch8.block_pos
  stage_whole := launch8.stage_whole
  K := PEmpty
  osem k := k.elim
  ho := Pipeline.OwnSemFacts.none _
  hbody c := (body_obligation8 (E17 m) c).loose
  hwaits := Pipeline.hwaits_of_owed_zero _ _ _ _ Lv0 lv0 8 fun c t => owed_eq8 (E17 m) c t
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full (q_eq8 (E17 m) c)) (E17 m c) fun w => A_eq8 (E17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 8 c).owed 0 = 0 from owed_eq8 (E17 m) c 0]
      iexact HO
    isplitl [Hp]; · iexact Hp
    iexact Hrest
  hin c := hin8 (E17 m) c
  hout c := hout8 (E17 m) c
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full (q_eq8 (E17 m) c))
      (E17 m c) (E18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 8 c).owed (Fin.last _) = 0 from owed_eq8 (E17 m) c _]
    iexact HO

set_option backward.isDefEq.respectTransparency.types false in
/-- Region 9 over the thread state: entered from every unscoped buffer at `W19`, left at `W20`. Its arrays are split
    out of the unscoped buffers and put back at the exit contents; the generator register goes into the region's
    invariant and comes back; nothing is owed; the kernel has no semaphore of its own. -/
def reg9 : RegionSeg (pcfgs (F := F)) adm (pdats m) () defs₀ Variants.none Lv0 lv0 9 where
  win := launch9.win.to₀
  block_pos := launch9.block_pos
  stage_whole := launch9.stage_whole
  K := PEmpty
  osem k := k.elim
  ho := Pipeline.OwnSemFacts.none _
  hbody c := (body_obligation9 (E19 m) c).loose
  hwaits := Pipeline.hwaits_of_owed_zero _ _ _ _ Lv0 lv0 9 fun c t => owed_eq9 (E19 m) c t
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) adm (pdats m) launch9.win launch9.arr_whole c
      ((pdats m 9 c).share_full (q_eq9 (E19 m) c)) (E19 m c) fun w => A_eq9 (E19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 9 c).owed 0 = 0 from owed_eq9 (E19 m) c 0]
      iexact HO
    isplitl [Hp]; · iexact Hp
    iexact Hrest
  hin c := hin9 (E19 m) c
  hout c := hout9 (E19 m) c
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full (q_eq9 (E19 m) c))
      (E19 m c) (E20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 9 c).owed (Fin.last _) = 0 from owed_eq9 (E19 m) c _]
    iexact HO

end Cert.KernelIdeal.Hand

end
-- ==== Proof.KI.RunCond.lean ====
/-
  The run of the idealized kernel's @main with its RESULT named, given one segment record per kernel region.
  Between two items of @main core c holds every unscoped buffer whole, at the launch contents folded through the host
  stretches and, after region K, at the contents `outs` names for the arrays that region writes. The statement and the
  proof are those of the conditional frame over the same segments with one more conjunct read off the last valuation:
  the result array main_v148 ends at `outs 20 main_v148 c`, beside every argument array at its launch contents.
-/
import proofs.«132438_j6098853560655_1_alg».proof.Proof.Gen.KernelIdeal.Regions

set_option maxRecDepth 1744

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

set_option backward.isDefEq.respectTransparency.types false in
/-- Every weakly fair execution of @main from memory `m` with zero counters terminates; in every final memory the
    result array holds what `outs` names for the last region's output and each argument array what it was launched with. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 10) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 11 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE10 : ∀ c : Dev nD, E 10 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c)) :
    θ_run defs (onTc (τ := τ) (main (F := F))) ⟨m, fun _ => 0, ρ⟩ (fun r => ∀ c : Dev nD,
      r.2.mem ((c.tc : Thread nD τ).loc main_v148) = outs 20 main_v148 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9)
    (fun c Q => by
      rewrite [main_chain c, Seg.run_eq_chain,
        show (segs m outs 𝒱₀ L lv E ι pdats R0 R1 R2 R3 R4 R5 R6 R7 R8 R9 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V20 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, (hpost9 c).trans (sep_mono .rfl (hE10 c))⟩)
    (hinit := ?_) (QY := fun c s => s.mem ((c.tc : Thread nD τ).loc main_v148) = outs 20 main_v148 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V20 m outs c) s') $$ [Hh HSI]
    · isplitl [Hh] <;> iassumption
    icases Hr with ⟨%h, HSI⟩
    imodintro
    isplitr
    · ipureintro
      exact ⟨(h (Proc.devRef .tc main_v148) (Finset.mem_filter.mpr ⟨StableHlo.devRef_mem_tcRefs main_v148, by decide⟩)).trans (Function.update_self _ _ _),
        (h (Proc.devRef .tc main_arg0) (Finset.mem_filter.mpr ⟨StableHlo.devRef_mem_tcRefs main_arg0, by decide⟩)).trans (V20_main_arg0 m outs c),
        (h (Proc.devRef .tc main_arg1) (Finset.mem_filter.mpr ⟨StableHlo.devRef_mem_tcRefs main_arg1, by decide⟩)).trans (V20_main_arg1 m outs c),
        (h (Proc.devRef .tc main_arg2) (Finset.mem_filter.mpr ⟨StableHlo.devRef_mem_tcRefs main_arg2, by decide⟩)).trans (V20_main_arg2 m outs c),
        (h (Proc.devRef .tc main_arg3) (Finset.mem_filter.mpr ⟨StableHlo.devRef_mem_tcRefs main_arg3, by decide⟩)).trans (V20_main_arg3 m outs c),
        (h (Proc.devRef .tc main_arg4) (Finset.mem_filter.mpr ⟨StableHlo.devRef_mem_tcRefs main_arg4, by decide⟩)).trans (V20_main_arg4 m outs c),
        (h (Proc.devRef .tc main_arg5) (Finset.mem_filter.mpr ⟨StableHlo.devRef_mem_tcRefs main_arg5, by decide⟩)).trans (V20_main_arg5 m outs c),
        (h (Proc.devRef .tc main_arg6) (Finset.mem_filter.mpr ⟨StableHlo.devRef_mem_tcRefs main_arg6, by decide⟩)).trans (V20_main_arg6 m outs c),
        (h (Proc.devRef .tc main_arg7) (Finset.mem_filter.mpr ⟨StableHlo.devRef_mem_tcRefs main_arg7, by decide⟩)).trans (V20_main_arg7 m outs c),
        (h (Proc.devRef .tc main_arg8) (Finset.mem_filter.mpr ⟨StableHlo.devRef_mem_tcRefs main_arg8, by decide⟩)).trans (V20_main_arg8 m outs c),
        (h (Proc.devRef .tc main_arg9) (Finset.mem_filter.mpr ⟨StableHlo.devRef_mem_tcRefs main_arg9, by decide⟩)).trans (V20_main_arg9 m outs c),
        (h (Proc.devRef .tc main_arg10) (Finset.mem_filter.mpr ⟨StableHlo.devRef_mem_tcRefs main_arg10, by decide⟩)).trans (V20_main_arg10 m outs c),
        (h (Proc.devRef .tc main_arg11) (Finset.mem_filter.mpr ⟨StableHlo.devRef_mem_tcRefs main_arg11, by decide⟩)).trans (V20_main_arg11 m outs c)⟩
    · iexact HSI

end Cert.KernelIdeal.Hand

end
-- ==== Proof.KI.Run.lean ====
/-
  The run of the idealized kernel's @main with its result named: the boundary contents of Chain.lean are the valuations the
  conditional run is stated over (at the family `outsW` read off them), so its segments chain, and the result array ends at
  the last region's proof data's output array after the last grid point, every argument array at its launch contents.
-/
import proofs.«132438_j6098853560655_1_alg».proof.Proof.KI.Chain
import proofs.«132438_j6098853560655_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-! ## What the regions leave, as the family the generated valuations are written over; the two folds agree -/

/-- The contents after item `J - 1`, read off the fold above (only the even `J` are ever read, at a region's output arrays). -/
def outsW : Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | _ => W0 m c r

theorem V0_eq (c : Dev nD) : V0 m c = W0 m c := rfl
theorem V1_eq (c : Dev nD) : V1 m c = W1 m c := by
  show StableHlo.after hostOps0 (V0 m c) = _
  rw [V0_eq]; rfl
theorem V2_eq (c : Dev nD) : V2 m (outsW m) c = W2 m c := by
  show Function.update (V1 m c) main_v7 (outsW m 2 main_v7 c) = _
  rw [V1_eq, show outsW m 2 main_v7 c = (dat0 (E1 m) c).arrAt 3 cfg0.N from W2_out0 m c]; rfl
theorem V3_eq (c : Dev nD) : V3 m (outsW m) c = W3 m c := by
  show StableHlo.after hostOps1 (V2 m (outsW m) c) = _
  rw [V2_eq]; rfl
theorem V4_eq (c : Dev nD) : V4 m (outsW m) c = W4 m c := by
  show Function.update (Function.update (Function.update (V3 m (outsW m) c) main_v23_0 (outsW m 4 main_v23_0 c)) main_v23_1 (outsW m 4 main_v23_1 c)) main_v23_2 (outsW m 4 main_v23_2 c) = _
  rw [V3_eq, show outsW m 4 main_v23_0 c = (dat1 (E3 m) c).arrAt 4 cfg1.N from W4_out0 m c, show outsW m 4 main_v23_1 c = (dat1 (E3 m) c).arrAt 5 cfg1.N from W4_out1 m c, show outsW m 4 main_v23_2 c = (dat1 (E3 m) c).arrAt 6 cfg1.N from W4_out2 m c]; rfl
theorem V5_eq (c : Dev nD) : V5 m (outsW m) c = W5 m c := by
  show StableHlo.after hostOps2 (V4 m (outsW m) c) = _
  rw [V4_eq]; rfl
theorem V6_eq (c : Dev nD) : V6 m (outsW m) c = W6 m c := by
  show Function.update (Function.update (Function.update (V5 m (outsW m) c) main_v41_0 (outsW m 6 main_v41_0 c)) main_v41_1 (outsW m 6 main_v41_1 c)) main_v41_2 (outsW m 6 main_v41_2 c) = _
  rw [V5_eq, show outsW m 6 main_v41_0 c = (dat2 (E5 m) c).arrAt 8 cfg2.N from W6_out0 m c, show outsW m 6 main_v41_1 c = (dat2 (E5 m) c).arrAt 9 cfg2.N from W6_out1 m c, show outsW m 6 main_v41_2 c = (dat2 (E5 m) c).arrAt 10 cfg2.N from W6_out2 m c]; rfl
theorem V7_eq (c : Dev nD) : V7 m (outsW m) c = W7 m c := by
  show StableHlo.after hostOps3 (V6 m (outsW m) c) = _
  rw [V6_eq]; rfl
theorem V8_eq (c : Dev nD) : V8 m (outsW m) c = W8 m c := by
  show Function.update (V7 m (outsW m) c) main_v54 (outsW m 8 main_v54 c) = _
  rw [V7_eq, show outsW m 8 main_v54 c = (dat3 (E7 m) c).arrAt 5 cfg3.N from W8_out0 m c]; rfl
theorem V9_eq (c : Dev nD) : V9 m (outsW m) c = W9 m c := by
  show StableHlo.after hostOps4 (V8 m (outsW m) c) = _
  rw [V8_eq]; rfl
theorem V10_eq (c : Dev nD) : V10 m (outsW m) c = W10 m c := by
  show Function.update (Function.update (Function.update (V9 m (outsW m) c) main_v70_0 (outsW m 10 main_v70_0 c)) main_v70_1 (outsW m 10 main_v70_1 c)) main_v70_2 (outsW m 10 main_v70_2 c) = _
  rw [V9_eq, show outsW m 10 main_v70_0 c = (dat4 (E9 m) c).arrAt 4 cfg4.N from W10_out0 m c, show outsW m 10 main_v70_1 c = (dat4 (E9 m) c).arrAt 5 cfg4.N from W10_out1 m c, show outsW m 10 main_v70_2 c = (dat4 (E9 m) c).arrAt 6 cfg4.N from W10_out2 m c]; rfl
theorem V11_eq (c : Dev nD) : V11 m (outsW m) c = W11 m c := by
  show StableHlo.after hostOps5 (V10 m (outsW m) c) = _
  rw [V10_eq]; rfl
theorem V12_eq (c : Dev nD) : V12 m (outsW m) c = W12 m c := by
  show Function.update (Function.update (Function.update (V11 m (outsW m) c) main_v88_0 (outsW m 12 main_v88_0 c)) main_v88_1 (outsW m 12 main_v88_1 c)) main_v88_2 (outsW m 12 main_v88_2 c) = _
  rw [V11_eq, show outsW m 12 main_v88_0 c = (dat5 (E11 m) c).arrAt 8 cfg5.N from W12_out0 m c, show outsW m 12 main_v88_1 c = (dat5 (E11 m) c).arrAt 9 cfg5.N from W12_out1 m c, show outsW m 12 main_v88_2 c = (dat5 (E11 m) c).arrAt 10 cfg5.N from W12_out2 m c]; rfl
theorem V13_eq (c : Dev nD) : V13 m (outsW m) c = W13 m c := by
  show StableHlo.after hostOps6 (V12 m (outsW m) c) = _
  rw [V12_eq]; rfl
theorem V14_eq (c : Dev nD) : V14 m (outsW m) c = W14 m c := by
  show Function.update (V13 m (outsW m) c) main_v101 (outsW m 14 main_v101 c) = _
  rw [V13_eq, show outsW m 14 main_v101 c = (dat6 (E13 m) c).arrAt 5 cfg6.N from W14_out0 m c]; rfl
theorem V15_eq (c : Dev nD) : V15 m (outsW m) c = W15 m c := by
  show StableHlo.after hostOps7 (V14 m (outsW m) c) = _
  rw [V14_eq]; rfl
theorem V16_eq (c : Dev nD) : V16 m (outsW m) c = W16 m c := by
  show Function.update (Function.update (Function.update (V15 m (outsW m) c) main_v117_0 (outsW m 16 main_v117_0 c)) main_v117_1 (outsW m 16 main_v117_1 c)) main_v117_2 (outsW m 16 main_v117_2 c) = _
  rw [V15_eq, show outsW m 16 main_v117_0 c = (dat7 (E15 m) c).arrAt 4 cfg7.N from W16_out0 m c, show outsW m 16 main_v117_1 c = (dat7 (E15 m) c).arrAt 5 cfg7.N from W16_out1 m c, show outsW m 16 main_v117_2 c = (dat7 (E15 m) c).arrAt 6 cfg7.N from W16_out2 m c]; rfl
theorem V17_eq (c : Dev nD) : V17 m (outsW m) c = W17 m c := by
  show StableHlo.after hostOps8 (V16 m (outsW m) c) = _
  rw [V16_eq]; rfl
theorem V18_eq (c : Dev nD) : V18 m (outsW m) c = W18 m c := by
  show Function.update (Function.update (Function.update (V17 m (outsW m) c) main_v135_0 (outsW m 18 main_v135_0 c)) main_v135_1 (outsW m 18 main_v135_1 c)) main_v135_2 (outsW m 18 main_v135_2 c) = _
  rw [V17_eq, show outsW m 18 main_v135_0 c = (dat8 (E17 m) c).arrAt 8 cfg8.N from W18_out0 m c, show outsW m 18 main_v135_1 c = (dat8 (E17 m) c).arrAt 9 cfg8.N from W18_out1 m c, show outsW m 18 main_v135_2 c = (dat8 (E17 m) c).arrAt 10 cfg8.N from W18_out2 m c]; rfl
theorem V19_eq (c : Dev nD) : V19 m (outsW m) c = W19 m c := by
  show StableHlo.after hostOps9 (V18 m (outsW m) c) = _
  rw [V18_eq]; rfl
theorem V20_eq (c : Dev nD) : V20 m (outsW m) c = W20 m c := by
  show Function.update (V19 m (outsW m) c) main_v148 (outsW m 20 main_v148 c) = _
  rw [V19_eq, show outsW m 20 main_v148 c = (dat9 (E19 m) c).arrAt 5 cfg9.N from W20_out0 m c]; rfl

/-! ## The run -/

set_option backward.isDefEq.respectTransparency.types false in
/-- Every weakly fair execution of @main terminates; the result array ends at the last boundary's contents and every
    argument array at its launch contents: the conditional run at the segments above. -/
theorem run_outs (ρ : Dev nD → PrngReg) :
    θ_run defs (onTc (τ := τ) (main (F := F))) ⟨m, fun _ => 0, ρ⟩ (fun r => ∀ c : Dev nD,
      r.2.mem ((c.tc : Thread nD τ).loc main_v148) = outsW m 20 main_v148 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine run_cond m emb₁ () Variants.none Lv0 lv0 (fun _ _ => rfl) ρ (outsW m) (pdats m) 0 (fun _ => iprop(emp))
    (initOf (Pipeline.cells cfgs cellOf_inj) (Pipeline.launchToks cfgs cellOf_inj)) ?_ (fun _ c => Rr c) ?_ ?_
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)
    (reg9 m) (fun c => by rw [V19_eq]; exact .rfl) (fun c => by rw [V20_eq]; exact .rfl)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hmono : (bigSep Finset.univ (fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) : sProp 𝕄)
        ⊢ bigSep Finset.univ (fun c : Dev nD => Rr (F := F) c) :=
      bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ Rr c from by
        iintro ⟨-, HO, -, Hp, -⟩
        isplitl [Hp]; · iexists _; iexact Hp
        iexists ∅; iexact HO)
    iintro ⟨H, -⟩
    imodintro
    iapply hmono
    iexact H
  · intro c
    iintro ⟨-, HO⟩; iexact HO

/-- The same with the result named by the last region's proof data: its output array after the last grid point. -/
theorem run_value (ρ : Dev nD → PrngReg) :
    θ_run defs (onTc (τ := τ) (main (F := F))) ⟨m, fun _ => 0, ρ⟩ (fun r => ∀ c : Dev nD,
      r.2.mem ((c.tc : Thread nD τ).loc main_v148) = (dat9 (E19 m) c).arrAt 5 cfg9.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W20_out0 m c), (h c).2⟩) (run_outs m ρ)

end Cert.KernelIdeal.Hand

end
-- ==== Proof.RI.Ops.lean ====
/-
  The reference program's @main as lists of its host operations: 400 of them once the calls to the
  module-local functions (the variance, its select, the rectifier) are written out at their call sites over
  each call's own buffers. The list is cut where @main's five windows end and where one layer's operations
  end, into eight consecutive pieces; every other module speaks of concatenations of these.
-/
import proofs.«132438_j6098853560655_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 10 of the 400 (window 0 of @main, the embedding). -/
abbrev pc0A : List (HloOp τ sig (Elt F)) :=
  [ StableHlo.reshape main_arg0 main_v0 rfl shapeCasts_S1x50000x128_S50000x128,
    StableHlo.reshape main_arg1 main_v1 rfl shapeCasts_S1x800000x2_S800000x2,
    StableHlo.unary main_v1 main_v2 ((extractStridedSlice S800000x1 ![0, 0] · slices_S800000x2_S800000x1_0_0) : (⟨S800000x2, .i32⟩ : BufTy).Contents (Elt F) → (⟨S800000x1, .i32⟩ : BufTy).Contents (Elt F)),
    StableHlo.reshape main_v2 main_v3 rfl shapeCasts_S800000x1_S800000,
    StableHlo.unary main_v1 main_v4 ((extractStridedSlice S800000x1 ![0, 1] · slices_S800000x2_S800000x1_0_1) : (⟨S800000x2, .i32⟩ : BufTy).Contents (Elt F) → (⟨S800000x1, .i32⟩ : BufTy).Contents (Elt F)),
    StableHlo.reshape main_v4 main_v5 rfl shapeCasts_S800000x1_S800000,
    StableHlo.binary main_v0 main_arg2 main_v6 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v7 (broadcastInDim S1x256 ![1] bcast_S256_S1x256_1 : (⟨S256, .f32⟩ : BufTy).Contents (Elt F) → (⟨S1x256, .f32⟩ : BufTy).Contents (Elt F)),
    StableHlo.unary main_v7 main_v8 (broadcastInDim S50000x256 ![0, 1] bcast_S1x256_S50000x256_0_1 : (⟨S1x256, .f32⟩ : BufTy).Contents (Elt F) → (⟨S50000x256, .f32⟩ : BufTy).Contents (Elt F)),
    StableHlo.binary main_v6 main_v8 main_v9 (addf : (⟨S50000x256, .f32⟩ : BufTy).Contents (Elt F) → (⟨S50000x256, .f32⟩ : BufTy).Contents (Elt F) → (⟨S50000x256, .f32⟩ : BufTy).Contents (Elt F)) ]

theorem pc0A_sub : (pc0A : List (HloOp τ sig (Elt F))).Forall fun op => op.bufs ⊆ tcRefs τ sig :=
  ⟨reshape_bufs_sub .., reshape_bufs_sub .., unary_bufs_sub .., reshape_bufs_sub .., unary_bufs_sub .., reshape_bufs_sub .., binary_bufs_sub .., unary_bufs_sub .., unary_bufs_sub .., binary_bufs_sub ..⟩

theorem pc0A_fresh : (pc0A : List (HloOp τ sig (Elt F))).Forall fun op => op.fresh = ∅ :=
  ⟨rfl, rfl, rfl, rfl, rfl, rfl, rfl, rfl, rfl, rfl⟩

/-- Operations 11 … 83 of the 400 (window 0 of @main, layer 0). -/
abbrev pc0L0 : List (HloOp τ sig (Elt F)) :=
  [ StableHlo.nullary main_c (constantI S_ 32 0#32),
    StableHlo.unary main_c main_v10 (broadcastInDim S800000 ![] bcast_S_S800000 : (⟨S_, .i32⟩ : BufTy).Contents (Elt F) → (⟨S800000, .i32⟩ : BufTy).Contents (Elt F)),
    StableHlo.binary main_v3 main_v10 main_v11 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v12 (broadcastInDim S800000 ![] bcast_S_S800000 : (⟨S_, .i32⟩ : BufTy).Contents (Elt F) → (⟨S800000, .i32⟩ : BufTy).Contents (Elt F)),
    StableHlo.binary main_v3 main_v12 main_v13 (addi : (⟨S800000, .i32⟩ : BufTy).Contents (Elt F) → (⟨S800000, .i32⟩ : BufTy).Contents (Elt F) → (⟨S800000, .i32⟩ : BufTy).Contents (Elt F)),
    StableHlo.ternary main_v11 main_v13 main_v3 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v14 main_v15 (broadcastInDim S800000x1 ![0] bcast_S800000_S800000x1_0 : (⟨S800000, .i32⟩ : BufTy).Contents (Elt F) → (⟨S800000x1, .i32⟩ : BufTy).Contents (Elt F)),
    StableHlo.binary main_v9 main_v15 main_v16 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst (constant S_ .f32 0x00000000#32),
    StableHlo.unary main_cst main_v17 (broadcastInDim S50000x256 ![] bcast_S_S50000x256 : (⟨S_, .f32⟩ : BufTy).Contents (Elt F) → (⟨S50000x256, .f32⟩ : BufTy).Contents (Elt F)),
    StableHlo.unary main_v5 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v9 main_v19 main_v20 (addf : (⟨S50000x256, .f32⟩ : BufTy).Contents (Elt F) → (⟨S50000x256, .f32⟩ : BufTy).Contents (Elt F) → (⟨S50000x256, .f32⟩ : BufTy).Contents (Elt F)),
    StableHlo.unary main_arg4 main_v21 ((extractStridedSlice S1x256x512 ![0, 0, 0] · slices_S3x256x512_S1x256x512_0_0_0) : (⟨S3x256x512, .f32⟩ : BufTy).Contents (Elt F) → (⟨S1x256x512, .f32⟩ : BufTy).Contents (Elt F)),
    StableHlo.reshape main_v21 main_v22 rfl shapeCasts_S1x256x512_S256x512,
    StableHlo.binary main_v20 main_v22 main_v23 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.unary main_arg5 main_v24 ((extractStridedSlice S1x512 ![0, 0] · slices_S3x512_S1x512_0_0) : (⟨S3x512, .f32⟩ : BufTy).Contents (Elt F) → (⟨S1x512, .f32⟩ : BufTy).Contents (Elt F)),
    StableHlo.reshape main_v24 main_v25 rfl shapeCasts_S1x512_S512,
    StableHlo.unary main_v25 main_v26 (broadcastInDim S1x512 ![1] bcast_S512_S1x512_1 : (⟨S512, .f32⟩ : BufTy).Contents (Elt F) → (⟨S1x512, .f32⟩ : BufTy).Contents (Elt F)),
    StableHlo.unary main_v26 main_v27 (broadcastInDim S50000x512 ![0, 1] bcast_S1x512_S50000x512_0_1 : (⟨S1x512, .f32⟩ : BufTy).Contents (Elt F) → (⟨S50000x512, .f32⟩ : BufTy).Contents (Elt F)),
    StableHlo.binary main_v23 main_v27 main_v28 (addf : (⟨S50000x512, .f32⟩ : BufTy).Contents (Elt F) → (⟨S50000x512, .f32⟩ : BufTy).Contents (Elt F) → (⟨S50000x512, .f32⟩ : BufTy).Contents (Elt F)),
    StableHlo.unary main_arg6 main_v29 ((extractStridedSlice S1x512 ![0, 0] · slices_S3x512_S1x512_0_0) : (⟨S3x512, .f32⟩ : BufTy).Contents (Elt F) → (⟨S1x512, .f32⟩ : BufTy).Contents (Elt F)),
    StableHlo.reshape main_v29 main_v30 rfl shapeCasts_S1x512_S512,
    StableHlo.unary main_arg7 main_v31 ((extractStridedSlice S1x512 ![0, 0] · slices_S3x512_S1x512_0_0) : (⟨S3x512, .f32⟩ : BufTy).Contents (Elt F) → (⟨S1x512, .f32⟩ : BufTy).Contents (Elt F)),
    StableHlo.reshape main_v31 main_v32 rfl shapeCasts_S1x512_S512,
    StableHlo.nullary main_cst_1 (constant S_ .f32 0x00000000#32),
    StableHlo.binary main_v28 main_cst_1 main_v33 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_2 (constant S_ .f32 0x47435000#32),
    StableHlo.unary main_cst_2 main_v34 (broadcastInDim S512 ![] bcast_S_S512 : (⟨S_, .f32⟩ : BufTy).Contents (Elt F) → (⟨S512, .f32⟩ : BufTy).Contents (Elt F)),
    StableHlo.binary main_v33 main_v34 main_v35 (Host.divf : (⟨S512, .f32⟩ : BufTy).Contents (Elt F) → (⟨S512, .f32⟩ : BufTy).Contents (Elt F) → (⟨S512, .f32⟩ : BufTy).Contents (Elt F)),
    StableHlo.nullary main_c_3 (constantI S_ 32 0#32),
    StableHlo.TRef.nullary main_call0.cst (constant S_ .f32 0x00000000#32),
    StableHlo.TRef.binary (TRef.of main_v28 : TRef sig ⟨S50000x512, .f32⟩) main_call0.cst main_call0.v0 (fun x v => Host.reduceAdd x v reducesTo_S50000x512_S512_d0 h_S_),
    StableHlo.TRef.unary main_call0.v0 main_call0.v1 (broadcastInDim S1x512 ![1] bcast_S512_S1x512_1),
    StableHlo.TRef.nullary main_call0.cst_0 (constant S_ .f32 0x47435000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S50000x512 ![0, 1] bcast_S1x512_S50000x512_0_1),
    StableHlo.TRef.binary (TRef.of main_v28 : TRef sig ⟨S50000x512, .f32⟩) main_call0.v4 main_call0.v5 subf,
    StableHlo.TRef.binary main_call0.v5 main_call0.v5 main_call0.v6 mulf,
    StableHlo.TRef.unary (TRef.of main_c_3 : TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v35 main_v37 (broadcastInDim S1x512 ![1] bcast_S512_S1x512_1 : (⟨S512, .f32⟩ : BufTy).Contents (Elt F) → (⟨S1x512, .f32⟩ : BufTy).Contents (Elt F)),
    StableHlo.unary main_v37 main_v38 (broadcastInDim S50000x512 ![0, 1] bcast_S1x512_S50000x512_0_1 : (⟨S1x512, .f32⟩ : BufTy).Contents (Elt F) → (⟨S50000x512, .f32⟩ : BufTy).Contents (Elt F)),
    StableHlo.binary main_v28 main_v38 main_v39 (subf : (⟨S50000x512, .f32⟩ : BufTy).Contents (Elt F) → (⟨S50000x512, .f32⟩ : BufTy).Contents (Elt F) → (⟨S50000x512, .f32⟩ : BufTy).Contents (Elt F)),
    StableHlo.unary main_v30 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S50000x512 ![0, 1] bcast_S1x512_S50000x512_0_1 : (⟨S1x512, .f32⟩ : BufTy).Contents (Elt F) → (⟨S50000x512, .f32⟩ : BufTy).Contents (Elt F)),
    StableHlo.binary main_v41 main_v39 main_v42 (mulf : (⟨S50000x512, .f32⟩ : BufTy).Contents (Elt F) → (⟨S50000x512, .f32⟩ : BufTy).Contents (Elt F) → (⟨S50000x512, .f32⟩ : BufTy).Contents (Elt F)),
    StableHlo.nullary main_cst_4 (constant S_ .f32 0x3727C5AC#32),
    StableHlo.unary main_cst_4 main_v43 (broadcastInDim S512 ![] bcast_S_S512 : (⟨S_, .f32⟩ : BufTy).Contents (Elt F) → (⟨S512, .f32⟩ : BufTy).Contents (Elt F)),
    StableHlo.binary main_v36 main_v43 main_v44 (addf : (⟨S512, .f32⟩ : BufTy).Contents (Elt F) → (⟨S512, .f32⟩ : BufTy).Contents (Elt F) → (⟨S512, .f32⟩ : BufTy).Contents (Elt F)),
    StableHlo.unary main_v44 main_v45 (Host.rsqrt : (⟨S512, .f32⟩ : BufTy).Contents (Elt F) → (⟨S512, .f32⟩ : BufTy).Contents (Elt F)),
    StableHlo.unary main_v45 main_v46 (broadcastInDim S1x512 ![1] bcast_S512_S1x512_1 : (⟨S512, .f32⟩ : BufTy).Contents (Elt F) → (⟨S1x512, .f32⟩ : BufTy).Contents (Elt F)),
    StableHlo.unary main_v46 main_v47 (broadcastInDim S50000x512 ![0, 1] bcast_S1x512_S50000x512_0_1 : (⟨S1x512, .f32⟩ : BufTy).Contents (Elt F) → (⟨S50000x512, .f32⟩ : BufTy).Contents (Elt F)),
    StableHlo.binary main_v42 main_v47 main_v48 (mulf : (⟨S50000x512, .f32⟩ : BufTy).Contents (Elt F) → (⟨S50000x512, .f32⟩ : BufTy).Contents (Elt F) → (⟨S50000x512, .f32⟩ : BufTy).Contents (Elt F)),
    StableHlo.unary main_v32 main_v49 (broadcastInDim S1x512 ![1] bcast_S512_S1x512_1 : (⟨S512, .f32⟩ : BufTy).Contents (Elt F) → (⟨S1x512, .f32⟩ : BufTy).Contents (Elt F)),
    StableHlo.unary main_v49 main_v50 (broadcastInDim S50000x512 ![0, 1] bcast_S1x512_S50000x512_0_1 : (⟨S1x512, .f32⟩ : BufTy).Contents (Elt F) → (⟨S50000x512, .f32⟩ : BufTy).Contents (Elt F)),
    StableHlo.binary main_v48 main_v50 main_v51 (addf : (⟨S50000x512, .f32⟩ : BufTy).Contents (Elt F) → (⟨S50000x512, .f32⟩ : BufTy).Contents (Elt F) → (⟨S50000x512, .f32⟩ : BufTy).Contents (Elt F)),
    StableHlo.TRef.nullary main_call1.cst (constant S_ .f32 0x00000000#32),
    StableHlo.TRef.unary main_call1.cst main_call1.v0 (broadcastInDim S50000x512 ![] bcast_S_S50000x512),
    StableHlo.TRef.binary (TRef.of main_v51 : TRef sig ⟨S50000x512, .f32⟩) main_call1.v0 main_call1.v1 maximumf ]

theorem pc0L0_sub : (pc0L0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem pc0L0_fresh : (pc0L0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 84 … 140 of the 400 (window 1 of @main, layer 0). -/
abbrev pc1L0 : List (HloOp τ sig (Elt F)) :=
  [ StableHlo.unary main_arg8 main_v53 ((extractStridedSlice S1x512x256 ![0, 0, 0] · slices_S3x512x256_S1x512x256_0_0_0) : (⟨S3x512x256, .f32⟩ : BufTy).Contents (Elt F) → (⟨S1x512x256, .f32⟩ : BufTy).Contents (Elt F)),
    StableHlo.reshape main_v53 main_v54 rfl shapeCasts_S1x512x256_S512x256,
    StableHlo.binary main_v52 main_v54 main_v55 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg9 main_v56 ((extractStridedSlice S1x256 ![0, 0] · slices_S3x256_S1x256_0_0) : (⟨S3x256, .f32⟩ : BufTy).Contents (Elt F) → (⟨S1x256, .f32⟩ : BufTy).Contents (Elt F)),
    StableHlo.reshape main_v56 main_v57 rfl shapeCasts_S1x256_S256,
    StableHlo.unary main_v57 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v59 main_v60 (addf : (⟨S50000x256, .f32⟩ : BufTy).Contents (Elt F) → (⟨S50000x256, .f32⟩ : BufTy).Contents (Elt F) → (⟨S50000x256, .f32⟩ : BufTy).Contents (Elt F)),
    StableHlo.binary main_v60 main_v9 main_v61 (addf : (⟨S50000x256, .f32⟩ : BufTy).Contents (Elt F) → (⟨S50000x256, .f32⟩ : BufTy).Contents (Elt F) → (⟨S50000x256, .f32⟩ : BufTy).Contents (Elt F)),
    StableHlo.unary main_arg10 main_v62 ((extractStridedSlice S1x256 ![0, 0] · slices_S3x256_S1x256_0_0) : (⟨S3x256, .f32⟩ : BufTy).Contents (Elt F) → (⟨S1x256, .f32⟩ : BufTy).Contents (Elt F)),
    StableHlo.reshape main_v62 main_v63 rfl shapeCasts_S1x256_S256,
    StableHlo.unary main_arg11 main_v64 ((extractStridedSlice S1x256 ![0, 0] · slices_S3x256_S1x256_0_0) : (⟨S3x256, .f32⟩ : BufTy).Contents (Elt F) → (⟨S1x256, .f32⟩ : BufTy).Contents (Elt F)),
    StableHlo.reshape main_v64 main_v65 rfl shapeCasts_S1x256_S256,
    StableHlo.nullary main_cst_5 (constant S_ .f32 0x00000000#32),
    StableHlo.binary main_v61 main_cst_5 main_v66 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_6 (constant S_ .f32 0x47435000#32),
    StableHlo.unary main_cst_6 main_v67 (broadcastInDim S256 ![] bcast_S_S256 : (⟨S_, .f32⟩ : BufTy).Contents (Elt F) → (⟨S256, .f32⟩ : BufTy).Contents (Elt F)),
    StableHlo.binary main_v66 main_v67 main_v68 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call2.cst (constant S_ .f32 0x00000000#32),
    StableHlo.TRef.binary (TRef.of main_v61 : TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (TRef.of main_v61 : TRef sig ⟨S50000x256, .f32⟩) main_call2.v4 main_call2.v5 subf,
    StableHlo.TRef.binary main_call2.v5 main_call2.v5 main_call2.v6 mulf,
    StableHlo.TRef.unary (TRef.of main_c_7 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v68 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v71 main_v72 (subf : (⟨S50000x256, .f32⟩ : BufTy).Contents (Elt F) → (⟨S50000x256, .f32⟩ : BufTy).Contents (Elt F) → (⟨S50000x256, .f32⟩ : BufTy).Contents (Elt F)),
    StableHlo.unary main_v63 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S50000x256 ![0, 1] bcast_S1x256_S50000x256_0_1 : (⟨S1x256, .f32⟩ : BufTy).Contents (Elt F) → (⟨S50000x256, .f32⟩ : BufTy).Contents (Elt F)),
    StableHlo.binary main_v74 main_v72 main_v75 (mulf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v76 (broadcastInDim S256 ![] bcast_S_S256 : (⟨S_, .f32⟩ : BufTy).Contents (Elt F) → (⟨S256, .f32⟩ : BufTy).Contents (Elt F)),
    StableHlo.binary main_v69 main_v76 main_v77 (addf : (⟨S256, .f32⟩ : BufTy).Contents (Elt F) → (⟨S256, .f32⟩ : BufTy).Contents (Elt F) → (⟨S256, .f32⟩ : BufTy).Contents (Elt F)),
    StableHlo.unary main_v77 main_v78 (Host.rsqrt : (⟨S256, .f32⟩ : BufTy).Contents (Elt F) → (⟨S256, .f32⟩ : BufTy).Contents (Elt F)),
    StableHlo.unary main_v78 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S50000x256 ![0, 1] bcast_S1x256_S50000x256_0_1 : (⟨S1x256, .f32⟩ : BufTy).Contents (Elt F) → (⟨S50000x256, .f32⟩ : BufTy).Contents (Elt F)),
    StableHlo.binary main_v75 main_v80 main_v81 (mulf : (⟨S50000x256, .f32⟩ : BufTy).Contents (Elt F) → (⟨S50000x256, .f32⟩ : BufTy).Contents (Elt F) → (⟨S50000x256, .f32⟩ : BufTy).Contents (Elt F)),
    StableHlo.unary main_v65 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S50000x256 ![0, 1] bcast_S1x256_S50000x256_0_1 : (⟨S1x256, .f32⟩ : BufTy).Contents (Elt F) → (⟨S50000x256, .f32⟩ : BufTy).Contents (Elt F)),
    StableHlo.binary main_v81 main_v83 main_v84 (addf : (⟨S50000x256, .f32⟩ : BufTy).Contents (Elt F) → (⟨S50000x256, .f32⟩ : BufTy).Contents (Elt F) → (⟨S50000x256, .f32⟩ : BufTy).Contents (Elt F)) ]

theorem pc1L0_sub : (pc1L0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem pc1L0_fresh : (pc1L0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 141 … 164 of the 400 (window 1 of @main, layer 1). -/
abbrev pc1L1 : List (HloOp τ sig (Elt F)) :=
  [ StableHlo.nullary main_c_9 (constantI S_ 32 0#32),
    StableHlo.unary main_c_9 main_v85 (broadcastInDim S800000 ![] bcast_S_S800000 : (⟨S_, .i32⟩ : BufTy).Contents (Elt F) → (⟨S800000, .i32⟩ : BufTy).Contents (Elt F)),
    StableHlo.binary main_v3 main_v85 main_v86 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v87 (broadcastInDim S800000 ![] bcast_S_S800000 : (⟨S_, .i32⟩ : BufTy).Contents (Elt F) → (⟨S800000, .i32⟩ : BufTy).Contents (Elt F)),
    StableHlo.binary main_v3 main_v87 main_v88 (addi : (⟨S800000, .i32⟩ : BufTy).Contents (Elt F) → (⟨S800000, .i32⟩ : BufTy).Contents (Elt F) → (⟨S800000, .i32⟩ : BufTy).Contents (Elt F)),
    StableHlo.ternary main_v86 main_v88 main_v3 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v89 main_v90 (broadcastInDim S800000x1 ![0] bcast_S800000_S800000x1_0 : (⟨S800000, .i32⟩ : BufTy).Contents (Elt F) → (⟨S800000x1, .i32⟩ : BufTy).Contents (Elt F)),
    StableHlo.binary main_v84 main_v90 main_v91 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_11 (constant S_ .f32 0x00000000#32),
    StableHlo.unary main_cst_11 main_v92 (broadcastInDim S50000x256 ![] bcast_S_S50000x256 : (⟨S_, .f32⟩ : BufTy).Contents (Elt F) → (⟨S50000x256, .f32⟩ : BufTy).Contents (Elt F)),
    StableHlo.unary main_v5 main_v93 (broadcastInDim S800000x1 ![0] bcast_S800000_S800000x1_0 : (⟨S800000, .i32⟩ : BufTy).Contents (Elt F) → (⟨S800000x1, .i32⟩ : BufTy).Contents (Elt F)),
    StableHlo.ternary main_v92 main_v93 main_v91 main_v94 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v84 main_v94 main_v95 (addf : (⟨S50000x256, .f32⟩ : BufTy).Contents (Elt F) → (⟨S50000x256, .f32⟩ : BufTy).Contents (Elt F) → (⟨S50000x256, .f32⟩ : BufTy).Contents (Elt F)),
    StableHlo.unary main_arg4 main_v96 ((extractStridedSlice S1x256x512 ![1, 0, 0] · slices_S3x256x512_S1x256x512_1_0_0) : (⟨S3x256x512, .f32⟩ : BufTy).Contents (Elt F) → (⟨S1x256x512, .f32⟩ : BufTy).Contents (Elt F)),
    StableHlo.reshape main_v96 main_v97 rfl shapeCasts_S1x256x512_S256x512,
    StableHlo.binary main_v95 main_v97 main_v98 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.unary main_arg5 main_v99 ((extractStridedSlice S1x512 ![1, 0] · slices_S3x512_S1x512_1_0) : (⟨S3x512, .f32⟩ : BufTy).Contents (Elt F) → (⟨S1x512, .f32⟩ : BufTy).Contents (Elt F)),
    StableHlo.reshape main_v99 main_v100 rfl shapeCasts_S1x512_S512,
    StableHlo.unary main_v100 main_v101 (broadcastInDim S1x512 ![1] bcast_S512_S1x512_1 : (⟨S512, .f32⟩ : BufTy).Contents (Elt F) → (⟨S1x512, .f32⟩ : BufTy).Contents (Elt F)),
    StableHlo.unary main_v101 main_v102 (broadcastInDim S50000x512 ![0, 1] bcast_S1x512_S50000x512_0_1 : (⟨S1x512, .f32⟩ : BufTy).Contents (Elt F) → (⟨S50000x512, .f32⟩ : BufTy).Contents (Elt F)),
    StableHlo.binary main_v98 main_v102 main_v103 (addf : (⟨S50000x512, .f32⟩ : BufTy).Contents (Elt F) → (⟨S50000x512, .f32⟩ : BufTy).Contents (Elt F) → (⟨S50000x512, .f32⟩ : BufTy).Contents (Elt F)),
    StableHlo.unary main_arg6 main_v104 ((extractStridedSlice S1x512 ![1, 0] · slices_S3x512_S1x512_1_0) : (⟨S3x512, .f32⟩ : BufTy).Contents (Elt F) → (⟨S1x512, .f32⟩ : BufTy).Contents (Elt F)),
    StableHlo.reshape main_v104 main_v105 rfl shapeCasts_S1x512_S512 ]

theorem pc1L1_sub : (pc1L1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub ..⟩

theorem pc1L1_fresh : (pc1L1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Operations 165 … 268 of the 400 (window 2 of @main, layer 1). -/
abbrev pc2L1 : List (HloOp τ sig (Elt F)) :=
  [ StableHlo.unary main_arg7 main_v106 ((extractStridedSlice S1x512 ![1, 0] · slices_S3x512_S1x512_1_0) : (⟨S3x512, .f32⟩ : BufTy).Contents (Elt F) → (⟨S1x512, .f32⟩ : BufTy).Contents (Elt F)),
    StableHlo.reshape main_v106 main_v107 rfl shapeCasts_S1x512_S512,
    StableHlo.nullary main_cst_12 (constant S_ .f32 0x00000000#32),
    StableHlo.binary main_v103 main_cst_12 main_v108 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_13 (constant S_ .f32 0x47435000#32),
    StableHlo.unary main_cst_13 main_v109 (broadcastInDim S512 ![] bcast_S_S512 : (⟨S_, .f32⟩ : BufTy).Contents (Elt F) → (⟨S512, .f32⟩ : BufTy).Contents (Elt F)),
    StableHlo.binary main_v108 main_v109 main_v110 (Host.divf : (⟨S512, .f32⟩ : BufTy).Contents (Elt F) → (⟨S512, .f32⟩ : BufTy).Contents (Elt F) → (⟨S512, .f32⟩ : BufTy).Contents (Elt F)),
    StableHlo.nullary main_c_14 (constantI S_ 32 0#32),
    StableHlo.TRef.nullary main_call3.cst (constant S_ .f32 0x00000000#32),
    StableHlo.TRef.binary (TRef.of main_v103 : TRef sig ⟨S50000x512, .f32⟩) main_call3.cst main_call3.v0 (fun x v => Host.reduceAdd x v reducesTo_S50000x512_S512_d0 h_S_),
    StableHlo.TRef.unary main_call3.v0 main_call3.v1 (broadcastInDim S1x512 ![1] bcast_S512_S1x512_1),
    StableHlo.TRef.nullary main_call3.cst_0 (constant S_ .f32 0x47435000#32),
    StableHlo.TRef.unary main_call3.cst_0 main_call3.v2 (broadcastInDim S1x512 ![] bcast_S_S1x512),
    StableHlo.TRef.binary main_call3.v1 main_call3.v2 main_call3.v3 Host.divf,
    StableHlo.TRef.unary main_call3.v3 main_call3.v4 (broadcastInDim S50000x512 ![0, 1] bcast_S1x512_S50000x512_0_1),
    StableHlo.TRef.binary (TRef.of main_v103 : TRef sig ⟨S50000x512, .f32⟩) main_call3.v4 main_call3.v5 subf,
    StableHlo.TRef.binary main_call3.v5 main_call3.v5 main_call3.v6 mulf,
    StableHlo.TRef.unary (TRef.of main_c_14 : TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x512_S512_d0 h_S_),
    StableHlo.TRef.unary main_call3.v8 main_call3.v10 (broadcastInDim S512 ![] bcast_S_S512),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S512 ![] bcast_S_S512),
    StableHlo.TRef.ternary main_call3.v12 main_call3.v11 main_call3.call0.v1 main_call3.call0.v2 (fun p a b => select (broadcastInDim S512 ![] bcast_S_S512 p) a b),
    StableHlo.unary main_v110 main_v112 (broadcastInDim S1x512 ![1] bcast_S512_S1x512_1 : (⟨S512, .f32⟩ : BufTy).Contents (Elt F) → (⟨S1x512, .f32⟩ : BufTy).Contents (Elt F)),
    StableHlo.unary main_v112 main_v113 (broadcastInDim S50000x512 ![0, 1] bcast_S1x512_S50000x512_0_1 : (⟨S1x512, .f32⟩ : BufTy).Contents (Elt F) → (⟨S50000x512, .f32⟩ : BufTy).Contents (Elt F)),
    StableHlo.binary main_v103 main_v113 main_v114 (subf : (⟨S50000x512, .f32⟩ : BufTy).Contents (Elt F) → (⟨S50000x512, .f32⟩ : BufTy).Contents (Elt F) → (⟨S50000x512, .f32⟩ : BufTy).Contents (Elt F)),
    StableHlo.unary main_v105 main_v115 (broadcastInDim S1x512 ![1] bcast_S512_S1x512_1 : (⟨S512, .f32⟩ : BufTy).Contents (Elt F) → (⟨S1x512, .f32⟩ : BufTy).Contents (Elt F)),
    StableHlo.unary main_v115 main_v116 (broadcastInDim S50000x512 ![0, 1] bcast_S1x512_S50000x512_0_1 : (⟨S1x512, .f32⟩ : BufTy).Contents (Elt F) → (⟨S50000x512, .f32⟩ : BufTy).Contents (Elt F)),
    StableHlo.binary main_v116 main_v114 main_v117 (mulf : (⟨S50000x512, .f32⟩ : BufTy).Contents (Elt F) → (⟨S50000x512, .f32⟩ : BufTy).Contents (Elt F) → (⟨S50000x512, .f32⟩ : BufTy).Contents (Elt F)),
    StableHlo.nullary main_cst_15 (constant S_ .f32 0x3727C5AC#32),
    StableHlo.unary main_cst_15 main_v118 (broadcastInDim S512 ![] bcast_S_S512 : (⟨S_, .f32⟩ : BufTy).Contents (Elt F) → (⟨S512, .f32⟩ : BufTy).Contents (Elt F)),
    StableHlo.binary main_v111 main_v118 main_v119 (addf : (⟨S512, .f32⟩ : BufTy).Contents (Elt F) → (⟨S512, .f32⟩ : BufTy).Contents (Elt F) → (⟨S512, .f32⟩ : BufTy).Contents (Elt F)),
    StableHlo.unary main_v119 main_v120 (Host.rsqrt : (⟨S512, .f32⟩ : BufTy).Contents (Elt F) → (⟨S512, .f32⟩ : BufTy).Contents (Elt F)),
    StableHlo.unary main_v120 main_v121 (broadcastInDim S1x512 ![1] bcast_S512_S1x512_1 : (⟨S512, .f32⟩ : BufTy).Contents (Elt F) → (⟨S1x512, .f32⟩ : BufTy).Contents (Elt F)),
    StableHlo.unary main_v121 main_v122 (broadcastInDim S50000x512 ![0, 1] bcast_S1x512_S50000x512_0_1 : (⟨S1x512, .f32⟩ : BufTy).Contents (Elt F) → (⟨S50000x512, .f32⟩ : BufTy).Contents (Elt F)),
    StableHlo.binary main_v117 main_v122 main_v123 (mulf : (⟨S50000x512, .f32⟩ : BufTy).Contents (Elt F) → (⟨S50000x512, .f32⟩ : BufTy).Contents (Elt F) → (⟨S50000x512, .f32⟩ : BufTy).Contents (Elt F)),
    StableHlo.unary main_v107 main_v124 (broadcastInDim S1x512 ![1] bcast_S512_S1x512_1 : (⟨S512, .f32⟩ : BufTy).Contents (Elt F) → (⟨S1x512, .f32⟩ : BufTy).Contents (Elt F)),
    StableHlo.unary main_v124 main_v125 (broadcastInDim S50000x512 ![0, 1] bcast_S1x512_S50000x512_0_1 : (⟨S1x512, .f32⟩ : BufTy).Contents (Elt F) → (⟨S50000x512, .f32⟩ : BufTy).Contents (Elt F)),
    StableHlo.binary main_v123 main_v125 main_v126 (addf : (⟨S50000x512, .f32⟩ : BufTy).Contents (Elt F) → (⟨S50000x512, .f32⟩ : BufTy).Contents (Elt F) → (⟨S50000x512, .f32⟩ : BufTy).Contents (Elt F)),
    StableHlo.TRef.nullary main_call4.cst (constant S_ .f32 0x00000000#32),
    StableHlo.TRef.unary main_call4.cst main_call4.v0 (broadcastInDim S50000x512 ![] bcast_S_S50000x512),
    StableHlo.TRef.binary (TRef.of main_v126 : TRef sig ⟨S50000x512, .f32⟩) main_call4.v0 main_call4.v1 maximumf,
    StableHlo.unary main_arg8 main_v128 ((extractStridedSlice S1x512x256 ![1, 0, 0] · slices_S3x512x256_S1x512x256_1_0_0) : (⟨S3x512x256, .f32⟩ : BufTy).Contents (Elt F) → (⟨S1x512x256, .f32⟩ : BufTy).Contents (Elt F)),
    StableHlo.reshape main_v128 main_v129 rfl shapeCasts_S1x512x256_S512x256,
    StableHlo.binary main_v127 main_v129 main_v130 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg9 main_v131 ((extractStridedSlice S1x256 ![1, 0] · slices_S3x256_S1x256_1_0) : (⟨S3x256, .f32⟩ : BufTy).Contents (Elt F) → (⟨S1x256, .f32⟩ : BufTy).Contents (Elt F)),
    StableHlo.reshape main_v131 main_v132 rfl shapeCasts_S1x256_S256,
    StableHlo.unary main_v132 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S50000x256 ![0, 1] bcast_S1x256_S50000x256_0_1 : (⟨S1x256, .f32⟩ : BufTy).Contents (Elt F) → (⟨S50000x256, .f32⟩ : BufTy).Contents (Elt F)),
    StableHlo.binary main_v130 main_v134 main_v135 (addf : (⟨S50000x256, .f32⟩ : BufTy).Contents (Elt F) → (⟨S50000x256, .f32⟩ : BufTy).Contents (Elt F) → (⟨S50000x256, .f32⟩ : BufTy).Contents (Elt F)),
    StableHlo.binary main_v135 main_v84 main_v136 (addf : (⟨S50000x256, .f32⟩ : BufTy).Contents (Elt F) → (⟨S50000x256, .f32⟩ : BufTy).Contents (Elt F) → (⟨S50000x256, .f32⟩ : BufTy).Contents (Elt F)),
    StableHlo.unary main_arg10 main_v137 ((extractStridedSlice S1x256 ![1, 0] · slices_S3x256_S1x256_1_0) : (⟨S3x256, .f32⟩ : BufTy).Contents (Elt F) → (⟨S1x256, .f32⟩ : BufTy).Contents (Elt F)),
    StableHlo.reshape main_v137 main_v138 rfl shapeCasts_S1x256_S256,
    StableHlo.unary main_arg11 main_v139 ((extractStridedSlice S1x256 ![1, 0] · slices_S3x256_S1x256_1_0) : (⟨S3x256, .f32⟩ : BufTy).Contents (Elt F) → (⟨S1x256, .f32⟩ : BufTy).Contents (Elt F)),
    StableHlo.reshape main_v139 main_v140 rfl shapeCasts_S1x256_S256,
    StableHlo.nullary main_cst_16 (constant S_ .f32 0x00000000#32),
    StableHlo.binary main_v136 main_cst_16 main_v141 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_17 (constant S_ .f32 0x47435000#32),
    StableHlo.unary main_cst_17 main_v142 (broadcastInDim S256 ![] bcast_S_S256 : (⟨S_, .f32⟩ : BufTy).Contents (Elt F) → (⟨S256, .f32⟩ : BufTy).Contents (Elt F)),
    StableHlo.binary main_v141 main_v142 main_v143 (Host.divf : (⟨S256, .f32⟩ : BufTy).Contents (Elt F) → (⟨S256, .f32⟩ : BufTy).Contents (Elt F) → (⟨S256, .f32⟩ : BufTy).Contents (Elt F)),
    StableHlo.nullary main_c_18 (constantI S_ 32 0#32),
    StableHlo.TRef.nullary main_call5.cst (constant S_ .f32 0x00000000#32),
    StableHlo.TRef.binary (TRef.of main_v136 : TRef sig ⟨S50000x256, .f32⟩) main_call5.cst main_call5.v0 (fun x v => Host.reduceAdd x v reducesTo_S50000x256_S256_d0 h_S_),
    StableHlo.TRef.unary main_call5.v0 main_call5.v1 (broadcastInDim S1x256 ![1] bcast_S256_S1x256_1),
    StableHlo.TRef.nullary main_call5.cst_0 (constant S_ .f32 0x47435000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S50000x256 ![0, 1] bcast_S1x256_S50000x256_0_1),
    StableHlo.TRef.binary (TRef.of main_v136 : TRef sig ⟨S50000x256, .f32⟩) main_call5.v4 main_call5.v5 subf,
    StableHlo.TRef.binary main_call5.v5 main_call5.v5 main_call5.v6 mulf,
    StableHlo.TRef.unary (TRef.of main_c_18 : TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b),
    StableHlo.unary main_v143 main_v145 (broadcastInDim S1x256 ![1] bcast_S256_S1x256_1 : (⟨S256, .f32⟩ : BufTy).Contents (Elt F) → (⟨S1x256, .f32⟩ : BufTy).Contents (Elt F)),
    StableHlo.unary main_v145 main_v146 (broadcastInDim S50000x256 ![0, 1] bcast_S1x256_S50000x256_0_1 : (⟨S1x256, .f32⟩ : BufTy).Contents (Elt F) → (⟨S50000x256, .f32⟩ : BufTy).Contents (Elt F)),
    StableHlo.binary main_v136 main_v146 main_v147 (subf : (⟨S50000x256, .f32⟩ : BufTy).Contents (Elt F) → (⟨S50000x256, .f32⟩ : BufTy).Contents (Elt F) → (⟨S50000x256, .f32⟩ : BufTy).Contents (Elt F)),
    StableHlo.unary main_v138 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S50000x256 ![0, 1] bcast_S1x256_S50000x256_0_1 : (⟨S1x256, .f32⟩ : BufTy).Contents (Elt F) → (⟨S50000x256, .f32⟩ : BufTy).Contents (Elt F)),
    StableHlo.binary main_v149 main_v147 main_v150 (mulf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x3727C5AC#32),
    StableHlo.unary main_cst_19 main_v151 (broadcastInDim S256 ![] bcast_S_S256 : (⟨S_, .f32⟩ : BufTy).Contents (Elt F) → (⟨S256, .f32⟩ : BufTy).Contents (Elt F)),
    StableHlo.binary main_v144 main_v151 main_v152 (addf : (⟨S256, .f32⟩ : BufTy).Contents (Elt F) → (⟨S256, .f32⟩ : BufTy).Contents (Elt F) → (⟨S256, .f32⟩ : BufTy).Contents (Elt F)),
    StableHlo.unary main_v152 main_v153 (Host.rsqrt : (⟨S256, .f32⟩ : BufTy).Contents (Elt F) → (⟨S256, .f32⟩ : BufTy).Contents (Elt F)),
    StableHlo.unary main_v153 main_v154 (broadcastInDim S1x256 ![1] bcast_S256_S1x256_1 : (⟨S256, .f32⟩ : BufTy).Contents (Elt F) → (⟨S1x256, .f32⟩ : BufTy).Contents (Elt F)),
    StableHlo.unary main_v154 main_v155 (broadcastInDim S50000x256 ![0, 1] bcast_S1x256_S50000x256_0_1 : (⟨S1x256, .f32⟩ : BufTy).Contents (Elt F) → (⟨S50000x256, .f32⟩ : BufTy).Contents (Elt F)),
    StableHlo.binary main_v150 main_v155 main_v156 (mulf : (⟨S50000x256, .f32⟩ : BufTy).Contents (Elt F) → (⟨S50000x256, .f32⟩ : BufTy).Contents (Elt F) → (⟨S50000x256, .f32⟩ : BufTy).Contents (Elt F)),
    StableHlo.unary main_v140 main_v157 (broadcastInDim S1x256 ![1] bcast_S256_S1x256_1 : (⟨S256, .f32⟩ : BufTy).Contents (Elt F) → (⟨S1x256, .f32⟩ : BufTy).Contents (Elt F)) ]

theorem pc2L1_sub : (pc2L1 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

theorem pc2L1_fresh : (pc2L1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 269 … 270 of the 400 (window 3 of @main, layer 1). -/
abbrev pc3L1 : List (HloOp τ sig (Elt F)) :=
  [ StableHlo.unary main_v157 main_v158 (broadcastInDim S50000x256 ![0, 1] bcast_S1x256_S50000x256_0_1 : (⟨S1x256, .f32⟩ : BufTy).Contents (Elt F) → (⟨S50000x256, .f32⟩ : BufTy).Contents (Elt F)),
    StableHlo.binary main_v156 main_v158 main_v159 (addf : (⟨S50000x256, .f32⟩ : BufTy).Contents (Elt F) → (⟨S50000x256, .f32⟩ : BufTy).Contents (Elt F) → (⟨S50000x256, .f32⟩ : BufTy).Contents (Elt F)) ]

theorem pc3L1_sub : (pc3L1 : List (HloOp τ sig (Elt F))).Forall fun op => op.bufs ⊆ tcRefs τ sig :=
  ⟨unary_bufs_sub .., binary_bufs_sub ..⟩

theorem pc3L1_fresh : (pc3L1 : List (HloOp τ sig (Elt F))).Forall fun op => op.fresh = ∅ :=
  ⟨rfl, rfl⟩

/-- Operations 271 … 351 of the 400 (window 3 of @main, layer 2). -/
abbrev pc3L2 : List (HloOp τ sig (Elt F)) :=
  [ StableHlo.nullary main_c_20 (constantI S_ 32 0#32),
    StableHlo.unary main_c_20 main_v160 (broadcastInDim S800000 ![] bcast_S_S800000 : (⟨S_, .i32⟩ : BufTy).Contents (Elt F) → (⟨S800000, .i32⟩ : BufTy).Contents (Elt F)),
    StableHlo.binary main_v3 main_v160 main_v161 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v162 (broadcastInDim S800000 ![] bcast_S_S800000 : (⟨S_, .i32⟩ : BufTy).Contents (Elt F) → (⟨S800000, .i32⟩ : BufTy).Contents (Elt F)),
    StableHlo.binary main_v3 main_v162 main_v163 (addi : (⟨S800000, .i32⟩ : BufTy).Contents (Elt F) → (⟨S800000, .i32⟩ : BufTy).Contents (Elt F) → (⟨S800000, .i32⟩ : BufTy).Contents (Elt F)),
    StableHlo.ternary main_v161 main_v163 main_v3 main_v164 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v164 main_v165 (broadcastInDim S800000x1 ![0] bcast_S800000_S800000x1_0 : (⟨S800000, .i32⟩ : BufTy).Contents (Elt F) → (⟨S800000x1, .i32⟩ : BufTy).Contents (Elt F)),
    StableHlo.binary main_v159 main_v165 main_v166 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_22 (constant S_ .f32 0x00000000#32),
    StableHlo.unary main_cst_22 main_v167 (broadcastInDim S50000x256 ![] bcast_S_S50000x256 : (⟨S_, .f32⟩ : BufTy).Contents (Elt F) → (⟨S50000x256, .f32⟩ : BufTy).Contents (Elt F)),
    StableHlo.unary main_v5 main_v168 (broadcastInDim S800000x1 ![0] bcast_S800000_S800000x1_0 : (⟨S800000, .i32⟩ : BufTy).Contents (Elt F) → (⟨S800000x1, .i32⟩ : BufTy).Contents (Elt F)),
    StableHlo.ternary main_v167 main_v168 main_v166 main_v169 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v159 main_v169 main_v170 (addf : (⟨S50000x256, .f32⟩ : BufTy).Contents (Elt F) → (⟨S50000x256, .f32⟩ : BufTy).Contents (Elt F) → (⟨S50000x256, .f32⟩ : BufTy).Contents (Elt F)),
    StableHlo.unary main_arg4 main_v171 ((extractStridedSlice S1x256x512 ![2, 0, 0] · slices_S3x256x512_S1x256x512_2_0_0) : (⟨S3x256x512, .f32⟩ : BufTy).Contents (Elt F) → (⟨S1x256x512, .f32⟩ : BufTy).Contents (Elt F)),
    StableHlo.reshape main_v171 main_v172 rfl shapeCasts_S1x256x512_S256x512,
    StableHlo.binary main_v170 main_v172 main_v173 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.unary main_arg5 main_v174 ((extractStridedSlice S1x512 ![2, 0] · slices_S3x512_S1x512_2_0) : (⟨S3x512, .f32⟩ : BufTy).Contents (Elt F) → (⟨S1x512, .f32⟩ : BufTy).Contents (Elt F)),
    StableHlo.reshape main_v174 main_v175 rfl shapeCasts_S1x512_S512,
    StableHlo.unary main_v175 main_v176 (broadcastInDim S1x512 ![1] bcast_S512_S1x512_1 : (⟨S512, .f32⟩ : BufTy).Contents (Elt F) → (⟨S1x512, .f32⟩ : BufTy).Contents (Elt F)),
    StableHlo.unary main_v176 main_v177 (broadcastInDim S50000x512 ![0, 1] bcast_S1x512_S50000x512_0_1 : (⟨S1x512, .f32⟩ : BufTy).Contents (Elt F) → (⟨S50000x512, .f32⟩ : BufTy).Contents (Elt F)),
    StableHlo.binary main_v173 main_v177 main_v178 (addf : (⟨S50000x512, .f32⟩ : BufTy).Contents (Elt F) → (⟨S50000x512, .f32⟩ : BufTy).Contents (Elt F) → (⟨S50000x512, .f32⟩ : BufTy).Contents (Elt F)),
    StableHlo.unary main_arg6 main_v179 ((extractStridedSlice S1x512 ![2, 0] · slices_S3x512_S1x512_2_0) : (⟨S3x512, .f32⟩ : BufTy).Contents (Elt F) → (⟨S1x512, .f32⟩ : BufTy).Contents (Elt F)),
    StableHlo.reshape main_v179 main_v180 rfl shapeCasts_S1x512_S512,
    StableHlo.unary main_arg7 main_v181 ((extractStridedSlice S1x512 ![2, 0] · slices_S3x512_S1x512_2_0) : (⟨S3x512, .f32⟩ : BufTy).Contents (Elt F) → (⟨S1x512, .f32⟩ : BufTy).Contents (Elt F)),
    StableHlo.reshape main_v181 main_v182 rfl shapeCasts_S1x512_S512,
    StableHlo.nullary main_cst_23 (constant S_ .f32 0x00000000#32),
    StableHlo.binary main_v178 main_cst_23 main_v183 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_24 (constant S_ .f32 0x47435000#32),
    StableHlo.unary main_cst_24 main_v184 (broadcastInDim S512 ![] bcast_S_S512 : (⟨S_, .f32⟩ : BufTy).Contents (Elt F) → (⟨S512, .f32⟩ : BufTy).Contents (Elt F)),
    StableHlo.binary main_v183 main_v184 main_v185 (Host.divf : (⟨S512, .f32⟩ : BufTy).Contents (Elt F) → (⟨S512, .f32⟩ : BufTy).Contents (Elt F) → (⟨S512, .f32⟩ : BufTy).Contents (Elt F)),
    StableHlo.nullary main_c_25 (constantI S_ 32 0#32),
    StableHlo.TRef.nullary main_call6.cst (constant S_ .f32 0x00000000#32),
    StableHlo.TRef.binary (TRef.of main_v178 : TRef sig ⟨S50000x512, .f32⟩) main_call6.cst main_call6.v0 (fun x v => Host.reduceAdd x v reducesTo_S50000x512_S512_d0 h_S_),
    StableHlo.TRef.unary main_call6.v0 main_call6.v1 (broadcastInDim S1x512 ![1] bcast_S512_S1x512_1),
    StableHlo.TRef.nullary main_call6.cst_0 (constant S_ .f32 0x47435000#32),
    StableHlo.TRef.unary main_call6.cst_0 main_call6.v2 (broadcastInDim S1x512 ![] bcast_S_S1x512),
    StableHlo.TRef.binary main_call6.v1 main_call6.v2 main_call6.v3 Host.divf,
    StableHlo.TRef.unary main_call6.v3 main_call6.v4 (broadcastInDim S50000x512 ![0, 1] bcast_S1x512_S50000x512_0_1),
    StableHlo.TRef.binary (TRef.of main_v178 : TRef sig ⟨S50000x512, .f32⟩) main_call6.v4 main_call6.v5 subf,
    StableHlo.TRef.binary main_call6.v5 main_call6.v5 main_call6.v6 mulf,
    StableHlo.TRef.unary (TRef.of main_c_25 : TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x512_S512_d0 h_S_),
    StableHlo.TRef.unary main_call6.v8 main_call6.v10 (broadcastInDim S512 ![] bcast_S_S512),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S512 ![] bcast_S_S512),
    StableHlo.TRef.ternary main_call6.v12 main_call6.v11 main_call6.call0.v1 main_call6.call0.v2 (fun p a b => select (broadcastInDim S512 ![] bcast_S_S512 p) a b),
    StableHlo.unary main_v185 main_v187 (broadcastInDim S1x512 ![1] bcast_S512_S1x512_1 : (⟨S512, .f32⟩ : BufTy).Contents (Elt F) → (⟨S1x512, .f32⟩ : BufTy).Contents (Elt F)),
    StableHlo.unary main_v187 main_v188 (broadcastInDim S50000x512 ![0, 1] bcast_S1x512_S50000x512_0_1 : (⟨S1x512, .f32⟩ : BufTy).Contents (Elt F) → (⟨S50000x512, .f32⟩ : BufTy).Contents (Elt F)),
    StableHlo.binary main_v178 main_v188 main_v189 (subf : (⟨S50000x512, .f32⟩ : BufTy).Contents (Elt F) → (⟨S50000x512, .f32⟩ : BufTy).Contents (Elt F) → (⟨S50000x512, .f32⟩ : BufTy).Contents (Elt F)),
    StableHlo.unary main_v180 main_v190 (broadcastInDim S1x512 ![1] bcast_S512_S1x512_1 : (⟨S512, .f32⟩ : BufTy).Contents (Elt F) → (⟨S1x512, .f32⟩ : BufTy).Contents (Elt F)),
    StableHlo.unary main_v190 main_v191 (broadcastInDim S50000x512 ![0, 1] bcast_S1x512_S50000x512_0_1 : (⟨S1x512, .f32⟩ : BufTy).Contents (Elt F) → (⟨S50000x512, .f32⟩ : BufTy).Contents (Elt F)),
    StableHlo.binary main_v191 main_v189 main_v192 (mulf : (⟨S50000x512, .f32⟩ : BufTy).Contents (Elt F) → (⟨S50000x512, .f32⟩ : BufTy).Contents (Elt F) → (⟨S50000x512, .f32⟩ : BufTy).Contents (Elt F)),
    StableHlo.nullary main_cst_26 (constant S_ .f32 0x3727C5AC#32),
    StableHlo.unary main_cst_26 main_v193 (broadcastInDim S512 ![] bcast_S_S512 : (⟨S_, .f32⟩ : BufTy).Contents (Elt F) → (⟨S512, .f32⟩ : BufTy).Contents (Elt F)),
    StableHlo.binary main_v186 main_v193 main_v194 (addf : (⟨S512, .f32⟩ : BufTy).Contents (Elt F) → (⟨S512, .f32⟩ : BufTy).Contents (Elt F) → (⟨S512, .f32⟩ : BufTy).Contents (Elt F)),
    StableHlo.unary main_v194 main_v195 (Host.rsqrt : (⟨S512, .f32⟩ : BufTy).Contents (Elt F) → (⟨S512, .f32⟩ : BufTy).Contents (Elt F)),
    StableHlo.unary main_v195 main_v196 (broadcastInDim S1x512 ![1] bcast_S512_S1x512_1 : (⟨S512, .f32⟩ : BufTy).Contents (Elt F) → (⟨S1x512, .f32⟩ : BufTy).Contents (Elt F)),
    StableHlo.unary main_v196 main_v197 (broadcastInDim S50000x512 ![0, 1] bcast_S1x512_S50000x512_0_1 : (⟨S1x512, .f32⟩ : BufTy).Contents (Elt F) → (⟨S50000x512, .f32⟩ : BufTy).Contents (Elt F)),
    StableHlo.binary main_v192 main_v197 main_v198 (mulf : (⟨S50000x512, .f32⟩ : BufTy).Contents (Elt F) → (⟨S50000x512, .f32⟩ : BufTy).Contents (Elt F) → (⟨S50000x512, .f32⟩ : BufTy).Contents (Elt F)),
    StableHlo.unary main_v182 main_v199 (broadcastInDim S1x512 ![1] bcast_S512_S1x512_1 : (⟨S512, .f32⟩ : BufTy).Contents (Elt F) → (⟨S1x512, .f32⟩ : BufTy).Contents (Elt F)),
    StableHlo.unary main_v199 main_v200 (broadcastInDim S50000x512 ![0, 1] bcast_S1x512_S50000x512_0_1 : (⟨S1x512, .f32⟩ : BufTy).Contents (Elt F) → (⟨S50000x512, .f32⟩ : BufTy).Contents (Elt F)),
    StableHlo.binary main_v198 main_v200 main_v201 (addf : (⟨S50000x512, .f32⟩ : BufTy).Contents (Elt F) → (⟨S50000x512, .f32⟩ : BufTy).Contents (Elt F) → (⟨S50000x512, .f32⟩ : BufTy).Contents (Elt F)),
    StableHlo.TRef.nullary main_call7.cst (constant S_ .f32 0x00000000#32),
    StableHlo.TRef.unary main_call7.cst main_call7.v0 (broadcastInDim S50000x512 ![] bcast_S_S50000x512),
    StableHlo.TRef.binary (TRef.of main_v201 : TRef sig ⟨S50000x512, .f32⟩) main_call7.v0 main_call7.v1 maximumf,
    StableHlo.unary main_arg8 main_v203 ((extractStridedSlice S1x512x256 ![2, 0, 0] · slices_S3x512x256_S1x512x256_2_0_0) : (⟨S3x512x256, .f32⟩ : BufTy).Contents (Elt F) → (⟨S1x512x256, .f32⟩ : BufTy).Contents (Elt F)),
    StableHlo.reshape main_v203 main_v204 rfl shapeCasts_S1x512x256_S512x256,
    StableHlo.binary main_v202 main_v204 main_v205 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg9 main_v206 ((extractStridedSlice S1x256 ![2, 0] · slices_S3x256_S1x256_2_0) : (⟨S3x256, .f32⟩ : BufTy).Contents (Elt F) → (⟨S1x256, .f32⟩ : BufTy).Contents (Elt F)),
    StableHlo.reshape main_v206 main_v207 rfl shapeCasts_S1x256_S256,
    StableHlo.unary main_v207 main_v208 (broadcastInDim S1x256 ![1] bcast_S256_S1x256_1 : (⟨S256, .f32⟩ : BufTy).Contents (Elt F) → (⟨S1x256, .f32⟩ : BufTy).Contents (Elt F)),
    StableHlo.unary main_v208 main_v209 (broadcastInDim S50000x256 ![0, 1] bcast_S1x256_S50000x256_0_1 : (⟨S1x256, .f32⟩ : BufTy).Contents (Elt F) → (⟨S50000x256, .f32⟩ : BufTy).Contents (Elt F)),
    StableHlo.binary main_v205 main_v209 main_v210 (addf : (⟨S50000x256, .f32⟩ : BufTy).Contents (Elt F) → (⟨S50000x256, .f32⟩ : BufTy).Contents (Elt F) → (⟨S50000x256, .f32⟩ : BufTy).Contents (Elt F)) ]

theorem pc3L2_sub : (pc3L2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem pc3L2_fresh : (pc3L2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 352 … 400 of the 400 (window 4 of @main, layer 2). -/
abbrev pc4L2 : List (HloOp τ sig (Elt F)) :=
  [ StableHlo.binary main_v210 main_v159 main_v211 (addf : (⟨S50000x256, .f32⟩ : BufTy).Contents (Elt F) → (⟨S50000x256, .f32⟩ : BufTy).Contents (Elt F) → (⟨S50000x256, .f32⟩ : BufTy).Contents (Elt F)),
    StableHlo.unary main_arg10 main_v212 ((extractStridedSlice S1x256 ![2, 0] · slices_S3x256_S1x256_2_0) : (⟨S3x256, .f32⟩ : BufTy).Contents (Elt F) → (⟨S1x256, .f32⟩ : BufTy).Contents (Elt F)),
    StableHlo.reshape main_v212 main_v213 rfl shapeCasts_S1x256_S256,
    StableHlo.unary main_arg11 main_v214 ((extractStridedSlice S1x256 ![2, 0] · slices_S3x256_S1x256_2_0) : (⟨S3x256, .f32⟩ : BufTy).Contents (Elt F) → (⟨S1x256, .f32⟩ : BufTy).Contents (Elt F)),
    StableHlo.reshape main_v214 main_v215 rfl shapeCasts_S1x256_S256,
    StableHlo.nullary main_cst_27 (constant S_ .f32 0x00000000#32),
    StableHlo.binary main_v211 main_cst_27 main_v216 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_28 (constant S_ .f32 0x47435000#32),
    StableHlo.unary main_cst_28 main_v217 (broadcastInDim S256 ![] bcast_S_S256 : (⟨S_, .f32⟩ : BufTy).Contents (Elt F) → (⟨S256, .f32⟩ : BufTy).Contents (Elt F)),
    StableHlo.binary main_v216 main_v217 main_v218 (Host.divf : (⟨S256, .f32⟩ : BufTy).Contents (Elt F) → (⟨S256, .f32⟩ : BufTy).Contents (Elt F) → (⟨S256, .f32⟩ : BufTy).Contents (Elt F)),
    StableHlo.nullary main_c_29 (constantI S_ 32 0#32),
    StableHlo.TRef.nullary main_call8.cst (constant S_ .f32 0x00000000#32),
    StableHlo.TRef.binary (TRef.of main_v211 : TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (TRef.of main_v211 : TRef sig ⟨S50000x256, .f32⟩) main_call8.v4 main_call8.v5 subf,
    StableHlo.TRef.binary main_call8.v5 main_call8.v5 main_call8.v6 mulf,
    StableHlo.TRef.unary (TRef.of main_c_29 : TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v218 main_v220 (broadcastInDim S1x256 ![1] bcast_S256_S1x256_1 : (⟨S256, .f32⟩ : BufTy).Contents (Elt F) → (⟨S1x256, .f32⟩ : BufTy).Contents (Elt F)),
    StableHlo.unary main_v220 main_v221 (broadcastInDim S50000x256 ![0, 1] bcast_S1x256_S50000x256_0_1 : (⟨S1x256, .f32⟩ : BufTy).Contents (Elt F) → (⟨S50000x256, .f32⟩ : BufTy).Contents (Elt F)),
    StableHlo.binary main_v211 main_v221 main_v222 (subf : (⟨S50000x256, .f32⟩ : BufTy).Contents (Elt F) → (⟨S50000x256, .f32⟩ : BufTy).Contents (Elt F) → (⟨S50000x256, .f32⟩ : BufTy).Contents (Elt F)),
    StableHlo.unary main_v213 main_v223 (broadcastInDim S1x256 ![1] bcast_S256_S1x256_1 : (⟨S256, .f32⟩ : BufTy).Contents (Elt F) → (⟨S1x256, .f32⟩ : BufTy).Contents (Elt F)),
    StableHlo.unary main_v223 main_v224 (broadcastInDim S50000x256 ![0, 1] bcast_S1x256_S50000x256_0_1 : (⟨S1x256, .f32⟩ : BufTy).Contents (Elt F) → (⟨S50000x256, .f32⟩ : BufTy).Contents (Elt F)),
    StableHlo.binary main_v224 main_v222 main_v225 (mulf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x3727C5AC#32),
    StableHlo.unary main_cst_30 main_v226 (broadcastInDim S256 ![] bcast_S_S256 : (⟨S_, .f32⟩ : BufTy).Contents (Elt F) → (⟨S256, .f32⟩ : BufTy).Contents (Elt F)),
    StableHlo.binary main_v219 main_v226 main_v227 (addf : (⟨S256, .f32⟩ : BufTy).Contents (Elt F) → (⟨S256, .f32⟩ : BufTy).Contents (Elt F) → (⟨S256, .f32⟩ : BufTy).Contents (Elt F)),
    StableHlo.unary main_v227 main_v228 (Host.rsqrt : (⟨S256, .f32⟩ : BufTy).Contents (Elt F) → (⟨S256, .f32⟩ : BufTy).Contents (Elt F)),
    StableHlo.unary main_v228 main_v229 (broadcastInDim S1x256 ![1] bcast_S256_S1x256_1 : (⟨S256, .f32⟩ : BufTy).Contents (Elt F) → (⟨S1x256, .f32⟩ : BufTy).Contents (Elt F)),
    StableHlo.unary main_v229 main_v230 (broadcastInDim S50000x256 ![0, 1] bcast_S1x256_S50000x256_0_1 : (⟨S1x256, .f32⟩ : BufTy).Contents (Elt F) → (⟨S50000x256, .f32⟩ : BufTy).Contents (Elt F)),
    StableHlo.binary main_v225 main_v230 main_v231 (mulf : (⟨S50000x256, .f32⟩ : BufTy).Contents (Elt F) → (⟨S50000x256, .f32⟩ : BufTy).Contents (Elt F) → (⟨S50000x256, .f32⟩ : BufTy).Contents (Elt F)),
    StableHlo.unary main_v215 main_v232 (broadcastInDim S1x256 ![1] bcast_S256_S1x256_1 : (⟨S256, .f32⟩ : BufTy).Contents (Elt F) → (⟨S1x256, .f32⟩ : BufTy).Contents (Elt F)),
    StableHlo.unary main_v232 main_v233 (broadcastInDim S50000x256 ![0, 1] bcast_S1x256_S50000x256_0_1 : (⟨S1x256, .f32⟩ : BufTy).Contents (Elt F) → (⟨S50000x256, .f32⟩ : BufTy).Contents (Elt F)),
    StableHlo.binary main_v231 main_v233 main_v234 (addf : (⟨S50000x256, .f32⟩ : BufTy).Contents (Elt F) → (⟨S50000x256, .f32⟩ : BufTy).Contents (Elt F) → (⟨S50000x256, .f32⟩ : BufTy).Contents (Elt F)) ]

theorem pc4L2_sub : (pc4L2 : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem pc4L2_fresh : (pc4L2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RI.Part0.lean ====
/-
  Window 0 of the reference's @main is the straight line of its operations: the module-local functions'
  bodies unfolded at their calls, the sequencing reassociated.
-/
import proofs.«132438_j6098853560655_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the binds re-associated: the rewrite under the chain recurses once per statement
set_option maxRecDepth 4096 in
set_option maxHeartbeats 4000000 in
theorem part0_eq (c : Dev nD) : main_part0 (F := F) c = seq (pc0A ++ pc0L0) := by
  simp only [main_part0, fn_var.body, fn_where.body, fn_relu.body, seq_append, seq, bind_assoc, pure_bind] <;> rfl

end Cert.ReferenceIdeal.Hand

end
-- ==== Proof.RI.Part1.lean ====
/-
  Window 1 of the reference's @main is the straight line of its operations: the module-local functions'
  bodies unfolded at their calls, the sequencing reassociated.
-/
import proofs.«132438_j6098853560655_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the binds re-associated: the rewrite under the chain recurses once per statement
set_option maxRecDepth 4096 in
set_option maxHeartbeats 4000000 in
theorem part1_eq (c : Dev nD) : main_part1 (F := F) c = seq (pc1L0 ++ pc1L1) := by
  simp only [main_part1, fn_var_0.body, fn_where_1.body, seq_append, seq, bind_assoc, pure_bind] <;> rfl

end Cert.ReferenceIdeal.Hand

end
-- ==== Proof.RI.Part2.lean ====
/-
  Window 2 of the reference's @main is the straight line of its operations: the module-local functions'
  bodies unfolded at their calls, the sequencing reassociated.
-/
import proofs.«132438_j6098853560655_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the binds re-associated: the rewrite under the chain recurses once per statement
set_option maxRecDepth 4096 in
set_option maxHeartbeats 4000000 in
theorem part2_eq (c : Dev nD) : main_part2 (F := F) c = seq (pc2L1) := by
  simp only [main_part2, fn_var.body, fn_where.body, fn_relu.body, fn_var_0.body, fn_where_1.body, seq_append, seq, bind_assoc, pure_bind] <;> rfl

end Cert.ReferenceIdeal.Hand

end
-- ==== Proof.RI.Part3.lean ====
/-
  Window 3 of the reference's @main is the straight line of its operations: the module-local functions'
  bodies unfolded at their calls, the sequencing reassociated.
-/
import proofs.«132438_j6098853560655_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the binds re-associated: the rewrite under the chain recurses once per statement
set_option maxRecDepth 4096 in
set_option maxHeartbeats 4000000 in
theorem part3_eq (c : Dev nD) : main_part3 (F := F) c = seq (pc3L1 ++ pc3L2) := by
  simp only [main_part3, fn_var.body, fn_where.body, fn_relu.body, seq_append, seq, bind_assoc, pure_bind] <;> rfl

end Cert.ReferenceIdeal.Hand

end
-- ==== Proof.RI.Part4.lean ====
/-
  Window 4 of the reference's @main is the straight line of its operations: the module-local functions'
  bodies unfolded at their calls, the sequencing reassociated.
-/
import proofs.«132438_j6098853560655_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the binds re-associated: the rewrite under the chain recurses once per statement
set_option maxRecDepth 4096 in
set_option maxHeartbeats 4000000 in
theorem part4_eq (c : Dev nD) : main_part4 (F := F) c = seq (pc4L2) := by
  simp only [main_part4, fn_var_0.body, fn_where_1.body, seq_append, seq, bind_assoc, pure_bind, bind_pure] <;> rfl

end Cert.ReferenceIdeal.Hand

end
-- ==== Proof.RI.Fns.lean ====
/-
  The reference program's arithmetic as pure functions of array contents, one per stage of a layer, for any
  float values. A layer takes the node features x (50000 × 256), the two integer edge columns, and its weights:
  h = x + agg x, where agg gathers the rows of x at the first edge column (negative indices wrapped by 50000)
  and adds them into the rows named by the second; h1 = h·W1 + b1; batch normalization of h1 over the 50000
  rows (mean, variance about the mean, scale and shift), rectified; h3 = r·W2 + b2 + x; batch normalization of
  h3. The program is the embedding x0 = reshape(a0)·a2 + a3 followed by three layers on slices of the stacked
  weights.
-/
import proofs.«132438_j6098853560655_1_alg».proof.Proof.Gen.ReferenceIdeal
import Idealize.ShloMosaic.PureOps

noncomputable section

namespace Cert.ReferenceIdeal.Hand

open Cert.ReferenceIdeal Cert.ReferenceIdeal.Gen Idealize.ShloMosaic

variable {F : FTy → Type} [FloatOps F]

/-- The edge list as a 800000 × 2 array. -/
def edgesF (a1 : (⟨S1x800000x2, .i32⟩ : BufTy).Contents (Elt F)) : (⟨S800000x2, .i32⟩ : BufTy).Contents (Elt F) :=
  fun i => shapeCast S800000x2 a1 shapeCasts_S1x800000x2_S800000x2 i

/-- The first column of the edge list: where each edge reads. -/
def srcF (a1 : (⟨S1x800000x2, .i32⟩ : BufTy).Contents (Elt F)) : (⟨S800000, .i32⟩ : BufTy).Contents (Elt F) :=
  fun i => shapeCast S800000 (extractStridedSlice S800000x1 ![0, 0] (edgesF a1) slices_S800000x2_S800000x1_0_0) shapeCasts_S800000x1_S800000 i

/-- The second column of the edge list: where each edge adds. -/
def dstF (a1 : (⟨S1x800000x2, .i32⟩ : BufTy).Contents (Elt F)) : (⟨S800000, .i32⟩ : BufTy).Contents (Elt F) :=
  fun i => shapeCast S800000 (extractStridedSlice S800000x1 ![0, 1] (edgesF a1) slices_S800000x2_S800000x1_0_1) shapeCasts_S800000x1_S800000 i

/-- The embedding: the input features times the first weight matrix, plus its bias on every row. -/
def x0F (a0 : (⟨S1x50000x128, .f32⟩ : BufTy).Contents (Elt F)) (a2 : (⟨S128x256, .f32⟩ : BufTy).Contents (Elt F)) (a3 : (⟨S256, .f32⟩ : BufTy).Contents (Elt F)) : (⟨S50000x256, .f32⟩ : BufTy).Contents (Elt F) :=
  addf (Host.dotGeneral dot_S50000x128_S128x256_S50000x256_1_0_0_1_n_n none
      (fun i => shapeCast S50000x128 a0 shapeCasts_S1x50000x128_S50000x128 i) a2)
    (broadcastInDim S50000x256 ![0, 1] bcast_S1x256_S50000x256_0_1 (broadcastInDim S1x256 ![1] bcast_S256_S1x256_1 a3))

/-- The neighbourhood sum: rows of x gathered at the (wrapped) first edge column, added into an all-zero array at
    the rows the second edge column names. -/
def aggF (x : (⟨S50000x256, .f32⟩ : BufTy).Contents (Elt F)) (s d : (⟨S800000, .i32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- A node's features plus its neighbourhood sum. -/
def hF (x : (⟨S50000x256, .f32⟩ : BufTy).Contents (Elt F)) (s d : (⟨S800000, .i32⟩ : BufTy).Contents (Elt F)) : (⟨S50000x256, .f32⟩ : BufTy).Contents (Elt F) := addf x (aggF x s d)

/-- A row vector of length 512 repeated down the 50000 rows (the two broadcasts every such operand goes through). -/
def rows512 (v : (⟨S512, .f32⟩ : BufTy).Contents (Elt F)) : (⟨S50000x512, .f32⟩ : BufTy).Contents (Elt F) :=
  broadcastInDim S50000x512 ![0, 1] bcast_S1x512_S50000x512_0_1 (broadcastInDim S1x512 ![1] bcast_S512_S1x512_1 v)

/-- The column means: the column sums from the zero word, divided by the 50000.0 word. -/
def mean512 (y : (⟨S50000x512, .f32⟩ : BufTy).Contents (Elt F)) : (⟨S512, .f32⟩ : BufTy).Contents (Elt F) :=
  Host.divf (Host.reduceAdd y (constant S_ .f32 0x00000000#32) reducesTo_S50000x512_S512_d0 h_S_) (broadcastInDim S512 ![] bcast_S_S512 (constant S_ .f32 0x47435000#32))

/-- The centred array inside the variance: the array less its column means, the means computed there a second
    time (through a 1×512 row this time). -/
def centred512 (y : (⟨S50000x512, .f32⟩ : BufTy).Contents (Elt F)) : (⟨S50000x512, .f32⟩ : BufTy).Contents (Elt F) :=
  subf y (broadcastInDim S50000x512 ![0, 1] bcast_S1x512_S50000x512_0_1
    (Host.divf (broadcastInDim S1x512 ![1] bcast_S512_S1x512_1 (Host.reduceAdd y (constant S_ .f32 0x00000000#32) reducesTo_S50000x512_S512_d0 h_S_))
      (broadcastInDim S1x512 ![] bcast_S_S1x512 (constant S_ .f32 0x47435000#32))))

/-- The divisor of the variance: 50000.0 less the degrees-of-freedom correction, the integer 0 converted. -/
def dof : (⟨S_, .f32⟩ : BufTy).Contents (Elt F) := subf (constant S_ .f32 0x47435000#32) (sitofp .f32 (constantI S_ 32 0#32) : (⟨S_, .f32⟩ : BufTy).Contents (Elt F))

/-- The column variances as the program computes them: the sum of squared centred entries over the divisor,
    selected against a not-a-number word on whether the divisor is positive. -/
def var512 (y : (⟨S50000x512, .f32⟩ : BufTy).Contents (Elt F)) : (⟨S512, .f32⟩ : BufTy).Contents (Elt F) :=
  select (broadcastInDim S512 ![] bcast_S_S512 (cmpf .ogt (dof (F := F)) (constant S_ .f32 0x00000000#32)))
    (Host.divf (Host.reduceAdd (mulf (centred512 y) (centred512 y)) (constant S_ .f32 0x00000000#32) reducesTo_S50000x512_S512_d0 h_S_)
      (broadcastInDim S512 ![] bcast_S_S512 (dof (F := F))))
    (broadcastInDim S512 ![] bcast_S_S512 (constant S_ .f32 0x7FC00000#32))

/-- The normalization: scale times (entry less mean), times the reciprocal root of (variance plus the small
    word), plus shift — in the program's association. -/
def bn512 (y : (⟨S50000x512, .f32⟩ : BufTy).Contents (Elt F)) (mean var g beta : (⟨S512, .f32⟩ : BufTy).Contents (Elt F)) : (⟨S50000x512, .f32⟩ : BufTy).Contents (Elt F) :=
  addf (mulf (mulf (rows512 g) (subf y (rows512 mean)))
      (rows512 (Host.rsqrt (addf var (broadcastInDim S512 ![] bcast_S_S512 (constant S_ .f32 0x3727C5AC#32))))))
    (rows512 beta)

/-- A row vector of length 256 repeated down the 50000 rows (the two broadcasts every such operand goes through). -/
def rows256 (v : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 v)

/-- The column means: the column sums from the zero word, divided by the 50000.0 word. -/
def mean256 (y : (⟨S50000x256, .f32⟩ : BufTy).Contents (Elt F)) : (⟨S256, .f32⟩ : BufTy).Contents (Elt F) :=
  Host.divf (Host.reduceAdd y (constant S_ .f32 0x00000000#32) reducesTo_S50000x256_S256_d0 h_S_) (broadcastInDim S256 ![] bcast_S_S256 (constant S_ .f32 0x47435000#32))

/-- The centred array inside the variance: the array less its column means, the means computed there a second
    time (through a 1×256 row this time). -/
def centred256 (y : (⟨S50000x256, .f32⟩ : BufTy).Contents (Elt F)) : (⟨S50000x256, .f32⟩ : BufTy).Contents (Elt F) :=
  subf y (broadcastInDim S50000x256 ![0, 1] bcast_S1x256_S50000x256_0_1
    (Host.divf (broadcastInDim S1x256 ![1] bcast_S256_S1x256_1 (Host.reduceAdd y (constant S_ .f32 0x00000000#32) reducesTo_S50000x256_S256_d0 h_S_))
      (broadcastInDim S1x256 ![] bcast_S_S1x256 (constant S_ .f32 0x47435000#32))))

/-- The column variances as the program computes them: the sum of squared centred entries over the divisor,
    selected against a not-a-number word on whether the divisor is positive. -/
def var256 (y : (⟨S50000x256, .f32⟩ : BufTy).Contents (Elt F)) : (⟨S256, .f32⟩ : BufTy).Contents (Elt F) :=
  select (broadcastInDim S256 ![] bcast_S_S256 (cmpf .ogt (dof (F := F)) (constant S_ .f32 0x00000000#32)))
    (Host.divf (Host.reduceAdd (mulf (centred256 y) (centred256 y)) (constant S_ .f32 0x00000000#32) reducesTo_S50000x256_S256_d0 h_S_)
      (broadcastInDim S256 ![] bcast_S_S256 (dof (F := F))))
    (broadcastInDim S256 ![] bcast_S_S256 (constant S_ .f32 0x7FC00000#32))

/-- The normalization: scale times (entry less mean), times the reciprocal root of (variance plus the small
    word), plus shift — in the program's association. -/
def bn256 (y : (⟨S50000x256, .f32⟩ : BufTy).Contents (Elt F)) (mean var g beta : (⟨S256, .f32⟩ : BufTy).Contents (Elt F)) : (⟨S50000x256, .f32⟩ : BufTy).Contents (Elt F) :=
  addf (mulf (mulf (rows256 g) (subf y (rows256 mean)))
      (rows256 (Host.rsqrt (addf var (broadcastInDim S256 ![] bcast_S_S256 (constant S_ .f32 0x3727C5AC#32))))))
    (rows256 beta)

/-- The first linear map of a layer. -/
def h1F (h : (⟨S50000x256, .f32⟩ : BufTy).Contents (Elt F)) (W1 : (⟨S256x512, .f32⟩ : BufTy).Contents (Elt F)) (b1 : (⟨S512, .f32⟩ : BufTy).Contents (Elt F)) : (⟨S50000x512, .f32⟩ : BufTy).Contents (Elt F) :=
  addf (Host.dotGeneral dot_S50000x256_S256x512_S50000x512_1_0_0_1_n_n none h W1) (rows512 b1)

/-- The rectifier: the maximum with zero. -/
def reluF (z : (⟨S50000x512, .f32⟩ : BufTy).Contents (Elt F)) : (⟨S50000x512, .f32⟩ : BufTy).Contents (Elt F) :=
  maximumf z (broadcastInDim S50000x512 ![] bcast_S_S50000x512 (constant S_ .f32 0x00000000#32))

/-- The second linear map of a layer, plus the layer's input. -/
def h3F (r : (⟨S50000x512, .f32⟩ : BufTy).Contents (Elt F)) (W2 : (⟨S512x256, .f32⟩ : BufTy).Contents (Elt F)) (b2 : (⟨S256, .f32⟩ : BufTy).Contents (Elt F)) (x : (⟨S50000x256, .f32⟩ : BufTy).Contents (Elt F)) : (⟨S50000x256, .f32⟩ : BufTy).Contents (Elt F) :=
  addf (addf (Host.dotGeneral dot_S50000x512_S512x256_S50000x256_1_0_0_1_n_n none r W2) (rows256 b2)) x

/-- One layer, over its own weights. -/
def layerBody (x : (⟨S50000x256, .f32⟩ : BufTy).Contents (Elt F)) (s d : (⟨S800000, .i32⟩ : BufTy).Contents (Elt F)) (W1 : (⟨S256x512, .f32⟩ : BufTy).Contents (Elt F)) (b1 g1 be1 : (⟨S512, .f32⟩ : BufTy).Contents (Elt F))
    (W2 : (⟨S512x256, .f32⟩ : BufTy).Contents (Elt F)) (b2 gf bef : (⟨S256, .f32⟩ : BufTy).Contents (Elt F)) : (⟨S50000x256, .f32⟩ : BufTy).Contents (Elt F) :=
  bn256 (h3F (reluF (bn512 (h1F (hF x s d) W1 b1) (mean512 (h1F (hF x s d) W1 b1)) (var512 (h1F (hF x s d) W1 b1)) g1 be1)) W2 b2 x)
    (mean256 (h3F (reluF (bn512 (h1F (hF x s d) W1 b1) (mean512 (h1F (hF x s d) W1 b1)) (var512 (h1F (hF x s d) W1 b1)) g1 be1)) W2 b2 x))
    (var256 (h3F (reluF (bn512 (h1F (hF x s d) W1 b1) (mean512 (h1F (hF x s d) W1 b1)) (var512 (h1F (hF x s d) W1 b1)) g1 be1)) W2 b2 x))
    gf bef

/-- Layer 0's slices of the stacked weights: entry [0, …] of each, as an array of one rank less. -/
def w1F_0 (a4 : (⟨S3x256x512, .f32⟩ : BufTy).Contents (Elt F)) : (⟨S256x512, .f32⟩ : BufTy).Contents (Elt F) :=
  fun i => shapeCast S256x512 (extractStridedSlice S1x256x512 ![0, 0, 0] a4 slices_S3x256x512_S1x256x512_0_0_0) shapeCasts_S1x256x512_S256x512 i
def v512F_0 (a : (⟨S3x512, .f32⟩ : BufTy).Contents (Elt F)) : (⟨S512, .f32⟩ : BufTy).Contents (Elt F) :=
  fun i => shapeCast S512 (extractStridedSlice S1x512 ![0, 0] a slices_S3x512_S1x512_0_0) shapeCasts_S1x512_S512 i
def w2F_0 (a8 : (⟨S3x512x256, .f32⟩ : BufTy).Contents (Elt F)) : (⟨S512x256, .f32⟩ : BufTy).Contents (Elt F) :=
  fun i => shapeCast S512x256 (extractStridedSlice S1x512x256 ![0, 0, 0] a8 slices_S3x512x256_S1x512x256_0_0_0) shapeCasts_S1x512x256_S512x256 i
def v256F_0 (a : (⟨S3x256, .f32⟩ : BufTy).Contents (Elt F)) : (⟨S256, .f32⟩ : BufTy).Contents (Elt F) :=
  fun i => shapeCast S256 (extractStridedSlice S1x256 ![0, 0] a slices_S3x256_S1x256_0_0) shapeCasts_S1x256_S256 i

/-- Layer 0 over the stacked weights. -/
def layerF_0 (x : (⟨S50000x256, .f32⟩ : BufTy).Contents (Elt F)) (s d : (⟨S800000, .i32⟩ : BufTy).Contents (Elt F)) (a4 : (⟨S3x256x512, .f32⟩ : BufTy).Contents (Elt F)) (a5 a6 a7 : (⟨S3x512, .f32⟩ : BufTy).Contents (Elt F))
    (a8 : (⟨S3x512x256, .f32⟩ : BufTy).Contents (Elt F)) (a9 a10 a11 : (⟨S3x256, .f32⟩ : BufTy).Contents (Elt F)) : (⟨S50000x256, .f32⟩ : BufTy).Contents (Elt F) :=
  layerBody x s d (w1F_0 a4) (v512F_0 a5) (v512F_0 a6) (v512F_0 a7) (w2F_0 a8) (v256F_0 a9) (v256F_0 a10) (v256F_0 a11)

/-- Layer 1's slices of the stacked weights: entry [1, …] of each, as an array of one rank less. -/
def w1F_1 (a4 : (⟨S3x256x512, .f32⟩ : BufTy).Contents (Elt F)) : (⟨S256x512, .f32⟩ : BufTy).Contents (Elt F) :=
  fun i => shapeCast S256x512 (extractStridedSlice S1x256x512 ![1, 0, 0] a4 slices_S3x256x512_S1x256x512_1_0_0) shapeCasts_S1x256x512_S256x512 i
def v512F_1 (a : (⟨S3x512, .f32⟩ : BufTy).Contents (Elt F)) : (⟨S512, .f32⟩ : BufTy).Contents (Elt F) :=
  fun i => shapeCast S512 (extractStridedSlice S1x512 ![1, 0] a slices_S3x512_S1x512_1_0) shapeCasts_S1x512_S512 i
def w2F_1 (a8 : (⟨S3x512x256, .f32⟩ : BufTy).Contents (Elt F)) : (⟨S512x256, .f32⟩ : BufTy).Contents (Elt F) :=
  fun i => shapeCast S512x256 (extractStridedSlice S1x512x256 ![1, 0, 0] a8 slices_S3x512x256_S1x512x256_1_0_0) shapeCasts_S1x512x256_S512x256 i
def v256F_1 (a : (⟨S3x256, .f32⟩ : BufTy).Contents (Elt F)) : (⟨S256, .f32⟩ : BufTy).Contents (Elt F) :=
  fun i => shapeCast S256 (extractStridedSlice S1x256 ![1, 0] a slices_S3x256_S1x256_1_0) shapeCasts_S1x256_S256 i

/-- Layer 1 over the stacked weights. -/
def layerF_1 (x : (⟨S50000x256, .f32⟩ : BufTy).Contents (Elt F)) (s d : (⟨S800000, .i32⟩ : BufTy).Contents (Elt F)) (a4 : (⟨S3x256x512, .f32⟩ : BufTy).Contents (Elt F)) (a5 a6 a7 : (⟨S3x512, .f32⟩ : BufTy).Contents (Elt F))
    (a8 : (⟨S3x512x256, .f32⟩ : BufTy).Contents (Elt F)) (a9 a10 a11 : (⟨S3x256, .f32⟩ : BufTy).Contents (Elt F)) : (⟨S50000x256, .f32⟩ : BufTy).Contents (Elt F) :=
  layerBody x s d (w1F_1 a4) (v512F_1 a5) (v512F_1 a6) (v512F_1 a7) (w2F_1 a8) (v256F_1 a9) (v256F_1 a10) (v256F_1 a11)

/-- Layer 2's slices of the stacked weights: entry [2, …] of each, as an array of one rank less. -/
def w1F_2 (a4 : (⟨S3x256x512, .f32⟩ : BufTy).Contents (Elt F)) : (⟨S256x512, .f32⟩ : BufTy).Contents (Elt F) :=
  fun i => shapeCast S256x512 (extractStridedSlice S1x256x512 ![2, 0, 0] a4 slices_S3x256x512_S1x256x512_2_0_0) shapeCasts_S1x256x512_S256x512 i
def v512F_2 (a : (⟨S3x512, .f32⟩ : BufTy).Contents (Elt F)) : (⟨S512, .f32⟩ : BufTy).Contents (Elt F) :=
  fun i => shapeCast S512 (extractStridedSlice S1x512 ![2, 0] a slices_S3x512_S1x512_2_0) shapeCasts_S1x512_S512 i
def w2F_2 (a8 : (⟨S3x512x256, .f32⟩ : BufTy).Contents (Elt F)) : (⟨S512x256, .f32⟩ : BufTy).Contents (Elt F) :=
  fun i => shapeCast S512x256 (extractStridedSlice S1x512x256 ![2, 0, 0] a8 slices_S3x512x256_S1x512x256_2_0_0) shapeCasts_S1x512x256_S512x256 i
def v256F_2 (a : (⟨S3x256, .f32⟩ : BufTy).Contents (Elt F)) : (⟨S256, .f32⟩ : BufTy).Contents (Elt F) :=
  fun i => shapeCast S256 (extractStridedSlice S1x256 ![2, 0] a slices_S3x256_S1x256_2_0) shapeCasts_S1x256_S256 i

/-- Layer 2 over the stacked weights. -/
def layerF_2 (x : (⟨S50000x256, .f32⟩ : BufTy).Contents (Elt F)) (s d : (⟨S800000, .i32⟩ : BufTy).Contents (Elt F)) (a4 : (⟨S3x256x512, .f32⟩ : BufTy).Contents (Elt F)) (a5 a6 a7 : (⟨S3x512, .f32⟩ : BufTy).Contents (Elt F))
    (a8 : (⟨S3x512x256, .f32⟩ : BufTy).Contents (Elt F)) (a9 a10 a11 : (⟨S3x256, .f32⟩ : BufTy).Contents (Elt F)) : (⟨S50000x256, .f32⟩ : BufTy).Contents (Elt F) :=
  layerBody x s d (w1F_2 a4) (v512F_2 a5) (v512F_2 a6) (v512F_2 a7) (w2F_2 a8) (v256F_2 a9) (v256F_2 a10) (v256F_2 a11)

/-- The whole program: the embedding, then the three layers. -/
def outF (a0 : (⟨S1x50000x128, .f32⟩ : BufTy).Contents (Elt F)) (a1 : (⟨S1x800000x2, .i32⟩ : BufTy).Contents (Elt F)) (a2 : (⟨S128x256, .f32⟩ : BufTy).Contents (Elt F)) (a3 : (⟨S256, .f32⟩ : BufTy).Contents (Elt F))
    (a4 : (⟨S3x256x512, .f32⟩ : BufTy).Contents (Elt F)) (a5 a6 a7 : (⟨S3x512, .f32⟩ : BufTy).Contents (Elt F)) (a8 : (⟨S3x512x256, .f32⟩ : BufTy).Contents (Elt F)) (a9 a10 a11 : (⟨S3x256, .f32⟩ : BufTy).Contents (Elt F)) :
    (⟨S50000x256, .f32⟩ : BufTy).Contents (Elt F) :=
  layerF_2 (layerF_1 (layerF_0 (x0F a0 a2 a3) (srcF a1) (dstF a1) a4 a5 a6 a7 a8 a9 a10 a11) (srcF a1) (dstF a1) a4 a5 a6 a7 a8 a9 a10 a11)
    (srcF a1) (dstF a1) a4 a5 a6 a7 a8 a9 a10 a11

end Cert.ReferenceIdeal.Hand

end
-- ==== Proof.RI.ValA.lean ====
/-
  What the embedding's ten operations leave in the buffers, from any contents W: the three results later operations read as the
  pure function of what they read, and every buffer a later operation reads that these do not write, unchanged.
-/
import proofs.«132438_j6098853560655_1_alg».proof.Proof.RI.Ops
import proofs.«132438_j6098853560655_1_alg».proof.Proof.RI.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 4000000

theorem A_main_v9 (W : Valuation τ sig (Elt F)) :
    after pc0A W (main_v9 : DevRef τ sig) = x0F (W (main_arg0 : DevRef τ sig)) (W (main_arg2 : DevRef τ sig)) (W (main_arg3 : DevRef τ sig)) := by
  after_results_simp
  rfl

theorem A_main_v3 (W : Valuation τ sig (Elt F)) :
    after pc0A W (main_v3 : DevRef τ sig) = srcF (W (main_arg1 : DevRef τ sig)) := by
  after_results_simp
  rfl

theorem A_main_v5 (W : Valuation τ sig (Elt F)) :
    after pc0A W (main_v5 : DevRef τ sig) = dstF (W (main_arg1 : DevRef τ sig)) := by
  after_results_simp
  rfl

theorem A_main_arg0 (W : Valuation τ sig (Elt F)) :
    after pc0A W (main_arg0 : DevRef τ sig) = (W (main_arg0 : DevRef τ sig)) := by
  after_results_simp

theorem A_main_arg1 (W : Valuation τ sig (Elt F)) :
    after pc0A W (main_arg1 : DevRef τ sig) = (W (main_arg1 : DevRef τ sig)) := by
  after_results_simp

theorem A_main_arg2 (W : Valuation τ sig (Elt F)) :
    after pc0A W (main_arg2 : DevRef τ sig) = (W (main_arg2 : DevRef τ sig)) := by
  after_results_simp

theorem A_main_arg3 (W : Valuation τ sig (Elt F)) :
    after pc0A W (main_arg3 : DevRef τ sig) = (W (main_arg3 : DevRef τ sig)) := by
  after_results_simp

theorem A_main_arg4 (W : Valuation τ sig (Elt F)) :
    after pc0A W (main_arg4 : DevRef τ sig) = (W (main_arg4 : DevRef τ sig)) := by
  after_results_simp

theorem A_main_arg5 (W : Valuation τ sig (Elt F)) :
    after pc0A W (main_arg5 : DevRef τ sig) = (W (main_arg5 : DevRef τ sig)) := by
  after_results_simp

theorem A_main_arg6 (W : Valuation τ sig (Elt F)) :
    after pc0A W (main_arg6 : DevRef τ sig) = (W (main_arg6 : DevRef τ sig)) := by
  after_results_simp

theorem A_main_arg7 (W : Valuation τ sig (Elt F)) :
    after pc0A W (main_arg7 : DevRef τ sig) = (W (main_arg7 : DevRef τ sig)) := by
  after_results_simp

theorem A_main_arg8 (W : Valuation τ sig (Elt F)) :
    after pc0A W (main_arg8 : DevRef τ sig) = (W (main_arg8 : DevRef τ sig)) := by
  after_results_simp

theorem A_main_arg9 (W : Valuation τ sig (Elt F)) :
    after pc0A W (main_arg9 : DevRef τ sig) = (W (main_arg9 : DevRef τ sig)) := by
  after_results_simp

theorem A_main_arg10 (W : Valuation τ sig (Elt F)) :
    after pc0A W (main_arg10 : DevRef τ sig) = (W (main_arg10 : DevRef τ sig)) := by
  after_results_simp

theorem A_main_arg11 (W : Valuation τ sig (Elt F)) :
    after pc0A W (main_arg11 : DevRef τ sig) = (W (main_arg11 : DevRef τ sig)) := by
  after_results_simp

end Cert.ReferenceIdeal.Hand

end
-- ==== Proof.RI.ValL0.lean ====
/-
  What layer 0's 130 operations leave in the buffers, from any contents W: the layer's result as the
  pure function of what it reads, and every buffer a later operation reads that these do not write, unchanged.
-/
import proofs.«132438_j6098853560655_1_alg».proof.Proof.RI.Ops
import proofs.«132438_j6098853560655_1_alg».proof.Proof.RI.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 4000000

theorem L0_val (W : Valuation τ sig (Elt F)) :
    after (pc0L0 ++ pc1L0) W (main_v84 : DevRef τ sig)
      = layerF_0 (W (main_v9 : DevRef τ sig)) (W (main_v3 : DevRef τ sig)) (W (main_v5 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) (W (main_arg10 : DevRef τ sig)) (W (main_arg11 : DevRef τ sig)) := by
  simp only [pc0L0, pc1L0, List.cons_append, List.nil_append, List.append_assoc]
  after_results_simp
  rfl

theorem L0_main_v3 (W : Valuation τ sig (Elt F)) :
    after (pc0L0 ++ pc1L0) W (main_v3 : DevRef τ sig) = (W (main_v3 : DevRef τ sig)) := by
  simp only [pc0L0, pc1L0, List.cons_append, List.nil_append, List.append_assoc]
  after_results_simp

theorem L0_main_v5 (W : Valuation τ sig (Elt F)) :
    after (pc0L0 ++ pc1L0) W (main_v5 : DevRef τ sig) = (W (main_v5 : DevRef τ sig)) := by
  simp only [pc0L0, pc1L0, List.cons_append, List.nil_append, List.append_assoc]
  after_results_simp

theorem L0_main_arg0 (W : Valuation τ sig (Elt F)) :
    after (pc0L0 ++ pc1L0) W (main_arg0 : DevRef τ sig) = (W (main_arg0 : DevRef τ sig)) := by
  simp only [pc0L0, pc1L0, List.cons_append, List.nil_append, List.append_assoc]
  after_results_simp

theorem L0_main_arg1 (W : Valuation τ sig (Elt F)) :
    after (pc0L0 ++ pc1L0) W (main_arg1 : DevRef τ sig) = (W (main_arg1 : DevRef τ sig)) := by
  simp only [pc0L0, pc1L0, List.cons_append, List.nil_append, List.append_assoc]
  after_results_simp

theorem L0_main_arg2 (W : Valuation τ sig (Elt F)) :
    after (pc0L0 ++ pc1L0) W (main_arg2 : DevRef τ sig) = (W (main_arg2 : DevRef τ sig)) := by
  simp only [pc0L0, pc1L0, List.cons_append, List.nil_append, List.append_assoc]
  after_results_simp

theorem L0_main_arg3 (W : Valuation τ sig (Elt F)) :
    after (pc0L0 ++ pc1L0) W (main_arg3 : DevRef τ sig) = (W (main_arg3 : DevRef τ sig)) := by
  simp only [pc0L0, pc1L0, List.cons_append, List.nil_append, List.append_assoc]
  after_results_simp

theorem L0_main_arg4 (W : Valuation τ sig (Elt F)) :
    after (pc0L0 ++ pc1L0) W (main_arg4 : DevRef τ sig) = (W (main_arg4 : DevRef τ sig)) := by
  simp only [pc0L0, pc1L0, List.cons_append, List.nil_append, List.append_assoc]
  after_results_simp

theorem L0_main_arg5 (W : Valuation τ sig (Elt F)) :
    after (pc0L0 ++ pc1L0) W (main_arg5 : DevRef τ sig) = (W (main_arg5 : DevRef τ sig)) := by
  simp only [pc0L0, pc1L0, List.cons_append, List.nil_append, List.append_assoc]
  after_results_simp

theorem L0_main_arg6 (W : Valuation τ sig (Elt F)) :
    after (pc0L0 ++ pc1L0) W (main_arg6 : DevRef τ sig) = (W (main_arg6 : DevRef τ sig)) := by
  simp only [pc0L0, pc1L0, List.cons_append, List.nil_append, List.append_assoc]
  after_results_simp

theorem L0_main_arg7 (W : Valuation τ sig (Elt F)) :
    after (pc0L0 ++ pc1L0) W (main_arg7 : DevRef τ sig) = (W (main_arg7 : DevRef τ sig)) := by
  simp only [pc0L0, pc1L0, List.cons_append, List.nil_append, List.append_assoc]
  after_results_simp

theorem L0_main_arg8 (W : Valuation τ sig (Elt F)) :
    after (pc0L0 ++ pc1L0) W (main_arg8 : DevRef τ sig) = (W (main_arg8 : DevRef τ sig)) := by
  simp only [pc0L0, pc1L0, List.cons_append, List.nil_append, List.append_assoc]
  after_results_simp

theorem L0_main_arg9 (W : Valuation τ sig (Elt F)) :
    after (pc0L0 ++ pc1L0) W (main_arg9 : DevRef τ sig) = (W (main_arg9 : DevRef τ sig)) := by
  simp only [pc0L0, pc1L0, List.cons_append, List.nil_append, List.append_assoc]
  after_results_simp

theorem L0_main_arg10 (W : Valuation τ sig (Elt F)) :
    after (pc0L0 ++ pc1L0) W (main_arg10 : DevRef τ sig) = (W (main_arg10 : DevRef τ sig)) := by
  simp only [pc0L0, pc1L0, List.cons_append, List.nil_append, List.append_assoc]
  after_results_simp

theorem L0_main_arg11 (W : Valuation τ sig (Elt F)) :
    after (pc0L0 ++ pc1L0) W (main_arg11 : DevRef τ sig) = (W (main_arg11 : DevRef τ sig)) := by
  simp only [pc0L0, pc1L0, List.cons_append, List.nil_append, List.append_assoc]
  after_results_simp

end Cert.ReferenceIdeal.Hand

end
-- ==== Proof.RI.ValL1.lean ====
/-
  What layer 1's 130 operations leave in the buffers, from any contents W: the layer's result as the
  pure function of what it reads, and every buffer a later operation reads that these do not write, unchanged.
-/
import proofs.«132438_j6098853560655_1_alg».proof.Proof.RI.Ops
import proofs.«132438_j6098853560655_1_alg».proof.Proof.RI.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 4000000

theorem L1_val (W : Valuation τ sig (Elt F)) :
    after ((pc1L1 ++ pc2L1) ++ pc3L1) W (main_v159 : DevRef τ sig)
      = layerF_1 (W (main_v84 : DevRef τ sig)) (W (main_v3 : DevRef τ sig)) (W (main_v5 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) (W (main_arg10 : DevRef τ sig)) (W (main_arg11 : DevRef τ sig)) := by
  simp only [pc1L1, pc2L1, pc3L1, List.cons_append, List.nil_append, List.append_assoc]
  after_results_simp
  rfl

theorem L1_main_v3 (W : Valuation τ sig (Elt F)) :
    after ((pc1L1 ++ pc2L1) ++ pc3L1) W (main_v3 : DevRef τ sig) = (W (main_v3 : DevRef τ sig)) := by
  simp only [pc1L1, pc2L1, pc3L1, List.cons_append, List.nil_append, List.append_assoc]
  after_results_simp

theorem L1_main_v5 (W : Valuation τ sig (Elt F)) :
    after ((pc1L1 ++ pc2L1) ++ pc3L1) W (main_v5 : DevRef τ sig) = (W (main_v5 : DevRef τ sig)) := by
  simp only [pc1L1, pc2L1, pc3L1, List.cons_append, List.nil_append, List.append_assoc]
  after_results_simp

theorem L1_main_arg0 (W : Valuation τ sig (Elt F)) :
    after ((pc1L1 ++ pc2L1) ++ pc3L1) W (main_arg0 : DevRef τ sig) = (W (main_arg0 : DevRef τ sig)) := by
  simp only [pc1L1, pc2L1, pc3L1, List.cons_append, List.nil_append, List.append_assoc]
  after_results_simp

theorem L1_main_arg1 (W : Valuation τ sig (Elt F)) :
    after ((pc1L1 ++ pc2L1) ++ pc3L1) W (main_arg1 : DevRef τ sig) = (W (main_arg1 : DevRef τ sig)) := by
  simp only [pc1L1, pc2L1, pc3L1, List.cons_append, List.nil_append, List.append_assoc]
  after_results_simp

theorem L1_main_arg2 (W : Valuation τ sig (Elt F)) :
    after ((pc1L1 ++ pc2L1) ++ pc3L1) W (main_arg2 : DevRef τ sig) = (W (main_arg2 : DevRef τ sig)) := by
  simp only [pc1L1, pc2L1, pc3L1, List.cons_append, List.nil_append, List.append_assoc]
  after_results_simp

theorem L1_main_arg3 (W : Valuation τ sig (Elt F)) :
    after ((pc1L1 ++ pc2L1) ++ pc3L1) W (main_arg3 : DevRef τ sig) = (W (main_arg3 : DevRef τ sig)) := by
  simp only [pc1L1, pc2L1, pc3L1, List.cons_append, List.nil_append, List.append_assoc]
  after_results_simp

theorem L1_main_arg4 (W : Valuation τ sig (Elt F)) :
    after ((pc1L1 ++ pc2L1) ++ pc3L1) W (main_arg4 : DevRef τ sig) = (W (main_arg4 : DevRef τ sig)) := by
  simp only [pc1L1, pc2L1, pc3L1, List.cons_append, List.nil_append, List.append_assoc]
  after_results_simp

theorem L1_main_arg5 (W : Valuation τ sig (Elt F)) :
    after ((pc1L1 ++ pc2L1) ++ pc3L1) W (main_arg5 : DevRef τ sig) = (W (main_arg5 : DevRef τ sig)) := by
  simp only [pc1L1, pc2L1, pc3L1, List.cons_append, List.nil_append, List.append_assoc]
  after_results_simp

theorem L1_main_arg6 (W : Valuation τ sig (Elt F)) :
    after ((pc1L1 ++ pc2L1) ++ pc3L1) W (main_arg6 : DevRef τ sig) = (W (main_arg6 : DevRef τ sig)) := by
  simp only [pc1L1, pc2L1, pc3L1, List.cons_append, List.nil_append, List.append_assoc]
  after_results_simp

theorem L1_main_arg7 (W : Valuation τ sig (Elt F)) :
    after ((pc1L1 ++ pc2L1) ++ pc3L1) W (main_arg7 : DevRef τ sig) = (W (main_arg7 : DevRef τ sig)) := by
  simp only [pc1L1, pc2L1, pc3L1, List.cons_append, List.nil_append, List.append_assoc]
  after_results_simp

theorem L1_main_arg8 (W : Valuation τ sig (Elt F)) :
    after ((pc1L1 ++ pc2L1) ++ pc3L1) W (main_arg8 : DevRef τ sig) = (W (main_arg8 : DevRef τ sig)) := by
  simp only [pc1L1, pc2L1, pc3L1, List.cons_append, List.nil_append, List.append_assoc]
  after_results_simp

theorem L1_main_arg9 (W : Valuation τ sig (Elt F)) :
    after ((pc1L1 ++ pc2L1) ++ pc3L1) W (main_arg9 : DevRef τ sig) = (W (main_arg9 : DevRef τ sig)) := by
  simp only [pc1L1, pc2L1, pc3L1, List.cons_append, List.nil_append, List.append_assoc]
  after_results_simp

theorem L1_main_arg10 (W : Valuation τ sig (Elt F)) :
    after ((pc1L1 ++ pc2L1) ++ pc3L1) W (main_arg10 : DevRef τ sig) = (W (main_arg10 : DevRef τ sig)) := by
  simp only [pc1L1, pc2L1, pc3L1, List.cons_append, List.nil_append, List.append_assoc]
  after_results_simp

theorem L1_main_arg11 (W : Valuation τ sig (Elt F)) :
    after ((pc1L1 ++ pc2L1) ++ pc3L1) W (main_arg11 : DevRef τ sig) = (W (main_arg11 : DevRef τ sig)) := by
  simp only [pc1L1, pc2L1, pc3L1, List.cons_append, List.nil_append, List.append_assoc]
  after_results_simp

end Cert.ReferenceIdeal.Hand

end
-- ==== Proof.RI.ValL2.lean ====
/-
  What layer 2's 130 operations leave in the buffers, from any contents W: the layer's result as the
  pure function of what it reads, and every buffer a later operation reads that these do not write, unchanged.
-/
import proofs.«132438_j6098853560655_1_alg».proof.Proof.RI.Ops
import proofs.«132438_j6098853560655_1_alg».proof.Proof.RI.Fns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 4000000

theorem L2_val (W : Valuation τ sig (Elt F)) :
    after (pc3L2 ++ pc4L2) W (main_v234 : DevRef τ sig)
      = layerF_2 (W (main_v159 : DevRef τ sig)) (W (main_v3 : DevRef τ sig)) (W (main_v5 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) (W (main_arg10 : DevRef τ sig)) (W (main_arg11 : DevRef τ sig)) := by
  simp only [pc3L2, pc4L2, List.cons_append, List.nil_append, List.append_assoc]
  after_results_simp
  rfl

theorem L2_main_arg0 (W : Valuation τ sig (Elt F)) :
    after (pc3L2 ++ pc4L2) W (main_arg0 : DevRef τ sig) = (W (main_arg0 : DevRef τ sig)) := by
  simp only [pc3L2, pc4L2, List.cons_append, List.nil_append, List.append_assoc]
  after_results_simp

theorem L2_main_arg1 (W : Valuation τ sig (Elt F)) :
    after (pc3L2 ++ pc4L2) W (main_arg1 : DevRef τ sig) = (W (main_arg1 : DevRef τ sig)) := by
  simp only [pc3L2, pc4L2, List.cons_append, List.nil_append, List.append_assoc]
  after_results_simp

theorem L2_main_arg2 (W : Valuation τ sig (Elt F)) :
    after (pc3L2 ++ pc4L2) W (main_arg2 : DevRef τ sig) = (W (main_arg2 : DevRef τ sig)) := by
  simp only [pc3L2, pc4L2, List.cons_append, List.nil_append, List.append_assoc]
  after_results_simp

theorem L2_main_arg3 (W : Valuation τ sig (Elt F)) :
    after (pc3L2 ++ pc4L2) W (main_arg3 : DevRef τ sig) = (W (main_arg3 : DevRef τ sig)) := by
  simp only [pc3L2, pc4L2, List.cons_append, List.nil_append, List.append_assoc]
  after_results_simp

theorem L2_main_arg4 (W : Valuation τ sig (Elt F)) :
    after (pc3L2 ++ pc4L2) W (main_arg4 : DevRef τ sig) = (W (main_arg4 : DevRef τ sig)) := by
  simp only [pc3L2, pc4L2, List.cons_append, List.nil_append, List.append_assoc]
  after_results_simp

theorem L2_main_arg5 (W : Valuation τ sig (Elt F)) :
    after (pc3L2 ++ pc4L2) W (main_arg5 : DevRef τ sig) = (W (main_arg5 : DevRef τ sig)) := by
  simp only [pc3L2, pc4L2, List.cons_append, List.nil_append, List.append_assoc]
  after_results_simp

theorem L2_main_arg6 (W : Valuation τ sig (Elt F)) :
    after (pc3L2 ++ pc4L2) W (main_arg6 : DevRef τ sig) = (W (main_arg6 : DevRef τ sig)) := by
  simp only [pc3L2, pc4L2, List.cons_append, List.nil_append, List.append_assoc]
  after_results_simp

theorem L2_main_arg7 (W : Valuation τ sig (Elt F)) :
    after (pc3L2 ++ pc4L2) W (main_arg7 : DevRef τ sig) = (W (main_arg7 : DevRef τ sig)) := by
  simp only [pc3L2, pc4L2, List.cons_append, List.nil_append, List.append_assoc]
  after_results_simp

theorem L2_main_arg8 (W : Valuation τ sig (Elt F)) :
    after (pc3L2 ++ pc4L2) W (main_arg8 : DevRef τ sig) = (W (main_arg8 : DevRef τ sig)) := by
  simp only [pc3L2, pc4L2, List.cons_append, List.nil_append, List.append_assoc]
  after_results_simp

theorem L2_main_arg9 (W : Valuation τ sig (Elt F)) :
    after (pc3L2 ++ pc4L2) W (main_arg9 : DevRef τ sig) = (W (main_arg9 : DevRef τ sig)) := by
  simp only [pc3L2, pc4L2, List.cons_append, List.nil_append, List.append_assoc]
  after_results_simp

theorem L2_main_arg10 (W : Valuation τ sig (Elt F)) :
    after (pc3L2 ++ pc4L2) W (main_arg10 : DevRef τ sig) = (W (main_arg10 : DevRef τ sig)) := by
  simp only [pc3L2, pc4L2, List.cons_append, List.nil_append, List.append_assoc]
  after_results_simp

theorem L2_main_arg11 (W : Valuation τ sig (Elt F)) :
    after (pc3L2 ++ pc4L2) W (main_arg11 : DevRef τ sig) = (W (main_arg11 : DevRef τ sig)) := by
  simp only [pc3L2, pc4L2, List.cons_append, List.nil_append, List.append_assoc]
  after_results_simp

end Cert.ReferenceIdeal.Hand

end
-- ==== Proof.RI.Run.lean ====
/-
  The reference program's run. @main is the straight line of its 400 host operations (window by window, then
  joined), so every weakly fair execution terminates with every buffer at the operations' fold over the launch
  contents; the fold is read back a layer at a time: each layer leaves its result at the layer function of the
  previous layer's result, the two edge columns and the stacked weights, and leaves those untouched. Composed:
  the result buffer holds the program's pure function of the twelve argument arrays, and the arguments are
  unchanged.
-/
import proofs.«132438_j6098853560655_1_alg».proof.Proof.RI.Part0
import proofs.«132438_j6098853560655_1_alg».proof.Proof.RI.Part1
import proofs.«132438_j6098853560655_1_alg».proof.Proof.RI.Part2
import proofs.«132438_j6098853560655_1_alg».proof.Proof.RI.Part3
import proofs.«132438_j6098853560655_1_alg».proof.Proof.RI.Part4
import proofs.«132438_j6098853560655_1_alg».proof.Proof.RI.ValA
import proofs.«132438_j6098853560655_1_alg».proof.Proof.RI.ValL0
import proofs.«132438_j6098853560655_1_alg».proof.Proof.RI.ValL1
import proofs.«132438_j6098853560655_1_alg».proof.Proof.RI.ValL2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 400 operations, grouped as its five windows. -/
abbrev ops : List (HloOp τ sig (Elt F)) :=
  (pc0A ++ pc0L0) ++ ((pc1L0 ++ pc1L1) ++ (pc2L1 ++ ((pc3L1 ++ pc3L2) ++ pc4L2)))

theorem main_eq (c : Dev nD) : main (F := F) c = seq ops := by
  simp only [main, part0_eq, part1_eq, part2_eq, part3_eq, part4_eq, ops, seq_append, bind_assoc]

/-- The same list grouped as the embedding and the three layers. -/
theorem ops_eq : (ops : List (HloOp τ sig (Elt F)))
    = pc0A ++ ((pc0L0 ++ pc1L0) ++ (((pc1L1 ++ pc2L1) ++ pc3L1) ++ (pc3L2 ++ pc4L2))) := by
  simp only [ops, List.append_assoc]

theorem forall_append' {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append' (forall_append' pc0A_sub pc0L0_sub) (forall_append' (forall_append' pc1L0_sub pc1L1_sub)
    (forall_append' pc2L1_sub (forall_append' (forall_append' pc3L1_sub pc3L2_sub) pc4L2_sub)))

theorem ops_fresh : (ops : List (HloOp τ sig (Elt F))).Forall fun op => op.fresh = ∅ :=
  forall_append' (forall_append' pc0A_fresh pc0L0_fresh) (forall_append' (forall_append' pc1L0_fresh pc1L1_fresh)
    (forall_append' pc2L1_fresh (forall_append' (forall_append' pc3L1_fresh pc3L2_fresh) pc4L2_fresh)))

/-- The result buffer after the whole line: the program's function of the argument arrays. -/
theorem out_eq (V : Valuation τ sig (Elt F)) :
    after ops V (main_v234 : DevRef τ sig) = outF (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ops_eq, after_append, after_append, after_append]
  rw [L2_val, L1_val, L1_main_v3, L1_main_v5, L1_main_arg4, L1_main_arg5, L1_main_arg6, L1_main_arg7, L1_main_arg8, L1_main_arg9, L1_main_arg10, L1_main_arg11]
  rw [L0_val, L0_main_v3, L0_main_v5, L0_main_arg4, L0_main_arg5, L0_main_arg6, L0_main_arg7, L0_main_arg8, L0_main_arg9, L0_main_arg10, L0_main_arg11]
  rw [A_main_v9, A_main_v3, A_main_v5, A_main_arg4, A_main_arg5, A_main_arg6, A_main_arg7, A_main_arg8, A_main_arg9, A_main_arg10, A_main_arg11]
  rfl

theorem main_arg0_eq (V : Valuation τ sig (Elt F)) : after ops V (main_arg0 : DevRef τ sig) = (V (main_arg0 : DevRef τ sig)) := by
  rw [ops_eq, after_append, after_append, after_append, L2_main_arg0, L1_main_arg0, L0_main_arg0, A_main_arg0]

theorem main_arg1_eq (V : Valuation τ sig (Elt F)) : after ops V (main_arg1 : DevRef τ sig) = (V (main_arg1 : DevRef τ sig)) := by
  rw [ops_eq, after_append, after_append, after_append, L2_main_arg1, L1_main_arg1, L0_main_arg1, A_main_arg1]

theorem main_arg2_eq (V : Valuation τ sig (Elt F)) : after ops V (main_arg2 : DevRef τ sig) = (V (main_arg2 : DevRef τ sig)) := by
  rw [ops_eq, after_append, after_append, after_append, L2_main_arg2, L1_main_arg2, L0_main_arg2, A_main_arg2]

theorem main_arg3_eq (V : Valuation τ sig (Elt F)) : after ops V (main_arg3 : DevRef τ sig) = (V (main_arg3 : DevRef τ sig)) := by
  rw [ops_eq, after_append, after_append, after_append, L2_main_arg3, L1_main_arg3, L0_main_arg3, A_main_arg3]

theorem main_arg4_eq (V : Valuation τ sig (Elt F)) : after ops V (main_arg4 : DevRef τ sig) = (V (main_arg4 : DevRef τ sig)) := by
  rw [ops_eq, after_append, after_append, after_append, L2_main_arg4, L1_main_arg4, L0_main_arg4, A_main_arg4]

theorem main_arg5_eq (V : Valuation τ sig (Elt F)) : after ops V (main_arg5 : DevRef τ sig) = (V (main_arg5 : DevRef τ sig)) := by
  rw [ops_eq, after_append, after_append, after_append, L2_main_arg5, L1_main_arg5, L0_main_arg5, A_main_arg5]

theorem main_arg6_eq (V : Valuation τ sig (Elt F)) : after ops V (main_arg6 : DevRef τ sig) = (V (main_arg6 : DevRef τ sig)) := by
  rw [ops_eq, after_append, after_append, after_append, L2_main_arg6, L1_main_arg6, L0_main_arg6, A_main_arg6]

theorem main_arg7_eq (V : Valuation τ sig (Elt F)) : after ops V (main_arg7 : DevRef τ sig) = (V (main_arg7 : DevRef τ sig)) := by
  rw [ops_eq, after_append, after_append, after_append, L2_main_arg7, L1_main_arg7, L0_main_arg7, A_main_arg7]

theorem main_arg8_eq (V : Valuation τ sig (Elt F)) : after ops V (main_arg8 : DevRef τ sig) = (V (main_arg8 : DevRef τ sig)) := by
  rw [ops_eq, after_append, after_append, after_append, L2_main_arg8, L1_main_arg8, L0_main_arg8, A_main_arg8]

theorem main_arg9_eq (V : Valuation τ sig (Elt F)) : after ops V (main_arg9 : DevRef τ sig) = (V (main_arg9 : DevRef τ sig)) := by
  rw [ops_eq, after_append, after_append, after_append, L2_main_arg9, L1_main_arg9, L0_main_arg9, A_main_arg9]

theorem main_arg10_eq (V : Valuation τ sig (Elt F)) : after ops V (main_arg10 : DevRef τ sig) = (V (main_arg10 : DevRef τ sig)) := by
  rw [ops_eq, after_append, after_append, after_append, L2_main_arg10, L1_main_arg10, L0_main_arg10, A_main_arg10]

theorem main_arg11_eq (V : Valuation τ sig (Elt F)) : after ops V (main_arg11 : DevRef τ sig) = (V (main_arg11 : DevRef τ sig)) := by
  rw [ops_eq, after_append, after_append, after_append, L2_main_arg11, L1_main_arg11, L0_main_arg11, A_main_arg11]

/-- The result array of the run, per device: the program's function of that device's argument arrays. -/
def out (m : (ℓ : Loc nD τ sig) → Buf (Elt F) ℓ) (c : Dev nD) : Buf (Elt F) ((c.tc : Thread nD τ).loc main_v234) :=
  outF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- On every device, for any float values, from any memory with zero counters: every weakly fair execution of
    @main terminates with the result buffer at the program's function of the argument arrays and the argument
    arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v234) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v234).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _),
      (h c main_arg11).trans (main_arg11_eq _)⟩)
    (run_seq scopedRefs_eq scopedSems_eq defs main (fun _ => ops) main_eq (fun _ => ops_sub) m ρ
      (fun _ => List.forall_iff_forall_mem.mp ops_fresh))

/-- The run with only the arguments' ends stated. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.ReferenceIdeal.Hand

end
-- ==== Proof.Spec.lean ====
/-
  The network both programs compute, written over plain index types on the extended reals.

  A matrix is a function of a row index and a column index, a row vector a function of a column index. Every
  definition keeps one fixed association of its operations:

    lin x w b p q      = (0 + Σ_k x p k · w k q) + b q             a product with a zero accumulator, then the bias
    colsum h q         = 0 + Σ_p h p q                             a column sum over the 50000 rows
    colsumsq h q       = 0 + Σ_p h p q · h p q                     a column sum of squares
    meanOf s q         = s q / 50000
    varK s2 m q        = s2 q / 50000 − m q · m q                  the variance as E[h²] − (E h)²
    varR h m q         = (0 + Σ_p (h p q − m q) · (h p q − m q)) / 50000     the variance as E[(h − E h)²]
    bn g β h m v p q   = g q · (h p q − m q) · rsqrt (v q + ε) + β q
    relu h p q         = max (h p q) 0

  The divisor 50000 and ε are the extended reals two f32 words denote; division and the reciprocal square root are the
  extended reals' (Ideal.div, Ideal.rsqrt). One layer is: h1 = lin (x + agg x) W1 b1; its column mean and variance;
  hn = relu (bn g1 β1 h1 mean1 var1); h3 = lin hn W2 b2 + x; its column mean and variance; out = bn gf βf h3 meanf varf.
  layerK takes both variances by varK, layerR by varR; nothing else differs.
-/
import Idealize.ShloMosaic.PureOps.Ideal
import Idealize.ShloMosaic.PureOps.Ideal.Laws
import Idealize.ShloMosaic.Lib.ValueIdx

noncomputable section

namespace Cert.Spec

open Idealize.ShloMosaic
open scoped BigOperators

/-- The row count 50000 as the extended real its f32 word denotes. -/
def cN : EReal := Ideal.ofBits .f32 0x47435000#32

/-- The variance offset ε as the extended real its f32 word denotes. -/
def eps : EReal := Ideal.ofBits .f32 0x3727C5AC#32

/-- x · w with a zero accumulator, then the bias row added. -/
def lin {k d : ℕ} (x : Fin 50000 → Fin k → EReal) (w : Fin k → Fin d → EReal) (b : Fin d → EReal) :
    Fin 50000 → Fin d → EReal :=
  fun p q => (0 + ∑ j : Fin k, x p j * w j q) + b q

/-- The entrywise sum of two matrices. -/
def addM {d : ℕ} (a b : Fin 50000 → Fin d → EReal) : Fin 50000 → Fin d → EReal :=
  fun p q => a p q + b p q

/-- Column sums over the rows. -/
def colsum {d : ℕ} (h : Fin 50000 → Fin d → EReal) : Fin d → EReal :=
  fun q => 0 + ∑ p : Fin 50000, h p q

/-- Column sums of squares over the rows. -/
def colsumsq {d : ℕ} (h : Fin 50000 → Fin d → EReal) : Fin d → EReal :=
  fun q => 0 + ∑ p : Fin 50000, h p q * h p q

/-- A row of sums divided by the row count. -/
def meanOf {d : ℕ} (s : Fin d → EReal) : Fin d → EReal :=
  fun q => Ideal.div (s q) cN

/-- The variance as the mean of the squares minus the square of the mean. -/
def varK {d : ℕ} (s2 mean : Fin d → EReal) : Fin d → EReal :=
  fun q => Ideal.div (s2 q) cN - mean q * mean q

/-- The variance as the mean of the squared deviations from the mean. -/
def varR {d : ℕ} (h : Fin 50000 → Fin d → EReal) (mean : Fin d → EReal) : Fin d → EReal :=
  fun q => Ideal.div (0 + ∑ p : Fin 50000, (h p q - mean q) * (h p q - mean q)) cN

/-- Normalisation by a mean row and a variance row, with scale g and shift β. -/
def bn {d : ℕ} (g beta : Fin d → EReal) (h : Fin 50000 → Fin d → EReal) (mean var : Fin d → EReal) :
    Fin 50000 → Fin d → EReal :=
  fun p q => g q * (h p q - mean q) * Ideal.rsqrt (var q + eps) + beta q

/-- The entrywise maximum with zero. -/
def relu {d : ℕ} (h : Fin 50000 → Fin d → EReal) : Fin 50000 → Fin d → EReal :=
  fun p q => max (h p q) 0

theorem lin_apply {k d : ℕ} (x : Fin 50000 → Fin k → EReal) (w : Fin k → Fin d → EReal) (b : Fin d → EReal)
    (p : Fin 50000) (q : Fin d) : lin x w b p q = (0 + ∑ j : Fin k, x p j * w j q) + b q := rfl
theorem addM_apply {d : ℕ} (a b : Fin 50000 → Fin d → EReal) (p : Fin 50000) (q : Fin d) :
    addM a b p q = a p q + b p q := rfl
theorem colsum_apply {d : ℕ} (h : Fin 50000 → Fin d → EReal) (q : Fin d) :
    colsum h q = 0 + ∑ p : Fin 50000, h p q := rfl
theorem colsumsq_apply {d : ℕ} (h : Fin 50000 → Fin d → EReal) (q : Fin d) :
    colsumsq h q = 0 + ∑ p : Fin 50000, h p q * h p q := rfl
theorem meanOf_apply {d : ℕ} (s : Fin d → EReal) (q : Fin d) :
    meanOf s q = Ideal.div (s q) (Ideal.ofBits .f32 0x47435000#32) := rfl
theorem varK_apply {d : ℕ} (s2 mean : Fin d → EReal) (q : Fin d) :
    varK s2 mean q = Ideal.div (s2 q) (Ideal.ofBits .f32 0x47435000#32) - mean q * mean q := rfl
theorem varR_apply {d : ℕ} (h : Fin 50000 → Fin d → EReal) (mean : Fin d → EReal) (q : Fin d) :
    varR h mean q
      = Ideal.div (0 + ∑ p : Fin 50000, (h p q - mean q) * (h p q - mean q)) (Ideal.ofBits .f32 0x47435000#32) := rfl
theorem bn_apply {d : ℕ} (g beta : Fin d → EReal) (h : Fin 50000 → Fin d → EReal) (mean var : Fin d → EReal)
    (p : Fin 50000) (q : Fin d) :
    bn g beta h mean var p q
      = g q * (h p q - mean q) * Ideal.rsqrt (var q + Ideal.ofBits .f32 0x3727C5AC#32) + beta q := rfl
theorem relu_apply {d : ℕ} (h : Fin 50000 → Fin d → EReal) (p : Fin 50000) (q : Fin d) :
    relu h p q = max (h p q) 0 := rfl

/-! ### One layer and the network -/

/-- The parameters of one layer. -/
structure Params where
  W1 : Fin 256 → Fin 512 → EReal
  b1 : Fin 512 → EReal
  g1 : Fin 512 → EReal
  beta1 : Fin 512 → EReal
  W2 : Fin 512 → Fin 256 → EReal
  b2 : Fin 256 → EReal
  gf : Fin 256 → EReal
  betaf : Fin 256 → EReal

/-- A 50000 × 256 matrix: a layer's input and output. -/
abbrev X256 : Type := Fin 50000 → Fin 256 → EReal

/-- The first product of a layer: (x + agg x) · W1 + b1. -/
def h1Of (agg : X256 → X256) (P : Params) (x : X256) : Fin 50000 → Fin 512 → EReal :=
  lin (addM x (agg x)) P.W1 P.b1

/-- The second product of a layer with the residual: hn · W2 + b2 + x. -/
def h3Of (P : Params) (hn : Fin 50000 → Fin 512 → EReal) (x : X256) : X256 :=
  addM (lin hn P.W2 P.b2) x

/-- One layer, both variances taken as E[h²] − (E h)². -/
def layerK (agg : X256 → X256) (P : Params) (x : X256) : X256 :=
  let h1 := h1Of agg P x
  let mean1 := meanOf (colsum h1)
  let var1 := varK (colsumsq h1) mean1
  let h3 := h3Of P (relu (bn P.g1 P.beta1 h1 mean1 var1)) x
  let meanf := meanOf (colsum h3)
  let varf := varK (colsumsq h3) meanf
  bn P.gf P.betaf h3 meanf varf

/-- One layer, both variances taken as E[(h − E h)²]. -/
def layerR (agg : X256 → X256) (P : Params) (x : X256) : X256 :=
  let h1 := h1Of agg P x
  let mean1 := meanOf (colsum h1)
  let var1 := varR h1 mean1
  let h3 := h3Of P (relu (bn P.g1 P.beta1 h1 mean1 var1)) x
  let meanf := meanOf (colsum h3)
  let varf := varR h3 meanf
  bn P.gf P.betaf h3 meanf varf

/-- A layer's output from its stages, each given by an equation: the form in which a run of the first program
    presents them (the products and the four column sums as arrays, the means and variances as rows). -/
theorem layerK_of_stages (agg : X256 → X256) (P : Params) (x : X256)
    (h1 : Fin 50000 → Fin 512 → EReal) (s1 q1 mean1 var1 : Fin 512 → EReal)
    (h3 : X256) (sf qf meanf varf : Fin 256 → EReal) (out : X256)
    (hh1 : h1 = lin (addM x (agg x)) P.W1 P.b1)
    (hs1 : s1 = colsum h1) (hq1 : q1 = colsumsq h1)
    (hm1 : mean1 = meanOf s1) (hv1 : var1 = varK q1 mean1)
    (hh3 : h3 = addM (lin (relu (bn P.g1 P.beta1 h1 mean1 var1)) P.W2 P.b2) x)
    (hsf : sf = colsum h3) (hqf : qf = colsumsq h3)
    (hmf : meanf = meanOf sf) (hvf : varf = varK qf meanf)
    (hout : out = bn P.gf P.betaf h3 meanf varf) :
    out = layerK agg P x := by
  subst hh1 hs1 hq1 hm1 hv1 hh3 hsf hqf hmf hvf hout
  rfl

/-- The same for the second program: the variances are rows computed from the product and the mean. -/
theorem layerR_of_stages (agg : X256 → X256) (P : Params) (x : X256)
    (h1 : Fin 50000 → Fin 512 → EReal) (mean1 var1 : Fin 512 → EReal)
    (h3 : X256) (meanf varf : Fin 256 → EReal) (out : X256)
    (hh1 : h1 = lin (addM x (agg x)) P.W1 P.b1)
    (hm1 : mean1 = meanOf (colsum h1)) (hv1 : var1 = varR h1 mean1)
    (hh3 : h3 = addM (lin (relu (bn P.g1 P.beta1 h1 mean1 var1)) P.W2 P.b2) x)
    (hmf : meanf = meanOf (colsum h3)) (hvf : varf = varR h3 meanf)
    (hout : out = bn P.gf P.betaf h3 meanf varf) :
    out = layerR agg P x := by
  subst hh1 hm1 hv1 hh3 hmf hvf hout
  rfl

/-- The network: the embedding product, then three layers over one aggregation. -/
def netK (agg : X256 → X256) (P0 P1 P2 : Params) (W0 : Fin 128 → Fin 256 → EReal) (b0 : Fin 256 → EReal)
    (emb : Fin 50000 → Fin 128 → EReal) : X256 :=
  layerK agg P2 (layerK agg P1 (layerK agg P0 (lin emb W0 b0)))

def netR (agg : X256 → X256) (P0 P1 P2 : Params) (W0 : Fin 128 → Fin 256 → EReal) (b0 : Fin 256 → EReal)
    (emb : Fin 50000 → Fin 128 → EReal) : X256 :=
  layerR agg P2 (layerR agg P1 (layerR agg P0 (lin emb W0 b0)))

/-! ### Finite entries -/

/-- An extended real that is a real number. -/
def IsReal (x : EReal) : Prop := ∃ r : ℝ, x = (r : EReal)

/-- A row of real numbers. -/
def RealRow {d : ℕ} (v : Fin d → EReal) : Prop := ∀ q, IsReal (v q)

/-- A matrix of real numbers. -/
def RealMat {n d : ℕ} (h : Fin n → Fin d → EReal) : Prop := ∀ p q, IsReal (h p q)

/-- A layer's parameters are all real numbers. -/
structure Params.Real (P : Params) : Prop where
  W1 : RealMat P.W1
  b1 : RealRow P.b1
  g1 : RealRow P.g1
  beta1 : RealRow P.beta1
  W2 : RealMat P.W2
  b2 : RealRow P.b2
  gf : RealRow P.gf
  betaf : RealRow P.betaf

end Cert.Spec

end
-- ==== Proof.Math.Consts.lean ====
/-
  The two constants as real numbers, and the arithmetic of extended reals that are real numbers.

  The word 0x47435000 denotes 50000 and the word 0x3727C5AC a positive real. An extended real is a real number exactly
  when it is neither infinity; sums, differences, products, maxima and finite sums of real numbers are real numbers, and
  the coercion from the reals commutes with each. Division by 50000 and the reciprocal square root of a positive real
  are then the reals' own.
-/
import proofs.«132438_j6098853560655_1_alg».proof.Proof.Spec

noncomputable section

namespace Cert.Spec

open Idealize.ShloMosaic
open scoped BigOperators

/-! ### The constants -/

/-- The divisor is the real number 50000. -/
theorem cN_eq : cN = ((50000 : ℝ) : EReal) := by
  unfold cN
  simp [Ideal.ofBits, Ideal.ieee, -EReal.coe_mul]
  norm_num

/-- The variance offset is a positive real number. -/
theorem eps_real_pos : ∃ e : ℝ, 0 < e ∧ eps = (e : EReal) := by
  unfold eps
  simp [Ideal.ofBits, Ideal.ieee, -EReal.coe_mul]

/-- Subtracting zero from the divisor leaves it. -/
theorem cN_sub_zero : cN - 0 = cN := sub_zero cN

/-! ### Real numbers among the extended reals -/

theorem isReal_coe (r : ℝ) : IsReal (r : EReal) := ⟨r, rfl⟩

theorem isReal_zero : IsReal (0 : EReal) := ⟨0, EReal.coe_zero.symm⟩

/-- Real means neither infinity. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

/-- An extended real whose absolute value max x (−x) is below +∞ is a real number. -/
theorem isReal_of_abs_lt_top {x : EReal} (h : max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion from the reals commutes with the maximum. -/
theorem coe_max (a b : ℝ) : ((max a b : ℝ) : EReal) = max (a : EReal) (b : EReal) :=
  EReal.coe_strictMono.monotone.map_max

theorem IsReal.max {x y : EReal} (hx : IsReal x) (hy : IsReal y) : IsReal (max x y) := by
  obtain ⟨a, rfl⟩ := hx; obtain ⟨b, rfl⟩ := hy; exact ⟨Max.max a b, (coe_max a b).symm⟩

/-- The coercion from the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of real numbers is a real number. -/
theorem isReal_sum {ι : Type*} (s : Finset ι) (f : ι → EReal) (hf : ∀ i, IsReal (f i)) :
    IsReal (∑ i ∈ s, f i) := by
  choose r hr using hf
  refine ⟨∑ i ∈ s, r i, ?_⟩
  rw [coe_sum]
  exact Finset.sum_congr rfl fun i _ => hr i

/-! ### Division by the row count, and the reciprocal square root -/

/-- A real number divided by the divisor is the real quotient by 50000. -/
theorem div_cN (r : ℝ) : Ideal.div (r : EReal) cN = ((r / 50000 : ℝ) : EReal) := by
  rw [cN_eq, Ideal.div_coe (by norm_num : (50000 : ℝ) ≠ 0), ← EReal.coe_mul, mul_one_div]

theorem IsReal.div_cN {x : EReal} (hx : IsReal x) : IsReal (Ideal.div x cN) := by
  obtain ⟨a, rfl⟩ := hx; exact ⟨a / 50000, Cert.Spec.div_cN a⟩

/-- The reciprocal square root of a positive real number is the reals' own. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- A nonnegative real number plus the variance offset has a real reciprocal square root. -/
theorem isReal_rsqrt_add_eps {v : EReal} (hv : ∃ r : ℝ, 0 ≤ r ∧ v = (r : EReal)) :
    IsReal (Ideal.rsqrt (v + eps)) := by
  obtain ⟨r, hr, rfl⟩ := hv
  obtain ⟨e, he, hE⟩ := eps_real_pos
  rw [hE, ← EReal.coe_add, rsqrt_coe_pos (add_pos_of_nonneg_of_pos hr he)]
  exact isReal_coe _

end Cert.Spec

end
-- ==== Proof.RI.Read.lean ====
/-
  The reference's stages read at an index, at the ideal values: a broadcast row reads the row's entry, a column sum
  is zero plus the sum down the column, a product is the sum over the contracted coordinate, the mean is the column
  sum over 50000, the variance's select takes its first branch (its divisor 50000 − 0 is positive) and is the sum
  of squared deviations over 50000, the normalization is scale · (entry − mean) · rsqrt(variance + ε) + shift, the
  rectifier the maximum with zero; a layer's weights are the stacked arrays at the layer's first coordinate.
-/
import proofs.«132438_j6098853560655_1_alg».proof.Proof.RI.Fns
import proofs.«132438_j6098853560655_1_alg».proof.Proof.Math.Consts
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-- A scalar broadcast to any shape reads the scalar everywhere. -/
theorem bc0_apply {α : Type} {t : Shape} (h : S_.BroadcastsInDim t (![] : Fin 0 → Fin t.rank)) (c : S_.Idx → α) (j : t.Idx) :
    broadcastInDim t ![] h c j = c ix0 :=
  broadcastInDim_apply _ h c j ix0 fun a => a.elim0

/-- The variance's divisor is 50000: the integer zero converts to zero. -/
theorem dof_ix0 : dof (F := Ideal) ix0 = Cert.Spec.cN := by
  show Cert.Spec.cN - (((0#32 : BitVec 32).toInt : ℝ) : EReal) = Cert.Spec.cN
  simp

/-- The divisor is positive: the comparison the variance selects on is true. -/
theorem dof_gt : cmpf (F := Ideal) .ogt (dof (F := Ideal)) (constant S_ .f32 0x00000000#32) ix0 = 1#1 := by
  rw [cmpf_apply, Ideal.cmpf_def, dof_ix0, constant_apply, Ideal.ofBits_zero_f32, Cert.Spec.cN_eq]
  have h : (0 : EReal) < ((50000 : ℝ) : EReal) := by exact_mod_cast (by norm_num : (0 : ℝ) < 50000)
  simp [Ideal.cmp, h]

/-! ### The 512-column statistics -/

theorem red512 : S50000x512.Reduces [0] S512 := by decide

theorem b01_512_apply (X : (⟨S1x512, .f32⟩ : BufTy).Contents (Elt Ideal)) (p : Fin 50000) (q : Fin 512) :
    broadcastInDim S50000x512 ![0, 1] bcast_S1x512_S50000x512_0_1 X (ix2 p q) = X (ix2 (0 : Fin 1) q) :=
  broadcastInDim_apply _ _ X (ix2 p q) (ix2 (0 : Fin 1) q) fun a => by
    match a with
    | ⟨0, _⟩ => rfl
    | ⟨1, _⟩ => rfl

theorem b1_512_apply (v : (⟨S512, .f32⟩ : BufTy).Contents (Elt Ideal)) (u : Fin 1) (q : Fin 512) :
    broadcastInDim S1x512 ![1] bcast_S512_S1x512_1 v (ix2 u q) = v (ix1 q) :=
  broadcastInDim_apply _ _ v (ix2 u q) (ix1 q) fun a => by
    match a with
    | ⟨0, _⟩ => rfl

/-- A row repeated down the rows reads, at (p, q), the row at q. -/
theorem rows512_apply (v : (⟨S512, .f32⟩ : BufTy).Contents (Elt Ideal)) (p : Fin 50000) (q : Fin 512) :
    rows512 (F := Ideal) v (ix2 p q) = v (ix1 q) := by
  unfold rows512
  rw [b01_512_apply, b1_512_apply]

/-- The host's column sum from the zero word reads, at q, zero plus the sum down column q. -/
theorem colsum512_apply (y : (⟨S50000x512, .f32⟩ : BufTy).Contents (Elt Ideal)) (q : Fin 512) :
    Host.reduceAdd (F := Ideal) y (constant S_ .f32 0x00000000#32) reducesTo_S50000x512_S512_d0 h_S_ (ix1 q)
      = 0 + ∑ p : Fin 50000, y (ix2 p q) := by
  unfold Host.reduceAdd
  rw [Ideal.hostReduceAdd_def, Ideal.hostReduceAdd_single _ red512, constant_apply, Ideal.ofBits_zero_f32]
  refine congrArg (0 + ·) (Finset.sum_congr rfl fun k _ => congrArg y (funext fun a => ?_))
  match a with
  | ⟨0, _⟩ => exact Fin.ext rfl
  | ⟨1, _⟩ => exact Fin.ext rfl

/-- The column mean at q: (0 + the column's sum) / 50000. -/
theorem mean512_apply (y : (⟨S50000x512, .f32⟩ : BufTy).Contents (Elt Ideal)) (q : Fin 512) :
    mean512 (F := Ideal) y (ix1 q) = Ideal.div (0 + ∑ p : Fin 50000, y (ix2 p q)) Cert.Spec.cN := by
  unfold mean512 Host.divf
  show FloatOps.hostDivf (Host.reduceAdd (F := Ideal) y (constant S_ .f32 0x00000000#32) reducesTo_S50000x512_S512_d0 h_S_ (ix1 q))
      (broadcastInDim S512 ![] bcast_S_S512 (constant (F := Ideal) S_ .f32 0x47435000#32) (ix1 q)) = _
  rw [Ideal.hostDivf_def, colsum512_apply, bc0_apply]
  rfl

/-- The centred entry at (p, q): the entry less its column's mean. -/
theorem centred512_apply (y : (⟨S50000x512, .f32⟩ : BufTy).Contents (Elt Ideal)) (p : Fin 50000) (q : Fin 512) :
    centred512 (F := Ideal) y (ix2 p q)
      = y (ix2 p q) - Ideal.div (0 + ∑ p' : Fin 50000, y (ix2 p' q)) Cert.Spec.cN := by
  unfold centred512 Host.divf
  rw [subf_apply, b01_512_apply]
  show _ - FloatOps.hostDivf (broadcastInDim S1x512 ![1] bcast_S512_S1x512_1
        (Host.reduceAdd (F := Ideal) y (constant S_ .f32 0x00000000#32) reducesTo_S50000x512_S512_d0 h_S_) (ix2 (0 : Fin 1) q))
      (broadcastInDim S1x512 ![] bcast_S_S1x512 (constant (F := Ideal) S_ .f32 0x47435000#32) (ix2 (0 : Fin 1) q)) = _
  rw [Ideal.hostDivf_def, b1_512_apply, colsum512_apply, bc0_apply]
  rfl

/-- The column variance at q: the divisor is positive, so the select takes its first branch:
    (0 + the column's sum of squared centred entries) / 50000. -/
theorem var512_apply (y : (⟨S50000x512, .f32⟩ : BufTy).Contents (Elt Ideal)) (q : Fin 512) :
    var512 (F := Ideal) y (ix1 q)
      = Ideal.div (0 + ∑ p : Fin 50000,
            (y (ix2 p q) - Ideal.div (0 + ∑ p' : Fin 50000, y (ix2 p' q)) Cert.Spec.cN)
              * (y (ix2 p q) - Ideal.div (0 + ∑ p' : Fin 50000, y (ix2 p' q)) Cert.Spec.cN)) Cert.Spec.cN := by
  unfold var512 Host.divf
  rw [select_apply, bc0_apply, dof_gt, select_one]
  show FloatOps.hostDivf (Host.reduceAdd (F := Ideal) (mulf (centred512 y) (centred512 y)) (constant S_ .f32 0x00000000#32) reducesTo_S50000x512_S512_d0 h_S_ (ix1 q))
      (broadcastInDim S512 ![] bcast_S_S512 (dof (F := Ideal)) (ix1 q)) = _
  rw [Ideal.hostDivf_def, colsum512_apply, bc0_apply, dof_ix0]
  refine congrArg (fun t => Ideal.div (0 + t) Cert.Spec.cN) (Finset.sum_congr rfl fun p _ => ?_)
  rw [mulf_apply, centred512_apply]

/-- The normalization at (p, q). -/
theorem bn512_apply (y : (⟨S50000x512, .f32⟩ : BufTy).Contents (Elt Ideal)) (mean var g beta : (⟨S512, .f32⟩ : BufTy).Contents (Elt Ideal)) (p : Fin 50000) (q : Fin 512) :
    bn512 (F := Ideal) y mean var g beta (ix2 p q)
      = g (ix1 q) * (y (ix2 p q) - mean (ix1 q)) * Ideal.rsqrt (var (ix1 q) + Cert.Spec.eps) + beta (ix1 q) := by
  unfold bn512 Host.rsqrt
  rw [addf_apply, mulf_apply, mulf_apply, subf_apply, rows512_apply, rows512_apply, rows512_apply, rows512_apply]
  show _ * _ * FloatOps.hostUnary .rsqrt (addf var (broadcastInDim S512 ![] bcast_S_S512 (constant (F := Ideal) S_ .f32 0x3727C5AC#32)) (ix1 q)) + _ = _
  rw [Ideal.hostUnary_rsqrt_def, addf_apply, bc0_apply]
  rfl

/-! ### The 256-column statistics -/

theorem red256 : S50000x256.Reduces [0] S256 := by decide

theorem b01_256_apply (X : (⟨S1x256, .f32⟩ : BufTy).Contents (Elt Ideal)) (p : Fin 50000) (q : Fin 256) :
    broadcastInDim S50000x256 ![0, 1] bcast_S1x256_S50000x256_0_1 X (ix2 p q) = X (ix2 (0 : Fin 1) q) :=
  broadcastInDim_apply _ _ X (ix2 p q) (ix2 (0 : Fin 1) q) fun a => by
    match a with
    | ⟨0, _⟩ => rfl
    | ⟨1, _⟩ => rfl

theorem b1_256_apply (v : (⟨S256, .f32⟩ : BufTy).Contents (Elt Ideal)) (u : Fin 1) (q : Fin 256) :
    broadcastInDim S1x256 ![1] bcast_S256_S1x256_1 v (ix2 u q) = v (ix1 q) :=
  broadcastInDim_apply _ _ v (ix2 u q) (ix1 q) fun a => by
    match a with
    | ⟨0, _⟩ => rfl

/-- A row repeated down the rows reads, at (p, q), the row at q. -/
theorem rows256_apply (v : (⟨S256, .f32⟩ : BufTy).Contents (Elt Ideal)) (p : Fin 50000) (q : Fin 256) :
    rows256 (F := Ideal) v (ix2 p q) = v (ix1 q) := by
  unfold rows256
  rw [b01_256_apply, b1_256_apply]

/-- The host's column sum from the zero word reads, at q, zero plus the sum down column q. -/
theorem colsum256_apply (y : (⟨S50000x256, .f32⟩ : BufTy).Contents (Elt Ideal)) (q : Fin 256) :
    Host.reduceAdd (F := Ideal) y (constant S_ .f32 0x00000000#32) reducesTo_S50000x256_S256_d0 h_S_ (ix1 q)
      = 0 + ∑ p : Fin 50000, y (ix2 p q) := by
  unfold Host.reduceAdd
  rw [Ideal.hostReduceAdd_def, Ideal.hostReduceAdd_single _ red256, constant_apply, Ideal.ofBits_zero_f32]
  refine congrArg (0 + ·) (Finset.sum_congr rfl fun k _ => congrArg y (funext fun a => ?_))
  match a with
  | ⟨0, _⟩ => exact Fin.ext rfl
  | ⟨1, _⟩ => exact Fin.ext rfl

/-- The column mean at q: (0 + the column's sum) / 50000. -/
theorem mean256_apply (y : (⟨S50000x256, .f32⟩ : BufTy).Contents (Elt Ideal)) (q : Fin 256) :
    mean256 (F := Ideal) y (ix1 q) = Ideal.div (0 + ∑ p : Fin 50000, y (ix2 p q)) Cert.Spec.cN := by
  unfold mean256 Host.divf
  show FloatOps.hostDivf (Host.reduceAdd (F := Ideal) y (constant S_ .f32 0x00000000#32) reducesTo_S50000x256_S256_d0 h_S_ (ix1 q))
      (broadcastInDim S256 ![] bcast_S_S256 (constant (F := Ideal) S_ .f32 0x47435000#32) (ix1 q)) = _
  rw [Ideal.hostDivf_def, colsum256_apply, bc0_apply]
  rfl

/-- The centred entry at (p, q): the entry less its column's mean. -/
theorem centred256_apply (y : (⟨S50000x256, .f32⟩ : BufTy).Contents (Elt Ideal)) (p : Fin 50000) (q : Fin 256) :
    centred256 (F := Ideal) y (ix2 p q)
      = y (ix2 p q) - Ideal.div (0 + ∑ p' : Fin 50000, y (ix2 p' q)) Cert.Spec.cN := by
  unfold centred256 Host.divf
  rw [subf_apply, b01_256_apply]
  show _ - FloatOps.hostDivf (broadcastInDim S1x256 ![1] bcast_S256_S1x256_1
        (Host.reduceAdd (F := Ideal) y (constant S_ .f32 0x00000000#32) reducesTo_S50000x256_S256_d0 h_S_) (ix2 (0 : Fin 1) q))
      (broadcastInDim S1x256 ![] bcast_S_S1x256 (constant (F := Ideal) S_ .f32 0x47435000#32) (ix2 (0 : Fin 1) q)) = _
  rw [Ideal.hostDivf_def, b1_256_apply, colsum256_apply, bc0_apply]
  rfl

/-- The column variance at q: the divisor is positive, so the select takes its first branch:
    (0 + the column's sum of squared centred entries) / 50000. -/
theorem var256_apply (y : (⟨S50000x256, .f32⟩ : BufTy).Contents (Elt Ideal)) (q : Fin 256) :
    var256 (F := Ideal) y (ix1 q)
      = Ideal.div (0 + ∑ p : Fin 50000,
            (y (ix2 p q) - Ideal.div (0 + ∑ p' : Fin 50000, y (ix2 p' q)) Cert.Spec.cN)
              * (y (ix2 p q) - Ideal.div (0 + ∑ p' : Fin 50000, y (ix2 p' q)) Cert.Spec.cN)) Cert.Spec.cN := by
  unfold var256 Host.divf
  rw [select_apply, bc0_apply, dof_gt, select_one]
  show FloatOps.hostDivf (Host.reduceAdd (F := Ideal) (mulf (centred256 y) (centred256 y)) (constant S_ .f32 0x00000000#32) reducesTo_S50000x256_S256_d0 h_S_ (ix1 q))
      (broadcastInDim S256 ![] bcast_S_S256 (dof (F := Ideal)) (ix1 q)) = _
  rw [Ideal.hostDivf_def, colsum256_apply, bc0_apply, dof_ix0]
  refine congrArg (fun t => Ideal.div (0 + t) Cert.Spec.cN) (Finset.sum_congr rfl fun p _ => ?_)
  rw [mulf_apply, centred256_apply]

/-- The normalization at (p, q). -/
theorem bn256_apply (y : (⟨S50000x256, .f32⟩ : BufTy).Contents (Elt Ideal)) (mean var g beta : (⟨S256, .f32⟩ : BufTy).Contents (Elt Ideal)) (p : Fin 50000) (q : Fin 256) :
    bn256 (F := Ideal) y mean var g beta (ix2 p q)
      = g (ix1 q) * (y (ix2 p q) - mean (ix1 q)) * Ideal.rsqrt (var (ix1 q) + Cert.Spec.eps) + beta (ix1 q) := by
  unfold bn256 Host.rsqrt
  rw [addf_apply, mulf_apply, mulf_apply, subf_apply, rows256_apply, rows256_apply, rows256_apply, rows256_apply]
  show _ * _ * FloatOps.hostUnary .rsqrt (addf var (broadcastInDim S256 ![] bcast_S_S256 (constant (F := Ideal) S_ .f32 0x3727C5AC#32)) (ix1 q)) + _ = _
  rw [Ideal.hostUnary_rsqrt_def, addf_apply, bc0_apply]
  rfl

/-! ### The products, the rectifier, the residual sums -/

theorem hF_apply (x : (⟨S50000x256, .f32⟩ : BufTy).Contents (Elt Ideal)) (s d : (⟨S800000, .i32⟩ : BufTy).Contents (Elt Ideal)) (p : Fin 50000) (q : Fin 256) :
    hF (F := Ideal) x s d (ix2 p q) = x (ix2 p q) + aggF (F := Ideal) x s d (ix2 p q) := rfl

theorem h1F_apply (h : (⟨S50000x256, .f32⟩ : BufTy).Contents (Elt Ideal)) (W1 : (⟨S256x512, .f32⟩ : BufTy).Contents (Elt Ideal)) (b1 : (⟨S512, .f32⟩ : BufTy).Contents (Elt Ideal)) (p : Fin 50000) (q : Fin 512) :
    h1F (F := Ideal) h W1 b1 (ix2 p q) = (0 + ∑ k : Fin 256, h (ix2 p k) * W1 (ix2 k q)) + b1 (ix1 q) := by
  unfold h1F
  rw [addf_apply, rows512_apply, zero_add]
  exact congrArg (· + b1 (ix1 q)) (StackMember.dotGeneral_plain_apply (m := 50000) (n := 512) none h W1 p q)

theorem reluF_apply (z : (⟨S50000x512, .f32⟩ : BufTy).Contents (Elt Ideal)) (p : Fin 50000) (q : Fin 512) :
    reluF (F := Ideal) z (ix2 p q) = max (z (ix2 p q)) 0 := by
  unfold reluF
  rw [maximumf_apply, bc0_apply, constant_apply, Ideal.ofBits_zero_f32]

theorem h3F_apply (r : (⟨S50000x512, .f32⟩ : BufTy).Contents (Elt Ideal)) (W2 : (⟨S512x256, .f32⟩ : BufTy).Contents (Elt Ideal)) (b2 : (⟨S256, .f32⟩ : BufTy).Contents (Elt Ideal)) (x : (⟨S50000x256, .f32⟩ : BufTy).Contents (Elt Ideal))
    (p : Fin 50000) (q : Fin 256) :
    h3F (F := Ideal) r W2 b2 x (ix2 p q) = ((0 + ∑ k : Fin 512, r (ix2 p k) * W2 (ix2 k q)) + b2 (ix1 q)) + x (ix2 p q) := by
  unfold h3F
  rw [addf_apply, addf_apply, rows256_apply, zero_add]
  exact congrArg (fun t => t + b2 (ix1 q) + x (ix2 p q)) (StackMember.dotGeneral_plain_apply (m := 50000) (n := 256) none r W2 p q)

theorem x0F_apply (a0 : (⟨S1x50000x128, .f32⟩ : BufTy).Contents (Elt Ideal)) (a2 : (⟨S128x256, .f32⟩ : BufTy).Contents (Elt Ideal)) (a3 : (⟨S256, .f32⟩ : BufTy).Contents (Elt Ideal)) (p : Fin 50000) (q : Fin 256) :
    x0F (F := Ideal) a0 a2 a3 (ix2 p q) = (0 + ∑ k : Fin 128, a0 (ix3 (0 : Fin 1) p k) * a2 (ix2 k q)) + a3 (ix1 q) := by
  unfold x0F
  rw [addf_apply, zero_add]
  have hb : broadcastInDim S50000x256 ![0, 1] bcast_S1x256_S50000x256_0_1 (broadcastInDim S1x256 ![1] bcast_S256_S1x256_1 a3) (ix2 p q) = a3 (ix1 q) := by
    rw [b01_256_apply, b1_256_apply]
  rw [hb]
  refine congrArg (· + a3 (ix1 q)) ((StackMember.dotGeneral_plain_apply (m := 50000) (n := 256) none _ a2 p q).trans ?_)
  exact Finset.sum_congr rfl fun k _ => congrArg (· * a2 (ix2 k q)) (shapeCast_1ab_ab_apply a0 _ p k)

/-! ### A layer's weights -/

theorem w1F_0_apply (a4 : (⟨S3x256x512, .f32⟩ : BufTy).Contents (Elt Ideal)) (k : Fin 256) (q : Fin 512) :
    w1F_0 (F := Ideal) a4 (ix2 k q) = a4 (ix3 (0 : Fin 3) k q) := by
  unfold w1F_0
  rw [shapeCast_1ab_ab_apply]
  exact extractStridedSlice_apply _ a4 _ _ _ fun a => by
    match a with
    | ⟨0, _⟩ => rfl
    | ⟨1, _⟩ => show k.val = 0 + k.val; omega
    | ⟨2, _⟩ => show q.val = 0 + q.val; omega

theorem v512F_0_apply (a : (⟨S3x512, .f32⟩ : BufTy).Contents (Elt Ideal)) (q : Fin 512) :
    v512F_0 (F := Ideal) a (ix1 q) = a (ix2 (0 : Fin 3) q) := by
  unfold v512F_0
  rw [shapeCast_1a_a_apply]
  exact extractStridedSlice_apply _ a _ _ _ fun a' => by
    match a' with
    | ⟨0, _⟩ => rfl
    | ⟨1, _⟩ => show q.val = 0 + q.val; omega

theorem w2F_0_apply (a8 : (⟨S3x512x256, .f32⟩ : BufTy).Contents (Elt Ideal)) (k : Fin 512) (q : Fin 256) :
    w2F_0 (F := Ideal) a8 (ix2 k q) = a8 (ix3 (0 : Fin 3) k q) := by
  unfold w2F_0
  rw [shapeCast_1ab_ab_apply]
  exact extractStridedSlice_apply _ a8 _ _ _ fun a => by
    match a with
    | ⟨0, _⟩ => rfl
    | ⟨1, _⟩ => show k.val = 0 + k.val; omega
    | ⟨2, _⟩ => show q.val = 0 + q.val; omega

theorem v256F_0_apply (a : (⟨S3x256, .f32⟩ : BufTy).Contents (Elt Ideal)) (q : Fin 256) :
    v256F_0 (F := Ideal) a (ix1 q) = a (ix2 (0 : Fin 3) q) := by
  unfold v256F_0
  rw [shapeCast_1a_a_apply]
  exact extractStridedSlice_apply _ a _ _ _ fun a' => by
    match a' with
    | ⟨0, _⟩ => rfl
    | ⟨1, _⟩ => show q.val = 0 + q.val; omega

theorem w1F_1_apply (a4 : (⟨S3x256x512, .f32⟩ : BufTy).Contents (Elt Ideal)) (k : Fin 256) (q : Fin 512) :
    w1F_1 (F := Ideal) a4 (ix2 k q) = a4 (ix3 (1 : Fin 3) k q) := by
  unfold w1F_1
  rw [shapeCast_1ab_ab_apply]
  exact extractStridedSlice_apply _ a4 _ _ _ fun a => by
    match a with
    | ⟨0, _⟩ => rfl
    | ⟨1, _⟩ => show k.val = 0 + k.val; omega
    | ⟨2, _⟩ => show q.val = 0 + q.val; omega

theorem v512F_1_apply (a : (⟨S3x512, .f32⟩ : BufTy).Contents (Elt Ideal)) (q : Fin 512) :
    v512F_1 (F := Ideal) a (ix1 q) = a (ix2 (1 : Fin 3) q) := by
  unfold v512F_1
  rw [shapeCast_1a_a_apply]
  exact extractStridedSlice_apply _ a _ _ _ fun a' => by
    match a' with
    | ⟨0, _⟩ => rfl
    | ⟨1, _⟩ => show q.val = 0 + q.val; omega

theorem w2F_1_apply (a8 : (⟨S3x512x256, .f32⟩ : BufTy).Contents (Elt Ideal)) (k : Fin 512) (q : Fin 256) :
    w2F_1 (F := Ideal) a8 (ix2 k q) = a8 (ix3 (1 : Fin 3) k q) := by
  unfold w2F_1
  rw [shapeCast_1ab_ab_apply]
  exact extractStridedSlice_apply _ a8 _ _ _ fun a => by
    match a with
    | ⟨0, _⟩ => rfl
    | ⟨1, _⟩ => show k.val = 0 + k.val; omega
    | ⟨2, _⟩ => show q.val = 0 + q.val; omega

theorem v256F_1_apply (a : (⟨S3x256, .f32⟩ : BufTy).Contents (Elt Ideal)) (q : Fin 256) :
    v256F_1 (F := Ideal) a (ix1 q) = a (ix2 (1 : Fin 3) q) := by
  unfold v256F_1
  rw [shapeCast_1a_a_apply]
  exact extractStridedSlice_apply _ a _ _ _ fun a' => by
    match a' with
    | ⟨0, _⟩ => rfl
    | ⟨1, _⟩ => show q.val = 0 + q.val; omega

theorem w1F_2_apply (a4 : (⟨S3x256x512, .f32⟩ : BufTy).Contents (Elt Ideal)) (k : Fin 256) (q : Fin 512) :
    w1F_2 (F := Ideal) a4 (ix2 k q) = a4 (ix3 (2 : Fin 3) k q) := by
  unfold w1F_2
  rw [shapeCast_1ab_ab_apply]
  exact extractStridedSlice_apply _ a4 _ _ _ fun a => by
    match a with
    | ⟨0, _⟩ => rfl
    | ⟨1, _⟩ => show k.val = 0 + k.val; omega
    | ⟨2, _⟩ => show q.val = 0 + q.val; omega

theorem v512F_2_apply (a : (⟨S3x512, .f32⟩ : BufTy).Contents (Elt Ideal)) (q : Fin 512) :
    v512F_2 (F := Ideal) a (ix1 q) = a (ix2 (2 : Fin 3) q) := by
  unfold v512F_2
  rw [shapeCast_1a_a_apply]
  exact extractStridedSlice_apply _ a _ _ _ fun a' => by
    match a' with
    | ⟨0, _⟩ => rfl
    | ⟨1, _⟩ => show q.val = 0 + q.val; omega

theorem w2F_2_apply (a8 : (⟨S3x512x256, .f32⟩ : BufTy).Contents (Elt Ideal)) (k : Fin 512) (q : Fin 256) :
    w2F_2 (F := Ideal) a8 (ix2 k q) = a8 (ix3 (2 : Fin 3) k q) := by
  unfold w2F_2
  rw [shapeCast_1ab_ab_apply]
  exact extractStridedSlice_apply _ a8 _ _ _ fun a => by
    match a with
    | ⟨0, _⟩ => rfl
    | ⟨1, _⟩ => show k.val = 0 + k.val; omega
    | ⟨2, _⟩ => show q.val = 0 + q.val; omega

theorem v256F_2_apply (a : (⟨S3x256, .f32⟩ : BufTy).Contents (Elt Ideal)) (q : Fin 256) :
    v256F_2 (F := Ideal) a (ix1 q) = a (ix2 (2 : Fin 3) q) := by
  unfold v256F_2
  rw [shapeCast_1a_a_apply]
  exact extractStridedSlice_apply _ a _ _ _ fun a' => by
    match a' with
    | ⟨0, _⟩ => rfl
    | ⟨1, _⟩ => show q.val = 0 + q.val; omega

end Cert.ReferenceIdeal.Hand

end
-- ==== Proof.KI.At2.lean ====
/-
  Reading a two-axis array of extended reals at a row and a column: the entry as a term whose type IS the extended
  reals, so that sums and products of entries of different arrays are taken there.
-/
import Idealize.ShloMosaic.Lib.ValueIdx
import Idealize.ShloMosaic.PureOps.Ideal

noncomputable section

namespace Cert.KernelIdeal.HandV

open Idealize.ShloMosaic Idealize.ShloMosaic.ValueIdx

/-- Entry `(a, b)` of a two-axis array of extended reals. -/
def at2 {n0 n1 : Nat} (f : (⟨2, ![n0, n1]⟩ : Shape).Idx → EReal) (a : Fin n0) (b : Fin n1) : EReal := f (ix2 a b)

theorem at2_def {n0 n1 : Nat} (f : (⟨2, ![n0, n1]⟩ : Shape).Idx → EReal) (a : Fin n0) (b : Fin n1) :
    at2 f a b = f (ix2 a b) := rfl

end Cert.KernelIdeal.HandV

end
-- ==== Proof.RI.ReadLayer.lean ====
/-
  A layer of the reference, read as matrices, is the specification's layer (the variance about the mean) over the
  aggregation read as a map of matrices and the layer's weights read as matrices and rows; the whole program is
  the specification's network over the three layers' slices of the stacked weights.
-/
import proofs.«132438_j6098853560655_1_alg».proof.Proof.RI.Read
import proofs.«132438_j6098853560655_1_alg».proof.Proof.KI.At2

noncomputable section

namespace Cert.ReferenceIdeal.Hand

open Cert.ReferenceIdeal Cert.ReferenceIdeal.Gen Idealize.ShloMosaic Idealize.ShloMosaic.ValueIdx
open scoped BigOperators

/-- A rank-two array as a matrix, a rank-one array as a row, and a matrix as a rank-two array. -/
def toM {n d : ℕ} (a : (⟨2, ![n, d]⟩ : Shape).Idx → EReal) : Fin n → Fin d → EReal := fun p q => a (ix2 p q)
def rowOf {d : ℕ} (a : (⟨1, ![d]⟩ : Shape).Idx → EReal) : Fin d → EReal := fun q => a (ix1 q)
def ofM {n d : ℕ} (X : Fin n → Fin d → EReal) : (⟨2, ![n, d]⟩ : Shape).Idx → EReal := fun i => X (i 0) (i 1)

theorem ofM_toM {n d : ℕ} (a : (⟨2, ![n, d]⟩ : Shape).Idx → EReal) : ofM (toM a) = a :=
  funext fun i => congrArg a (eq_ix2 i).symm
theorem toM_ofM {n d : ℕ} (X : Fin n → Fin d → EReal) : toM (ofM X) = X := rfl
/-- The matrix reading is the two-axis entry accessor the other program's value lemmas are stated with. -/
theorem toM_eq_at2 {n d : ℕ} (a : (⟨2, ![n, d]⟩ : Shape).Idx → EReal) : toM a = Cert.KernelIdeal.HandV.at2 a := rfl
theorem toM_apply {n d : ℕ} (a : (⟨2, ![n, d]⟩ : Shape).Idx → EReal) (p : Fin n) (q : Fin d) : toM a p q = a (ix2 p q) := rfl
theorem rowOf_apply {d : ℕ} (a : (⟨1, ![d]⟩ : Shape).Idx → EReal) (q : Fin d) : rowOf a q = a (ix1 q) := rfl

/-- The neighbourhood sum over the two edge columns, as a map of matrices. -/
def aggM (s d : (⟨S800000, .i32⟩ : BufTy).Contents (Elt Ideal)) : Cert.Spec.X256 → Cert.Spec.X256 :=
  fun X => toM (aggF (F := Ideal) (ofM X) s d)

/-- A layer's weights as the specification's record. -/
def paramsOf (W1 : (⟨S256x512, .f32⟩ : BufTy).Contents (Elt Ideal)) (b1 g1 be1 : (⟨S512, .f32⟩ : BufTy).Contents (Elt Ideal)) (W2 : (⟨S512x256, .f32⟩ : BufTy).Contents (Elt Ideal)) (b2 gf bef : (⟨S256, .f32⟩ : BufTy).Contents (Elt Ideal)) : Cert.Spec.Params :=
  ⟨toM W1, rowOf b1, rowOf g1, rowOf be1, toM W2, rowOf b2, rowOf gf, rowOf bef⟩

/-- One layer over its own weights is the specification's layer. -/
theorem layerBody_eq (x : (⟨S50000x256, .f32⟩ : BufTy).Contents (Elt Ideal)) (s d : (⟨S800000, .i32⟩ : BufTy).Contents (Elt Ideal)) (W1 : (⟨S256x512, .f32⟩ : BufTy).Contents (Elt Ideal)) (b1 g1 be1 : (⟨S512, .f32⟩ : BufTy).Contents (Elt Ideal)) (W2 : (⟨S512x256, .f32⟩ : BufTy).Contents (Elt Ideal)) (b2 gf bef : (⟨S256, .f32⟩ : BufTy).Contents (Elt Ideal)) :
    toM (layerBody (F := Ideal) x s d W1 b1 g1 be1 W2 b2 gf bef)
      = Cert.Spec.layerR (aggM s d) (paramsOf W1 b1 g1 be1 W2 b2 gf bef) (toM x) := by
  refine Cert.Spec.layerR_of_stages (aggM s d) (paramsOf W1 b1 g1 be1 W2 b2 gf bef) (toM x)
    (toM (h1F (F := Ideal) (hF x s d) W1 b1)) (rowOf (mean512 (h1F (F := Ideal) (hF x s d) W1 b1))) (rowOf (var512 (h1F (F := Ideal) (hF x s d) W1 b1)))
    (toM (h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x)) (rowOf (mean256 (h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x))) (rowOf (var256 (h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x))) _ ?_ ?_ ?_ ?_ ?_ ?_ ?_
  · funext p q
    show (h1F (F := Ideal) (hF x s d) W1 b1) (ix2 p q)
      = (0 + ∑ j : Fin 256, (x (ix2 p j) + aggF (F := Ideal) (ofM (toM x)) s d (ix2 p j)) * W1 (ix2 j q)) + b1 (ix1 q)
    rw [ofM_toM, h1F_apply]
    rfl
  · funext q
    exact mean512_apply _ q
  · funext q
    show var512 (h1F (F := Ideal) (hF x s d) W1 b1) (ix1 q)
      = Ideal.div (0 + ∑ p : Fin 50000, ((h1F (F := Ideal) (hF x s d) W1 b1) (ix2 p q) - mean512 (h1F (F := Ideal) (hF x s d) W1 b1) (ix1 q)) * ((h1F (F := Ideal) (hF x s d) W1 b1) (ix2 p q) - mean512 (h1F (F := Ideal) (hF x s d) W1 b1) (ix1 q))) Cert.Spec.cN
    rw [var512_apply, mean512_apply]
  · funext p q
    show (h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x) (ix2 p q)
      = ((0 + ∑ j : Fin 512, max (g1 (ix1 j) * ((h1F (F := Ideal) (hF x s d) W1 b1) (ix2 p j) - mean512 (h1F (F := Ideal) (hF x s d) W1 b1) (ix1 j))
            * Ideal.rsqrt (var512 (h1F (F := Ideal) (hF x s d) W1 b1) (ix1 j) + Cert.Spec.eps) + be1 (ix1 j)) 0 * W2 (ix2 j q)) + b2 (ix1 q)) + x (ix2 p q)
    rw [h3F_apply]
    refine congrArg (fun t => (0 + t) + b2 (ix1 q) + x (ix2 p q)) (Finset.sum_congr rfl fun j _ => ?_)
    rw [reluF_apply, bn512_apply]
  · funext q
    exact mean256_apply _ q
  · funext q
    show var256 (h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x) (ix1 q)
      = Ideal.div (0 + ∑ p : Fin 50000, ((h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x) (ix2 p q) - mean256 (h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x) (ix1 q)) * ((h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x) (ix2 p q) - mean256 (h3F (F := Ideal) (reluF (F := Ideal) (bn512 (h1F (F := Ideal) (hF x s d) W1 b1) (mean512 (h1F (F := Ideal) (hF x s d) W1 b1)) (var512 (h1F (F := Ideal) (hF x s d) W1 b1)) g1 be1)) W2 b2 x) (ix1 q))) Cert.Spec.cN
    rw [var256_apply, mean256_apply]
  · funext p q
    exact bn256_apply _ _ _ _ _ p q

/-- Layer 0's weights: the stacked arrays at first coordinate 0. -/
def params_0 (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) : Cert.Spec.Params :=
  paramsOf (w1F_0 (F := Ideal) a4) (v512F_0 (F := Ideal) a5) (v512F_0 (F := Ideal) a6) (v512F_0 (F := Ideal) a7)
    (w2F_0 (F := Ideal) a8) (v256F_0 (F := Ideal) a9) (v256F_0 (F := Ideal) a10) (v256F_0 (F := Ideal) a11)

theorem params_0_entries (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) :
    (∀ k q, (params_0 a4 a5 a6 a7 a8 a9 a10 a11).W1 k q = a4 (ix3 (0 : Fin 3) k q))
    ∧ (∀ q, (params_0 a4 a5 a6 a7 a8 a9 a10 a11).b1 q = a5 (ix2 (0 : Fin 3) q))
    ∧ (∀ q, (params_0 a4 a5 a6 a7 a8 a9 a10 a11).g1 q = a6 (ix2 (0 : Fin 3) q))
    ∧ (∀ q, (params_0 a4 a5 a6 a7 a8 a9 a10 a11).beta1 q = a7 (ix2 (0 : Fin 3) q))
    ∧ (∀ k q, (params_0 a4 a5 a6 a7 a8 a9 a10 a11).W2 k q = a8 (ix3 (0 : Fin 3) k q))
    ∧ (∀ q, (params_0 a4 a5 a6 a7 a8 a9 a10 a11).b2 q = a9 (ix2 (0 : Fin 3) q))
    ∧ (∀ q, (params_0 a4 a5 a6 a7 a8 a9 a10 a11).gf q = a10 (ix2 (0 : Fin 3) q))
    ∧ (∀ q, (params_0 a4 a5 a6 a7 a8 a9 a10 a11).betaf q = a11 (ix2 (0 : Fin 3) q)) :=
  ⟨fun k q => w1F_0_apply a4 k q, fun q => v512F_0_apply a5 q, fun q => v512F_0_apply a6 q, fun q => v512F_0_apply a7 q,
    fun k q => w2F_0_apply a8 k q, fun q => v256F_0_apply a9 q, fun q => v256F_0_apply a10 q, fun q => v256F_0_apply a11 q⟩

theorem layerF_0_eq (x : (⟨S50000x256, .f32⟩ : BufTy).Contents (Elt Ideal)) (s d : (⟨S800000, .i32⟩ : BufTy).Contents (Elt Ideal)) (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) :
    toM (layerF_0 (F := Ideal) x s d a4 a5 a6 a7 a8 a9 a10 a11)
      = Cert.Spec.layerR (aggM s d) (params_0 a4 a5 a6 a7 a8 a9 a10 a11) (toM x) :=
  layerBody_eq x s d _ _ _ _ _ _ _ _

/-- Layer 1's weights: the stacked arrays at first coordinate 1. -/
def params_1 (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) : Cert.Spec.Params :=
  paramsOf (w1F_1 (F := Ideal) a4) (v512F_1 (F := Ideal) a5) (v512F_1 (F := Ideal) a6) (v512F_1 (F := Ideal) a7)
    (w2F_1 (F := Ideal) a8) (v256F_1 (F := Ideal) a9) (v256F_1 (F := Ideal) a10) (v256F_1 (F := Ideal) a11)

theorem params_1_entries (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) :
    (∀ k q, (params_1 a4 a5 a6 a7 a8 a9 a10 a11).W1 k q = a4 (ix3 (1 : Fin 3) k q))
    ∧ (∀ q, (params_1 a4 a5 a6 a7 a8 a9 a10 a11).b1 q = a5 (ix2 (1 : Fin 3) q))
    ∧ (∀ q, (params_1 a4 a5 a6 a7 a8 a9 a10 a11).g1 q = a6 (ix2 (1 : Fin 3) q))
    ∧ (∀ q, (params_1 a4 a5 a6 a7 a8 a9 a10 a11).beta1 q = a7 (ix2 (1 : Fin 3) q))
    ∧ (∀ k q, (params_1 a4 a5 a6 a7 a8 a9 a10 a11).W2 k q = a8 (ix3 (1 : Fin 3) k q))
    ∧ (∀ q, (params_1 a4 a5 a6 a7 a8 a9 a10 a11).b2 q = a9 (ix2 (1 : Fin 3) q))
    ∧ (∀ q, (params_1 a4 a5 a6 a7 a8 a9 a10 a11).gf q = a10 (ix2 (1 : Fin 3) q))
    ∧ (∀ q, (params_1 a4 a5 a6 a7 a8 a9 a10 a11).betaf q = a11 (ix2 (1 : Fin 3) q)) :=
  ⟨fun k q => w1F_1_apply a4 k q, fun q => v512F_1_apply a5 q, fun q => v512F_1_apply a6 q, fun q => v512F_1_apply a7 q,
    fun k q => w2F_1_apply a8 k q, fun q => v256F_1_apply a9 q, fun q => v256F_1_apply a10 q, fun q => v256F_1_apply a11 q⟩

theorem layerF_1_eq (x : (⟨S50000x256, .f32⟩ : BufTy).Contents (Elt Ideal)) (s d : (⟨S800000, .i32⟩ : BufTy).Contents (Elt Ideal)) (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) :
    toM (layerF_1 (F := Ideal) x s d a4 a5 a6 a7 a8 a9 a10 a11)
      = Cert.Spec.layerR (aggM s d) (params_1 a4 a5 a6 a7 a8 a9 a10 a11) (toM x) :=
  layerBody_eq x s d _ _ _ _ _ _ _ _

/-- Layer 2's weights: the stacked arrays at first coordinate 2. -/
def params_2 (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) : Cert.Spec.Params :=
  paramsOf (w1F_2 (F := Ideal) a4) (v512F_2 (F := Ideal) a5) (v512F_2 (F := Ideal) a6) (v512F_2 (F := Ideal) a7)
    (w2F_2 (F := Ideal) a8) (v256F_2 (F := Ideal) a9) (v256F_2 (F := Ideal) a10) (v256F_2 (F := Ideal) a11)

theorem params_2_entries (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) :
    (∀ k q, (params_2 a4 a5 a6 a7 a8 a9 a10 a11).W1 k q = a4 (ix3 (2 : Fin 3) k q))
    ∧ (∀ q, (params_2 a4 a5 a6 a7 a8 a9 a10 a11).b1 q = a5 (ix2 (2 : Fin 3) q))
    ∧ (∀ q, (params_2 a4 a5 a6 a7 a8 a9 a10 a11).g1 q = a6 (ix2 (2 : Fin 3) q))
    ∧ (∀ q, (params_2 a4 a5 a6 a7 a8 a9 a10 a11).beta1 q = a7 (ix2 (2 : Fin 3) q))
    ∧ (∀ k q, (params_2 a4 a5 a6 a7 a8 a9 a10 a11).W2 k q = a8 (ix3 (2 : Fin 3) k q))
    ∧ (∀ q, (params_2 a4 a5 a6 a7 a8 a9 a10 a11).b2 q = a9 (ix2 (2 : Fin 3) q))
    ∧ (∀ q, (params_2 a4 a5 a6 a7 a8 a9 a10 a11).gf q = a10 (ix2 (2 : Fin 3) q))
    ∧ (∀ q, (params_2 a4 a5 a6 a7 a8 a9 a10 a11).betaf q = a11 (ix2 (2 : Fin 3) q)) :=
  ⟨fun k q => w1F_2_apply a4 k q, fun q => v512F_2_apply a5 q, fun q => v512F_2_apply a6 q, fun q => v512F_2_apply a7 q,
    fun k q => w2F_2_apply a8 k q, fun q => v256F_2_apply a9 q, fun q => v256F_2_apply a10 q, fun q => v256F_2_apply a11 q⟩

theorem layerF_2_eq (x : (⟨S50000x256, .f32⟩ : BufTy).Contents (Elt Ideal)) (s d : (⟨S800000, .i32⟩ : BufTy).Contents (Elt Ideal)) (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) :
    toM (layerF_2 (F := Ideal) x s d a4 a5 a6 a7 a8 a9 a10 a11)
      = Cert.Spec.layerR (aggM s d) (params_2 a4 a5 a6 a7 a8 a9 a10 a11) (toM x) :=
  layerBody_eq x s d _ _ _ _ _ _ _ _

/-- The embedding is the specification's product of the input features (read through the leading unit axis) by the
    first weight matrix, plus its bias. -/
theorem x0F_eq (a0 : (⟨S1x50000x128, .f32⟩ : BufTy).Contents (Elt Ideal)) (a2 : (⟨S128x256, .f32⟩ : BufTy).Contents (Elt Ideal)) (a3 : (⟨S256, .f32⟩ : BufTy).Contents (Elt Ideal)) :
    toM (x0F (F := Ideal) a0 a2 a3) = Cert.Spec.lin (fun p k => a0 (ix3 (0 : Fin 1) p k)) (toM a2) (rowOf a3) := by
  funext p q
  exact x0F_apply a0 a2 a3 p q

/-- The whole program is the specification's network. -/
theorem outF_eq (a0 : (⟨S1x50000x128, .f32⟩ : BufTy).Contents (Elt Ideal)) (a1 : (⟨S1x800000x2, .i32⟩ : BufTy).Contents (Elt Ideal)) (a2 : (⟨S128x256, .f32⟩ : BufTy).Contents (Elt Ideal)) (a3 : (⟨S256, .f32⟩ : BufTy).Contents (Elt Ideal)) (a4 : (⟨S3x256x512, .f32⟩ : BufTy).Contents (Elt Ideal)) (a5 a6 a7 : (⟨S3x512, .f32⟩ : BufTy).Contents (Elt Ideal)) (a8 : (⟨S3x512x256, .f32⟩ : BufTy).Contents (Elt Ideal)) (a9 a10 a11 : (⟨S3x256, .f32⟩ : BufTy).Contents (Elt Ideal)) :
    toM (outF (F := Ideal) a0 a1 a2 a3 a4 a5 a6 a7 a8 a9 a10 a11)
      = Cert.Spec.netR (aggM (srcF a1) (dstF a1)) (params_0 a4 a5 a6 a7 a8 a9 a10 a11) (params_1 a4 a5 a6 a7 a8 a9 a10 a11)
          (params_2 a4 a5 a6 a7 a8 a9 a10 a11) (toM a2) (rowOf a3) (fun p k => a0 (ix3 (0 : Fin 1) p k)) := by
  unfold outF Cert.Spec.netR
  rw [layerF_2_eq, layerF_1_eq, layerF_0_eq, x0F_eq]

end Cert.ReferenceIdeal.Hand

end
-- ==== Proof.RI.Agg.lean ====
/-
  The neighbourhood sum keeps real numbers real: at the ideal values a gathered entry is an entry of the operand,
  and an entry of the scatter-add is the zero it starts from plus a finite sum of gathered entries.
-/
import proofs.«132438_j6098853560655_1_alg».proof.Proof.RI.Fns
import proofs.«132438_j6098853560655_1_alg».proof.Proof.Math.Consts
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

theorem aggF_isReal (x : (⟨S50000x256, .f32⟩ : BufTy).Contents (Elt Ideal)) (s d : (⟨S800000, .i32⟩ : BufTy).Contents (Elt Ideal))
    (hx : ∀ i, Cert.Spec.IsReal (x i)) : ∀ i, Cert.Spec.IsReal (aggF (F := Ideal) x s d i) := by
  intro i
  unfold aggF Host.scatterAdd
  rw [Ideal.hostScatterAdd_def]
  unfold Ideal.hostScatterAdd
  refine Cert.Spec.IsReal.add ?_ (Cert.Spec.isReal_sum _ _ fun j => hx _)
  have h0 : broadcastInDim S50000x256 ![] bcast_S_S50000x256 (constant (F := Ideal) S_ .f32 0x00000000#32) i = 0 := by
    rw [broadcastInDim_apply _ _ _ i ix0 fun a => a.elim0, constant_apply, Ideal.ofBits_zero_f32]
  rw [h0]
  exact Cert.Spec.isReal_zero

end Cert.ReferenceIdeal.Hand

end
-- ==== Proof.RI.AggM.lean ====
/-
  The neighbourhood sum as a map of matrices sends a matrix of real numbers to a matrix of real numbers.
-/
import proofs.«132438_j6098853560655_1_alg».proof.Proof.RI.ReadLayer
import proofs.«132438_j6098853560655_1_alg».proof.Proof.RI.Agg

noncomputable section

namespace Cert.ReferenceIdeal.Hand

open Cert.ReferenceIdeal Cert.ReferenceIdeal.Gen Idealize.ShloMosaic Idealize.ShloMosaic.ValueIdx

theorem aggM_real (s d : (⟨S800000, .i32⟩ : BufTy).Contents (Elt Ideal)) (X : Cert.Spec.X256) (hX : Cert.Spec.RealMat X) :
    Cert.Spec.RealMat (aggM s d X) :=
  fun p q => aggF_isReal (ofM X) s d (fun i => hX (i 0) (i 1)) (ix2 p q)

end Cert.ReferenceIdeal.Hand

end
-- ==== Proof.Math.Var.lean ====
/-
  The two forms of the variance agree on real numbers.

  For real numbers r_1 … r_n with mean m = (Σ r_p) / n (here n = 50000),
      (Σ r_p²) / n − m²  =  (Σ (r_p − m)²) / n ,
  because Σ (r_p − m)² = Σ r_p² − 2 m Σ r_p + n m² and Σ r_p = n m. On a matrix of extended reals whose entries are
  all real numbers every sum, product, difference and quotient by 50000 below is the coercion of the reals' own, so the
  identity carries over column by column.
-/
import proofs.«132438_j6098853560655_1_alg».proof.Proof.Math.Consts

noncomputable section

namespace Cert.Spec

open Idealize.ShloMosaic
open scoped BigOperators

/-- The identity over the reals, for any m with Σ r_p = 50000 · m. -/
theorem real_var (r : Fin 50000 → ℝ) (m : ℝ) (hm : ∑ p, r p = 50000 * m) :
    (∑ p, r p * r p) / 50000 - m * m = (∑ p, (r p - m) * (r p - m)) / 50000 := by
  have e : ∀ p, (r p - m) * (r p - m) = r p * r p - 2 * m * r p + m * m := fun p => by ring
  simp only [e, Finset.sum_add_distrib, Finset.sum_sub_distrib, ← Finset.mul_sum, Finset.sum_const,
    Finset.card_univ, Fintype.card_fin, nsmul_eq_mul]
  rw [hm]
  push_cast
  ring

/-- The mean of the squares minus the square of the mean is the mean of the squared deviations, on a matrix of real
    numbers. -/
theorem varK_eq_varR {d : ℕ} (h : Fin 50000 → Fin d → EReal) (hh : RealMat h) :
    varK (colsumsq h) (meanOf (colsum h)) = varR h (meanOf (colsum h)) := by
  choose r hr using hh
  have hfun : h = fun p q => (r p q : EReal) := funext fun p => funext fun q => hr p q
  subst hfun
  funext q
  simp only [varK, varR, meanOf, colsum, colsumsq, zero_add, ← EReal.coe_mul, ← coe_sum, div_cN, ← EReal.coe_sub]
  exact congrArg _ (real_var (fun p => r p q) _ (by ring))

/-- On a matrix of real numbers the variance in its second form is a nonnegative real number. -/
theorem varR_nonneg {d : ℕ} (h : Fin 50000 → Fin d → EReal) (mean : Fin d → EReal) (hh : RealMat h)
    (hmean : RealRow mean) (q : Fin d) : ∃ v : ℝ, 0 ≤ v ∧ varR h mean q = (v : EReal) := by
  choose r hr using hh
  obtain ⟨m, hm⟩ := hmean q
  refine ⟨(∑ p, (r p q - m) * (r p q - m)) / 50000, ?_, ?_⟩
  · exact div_nonneg (Finset.sum_nonneg fun p _ => mul_self_nonneg _) (by norm_num)
  · simp only [varR, hr, hm, zero_add, ← EReal.coe_mul, ← coe_sum, div_cN, ← EReal.coe_sub]

end Cert.Spec

end
-- ==== Proof.Math.Finite.lean ====
/-
  Real entries are preserved by every stage of the network.

  A product of real matrices plus a real bias row is a real matrix; column sums, column sums of squares, their
  quotients by 50000 and the variance in its first form are real rows; a normalisation whose variance row is a
  nonnegative real row is a real matrix (the variance plus the positive offset is a positive real, whose reciprocal
  square root is a real number); the maximum with zero and the sum of two real matrices are real matrices.
-/
import proofs.«132438_j6098853560655_1_alg».proof.Proof.Math.Consts

noncomputable section

namespace Cert.Spec

open Idealize.ShloMosaic
open scoped BigOperators

theorem realMat_lin {k d : ℕ} {x : Fin 50000 → Fin k → EReal} {w : Fin k → Fin d → EReal} {b : Fin d → EReal}
    (hx : RealMat x) (hw : RealMat w) (hb : RealRow b) : RealMat (lin x w b) :=
  fun p q => (isReal_zero.add (isReal_sum _ _ fun j => (hx p j).mul (hw j q))).add (hb q)

theorem realMat_addM {d : ℕ} {a b : Fin 50000 → Fin d → EReal} (ha : RealMat a) (hb : RealMat b) :
    RealMat (addM a b) :=
  fun p q => (ha p q).add (hb p q)

theorem realRow_colsum {d : ℕ} {h : Fin 50000 → Fin d → EReal} (hh : RealMat h) : RealRow (colsum h) :=
  fun q => isReal_zero.add (isReal_sum _ _ fun p => hh p q)

theorem realRow_colsumsq {d : ℕ} {h : Fin 50000 → Fin d → EReal} (hh : RealMat h) : RealRow (colsumsq h) :=
  fun q => isReal_zero.add (isReal_sum _ _ fun p => (hh p q).mul (hh p q))

theorem realRow_meanOf {d : ℕ} {s : Fin d → EReal} (hs : RealRow s) : RealRow (meanOf s) :=
  fun q => (hs q).div_cN

theorem realRow_varK {d : ℕ} {s2 mean : Fin d → EReal} (hs2 : RealRow s2) (hmean : RealRow mean) :
    RealRow (varK s2 mean) :=
  fun q => (hs2 q).div_cN.sub ((hmean q).mul (hmean q))

/-- A normalisation of a real matrix by a real mean row and a nonnegative real variance row is a real matrix. -/
theorem realMat_bn {d : ℕ} {g beta : Fin d → EReal} {h : Fin 50000 → Fin d → EReal} {mean var : Fin d → EReal}
    (hg : RealRow g) (hbeta : RealRow beta) (hh : RealMat h) (hmean : RealRow mean)
    (hvar : ∀ q, ∃ v : ℝ, 0 ≤ v ∧ var q = (v : EReal)) : RealMat (bn g beta h mean var) :=
  fun p q => (((hg q).mul ((hh p q).sub (hmean q))).mul (isReal_rsqrt_add_eps (hvar q))).add (hbeta q)

theorem realMat_relu {d : ℕ} {h : Fin 50000 → Fin d → EReal} (hh : RealMat h) : RealMat (relu h) :=
  fun p q => (hh p q).max isReal_zero

end Cert.Spec

end
-- ==== Proof.Math.Layer.lean ====
/-
  The two layers agree on real inputs, and so do the two networks.

  With real inputs, real parameters and an aggregation that sends real matrices to real matrices, the first product of
  a layer is a real matrix, so its two variances agree; the normalised, rectified matrix and the second product with
  the residual are then the same real matrix in both layers, so their variances agree as well, and the outputs are
  equal. The common output is again a real matrix (each variance, in its second form, is a nonnegative real row), which
  lets the argument be repeated layer after layer.
-/
import proofs.«132438_j6098853560655_1_alg».proof.Proof.Math.Var
import proofs.«132438_j6098853560655_1_alg».proof.Proof.Math.Finite

noncomputable section

namespace Cert.Spec

open Idealize.ShloMosaic
open scoped BigOperators

/-- One layer: the two forms are equal, and the result is a real matrix. -/
theorem layer_eq (agg : X256 → X256) (hagg : ∀ x, RealMat x → RealMat (agg x)) (P : Params) (hP : P.Real)
    (x : X256) (hx : RealMat x) :
    layerK agg P x = layerR agg P x ∧ RealMat (layerR agg P x) := by
  have h1 : RealMat (h1Of agg P x) := realMat_lin (realMat_addM hx (hagg x hx)) hP.W1 hP.b1
  have hm1 : RealRow (meanOf (colsum (h1Of agg P x))) := realRow_meanOf (realRow_colsum h1)
  have e1 : varK (colsumsq (h1Of agg P x)) (meanOf (colsum (h1Of agg P x)))
      = varR (h1Of agg P x) (meanOf (colsum (h1Of agg P x))) := varK_eq_varR _ h1
  have hn : RealMat (relu (bn P.g1 P.beta1 (h1Of agg P x) (meanOf (colsum (h1Of agg P x)))
      (varR (h1Of agg P x) (meanOf (colsum (h1Of agg P x)))))) :=
    realMat_relu (realMat_bn hP.g1 hP.beta1 h1 hm1 (varR_nonneg _ _ h1 hm1))
  have h3 : RealMat (h3Of P (relu (bn P.g1 P.beta1 (h1Of agg P x) (meanOf (colsum (h1Of agg P x)))
      (varR (h1Of agg P x) (meanOf (colsum (h1Of agg P x)))))) x) :=
    realMat_addM (realMat_lin hn hP.W2 hP.b2) hx
  have hmf := realRow_meanOf (realRow_colsum h3)
  have e3 := varK_eq_varR _ h3
  refine ⟨?_, ?_⟩
  · unfold layerK layerR
    dsimp only
    rw [e1, e3]
  · unfold layerR
    dsimp only
    exact realMat_bn hP.gf hP.betaf h3 hmf (varR_nonneg _ _ h3 hmf)

/-- The embedding product of real inputs is a real matrix. -/
theorem realMat_embed {W0 : Fin 128 → Fin 256 → EReal} {b0 : Fin 256 → EReal} {emb : Fin 50000 → Fin 128 → EReal}
    (hW0 : RealMat W0) (hb0 : RealRow b0) (hemb : RealMat emb) : RealMat (lin emb W0 b0) :=
  realMat_lin hemb hW0 hb0

/-- The network: the two forms are equal, and the result is a real matrix. -/
theorem net_eq (agg : X256 → X256) (hagg : ∀ x, RealMat x → RealMat (agg x)) (P0 P1 P2 : Params)
    (hP0 : P0.Real) (hP1 : P1.Real) (hP2 : P2.Real)
    (W0 : Fin 128 → Fin 256 → EReal) (b0 : Fin 256 → EReal) (emb : Fin 50000 → Fin 128 → EReal)
    (hW0 : RealMat W0) (hb0 : RealRow b0) (hemb : RealMat emb) :
    netK agg P0 P1 P2 W0 b0 emb = netR agg P0 P1 P2 W0 b0 emb ∧ RealMat (netR agg P0 P1 P2 W0 b0 emb) := by
  obtain ⟨e0, r0⟩ := layer_eq agg hagg P0 hP0 _ (realMat_embed hW0 hb0 hemb)
  obtain ⟨e1, r1⟩ := layer_eq agg hagg P1 hP1 _ r0
  obtain ⟨e2, r2⟩ := layer_eq agg hagg P2 hP2 _ r1
  refine ⟨?_, r2⟩
  unfold netK netR
  rw [e0, e1, e2]

end Cert.Spec

end
-- ==== Proof.KI.HostLib.lean ====
/-
  Vocabulary for reading the host operations of the first program: an entry of a one-, two- or three-axis array as an
  extended real; the aggregation along the edges as one function of the node features and the two columns of the edge
  list; and the fact that the aggregate of real features is real (each entry is zero plus a finite sum of gathered
  entries).
-/
import proofs.«132438_j6098853560655_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import proofs.«132438_j6098853560655_1_alg».proof.Proof.Spec
import proofs.«132438_j6098853560655_1_alg».proof.Proof.Math.Consts
import proofs.«132438_j6098853560655_1_alg».proof.Proof.KI.At2

set_option maxRecDepth 16384

noncomputable section

namespace Cert.KernelIdeal.HandV

open Idealize.ShloMosaic Idealize.ShloMosaic.TcCoe Idealize.ShloMosaic.ValueIdx Idealize.ShloMosaic.StableHlo
open Cert.KernelIdeal Cert.KernelIdeal.Gen
open scoped BigOperators

/-- Entry a of a one-axis array of extended reals. -/
def at1 {n0 : Nat} (f : (⟨1, ![n0]⟩ : Shape).Idx → EReal) (a : Fin n0) : EReal := f (ix1 a)

theorem at1_def {n0 : Nat} (f : (⟨1, ![n0]⟩ : Shape).Idx → EReal) (a : Fin n0) : at1 f a = f (ix1 a) := rfl

/-- Entry (a, b, c) of a three-axis array of extended reals. -/
def at3 {n0 n1 n2 : Nat} (f : (⟨3, ![n0, n1, n2]⟩ : Shape).Idx → EReal) (a : Fin n0) (b : Fin n1) (c : Fin n2) : EReal :=
  f (ix3 a b c)

theorem at3_def {n0 n1 n2 : Nat} (f : (⟨3, ![n0, n1, n2]⟩ : Shape).Idx → EReal) (a : Fin n0) (b : Fin n1) (c : Fin n2) :
    at3 f a b c = f (ix3 a b c) := rfl

/-- The aggregate of the rows of x along the edges (s, d): the rows of x at the source nodes s (a negative node number
    taken up by the row count), gathered, and added into a zero matrix at the destination nodes d. -/
def aggK (x : FVec Ideal S50000x256 .f32) (s d : IVec S800000 32) : FVec Ideal S50000x256 .f32 :=
  Host.scatterAdd scatter_S50000x256_S800000x1_S800000x256_1_0_0_1
    (broadcastInDim S50000x256 ![] Gen.bcast_S_S50000x256 (constant (F := Ideal) S_ .f32 0x00000000#32))
    (broadcastInDim S800000x1 ![0] Gen.bcast_S800000_S800000x1_0 d)
    (Host.gather gather_S50000x256_S800000x1_S800000x256_1_0_n_n_0_1_1256 x
      (broadcastInDim S800000x1 ![0] Gen.bcast_S800000_S800000x1_0
        (select (cmpi .slt s (broadcastInDim S800000 ![] Gen.bcast_S_S800000 (constantI S_ 32 0#32)))
          (addi s (broadcastInDim S800000 ![] Gen.bcast_S_S800000 (constantI S_ 32 50000#32))) s)))

/-- The source column of the edge list, as a vector of node numbers. -/
noncomputable def srcK (e : IVec S1x800000x2 32) : IVec S800000 32 :=
  shapeCast S800000 (extractStridedSlice S800000x1 ![0, 0] (shapeCast S800000x2 e Gen.shapeCasts_S1x800000x2_S800000x2)
    Gen.slices_S800000x2_S800000x1_0_0) Gen.shapeCasts_S800000x1_S800000

/-- The destination column of the edge list, as a vector of node numbers. -/
noncomputable def dstK (e : IVec S1x800000x2 32) : IVec S800000 32 :=
  shapeCast S800000 (extractStridedSlice S800000x1 ![0, 1] (shapeCast S800000x2 e Gen.shapeCasts_S1x800000x2_S800000x2)
    Gen.slices_S800000x2_S800000x1_0_1) Gen.shapeCasts_S800000x1_S800000

/-- A host scatter-add of real updates into a real operand is real at every entry: the operand's entry plus a finite
    sum of updates. -/
theorem hostScatterAdd_real {s si su : Shape} (d : ScatterDims s si su) {w : ℕ} (x0 : s.Idx → EReal) (idx : IVec si w)
    (upd : su.Idx → EReal) (h0 : ∀ i, Cert.Spec.IsReal (x0 i)) (hu : ∀ j, Cert.Spec.IsReal (upd j)) (i : s.Idx) :
    Cert.Spec.IsReal (Ideal.hostScatterAdd d x0 idx upd i) := by
  unfold Ideal.hostScatterAdd
  exact (h0 i).add (Cert.Spec.isReal_sum _ _ hu)

/-- The zero word spread over a shape is zero at every entry. -/
theorem bcast_zero_apply {t : Shape} (dims : Fin S_.rank → Fin t.rank) (h : S_.BroadcastsInDim t dims) (j : t.Idx) :
    broadcastInDim t dims h (constant (F := Ideal) S_ .f32 0x00000000#32) j = 0 := by
  unfold broadcastInDim
  rw [constant_apply, Ideal.ofBits_zero_f32]

/-- Each entry of the aggregate is zero plus a finite sum of entries of x: real when every entry of x is. -/
theorem aggK_real (x : FVec Ideal S50000x256 .f32) (s d : IVec S800000 32) (hx : ∀ i, Cert.Spec.IsReal (x i))
    (i : S50000x256.Idx) : Cert.Spec.IsReal (aggK x s d i) :=
  hostScatterAdd_real scatter_S50000x256_S800000x1_S800000x256_1_0_0_1 _ _ _
    (fun i => by rw [bcast_zero_apply]; exact Cert.Spec.isReal_zero) (fun j => hx _) i

end Cert.KernelIdeal.HandV

end
-- ==== Proof.Bridge.Core.lean ====
/-
  The two programs' results as one function. The reference's result, read as a matrix, is the specification's
  network with each variance taken about the mean; the kernel's is the same network with each variance taken as the
  mean of squares less the squared mean, over the same aggregation, the same slices of the stacked weights and the same
  embedding inputs. On arrays of real numbers the two networks are equal, so the two result arrays are.
-/
import proofs.«132438_j6098853560655_1_alg».proof.Proof.RI.ReadLayer
import proofs.«132438_j6098853560655_1_alg».proof.Proof.RI.AggM
import proofs.«132438_j6098853560655_1_alg».proof.Proof.Math.Layer
import proofs.«132438_j6098853560655_1_alg».proof.Proof.KI.HostLib

noncomputable section

namespace Cert.Bridge

open Idealize.ShloMosaic Idealize.ShloMosaic.ValueIdx
open Cert.ReferenceIdeal.Hand Cert.KernelIdeal.HandV

/-! ### The aggregation -/

/-- The aggregation as a map of matrices, in the first program's vocabulary. -/
def aggMK (s d : (⟨1, ![800000]⟩ : Shape).Idx → BitVec 32) : Cert.Spec.X256 → Cert.Spec.X256 :=
  fun X => at2 (aggK (fun i => X (i 0) (i 1)) s d)

/-- It is the reference's: the two programs spell the gather, the scatter-add and the edge columns with the same
    operations. -/
theorem aggMK_eq (a1 : (⟨3, ![1, 800000, 2]⟩ : Shape).Idx → BitVec 32) : aggMK (srcK a1) (dstK a1) = aggM (srcF (F := Ideal) a1) (dstF (F := Ideal) a1) := rfl

/-! ### The layers' parameters -/

/-- Layer l's parameters: the stacked weights at first coordinate l. -/
def P (a4 : (⟨3, ![3, 256, 512]⟩ : Shape).Idx → EReal) (a5 a6 a7 : (⟨2, ![3, 512]⟩ : Shape).Idx → EReal) (a8 : (⟨3, ![3, 512, 256]⟩ : Shape).Idx → EReal) (a9 a10 a11 : (⟨2, ![3, 256]⟩ : Shape).Idx → EReal) (l : Fin 3) : Cert.Spec.Params :=
  ⟨fun k q => at3 a4 l k q, fun q => at2 a5 l q, fun q => at2 a6 l q, fun q => at2 a7 l q,
   fun k q => at3 a8 l k q, fun q => at2 a9 l q, fun q => at2 a10 l q, fun q => at2 a11 l q⟩

theorem params_ext : ∀ {A B : Cert.Spec.Params}, A.W1 = B.W1 → A.b1 = B.b1 → A.g1 = B.g1 → A.beta1 = B.beta1 →
    A.W2 = B.W2 → A.b2 = B.b2 → A.gf = B.gf → A.betaf = B.betaf → A = B
  | ⟨_, _, _, _, _, _, _, _⟩, ⟨_, _, _, _, _, _, _, _⟩, rfl, rfl, rfl, rfl, rfl, rfl, rfl, rfl => rfl

theorem P_eq_0 (a4 : (⟨3, ![3, 256, 512]⟩ : Shape).Idx → EReal) (a5 a6 a7 : (⟨2, ![3, 512]⟩ : Shape).Idx → EReal) (a8 : (⟨3, ![3, 512, 256]⟩ : Shape).Idx → EReal) (a9 a10 a11 : (⟨2, ![3, 256]⟩ : Shape).Idx → EReal) : P a4 a5 a6 a7 a8 a9 a10 a11 0 = params_0 a4 a5 a6 a7 a8 a9 a10 a11 := by
  obtain ⟨e1, e2, e3, e4, e5, e6, e7, e8⟩ := params_0_entries a4 a5 a6 a7 a8 a9 a10 a11
  exact params_ext (funext fun k => funext fun q => (e1 k q).symm) (funext fun q => (e2 q).symm) (funext fun q => (e3 q).symm)
    (funext fun q => (e4 q).symm) (funext fun k => funext fun q => (e5 k q).symm) (funext fun q => (e6 q).symm)
    (funext fun q => (e7 q).symm) (funext fun q => (e8 q).symm)

theorem P_eq_1 (a4 : (⟨3, ![3, 256, 512]⟩ : Shape).Idx → EReal) (a5 a6 a7 : (⟨2, ![3, 512]⟩ : Shape).Idx → EReal) (a8 : (⟨3, ![3, 512, 256]⟩ : Shape).Idx → EReal) (a9 a10 a11 : (⟨2, ![3, 256]⟩ : Shape).Idx → EReal) : P a4 a5 a6 a7 a8 a9 a10 a11 1 = params_1 a4 a5 a6 a7 a8 a9 a10 a11 := by
  obtain ⟨e1, e2, e3, e4, e5, e6, e7, e8⟩ := params_1_entries a4 a5 a6 a7 a8 a9 a10 a11
  exact params_ext (funext fun k => funext fun q => (e1 k q).symm) (funext fun q => (e2 q).symm) (funext fun q => (e3 q).symm)
    (funext fun q => (e4 q).symm) (funext fun k => funext fun q => (e5 k q).symm) (funext fun q => (e6 q).symm)
    (funext fun q => (e7 q).symm) (funext fun q => (e8 q).symm)

theorem P_eq_2 (a4 : (⟨3, ![3, 256, 512]⟩ : Shape).Idx → EReal) (a5 a6 a7 : (⟨2, ![3, 512]⟩ : Shape).Idx → EReal) (a8 : (⟨3, ![3, 512, 256]⟩ : Shape).Idx → EReal) (a9 a10 a11 : (⟨2, ![3, 256]⟩ : Shape).Idx → EReal) : P a4 a5 a6 a7 a8 a9 a10 a11 2 = params_2 a4 a5 a6 a7 a8 a9 a10 a11 := by
  obtain ⟨e1, e2, e3, e4, e5, e6, e7, e8⟩ := params_2_entries a4 a5 a6 a7 a8 a9 a10 a11
  exact params_ext (funext fun k => funext fun q => (e1 k q).symm) (funext fun q => (e2 q).symm) (funext fun q => (e3 q).symm)
    (funext fun q => (e4 q).symm) (funext fun k => funext fun q => (e5 k q).symm) (funext fun q => (e6 q).symm)
    (funext fun q => (e7 q).symm) (funext fun q => (e8 q).symm)

/-- Real stacked weights give real parameters at every layer. -/
theorem P_real (a4 : (⟨3, ![3, 256, 512]⟩ : Shape).Idx → EReal) (a5 a6 a7 : (⟨2, ![3, 512]⟩ : Shape).Idx → EReal) (a8 : (⟨3, ![3, 512, 256]⟩ : Shape).Idx → EReal) (a9 a10 a11 : (⟨2, ![3, 256]⟩ : Shape).Idx → EReal) (h4 : ∀ i, Cert.Spec.IsReal (a4 i)) (h5 : ∀ i, Cert.Spec.IsReal (a5 i)) (h6 : ∀ i, Cert.Spec.IsReal (a6 i))
    (h7 : ∀ i, Cert.Spec.IsReal (a7 i)) (h8 : ∀ i, Cert.Spec.IsReal (a8 i)) (h9 : ∀ i, Cert.Spec.IsReal (a9 i))
    (h10 : ∀ i, Cert.Spec.IsReal (a10 i)) (h11 : ∀ i, Cert.Spec.IsReal (a11 i)) (l : Fin 3) : (P a4 a5 a6 a7 a8 a9 a10 a11 l).Real :=
  ⟨fun k q => h4 _, fun q => h5 _, fun q => h6 _, fun q => h7 _, fun k q => h8 _, fun q => h9 _, fun q => h10 _, fun q => h11 _⟩

/-! ### The two results -/

/-- If an array K, read as a matrix, is the first form of the network over real arguments, it is the reference's
    result array. -/
theorem result_core (a0 : (⟨3, ![1, 50000, 128]⟩ : Shape).Idx → EReal) (a1 : (⟨3, ![1, 800000, 2]⟩ : Shape).Idx → BitVec 32) (a2 : (⟨2, ![128, 256]⟩ : Shape).Idx → EReal) (a3 : (⟨1, ![256]⟩ : Shape).Idx → EReal) (a4 : (⟨3, ![3, 256, 512]⟩ : Shape).Idx → EReal) (a5 a6 a7 : (⟨2, ![3, 512]⟩ : Shape).Idx → EReal) (a8 : (⟨3, ![3, 512, 256]⟩ : Shape).Idx → EReal) (a9 a10 a11 : (⟨2, ![3, 256]⟩ : Shape).Idx → EReal) (K : (⟨2, ![50000, 256]⟩ : Shape).Idx → EReal) (h0 : ∀ i, Cert.Spec.IsReal (a0 i)) (h2 : ∀ i, Cert.Spec.IsReal (a2 i)) (h3 : ∀ i, Cert.Spec.IsReal (a3 i)) (h4 : ∀ i, Cert.Spec.IsReal (a4 i)) (h5 : ∀ i, Cert.Spec.IsReal (a5 i)) (h6 : ∀ i, Cert.Spec.IsReal (a6 i)) (h7 : ∀ i, Cert.Spec.IsReal (a7 i)) (h8 : ∀ i, Cert.Spec.IsReal (a8 i)) (h9 : ∀ i, Cert.Spec.IsReal (a9 i)) (h10 : ∀ i, Cert.Spec.IsReal (a10 i)) (h11 : ∀ i, Cert.Spec.IsReal (a11 i))
    (hK : (fun p q => at2 K p q)
      = Cert.Spec.netK (aggMK (srcK a1) (dstK a1)) (P a4 a5 a6 a7 a8 a9 a10 a11 0) (P a4 a5 a6 a7 a8 a9 a10 a11 1) (P a4 a5 a6 a7 a8 a9 a10 a11 2)
          (at2 a2) (at1 a3) (fun p k => at3 a0 0 p k)) :
    outF (F := Ideal) a0 a1 a2 a3 a4 a5 a6 a7 a8 a9 a10 a11 = K := by
  funext i
  obtain ⟨p, q, rfl⟩ : ∃ p q, i = ix2 p q := ⟨i 0, i 1, eq_ix2 i⟩
  have hR := outF_eq a0 a1 a2 a3 a4 a5 a6 a7 a8 a9 a10 a11
  have hN := (Cert.Spec.net_eq (aggMK (srcK a1) (dstK a1)) (fun X hX => aggM_real _ _ X hX)
    (P a4 a5 a6 a7 a8 a9 a10 a11 0) (P a4 a5 a6 a7 a8 a9 a10 a11 1) (P a4 a5 a6 a7 a8 a9 a10 a11 2)
    (P_real a4 a5 a6 a7 a8 a9 a10 a11 h4 h5 h6 h7 h8 h9 h10 h11 0) (P_real a4 a5 a6 a7 a8 a9 a10 a11 h4 h5 h6 h7 h8 h9 h10 h11 1) (P_real a4 a5 a6 a7 a8 a9 a10 a11 h4 h5 h6 h7 h8 h9 h10 h11 2)
    (at2 a2) (at1 a3) (fun p k => at3 a0 0 p k) (fun k q => h2 _) (fun q => h3 _) (fun p k => h0 _)).1
  rw [← P_eq_0, ← P_eq_1, ← P_eq_2, ← aggMK_eq] at hR
  have h : toM (outF (F := Ideal) a0 a1 a2 a3 a4 a5 a6 a7 a8 a9 a10 a11) = fun p q => at2 K p q := hR.trans (hN.symm.trans hK.symm)
  exact congrFun (congrFun h p) q

end Cert.Bridge

end
-- ==== Proof.KI.Pre.lean ====
/-
  From the precondition to real entries.

  The precondition is the conjunction, over the eleven float arguments, of "every entry has absolute value below +∞":
  each conjunct an and-reduction, from 1, of the entrywise comparison of max x (−x) with the extended real the word
  0x7F800000 denotes, which is +∞. A conjunction of one-bit words that is 1 has every conjunct 1; an and-reduction over
  all axes that is 1 met only 1s; and an extended real whose absolute value is below +∞ is a real number.
-/
import proofs.«132438_j6098853560655_1_alg».proof.Pre_finite_inputs
import Idealize.ShloMosaic.Lib.ReduceAll
import Idealize.ShloMosaic.Lib.ValueIdx
import Idealize.ShloMosaic.PureOps.Ideal.Laws
import proofs.«132438_j6098853560655_1_alg».proof.Proof.Math.Consts

noncomputable section

namespace Cert.KernelIdeal.HandV

open Idealize.ShloMosaic Idealize.ShloMosaic.ValueIdx
open Cert.Pre_finite_inputs

/-- The scalar shape has one index. -/
instance subsingleton_scalar_idx : Subsingleton (⟨0, ![]⟩ : Shape).Idx := ⟨fun a b => funext fun d => d.elim0⟩

/-- The word 0x7F800000 denotes +∞. -/
theorem ofBits_inf_f32 : Ideal.ofBits .f32 0x7F800000#32 = ⊤ := by simp [Ideal.ofBits, Ideal.ieee]

/-- An entry whose absolute value compares below the +∞ word is a real number. -/
theorem isReal_of_olt_inf {s : Shape} (a : FVec Ideal s .f32) (dims : Fin S_.rank → Fin s.rank)
    (bc : S_.BroadcastsInDim s dims) (i : s.Idx)
    (h : cmpf .olt (Host.absf a) (broadcastInDim s dims bc (constant (F := Ideal) S_ .f32 0x7F800000#32)) i = 1#1) :
    Cert.Spec.IsReal (a i) := by
  unfold cmpf Host.absf broadcastInDim at h
  rw [constant_apply, Ideal.cmpf_def, Ideal.hostAbsf_def, Ideal.absf_def, ofBits_inf_f32] at h
  apply Cert.Spec.isReal_of_abs_lt_top
  by_contra hn
  have e : Ideal.cmp .olt (max (a i) (-(a i))) ⊤ = BitVec.ofBool (decide (max (a i) (-(a i)) < ⊤)) := rfl
  rw [e, decide_eq_false hn] at h
  exact absurd h (by decide)

/-- An array whose "all entries below +∞ in absolute value" reduction is 1 has only real entries. -/
theorem all_real_of_reduce {s : Shape} {axes : List (Fin s.rank)} (a : FVec Ideal s .f32) (dims : Fin S_.rank → Fin s.rank)
    (bc : S_.BroadcastsInDim s dims) (red : s.ReducesTo axes S_) (hu : 0 < S_.numel)
    (h : Host.reduce IntOp.andi
        (cmpf .olt (Host.absf a) (broadcastInDim s dims bc (constant (F := Ideal) S_ .f32 0x7F800000#32)))
        (constantI S_ 1 1#1) red hu ix0 = 1#1) (i : s.Idx) : Cert.Spec.IsReal (a i) :=
  isReal_of_olt_inf a dims bc i (Host.reduce_andi_all _ _ red hu ix0 h i)

/-- Under the precondition every entry of every float argument is a real number. -/
theorem pre_real [Facts] (a0 : FVec Ideal S1x50000x128 .f32) (a1 : IVec S1x800000x2 32) (a2 : FVec Ideal S128x256 .f32) (a3 : FVec Ideal S256 .f32) (a4 : FVec Ideal S3x256x512 .f32) (a5 : FVec Ideal S3x512 .f32) (a6 : FVec Ideal S3x512 .f32) (a7 : FVec Ideal S3x512 .f32) (a8 : FVec Ideal S3x512x256 .f32) (a9 : FVec Ideal S3x256 .f32) (a10 : FVec Ideal S3x256 .f32) (a11 : FVec Ideal S3x256 .f32)
    (h : fn (F := Ideal) a0 a1 a2 a3 a4 a5 a6 a7 a8 a9 a10 a11 = fun _ => 1#1) :
    (∀ i, Cert.Spec.IsReal (a0 i)) ∧ (∀ i, Cert.Spec.IsReal (a2 i)) ∧ (∀ i, Cert.Spec.IsReal (a3 i)) ∧ (∀ i, Cert.Spec.IsReal (a4 i)) ∧ (∀ i, Cert.Spec.IsReal (a5 i)) ∧ (∀ i, Cert.Spec.IsReal (a6 i)) ∧ (∀ i, Cert.Spec.IsReal (a7 i)) ∧ (∀ i, Cert.Spec.IsReal (a8 i)) ∧ (∀ i, Cert.Spec.IsReal (a9 i)) ∧ (∀ i, Cert.Spec.IsReal (a10 i)) ∧ (∀ i, Cert.Spec.IsReal (a11 i)) := by
  have h0 := congrFun h ix0
  dsimp only [fn, fn_part1, fn_part2, fn_part3] at h0
  simp only [Idealize.ShloMosaic.andi, IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨all_real_of_reduce _ _ _ _ _ e0, all_real_of_reduce _ _ _ _ _ e2, all_real_of_reduce _ _ _ _ _ e3, all_real_of_reduce _ _ _ _ _ e4, all_real_of_reduce _ _ _ _ _ e5, all_real_of_reduce _ _ _ _ _ e6, all_real_of_reduce _ _ _ _ _ e7, all_real_of_reduce _ _ _ _ _ e8, all_real_of_reduce _ _ _ _ _ e9, all_real_of_reduce _ _ _ _ _ e10, all_real_of_reduce _ _ _ _ _ e11⟩

end Cert.KernelIdeal.HandV

end
-- ==== Proof.Bridge.Mem.lean ====
/-
  The same at two memories that agree on the arguments: under the precondition every float argument is an array of
  real numbers, so if an array K, read as a matrix, is the first form of the network over the first memory's
  arguments, then the reference's result over the second memory is K.
-/
import proofs.«132438_j6098853560655_1_alg».proof.Defs
import proofs.«132438_j6098853560655_1_alg».proof.Proof.Bridge.Core
import proofs.«132438_j6098853560655_1_alg».proof.Proof.RI.Run
import proofs.«132438_j6098853560655_1_alg».proof.Proof.KI.Pre

noncomputable section

namespace Cert.Bridge

open Idealize.ShloMosaic Idealize.ShloMosaic.TcCoe Idealize.SL.Sem Idealize.ShloMosaic.ValueIdx
open Cert.ReferenceIdeal.Hand Cert.KernelIdeal.HandV

theorem result_mem [hPre : Cert.Pre_finite_inputs.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) (K : (⟨2, ![50000, 256]⟩ : Shape).Idx → EReal)
    (hK : (fun p q => at2 K p q)
      = Cert.Spec.netK (aggMK (srcK (m ((c.tc : Thread Cert.KernelIdeal.nD Cert.KernelIdeal.τ).loc Cert.KernelIdeal.main_arg1))) (dstK (m ((c.tc : Thread Cert.KernelIdeal.nD Cert.KernelIdeal.τ).loc Cert.KernelIdeal.main_arg1))))
          (P (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) 0)
          (P (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) 1)
          (P (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) 2)
          (at2 (m ((c.tc : Thread Cert.KernelIdeal.nD Cert.KernelIdeal.τ).loc Cert.KernelIdeal.main_arg2))) (at1 (m ((c.tc : Thread Cert.KernelIdeal.nD Cert.KernelIdeal.τ).loc Cert.KernelIdeal.main_arg3))) (fun p k => at3 (m ((c.tc : Thread Cert.KernelIdeal.nD Cert.KernelIdeal.τ).loc Cert.KernelIdeal.main_arg0)) 0 p k)) :
    Cert.ReferenceIdeal.Hand.out (F := Ideal) m' c = K := by
  obtain ⟨h0, h2, h3, h4, h5, h6, h7, h8, h9, h10, h11⟩ :=
    Cert.KernelIdeal.HandV.pre_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (hpre c)
  obtain ⟨e0, e1, e2, e3, e4, e5, e6, e7, e8, e9, e10, e11⟩ := hagree c
  unfold Cert.ReferenceIdeal.Hand.out
  rw [e0, e1, e2, e3, e4, e5, e6, e7, e8, e9, e10, e11]
  exact result_core (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) K h0 h2 h3 h4 h5 h6 h7 h8 h9 h10 h11 hK

end Cert.Bridge

end
-- ==== Proof.KI.ValueCarry.lean ====
import proofs.«132438_j6098853560655_1_alg».proof.Proof.KI.Chain
import proofs.«132438_j6098853560655_1_alg».proof.Proof.KI.At2
import proofs.«132438_j6098853560655_1_alg».proof.Proof.KI.HostLib

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.StableHlo

variable (m : (ℓ : Loc nD τ sig) → Buf (Elt Ideal) ℓ)

/-! # Buffers no item writes keep their contents from boundary to boundary

A host stretch leaves every buffer it does not write as it found it; a kernel leaves every buffer but its output arrays.
The parameter arrays are written by nothing; the two columns of the edge list are written once, before the first
kernel; a layer's input is written by the kernel before the layer and by nothing within it. -/

theorem Wk1 (c : Dev nD) (r : Ref sig .tc) (h : r ∉ hostOps0_W) : W1 m c r = W0 m c r :=
  StableHlo.after_of_writes_sub hostOps0 _ hostOps0_writes h
theorem Wk3 (c : Dev nD) (r : Ref sig .tc) (h : r ∉ hostOps1_W) : W3 m c r = W2 m c r :=
  StableHlo.after_of_writes_sub hostOps1 _ hostOps1_writes h
theorem Wk5 (c : Dev nD) (r : Ref sig .tc) (h : r ∉ hostOps2_W) : W5 m c r = W4 m c r :=
  StableHlo.after_of_writes_sub hostOps2 _ hostOps2_writes h
theorem Wk7 (c : Dev nD) (r : Ref sig .tc) (h : r ∉ hostOps3_W) : W7 m c r = W6 m c r :=
  StableHlo.after_of_writes_sub hostOps3 _ hostOps3_writes h
theorem Wk9 (c : Dev nD) (r : Ref sig .tc) (h : r ∉ hostOps4_W) : W9 m c r = W8 m c r :=
  StableHlo.after_of_writes_sub hostOps4 _ hostOps4_writes h
theorem Wk11 (c : Dev nD) (r : Ref sig .tc) (h : r ∉ hostOps5_W) : W11 m c r = W10 m c r :=
  StableHlo.after_of_writes_sub hostOps5 _ hostOps5_writes h
theorem Wk13 (c : Dev nD) (r : Ref sig .tc) (h : r ∉ hostOps6_W) : W13 m c r = W12 m c r :=
  StableHlo.after_of_writes_sub hostOps6 _ hostOps6_writes h
theorem Wk15 (c : Dev nD) (r : Ref sig .tc) (h : r ∉ hostOps7_W) : W15 m c r = W14 m c r :=
  StableHlo.after_of_writes_sub hostOps7 _ hostOps7_writes h
theorem Wk17 (c : Dev nD) (r : Ref sig .tc) (h : r ∉ hostOps8_W) : W17 m c r = W16 m c r :=
  StableHlo.after_of_writes_sub hostOps8 _ hostOps8_writes h
theorem Wk19 (c : Dev nD) (r : Ref sig .tc) (h : r ∉ hostOps9_W) : W19 m c r = W18 m c r :=
  StableHlo.after_of_writes_sub hostOps9 _ hostOps9_writes h

/-- An array read entry by entry through its two coordinates is the array. -/
theorem at2_eta {n0 n1 : Nat} (f : (⟨2, ![n0, n1]⟩ : Shape).Idx → EReal) : (fun i => at2 f (i 0) (i 1)) = f :=
  funext fun i => congrArg f (eq_ix2 i).symm

theorem carry_arg4_2 (c : Dev nD) : W2 m c main_arg4 = W0 m c main_arg4 :=
  ((W2_of_ne m c main_arg4 (by decide)).trans ((Wk1 m c main_arg4 (by decide))))
theorem carry_arg5_2 (c : Dev nD) : W2 m c main_arg5 = W0 m c main_arg5 :=
  ((W2_of_ne m c main_arg5 (by decide)).trans ((Wk1 m c main_arg5 (by decide))))
theorem carry_v3_2 (c : Dev nD) : W2 m c main_v3 = W1 m c main_v3 :=
  ((W2_of_ne m c main_v3 (by decide)))
theorem carry_v5_2 (c : Dev nD) : W2 m c main_v5 = W1 m c main_v5 :=
  ((W2_of_ne m c main_v5 (by decide)))
theorem carry_arg6_4 (c : Dev nD) : W4 m c main_arg6 = W0 m c main_arg6 :=
  ((W4_of_ne m c main_arg6 (by decide) (by decide) (by decide)).trans ((Wk3 m c main_arg6 (by decide)).trans ((W2_of_ne m c main_arg6 (by decide)).trans ((Wk1 m c main_arg6 (by decide))))))
theorem carry_arg7_4 (c : Dev nD) : W4 m c main_arg7 = W0 m c main_arg7 :=
  ((W4_of_ne m c main_arg7 (by decide) (by decide) (by decide)).trans ((Wk3 m c main_arg7 (by decide)).trans ((W2_of_ne m c main_arg7 (by decide)).trans ((Wk1 m c main_arg7 (by decide))))))
theorem carry_arg8_4 (c : Dev nD) : W4 m c main_arg8 = W0 m c main_arg8 :=
  ((W4_of_ne m c main_arg8 (by decide) (by decide) (by decide)).trans ((Wk3 m c main_arg8 (by decide)).trans ((W2_of_ne m c main_arg8 (by decide)).trans ((Wk1 m c main_arg8 (by decide))))))
theorem carry_arg9_4 (c : Dev nD) : W4 m c main_arg9 = W0 m c main_arg9 :=
  ((W4_of_ne m c main_arg9 (by decide) (by decide) (by decide)).trans ((Wk3 m c main_arg9 (by decide)).trans ((W2_of_ne m c main_arg9 (by decide)).trans ((Wk1 m c main_arg9 (by decide))))))
theorem carry_arg10_6 (c : Dev nD) : W6 m c main_arg10 = W0 m c main_arg10 :=
  ((W6_of_ne m c main_arg10 (by decide) (by decide) (by decide)).trans ((Wk5 m c main_arg10 (by decide)).trans ((W4_of_ne m c main_arg10 (by decide) (by decide) (by decide)).trans ((Wk3 m c main_arg10 (by decide)).trans ((W2_of_ne m c main_arg10 (by decide)).trans ((Wk1 m c main_arg10 (by decide))))))))
theorem carry_arg11_6 (c : Dev nD) : W6 m c main_arg11 = W0 m c main_arg11 :=
  ((W6_of_ne m c main_arg11 (by decide) (by decide) (by decide)).trans ((Wk5 m c main_arg11 (by decide)).trans ((W4_of_ne m c main_arg11 (by decide) (by decide) (by decide)).trans ((Wk3 m c main_arg11 (by decide)).trans ((W2_of_ne m c main_arg11 (by decide)).trans ((Wk1 m c main_arg11 (by decide))))))))
theorem carry_x_3 (c : Dev nD) : W3 m c main_v7 = W2 m c main_v7 :=
  ((Wk3 m c main_v7 (by decide)))
theorem carry_x_5 (c : Dev nD) : W5 m c main_v7 = W2 m c main_v7 :=
  ((Wk5 m c main_v7 (by decide)).trans ((W4_of_ne m c main_v7 (by decide) (by decide) (by decide)).trans ((Wk3 m c main_v7 (by decide)))))
theorem carry_arg4_8 (c : Dev nD) : W8 m c main_arg4 = W0 m c main_arg4 :=
  ((W8_of_ne m c main_arg4 (by decide)).trans ((Wk7 m c main_arg4 (by decide)).trans ((W6_of_ne m c main_arg4 (by decide) (by decide) (by decide)).trans ((Wk5 m c main_arg4 (by decide)).trans ((W4_of_ne m c main_arg4 (by decide) (by decide) (by decide)).trans ((Wk3 m c main_arg4 (by decide)).trans ((W2_of_ne m c main_arg4 (by decide)).trans ((Wk1 m c main_arg4 (by decide))))))))))
theorem carry_arg5_8 (c : Dev nD) : W8 m c main_arg5 = W0 m c main_arg5 :=
  ((W8_of_ne m c main_arg5 (by decide)).trans ((Wk7 m c main_arg5 (by decide)).trans ((W6_of_ne m c main_arg5 (by decide) (by decide) (by decide)).trans ((Wk5 m c main_arg5 (by decide)).trans ((W4_of_ne m c main_arg5 (by decide) (by decide) (by decide)).trans ((Wk3 m c main_arg5 (by decide)).trans ((W2_of_ne m c main_arg5 (by decide)).trans ((Wk1 m c main_arg5 (by decide))))))))))
theorem carry_v3_8 (c : Dev nD) : W8 m c main_v3 = W1 m c main_v3 :=
  ((W8_of_ne m c main_v3 (by decide)).trans ((Wk7 m c main_v3 (by decide)).trans ((W6_of_ne m c main_v3 (by decide) (by decide) (by decide)).trans ((Wk5 m c main_v3 (by decide)).trans ((W4_of_ne m c main_v3 (by decide) (by decide) (by decide)).trans ((Wk3 m c main_v3 (by decide)).trans ((W2_of_ne m c main_v3 (by decide)))))))))
theorem carry_v5_8 (c : Dev nD) : W8 m c main_v5 = W1 m c main_v5 :=
  ((W8_of_ne m c main_v5 (by decide)).trans ((Wk7 m c main_v5 (by decide)).trans ((W6_of_ne m c main_v5 (by decide) (by decide) (by decide)).trans ((Wk5 m c main_v5 (by decide)).trans ((W4_of_ne m c main_v5 (by decide) (by decide) (by decide)).trans ((Wk3 m c main_v5 (by decide)).trans ((W2_of_ne m c main_v5 (by decide)))))))))
theorem carry_arg6_10 (c : Dev nD) : W10 m c main_arg6 = W0 m c main_arg6 :=
  ((W10_of_ne m c main_arg6 (by decide) (by decide) (by decide)).trans ((Wk9 m c main_arg6 (by decide)).trans ((W8_of_ne m c main_arg6 (by decide)).trans ((Wk7 m c main_arg6 (by decide)).trans ((W6_of_ne m c main_arg6 (by decide) (by decide) (by decide)).trans ((Wk5 m c main_arg6 (by decide)).trans ((W4_of_ne m c main_arg6 (by decide) (by decide) (by decide)).trans ((Wk3 m c main_arg6 (by decide)).trans ((W2_of_ne m c main_arg6 (by decide)).trans ((Wk1 m c main_arg6 (by decide))))))))))))
theorem carry_arg7_10 (c : Dev nD) : W10 m c main_arg7 = W0 m c main_arg7 :=
  ((W10_of_ne m c main_arg7 (by decide) (by decide) (by decide)).trans ((Wk9 m c main_arg7 (by decide)).trans ((W8_of_ne m c main_arg7 (by decide)).trans ((Wk7 m c main_arg7 (by decide)).trans ((W6_of_ne m c main_arg7 (by decide) (by decide) (by decide)).trans ((Wk5 m c main_arg7 (by decide)).trans ((W4_of_ne m c main_arg7 (by decide) (by decide) (by decide)).trans ((Wk3 m c main_arg7 (by decide)).trans ((W2_of_ne m c main_arg7 (by decide)).trans ((Wk1 m c main_arg7 (by decide))))))))))))
theorem carry_arg8_10 (c : Dev nD) : W10 m c main_arg8 = W0 m c main_arg8 :=
  ((W10_of_ne m c main_arg8 (by decide) (by decide) (by decide)).trans ((Wk9 m c main_arg8 (by decide)).trans ((W8_of_ne m c main_arg8 (by decide)).trans ((Wk7 m c main_arg8 (by decide)).trans ((W6_of_ne m c main_arg8 (by decide) (by decide) (by decide)).trans ((Wk5 m c main_arg8 (by decide)).trans ((W4_of_ne m c main_arg8 (by decide) (by decide) (by decide)).trans ((Wk3 m c main_arg8 (by decide)).trans ((W2_of_ne m c main_arg8 (by decide)).trans ((Wk1 m c main_arg8 (by decide))))))))))))
theorem carry_arg9_10 (c : Dev nD) : W10 m c main_arg9 = W0 m c main_arg9 :=
  ((W10_of_ne m c main_arg9 (by decide) (by decide) (by decide)).trans ((Wk9 m c main_arg9 (by decide)).trans ((W8_of_ne m c main_arg9 (by decide)).trans ((Wk7 m c main_arg9 (by decide)).trans ((W6_of_ne m c main_arg9 (by decide) (by decide) (by decide)).trans ((Wk5 m c main_arg9 (by decide)).trans ((W4_of_ne m c main_arg9 (by decide) (by decide) (by decide)).trans ((Wk3 m c main_arg9 (by decide)).trans ((W2_of_ne m c main_arg9 (by decide)).trans ((Wk1 m c main_arg9 (by decide))))))))))))
theorem carry_arg10_12 (c : Dev nD) : W12 m c main_arg10 = W0 m c main_arg10 :=
  ((W12_of_ne m c main_arg10 (by decide) (by decide) (by decide)).trans ((Wk11 m c main_arg10 (by decide)).trans ((W10_of_ne m c main_arg10 (by decide) (by decide) (by decide)).trans ((Wk9 m c main_arg10 (by decide)).trans ((W8_of_ne m c main_arg10 (by decide)).trans ((Wk7 m c main_arg10 (by decide)).trans ((W6_of_ne m c main_arg10 (by decide) (by decide) (by decide)).trans ((Wk5 m c main_arg10 (by decide)).trans ((W4_of_ne m c main_arg10 (by decide) (by decide) (by decide)).trans ((Wk3 m c main_arg10 (by decide)).trans ((W2_of_ne m c main_arg10 (by decide)).trans ((Wk1 m c main_arg10 (by decide))))))))))))))
theorem carry_arg11_12 (c : Dev nD) : W12 m c main_arg11 = W0 m c main_arg11 :=
  ((W12_of_ne m c main_arg11 (by decide) (by decide) (by decide)).trans ((Wk11 m c main_arg11 (by decide)).trans ((W10_of_ne m c main_arg11 (by decide) (by decide) (by decide)).trans ((Wk9 m c main_arg11 (by decide)).trans ((W8_of_ne m c main_arg11 (by decide)).trans ((Wk7 m c main_arg11 (by decide)).trans ((W6_of_ne m c main_arg11 (by decide) (by decide) (by decide)).trans ((Wk5 m c main_arg11 (by decide)).trans ((W4_of_ne m c main_arg11 (by decide) (by decide) (by decide)).trans ((Wk3 m c main_arg11 (by decide)).trans ((W2_of_ne m c main_arg11 (by decide)).trans ((Wk1 m c main_arg11 (by decide))))))))))))))
theorem carry_x_9 (c : Dev nD) : W9 m c main_v54 = W8 m c main_v54 :=
  ((Wk9 m c main_v54 (by decide)))
theorem carry_x_11 (c : Dev nD) : W11 m c main_v54 = W8 m c main_v54 :=
  ((Wk11 m c main_v54 (by decide)).trans ((W10_of_ne m c main_v54 (by decide) (by decide) (by decide)).trans ((Wk9 m c main_v54 (by decide)))))
theorem carry_arg4_14 (c : Dev nD) : W14 m c main_arg4 = W0 m c main_arg4 :=
  ((W14_of_ne m c main_arg4 (by decide)).trans ((Wk13 m c main_arg4 (by decide)).trans ((W12_of_ne m c main_arg4 (by decide) (by decide) (by decide)).trans ((Wk11 m c main_arg4 (by decide)).trans ((W10_of_ne m c main_arg4 (by decide) (by decide) (by decide)).trans ((Wk9 m c main_arg4 (by decide)).trans ((W8_of_ne m c main_arg4 (by decide)).trans ((Wk7 m c main_arg4 (by decide)).trans ((W6_of_ne m c main_arg4 (by decide) (by decide) (by decide)).trans ((Wk5 m c main_arg4 (by decide)).trans ((W4_of_ne m c main_arg4 (by decide) (by decide) (by decide)).trans ((Wk3 m c main_arg4 (by decide)).trans ((W2_of_ne m c main_arg4 (by decide)).trans ((Wk1 m c main_arg4 (by decide))))))))))))))))
theorem carry_arg5_14 (c : Dev nD) : W14 m c main_arg5 = W0 m c main_arg5 :=
  ((W14_of_ne m c main_arg5 (by decide)).trans ((Wk13 m c main_arg5 (by decide)).trans ((W12_of_ne m c main_arg5 (by decide) (by decide) (by decide)).trans ((Wk11 m c main_arg5 (by decide)).trans ((W10_of_ne m c main_arg5 (by decide) (by decide) (by decide)).trans ((Wk9 m c main_arg5 (by decide)).trans ((W8_of_ne m c main_arg5 (by decide)).trans ((Wk7 m c main_arg5 (by decide)).trans ((W6_of_ne m c main_arg5 (by decide) (by decide) (by decide)).trans ((Wk5 m c main_arg5 (by decide)).trans ((W4_of_ne m c main_arg5 (by decide) (by decide) (by decide)).trans ((Wk3 m c main_arg5 (by decide)).trans ((W2_of_ne m c main_arg5 (by decide)).trans ((Wk1 m c main_arg5 (by decide))))))))))))))))
theorem carry_v3_14 (c : Dev nD) : W14 m c main_v3 = W1 m c main_v3 :=
  ((W14_of_ne m c main_v3 (by decide)).trans ((Wk13 m c main_v3 (by decide)).trans ((W12_of_ne m c main_v3 (by decide) (by decide) (by decide)).trans ((Wk11 m c main_v3 (by decide)).trans ((W10_of_ne m c main_v3 (by decide) (by decide) (by decide)).trans ((Wk9 m c main_v3 (by decide)).trans ((W8_of_ne m c main_v3 (by decide)).trans ((Wk7 m c main_v3 (by decide)).trans ((W6_of_ne m c main_v3 (by decide) (by decide) (by decide)).trans ((Wk5 m c main_v3 (by decide)).trans ((W4_of_ne m c main_v3 (by decide) (by decide) (by decide)).trans ((Wk3 m c main_v3 (by decide)).trans ((W2_of_ne m c main_v3 (by decide)))))))))))))))
theorem carry_v5_14 (c : Dev nD) : W14 m c main_v5 = W1 m c main_v5 :=
  ((W14_of_ne m c main_v5 (by decide)).trans ((Wk13 m c main_v5 (by decide)).trans ((W12_of_ne m c main_v5 (by decide) (by decide) (by decide)).trans ((Wk11 m c main_v5 (by decide)).trans ((W10_of_ne m c main_v5 (by decide) (by decide) (by decide)).trans ((Wk9 m c main_v5 (by decide)).trans ((W8_of_ne m c main_v5 (by decide)).trans ((Wk7 m c main_v5 (by decide)).trans ((W6_of_ne m c main_v5 (by decide) (by decide) (by decide)).trans ((Wk5 m c main_v5 (by decide)).trans ((W4_of_ne m c main_v5 (by decide) (by decide) (by decide)).trans ((Wk3 m c main_v5 (by decide)).trans ((W2_of_ne m c main_v5 (by decide)))))))))))))))
theorem carry_arg6_16 (c : Dev nD) : W16 m c main_arg6 = W0 m c main_arg6 :=
  ((W16_of_ne m c main_arg6 (by decide) (by decide) (by decide)).trans ((Wk15 m c main_arg6 (by decide)).trans ((W14_of_ne m c main_arg6 (by decide)).trans ((Wk13 m c main_arg6 (by decide)).trans ((W12_of_ne m c main_arg6 (by decide) (by decide) (by decide)).trans ((Wk11 m c main_arg6 (by decide)).trans ((W10_of_ne m c main_arg6 (by decide) (by decide) (by decide)).trans ((Wk9 m c main_arg6 (by decide)).trans ((W8_of_ne m c main_arg6 (by decide)).trans ((Wk7 m c main_arg6 (by decide)).trans ((W6_of_ne m c main_arg6 (by decide) (by decide) (by decide)).trans ((Wk5 m c main_arg6 (by decide)).trans ((W4_of_ne m c main_arg6 (by decide) (by decide) (by decide)).trans ((Wk3 m c main_arg6 (by decide)).trans ((W2_of_ne m c main_arg6 (by decide)).trans ((Wk1 m c main_arg6 (by decide))))))))))))))))))
theorem carry_arg7_16 (c : Dev nD) : W16 m c main_arg7 = W0 m c main_arg7 :=
  ((W16_of_ne m c main_arg7 (by decide) (by decide) (by decide)).trans ((Wk15 m c main_arg7 (by decide)).trans ((W14_of_ne m c main_arg7 (by decide)).trans ((Wk13 m c main_arg7 (by decide)).trans ((W12_of_ne m c main_arg7 (by decide) (by decide) (by decide)).trans ((Wk11 m c main_arg7 (by decide)).trans ((W10_of_ne m c main_arg7 (by decide) (by decide) (by decide)).trans ((Wk9 m c main_arg7 (by decide)).trans ((W8_of_ne m c main_arg7 (by decide)).trans ((Wk7 m c main_arg7 (by decide)).trans ((W6_of_ne m c main_arg7 (by decide) (by decide) (by decide)).trans ((Wk5 m c main_arg7 (by decide)).trans ((W4_of_ne m c main_arg7 (by decide) (by decide) (by decide)).trans ((Wk3 m c main_arg7 (by decide)).trans ((W2_of_ne m c main_arg7 (by decide)).trans ((Wk1 m c main_arg7 (by decide))))))))))))))))))
theorem carry_arg8_16 (c : Dev nD) : W16 m c main_arg8 = W0 m c main_arg8 :=
  ((W16_of_ne m c main_arg8 (by decide) (by decide) (by decide)).trans ((Wk15 m c main_arg8 (by decide)).trans ((W14_of_ne m c main_arg8 (by decide)).trans ((Wk13 m c main_arg8 (by decide)).trans ((W12_of_ne m c main_arg8 (by decide) (by decide) (by decide)).trans ((Wk11 m c main_arg8 (by decide)).trans ((W10_of_ne m c main_arg8 (by decide) (by decide) (by decide)).trans ((Wk9 m c main_arg8 (by decide)).trans ((W8_of_ne m c main_arg8 (by decide)).trans ((Wk7 m c main_arg8 (by decide)).trans ((W6_of_ne m c main_arg8 (by decide) (by decide) (by decide)).trans ((Wk5 m c main_arg8 (by decide)).trans ((W4_of_ne m c main_arg8 (by decide) (by decide) (by decide)).trans ((Wk3 m c main_arg8 (by decide)).trans ((W2_of_ne m c main_arg8 (by decide)).trans ((Wk1 m c main_arg8 (by decide))))))))))))))))))
theorem carry_arg9_16 (c : Dev nD) : W16 m c main_arg9 = W0 m c main_arg9 :=
  ((W16_of_ne m c main_arg9 (by decide) (by decide) (by decide)).trans ((Wk15 m c main_arg9 (by decide)).trans ((W14_of_ne m c main_arg9 (by decide)).trans ((Wk13 m c main_arg9 (by decide)).trans ((W12_of_ne m c main_arg9 (by decide) (by decide) (by decide)).trans ((Wk11 m c main_arg9 (by decide)).trans ((W10_of_ne m c main_arg9 (by decide) (by decide) (by decide)).trans ((Wk9 m c main_arg9 (by decide)).trans ((W8_of_ne m c main_arg9 (by decide)).trans ((Wk7 m c main_arg9 (by decide)).trans ((W6_of_ne m c main_arg9 (by decide) (by decide) (by decide)).trans ((Wk5 m c main_arg9 (by decide)).trans ((W4_of_ne m c main_arg9 (by decide) (by decide) (by decide)).trans ((Wk3 m c main_arg9 (by decide)).trans ((W2_of_ne m c main_arg9 (by decide)).trans ((Wk1 m c main_arg9 (by decide))))))))))))))))))
theorem carry_arg10_18 (c : Dev nD) : W18 m c main_arg10 = W0 m c main_arg10 :=
  ((W18_of_ne m c main_arg10 (by decide) (by decide) (by decide)).trans ((Wk17 m c main_arg10 (by decide)).trans ((W16_of_ne m c main_arg10 (by decide) (by decide) (by decide)).trans ((Wk15 m c main_arg10 (by decide)).trans ((W14_of_ne m c main_arg10 (by decide)).trans ((Wk13 m c main_arg10 (by decide)).trans ((W12_of_ne m c main_arg10 (by decide) (by decide) (by decide)).trans ((Wk11 m c main_arg10 (by decide)).trans ((W10_of_ne m c main_arg10 (by decide) (by decide) (by decide)).trans ((Wk9 m c main_arg10 (by decide)).trans ((W8_of_ne m c main_arg10 (by decide)).trans ((Wk7 m c main_arg10 (by decide)).trans ((W6_of_ne m c main_arg10 (by decide) (by decide) (by decide)).trans ((Wk5 m c main_arg10 (by decide)).trans ((W4_of_ne m c main_arg10 (by decide) (by decide) (by decide)).trans ((Wk3 m c main_arg10 (by decide)).trans ((W2_of_ne m c main_arg10 (by decide)).trans ((Wk1 m c main_arg10 (by decide))))))))))))))))))))
theorem carry_arg11_18 (c : Dev nD) : W18 m c main_arg11 = W0 m c main_arg11 :=
  ((W18_of_ne m c main_arg11 (by decide) (by decide) (by decide)).trans ((Wk17 m c main_arg11 (by decide)).trans ((W16_of_ne m c main_arg11 (by decide) (by decide) (by decide)).trans ((Wk15 m c main_arg11 (by decide)).trans ((W14_of_ne m c main_arg11 (by decide)).trans ((Wk13 m c main_arg11 (by decide)).trans ((W12_of_ne m c main_arg11 (by decide) (by decide) (by decide)).trans ((Wk11 m c main_arg11 (by decide)).trans ((W10_of_ne m c main_arg11 (by decide) (by decide) (by decide)).trans ((Wk9 m c main_arg11 (by decide)).trans ((W8_of_ne m c main_arg11 (by decide)).trans ((Wk7 m c main_arg11 (by decide)).trans ((W6_of_ne m c main_arg11 (by decide) (by decide) (by decide)).trans ((Wk5 m c main_arg11 (by decide)).trans ((W4_of_ne m c main_arg11 (by decide) (by decide) (by decide)).trans ((Wk3 m c main_arg11 (by decide)).trans ((W2_of_ne m c main_arg11 (by decide)).trans ((Wk1 m c main_arg11 (by decide))))))))))))))))))))
theorem carry_x_15 (c : Dev nD) : W15 m c main_v101 = W14 m c main_v101 :=
  ((Wk15 m c main_v101 (by decide)))
theorem carry_x_17 (c : Dev nD) : W17 m c main_v101 = W14 m c main_v101 :=
  ((Wk17 m c main_v101 (by decide)).trans ((W16_of_ne m c main_v101 (by decide) (by decide) (by decide)).trans ((Wk15 m c main_v101 (by decide)))))

end Cert.KernelIdeal.HandV

end
-- ==== Proof.KI.ValueDefs.lean ====
import proofs.«132438_j6098853560655_1_alg».proof.Proof.KI.ValueCarry
import proofs.«132438_j6098853560655_1_alg».proof.Proof.Spec

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.StableHlo
open scoped BigOperators

variable (m : (ℓ : Loc nD τ sig) → Buf (Elt Ideal) ℓ)

/-! # The vocabulary in which the first program's value is stated -/

/-- The aggregation along the edges (s, d) as a map of 50000 × 256 matrices. -/
def aggM (s d : IVec S800000 32) (X : Cert.Spec.X256) : Cert.Spec.X256 :=
  fun p q => at2 (n0 := 50000) (n1 := 256) (aggK (fun i => X (i 0) (i 1)) s d) p q

/-- The aggregation of this launch: along the two columns of the edge list argument. -/
def aggOf (c : Dev nD) : Cert.Spec.X256 → Cert.Spec.X256 :=
  aggM (srcK (W0 m c main_arg1)) (dstK (W0 m c main_arg1))

/-- Layer `l`'s parameters, cut out of the stacked parameter arguments. -/
def paramsOf (c : Dev nD) (l : Fin 3) : Cert.Spec.Params where
  W1 := fun k q => at3 (W0 m c main_arg4) l k q
  b1 := fun q => at2 (W0 m c main_arg5) l q
  g1 := fun q => at2 (W0 m c main_arg6) l q
  beta1 := fun q => at2 (W0 m c main_arg7) l q
  W2 := fun k q => at3 (W0 m c main_arg8) l k q
  b2 := fun q => at2 (W0 m c main_arg9) l q
  gf := fun q => at2 (W0 m c main_arg10) l q
  betaf := fun q => at2 (W0 m c main_arg11) l q

end Cert.KernelIdeal.HandV

end
-- ==== Proof.LibBlockSum.lean ====
/-
  Sums taken block by block.

  A sum over nb · bs consecutive indices can be accumulated one block of bs indices at a time: start from a value a₀,
  add the sum of block 0, then of block 1, and so on; after nb steps the accumulator holds a₀ plus the whole sum.
  Everything is stated in an arbitrary commutative additive monoid (the extended reals are one), once for a general
  block count and block size over Fin (nb * bs), and once literally for ten blocks of 1024 over Fin 10240 with the
  index of entry q of block k spelt 1024 * k + q.
-/
import Idealize.ShloMosaic.PureOps.Ideal

namespace Cert.BlockSum

open Finset

variable {M : Type*} [AddCommMonoid M]

/-! ### Sums over an initial segment of the naturals, cut into blocks -/

/-- Entry q of block k lies below nb · bs. -/
theorem blk_lt {nb bs k q : ℕ} (hk : k < nb) (hq : q < bs) : k * bs + q < nb * bs :=
  calc k * bs + q < k * bs + bs := Nat.add_lt_add_left hq _
    _ = (k + 1) * bs := (Nat.succ_mul k bs).symm
    _ ≤ nb * bs := Nat.mul_le_mul_right bs hk

/-- A function on the first n naturals, continued by zero. -/
def ext (n : ℕ) (g : Fin n → M) (i : ℕ) : M := if h : i < n then g ⟨i, h⟩ else 0

/-- Below n the continuation is the function itself. -/
theorem ext_of_lt {n : ℕ} (g : Fin n → M) {i : ℕ} (h : i < n) : ext n g i = g ⟨i, h⟩ := dif_pos h

/-- A sum over Fin n is the sum of the continuation over the first n naturals. -/
theorem sum_eq_range_ext (n : ℕ) (g : Fin n → M) : ∑ i, g i = ∑ i ∈ range n, ext n g i := by
  rw [Finset.sum_range]
  refine Finset.sum_congr rfl fun i _ => ?_
  rw [ext_of_lt g i.isLt]

/-- The first nb · bs terms of a sequence, summed block by block. -/
theorem sum_range_blocks (bs : ℕ) (G : ℕ → M) (nb : ℕ) :
    ∑ i ∈ range (nb * bs), G i = ∑ k ∈ range nb, ∑ q ∈ range bs, G (k * bs + q) := by
  induction nb with
  | zero => rw [Nat.zero_mul, Finset.range_zero, Finset.sum_empty, Finset.sum_empty]
  | succ n ih => rw [Nat.succ_mul, Finset.sum_range_add, ih, Finset.sum_range_succ]

/-! ### General block count and block size -/

/-- The block sums of a function on Fin (nb * bs) add up to its whole sum. The guard k < nb is what a step of an
    accumulation carries when its step number is a natural number; below nb it is true. -/
theorem sum_blocks (nb bs : ℕ) (g : Fin (nb * bs) → M) :
    ∑ k ∈ range nb, (∑ q : Fin bs, if h : k < nb then g ⟨k * bs + q.val, blk_lt h q.isLt⟩ else 0) = ∑ i, g i := by
  rw [sum_eq_range_ext (nb * bs) g, sum_range_blocks]
  refine Finset.sum_congr rfl fun k hk => ?_
  have hk' : k < nb := Finset.mem_range.mp hk
  rw [Finset.sum_range]
  refine Finset.sum_congr rfl fun q _ => ?_
  rw [dif_pos hk', ext_of_lt g (blk_lt hk' q.isLt)]

/-- The same with both sums over Fin: Σ_k Σ_q g(k · bs + q) = Σ_i g(i). -/
theorem sum_blocks_fin (nb bs : ℕ) (g : Fin (nb * bs) → M) :
    ∑ k : Fin nb, ∑ q : Fin bs, g ⟨k.val * bs + q.val, blk_lt k.isLt q.isLt⟩ = ∑ i, g i := by
  rw [← sum_blocks nb bs g, Finset.sum_range]
  refine Finset.sum_congr rfl fun k _ => ?_
  refine Finset.sum_congr rfl fun q _ => ?_
  rw [dif_pos k.isLt]

/-- The accumulator: it starts at a₀ and step k adds (0 + the sum of block k). -/
def accFrom (a₀ : M) (nb bs : ℕ) (g : Fin (nb * bs) → M) : ℕ → M
  | 0 => a₀
  | k + 1 => accFrom a₀ nb bs g k
      + (0 + ∑ q : Fin bs, if h : k < nb then g ⟨k * bs + q.val, blk_lt h q.isLt⟩ else 0)

/-- After k steps the accumulator holds a₀ plus the first k block sums. -/
theorem accFrom_eq (a₀ : M) (nb bs : ℕ) (g : Fin (nb * bs) → M) (k : ℕ) :
    accFrom a₀ nb bs g k
      = a₀ + ∑ j ∈ range k, (∑ q : Fin bs, if h : j < nb then g ⟨j * bs + q.val, blk_lt h q.isLt⟩ else 0) := by
  induction k with
  | zero => rw [Finset.range_zero, Finset.sum_empty, add_zero]; rfl
  | succ k ih => rw [accFrom, ih, Finset.sum_range_succ, zero_add, add_assoc]

/-- After all nb steps the accumulator holds a₀ plus the whole sum. -/
theorem accFrom_all (a₀ : M) (nb bs : ℕ) (g : Fin (nb * bs) → M) :
    accFrom a₀ nb bs g nb = a₀ + ∑ i, g i := by
  rw [accFrom_eq, sum_blocks]

/-- The accumulator started at zero. -/
def acc (nb bs : ℕ) (g : Fin (nb * bs) → M) : ℕ → M := accFrom 0 nb bs g

/-- It starts at zero. -/
theorem acc_zero (nb bs : ℕ) (g : Fin (nb * bs) → M) : acc nb bs g 0 = 0 := rfl

/-- Step k adds (0 + the sum of block k). -/
theorem acc_succ (nb bs : ℕ) (g : Fin (nb * bs) → M) (k : ℕ) :
    acc nb bs g (k + 1) = acc nb bs g k
      + (0 + ∑ q : Fin bs, if h : k < nb then g ⟨k * bs + q.val, blk_lt h q.isLt⟩ else 0) := rfl

/-- After all nb steps the accumulator started at zero holds the whole sum. -/
theorem acc_all (nb bs : ℕ) (g : Fin (nb * bs) → M) : acc nb bs g nb = ∑ i, g i := by
  rw [acc, accFrom_all, zero_add]

/-- Any sequence that obeys the accumulation rule for the steps k < nb ends at its start value plus the whole sum. -/
theorem seq_all (nb bs : ℕ) (g : Fin (nb * bs) → M) (a : ℕ → M)
    (hs : ∀ k (hk : k < nb), a (k + 1) = a k + (0 + ∑ q : Fin bs, g ⟨k * bs + q.val, blk_lt hk q.isLt⟩)) :
    a nb = a 0 + ∑ i, g i := by
  have key : ∀ k, k ≤ nb → a k = accFrom (a 0) nb bs g k := by
    intro k
    induction k with
    | zero => intro _; rfl
    | succ k ih =>
      intro hk
      have hk' : k < nb := hk
      rw [hs k hk', ih hk'.le, accFrom]
      refine congrArg (fun t => accFrom (a 0) nb bs g k + (0 + t)) ?_
      exact Finset.sum_congr rfl fun q _ => by rw [dif_pos hk']
  rw [key nb le_rfl, accFrom_all]

/-! ### Ten blocks of 1024 over Fin 10240 -/

/-- The ten block sums of a function on Fin 10240 add up to its whole sum. -/
theorem sum_blocks_10240 (g : Fin 10240 → M) :
    ∑ k ∈ range 10, (∑ q : Fin 1024, if h : k < 10 then g ⟨1024 * k + q.val, by omega⟩ else 0) = ∑ i, g i := by
  have hb : ∑ i ∈ range 10240, ext 10240 g i
      = ∑ k ∈ range 10, ∑ q ∈ range 1024, ext 10240 g (k * 1024 + q) := sum_range_blocks 1024 (ext 10240 g) 10
  rw [sum_eq_range_ext 10240 g, hb]
  refine Finset.sum_congr rfl fun k hk => ?_
  have hk' : k < 10 := Finset.mem_range.mp hk
  rw [Finset.sum_range]
  refine Finset.sum_congr rfl fun q _ => ?_
  have hlt : k * 1024 + q.val < 10240 := by omega
  rw [dif_pos hk', ext_of_lt g hlt]
  exact congrArg g (Fin.ext (by show 1024 * k + q.val = k * 1024 + q.val; omega))

/-- The same with both sums over Fin: Σ_{k < 10} Σ_{q < 1024} g(1024 k + q) = Σ_i g(i). -/
theorem sum_blocks_fin_10240 (g : Fin 10240 → M) :
    ∑ k : Fin 10, ∑ q : Fin 1024, g ⟨1024 * k.val + q.val, by omega⟩ = ∑ i, g i := by
  rw [← sum_blocks_10240 g, Finset.sum_range]
  refine Finset.sum_congr rfl fun k _ => ?_
  refine Finset.sum_congr rfl fun q _ => ?_
  rw [dif_pos k.isLt]

/-- The accumulator over ten blocks of 1024: it starts at a₀ and step k adds (0 + the sum of block k). -/
def accFrom10 (a₀ : M) (g : Fin 10240 → M) : ℕ → M
  | 0 => a₀
  | k + 1 => accFrom10 a₀ g k
      + (0 + ∑ q : Fin 1024, if h : k < 10 then g ⟨1024 * k + q.val, by omega⟩ else 0)

/-- After k steps the accumulator holds a₀ plus the first k block sums. -/
theorem accFrom10_eq (a₀ : M) (g : Fin 10240 → M) (k : ℕ) :
    accFrom10 a₀ g k
      = a₀ + ∑ j ∈ range k, (∑ q : Fin 1024, if h : j < 10 then g ⟨1024 * j + q.val, by omega⟩ else 0) := by
  induction k with
  | zero => rw [Finset.range_zero, Finset.sum_empty, add_zero]; rfl
  | succ k ih => rw [accFrom10, ih, Finset.sum_range_succ, zero_add, add_assoc]

/-- After all ten steps the accumulator holds a₀ plus the whole sum. -/
theorem accFrom10_all (a₀ : M) (g : Fin 10240 → M) : accFrom10 a₀ g 10 = a₀ + ∑ i, g i := by
  rw [accFrom10_eq, sum_blocks_10240]

/-- Started at zero, after all ten steps the accumulator holds the whole sum. -/
theorem acc10_all (g : Fin 10240 → M) : accFrom10 0 g 10 = ∑ i, g i := by
  rw [accFrom10_all, zero_add]

/-- Any sequence that obeys the accumulation rule for the steps k < 10 ends at its start value plus the whole sum. -/
theorem seq10_all (g : Fin 10240 → M) (a : ℕ → M)
    (hs : ∀ k (hk : k < 10), a (k + 1) = a k + (0 + ∑ q : Fin 1024, g ⟨1024 * k + q.val, by omega⟩)) :
    a 10 = a 0 + ∑ i, g i := by
  have key : ∀ k, k ≤ 10 → a k = accFrom10 (a 0) g k := by
    intro k
    induction k with
    | zero => intro _; rfl
    | succ k ih =>
      intro hk
      have hk' : k < 10 := hk
      rw [hs k hk', ih hk'.le, accFrom10]
      refine congrArg (fun t => accFrom10 (a 0) g k + (0 + t)) ?_
      exact Finset.sum_congr rfl fun q _ => by rw [dif_pos hk']
  rw [key 10 le_rfl, accFrom10_all]

end Cert.BlockSum
-- ==== Proof.Math.BlockSum25.lean ====
/-
  A sum over 50000 rows taken in 25 blocks of 2000.

  Row p = 2000 · t + r lies in block t at place r. The 25 block sums add up to the whole sum, and an accumulation that
  starts anywhere and at step t adds (0 + the sum of block t) ends, after 25 steps, at its start plus the whole sum.
  Stated in any commutative additive monoid (the extended reals are one: their addition is associative and
  commutative on all of them, infinities included), once for a function of the row as a natural number and once
  for a function on Fin 50000.
-/
import proofs.«132438_j6098853560655_1_alg».proof.Proof.LibBlockSum

namespace Cert.Spec

open Finset Cert.BlockSum

variable {M : Type*} [AddCommMonoid M]

/-- The whole sum of a sequence's first 50000 terms is the sum of its 25 block sums. -/
theorem sum_blocks_nat_50000 (G : ℕ → M) :
    ∑ t ∈ range 25, ∑ r : Fin 2000, G (2000 * t + r.val) = ∑ i : Fin 50000, G i.val := by
  have hb : ∑ i ∈ range 50000, G i = ∑ t ∈ range 25, ∑ r ∈ range 2000, G (t * 2000 + r) :=
    sum_range_blocks 2000 G 25
  rw [Finset.sum_range (fun i => G i)] at hb
  rw [hb]
  refine Finset.sum_congr rfl fun t _ => ?_
  rw [Finset.sum_range (fun r => G (t * 2000 + r))]
  refine Finset.sum_congr rfl fun r _ => ?_
  rw [Nat.mul_comm t 2000]

/-- An accumulation over the 25 blocks of a sequence ends at its start plus the whole sum. -/
theorem seq25_all_nat (G : ℕ → M) (a : ℕ → M)
    (hs : ∀ t, t < 25 → a (t + 1) = a t + (0 + ∑ r : Fin 2000, G (2000 * t + r.val))) :
    a 25 = a 0 + ∑ i : Fin 50000, G i.val := by
  have key : ∀ t, t ≤ 25 → a t = a 0 + ∑ j ∈ range t, ∑ r : Fin 2000, G (2000 * j + r.val) := by
    intro t
    induction t with
    | zero => intro _; rw [Finset.range_zero, Finset.sum_empty, add_zero]
    | succ t ih =>
      intro ht
      have ht' : t < 25 := ht
      rw [hs t ht', ih ht'.le, Finset.sum_range_succ, zero_add, add_assoc]
  rw [key 25 le_rfl, sum_blocks_nat_50000]

/-- Started at zero it ends at the whole sum, written with the zero in front as a column sum is. -/
theorem seq25_zero_nat (G : ℕ → M) (a : ℕ → M) (h0 : a 0 = 0)
    (hs : ∀ t, t < 25 → a (t + 1) = a t + (0 + ∑ r : Fin 2000, G (2000 * t + r.val))) :
    a 25 = 0 + ∑ i : Fin 50000, G i.val := by
  rw [seq25_all_nat G a hs, h0]

/-- The same for a function on Fin 50000, the row of place r in block t spelt 2000 · t + r. -/
theorem seq25_all (g : Fin 50000 → M) (a : ℕ → M)
    (hs : ∀ t (ht : t < 25), a (t + 1) = a t + (0 + ∑ r : Fin 2000, g ⟨2000 * t + r.val, by omega⟩)) :
    a 25 = a 0 + ∑ i, g i := by
  have h := seq25_all_nat (fun i => if h : i < 50000 then g ⟨i, h⟩ else 0) a (fun t ht => by
    rw [hs t ht]
    refine congrArg (fun s => a t + (0 + s)) (Finset.sum_congr rfl fun r _ => ?_)
    have hlt : 2000 * t + r.val < 50000 := by omega
    rw [dif_pos hlt])
  rw [h]
  refine congrArg (fun s => a 0 + s) (Finset.sum_congr rfl fun i _ => ?_)
  rw [dif_pos i.isLt]

/-- Started at zero: the 25-step accumulation is 0 + the whole sum. -/
theorem seq25_zero (g : Fin 50000 → M) (a : ℕ → M) (h0 : a 0 = 0)
    (hs : ∀ t (ht : t < 25), a (t + 1) = a t + (0 + ∑ r : Fin 2000, g ⟨2000 * t + r.val, by omega⟩)) :
    a 25 = 0 + ∑ i, g i := by
  rw [seq25_all g a hs, h0]

/-- The 25 block sums of a function on Fin 50000 add up to its whole sum. -/
theorem sum_blocks_fin_50000 (g : Fin 50000 → M) :
    ∑ t : Fin 25, ∑ r : Fin 2000, g ⟨2000 * t.val + r.val, by omega⟩ = ∑ i, g i := by
  have h := sum_blocks_nat_50000 (fun i => if h : i < 50000 then g ⟨i, h⟩ else 0)
  rw [Finset.sum_range (fun t => ∑ r : Fin 2000, (fun i => if h : i < 50000 then g ⟨i, h⟩ else 0) (2000 * t + r.val))] at h
  refine Eq.trans ?_ (h.trans (Finset.sum_congr rfl fun i _ => dif_pos i.isLt))
  refine Finset.sum_congr rfl fun t _ => Finset.sum_congr rfl fun r _ => ?_
  have hlt : 2000 * t.val + r.val < 50000 := by omega
  show g ⟨2000 * t.val + r.val, _⟩
    = if h : 2000 * t.val + r.val < 50000 then g ⟨2000 * t.val + r.val, h⟩ else 0
  rw [dif_pos hlt]

end Cert.Spec
-- ==== Proof.KI.R1V.lean ====
import proofs.«132438_j6098853560655_1_alg».proof.Proof.KI.R1
import proofs.«132438_j6098853560655_1_alg».proof.Proof.KI.At2
import proofs.«132438_j6098853560655_1_alg».proof.Proof.Math.BlockSum25
import proofs.«132438_j6098853560655_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! # Region 1 at the extended reals: its three outputs, entry by entry -/

/-- The product of a 2000 × 256 block by the 256 × 512 matrix into a zero accumulator, at an entry. -/
theorem k1_matmul_at (a : FVec Ideal S2000x256 .bf16) (b : FVec Ideal S256x512 .bf16) (r : Fin 2000) (q : Fin 512) :
    matmul (F := Ideal) dot_S2000x256_S256x512_S2000x512_1_0_0_1_n_n none a b (constant (F := Ideal) S2000x512 .f32 0x00000000#32) (ix2 r q)
      = ∑ k : Fin 256, at2 a r k * at2 b k q := by
  simp only [matmul, at2_def]
  rw [Ideal.matmul_constant_zero_apply,
    ← Equiv.sum_comp (contrEquiv1 dot_S2000x256_S256x512_S2000x512_1_0_0_1_n_n 256 rfl rfl).symm]
  refine Finset.sum_congr rfl fun k _ => ?_
  have c2 := contrEquiv1_symm_val dot_S2000x256_S256x512_S2000x512_1_0_0_1_n_n 256 rfl rfl k
  have l2 : dot_S2000x256_S256x512_S2000x512_1_0_0_1_n_n.lhsIdx (ix2 r q) ((contrEquiv1 _ 256 rfl rfl).symm k) = ix2 r k := by
    funext ax; apply Fin.ext
    match ax with
    | ⟨0, _⟩ => simp [DotDims.lhsIdx, dot_S2000x256_S256x512_S2000x512_1_0_0_1_n_n]; rfl
    | ⟨1, _⟩ => simp [DotDims.lhsIdx, dot_S2000x256_S256x512_S2000x512_1_0_0_1_n_n]; exact c2
  have r2 : dot_S2000x256_S256x512_S2000x512_1_0_0_1_n_n.rhsIdx (ix2 r q) ((contrEquiv1 _ 256 rfl rfl).symm k) = ix2 k q := by
    funext ax; apply Fin.ext
    match ax with
    | ⟨0, _⟩ => simp [DotDims.rhsIdx, dot_S2000x256_S256x512_S2000x512_1_0_0_1_n_n]; exact c2
    | ⟨1, _⟩ => simp [DotDims.rhsIdx, dot_S2000x256_S256x512_S2000x512_1_0_0_1_n_n]; rfl
  rw [l2, r2]

/-- A bias row spread over the 2000 rows, at an entry: the row's entry in that column. -/
theorem k1_bcast_at (v : FVec Ideal S1x512 .f32) (r : Fin 2000) (q : Fin 512) :
    broadcastTo S2000x512 v broadcasts_S1x512_S2000x512 (ix2 r q) = at2 v 0 q :=
  broadcastTo_apply v _ (ix2 r q) (ix2 0 q) fun a => by
    match a with
    | ⟨0, _⟩ => rfl
    | ⟨1, _⟩ => rfl

/-- The column sums of a 2000 × 512 block, at a column. -/
theorem k1_colsum_at (src : FVec Ideal S2000x512 .f32) (q : Fin 512) :
    multiReduction (F := Ideal) .add [0] S512 src 0x00000000#32 reduces_S2000x512_S512 (.inl rfl) rfl (ix1 q)
      = ∑ r : Fin 2000, at2 src r q := by
  refine (Ideal.multiReduction_add_single src 0x00000000#32 reduces_S2000x512_S512 (.inl rfl) rfl (ix1 q)).trans ?_
  refine Finset.sum_congr rfl fun r _ => ?_
  show src _ = src (ix2 r q)
  refine congrArg src (funext fun a => Fin.ext ?_)
  match a with
  | ⟨0, _⟩ => rfl
  | ⟨1, _⟩ => rfl

/-- A row of 512 viewed as a 1 × 512 matrix, at an entry. -/
theorem k1_row_at (v : FVec Ideal S512 .f32) (q : Fin 512) :
    shapeCast S1x512 v shapeCasts_S512_S1x512 (ix2 0 q) = v (ix1 q) :=
  shapeCast_apply v _ (ix2 0 q) (ix1 q) (by
    rw [Shape.rowMajor_val_one, Shape.rowMajor_val_two]; show q.val = 0 * 512 + q.val; omega)

/-- The affine image of a block at an entry: the product row by column from a zero accumulator, then the bias. -/
theorem k1_pay3_at (x0 x1 : Vec Ideal S2000x256 .f32) (x2 : Vec Ideal S256x512 .f32) (x3 : Vec Ideal S1x512 .f32)
    (r : Fin 2000) (q : Fin 512) :
    at2 (k1_pay3 (F := Ideal) x0 x1 x2 x3) r q
      = (0 + ∑ k : Fin 256, (at2 x0 r k + at2 x1 r k) * at2 x2 k q) + at2 x3 0 q := by
  unfold k1_pay3
  rw [at2_def]
  refine (addf_apply _ _ (ix2 r q)).trans ?_
  refine congrArg₂ (· + ·) ?_ ?_
  · refine (k1_matmul_at _ _ r q).trans ?_
    rw [zero_add]
    refine Finset.sum_congr rfl fun k _ => ?_
    simp only [at2_def, shapeCast_self]
    rfl
  · refine (k1_bcast_at _ r q).trans ?_
    simp only [at2_def, shapeCast_self]

/-- The running column sums after a block: what they were plus the block's column sums. -/
theorem k1_pay4_at (x0 x1 : Vec Ideal S2000x256 .f32) (x2 : Vec Ideal S256x512 .f32) (x3 : Vec Ideal S1x512 .f32)
    (a : Vec Ideal S1x512 .f32) (q : Fin 512) :
    at2 (k1_pay4 (F := Ideal) x0 x1 x2 x3 a) 0 q
      = at2 a 0 q + (0 + ∑ r : Fin 2000, at2 (k1_pay3 (F := Ideal) x0 x1 x2 x3) r q) := by
  unfold k1_pay4
  rw [at2_def]
  simp only [shapeCast_self]
  refine (addf_apply _ _ (ix2 0 q)).trans ?_
  refine congrArg₂ (· + ·) rfl ?_
  refine (k1_row_at _ q).trans ?_
  refine (k1_colsum_at _ q).trans ?_
  exact (zero_add _).symm

/-- The running column sums of squares after a block. -/
theorem k1_pay5_at (x0 x1 : Vec Ideal S2000x256 .f32) (x2 : Vec Ideal S256x512 .f32) (x3 : Vec Ideal S1x512 .f32)
    (a : Vec Ideal S1x512 .f32) (q : Fin 512) :
    at2 (k1_pay5 (F := Ideal) x0 x1 x2 x3 a) 0 q
      = at2 a 0 q + (0 + ∑ r : Fin 2000, at2 (k1_pay3 (F := Ideal) x0 x1 x2 x3) r q * at2 (k1_pay3 (F := Ideal) x0 x1 x2 x3) r q) := by
  unfold k1_pay5
  rw [at2_def]
  simp only [shapeCast_self]
  refine (addf_apply _ _ (ix2 0 q)).trans ?_
  refine congrArg₂ (· + ·) rfl ?_
  refine (k1_row_at _ q).trans ?_
  refine (k1_colsum_at _ q).trans ?_
  refine (zero_add _).symm.trans ?_
  rfl

/-- The running rows start at zero. -/
theorem k1_pay1_at (q : Fin 512) : at2 (k1_pay1 (F := Ideal)) 0 q = 0 := by
  unfold k1_pay1
  rw [at2_def]
  simp only [shapeCast_self, broadcast_apply]
  exact Ideal.ofBits_zero_f32
theorem k1_pay2_at (q : Fin 512) : at2 (k1_pay2 (F := Ideal)) 0 q = 0 := by
  unfold k1_pay2
  rw [at2_def]
  simp only [shapeCast_self, broadcast_apply]
  exact Ideal.ofBits_zero_f32

variable (V : (c : Dev nD) → (b : Ref sig .tc) → Buf (Elt Ideal) ((c : Thread nD τ).loc b))

/-! ## The windows' blocks as entries of the arrays the region finds -/

/-- The printed index maps, decided over the grid: the row blocks move with the point, the others stay. -/
theorem k1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `r` of block `t` is row `2000 t + r` of the array. -/
theorem k1_row_lt (t : Fin cfg1.N) (r : Fin 2000) : 2000 * t.val + r.val < 50000 := by
  have hN : t.val < 25 := lt_of_lt_of_eq t.isLt N_1
  have := r.isLt
  omega

theorem k1_blk0_at (c : Dev nD) (t : Fin cfg1.N) (r : Fin 2000) (k : Fin 256) :
    at2 (n0 := 2000) (n1 := 256) (iblk1 V c 0 t) r k = at2 (n0 := 50000) (n1 := 256) (V c main_v7) ⟨2000 * t.val + r.val, k1_row_lt t r⟩ k := by
  rw [at2_def, at2_def]
  show V c main_v7 (((cfg1.win 0).blk t).view.emb (ix2 r k)) = V c main_v7 (ix2 _ k)
  refine congrArg (V c main_v7) (funext fun a => Fin.ext ?_)
  obtain ⟨e0, e1, -⟩ := k1_idx t
  match a with
  | ⟨0, _⟩ => show win1_0.index t (0 : Fin 2) * 2000 + 1 * r.val = 2000 * t.val + r.val; omega
  | ⟨1, _⟩ => show win1_0.index t (1 : Fin 2) * 256 + 1 * k.val = k.val; omega

theorem k1_blk1_at (c : Dev nD) (t : Fin cfg1.N) (r : Fin 2000) (k : Fin 256) :
    at2 (n0 := 2000) (n1 := 256) (iblk1 V c 1 t) r k = at2 (n0 := 50000) (n1 := 256) (V c main_v17) ⟨2000 * t.val + r.val, k1_row_lt t r⟩ k := by
  rw [at2_def, at2_def]
  show V c main_v17 (((cfg1.win 1).blk t).view.emb (ix2 r k)) = V c main_v17 (ix2 _ k)
  refine congrArg (V c main_v17) (funext fun a => Fin.ext ?_)
  obtain ⟨-, -, e0, e1, -⟩ := k1_idx t
  match a with
  | ⟨0, _⟩ => show win1_1.index t (0 : Fin 2) * 2000 + 1 * r.val = 2000 * t.val + r.val; omega
  | ⟨1, _⟩ => show win1_1.index t (1 : Fin 2) * 256 + 1 * k.val = k.val; omega

theorem k1_blk2_at (c : Dev nD) (t : Fin cfg1.N) (k : Fin 256) (q : Fin 512) :
    at2 (n0 := 256) (n1 := 512) (iblk1 V c 2 t) k q = at2 (n0 := 256) (n1 := 512) (V c main_v19) k q := by
  rw [at2_def, at2_def]
  show V c main_v19 (((cfg1.win 2).blk t).view.emb (ix2 k q)) = V c main_v19 (ix2 k q)
  refine congrArg (V c main_v19) (funext fun a => Fin.ext ?_)
  obtain ⟨-, -, -, -, e0, e1, -⟩ := k1_idx t
  match a with
  | ⟨0, _⟩ => show win1_2.index t (0 : Fin 2) * 256 + 1 * k.val = k.val; omega
  | ⟨1, _⟩ => show win1_2.index t (1 : Fin 2) * 512 + 1 * q.val = q.val; omega

theorem k1_blk3_at (c : Dev nD) (t : Fin cfg1.N) (q : Fin 512) :
    at2 (n0 := 1) (n1 := 512) (iblk1 V c 3 t) 0 q = at2 (n0 := 1) (n1 := 512) (V c main_v22) 0 q := by
  rw [at2_def, at2_def]
  show V c main_v22 (((cfg1.win 3).blk t).view.emb (ix2 0 q)) = V c main_v22 (ix2 0 q)
  refine congrArg (V c main_v22) (funext fun a => Fin.ext ?_)
  obtain ⟨-, -, -, -, -, -, e0, e1, -⟩ := k1_idx t
  match a with
  | ⟨0, _⟩ => show win1_3.index t (0 : Fin 2) * 1 + 1 * 0 = 0; omega
  | ⟨1, _⟩ => show win1_3.index t (1 : Fin 2) * 512 + 1 * q.val = q.val; omega

/-! ## The first output: the affine image, entry by entry -/

/-- Entry `(p, q)` of the affine image of the arrays the region finds. -/
def k1_h1 (c : Dev nD) (p : Fin 50000) (q : Fin 512) : EReal :=
  (0 + ∑ k : Fin 256, (at2 (n0 := 50000) (n1 := 256) (V c main_v7) p k + at2 (n0 := 50000) (n1 := 256) (V c main_v17) p k)
      * at2 (n0 := 256) (n1 := 512) (V c main_v19) k q) + at2 (n0 := 1) (n1 := 512) (V c main_v22) 0 q

/-- What the body stores into the first output at point `t`, at an entry: that entry of the affine image. -/
theorem k1_pay3_blk (c : Dev nD) (t : Fin cfg1.N) (r : Fin 2000) (q : Fin 512) :
    at2 (k1_pay3 (F := Ideal) (iblk1 V c 0 t) (iblk1 V c 1 t) (iblk1 V c 2 t) (iblk1 V c 3 t)) r q
      = k1_h1 V c ⟨2000 * t.val + r.val, k1_row_lt t r⟩ q := by
  refine (k1_pay3_at (iblk1 V c 0 t) (iblk1 V c 1 t) (iblk1 V c 2 t) (iblk1 V c 3 t) r q).trans ?_
  unfold k1_h1
  refine congrArg₂ (· + ·) (congrArg (0 + ·) (Finset.sum_congr rfl fun k _ => ?_)) (k1_blk3_at V c t q)
  exact congrArg₂ (· * ·) (congrArg₂ (· + ·) (k1_blk0_at V c t r k) (k1_blk1_at V c t r k)) (k1_blk2_at V c t k q)

/-- The affine image as the contents of the first output's array. -/
def k1_G4 (c : Dev nD) : S50000x512.Idx → EReal := fun i => k1_h1 V c (i 0) (i 1)

/-- Entry `(r, q)` of block `t` of the first output's array is entry `(2000 t + r, q)`. -/
theorem k1_emb4 (t : Fin cfg1.N) (r : Fin 2000) (q : Fin 512) :
    ((cfg1.win 4).blk t).view.emb (ix2 r q) = ix2 (n0 := 50000) (n1 := 512) ⟨2000 * t.val + r.val, k1_row_lt t r⟩ q := by
  funext a; apply Fin.ext
  obtain ⟨-, -, -, -, -, -, -, -, e0, e1, -⟩ := k1_idx t
  match a with
  | ⟨0, _⟩ => show win1_4.index t (0 : Fin 2) * 2000 + 1 * r.val = 2000 * t.val + r.val; omega
  | ⟨1, _⟩ => show win1_4.index t (1 : Fin 2) * 512 + 1 * q.val = q.val; omega

/-- What point `t` writes back to the first output is block `t` of the affine image. -/
theorem k1_flushed4 (c : Dev nD) (t : Fin cfg1.N) :
    (dat1 (F := Ideal) V c).flushed 4 t = ((cfg1.win 4).blk t).view.read (Elt Ideal) (k1_G4 V c) := by
  show (cfg1.win 4).cut (grid1.coords t) ((dat1 (F := Ideal) V c).after 4 t) = _
  rw [after1_4]
  funext j
  obtain ⟨r, q, rfl⟩ : ∃ (r : Fin 2000) (q : Fin 512), j = ix2 r q := ⟨j 0, j 1, eq_ix2 j⟩
  show at2 (k1_pay3 (F := Ideal) (iblk1 V c 0 t) (iblk1 V c 1 t) (iblk1 V c 2 t) (iblk1 V c 3 t)) r q
    = k1_G4 V c (((cfg1.win 4).blk t).view.emb (ix2 r q))
  rw [k1_emb4]
  exact k1_pay3_blk V c t r q

/-- An entry of the first output's array lies in point `t`'s block iff its coordinates lie in the block's ranges. -/
theorem k1_mem_blk4 (t : Fin cfg1.N) (i : S50000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v23_0).slice (win1_4.rect t)).set ↔ _
  rw [View.set_slice_whole, Rect.mem_set_unit]
  exact Iff.rfl

/-- Every entry lies in the block of the point its row falls in. -/
theorem k1_cover4 (i : S50000x512.Idx) :
    ∃ t : Fin cfg1.N, (cfg1.win 4).flush t = true ∧ i ∈ ((cfg1.win 4).blk t).view.set := by
  have hi0 : (i 0).val < 50000 := (i 0).isLt
  have hi1 : (i 1).val < 512 := (i 1).isLt
  have hN : cfg1.N = 25 := N_1
  refine ⟨⟨(i 0).val / 2000, by rw [hN]; omega⟩, flush1_4 _, ?_⟩
  rw [k1_mem_blk4]
  obtain ⟨-, -, -, -, -, -, -, -, e0, e1, -⟩ := k1_idx ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 512 ≤ (i 1).val ∧ (i 1).val < win1_4.index _ (1 : Fin 2) * 512 + 512
    rw [e1]; omega

/-- After the region the first output's array holds the affine image. -/
theorem k1_final4 (c : Dev nD) : (dat1 (F := Ideal) V c).arrAt 4 cfg1.N = k1_G4 V c :=
  (dat1 (F := Ideal) V c).arrAt_eq_of_cover 4 (k1_G4 V c) (fun t _ => k1_flushed4 V c t) k1_cover4

/-- THE FIRST OUTPUT, entry by entry: (x + agg) · W from a zero accumulator, then the bias. -/
theorem arrAt1_4 (c : Dev nD) (p : Fin 50000) (q : Fin 512) :
    at2 (n0 := 50000) (n1 := 512) ((dat1 (F := Ideal) V c).arrAt 4 cfg1.N) p q
      = (0 + ∑ k : Fin 256, (at2 (n0 := 50000) (n1 := 256) (V c main_v7) p k + at2 (n0 := 50000) (n1 := 256) (V c main_v17) p k)
          * at2 (n0 := 256) (n1 := 512) (V c main_v19) k q) + at2 (n0 := 1) (n1 := 512) (V c main_v22) 0 q := by
  rw [k1_final4]; rfl

/-! ## The two statistics outputs: the running rows after the last point, as sums over all rows -/

/-- The statistics output 1's one block is its whole array. -/
theorem k1_emb5 (t : Fin cfg1.N) (j : S1x512.Idx) : ((cfg1.win 5).blk t).view.emb j = j := by
  funext a; apply Fin.ext
  obtain ⟨-, -, -, -, -, -, -, -, -, -, e0, e1, -⟩ := k1_idx t
  match a with
  | ⟨0, _⟩ => show win1_5.index t (0 : Fin 2) * 1 + 1 * (j 0).val = (j 0).val; omega
  | ⟨1, _⟩ => show win1_5.index t (1 : Fin 2) * 512 + 1 * (j 1).val = (j 1).val; omega

/-- Its one write-back, at the last point, writes the running row as the last point leaves it. -/
theorem k1_flushed5 (c : Dev nD) (t : Fin cfg1.N) (hf : (cfg1.win 5).flush t = true) :
    (dat1 (F := Ideal) V c).flushed 5 t = ((cfg1.win 5).blk t).view.read (Elt Ideal) ((k1_acc (F := Ideal) V c 24).1) := by
  have h24 : t.val = 24 := by
    have := (flush1_5 t).mp hf
    have hN : t.val < 25 := lt_of_lt_of_eq t.isLt N_1
    omega
  show (cfg1.win 5).cut (grid1.coords t) ((dat1 (F := Ideal) V c).after 5 t) = _
  rw [after1_5, h24]
  funext j
  show (k1_acc (F := Ideal) V c 24).1 j = (k1_acc (F := Ideal) V c 24).1 (((cfg1.win 5).blk t).view.emb j)
  rw [k1_emb5]

theorem k1_mem_blk5 (t : Fin cfg1.N) (i : S1x512.Idx) :
    i ∈ ((cfg1.win 5).blk t).view.set ↔ ∀ a : Fin 2, win1_5.index t a * S1x512.size a ≤ (i a).val ∧ (i a).val < win1_5.index t a * S1x512.size a + S1x512.size a := by
  show i ∈ ((View.whole main_v23_1).slice (win1_5.rect t)).set ↔ _
  rw [View.set_slice_whole, Rect.mem_set_unit]
  exact Iff.rfl

/-- The last point's block covers the array. -/
theorem k1_cover5 (i : S1x512.Idx) :
    ∃ t : Fin cfg1.N, (cfg1.win 5).flush t = true ∧ i ∈ ((cfg1.win 5).blk t).view.set := by
  have hi0 : (i 0).val < 1 := (i 0).isLt
  have hi1 : (i 1).val < 512 := (i 1).isLt
  have hN : cfg1.N = 25 := N_1
  refine ⟨⟨24, by rw [hN]; omega⟩, (flush1_5 _).mpr rfl, ?_⟩
  rw [k1_mem_blk5]
  obtain ⟨-, -, -, -, -, -, -, -, -, -, e0, e1, -⟩ := k1_idx ⟨24, by rw [hN]; omega⟩
  intro a
  match a with
  | ⟨0, _⟩ =>
    show win1_5.index _ (0 : Fin 2) * 1 ≤ (i 0).val ∧ (i 0).val < win1_5.index _ (0 : Fin 2) * 1 + 1
    rw [e0]; omega
  | ⟨1, _⟩ =>
    show win1_5.index _ (1 : Fin 2) * 512 ≤ (i 1).val ∧ (i 1).val < win1_5.index _ (1 : Fin 2) * 512 + 512
    rw [e1]; omega

/-- After the region the array holds the running row after the last point. -/
theorem k1_final5 (c : Dev nD) : (dat1 (F := Ideal) V c).arrAt 5 cfg1.N = (k1_acc (F := Ideal) V c 24).1 :=
  (dat1 (F := Ideal) V c).arrAt_eq_of_cover 5 ((k1_acc (F := Ideal) V c 24).1) (fun t hf => k1_flushed5 V c t hf) k1_cover5

/-- Column `q` of the running row after `n` points; zero before the first. -/
def k1_run5 (c : Dev nD) (q : Fin 512) : ℕ → EReal
  | 0 => 0
  | n + 1 => at2 (n0 := 1) (n1 := 512) (k1_acc (F := Ideal) V c n).1 0 q

/-- One point adds (0 + the block's column sum). -/
theorem k1_run5_step (c : Dev nD) (q : Fin 512) (t : ℕ) (ht : t < 25) :
    k1_run5 V c q (t + 1) = k1_run5 V c q t + (0 + ∑ r : Fin 2000, k1_h1 V c ⟨2000 * t + r.val, by omega⟩ q) := by
  have hN : cfg1.N = 25 := N_1
  cases t with
  | zero =>
    show at2 (n0 := 1) (n1 := 512) (k1_acc (F := Ideal) V c 0).1 0 q = 0 + _
    rw [k1_acc_zero]; unfold k1_step; dsimp only
    refine (k1_pay4_at (iblk1 V c 0 k1_t0) (iblk1 V c 1 k1_t0) (iblk1 V c 2 k1_t0) (iblk1 V c 3 k1_t0) (k1_pay1 (F := Ideal)) q).trans ?_
    refine congrArg₂ (· + ·) (k1_pay1_at q) (congrArg (0 + ·) (Finset.sum_congr rfl fun r _ => ?_))
    exact k1_pay3_blk V c k1_t0 r q
  | succ n =>
    have hn : n + 1 < cfg1.N := by rw [hN]; exact ht
    show at2 (n0 := 1) (n1 := 512) (k1_acc (F := Ideal) V c (n + 1)).1 0 q = at2 (n0 := 1) (n1 := 512) (k1_acc (F := Ideal) V c n).1 0 q + _
    rw [k1_acc_succ V c n hn]; unfold k1_step; dsimp only
    refine (k1_pay4_at (iblk1 V c 0 ⟨n + 1, hn⟩) (iblk1 V c 1 ⟨n + 1, hn⟩) (iblk1 V c 2 ⟨n + 1, hn⟩) (iblk1 V c 3 ⟨n + 1, hn⟩) (k1_acc (F := Ideal) V c n).1 q).trans ?_
    refine congrArg₂ (· + ·) rfl (congrArg (0 + ·) (Finset.sum_congr rfl fun r _ => ?_))
    exact k1_pay3_blk V c ⟨n + 1, hn⟩ r q

/-- THE STATISTICS OUTPUT 1, column by column: the sum of the affine image's column over the 50000 rows, from zero. -/
theorem arrAt1_5 (c : Dev nD) (q : Fin 512) :
    at2 (n0 := 1) (n1 := 512) ((dat1 (F := Ideal) V c).arrAt 5 cfg1.N) 0 q = 0 + ∑ p : Fin 50000, k1_h1 V c p q := by
  rw [k1_final5]
  exact Cert.Spec.seq25_zero (fun p => k1_h1 V c p q) (k1_run5 V c q) rfl (fun t ht => k1_run5_step V c q t ht)

/-- The statistics output 2's one block is its whole array. -/
theorem k1_emb6 (t : Fin cfg1.N) (j : S1x512.Idx) : ((cfg1.win 6).blk t).view.emb j = j := by
  funext a; apply Fin.ext
  obtain ⟨-, -, -, -, -, -, -, -, -, -, -, -, e0, e1⟩ := k1_idx t
  match a with
  | ⟨0, _⟩ => show win1_6.index t (0 : Fin 2) * 1 + 1 * (j 0).val = (j 0).val; omega
  | ⟨1, _⟩ => show win1_6.index t (1 : Fin 2) * 512 + 1 * (j 1).val = (j 1).val; omega

/-- Its one write-back, at the last point, writes the running row as the last point leaves it. -/
theorem k1_flushed6 (c : Dev nD) (t : Fin cfg1.N) (hf : (cfg1.win 6).flush t = true) :
    (dat1 (F := Ideal) V c).flushed 6 t = ((cfg1.win 6).blk t).view.read (Elt Ideal) ((k1_acc (F := Ideal) V c 24).2) := by
  have h24 : t.val = 24 := by
    have := (flush1_6 t).mp hf
    have hN : t.val < 25 := lt_of_lt_of_eq t.isLt N_1
    omega
  show (cfg1.win 6).cut (grid1.coords t) ((dat1 (F := Ideal) V c).after 6 t) = _
  rw [after1_6, h24]
  funext j
  show (k1_acc (F := Ideal) V c 24).2 j = (k1_acc (F := Ideal) V c 24).2 (((cfg1.win 6).blk t).view.emb j)
  rw [k1_emb6]

theorem k1_mem_blk6 (t : Fin cfg1.N) (i : S1x512.Idx) :
    i ∈ ((cfg1.win 6).blk t).view.set ↔ ∀ a : Fin 2, win1_6.index t a * S1x512.size a ≤ (i a).val ∧ (i a).val < win1_6.index t a * S1x512.size a + S1x512.size a := by
  show i ∈ ((View.whole main_v23_2).slice (win1_6.rect t)).set ↔ _
  rw [View.set_slice_whole, Rect.mem_set_unit]
  exact Iff.rfl

/-- The last point's block covers the array. -/
theorem k1_cover6 (i : S1x512.Idx) :
    ∃ t : Fin cfg1.N, (cfg1.win 6).flush t = true ∧ i ∈ ((cfg1.win 6).blk t).view.set := by
  have hi0 : (i 0).val < 1 := (i 0).isLt
  have hi1 : (i 1).val < 512 := (i 1).isLt
  have hN : cfg1.N = 25 := N_1
  refine ⟨⟨24, by rw [hN]; omega⟩, (flush1_6 _).mpr rfl, ?_⟩
  rw [k1_mem_blk6]
  obtain ⟨-, -, -, -, -, -, -, -, -, -, -, -, e0, e1⟩ := k1_idx ⟨24, by rw [hN]; omega⟩
  intro a
  match a with
  | ⟨0, _⟩ =>
    show win1_6.index _ (0 : Fin 2) * 1 ≤ (i 0).val ∧ (i 0).val < win1_6.index _ (0 : Fin 2) * 1 + 1
    rw [e0]; omega
  | ⟨1, _⟩ =>
    show win1_6.index _ (1 : Fin 2) * 512 ≤ (i 1).val ∧ (i 1).val < win1_6.index _ (1 : Fin 2) * 512 + 512
    rw [e1]; omega

/-- After the region the array holds the running row after the last point. -/
theorem k1_final6 (c : Dev nD) : (dat1 (F := Ideal) V c).arrAt 6 cfg1.N = (k1_acc (F := Ideal) V c 24).2 :=
  (dat1 (F := Ideal) V c).arrAt_eq_of_cover 6 ((k1_acc (F := Ideal) V c 24).2) (fun t hf => k1_flushed6 V c t hf) k1_cover6

/-- Column `q` of the running row after `n` points; zero before the first. -/
def k1_run6 (c : Dev nD) (q : Fin 512) : ℕ → EReal
  | 0 => 0
  | n + 1 => at2 (n0 := 1) (n1 := 512) (k1_acc (F := Ideal) V c n).2 0 q

/-- One point adds (0 + the block's column sum). -/
theorem k1_run6_step (c : Dev nD) (q : Fin 512) (t : ℕ) (ht : t < 25) :
    k1_run6 V c q (t + 1) = k1_run6 V c q t + (0 + ∑ r : Fin 2000, k1_h1 V c ⟨2000 * t + r.val, by omega⟩ q * k1_h1 V c ⟨2000 * t + r.val, by omega⟩ q) := by
  have hN : cfg1.N = 25 := N_1
  cases t with
  | zero =>
    show at2 (n0 := 1) (n1 := 512) (k1_acc (F := Ideal) V c 0).2 0 q = 0 + _
    rw [k1_acc_zero]; unfold k1_step; dsimp only
    refine (k1_pay5_at (iblk1 V c 0 k1_t0) (iblk1 V c 1 k1_t0) (iblk1 V c 2 k1_t0) (iblk1 V c 3 k1_t0) (k1_pay2 (F := Ideal)) q).trans ?_
    refine congrArg₂ (· + ·) (k1_pay2_at q) (congrArg (0 + ·) (Finset.sum_congr rfl fun r _ => ?_))
    exact congrArg₂ (· * ·) (k1_pay3_blk V c k1_t0 r q) (k1_pay3_blk V c k1_t0 r q)
  | succ n =>
    have hn : n + 1 < cfg1.N := by rw [hN]; exact ht
    show at2 (n0 := 1) (n1 := 512) (k1_acc (F := Ideal) V c (n + 1)).2 0 q = at2 (n0 := 1) (n1 := 512) (k1_acc (F := Ideal) V c n).2 0 q + _
    rw [k1_acc_succ V c n hn]; unfold k1_step; dsimp only
    refine (k1_pay5_at (iblk1 V c 0 ⟨n + 1, hn⟩) (iblk1 V c 1 ⟨n + 1, hn⟩) (iblk1 V c 2 ⟨n + 1, hn⟩) (iblk1 V c 3 ⟨n + 1, hn⟩) (k1_acc (F := Ideal) V c n).2 q).trans ?_
    refine congrArg₂ (· + ·) rfl (congrArg (0 + ·) (Finset.sum_congr rfl fun r _ => ?_))
    exact congrArg₂ (· * ·) (k1_pay3_blk V c ⟨n + 1, hn⟩ r q) (k1_pay3_blk V c ⟨n + 1, hn⟩ r q)

/-- THE STATISTICS OUTPUT 2, column by column: the sum of the squares of the affine image's column over the 50000 rows, from zero. -/
theorem arrAt1_6 (c : Dev nD) (q : Fin 512) :
    at2 (n0 := 1) (n1 := 512) ((dat1 (F := Ideal) V c).arrAt 6 cfg1.N) 0 q = 0 + ∑ p : Fin 50000, k1_h1 V c p q * k1_h1 V c p q := by
  rw [k1_final6]
  exact Cert.Spec.seq25_zero (fun p => k1_h1 V c p q * k1_h1 V c p q) (k1_run6 V c q) rfl (fun t ht => k1_run6_step V c q t ht)

/-- The affine image is the specification's linear layer applied to the entrywise sum of the two summands. -/
theorem k1_h1_eq_lin (c : Dev nD) (p : Fin 50000) (q : Fin 512) :
    k1_h1 V c p q = Cert.Spec.lin (Cert.Spec.addM (at2 (n0 := 50000) (n1 := 256) (V c main_v7)) (at2 (n0 := 50000) (n1 := 256) (V c main_v17)))
      (at2 (n0 := 256) (n1 := 512) (V c main_v19)) (at2 (n0 := 1) (n1 := 512) (V c main_v22) 0) p q := rfl

/-- So the two statistics outputs are the specification's column sum and column sum of squares of it. -/
theorem arrAt1_5_spec (c : Dev nD) (q : Fin 512) :
    at2 (n0 := 1) (n1 := 512) ((dat1 (F := Ideal) V c).arrAt 5 cfg1.N) 0 q = Cert.Spec.colsum (k1_h1 V c) q := arrAt1_5 V c q
theorem arrAt1_6_spec (c : Dev nD) (q : Fin 512) :
    at2 (n0 := 1) (n1 := 512) ((dat1 (F := Ideal) V c).arrAt 6 cfg1.N) 0 q = Cert.Spec.colsumsq (k1_h1 V c) q := arrAt1_6 V c q

end Cert.KernelIdeal.HandV

end
-- ==== Proof.LibDot.lean ====
/-
  A plain matrix product read at an index.

  A two-operand contraction whose dimension numbers say "rows of the left operand, columns of the right operand,
  contract the left operand's axis 1 with the right operand's axis 0, no batch axes" is the ordinary matrix
  product: its entry (p, c), accumulated into the zero splat, is the sum over q of left (p, q) times right (q, c).
-/
import Idealize.ShloMosaic.Lib.ValueIdx
import Idealize.ShloMosaic.PureOps.Ideal.Laws

namespace Cert.PlainDot

open Idealize.ShloMosaic Idealize.ShloMosaic.ValueIdx

section Coordinates
variable {m k n : ℕ} (D : DotDims ⟨2, ![m, k]⟩ ⟨2, ![k, n]⟩ ⟨2, ![m, n]⟩)

/-- The contraction shape of such a product has one axis … -/
theorem contr_rank (hlc : D.lhsContracting = [1]) : D.contr.rank = 1 := by
  rw [D.rank_contr, hlc]; rfl

/-- … of the shared extent. -/
theorem contr_size (hlc : D.lhsContracting = [1]) :
    D.contr.size ⟨0, by rw [contr_rank D hlc]; exact Nat.one_pos⟩ = k := by
  have h := D.size_contr 0 (by rw [hlc]; exact Nat.one_pos)
  refine h.trans ?_
  simp only [hlc]
  rfl

/-- Two coordinates of one index at equal positions are equal as numbers. -/
private theorem coord_congr {s : Shape} (i : s.Idx) (p q : ℕ) (hp : p < s.rank) (hq : q < s.rank) (h : p = q) :
    (i ⟨p, hp⟩).val = (i ⟨q, hq⟩).val := by subst h; rfl

/-- The left operand's row coordinate is the result's row coordinate. -/
theorem lhs_row (hln : D.lhsNonContracting = [0]) (hlb : D.lhsBatch = [])
    (i : (⟨2, ![m, n]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The right operand's column coordinate is the result's column coordinate. -/
theorem rhs_col (hln : D.lhsNonContracting = [0]) (hlb : D.lhsBatch = [])
    (hrn : D.rhsNonContracting = [1]) (hrb : D.rhsBatch = [])
    (i : (⟨2, ![m, n]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Coordinates

/-- The matrix product into the zero accumulator, read at (p, c). -/
theorem matmul_zero_apply {m k n : ℕ} {φ₁ φ₂ : FTy} (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (prec : Option ContractPrecision)
    (lhs : FVec Ideal ⟨2, ![m, k]⟩ φ₁) (rhs : FVec Ideal ⟨2, ![k, n]⟩ φ₂) (p : Fin m) (c : Fin n) :
    FloatOps.matmul D prec lhs rhs (constant (F := Ideal) ⟨2, ![m, n]⟩ .f32 0x00000000#32) (ix2 p c)
      = ∑ q : Fin k, lhs (ix2 p q) * rhs (ix2 q c) := by
  rw [Ideal.matmul_constant_zero_apply,
    ← Equiv.sum_comp (contrEquiv1 D k (contr_rank D hlc) (contr_size D hlc)).symm]
  refine Finset.sum_congr rfl fun q _ => ?_
  have hq := contrEquiv1_symm_val D k (contr_rank D hlc) (contr_size D hlc) q
  have el : D.lhsIdx (ix2 p c) ((contrEquiv1 D k (contr_rank D hlc) (contr_size D hlc)).symm q) = ix2 p q :=
    funext fun a => Fin.ext (by
      match a with
      | ⟨0, _⟩ => exact lhs_row D hln hlb _ _
      | ⟨1, _⟩ => exact (D.lhsIdx_val_of_single hlc _ _).trans hq)
  have er : D.rhsIdx (ix2 p c) ((contrEquiv1 D k (contr_rank D hlc) (contr_size D hlc)).symm q) = ix2 q c :=
    funext fun a => Fin.ext (by
      match a with
      | ⟨0, _⟩ => exact (D.rhsIdx_val_of_single hrc _ _).trans hq
      | ⟨1, _⟩ => exact rhs_col D hln hlb hrn hrb _ _)
  rw [el, er]

end Cert.PlainDot
-- ==== Proof.KI.R2V.lean ====
/-
  Region 2 at the extended reals: what its three output arrays hold when the region ends, entry by entry.

  The layer's output at row p and column q is the sum over the 512 hidden columns k of
  max (g k · (h1 p k − mean k) · rsqrt (var k + eps) + beta k) 0 times W2 k q, from a zero accumulator, plus the bias
  b2 q, plus the residual x p q. The two statistics outputs are, column by column, the sum of that output and of
  its square over the 50000 rows: each grid point adds the column sums of its block of 2000 rows to the running
  row, and 25 such steps from zero give the whole sum.
-/
import proofs.«132438_j6098853560655_1_alg».proof.Proof.KI.R2
import proofs.«132438_j6098853560655_1_alg».proof.Proof.KI.At2
import proofs.«132438_j6098853560655_1_alg».proof.Proof.LibDot
import proofs.«132438_j6098853560655_1_alg».proof.Proof.Math.BlockSum25
import Idealize.ShloMosaic.PureOps.Ideal.Laws
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! # Region 2 at the extended reals: its three outputs, entry by entry -/

/-- The product of a 2000 × 512 block by the 512 × 256 matrix into a zero accumulator, at an entry. -/
theorem dat2_matmul_at (a : FVec Ideal S2000x512 .bf16) (b : FVec Ideal S512x256 .bf16) (r : Fin 2000) (q : Fin 256) :
    matmul (F := Ideal) dot_S2000x512_S512x256_S2000x256_1_0_0_1_n_n none a b (constant (F := Ideal) S2000x256 .f32 0x00000000#32) (ix2 r q)
      = ∑ k : Fin 512, at2 a r k * at2 b k q := by
  simp only [matmul, at2_def]
  exact Cert.PlainDot.matmul_zero_apply dot_S2000x512_S512x256_S2000x256_1_0_0_1_n_n rfl rfl rfl rfl rfl rfl none a b r q

/-- A row of 512 spread over the 2000 rows, at an entry: the row's entry in that column. -/
theorem dat2_bcastH_at (v : FVec Ideal S1x512 .f32) (r : Fin 2000) (k : Fin 512) :
    broadcastTo S2000x512 v broadcasts_S1x512_S2000x512 (ix2 r k) = at2 v 0 k :=
  broadcastTo_apply v _ (ix2 r k) (ix2 0 k) fun a => by
    match a with
    | ⟨0, _⟩ => rfl
    | ⟨1, _⟩ => rfl

/-- A row of 256 spread over the 2000 rows, at an entry. -/
theorem dat2_bcastX_at (v : FVec Ideal S1x256 .f32) (r : Fin 2000) (q : Fin 256) :
    broadcastTo S2000x256 v broadcasts_S1x256_S2000x256 (ix2 r q) = at2 v 0 q :=
  broadcastTo_apply v _ (ix2 r q) (ix2 0 q) fun a => by
    match a with
    | ⟨0, _⟩ => rfl
    | ⟨1, _⟩ => rfl

/-- The column sums of a 2000 × 256 block, at a column. -/
theorem dat2_colsum_at (src : FVec Ideal S2000x256 .f32) (q : Fin 256) :
    multiReduction (F := Ideal) .add [0] S256 src 0x00000000#32 reduces_S2000x256_S256 (.inl rfl) rfl (ix1 q)
      = ∑ r : Fin 2000, at2 src r q := by
  refine (Ideal.multiReduction_add_single src 0x00000000#32 reduces_S2000x256_S256 (.inl rfl) rfl (ix1 q)).trans ?_
  refine Finset.sum_congr rfl fun r _ => ?_
  show src _ = src (ix2 r q)
  refine congrArg src (funext fun a => Fin.ext ?_)
  match a with
  | ⟨0, _⟩ => rfl
  | ⟨1, _⟩ => rfl

/-- A row of 256 viewed as a 1 × 256 matrix, at an entry. -/
theorem dat2_row_at (v : FVec Ideal S256 .f32) (q : Fin 256) :
    shapeCast S1x256 v shapeCasts_S256_S1x256 (ix2 0 q) = v (ix1 q) :=
  shapeCast_apply v _ (ix2 0 q) (ix1 q) (by
    rw [Shape.rowMajor_val_one, Shape.rowMajor_val_two]; show q.val = 0 * 256 + q.val; omega)

/-- The reciprocal square root of a row, at an entry. -/
theorem dat2_rsqrt_apply {s : Shape} (v : FVec Ideal s .f32) (i : s.Idx) : rsqrt v i = Ideal.rsqrt (v i) := rfl

/-- The normalised, rectified first layer times the second weights plus the bias, at an entry. -/
theorem dat2_pay6_at (v3 v8 : Vec Ideal S1x512 .f32) (v10 : Vec Ideal S2000x512 .f32) (v12 v20 : Vec Ideal S1x512 .f32)
    (v27 : Vec Ideal S512x256 .f32) (v31 : Vec Ideal S1x256 .f32) (r : Fin 2000) (q : Fin 256) :
    at2 (k2_pay6 (F := Ideal) v3 v8 v10 v12 v20 v27 v31) r q
      = (0 + ∑ k : Fin 512, max (at2 v8 0 k * (at2 v10 r k - at2 v12 0 k) * Ideal.rsqrt (at2 v3 0 k + Ideal.ofBits .f32 0x3727C5AC#32) + at2 v20 0 k) 0 * at2 v27 k q) + at2 v31 0 q := by
  unfold k2_pay6
  rw [at2_def]
  refine (addf_apply _ _ (ix2 r q)).trans ?_
  refine congrArg₂ (· + ·) ?_ ?_
  · refine (dat2_matmul_at _ _ r q).trans ?_
    rw [zero_add]
    refine Finset.sum_congr rfl fun k _ => ?_
    simp only [at2_def, shapeCast_self, truncf_apply, maximumf_apply, addf_apply, mulf_apply, subf_apply, broadcast_apply,
      dat2_bcastH_at, dat2_rsqrt_apply]
    rw [show (Scalar.ofBits .f32 0x00000000#32 : Ideal .f32) = 0 from Ideal.ofBits_zero_f32]
    rfl
  · refine (dat2_bcastX_at _ r q).trans ?_
    simp only [at2_def, shapeCast_self]

/-- The layer's output block at an entry: that plus the residual. -/
theorem dat2_pay1_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (r : Fin 2000) (q : Fin 256) :
    at2 (k2_pay1 (F := Ideal) (k2_pay6 (F := Ideal) x2 x3 x0 x1 x4 x6 x7) (k2_pay7 (F := Ideal) x5)) r q
      = ((0 + ∑ k : Fin 512, max (at2 x3 0 k * (at2 x0 r k - at2 x1 0 k) * Ideal.rsqrt (at2 x2 0 k + Ideal.ofBits .f32 0x3727C5AC#32) + at2 x4 0 k) 0 * at2 x6 k q) + at2 x7 0 q) + at2 x5 r q := by
  unfold k2_pay1
  rw [at2_def]
  refine (addf_apply _ _ (ix2 r q)).trans ?_
  refine congrArg₂ (· + ·) (dat2_pay6_at x2 x3 x0 x1 x4 x6 x7 r q) ?_
  unfold k2_pay7
  simp only [at2_def, shapeCast_self]

/-- The running column sums after a block: what they were plus the block's column sums. -/
theorem dat2_pay2_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (k2_pay2 (F := Ideal) (k2_pay6 (F := Ideal) x2 x3 x0 x1 x4 x6 x7) (k2_pay7 (F := Ideal) x5) a) 0 q
      = at2 a 0 q + (0 + ∑ r : Fin 2000, at2 (k2_pay1 (F := Ideal) (k2_pay6 (F := Ideal) x2 x3 x0 x1 x4 x6 x7) (k2_pay7 (F := Ideal) x5)) r q) := by
  unfold k2_pay2
  rw [at2_def]
  simp only [shapeCast_self]
  refine (addf_apply _ _ (ix2 0 q)).trans ?_
  refine congrArg₂ (· + ·) rfl ?_
  refine (dat2_row_at _ q).trans ?_
  refine (dat2_colsum_at _ q).trans ?_
  exact (zero_add _).symm

/-- The running column sums of squares after a block. -/
theorem dat2_pay3_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (k2_pay3 (F := Ideal) (k2_pay6 (F := Ideal) x2 x3 x0 x1 x4 x6 x7) (k2_pay7 (F := Ideal) x5) a) 0 q
      = at2 a 0 q + (0 + ∑ r : Fin 2000, at2 (k2_pay1 (F := Ideal) (k2_pay6 (F := Ideal) x2 x3 x0 x1 x4 x6 x7) (k2_pay7 (F := Ideal) x5)) r q * at2 (k2_pay1 (F := Ideal) (k2_pay6 (F := Ideal) x2 x3 x0 x1 x4 x6 x7) (k2_pay7 (F := Ideal) x5)) r q) := by
  unfold k2_pay3
  rw [at2_def]
  simp only [shapeCast_self]
  refine (addf_apply _ _ (ix2 0 q)).trans ?_
  refine congrArg₂ (· + ·) rfl ?_
  refine (dat2_row_at _ q).trans ?_
  refine (dat2_colsum_at _ q).trans ?_
  refine (zero_add _).symm.trans ?_
  rfl

/-- The running rows start at zero. -/
theorem dat2_pay4_at (q : Fin 256) : at2 (k2_pay4 (F := Ideal)) 0 q = 0 := by
  unfold k2_pay4
  rw [at2_def]
  simp only [shapeCast_self, broadcast_apply]
  exact Ideal.ofBits_zero_f32
theorem dat2_pay5_at (q : Fin 256) : at2 (k2_pay5 (F := Ideal)) 0 q = 0 := by
  unfold k2_pay5
  rw [at2_def]
  simp only [shapeCast_self, broadcast_apply]
  exact Ideal.ofBits_zero_f32

/-! ## Loads and stores of whole buffers: the contents themselves -/

theorem dat2_zero2 : (![0, 0] : Fin 2 → ℕ) = fun _ => 0 := by
  funext a
  match a with
  | ⟨0, _⟩ => rfl
  | ⟨1, _⟩ => rfl

theorem dat2_o8_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) : dat2_o8 (F := Ideal) x0 x1 x2 x3 x4 x5 x6 x7 = k2_pay1 (F := Ideal) (k2_pay6 (F := Ideal) x2 x3 x0 x1 x4 x6 x7) (k2_pay7 (F := Ideal) x5) := by
  unfold dat2_o8 dat2_v34 dat2_v36
  rw [View.canon_unit_zero dat2_zero2]
  simp only [View.ld_unit_zero (S := S1x512) dat2_zero2, View.ld_unit_zero (S := S2000x512) dat2_zero2, View.ld_unit_zero (S := S512x256) dat2_zero2, View.ld_unit_zero (S := S1x256) dat2_zero2, View.ld_unit_zero (S := S2000x256) dat2_zero2]
theorem dat2_s0_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) : dat2_s0 (F := Ideal) x0 x1 x2 x3 x4 x5 x6 x7 a = k2_pay2 (F := Ideal) (k2_pay6 (F := Ideal) x2 x3 x0 x1 x4 x6 x7) (k2_pay7 (F := Ideal) x5) a := by
  unfold dat2_s0 dat2_v34 dat2_v36
  rw [View.canon_unit_zero dat2_zero2]
  simp only [View.ld_unit_zero (S := S1x512) dat2_zero2, View.ld_unit_zero (S := S2000x512) dat2_zero2, View.ld_unit_zero (S := S512x256) dat2_zero2, View.ld_unit_zero (S := S1x256) dat2_zero2, View.ld_unit_zero (S := S2000x256) dat2_zero2]
theorem dat2_s1_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) : dat2_s1 (F := Ideal) x0 x1 x2 x3 x4 x5 x6 x7 a = k2_pay3 (F := Ideal) (k2_pay6 (F := Ideal) x2 x3 x0 x1 x4 x6 x7) (k2_pay7 (F := Ideal) x5) a := by
  unfold dat2_s1 dat2_v34 dat2_v36
  rw [View.canon_unit_zero dat2_zero2]
  simp only [View.ld_unit_zero (S := S1x512) dat2_zero2, View.ld_unit_zero (S := S2000x512) dat2_zero2, View.ld_unit_zero (S := S512x256) dat2_zero2, View.ld_unit_zero (S := S1x256) dat2_zero2, View.ld_unit_zero (S := S2000x256) dat2_zero2]
theorem dat2_z0_eq : dat2_z0 (F := Ideal) = k2_pay4 (F := Ideal) := by
  unfold dat2_z0; rw [View.canon_unit_zero dat2_zero2]
theorem dat2_z1_eq : dat2_z1 (F := Ideal) = k2_pay5 (F := Ideal) := by
  unfold dat2_z1; rw [View.canon_unit_zero dat2_zero2]
theorem dat2_o9_eq (a : Vec Ideal S1x256 .f32) : dat2_o9 (F := Ideal) a = a := by
  unfold dat2_o9; rw [View.canon_unit_zero dat2_zero2, View.ld_unit_zero (S := S1x256) dat2_zero2]

theorem dat2_z0_at (q : Fin 256) : at2 (dat2_z0 (F := Ideal)) 0 q = 0 := by rw [dat2_z0_eq]; exact dat2_pay4_at q
theorem dat2_z1_at (q : Fin 256) : at2 (dat2_z1 (F := Ideal)) 0 q = 0 := by rw [dat2_z1_eq]; exact dat2_pay5_at q

theorem dat2_o8_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (r : Fin 2000) (q : Fin 256) :
    at2 (dat2_o8 (F := Ideal) x0 x1 x2 x3 x4 x5 x6 x7) r q
      = ((0 + ∑ k : Fin 512, max (at2 x3 0 k * (at2 x0 r k - at2 x1 0 k) * Ideal.rsqrt (at2 x2 0 k + Ideal.ofBits .f32 0x3727C5AC#32) + at2 x4 0 k) 0 * at2 x6 k q) + at2 x7 0 q) + at2 x5 r q := by
  rw [dat2_o8_eq]; exact dat2_pay1_at x0 x1 x2 x3 x4 x5 x6 x7 r q
theorem dat2_s0_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (dat2_s0 (F := Ideal) x0 x1 x2 x3 x4 x5 x6 x7 a) 0 q = at2 a 0 q + (0 + ∑ r : Fin 2000, at2 (dat2_o8 (F := Ideal) x0 x1 x2 x3 x4 x5 x6 x7) r q) := by
  rw [dat2_s0_eq, dat2_o8_eq]; exact dat2_pay2_at x0 x1 x2 x3 x4 x5 x6 x7 a q
theorem dat2_s1_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (dat2_s1 (F := Ideal) x0 x1 x2 x3 x4 x5 x6 x7 a) 0 q = at2 a 0 q + (0 + ∑ r : Fin 2000, at2 (dat2_o8 (F := Ideal) x0 x1 x2 x3 x4 x5 x6 x7) r q * at2 (dat2_o8 (F := Ideal) x0 x1 x2 x3 x4 x5 x6 x7) r q) := by
  rw [dat2_s1_eq, dat2_o8_eq]; exact dat2_pay3_at x0 x1 x2 x3 x4 x5 x6 x7 a q

variable (V : (c : Dev nD) → (b : Ref sig .tc) → Buf (Elt Ideal) ((c : Thread nD τ).loc b))

/-! ## The windows' blocks as entries of the arrays the region finds -/

/-- The printed index maps, decided over the grid: the row blocks move with the point, the others stay. -/
theorem dat2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

/-- The last point is a point of the grid. -/
theorem dat2_lt24 : 24 < cfg2.N := by rw [dat2_N]; omega

/-- Row `r` of block `t` is row `2000 t + r` of the array. -/
theorem dat2_row_lt (t : Fin cfg2.N) (r : Fin 2000) : 2000 * t.val + r.val < 50000 := by
  have hN : t.val < 25 := lt_of_lt_of_eq t.isLt dat2_N
  have := r.isLt
  omega

theorem dat2_blk0_at (c : Dev nD) (t : Fin cfg2.N) (r : Fin 2000) (k : Fin 512) :
    at2 (n0 := 2000) (n1 := 512) (iblk2 V c 0 t) r k = at2 (n0 := 50000) (n1 := 512) (V c main_v23_0) ⟨2000 * t.val + r.val, dat2_row_lt t r⟩ k := by
  rw [at2_def, at2_def]
  show V c main_v23_0 (((cfg2.win 0).blk t).view.emb (ix2 r k)) = V c main_v23_0 (ix2 _ k)
  refine congrArg (V c main_v23_0) (funext fun a => Fin.ext ?_)
  obtain ⟨e0, e1, -, -, -, -, -, -, -, -, -, -, -, -, -, -, -, -, -, -, -, -⟩ := dat2_idx t
  match a with
  | ⟨0, _⟩ => show win2_0.index t (0 : Fin 2) * 2000 + 1 * r.val = 2000 * t.val + r.val; omega
  | ⟨1, _⟩ => show win2_0.index t (1 : Fin 2) * 512 + 1 * k.val = k.val; omega

theorem dat2_blk1_at (c : Dev nD) (t : Fin cfg2.N) (j : Fin 1) (k : Fin 512) :
    at2 (n0 := 1) (n1 := 512) (iblk2 V c 1 t) j k = at2 (n0 := 1) (n1 := 512) (V c main_v25) j k := by
  rw [at2_def, at2_def]
  show V c main_v25 (((cfg2.win 1).blk t).view.emb (ix2 j k)) = V c main_v25 (ix2 j k)
  refine congrArg (V c main_v25) (funext fun a => Fin.ext ?_)
  obtain ⟨-, -, e0, e1, -, -, -, -, -, -, -, -, -, -, -, -, -, -, -, -, -, -⟩ := dat2_idx t
  match a with
  | ⟨0, _⟩ => show win2_1.index t (0 : Fin 2) * 1 + 1 * j.val = j.val; omega
  | ⟨1, _⟩ => show win2_1.index t (1 : Fin 2) * 512 + 1 * k.val = k.val; omega

theorem dat2_blk2_at (c : Dev nD) (t : Fin cfg2.N) (j : Fin 1) (k : Fin 512) :
    at2 (n0 := 1) (n1 := 512) (iblk2 V c 2 t) j k = at2 (n0 := 1) (n1 := 512) (V c main_v29) j k := by
  rw [at2_def, at2_def]
  show V c main_v29 (((cfg2.win 2).blk t).view.emb (ix2 j k)) = V c main_v29 (ix2 j k)
  refine congrArg (V c main_v29) (funext fun a => Fin.ext ?_)
  obtain ⟨-, -, -, -, e0, e1, -, -, -, -, -, -, -, -, -, -, -, -, -, -, -, -⟩ := dat2_idx t
  match a with
  | ⟨0, _⟩ => show win2_2.index t (0 : Fin 2) * 1 + 1 * j.val = j.val; omega
  | ⟨1, _⟩ => show win2_2.index t (1 : Fin 2) * 512 + 1 * k.val = k.val; omega

theorem dat2_blk3_at (c : Dev nD) (t : Fin cfg2.N) (j : Fin 1) (k : Fin 512) :
    at2 (n0 := 1) (n1 := 512) (iblk2 V c 3 t) j k = at2 (n0 := 1) (n1 := 512) (V c main_v38) j k := by
  rw [at2_def, at2_def]
  show V c main_v38 (((cfg2.win 3).blk t).view.emb (ix2 j k)) = V c main_v38 (ix2 j k)
  refine congrArg (V c main_v38) (funext fun a => Fin.ext ?_)
  obtain ⟨-, -, -, -, -, -, e0, e1, -, -, -, -, -, -, -, -, -, -, -, -, -, -⟩ := dat2_idx t
  match a with
  | ⟨0, _⟩ => show win2_3.index t (0 : Fin 2) * 1 + 1 * j.val = j.val; omega
  | ⟨1, _⟩ => show win2_3.index t (1 : Fin 2) * 512 + 1 * k.val = k.val; omega

theorem dat2_blk4_at (c : Dev nD) (t : Fin cfg2.N) (j : Fin 1) (k : Fin 512) :
    at2 (n0 := 1) (n1 := 512) (iblk2 V c 4 t) j k = at2 (n0 := 1) (n1 := 512) (V c main_v39) j k := by
  rw [at2_def, at2_def]
  show V c main_v39 (((cfg2.win 4).blk t).view.emb (ix2 j k)) = V c main_v39 (ix2 j k)
  refine congrArg (V c main_v39) (funext fun a => Fin.ext ?_)
  obtain ⟨-, -, -, -, -, -, -, -, e0, e1, -, -, -, -, -, -, -, -, -, -, -, -⟩ := dat2_idx t
  match a with
  | ⟨0, _⟩ => show win2_4.index t (0 : Fin 2) * 1 + 1 * j.val = j.val; omega
  | ⟨1, _⟩ => show win2_4.index t (1 : Fin 2) * 512 + 1 * k.val = k.val; omega

theorem dat2_blk5_at (c : Dev nD) (t : Fin cfg2.N) (r : Fin 2000) (k : Fin 256) :
    at2 (n0 := 2000) (n1 := 256) (iblk2 V c 5 t) r k = at2 (n0 := 50000) (n1 := 256) (V c main_v7) ⟨2000 * t.val + r.val, dat2_row_lt t r⟩ k := by
  rw [at2_def, at2_def]
  show V c main_v7 (((cfg2.win 5).blk t).view.emb (ix2 r k)) = V c main_v7 (ix2 _ k)
  refine congrArg (V c main_v7) (funext fun a => Fin.ext ?_)
  obtain ⟨-, -, -, -, -, -, -, -, -, -, e0, e1, -, -, -, -, -, -, -, -, -, -⟩ := dat2_idx t
  match a with
  | ⟨0, _⟩ => show win2_5.index t (0 : Fin 2) * 2000 + 1 * r.val = 2000 * t.val + r.val; omega
  | ⟨1, _⟩ => show win2_5.index t (1 : Fin 2) * 256 + 1 * k.val = k.val; omega

theorem dat2_blk6_at (c : Dev nD) (t : Fin cfg2.N) (j : Fin 512) (k : Fin 256) :
    at2 (n0 := 512) (n1 := 256) (iblk2 V c 6 t) j k = at2 (n0 := 512) (n1 := 256) (V c main_v35) j k := by
  rw [at2_def, at2_def]
  show V c main_v35 (((cfg2.win 6).blk t).view.emb (ix2 j k)) = V c main_v35 (ix2 j k)
  refine congrArg (V c main_v35) (funext fun a => Fin.ext ?_)
  obtain ⟨-, -, -, -, -, -, -, -, -, -, -, -, e0, e1, -, -, -, -, -, -, -, -⟩ := dat2_idx t
  match a with
  | ⟨0, _⟩ => show win2_6.index t (0 : Fin 2) * 512 + 1 * j.val = j.val; omega
  | ⟨1, _⟩ => show win2_6.index t (1 : Fin 2) * 256 + 1 * k.val = k.val; omega

theorem dat2_blk7_at (c : Dev nD) (t : Fin cfg2.N) (j : Fin 1) (k : Fin 256) :
    at2 (n0 := 1) (n1 := 256) (iblk2 V c 7 t) j k = at2 (n0 := 1) (n1 := 256) (V c main_v40) j k := by
  rw [at2_def, at2_def]
  show V c main_v40 (((cfg2.win 7).blk t).view.emb (ix2 j k)) = V c main_v40 (ix2 j k)
  refine congrArg (V c main_v40) (funext fun a => Fin.ext ?_)
  obtain ⟨-, -, -, -, -, -, -, -, -, -, -, -, -, -, e0, e1, -, -, -, -, -, -⟩ := dat2_idx t
  match a with
  | ⟨0, _⟩ => show win2_7.index t (0 : Fin 2) * 1 + 1 * j.val = j.val; omega
  | ⟨1, _⟩ => show win2_7.index t (1 : Fin 2) * 256 + 1 * k.val = k.val; omega

/-! ## The first output: the layer's output, entry by entry -/

/-- Entry `(p, q)` of the layer's output, from the arrays the region finds. -/
def dat2_h3 (c : Dev nD) (p : Fin 50000) (q : Fin 256) : EReal :=
  ((0 + ∑ k : Fin 512, max (at2 (n0 := 1) (n1 := 512) (V c main_v38) 0 k * (at2 (n0 := 50000) (n1 := 512) (V c main_v23_0) p k - at2 (n0 := 1) (n1 := 512) (V c main_v25) 0 k) * Ideal.rsqrt (at2 (n0 := 1) (n1 := 512) (V c main_v29) 0 k + Ideal.ofBits .f32 0x3727C5AC#32) + at2 (n0 := 1) (n1 := 512) (V c main_v39) 0 k) 0 * at2 (n0 := 512) (n1 := 256) (V c main_v35) k q) + at2 (n0 := 1) (n1 := 256) (V c main_v40) 0 q) + at2 (n0 := 50000) (n1 := 256) (V c main_v7) p q

/-- What the body stores into window 8 at point `t`, at an entry: that entry of the layer's output. -/
theorem dat2_h3_blk (c : Dev nD) (t : Fin cfg2.N) (r : Fin 2000) (q : Fin 256) :
    at2 (dat2_o8 (F := Ideal) (iblk2 V c 0 t) (iblk2 V c 1 t) (iblk2 V c 2 t) (iblk2 V c 3 t) (iblk2 V c 4 t) (iblk2 V c 5 t) (iblk2 V c 6 t) (iblk2 V c 7 t)) r q = dat2_h3 V c ⟨2000 * t.val + r.val, dat2_row_lt t r⟩ q := by
  refine (dat2_o8_at (iblk2 V c 0 t) (iblk2 V c 1 t) (iblk2 V c 2 t) (iblk2 V c 3 t) (iblk2 V c 4 t) (iblk2 V c 5 t) (iblk2 V c 6 t) (iblk2 V c 7 t) r q).trans ?_
  unfold dat2_h3
  refine congrArg₂ (· + ·) (congrArg₂ (· + ·) (congrArg (0 + ·) (Finset.sum_congr rfl fun k _ => ?_)) (dat2_blk7_at V c t 0 q)) (dat2_blk5_at V c t r q)
  rw [dat2_blk0_at V c t r k, dat2_blk1_at V c t 0 k, dat2_blk2_at V c t 0 k, dat2_blk3_at V c t 0 k, dat2_blk4_at V c t 0 k, dat2_blk6_at V c t k q]

/-- The layer's output as the contents of window 8's array. -/
def dat2_G8 (c : Dev nD) : S50000x256.Idx → EReal := fun i => dat2_h3 V c (i 0) (i 1)

/-- Entry `(r, q)` of block `t` of window 8's array is entry `(2000 t + r, q)`. -/
theorem dat2_emb8 (t : Fin cfg2.N) (r : Fin 2000) (q : Fin 256) :
    ((cfg2.win 8).blk t).view.emb (ix2 r q) = ix2 (n0 := 50000) (n1 := 256) ⟨2000 * t.val + r.val, dat2_row_lt t r⟩ q := by
  funext a; apply Fin.ext
  obtain ⟨-, -, -, -, -, -, -, -, -, -, -, -, -, -, -, -, e0, e1, -, -, -, -⟩ := dat2_idx t
  match a with
  | ⟨0, _⟩ => show win2_8.index t (0 : Fin 2) * 2000 + 1 * r.val = 2000 * t.val + r.val; omega
  | ⟨1, _⟩ => show win2_8.index t (1 : Fin 2) * 256 + 1 * q.val = q.val; omega

set_option maxHeartbeats 3200000 in
/-- What point `t` writes back to window 8 is block `t` of the layer's output. -/
theorem dat2_flushed8 (c : Dev nD) (t : Fin cfg2.N) :
    (dat2 (F := Ideal) V c).flushed 8 t = ((cfg2.win 8).blk t).view.read (Elt Ideal) (dat2_G8 V c) := by
  show (cfg2.win 8).cut (grid2.coords t) ((dat2 (F := Ideal) V c).after 8 t) = _
  rw [after2_8]
  funext j
  obtain ⟨r, q, rfl⟩ : ∃ (r : Fin 2000) (q : Fin 256), j = ix2 r q := ⟨j 0, j 1, eq_ix2 j⟩
  show at2 (dat2_o8 (F := Ideal) (iblk2 V c 0 t) (iblk2 V c 1 t) (iblk2 V c 2 t) (iblk2 V c 3 t) (iblk2 V c 4 t) (iblk2 V c 5 t) (iblk2 V c 6 t) (iblk2 V c 7 t)) r q
    = dat2_G8 V c (((cfg2.win 8).blk t).view.emb (ix2 r q))
  rw [dat2_emb8]
  exact dat2_h3_blk V c t r q

/-- An entry of window 8's array lies in point `t`'s block iff its coordinates lie in the block's ranges. -/
theorem dat2_mem_blk8 (t : Fin cfg2.N) (i : S50000x256.Idx) :
    i ∈ ((cfg2.win 8).blk t).view.set ↔ ∀ a : Fin 2, win2_8.index t a * S2000x256.size a ≤ (i a).val ∧ (i a).val < win2_8.index t a * S2000x256.size a + S2000x256.size a := by
  show i ∈ ((View.whole main_v41_0).slice (win2_8.rect t)).set ↔ _
  rw [View.set_slice_whole, Rect.mem_set_unit]
  exact Iff.rfl

/-- Every entry lies in the block of the point its row falls in. -/
theorem dat2_cover8 (i : S50000x256.Idx) :
    ∃ t : Fin cfg2.N, (cfg2.win 8).flush t = true ∧ i ∈ ((cfg2.win 8).blk t).view.set := by
  have hi0 : (i 0).val < 50000 := (i 0).isLt
  have hi1 : (i 1).val < 256 := (i 1).isLt
  have hN : cfg2.N = 25 := dat2_N
  refine ⟨⟨(i 0).val / 2000, by rw [hN]; omega⟩, flush2_8 _, ?_⟩
  rw [dat2_mem_blk8]
  obtain ⟨-, -, -, -, -, -, -, -, -, -, -, -, -, -, -, -, e0, e1, -, -, -, -⟩ := dat2_idx ⟨(i 0).val / 2000, by rw [hN]; omega⟩
  intro a
  match a with
  | ⟨0, _⟩ =>
    show win2_8.index _ (0 : Fin 2) * 2000 ≤ (i 0).val ∧ (i 0).val < win2_8.index _ (0 : Fin 2) * 2000 + 2000
    rw [e0]; show (i 0).val / 2000 * 2000 ≤ (i 0).val ∧ (i 0).val < (i 0).val / 2000 * 2000 + 2000; omega
  | ⟨1, _⟩ =>
    show win2_8.index _ (1 : Fin 2) * 256 ≤ (i 1).val ∧ (i 1).val < win2_8.index _ (1 : Fin 2) * 256 + 256
    rw [e1]; omega

/-- After the region window 8's array holds the layer's output. -/
theorem dat2_final8 (c : Dev nD) : (dat2 (F := Ideal) V c).arrAt 8 cfg2.N = dat2_G8 V c :=
  (dat2 (F := Ideal) V c).arrAt_eq_of_cover 8 (dat2_G8 V c) (fun t _ => dat2_flushed8 V c t) dat2_cover8

/-- THE FIRST OUTPUT, entry by entry. -/
theorem arrAt2_8 (c : Dev nD) (p : Fin 50000) (q : Fin 256) :
    at2 (n0 := 50000) (n1 := 256) ((dat2 (F := Ideal) V c).arrAt 8 cfg2.N) p q = dat2_h3 V c p q := by
  rw [dat2_final8]; rfl

/-! ## The two statistics outputs: the running rows after the last point, as sums over all rows -/

/-- Statistics window 9's one block is its whole array. -/
theorem dat2_emb9 (t : Fin cfg2.N) (j : S1x256.Idx) : ((cfg2.win 9).blk t).view.emb j = j := by
  funext a; apply Fin.ext
  obtain ⟨-, -, -, -, -, -, -, -, -, -, -, -, -, -, -, -, -, -, e0, e1, -, -⟩ := dat2_idx t
  match a with
  | ⟨0, _⟩ => show win2_9.index t (0 : Fin 2) * 1 + 1 * (j 0).val = (j 0).val; omega
  | ⟨1, _⟩ => show win2_9.index t (1 : Fin 2) * 256 + 1 * (j 1).val = (j 1).val; omega

/-- Its one write-back, at the last point, writes the running row as the last point leaves it. -/
theorem dat2_flushed9 (c : Dev nD) (t : Fin cfg2.N) (hf : (cfg2.win 9).flush t = true) :
    (dat2 (F := Ideal) V c).flushed 9 t = ((cfg2.win 9).blk t).view.read (Elt Ideal) ((dat2_acc (F := Ideal) V c 24 dat2_lt24).1) := by
  have h24 : t.val = 24 := by
    have := (flush2_9 t).mp hf
    have hN : t.val < 25 := lt_of_lt_of_eq t.isLt dat2_N
    omega
  have ht : t = ⟨24, dat2_lt24⟩ := Fin.ext h24
  subst ht
  show (cfg2.win 9).cut (grid2.coords _) ((dat2 (F := Ideal) V c).after 9 _) = _
  rw [after2_9, dat2_o9_eq]
  funext j
  show (dat2_acc (F := Ideal) V c 24 _).1 j = (dat2_acc (F := Ideal) V c 24 _).1 (((cfg2.win 9).blk _).view.emb j)
  rw [dat2_emb9]

theorem dat2_mem_blk9 (t : Fin cfg2.N) (i : S1x256.Idx) :
    i ∈ ((cfg2.win 9).blk t).view.set ↔ ∀ a : Fin 2, win2_9.index t a * S1x256.size a ≤ (i a).val ∧ (i a).val < win2_9.index t a * S1x256.size a + S1x256.size a := by
  show i ∈ ((View.whole main_v41_1).slice (win2_9.rect t)).set ↔ _
  rw [View.set_slice_whole, Rect.mem_set_unit]
  exact Iff.rfl

/-- The last point's block covers the array. -/
theorem dat2_cover9 (i : S1x256.Idx) :
    ∃ t : Fin cfg2.N, (cfg2.win 9).flush t = true ∧ i ∈ ((cfg2.win 9).blk t).view.set := by
  have hi0 : (i 0).val < 1 := (i 0).isLt
  have hi1 : (i 1).val < 256 := (i 1).isLt
  have hN : cfg2.N = 25 := dat2_N
  refine ⟨⟨24, by rw [hN]; omega⟩, (flush2_9 _).mpr rfl, ?_⟩
  rw [dat2_mem_blk9]
  obtain ⟨-, -, -, -, -, -, -, -, -, -, -, -, -, -, -, -, -, -, e0, e1, -, -⟩ := dat2_idx ⟨24, by rw [hN]; omega⟩
  intro a
  match a with
  | ⟨0, _⟩ =>
    show win2_9.index _ (0 : Fin 2) * 1 ≤ (i 0).val ∧ (i 0).val < win2_9.index _ (0 : Fin 2) * 1 + 1
    rw [e0]; omega
  | ⟨1, _⟩ =>
    show win2_9.index _ (1 : Fin 2) * 256 ≤ (i 1).val ∧ (i 1).val < win2_9.index _ (1 : Fin 2) * 256 + 256
    rw [e1]; omega

/-- After the region the array holds the running row after the last point. -/
theorem dat2_final9 (c : Dev nD) : (dat2 (F := Ideal) V c).arrAt 9 cfg2.N = (dat2_acc (F := Ideal) V c 24 dat2_lt24).1 :=
  (dat2 (F := Ideal) V c).arrAt_eq_of_cover 9 ((dat2_acc (F := Ideal) V c 24 dat2_lt24).1) (fun t hf => dat2_flushed9 V c t hf) dat2_cover9

/-- Column `q` of the running row after `n` points; zero before the first (and past the grid). -/
def dat2_run9 (c : Dev nD) (q : Fin 256) : ℕ → EReal
  | 0 => 0
  | n + 1 => if hn : n < cfg2.N then at2 (n0 := 1) (n1 := 256) (dat2_acc (F := Ideal) V c n hn).1 0 q else 0

/-- One point adds (0 + the block's column sum). -/
theorem dat2_run9_step (c : Dev nD) (q : Fin 256) (t : ℕ) (ht : t < 25) :
    dat2_run9 V c q (t + 1) = dat2_run9 V c q t + (0 + ∑ r : Fin 2000, dat2_h3 V c ⟨2000 * t + r.val, by omega⟩ q) := by
  have hN : cfg2.N = 25 := dat2_N
  have htN : t < cfg2.N := by rw [hN]; exact ht
  cases t with
  | zero =>
    show (if hn : 0 < cfg2.N then at2 (n0 := 1) (n1 := 256) (dat2_acc (F := Ideal) V c 0 hn).1 0 q else 0) = 0 + _
    rw [dif_pos htN]
    rw [dat2_acc_zero V c ⟨0, htN⟩ rfl]; dsimp only
    refine (dat2_s0_at (iblk2 V c 0 ⟨0, htN⟩) (iblk2 V c 1 ⟨0, htN⟩) (iblk2 V c 2 ⟨0, htN⟩) (iblk2 V c 3 ⟨0, htN⟩) (iblk2 V c 4 ⟨0, htN⟩) (iblk2 V c 5 ⟨0, htN⟩) (iblk2 V c 6 ⟨0, htN⟩) (iblk2 V c 7 ⟨0, htN⟩) dat2_z0 q).trans ?_
    refine congrArg₂ (· + ·) (dat2_z0_at q) (congrArg (0 + ·) (Finset.sum_congr rfl fun r _ => ?_))
    exact dat2_h3_blk V c ⟨0, htN⟩ r q
  | succ n =>
    have hn' : n < cfg2.N := by omega
    show (if hn : n + 1 < cfg2.N then at2 (n0 := 1) (n1 := 256) (dat2_acc (F := Ideal) V c (n + 1) hn).1 0 q else 0)
      = (if hn : n < cfg2.N then at2 (n0 := 1) (n1 := 256) (dat2_acc (F := Ideal) V c n hn).1 0 q else 0) + _
    rw [dif_pos htN, dif_pos hn']
    rw [dat2_acc_pos V c ⟨n + 1, htN⟩ (Nat.succ_ne_zero n)]; dsimp only
    refine (dat2_s0_at (iblk2 V c 0 ⟨n + 1, htN⟩) (iblk2 V c 1 ⟨n + 1, htN⟩) (iblk2 V c 2 ⟨n + 1, htN⟩) (iblk2 V c 3 ⟨n + 1, htN⟩) (iblk2 V c 4 ⟨n + 1, htN⟩) (iblk2 V c 5 ⟨n + 1, htN⟩) (iblk2 V c 6 ⟨n + 1, htN⟩) (iblk2 V c 7 ⟨n + 1, htN⟩) _ q).trans ?_
    refine congrArg₂ (· + ·) rfl (congrArg (0 + ·) (Finset.sum_congr rfl fun r _ => ?_))
    exact dat2_h3_blk V c ⟨n + 1, htN⟩ r q

/-- STATISTICS OUTPUT 1, column by column: the sum over the 50000 rows of the layer's output, from zero. -/
theorem arrAt2_9 (c : Dev nD) (q : Fin 256) :
    at2 (n0 := 1) (n1 := 256) ((dat2 (F := Ideal) V c).arrAt 9 cfg2.N) 0 q = 0 + ∑ p : Fin 50000, dat2_h3 V c p q := by
  rw [dat2_final9]
  have h := Cert.Spec.seq25_zero (fun p => dat2_h3 V c p q) (dat2_run9 V c q) rfl (fun t ht => dat2_run9_step V c q t ht)
  refine Eq.trans ?_ h
  show _ = (if hn : 24 < cfg2.N then at2 (n0 := 1) (n1 := 256) (dat2_acc (F := Ideal) V c 24 hn).1 0 q else 0)
  rw [dif_pos dat2_lt24]

/-- Statistics window 10's one block is its whole array. -/
theorem dat2_emb10 (t : Fin cfg2.N) (j : S1x256.Idx) : ((cfg2.win 10).blk t).view.emb j = j := by
  funext a; apply Fin.ext
  obtain ⟨-, -, -, -, -, -, -, -, -, -, -, -, -, -, -, -, -, -, -, -, e0, e1⟩ := dat2_idx t
  match a with
  | ⟨0, _⟩ => show win2_10.index t (0 : Fin 2) * 1 + 1 * (j 0).val = (j 0).val; omega
  | ⟨1, _⟩ => show win2_10.index t (1 : Fin 2) * 256 + 1 * (j 1).val = (j 1).val; omega

/-- Its one write-back, at the last point, writes the running row as the last point leaves it. -/
theorem dat2_flushed10 (c : Dev nD) (t : Fin cfg2.N) (hf : (cfg2.win 10).flush t = true) :
    (dat2 (F := Ideal) V c).flushed 10 t = ((cfg2.win 10).blk t).view.read (Elt Ideal) ((dat2_acc (F := Ideal) V c 24 dat2_lt24).2) := by
  have h24 : t.val = 24 := by
    have := (flush2_10 t).mp hf
    have hN : t.val < 25 := lt_of_lt_of_eq t.isLt dat2_N
    omega
  have ht : t = ⟨24, dat2_lt24⟩ := Fin.ext h24
  subst ht
  show (cfg2.win 10).cut (grid2.coords _) ((dat2 (F := Ideal) V c).after 10 _) = _
  rw [after2_10, dat2_o9_eq]
  funext j
  show (dat2_acc (F := Ideal) V c 24 _).2 j = (dat2_acc (F := Ideal) V c 24 _).2 (((cfg2.win 10).blk _).view.emb j)
  rw [dat2_emb10]

theorem dat2_mem_blk10 (t : Fin cfg2.N) (i : S1x256.Idx) :
    i ∈ ((cfg2.win 10).blk t).view.set ↔ ∀ a : Fin 2, win2_10.index t a * S1x256.size a ≤ (i a).val ∧ (i a).val < win2_10.index t a * S1x256.size a + S1x256.size a := by
  show i ∈ ((View.whole main_v41_2).slice (win2_10.rect t)).set ↔ _
  rw [View.set_slice_whole, Rect.mem_set_unit]
  exact Iff.rfl

/-- The last point's block covers the array. -/
theorem dat2_cover10 (i : S1x256.Idx) :
    ∃ t : Fin cfg2.N, (cfg2.win 10).flush t = true ∧ i ∈ ((cfg2.win 10).blk t).view.set := by
  have hi0 : (i 0).val < 1 := (i 0).isLt
  have hi1 : (i 1).val < 256 := (i 1).isLt
  have hN : cfg2.N = 25 := dat2_N
  refine ⟨⟨24, by rw [hN]; omega⟩, (flush2_10 _).mpr rfl, ?_⟩
  rw [dat2_mem_blk10]
  obtain ⟨-, -, -, -, -, -, -, -, -, -, -, -, -, -, -, -, -, -, -, -, e0, e1⟩ := dat2_idx ⟨24, by rw [hN]; omega⟩
  intro a
  match a with
  | ⟨0, _⟩ =>
    show win2_10.index _ (0 : Fin 2) * 1 ≤ (i 0).val ∧ (i 0).val < win2_10.index _ (0 : Fin 2) * 1 + 1
    rw [e0]; omega
  | ⟨1, _⟩ =>
    show win2_10.index _ (1 : Fin 2) * 256 ≤ (i 1).val ∧ (i 1).val < win2_10.index _ (1 : Fin 2) * 256 + 256
    rw [e1]; omega

/-- After the region the array holds the running row after the last point. -/
theorem dat2_final10 (c : Dev nD) : (dat2 (F := Ideal) V c).arrAt 10 cfg2.N = (dat2_acc (F := Ideal) V c 24 dat2_lt24).2 :=
  (dat2 (F := Ideal) V c).arrAt_eq_of_cover 10 ((dat2_acc (F := Ideal) V c 24 dat2_lt24).2) (fun t hf => dat2_flushed10 V c t hf) dat2_cover10

/-- Column `q` of the running row after `n` points; zero before the first (and past the grid). -/
def dat2_run10 (c : Dev nD) (q : Fin 256) : ℕ → EReal
  | 0 => 0
  | n + 1 => if hn : n < cfg2.N then at2 (n0 := 1) (n1 := 256) (dat2_acc (F := Ideal) V c n hn).2 0 q else 0

/-- One point adds (0 + the block's column sum). -/
theorem dat2_run10_step (c : Dev nD) (q : Fin 256) (t : ℕ) (ht : t < 25) :
    dat2_run10 V c q (t + 1) = dat2_run10 V c q t + (0 + ∑ r : Fin 2000, dat2_h3 V c ⟨2000 * t + r.val, by omega⟩ q * dat2_h3 V c ⟨2000 * t + r.val, by omega⟩ q) := by
  have hN : cfg2.N = 25 := dat2_N
  have htN : t < cfg2.N := by rw [hN]; exact ht
  cases t with
  | zero =>
    show (if hn : 0 < cfg2.N then at2 (n0 := 1) (n1 := 256) (dat2_acc (F := Ideal) V c 0 hn).2 0 q else 0) = 0 + _
    rw [dif_pos htN]
    rw [dat2_acc_zero V c ⟨0, htN⟩ rfl]; dsimp only
    refine (dat2_s1_at (iblk2 V c 0 ⟨0, htN⟩) (iblk2 V c 1 ⟨0, htN⟩) (iblk2 V c 2 ⟨0, htN⟩) (iblk2 V c 3 ⟨0, htN⟩) (iblk2 V c 4 ⟨0, htN⟩) (iblk2 V c 5 ⟨0, htN⟩) (iblk2 V c 6 ⟨0, htN⟩) (iblk2 V c 7 ⟨0, htN⟩) dat2_z1 q).trans ?_
    refine congrArg₂ (· + ·) (dat2_z1_at q) (congrArg (0 + ·) (Finset.sum_congr rfl fun r _ => ?_))
    exact congrArg₂ (· * ·) (dat2_h3_blk V c ⟨0, htN⟩ r q) (dat2_h3_blk V c ⟨0, htN⟩ r q)
  | succ n =>
    have hn' : n < cfg2.N := by omega
    show (if hn : n + 1 < cfg2.N then at2 (n0 := 1) (n1 := 256) (dat2_acc (F := Ideal) V c (n + 1) hn).2 0 q else 0)
      = (if hn : n < cfg2.N then at2 (n0 := 1) (n1 := 256) (dat2_acc (F := Ideal) V c n hn).2 0 q else 0) + _
    rw [dif_pos htN, dif_pos hn']
    rw [dat2_acc_pos V c ⟨n + 1, htN⟩ (Nat.succ_ne_zero n)]; dsimp only
    refine (dat2_s1_at (iblk2 V c 0 ⟨n + 1, htN⟩) (iblk2 V c 1 ⟨n + 1, htN⟩) (iblk2 V c 2 ⟨n + 1, htN⟩) (iblk2 V c 3 ⟨n + 1, htN⟩) (iblk2 V c 4 ⟨n + 1, htN⟩) (iblk2 V c 5 ⟨n + 1, htN⟩) (iblk2 V c 6 ⟨n + 1, htN⟩) (iblk2 V c 7 ⟨n + 1, htN⟩) _ q).trans ?_
    refine congrArg₂ (· + ·) rfl (congrArg (0 + ·) (Finset.sum_congr rfl fun r _ => ?_))
    exact congrArg₂ (· * ·) (dat2_h3_blk V c ⟨n + 1, htN⟩ r q) (dat2_h3_blk V c ⟨n + 1, htN⟩ r q)

/-- STATISTICS OUTPUT 2, column by column: the sum over the 50000 rows of the layer's output's squares, from zero. -/
theorem arrAt2_10 (c : Dev nD) (q : Fin 256) :
    at2 (n0 := 1) (n1 := 256) ((dat2 (F := Ideal) V c).arrAt 10 cfg2.N) 0 q = 0 + ∑ p : Fin 50000, dat2_h3 V c p q * dat2_h3 V c p q := by
  rw [dat2_final10]
  have h := Cert.Spec.seq25_zero (fun p => dat2_h3 V c p q * dat2_h3 V c p q) (dat2_run10 V c q) rfl (fun t ht => dat2_run10_step V c q t ht)
  refine Eq.trans ?_ h
  show _ = (if hn : 24 < cfg2.N then at2 (n0 := 1) (n1 := 256) (dat2_acc (F := Ideal) V c 24 hn).2 0 q else 0)
  rw [dif_pos dat2_lt24]

end Cert.KernelIdeal.HandV

end
-- ==== Proof.KI.R3V.lean ====
/-
  The value of region 3 (the batch-norm finalize kernel) at the ideal values: after the region the output array holds,
  index by index,
    out[p, q] = (g[0, q] · (h[p, q] − mean[0, q])) · rsqrt(var[0, q] + eps) + beta[0, q],
  read in the arrays as the region finds them, in the kernel's own association. First the payload at an index (four row
  broadcasts over pointwise operations); then each window's block at a point as rows of its array; then what a point
  writes back as a block of ONE whole-array function, the cover of the array by the 25 row blocks, and the array
  after the region.
-/
import proofs.«132438_j6098853560655_1_alg».proof.Proof.KI.R3
import proofs.«132438_j6098853560655_1_alg».proof.Proof.KI.At2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

theorem hz3 : (![0, 0] : Fin 2 → Nat) = fun _ => 0 := funext fun a => by fin_cases a <;> rfl

/-! ## The payload at an index -/

/-- The body's payload at row `r`, column `q` of the block, over the five loaded blocks (variance, scale, the
    activations, mean, shift). -/
theorem pay3_apply (xv xg : Vec Ideal S1x256 .f32) (xh : Vec Ideal S2000x256 .f32) (xm xb : Vec Ideal S1x256 .f32)
    (r : Fin 2000) (q : Fin 256) :
    k3_pay1 xv xg xh xm xb (ix2 r q)
      = (xg (ix2 (0 : Fin 1) q) * (xh (ix2 r q) - xm (ix2 (0 : Fin 1) q)))
          * Ideal.rsqrt (xv (ix2 (0 : Fin 1) q) + Ideal.ofBits .f32 0x3727C5AC#32) + xb (ix2 (0 : Fin 1) q) := by
  unfold k3_pay1
  simp only [shapeCast_self]
  show (broadcastTo S2000x256 xg broadcasts_S1x256_S2000x256 (ix2 r q)
        * (xh (ix2 r q) - broadcastTo S2000x256 xm broadcasts_S1x256_S2000x256 (ix2 r q)))
      * broadcastTo S2000x256 (rsqrt (F := Ideal) (addf (F := Ideal) xv (broadcast S1x256 (Scalar.ofBits (F := Ideal) .f32 0x3727C5AC#32)))) broadcasts_S1x256_S2000x256 (ix2 r q)
      + broadcastTo S2000x256 xb broadcasts_S1x256_S2000x256 (ix2 r q) = _
  rw [broadcastTo_1b_ab_apply, broadcastTo_1b_ab_apply, broadcastTo_1b_ab_apply, broadcastTo_1b_ab_apply]
  rfl

/-! ## The index maps over the grid, and the blocks as rows of their arrays -/

/-- The printed index maps, decided over the 25 points: the row windows (activations, output) are at block `t` on the
    row axis; the four one-row windows stay at block 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activation window's block at point `t` is rows `2000 t … 2000 t + 1999` of its array. -/
theorem blk3_0_at (c : Dev nD) (t : Fin cfg3.N) (r : Fin 2000) (q : Fin 256) (P : Fin 50000) (Q : Fin 256)
    (hP : P.val = 2000 * t.val + r.val) (hQ : Q.val = q.val) :
    (iblk3 V c 0 t : Vec Ideal S2000x256 .f32) (ix2 r q) = at2 (V c main_v41_0) P Q := by
  obtain ⟨e0, e1, -⟩ := idx_facts3 t
  unfold iblk3 at2
  rw [View.read_apply]
  show V c main_v41_0 _ = V c main_v41_0 _
  congr 1
  funext a
  apply Fin.ext
  match a with
  | ⟨0, _⟩ => show win3_0.index t (0 : Fin 2) * 2000 + 1 * r.val = P.val; rw [e0, hP]; omega
  | ⟨1, _⟩ => show win3_0.index t (1 : Fin 2) * 256 + 1 * q.val = Q.val; rw [e1, hQ]; omega

/-- The mean window's block at every point is its whole one-row array. -/
theorem blk3_1_at (c : Dev nD) (t : Fin cfg3.N) (q Q : Fin 256) (hQ : Q.val = q.val) :
    (iblk3 V c 1 t : Vec Ideal S1x256 .f32) (ix2 (0 : Fin 1) q) = at2 (V c main_v43) (0 : Fin 1) Q := by
  obtain ⟨-, -, e0, e1, -⟩ := idx_facts3 t
  unfold iblk3 at2
  rw [View.read_apply]
  show V c main_v43 _ = V c main_v43 _
  congr 1
  funext a
  apply Fin.ext
  match a with
  | ⟨0, _⟩ => show win3_1.index t (0 : Fin 2) * 1 + 1 * 0 = 0; rw [e0]
  | ⟨1, _⟩ => show win3_1.index t (1 : Fin 2) * 256 + 1 * q.val = Q.val; rw [e1, hQ]; omega

/-- The variance window's block at every point is its whole one-row array. -/
theorem blk3_2_at (c : Dev nD) (t : Fin cfg3.N) (q Q : Fin 256) (hQ : Q.val = q.val) :
    (iblk3 V c 2 t : Vec Ideal S1x256 .f32) (ix2 (0 : Fin 1) q) = at2 (V c main_v47) (0 : Fin 1) Q := by
  obtain ⟨-, -, -, -, e0, e1, -⟩ := idx_facts3 t
  unfold iblk3 at2
  rw [View.read_apply]
  show V c main_v47 _ = V c main_v47 _
  congr 1
  funext a
  apply Fin.ext
  match a with
  | ⟨0, _⟩ => show win3_2.index t (0 : Fin 2) * 1 + 1 * 0 = 0; rw [e0]
  | ⟨1, _⟩ => show win3_2.index t (1 : Fin 2) * 256 + 1 * q.val = Q.val; rw [e1, hQ]; omega

/-- The scale window's block at every point is its whole one-row array. -/
theorem blk3_3_at (c : Dev nD) (t : Fin cfg3.N) (q Q : Fin 256) (hQ : Q.val = q.val) :
    (iblk3 V c 3 t : Vec Ideal S1x256 .f32) (ix2 (0 : Fin 1) q) = at2 (V c main_v52) (0 : Fin 1) Q := by
  obtain ⟨-, -, -, -, -, -, e0, e1, -⟩ := idx_facts3 t
  unfold iblk3 at2
  rw [View.read_apply]
  show V c main_v52 _ = V c main_v52 _
  congr 1
  funext a
  apply Fin.ext
  match a with
  | ⟨0, _⟩ => show win3_3.index t (0 : Fin 2) * 1 + 1 * 0 = 0; rw [e0]
  | ⟨1, _⟩ => show win3_3.index t (1 : Fin 2) * 256 + 1 * q.val = Q.val; rw [e1, hQ]; omega

/-- The shift window's block at every point is its whole one-row array. -/
theorem blk3_4_at (c : Dev nD) (t : Fin cfg3.N) (q Q : Fin 256) (hQ : Q.val = q.val) :
    (iblk3 V c 4 t : Vec Ideal S1x256 .f32) (ix2 (0 : Fin 1) q) = at2 (V c main_v53) (0 : Fin 1) Q := by
  obtain ⟨-, -, -, -, -, -, -, -, e0, e1, -⟩ := idx_facts3 t
  unfold iblk3 at2
  rw [View.read_apply]
  show V c main_v53 _ = V c main_v53 _
  congr 1
  funext a
  apply Fin.ext
  match a with
  | ⟨0, _⟩ => show win3_4.index t (0 : Fin 2) * 1 + 1 * 0 = 0; rw [e0]
  | ⟨1, _⟩ => show win3_4.index t (1 : Fin 2) * 256 + 1 * q.val = Q.val; rw [e1, hQ]; omega

/-! ## The output array as one function of the entry arrays -/

/-- What the output array ends holding at row `p`, column `q`. -/
def val3 (c : Dev nD) (p : Fin 50000) (q : Fin 256) : EReal :=
  (at2 (V c main_v52) (0 : Fin 1) q * (at2 (V c main_v41_0) p q - at2 (V c main_v43) (0 : Fin 1) q))
    * Ideal.rsqrt (at2 (V c main_v47) (0 : Fin 1) q + Ideal.ofBits .f32 0x3727C5AC#32)
    + at2 (V c main_v53) (0 : Fin 1) q

/-- The same as a whole array. -/
def G3 (c : Dev nD) : S50000x256.Idx → EReal := fun i => val3 V c (i 0) (i 1)

/-- What point `t` writes back is block `t` of `G3`. -/
theorem flushed3_5_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S2000x256) hz3, View.ld_unit_zero (S := S1x256) hz3]
  obtain ⟨-, -, -, -, -, -, -, -, -, -, e0, e1⟩ := idx_facts3 t
  funext j
  obtain ⟨r, q, rfl⟩ : ∃ (r : Fin 2000) (q : Fin 256), j = ix2 r q := ⟨j 0, j 1, eq_ix2 j⟩
  refine (pay3_apply _ _ _ _ _ r q).trans ?_
  rw [View.read_apply]
  show _ = val3 V c ((((cfg3.win 5).blk t).view.emb (ix2 r q)) 0) ((((cfg3.win 5).blk t).view.emb (ix2 r q)) 1)
  have hP : (((((cfg3.win 5).blk t).view.emb (ix2 r q)) 0 : Fin 50000) : ℕ) = 2000 * t.val + r.val := by
    show win3_5.index t (0 : Fin 2) * 2000 + 1 * r.val = _; rw [e0]; omega
  have hQ : (((((cfg3.win 5).blk t).view.emb (ix2 r q)) 1 : Fin 256) : ℕ) = q.val := by
    show win3_5.index t (1 : Fin 2) * 256 + 1 * q.val = _; rw [e1]; omega
  unfold val3
  rw [blk3_0_at V c t r q _ _ hP hQ, blk3_1_at V c t q _ hQ, blk3_2_at V c t q _ hQ, blk3_3_at V c t q _ hQ,
    blk3_4_at V c t q _ hQ]

/-! ## The cover, and the array after the region -/
/-- An index of the output array is in point `t`'s block iff each coordinate is in the block's range on its axis. -/
theorem mem_blk3_5 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v54).slice (win3_5.rect t)).set ↔ _
  rw [View.set_slice_whole, Rect.mem_set_unit]
  exact Iff.rfl

/-- Every index of the output array is in the block of the point its row falls in. -/
theorem cover3_5_arr (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  refine ⟨⟨(i 0).val / 2000, by rw [hN]; omega⟩, flush3_5 _, ?_⟩
  obtain ⟨-, -, -, -, -, -, -, -, -, -, e0, e1⟩ := idx_facts3 ⟨(i 0).val / 2000, by rw [hN]; omega⟩
  rw [mem_blk3_5]
  intro a
  match a with
  | ⟨0, _⟩ =>
    show win3_5.index _ (0 : Fin 2) * 2000 ≤ (i 0).val ∧ (i 0).val < win3_5.index _ (0 : Fin 2) * 2000 + 2000
    rw [e0]; show (i 0).val / 2000 * 2000 ≤ (i 0).val ∧ (i 0).val < (i 0).val / 2000 * 2000 + 2000; omega
  | ⟨1, _⟩ =>
    show win3_5.index _ (1 : Fin 2) * 256 ≤ (i 1).val ∧ (i 1).val < win3_5.index _ (1 : Fin 2) * 256 + 256
    rw [e1]; omega

/-- The output array after the region is `G3` of the entry arrays. -/
theorem final3_5 (c : Dev nD) : (dat3 V c).arrAt 5 cfg3.N = G3 V c :=
  (dat3 V c).arrAt_eq_of_cover 5 (G3 V c) (fun t _ => flushed3_5_eq V c t) cover3_5_arr

/-- The output array after the region, index by index. -/
theorem arrAt3_5 (c : Dev nD) (p : Fin 50000) (q : Fin 256) :
    at2 ((dat3 V c).arrAt 5 cfg3.N) p q
      = (at2 (V c main_v52) (0 : Fin 1) q * (at2 (V c main_v41_0) p q - at2 (V c main_v43) (0 : Fin 1) q))
          * Ideal.rsqrt (at2 (V c main_v47) (0 : Fin 1) q + Ideal.ofBits .f32 0x3727C5AC#32)
          + at2 (V c main_v53) (0 : Fin 1) q := by
  rw [final3_5]
  rfl

end Cert.KernelIdeal.HandV

end
-- ==== Proof.KI.Host0.lean ====
/-
  The host operations before the first kernel, read at the buffers later kernels and stretches take.

  The stretch drops the leading unit axis of the input features, lays the embedding bias out as a one-row matrix, and
  cuts the edge list into its source and destination columns. It does not write the embedding weights.
-/
import proofs.«132438_j6098853560655_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import proofs.«132438_j6098853560655_1_alg».proof.Proof.Spec
import proofs.«132438_j6098853560655_1_alg».proof.Proof.Math.Consts
import proofs.«132438_j6098853560655_1_alg».proof.Proof.KI.At2
import proofs.«132438_j6098853560655_1_alg».proof.Proof.KI.HostLib
set_option maxRecDepth 16384

noncomputable section

namespace Cert.KernelIdeal.HandV

open Idealize.ShloMosaic Idealize.ShloMosaic.TcCoe Idealize.ShloMosaic.ValueIdx Idealize.ShloMosaic.StableHlo
open Cert.KernelIdeal Cert.KernelIdeal.Gen
open scoped BigOperators

variable (Vin : Valuation τ sig (Elt Ideal))

/-- The input features with the leading unit axis dropped. -/
theorem host0_x (p : Fin 50000) (k : Fin 128) :
    at2 (after (hostOps0 (F := Ideal)) Vin (main_v0 : DevRef τ sig)) p k = at3 (Vin (main_arg0 : DevRef τ sig)) 0 p k := by
  after_results
  unfold at2 at3
  exact shapeCast_1ab_ab_apply _ _ p k

theorem host0_x_fun :
    (fun p k => at2 (after (hostOps0 (F := Ideal)) Vin (main_v0 : DevRef τ sig)) p k) = fun (p : Fin 50000) (k : Fin 128) => at3 (Vin (main_arg0 : DevRef τ sig)) 0 p k :=
  funext fun p => funext fun k => host0_x Vin p k

/-- The embedding bias as a one-row matrix. -/
theorem host0_b0 (q : Fin 256) :
    at2 (after (hostOps0 (F := Ideal)) Vin (main_v6 : DevRef τ sig)) 0 q = at1 (Vin (main_arg3 : DevRef τ sig)) q := by
  after_results
  unfold at2 at1
  exact shapeCast_a_1a_apply _ _ 0 q

theorem host0_b0_fun :
    (fun q => at2 (after (hostOps0 (F := Ideal)) Vin (main_v6 : DevRef τ sig)) 0 q) = fun q : Fin 256 => at1 (Vin (main_arg3 : DevRef τ sig)) q :=
  funext fun q => host0_b0 Vin q

/-- The stretch does not write the embedding weights. -/
theorem host0_W0 : after (hostOps0 (F := Ideal)) Vin (main_arg2 : DevRef τ sig) = Vin (main_arg2 : DevRef τ sig) :=
  StableHlo.after_of_writes_sub hostOps0 _ hostOps0_writes (by decide)

/-- The source column of the edge list. -/
theorem host0_src : after (hostOps0 (F := Ideal)) Vin (main_v3 : DevRef τ sig) = srcK (Vin (main_arg1 : DevRef τ sig)) := by
  after_results
  rfl

/-- The destination column of the edge list. -/
theorem host0_dst : after (hostOps0 (F := Ideal)) Vin (main_v5 : DevRef τ sig) = dstK (Vin (main_arg1 : DevRef τ sig)) := by
  after_results
  rfl

end Cert.KernelIdeal.HandV

end
-- ==== Proof.KI.HostA.lean ====
/-
  The host operations before a layer's first kernel, read at the buffers that kernel takes.

  The stretch aggregates the rows of the layer's input along the edges (one chain of operations, kept whole as aggK),
  cuts the layer's first weight matrix and first bias out of the stacked parameter arrays, and lays the bias out as a
  one-row matrix. It writes neither the layer's input nor the two columns of the edge list.
-/
import proofs.«132438_j6098853560655_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import proofs.«132438_j6098853560655_1_alg».proof.Proof.Spec
import proofs.«132438_j6098853560655_1_alg».proof.Proof.Math.Consts
import proofs.«132438_j6098853560655_1_alg».proof.Proof.KI.At2
import proofs.«132438_j6098853560655_1_alg».proof.Proof.KI.HostLib
set_option maxRecDepth 16384

noncomputable section

namespace Cert.KernelIdeal.HandV

open Idealize.ShloMosaic Idealize.ShloMosaic.TcCoe Idealize.ShloMosaic.ValueIdx Idealize.ShloMosaic.StableHlo
open Cert.KernelIdeal Cert.KernelIdeal.Gen
open scoped BigOperators

variable (Vin : Valuation τ sig (Elt Ideal))

/-! ### Layer 0 -/

/-- The aggregate of layer 0's input along the edges. -/
theorem host1_agg :
    after (hostOps1 (F := Ideal)) Vin (main_v17 : DevRef τ sig) = aggK (Vin (main_v7 : DevRef τ sig)) (Vin (main_v3 : DevRef τ sig)) (Vin (main_v5 : DevRef τ sig)) := by
  after_results_simp
  rfl

/-- The first weight matrix of layer 0 is slab 0 of the stacked weights. -/
theorem host1_W1 (k : Fin 256) (q : Fin 512) :
    at2 (after (hostOps1 (F := Ideal)) Vin (main_v19 : DevRef τ sig)) k q = at3 (Vin (main_arg4 : DevRef τ sig)) (0 : Fin 3) k q := by
  after_results
  unfold at2 at3
  refine (shapeCast_1ab_ab_apply _ _ k q).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem host1_W1_fun :
    (fun k q => at2 (after (hostOps1 (F := Ideal)) Vin (main_v19 : DevRef τ sig)) k q) = fun (k : Fin 256) (q : Fin 512) => at3 (Vin (main_arg4 : DevRef τ sig)) (0 : Fin 3) k q :=
  funext fun k => funext fun q => host1_W1 Vin k q

/-- The first bias row of layer 0 is row 0 of the stacked biases. -/
theorem host1_b1 (q : Fin 512) :
    at2 (after (hostOps1 (F := Ideal)) Vin (main_v22 : DevRef τ sig)) 0 q = at2 (Vin (main_arg5 : DevRef τ sig)) (0 : Fin 3) q := by
  after_results
  unfold at2
  refine (shapeCast_a_1a_apply _ _ 0 q).trans ?_
  refine (shapeCast_1a_a_apply _ _ q).trans ?_
  exact slice2_axis0_apply 0 _ _ 0 q 0 rfl

theorem host1_b1_fun :
    (fun q => at2 (after (hostOps1 (F := Ideal)) Vin (main_v22 : DevRef τ sig)) 0 q) = fun q : Fin 512 => at2 (Vin (main_arg5 : DevRef τ sig)) (0 : Fin 3) q :=
  funext fun q => host1_b1 Vin q

/-- The stretch does not write layer 0's input. -/
theorem host1_x : after (hostOps1 (F := Ideal)) Vin (main_v7 : DevRef τ sig) = Vin (main_v7 : DevRef τ sig) :=
  StableHlo.after_of_writes_sub hostOps1 _ hostOps1_writes (by decide)

/-- The stretch does not write the source column of the edge list. -/
theorem host1_src : after (hostOps1 (F := Ideal)) Vin (main_v3 : DevRef τ sig) = Vin (main_v3 : DevRef τ sig) :=
  StableHlo.after_of_writes_sub hostOps1 _ hostOps1_writes (by decide)

/-- The stretch does not write the destination column of the edge list. -/
theorem host1_dst : after (hostOps1 (F := Ideal)) Vin (main_v5 : DevRef τ sig) = Vin (main_v5 : DevRef τ sig) :=
  StableHlo.after_of_writes_sub hostOps1 _ hostOps1_writes (by decide)

/-! ### Layer 1 -/

/-- The aggregate of layer 1's input along the edges. -/
theorem host4_agg :
    after (hostOps4 (F := Ideal)) Vin (main_v64 : DevRef τ sig) = aggK (Vin (main_v54 : DevRef τ sig)) (Vin (main_v3 : DevRef τ sig)) (Vin (main_v5 : DevRef τ sig)) := by
  after_results_simp
  rfl

/-- The first weight matrix of layer 1 is slab 1 of the stacked weights. -/
theorem host4_W1 (k : Fin 256) (q : Fin 512) :
    at2 (after (hostOps4 (F := Ideal)) Vin (main_v66 : DevRef τ sig)) k q = at3 (Vin (main_arg4 : DevRef τ sig)) (1 : Fin 3) k q := by
  after_results
  unfold at2 at3
  refine (shapeCast_1ab_ab_apply _ _ k q).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem host4_W1_fun :
    (fun k q => at2 (after (hostOps4 (F := Ideal)) Vin (main_v66 : DevRef τ sig)) k q) = fun (k : Fin 256) (q : Fin 512) => at3 (Vin (main_arg4 : DevRef τ sig)) (1 : Fin 3) k q :=
  funext fun k => funext fun q => host4_W1 Vin k q

/-- The first bias row of layer 1 is row 1 of the stacked biases. -/
theorem host4_b1 (q : Fin 512) :
    at2 (after (hostOps4 (F := Ideal)) Vin (main_v69 : DevRef τ sig)) 0 q = at2 (Vin (main_arg5 : DevRef τ sig)) (1 : Fin 3) q := by
  after_results
  unfold at2
  refine (shapeCast_a_1a_apply _ _ 0 q).trans ?_
  refine (shapeCast_1a_a_apply _ _ q).trans ?_
  exact slice2_axis0_apply 1 _ _ 0 q 1 rfl

theorem host4_b1_fun :
    (fun q => at2 (after (hostOps4 (F := Ideal)) Vin (main_v69 : DevRef τ sig)) 0 q) = fun q : Fin 512 => at2 (Vin (main_arg5 : DevRef τ sig)) (1 : Fin 3) q :=
  funext fun q => host4_b1 Vin q

/-- The stretch does not write layer 1's input. -/
theorem host4_x : after (hostOps4 (F := Ideal)) Vin (main_v54 : DevRef τ sig) = Vin (main_v54 : DevRef τ sig) :=
  StableHlo.after_of_writes_sub hostOps4 _ hostOps4_writes (by decide)

/-- The stretch does not write the source column of the edge list. -/
theorem host4_src : after (hostOps4 (F := Ideal)) Vin (main_v3 : DevRef τ sig) = Vin (main_v3 : DevRef τ sig) :=
  StableHlo.after_of_writes_sub hostOps4 _ hostOps4_writes (by decide)

/-- The stretch does not write the destination column of the edge list. -/
theorem host4_dst : after (hostOps4 (F := Ideal)) Vin (main_v5 : DevRef τ sig) = Vin (main_v5 : DevRef τ sig) :=
  StableHlo.after_of_writes_sub hostOps4 _ hostOps4_writes (by decide)

/-! ### Layer 2 -/

/-- The aggregate of layer 2's input along the edges. -/
theorem host7_agg :
    after (hostOps7 (F := Ideal)) Vin (main_v111 : DevRef τ sig) = aggK (Vin (main_v101 : DevRef τ sig)) (Vin (main_v3 : DevRef τ sig)) (Vin (main_v5 : DevRef τ sig)) := by
  after_results_simp
  rfl

/-- The first weight matrix of layer 2 is slab 2 of the stacked weights. -/
theorem host7_W1 (k : Fin 256) (q : Fin 512) :
    at2 (after (hostOps7 (F := Ideal)) Vin (main_v113 : DevRef τ sig)) k q = at3 (Vin (main_arg4 : DevRef τ sig)) (2 : Fin 3) k q := by
  after_results
  unfold at2 at3
  refine (shapeCast_1ab_ab_apply _ _ k q).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem host7_W1_fun :
    (fun k q => at2 (after (hostOps7 (F := Ideal)) Vin (main_v113 : DevRef τ sig)) k q) = fun (k : Fin 256) (q : Fin 512) => at3 (Vin (main_arg4 : DevRef τ sig)) (2 : Fin 3) k q :=
  funext fun k => funext fun q => host7_W1 Vin k q

/-- The first bias row of layer 2 is row 2 of the stacked biases. -/
theorem host7_b1 (q : Fin 512) :
    at2 (after (hostOps7 (F := Ideal)) Vin (main_v116 : DevRef τ sig)) 0 q = at2 (Vin (main_arg5 : DevRef τ sig)) (2 : Fin 3) q := by
  after_results
  unfold at2
  refine (shapeCast_a_1a_apply _ _ 0 q).trans ?_
  refine (shapeCast_1a_a_apply _ _ q).trans ?_
  exact slice2_axis0_apply 2 _ _ 0 q 2 rfl

theorem host7_b1_fun :
    (fun q => at2 (after (hostOps7 (F := Ideal)) Vin (main_v116 : DevRef τ sig)) 0 q) = fun q : Fin 512 => at2 (Vin (main_arg5 : DevRef τ sig)) (2 : Fin 3) q :=
  funext fun q => host7_b1 Vin q

/-- The stretch does not write layer 2's input. -/
theorem host7_x : after (hostOps7 (F := Ideal)) Vin (main_v101 : DevRef τ sig) = Vin (main_v101 : DevRef τ sig) :=
  StableHlo.after_of_writes_sub hostOps7 _ hostOps7_writes (by decide)

/-- The stretch does not write the source column of the edge list. -/
theorem host7_src : after (hostOps7 (F := Ideal)) Vin (main_v3 : DevRef τ sig) = Vin (main_v3 : DevRef τ sig) :=
  StableHlo.after_of_writes_sub hostOps7 _ hostOps7_writes (by decide)

/-- The stretch does not write the destination column of the edge list. -/
theorem host7_dst : after (hostOps7 (F := Ideal)) Vin (main_v5 : DevRef τ sig) = Vin (main_v5 : DevRef τ sig) :=
  StableHlo.after_of_writes_sub hostOps7 _ hostOps7_writes (by decide)

end Cert.KernelIdeal.HandV

end
-- ==== Proof.KI.HostB.lean ====
/-
  The host operations between a layer's first and second kernel, read at the buffers the second kernel takes.

  From the column sums s and sums of squares q2 the first kernel leaves, the stretch computes the mean row s / 50000 and
  the variance row q2 / 50000 − mean · mean; it cuts the layer's scale, shift, second weight matrix and second bias out
  of the stacked parameter arrays and lays each vector out as a one-row matrix. It writes neither the first product nor
  the layer's input.
-/
import proofs.«132438_j6098853560655_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import proofs.«132438_j6098853560655_1_alg».proof.Proof.Spec
import proofs.«132438_j6098853560655_1_alg».proof.Proof.Math.Consts
import proofs.«132438_j6098853560655_1_alg».proof.Proof.KI.At2
import proofs.«132438_j6098853560655_1_alg».proof.Proof.KI.HostLib
set_option maxRecDepth 16384

noncomputable section

namespace Cert.KernelIdeal.HandV

open Idealize.ShloMosaic Idealize.ShloMosaic.TcCoe Idealize.ShloMosaic.ValueIdx Idealize.ShloMosaic.StableHlo
open Cert.KernelIdeal Cert.KernelIdeal.Gen
open scoped BigOperators

variable (Vin : Valuation τ sig (Elt Ideal))

/-! ### Layer 0 -/

/-- The mean row of layer 0's first product: its column sums over the row count. -/
theorem host2_mean (q : Fin 512) :
    at2 (after (hostOps2 (F := Ideal)) Vin (main_v25 : DevRef τ sig)) 0 q = Cert.Spec.meanOf (fun q => at2 (Vin (main_v23_1 : DevRef τ sig)) 0 q) q := by
  after_results
  rfl

theorem host2_mean_fun :
    (fun q => at2 (after (hostOps2 (F := Ideal)) Vin (main_v25 : DevRef τ sig)) 0 q) = Cert.Spec.meanOf (fun q : Fin 512 => at2 (Vin (main_v23_1 : DevRef τ sig)) 0 q) :=
  funext fun q => host2_mean Vin q

/-- The variance row of layer 0's first product: the mean of the squares minus the square of the mean. -/
theorem host2_var (q : Fin 512) :
    at2 (after (hostOps2 (F := Ideal)) Vin (main_v29 : DevRef τ sig)) 0 q
      = Cert.Spec.varK (fun q => at2 (Vin (main_v23_2 : DevRef τ sig)) 0 q) (Cert.Spec.meanOf (fun q => at2 (Vin (main_v23_1 : DevRef τ sig)) 0 q)) q := by
  after_results
  rfl

theorem host2_var_fun :
    (fun q => at2 (after (hostOps2 (F := Ideal)) Vin (main_v29 : DevRef τ sig)) 0 q)
      = Cert.Spec.varK (fun q : Fin 512 => at2 (Vin (main_v23_2 : DevRef τ sig)) 0 q) (Cert.Spec.meanOf (fun q => at2 (Vin (main_v23_1 : DevRef τ sig)) 0 q)) :=
  funext fun q => host2_var Vin q

/-- The scale row of layer 0's first normalisation is row 0 of the stacked scales. -/
theorem host2_g1 (q : Fin 512) :
    at2 (after (hostOps2 (F := Ideal)) Vin (main_v38 : DevRef τ sig)) 0 q = at2 (Vin (main_arg6 : DevRef τ sig)) (0 : Fin 3) q := by
  after_results
  unfold at2
  refine (shapeCast_a_1a_apply _ _ 0 q).trans ?_
  refine (shapeCast_1a_a_apply _ _ q).trans ?_
  exact slice2_axis0_apply 0 _ _ 0 q 0 rfl

theorem host2_g1_fun :
    (fun q => at2 (after (hostOps2 (F := Ideal)) Vin (main_v38 : DevRef τ sig)) 0 q) = fun q : Fin 512 => at2 (Vin (main_arg6 : DevRef τ sig)) (0 : Fin 3) q :=
  funext fun q => host2_g1 Vin q

/-- The shift row of layer 0's first normalisation is row 0 of the stacked shifts. -/
theorem host2_beta1 (q : Fin 512) :
    at2 (after (hostOps2 (F := Ideal)) Vin (main_v39 : DevRef τ sig)) 0 q = at2 (Vin (main_arg7 : DevRef τ sig)) (0 : Fin 3) q := by
  after_results
  unfold at2
  refine (shapeCast_a_1a_apply _ _ 0 q).trans ?_
  refine (shapeCast_1a_a_apply _ _ q).trans ?_
  exact slice2_axis0_apply 0 _ _ 0 q 0 rfl

theorem host2_beta1_fun :
    (fun q => at2 (after (hostOps2 (F := Ideal)) Vin (main_v39 : DevRef τ sig)) 0 q) = fun q : Fin 512 => at2 (Vin (main_arg7 : DevRef τ sig)) (0 : Fin 3) q :=
  funext fun q => host2_beta1 Vin q

/-- The second weight matrix of layer 0 is slab 0 of the stacked weights. -/
theorem host2_W2 (k : Fin 512) (q : Fin 256) :
    at2 (after (hostOps2 (F := Ideal)) Vin (main_v35 : DevRef τ sig)) k q = at3 (Vin (main_arg8 : DevRef τ sig)) (0 : Fin 3) k q := by
  after_results
  unfold at2 at3
  refine (shapeCast_1ab_ab_apply _ _ k q).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem host2_W2_fun :
    (fun k q => at2 (after (hostOps2 (F := Ideal)) Vin (main_v35 : DevRef τ sig)) k q) = fun (k : Fin 512) (q : Fin 256) => at3 (Vin (main_arg8 : DevRef τ sig)) (0 : Fin 3) k q :=
  funext fun k => funext fun q => host2_W2 Vin k q

/-- The second bias row of layer 0 is row 0 of the stacked biases. -/
theorem host2_b2 (q : Fin 256) :
    at2 (after (hostOps2 (F := Ideal)) Vin (main_v40 : DevRef τ sig)) 0 q = at2 (Vin (main_arg9 : DevRef τ sig)) (0 : Fin 3) q := by
  after_results
  unfold at2
  refine (shapeCast_a_1a_apply _ _ 0 q).trans ?_
  refine (shapeCast_1a_a_apply _ _ q).trans ?_
  exact slice2_axis0_apply 0 _ _ 0 q 0 rfl

theorem host2_b2_fun :
    (fun q => at2 (after (hostOps2 (F := Ideal)) Vin (main_v40 : DevRef τ sig)) 0 q) = fun q : Fin 256 => at2 (Vin (main_arg9 : DevRef τ sig)) (0 : Fin 3) q :=
  funext fun q => host2_b2 Vin q

/-- The stretch does not write layer 0's first product. -/
theorem host2_h1 : after (hostOps2 (F := Ideal)) Vin (main_v23_0 : DevRef τ sig) = Vin (main_v23_0 : DevRef τ sig) :=
  StableHlo.after_of_writes_sub hostOps2 _ hostOps2_writes (by decide)

/-- The stretch does not write layer 0's input. -/
theorem host2_x : after (hostOps2 (F := Ideal)) Vin (main_v7 : DevRef τ sig) = Vin (main_v7 : DevRef τ sig) :=
  StableHlo.after_of_writes_sub hostOps2 _ hostOps2_writes (by decide)

/-! ### Layer 1 -/

/-- The mean row of layer 1's first product: its column sums over the row count. -/
theorem host5_mean (q : Fin 512) :
    at2 (after (hostOps5 (F := Ideal)) Vin (main_v72 : DevRef τ sig)) 0 q = Cert.Spec.meanOf (fun q => at2 (Vin (main_v70_1 : DevRef τ sig)) 0 q) q := by
  after_results
  rfl

theorem host5_mean_fun :
    (fun q => at2 (after (hostOps5 (F := Ideal)) Vin (main_v72 : DevRef τ sig)) 0 q) = Cert.Spec.meanOf (fun q : Fin 512 => at2 (Vin (main_v70_1 : DevRef τ sig)) 0 q) :=
  funext fun q => host5_mean Vin q

/-- The variance row of layer 1's first product: the mean of the squares minus the square of the mean. -/
theorem host5_var (q : Fin 512) :
    at2 (after (hostOps5 (F := Ideal)) Vin (main_v76 : DevRef τ sig)) 0 q
      = Cert.Spec.varK (fun q => at2 (Vin (main_v70_2 : DevRef τ sig)) 0 q) (Cert.Spec.meanOf (fun q => at2 (Vin (main_v70_1 : DevRef τ sig)) 0 q)) q := by
  after_results
  rfl

theorem host5_var_fun :
    (fun q => at2 (after (hostOps5 (F := Ideal)) Vin (main_v76 : DevRef τ sig)) 0 q)
      = Cert.Spec.varK (fun q : Fin 512 => at2 (Vin (main_v70_2 : DevRef τ sig)) 0 q) (Cert.Spec.meanOf (fun q => at2 (Vin (main_v70_1 : DevRef τ sig)) 0 q)) :=
  funext fun q => host5_var Vin q

/-- The scale row of layer 1's first normalisation is row 1 of the stacked scales. -/
theorem host5_g1 (q : Fin 512) :
    at2 (after (hostOps5 (F := Ideal)) Vin (main_v85 : DevRef τ sig)) 0 q = at2 (Vin (main_arg6 : DevRef τ sig)) (1 : Fin 3) q := by
  after_results
  unfold at2
  refine (shapeCast_a_1a_apply _ _ 0 q).trans ?_
  refine (shapeCast_1a_a_apply _ _ q).trans ?_
  exact slice2_axis0_apply 1 _ _ 0 q 1 rfl

theorem host5_g1_fun :
    (fun q => at2 (after (hostOps5 (F := Ideal)) Vin (main_v85 : DevRef τ sig)) 0 q) = fun q : Fin 512 => at2 (Vin (main_arg6 : DevRef τ sig)) (1 : Fin 3) q :=
  funext fun q => host5_g1 Vin q

/-- The shift row of layer 1's first normalisation is row 1 of the stacked shifts. -/
theorem host5_beta1 (q : Fin 512) :
    at2 (after (hostOps5 (F := Ideal)) Vin (main_v86 : DevRef τ sig)) 0 q = at2 (Vin (main_arg7 : DevRef τ sig)) (1 : Fin 3) q := by
  after_results
  unfold at2
  refine (shapeCast_a_1a_apply _ _ 0 q).trans ?_
  refine (shapeCast_1a_a_apply _ _ q).trans ?_
  exact slice2_axis0_apply 1 _ _ 0 q 1 rfl

theorem host5_beta1_fun :
    (fun q => at2 (after (hostOps5 (F := Ideal)) Vin (main_v86 : DevRef τ sig)) 0 q) = fun q : Fin 512 => at2 (Vin (main_arg7 : DevRef τ sig)) (1 : Fin 3) q :=
  funext fun q => host5_beta1 Vin q

/-- The second weight matrix of layer 1 is slab 1 of the stacked weights. -/
theorem host5_W2 (k : Fin 512) (q : Fin 256) :
    at2 (after (hostOps5 (F := Ideal)) Vin (main_v82 : DevRef τ sig)) k q = at3 (Vin (main_arg8 : DevRef τ sig)) (1 : Fin 3) k q := by
  after_results
  unfold at2 at3
  refine (shapeCast_1ab_ab_apply _ _ k q).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem host5_W2_fun :
    (fun k q => at2 (after (hostOps5 (F := Ideal)) Vin (main_v82 : DevRef τ sig)) k q) = fun (k : Fin 512) (q : Fin 256) => at3 (Vin (main_arg8 : DevRef τ sig)) (1 : Fin 3) k q :=
  funext fun k => funext fun q => host5_W2 Vin k q

/-- The second bias row of layer 1 is row 1 of the stacked biases. -/
theorem host5_b2 (q : Fin 256) :
    at2 (after (hostOps5 (F := Ideal)) Vin (main_v87 : DevRef τ sig)) 0 q = at2 (Vin (main_arg9 : DevRef τ sig)) (1 : Fin 3) q := by
  after_results
  unfold at2
  refine (shapeCast_a_1a_apply _ _ 0 q).trans ?_
  refine (shapeCast_1a_a_apply _ _ q).trans ?_
  exact slice2_axis0_apply 1 _ _ 0 q 1 rfl

theorem host5_b2_fun :
    (fun q => at2 (after (hostOps5 (F := Ideal)) Vin (main_v87 : DevRef τ sig)) 0 q) = fun q : Fin 256 => at2 (Vin (main_arg9 : DevRef τ sig)) (1 : Fin 3) q :=
  funext fun q => host5_b2 Vin q

/-- The stretch does not write layer 1's first product. -/
theorem host5_h1 : after (hostOps5 (F := Ideal)) Vin (main_v70_0 : DevRef τ sig) = Vin (main_v70_0 : DevRef τ sig) :=
  StableHlo.after_of_writes_sub hostOps5 _ hostOps5_writes (by decide)

/-- The stretch does not write layer 1's input. -/
theorem host5_x : after (hostOps5 (F := Ideal)) Vin (main_v54 : DevRef τ sig) = Vin (main_v54 : DevRef τ sig) :=
  StableHlo.after_of_writes_sub hostOps5 _ hostOps5_writes (by decide)

/-! ### Layer 2 -/

/-- The mean row of layer 2's first product: its column sums over the row count. -/
theorem host8_mean (q : Fin 512) :
    at2 (after (hostOps8 (F := Ideal)) Vin (main_v119 : DevRef τ sig)) 0 q = Cert.Spec.meanOf (fun q => at2 (Vin (main_v117_1 : DevRef τ sig)) 0 q) q := by
  after_results
  rfl

theorem host8_mean_fun :
    (fun q => at2 (after (hostOps8 (F := Ideal)) Vin (main_v119 : DevRef τ sig)) 0 q) = Cert.Spec.meanOf (fun q : Fin 512 => at2 (Vin (main_v117_1 : DevRef τ sig)) 0 q) :=
  funext fun q => host8_mean Vin q

/-- The variance row of layer 2's first product: the mean of the squares minus the square of the mean. -/
theorem host8_var (q : Fin 512) :
    at2 (after (hostOps8 (F := Ideal)) Vin (main_v123 : DevRef τ sig)) 0 q
      = Cert.Spec.varK (fun q => at2 (Vin (main_v117_2 : DevRef τ sig)) 0 q) (Cert.Spec.meanOf (fun q => at2 (Vin (main_v117_1 : DevRef τ sig)) 0 q)) q := by
  after_results
  rfl

theorem host8_var_fun :
    (fun q => at2 (after (hostOps8 (F := Ideal)) Vin (main_v123 : DevRef τ sig)) 0 q)
      = Cert.Spec.varK (fun q : Fin 512 => at2 (Vin (main_v117_2 : DevRef τ sig)) 0 q) (Cert.Spec.meanOf (fun q => at2 (Vin (main_v117_1 : DevRef τ sig)) 0 q)) :=
  funext fun q => host8_var Vin q

/-- The scale row of layer 2's first normalisation is row 2 of the stacked scales. -/
theorem host8_g1 (q : Fin 512) :
    at2 (after (hostOps8 (F := Ideal)) Vin (main_v132 : DevRef τ sig)) 0 q = at2 (Vin (main_arg6 : DevRef τ sig)) (2 : Fin 3) q := by
  after_results
  unfold at2
  refine (shapeCast_a_1a_apply _ _ 0 q).trans ?_
  refine (shapeCast_1a_a_apply _ _ q).trans ?_
  exact slice2_axis0_apply 2 _ _ 0 q 2 rfl

theorem host8_g1_fun :
    (fun q => at2 (after (hostOps8 (F := Ideal)) Vin (main_v132 : DevRef τ sig)) 0 q) = fun q : Fin 512 => at2 (Vin (main_arg6 : DevRef τ sig)) (2 : Fin 3) q :=
  funext fun q => host8_g1 Vin q

/-- The shift row of layer 2's first normalisation is row 2 of the stacked shifts. -/
theorem host8_beta1 (q : Fin 512) :
    at2 (after (hostOps8 (F := Ideal)) Vin (main_v133 : DevRef τ sig)) 0 q = at2 (Vin (main_arg7 : DevRef τ sig)) (2 : Fin 3) q := by
  after_results
  unfold at2
  refine (shapeCast_a_1a_apply _ _ 0 q).trans ?_
  refine (shapeCast_1a_a_apply _ _ q).trans ?_
  exact slice2_axis0_apply 2 _ _ 0 q 2 rfl

theorem host8_beta1_fun :
    (fun q => at2 (after (hostOps8 (F := Ideal)) Vin (main_v133 : DevRef τ sig)) 0 q) = fun q : Fin 512 => at2 (Vin (main_arg7 : DevRef τ sig)) (2 : Fin 3) q :=
  funext fun q => host8_beta1 Vin q

/-- The second weight matrix of layer 2 is slab 2 of the stacked weights. -/
theorem host8_W2 (k : Fin 512) (q : Fin 256) :
    at2 (after (hostOps8 (F := Ideal)) Vin (main_v129 : DevRef τ sig)) k q = at3 (Vin (main_arg8 : DevRef τ sig)) (2 : Fin 3) k q := by
  after_results
  unfold at2 at3
  refine (shapeCast_1ab_ab_apply _ _ k q).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem host8_W2_fun :
    (fun k q => at2 (after (hostOps8 (F := Ideal)) Vin (main_v129 : DevRef τ sig)) k q) = fun (k : Fin 512) (q : Fin 256) => at3 (Vin (main_arg8 : DevRef τ sig)) (2 : Fin 3) k q :=
  funext fun k => funext fun q => host8_W2 Vin k q

/-- The second bias row of layer 2 is row 2 of the stacked biases. -/
theorem host8_b2 (q : Fin 256) :
    at2 (after (hostOps8 (F := Ideal)) Vin (main_v134 : DevRef τ sig)) 0 q = at2 (Vin (main_arg9 : DevRef τ sig)) (2 : Fin 3) q := by
  after_results
  unfold at2
  refine (shapeCast_a_1a_apply _ _ 0 q).trans ?_
  refine (shapeCast_1a_a_apply _ _ q).trans ?_
  exact slice2_axis0_apply 2 _ _ 0 q 2 rfl

theorem host8_b2_fun :
    (fun q => at2 (after (hostOps8 (F := Ideal)) Vin (main_v134 : DevRef τ sig)) 0 q) = fun q : Fin 256 => at2 (Vin (main_arg9 : DevRef τ sig)) (2 : Fin 3) q :=
  funext fun q => host8_b2 Vin q

/-- The stretch does not write layer 2's first product. -/
theorem host8_h1 : after (hostOps8 (F := Ideal)) Vin (main_v117_0 : DevRef τ sig) = Vin (main_v117_0 : DevRef τ sig) :=
  StableHlo.after_of_writes_sub hostOps8 _ hostOps8_writes (by decide)

/-- The stretch does not write layer 2's input. -/
theorem host8_x : after (hostOps8 (F := Ideal)) Vin (main_v101 : DevRef τ sig) = Vin (main_v101 : DevRef τ sig) :=
  StableHlo.after_of_writes_sub hostOps8 _ hostOps8_writes (by decide)

end Cert.KernelIdeal.HandV

end
-- ==== Proof.KI.HostC.lean ====
/-
  The host operations between a layer's second kernel and its final normalisation, read at the buffers the latter takes.

  From the column sums and sums of squares of the second product (with the residual) the stretch computes the mean row
  and the variance row as before, and lays the layer's final scale and shift out as one-row matrices. It does not write
  the second product.
-/
import proofs.«132438_j6098853560655_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import proofs.«132438_j6098853560655_1_alg».proof.Proof.Spec
import proofs.«132438_j6098853560655_1_alg».proof.Proof.Math.Consts
import proofs.«132438_j6098853560655_1_alg».proof.Proof.KI.At2
import proofs.«132438_j6098853560655_1_alg».proof.Proof.KI.HostLib
set_option maxRecDepth 16384

noncomputable section

namespace Cert.KernelIdeal.HandV

open Idealize.ShloMosaic Idealize.ShloMosaic.TcCoe Idealize.ShloMosaic.ValueIdx Idealize.ShloMosaic.StableHlo
open Cert.KernelIdeal Cert.KernelIdeal.Gen
open scoped BigOperators

variable (Vin : Valuation τ sig (Elt Ideal))

/-! ### Layer 0 -/

/-- The mean row of layer 0's second product: its column sums over the row count. -/
theorem host3_mean (q : Fin 256) :
    at2 (after (hostOps3 (F := Ideal)) Vin (main_v43 : DevRef τ sig)) 0 q = Cert.Spec.meanOf (fun q => at2 (Vin (main_v41_1 : DevRef τ sig)) 0 q) q := by
  after_results
  rfl

theorem host3_mean_fun :
    (fun q => at2 (after (hostOps3 (F := Ideal)) Vin (main_v43 : DevRef τ sig)) 0 q) = Cert.Spec.meanOf (fun q : Fin 256 => at2 (Vin (main_v41_1 : DevRef τ sig)) 0 q) :=
  funext fun q => host3_mean Vin q

/-- The variance row of layer 0's second product: the mean of the squares minus the square of the mean. -/
theorem host3_var (q : Fin 256) :
    at2 (after (hostOps3 (F := Ideal)) Vin (main_v47 : DevRef τ sig)) 0 q
      = Cert.Spec.varK (fun q => at2 (Vin (main_v41_2 : DevRef τ sig)) 0 q) (Cert.Spec.meanOf (fun q => at2 (Vin (main_v41_1 : DevRef τ sig)) 0 q)) q := by
  after_results
  rfl

theorem host3_var_fun :
    (fun q => at2 (after (hostOps3 (F := Ideal)) Vin (main_v47 : DevRef τ sig)) 0 q)
      = Cert.Spec.varK (fun q : Fin 256 => at2 (Vin (main_v41_2 : DevRef τ sig)) 0 q) (Cert.Spec.meanOf (fun q => at2 (Vin (main_v41_1 : DevRef τ sig)) 0 q)) :=
  funext fun q => host3_var Vin q

/-- The scale row of layer 0's final normalisation is row 0 of the stacked scales. -/
theorem host3_gf (q : Fin 256) :
    at2 (after (hostOps3 (F := Ideal)) Vin (main_v52 : DevRef τ sig)) 0 q = at2 (Vin (main_arg10 : DevRef τ sig)) (0 : Fin 3) q := by
  after_results
  unfold at2
  refine (shapeCast_a_1a_apply _ _ 0 q).trans ?_
  refine (shapeCast_1a_a_apply _ _ q).trans ?_
  exact slice2_axis0_apply 0 _ _ 0 q 0 rfl

theorem host3_gf_fun :
    (fun q => at2 (after (hostOps3 (F := Ideal)) Vin (main_v52 : DevRef τ sig)) 0 q) = fun q : Fin 256 => at2 (Vin (main_arg10 : DevRef τ sig)) (0 : Fin 3) q :=
  funext fun q => host3_gf Vin q

/-- The shift row of layer 0's final normalisation is row 0 of the stacked shifts. -/
theorem host3_betaf (q : Fin 256) :
    at2 (after (hostOps3 (F := Ideal)) Vin (main_v53 : DevRef τ sig)) 0 q = at2 (Vin (main_arg11 : DevRef τ sig)) (0 : Fin 3) q := by
  after_results
  unfold at2
  refine (shapeCast_a_1a_apply _ _ 0 q).trans ?_
  refine (shapeCast_1a_a_apply _ _ q).trans ?_
  exact slice2_axis0_apply 0 _ _ 0 q 0 rfl

theorem host3_betaf_fun :
    (fun q => at2 (after (hostOps3 (F := Ideal)) Vin (main_v53 : DevRef τ sig)) 0 q) = fun q : Fin 256 => at2 (Vin (main_arg11 : DevRef τ sig)) (0 : Fin 3) q :=
  funext fun q => host3_betaf Vin q

/-- The stretch does not write layer 0's second product. -/
theorem host3_h3 : after (hostOps3 (F := Ideal)) Vin (main_v41_0 : DevRef τ sig) = Vin (main_v41_0 : DevRef τ sig) :=
  StableHlo.after_of_writes_sub hostOps3 _ hostOps3_writes (by decide)

/-! ### Layer 1 -/

/-- The mean row of layer 1's second product: its column sums over the row count. -/
theorem host6_mean (q : Fin 256) :
    at2 (after (hostOps6 (F := Ideal)) Vin (main_v90 : DevRef τ sig)) 0 q = Cert.Spec.meanOf (fun q => at2 (Vin (main_v88_1 : DevRef τ sig)) 0 q) q := by
  after_results
  rfl

theorem host6_mean_fun :
    (fun q => at2 (after (hostOps6 (F := Ideal)) Vin (main_v90 : DevRef τ sig)) 0 q) = Cert.Spec.meanOf (fun q : Fin 256 => at2 (Vin (main_v88_1 : DevRef τ sig)) 0 q) :=
  funext fun q => host6_mean Vin q

/-- The variance row of layer 1's second product: the mean of the squares minus the square of the mean. -/
theorem host6_var (q : Fin 256) :
    at2 (after (hostOps6 (F := Ideal)) Vin (main_v94 : DevRef τ sig)) 0 q
      = Cert.Spec.varK (fun q => at2 (Vin (main_v88_2 : DevRef τ sig)) 0 q) (Cert.Spec.meanOf (fun q => at2 (Vin (main_v88_1 : DevRef τ sig)) 0 q)) q := by
  after_results
  rfl

theorem host6_var_fun :
    (fun q => at2 (after (hostOps6 (F := Ideal)) Vin (main_v94 : DevRef τ sig)) 0 q)
      = Cert.Spec.varK (fun q : Fin 256 => at2 (Vin (main_v88_2 : DevRef τ sig)) 0 q) (Cert.Spec.meanOf (fun q => at2 (Vin (main_v88_1 : DevRef τ sig)) 0 q)) :=
  funext fun q => host6_var Vin q

/-- The scale row of layer 1's final normalisation is row 1 of the stacked scales. -/
theorem host6_gf (q : Fin 256) :
    at2 (after (hostOps6 (F := Ideal)) Vin (main_v99 : DevRef τ sig)) 0 q = at2 (Vin (main_arg10 : DevRef τ sig)) (1 : Fin 3) q := by
  after_results
  unfold at2
  refine (shapeCast_a_1a_apply _ _ 0 q).trans ?_
  refine (shapeCast_1a_a_apply _ _ q).trans ?_
  exact slice2_axis0_apply 1 _ _ 0 q 1 rfl

theorem host6_gf_fun :
    (fun q => at2 (after (hostOps6 (F := Ideal)) Vin (main_v99 : DevRef τ sig)) 0 q) = fun q : Fin 256 => at2 (Vin (main_arg10 : DevRef τ sig)) (1 : Fin 3) q :=
  funext fun q => host6_gf Vin q

/-- The shift row of layer 1's final normalisation is row 1 of the stacked shifts. -/
theorem host6_betaf (q : Fin 256) :
    at2 (after (hostOps6 (F := Ideal)) Vin (main_v100 : DevRef τ sig)) 0 q = at2 (Vin (main_arg11 : DevRef τ sig)) (1 : Fin 3) q := by
  after_results
  unfold at2
  refine (shapeCast_a_1a_apply _ _ 0 q).trans ?_
  refine (shapeCast_1a_a_apply _ _ q).trans ?_
  exact slice2_axis0_apply 1 _ _ 0 q 1 rfl

theorem host6_betaf_fun :
    (fun q => at2 (after (hostOps6 (F := Ideal)) Vin (main_v100 : DevRef τ sig)) 0 q) = fun q : Fin 256 => at2 (Vin (main_arg11 : DevRef τ sig)) (1 : Fin 3) q :=
  funext fun q => host6_betaf Vin q

/-- The stretch does not write layer 1's second product. -/
theorem host6_h3 : after (hostOps6 (F := Ideal)) Vin (main_v88_0 : DevRef τ sig) = Vin (main_v88_0 : DevRef τ sig) :=
  StableHlo.after_of_writes_sub hostOps6 _ hostOps6_writes (by decide)

/-! ### Layer 2 -/

/-- The mean row of layer 2's second product: its column sums over the row count. -/
theorem host9_mean (q : Fin 256) :
    at2 (after (hostOps9 (F := Ideal)) Vin (main_v137 : DevRef τ sig)) 0 q = Cert.Spec.meanOf (fun q => at2 (Vin (main_v135_1 : DevRef τ sig)) 0 q) q := by
  after_results
  rfl

theorem host9_mean_fun :
    (fun q => at2 (after (hostOps9 (F := Ideal)) Vin (main_v137 : DevRef τ sig)) 0 q) = Cert.Spec.meanOf (fun q : Fin 256 => at2 (Vin (main_v135_1 : DevRef τ sig)) 0 q) :=
  funext fun q => host9_mean Vin q

/-- The variance row of layer 2's second product: the mean of the squares minus the square of the mean. -/
theorem host9_var (q : Fin 256) :
    at2 (after (hostOps9 (F := Ideal)) Vin (main_v141 : DevRef τ sig)) 0 q
      = Cert.Spec.varK (fun q => at2 (Vin (main_v135_2 : DevRef τ sig)) 0 q) (Cert.Spec.meanOf (fun q => at2 (Vin (main_v135_1 : DevRef τ sig)) 0 q)) q := by
  after_results
  rfl

theorem host9_var_fun :
    (fun q => at2 (after (hostOps9 (F := Ideal)) Vin (main_v141 : DevRef τ sig)) 0 q)
      = Cert.Spec.varK (fun q : Fin 256 => at2 (Vin (main_v135_2 : DevRef τ sig)) 0 q) (Cert.Spec.meanOf (fun q => at2 (Vin (main_v135_1 : DevRef τ sig)) 0 q)) :=
  funext fun q => host9_var Vin q

/-- The scale row of layer 2's final normalisation is row 2 of the stacked scales. -/
theorem host9_gf (q : Fin 256) :
    at2 (after (hostOps9 (F := Ideal)) Vin (main_v146 : DevRef τ sig)) 0 q = at2 (Vin (main_arg10 : DevRef τ sig)) (2 : Fin 3) q := by
  after_results
  unfold at2
  refine (shapeCast_a_1a_apply _ _ 0 q).trans ?_
  refine (shapeCast_1a_a_apply _ _ q).trans ?_
  exact slice2_axis0_apply 2 _ _ 0 q 2 rfl

theorem host9_gf_fun :
    (fun q => at2 (after (hostOps9 (F := Ideal)) Vin (main_v146 : DevRef τ sig)) 0 q) = fun q : Fin 256 => at2 (Vin (main_arg10 : DevRef τ sig)) (2 : Fin 3) q :=
  funext fun q => host9_gf Vin q

/-- The shift row of layer 2's final normalisation is row 2 of the stacked shifts. -/
theorem host9_betaf (q : Fin 256) :
    at2 (after (hostOps9 (F := Ideal)) Vin (main_v147 : DevRef τ sig)) 0 q = at2 (Vin (main_arg11 : DevRef τ sig)) (2 : Fin 3) q := by
  after_results
  unfold at2
  refine (shapeCast_a_1a_apply _ _ 0 q).trans ?_
  refine (shapeCast_1a_a_apply _ _ q).trans ?_
  exact slice2_axis0_apply 2 _ _ 0 q 2 rfl

theorem host9_betaf_fun :
    (fun q => at2 (after (hostOps9 (F := Ideal)) Vin (main_v147 : DevRef τ sig)) 0 q) = fun q : Fin 256 => at2 (Vin (main_arg11 : DevRef τ sig)) (2 : Fin 3) q :=
  funext fun q => host9_betaf Vin q

/-- The stretch does not write layer 2's second product. -/
theorem host9_h3 : after (hostOps9 (F := Ideal)) Vin (main_v135_0 : DevRef τ sig) = Vin (main_v135_0 : DevRef τ sig) :=
  StableHlo.after_of_writes_sub hostOps9 _ hostOps9_writes (by decide)

end Cert.KernelIdeal.HandV

end
-- ==== Proof.KI.ValueL0.lean ====
import proofs.«132438_j6098853560655_1_alg».proof.Proof.KI.ValueDefs
import proofs.«132438_j6098853560655_1_alg».proof.Proof.KI.R1V
import proofs.«132438_j6098853560655_1_alg».proof.Proof.KI.R2V
import proofs.«132438_j6098853560655_1_alg».proof.Proof.KI.R3V
import proofs.«132438_j6098853560655_1_alg».proof.Proof.KI.Host0
import proofs.«132438_j6098853560655_1_alg».proof.Proof.KI.HostA
import proofs.«132438_j6098853560655_1_alg».proof.Proof.KI.HostB
import proofs.«132438_j6098853560655_1_alg».proof.Proof.KI.HostC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.StableHlo
open scoped BigOperators

variable (m : (ℓ : Loc nD τ sig) → Buf (Elt Ideal) ℓ)

/-! # Layer 0: from its input to its output through its three kernels and the host operations between them -/

/-! ## The layer's stages as rows and matrices of extended reals -/

/-- The layer's input. -/
def L0_x (c : Dev nD) : Cert.Spec.X256 := fun p q => at2 (W2 m c main_v7) p q
/-- The first product, its column sums and column sums of squares, as the first kernel leaves them. -/
def L0_h1 (c : Dev nD) : Fin 50000 → Fin 512 → EReal := fun p q => at2 (W4 m c main_v23_0) p q
def L0_s1 (c : Dev nD) : Fin 512 → EReal := fun q => at2 (W4 m c main_v23_1) (0 : Fin 1) q
def L0_q1 (c : Dev nD) : Fin 512 → EReal := fun q => at2 (W4 m c main_v23_2) (0 : Fin 1) q
/-- The mean and variance rows the host computes from them. -/
def L0_mean1 (c : Dev nD) : Fin 512 → EReal := fun q => at2 (W5 m c main_v25) (0 : Fin 1) q
def L0_var1 (c : Dev nD) : Fin 512 → EReal := fun q => at2 (W5 m c main_v29) (0 : Fin 1) q
/-- The second product with the residual, and its column sums, as the second kernel leaves them. -/
def L0_h3 (c : Dev nD) : Cert.Spec.X256 := fun p q => at2 (W6 m c main_v41_0) p q
def L0_sf (c : Dev nD) : Fin 256 → EReal := fun q => at2 (W6 m c main_v41_1) (0 : Fin 1) q
def L0_qf (c : Dev nD) : Fin 256 → EReal := fun q => at2 (W6 m c main_v41_2) (0 : Fin 1) q
def L0_meanf (c : Dev nD) : Fin 256 → EReal := fun q => at2 (W7 m c main_v43) (0 : Fin 1) q
def L0_varf (c : Dev nD) : Fin 256 → EReal := fun q => at2 (W7 m c main_v47) (0 : Fin 1) q
/-- The layer's output, as the third kernel leaves it. -/
def L0_out (c : Dev nD) : Cert.Spec.X256 := fun p q => at2 (W8 m c main_v54) p q

/-! ## What the first kernel reads -/

theorem L0_rd_x (c : Dev nD) (p : Fin 50000) (k : Fin 256) : at2 (n0 := 50000) (n1 := 256) (E3 m c main_v7) p k = L0_x m c p k := by
  unfold L0_x
  exact congrArg (fun f => at2 (n0 := 50000) (n1 := 256) f p k) (carry_x_3 m c)

theorem L0_rd_agg (c : Dev nD) (p : Fin 50000) (k : Fin 256) :
    at2 (n0 := 50000) (n1 := 256) (E3 m c main_v17) p k = aggOf m c (L0_x m c) p k := by
  have e : (fun i : S50000x256.Idx => L0_x m c (i 0) (i 1)) = W2 m c main_v7 := at2_eta (n0 := 50000) (n1 := 256) (W2 m c main_v7)
  unfold aggOf aggM
  rw [e]
  refine congrArg (fun f => at2 (n0 := 50000) (n1 := 256) f p k) ?_
  show StableHlo.after hostOps1 (W2 m c) main_v17 = _
  rw [host1_agg (W2 m c), carry_v3_2 m c, carry_v5_2 m c]
  show aggK _ (StableHlo.after hostOps0 (W0 m c) main_v3) (StableHlo.after hostOps0 (W0 m c) main_v5) = _
  rw [host0_src (W0 m c), host0_dst (W0 m c)]

theorem L0_rd_W1 (c : Dev nD) (k : Fin 256) (q : Fin 512) :
    at2 (n0 := 256) (n1 := 512) (E3 m c main_v19) k q = (paramsOf m c (0 : Fin 3)).W1 k q := by
  show at2 (StableHlo.after hostOps1 (W2 m c) main_v19) k q = at3 (W0 m c main_arg4) (0 : Fin 3) k q
  rw [host1_W1 (W2 m c) k q, carry_arg4_2 m c]

theorem L0_rd_b1 (c : Dev nD) (q : Fin 512) :
    at2 (n0 := 1) (n1 := 512) (E3 m c main_v22) (0 : Fin 1) q = (paramsOf m c (0 : Fin 3)).b1 q := by
  show at2 (StableHlo.after hostOps1 (W2 m c) main_v22) (0 : Fin 1) q = at2 (W0 m c main_arg5) (0 : Fin 3) q
  rw [host1_b1 (W2 m c) q, carry_arg5_2 m c]

/-- The first product is the linear layer of the input plus its aggregate. -/
theorem L0_h1_at (c : Dev nD) (p : Fin 50000) (q : Fin 512) :
    L0_h1 m c p q = k1_h1 (E3 m) c p q := by
  unfold L0_h1
  rw [W4_out0 m c]
  exact arrAt1_4 (E3 m) c p q

theorem L0_hh1 (c : Dev nD) :
    L0_h1 m c = Cert.Spec.lin (Cert.Spec.addM (L0_x m c) (aggOf m c (L0_x m c))) (paramsOf m c (0 : Fin 3)).W1 (paramsOf m c (0 : Fin 3)).b1 := by
  funext p q
  rw [L0_h1_at]
  unfold k1_h1
  show _ = (0 + ∑ k : Fin 256, (L0_x m c p k + aggOf m c (L0_x m c) p k) * (paramsOf m c (0 : Fin 3)).W1 k q) + (paramsOf m c (0 : Fin 3)).b1 q
  refine congrArg₂ (· + ·) (congrArg (0 + ·) (Finset.sum_congr rfl fun k _ => ?_)) (L0_rd_b1 m c q)
  exact congrArg₂ (· * ·) (congrArg₂ (· + ·) (L0_rd_x m c p k) (L0_rd_agg m c p k)) (L0_rd_W1 m c k q)

theorem L0_hs1 (c : Dev nD) : L0_s1 m c = Cert.Spec.colsum (L0_h1 m c) := by
  funext q
  unfold L0_s1
  rw [W4_out1 m c]
  refine (arrAt1_5 (E3 m) c q).trans ?_
  exact congrArg (0 + ·) (Finset.sum_congr rfl fun p _ => (L0_h1_at m c p q).symm)

theorem L0_hq1 (c : Dev nD) : L0_q1 m c = Cert.Spec.colsumsq (L0_h1 m c) := by
  funext q
  unfold L0_q1
  rw [W4_out2 m c]
  refine (arrAt1_6 (E3 m) c q).trans ?_
  exact congrArg (0 + ·) (Finset.sum_congr rfl fun p _ => congrArg₂ (· * ·) (L0_h1_at m c p q).symm (L0_h1_at m c p q).symm)

/-! ## The host's mean and variance of the first product -/

theorem L0_hm1 (c : Dev nD) : L0_mean1 m c = Cert.Spec.meanOf (L0_s1 m c) :=
  host2_mean_fun (W4 m c)

theorem L0_hv1 (c : Dev nD) : L0_var1 m c = Cert.Spec.varK (L0_q1 m c) (L0_mean1 m c) := by
  rw [L0_hm1]
  exact host2_var_fun (W4 m c)

/-! ## What the second kernel reads -/

theorem L0_rd_h1 (c : Dev nD) (p : Fin 50000) (k : Fin 512) :
    at2 (n0 := 50000) (n1 := 512) (E5 m c main_v23_0) p k = L0_h1 m c p k := by
  unfold L0_h1
  exact congrArg (fun f => at2 (n0 := 50000) (n1 := 512) f p k) (host2_h1 (W4 m c))

theorem L0_rd_x5 (c : Dev nD) (p : Fin 50000) (q : Fin 256) :
    at2 (n0 := 50000) (n1 := 256) (E5 m c main_v7) p q = L0_x m c p q := by
  unfold L0_x
  exact congrArg (fun f => at2 (n0 := 50000) (n1 := 256) f p q) (carry_x_5 m c)

theorem L0_rd_g1 (c : Dev nD) (k : Fin 512) :
    at2 (n0 := 1) (n1 := 512) (E5 m c main_v38) (0 : Fin 1) k = (paramsOf m c (0 : Fin 3)).g1 k := by
  show at2 (StableHlo.after hostOps2 (W4 m c) main_v38) (0 : Fin 1) k = at2 (W0 m c main_arg6) (0 : Fin 3) k
  rw [host2_g1 (W4 m c) k, carry_arg6_4 m c]

theorem L0_rd_beta1 (c : Dev nD) (k : Fin 512) :
    at2 (n0 := 1) (n1 := 512) (E5 m c main_v39) (0 : Fin 1) k = (paramsOf m c (0 : Fin 3)).beta1 k := by
  show at2 (StableHlo.after hostOps2 (W4 m c) main_v39) (0 : Fin 1) k = at2 (W0 m c main_arg7) (0 : Fin 3) k
  rw [host2_beta1 (W4 m c) k, carry_arg7_4 m c]

theorem L0_rd_W2 (c : Dev nD) (k : Fin 512) (q : Fin 256) :
    at2 (n0 := 512) (n1 := 256) (E5 m c main_v35) k q = (paramsOf m c (0 : Fin 3)).W2 k q := by
  show at2 (StableHlo.after hostOps2 (W4 m c) main_v35) k q = at3 (W0 m c main_arg8) (0 : Fin 3) k q
  rw [host2_W2 (W4 m c) k q, carry_arg8_4 m c]

theorem L0_rd_b2 (c : Dev nD) (q : Fin 256) :
    at2 (n0 := 1) (n1 := 256) (E5 m c main_v40) (0 : Fin 1) q = (paramsOf m c (0 : Fin 3)).b2 q := by
  show at2 (StableHlo.after hostOps2 (W4 m c) main_v40) (0 : Fin 1) q = at2 (W0 m c main_arg9) (0 : Fin 3) q
  rw [host2_b2 (W4 m c) q, carry_arg9_4 m c]

/-- The second product with the residual. -/
theorem L0_h3_at (c : Dev nD) (p : Fin 50000) (q : Fin 256) :
    L0_h3 m c p q = dat2_h3 (E5 m) c p q := by
  unfold L0_h3
  rw [W6_out0 m c]
  exact arrAt2_8 (E5 m) c p q

theorem L0_hh3 (c : Dev nD) :
    L0_h3 m c = Cert.Spec.addM (Cert.Spec.lin (Cert.Spec.relu (Cert.Spec.bn (paramsOf m c (0 : Fin 3)).g1 (paramsOf m c (0 : Fin 3)).beta1
      (L0_h1 m c) (L0_mean1 m c) (L0_var1 m c))) (paramsOf m c (0 : Fin 3)).W2 (paramsOf m c (0 : Fin 3)).b2) (L0_x m c) := by
  funext p q
  rw [L0_h3_at]
  unfold dat2_h3
  show _ = ((0 + ∑ k : Fin 512, max ((paramsOf m c (0 : Fin 3)).g1 k * (L0_h1 m c p k - L0_mean1 m c k)
      * Ideal.rsqrt (L0_var1 m c k + Ideal.ofBits .f32 0x3727C5AC#32) + (paramsOf m c (0 : Fin 3)).beta1 k) 0 * (paramsOf m c (0 : Fin 3)).W2 k q)
    + (paramsOf m c (0 : Fin 3)).b2 q) + L0_x m c p q
  refine congrArg₂ (· + ·) (congrArg₂ (· + ·) (congrArg (0 + ·) (Finset.sum_congr rfl fun k _ => ?_)) (L0_rd_b2 m c q)) (L0_rd_x5 m c p q)
  refine congrArg₂ (· * ·) (congrArg (max · 0) ?_) (L0_rd_W2 m c k q)
  refine congrArg₂ (· + ·) (congrArg₂ (· * ·) (congrArg₂ (· * ·) (L0_rd_g1 m c k) (congrArg₂ (· - ·) (L0_rd_h1 m c p k) rfl)) rfl) (L0_rd_beta1 m c k)

theorem L0_hsf (c : Dev nD) : L0_sf m c = Cert.Spec.colsum (L0_h3 m c) := by
  funext q
  unfold L0_sf
  rw [W6_out1 m c]
  refine (arrAt2_9 (E5 m) c q).trans ?_
  exact congrArg (0 + ·) (Finset.sum_congr rfl fun p _ => (L0_h3_at m c p q).symm)

theorem L0_hqf (c : Dev nD) : L0_qf m c = Cert.Spec.colsumsq (L0_h3 m c) := by
  funext q
  unfold L0_qf
  rw [W6_out2 m c]
  refine (arrAt2_10 (E5 m) c q).trans ?_
  exact congrArg (0 + ·) (Finset.sum_congr rfl fun p _ => congrArg₂ (· * ·) (L0_h3_at m c p q).symm (L0_h3_at m c p q).symm)

theorem L0_hmf (c : Dev nD) : L0_meanf m c = Cert.Spec.meanOf (L0_sf m c) :=
  host3_mean_fun (W6 m c)

theorem L0_hvf (c : Dev nD) : L0_varf m c = Cert.Spec.varK (L0_qf m c) (L0_meanf m c) := by
  rw [L0_hmf]
  exact host3_var_fun (W6 m c)

/-! ## What the third kernel reads, and the layer's output -/

theorem L0_rd_h3 (c : Dev nD) (p : Fin 50000) (q : Fin 256) :
    at2 (n0 := 50000) (n1 := 256) (E7 m c main_v41_0) p q = L0_h3 m c p q := by
  unfold L0_h3
  exact congrArg (fun f => at2 (n0 := 50000) (n1 := 256) f p q) (host3_h3 (W6 m c))

theorem L0_rd_gf (c : Dev nD) (q : Fin 256) :
    at2 (n0 := 1) (n1 := 256) (E7 m c main_v52) (0 : Fin 1) q = (paramsOf m c (0 : Fin 3)).gf q := by
  show at2 (StableHlo.after hostOps3 (W6 m c) main_v52) (0 : Fin 1) q = at2 (W0 m c main_arg10) (0 : Fin 3) q
  rw [host3_gf (W6 m c) q, carry_arg10_6 m c]

theorem L0_rd_betaf (c : Dev nD) (q : Fin 256) :
    at2 (n0 := 1) (n1 := 256) (E7 m c main_v53) (0 : Fin 1) q = (paramsOf m c (0 : Fin 3)).betaf q := by
  show at2 (StableHlo.after hostOps3 (W6 m c) main_v53) (0 : Fin 1) q = at2 (W0 m c main_arg11) (0 : Fin 3) q
  rw [host3_betaf (W6 m c) q, carry_arg11_6 m c]

theorem L0_hout (c : Dev nD) :
    L0_out m c = Cert.Spec.bn (paramsOf m c (0 : Fin 3)).gf (paramsOf m c (0 : Fin 3)).betaf (L0_h3 m c) (L0_meanf m c) (L0_varf m c) := by
  funext p q
  unfold L0_out
  rw [W8_out0 m c]
  refine (arrAt3_5 (E7 m) c p q).trans ?_
  show _ = (paramsOf m c (0 : Fin 3)).gf q * (L0_h3 m c p q - L0_meanf m c q) * Ideal.rsqrt (L0_varf m c q + Ideal.ofBits .f32 0x3727C5AC#32)
    + (paramsOf m c (0 : Fin 3)).betaf q
  exact congrArg₂ (· + ·) (congrArg₂ (· * ·) (congrArg₂ (· * ·) (L0_rd_gf m c q) (congrArg₂ (· - ·) (L0_rd_h3 m c p q) rfl)) rfl) (L0_rd_betaf m c q)

/-- LAYER 0: its output is the specification's layer of its input. -/
theorem layer0_value (c : Dev nD) :
    L0_out m c = Cert.Spec.layerK (aggOf m c) (paramsOf m c (0 : Fin 3)) (L0_x m c) :=
  Cert.Spec.layerK_of_stages (aggOf m c) (paramsOf m c (0 : Fin 3)) (L0_x m c) (L0_h1 m c) (L0_s1 m c) (L0_q1 m c) (L0_mean1 m c) (L0_var1 m c)
    (L0_h3 m c) (L0_sf m c) (L0_qf m c) (L0_meanf m c) (L0_varf m c) (L0_out m c)
    (L0_hh1 m c) (L0_hs1 m c) (L0_hq1 m c) (L0_hm1 m c) (L0_hv1 m c) (L0_hh3 m c) (L0_hsf m c) (L0_hqf m c)
    (L0_hmf m c) (L0_hvf m c) (L0_hout m c)

end Cert.KernelIdeal.HandV

end
-- ==== Proof.KI.R4V.lean ====
import proofs.«132438_j6098853560655_1_alg».proof.Proof.KI.R4
import proofs.«132438_j6098853560655_1_alg».proof.Proof.KI.At2
import proofs.«132438_j6098853560655_1_alg».proof.Proof.Math.BlockSum25
import proofs.«132438_j6098853560655_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! # Region 4 at the extended reals: its three outputs, entry by entry -/

/-- The product of a 2000 × 256 block by the 256 × 512 matrix into a zero accumulator, at an entry. -/
theorem k4_matmul_at (a : FVec Ideal S2000x256 .bf16) (b : FVec Ideal S256x512 .bf16) (r : Fin 2000) (q : Fin 512) :
    matmul (F := Ideal) dot_S2000x256_S256x512_S2000x512_1_0_0_1_n_n none a b (constant (F := Ideal) S2000x512 .f32 0x00000000#32) (ix2 r q)
      = ∑ k : Fin 256, at2 a r k * at2 b k q := by
  simp only [matmul, at2_def]
  rw [Ideal.matmul_constant_zero_apply,
    ← Equiv.sum_comp (contrEquiv1 dot_S2000x256_S256x512_S2000x512_1_0_0_1_n_n 256 rfl rfl).symm]
  refine Finset.sum_congr rfl fun k _ => ?_
  have c2 := contrEquiv1_symm_val dot_S2000x256_S256x512_S2000x512_1_0_0_1_n_n 256 rfl rfl k
  have l2 : dot_S2000x256_S256x512_S2000x512_1_0_0_1_n_n.lhsIdx (ix2 r q) ((contrEquiv1 _ 256 rfl rfl).symm k) = ix2 r k := by
    funext ax; apply Fin.ext
    match ax with
    | ⟨0, _⟩ => simp [DotDims.lhsIdx, dot_S2000x256_S256x512_S2000x512_1_0_0_1_n_n]; rfl
    | ⟨1, _⟩ => simp [DotDims.lhsIdx, dot_S2000x256_S256x512_S2000x512_1_0_0_1_n_n]; exact c2
  have r2 : dot_S2000x256_S256x512_S2000x512_1_0_0_1_n_n.rhsIdx (ix2 r q) ((contrEquiv1 _ 256 rfl rfl).symm k) = ix2 k q := by
    funext ax; apply Fin.ext
    match ax with
    | ⟨0, _⟩ => simp [DotDims.rhsIdx, dot_S2000x256_S256x512_S2000x512_1_0_0_1_n_n]; exact c2
    | ⟨1, _⟩ => simp [DotDims.rhsIdx, dot_S2000x256_S256x512_S2000x512_1_0_0_1_n_n]; rfl
  rw [l2, r2]

/-- A bias row spread over the 2000 rows, at an entry: the row's entry in that column. -/
theorem k4_bcast_at (v : FVec Ideal S1x512 .f32) (r : Fin 2000) (q : Fin 512) :
    broadcastTo S2000x512 v broadcasts_S1x512_S2000x512 (ix2 r q) = at2 v 0 q :=
  broadcastTo_apply v _ (ix2 r q) (ix2 0 q) fun a => by
    match a with
    | ⟨0, _⟩ => rfl
    | ⟨1, _⟩ => rfl

/-- The column sums of a 2000 × 512 block, at a column. -/
theorem k4_colsum_at (src : FVec Ideal S2000x512 .f32) (q : Fin 512) :
    multiReduction (F := Ideal) .add [0] S512 src 0x00000000#32 reduces_S2000x512_S512 (.inl rfl) rfl (ix1 q)
      = ∑ r : Fin 2000, at2 src r q := by
  refine (Ideal.multiReduction_add_single src 0x00000000#32 reduces_S2000x512_S512 (.inl rfl) rfl (ix1 q)).trans ?_
  refine Finset.sum_congr rfl fun r _ => ?_
  show src _ = src (ix2 r q)
  refine congrArg src (funext fun a => Fin.ext ?_)
  match a with
  | ⟨0, _⟩ => rfl
  | ⟨1, _⟩ => rfl

/-- A row of 512 viewed as a 1 × 512 matrix, at an entry. -/
theorem k4_row_at (v : FVec Ideal S512 .f32) (q : Fin 512) :
    shapeCast S1x512 v shapeCasts_S512_S1x512 (ix2 0 q) = v (ix1 q) :=
  shapeCast_apply v _ (ix2 0 q) (ix1 q) (by
    rw [Shape.rowMajor_val_one, Shape.rowMajor_val_two]; show q.val = 0 * 512 + q.val; omega)

/-- The affine image of a block at an entry: the product row by column from a zero accumulator, then the bias. -/
theorem k4_pay3_at (x0 x1 : Vec Ideal S2000x256 .f32) (x2 : Vec Ideal S256x512 .f32) (x3 : Vec Ideal S1x512 .f32)
    (r : Fin 2000) (q : Fin 512) :
    at2 (k4_pay3 (F := Ideal) x0 x1 x2 x3) r q
      = (0 + ∑ k : Fin 256, (at2 x0 r k + at2 x1 r k) * at2 x2 k q) + at2 x3 0 q := by
  unfold k4_pay3
  rw [at2_def]
  refine (addf_apply _ _ (ix2 r q)).trans ?_
  refine congrArg₂ (· + ·) ?_ ?_
  · refine (k4_matmul_at _ _ r q).trans ?_
    rw [zero_add]
    refine Finset.sum_congr rfl fun k _ => ?_
    simp only [at2_def, shapeCast_self]
    rfl
  · refine (k4_bcast_at _ r q).trans ?_
    simp only [at2_def, shapeCast_self]

/-- The running column sums after a block: what they were plus the block's column sums. -/
theorem k4_pay4_at (x0 x1 : Vec Ideal S2000x256 .f32) (x2 : Vec Ideal S256x512 .f32) (x3 : Vec Ideal S1x512 .f32)
    (a : Vec Ideal S1x512 .f32) (q : Fin 512) :
    at2 (k4_pay4 (F := Ideal) x0 x1 x2 x3 a) 0 q
      = at2 a 0 q + (0 + ∑ r : Fin 2000, at2 (k4_pay3 (F := Ideal) x0 x1 x2 x3) r q) := by
  unfold k4_pay4
  rw [at2_def]
  simp only [shapeCast_self]
  refine (addf_apply _ _ (ix2 0 q)).trans ?_
  refine congrArg₂ (· + ·) rfl ?_
  refine (k4_row_at _ q).trans ?_
  refine (k4_colsum_at _ q).trans ?_
  exact (zero_add _).symm

/-- The running column sums of squares after a block. -/
theorem k4_pay5_at (x0 x1 : Vec Ideal S2000x256 .f32) (x2 : Vec Ideal S256x512 .f32) (x3 : Vec Ideal S1x512 .f32)
    (a : Vec Ideal S1x512 .f32) (q : Fin 512) :
    at2 (k4_pay5 (F := Ideal) x0 x1 x2 x3 a) 0 q
      = at2 a 0 q + (0 + ∑ r : Fin 2000, at2 (k4_pay3 (F := Ideal) x0 x1 x2 x3) r q * at2 (k4_pay3 (F := Ideal) x0 x1 x2 x3) r q) := by
  unfold k4_pay5
  rw [at2_def]
  simp only [shapeCast_self]
  refine (addf_apply _ _ (ix2 0 q)).trans ?_
  refine congrArg₂ (· + ·) rfl ?_
  refine (k4_row_at _ q).trans ?_
  refine (k4_colsum_at _ q).trans ?_
  refine (zero_add _).symm.trans ?_
  rfl

/-- The running rows start at zero. -/
theorem k4_pay1_at (q : Fin 512) : at2 (k4_pay1 (F := Ideal)) 0 q = 0 := by
  unfold k4_pay1
  rw [at2_def]
  simp only [shapeCast_self, broadcast_apply]
  exact Ideal.ofBits_zero_f32
theorem k4_pay2_at (q : Fin 512) : at2 (k4_pay2 (F := Ideal)) 0 q = 0 := by
  unfold k4_pay2
  rw [at2_def]
  simp only [shapeCast_self, broadcast_apply]
  exact Ideal.ofBits_zero_f32

variable (V : (c : Dev nD) → (b : Ref sig .tc) → Buf (Elt Ideal) ((c : Thread nD τ).loc b))

/-! ## The windows' blocks as entries of the arrays the region finds -/

/-- The printed index maps, decided over the grid: the row blocks move with the point, the others stay. -/
theorem k4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Row `r` of block `t` is row `2000 t + r` of the array. -/
theorem k4_row_lt (t : Fin cfg4.N) (r : Fin 2000) : 2000 * t.val + r.val < 50000 := by
  have hN : t.val < 25 := lt_of_lt_of_eq t.isLt N_4
  have := r.isLt
  omega

theorem k4_blk0_at (c : Dev nD) (t : Fin cfg4.N) (r : Fin 2000) (k : Fin 256) :
    at2 (n0 := 2000) (n1 := 256) (iblk4 V c 0 t) r k = at2 (n0 := 50000) (n1 := 256) (V c main_v54) ⟨2000 * t.val + r.val, k4_row_lt t r⟩ k := by
  rw [at2_def, at2_def]
  show V c main_v54 (((cfg4.win 0).blk t).view.emb (ix2 r k)) = V c main_v54 (ix2 _ k)
  refine congrArg (V c main_v54) (funext fun a => Fin.ext ?_)
  obtain ⟨e0, e1, -⟩ := k4_idx t
  match a with
  | ⟨0, _⟩ => show win4_0.index t (0 : Fin 2) * 2000 + 1 * r.val = 2000 * t.val + r.val; omega
  | ⟨1, _⟩ => show win4_0.index t (1 : Fin 2) * 256 + 1 * k.val = k.val; omega

theorem k4_blk4_at (c : Dev nD) (t : Fin cfg4.N) (r : Fin 2000) (k : Fin 256) :
    at2 (n0 := 2000) (n1 := 256) (iblk4 V c 1 t) r k = at2 (n0 := 50000) (n1 := 256) (V c main_v64) ⟨2000 * t.val + r.val, k4_row_lt t r⟩ k := by
  rw [at2_def, at2_def]
  show V c main_v64 (((cfg4.win 1).blk t).view.emb (ix2 r k)) = V c main_v64 (ix2 _ k)
  refine congrArg (V c main_v64) (funext fun a => Fin.ext ?_)
  obtain ⟨-, -, e0, e1, -⟩ := k4_idx t
  match a with
  | ⟨0, _⟩ => show win4_1.index t (0 : Fin 2) * 2000 + 1 * r.val = 2000 * t.val + r.val; omega
  | ⟨1, _⟩ => show win4_1.index t (1 : Fin 2) * 256 + 1 * k.val = k.val; omega

theorem k4_blk2_at (c : Dev nD) (t : Fin cfg4.N) (k : Fin 256) (q : Fin 512) :
    at2 (n0 := 256) (n1 := 512) (iblk4 V c 2 t) k q = at2 (n0 := 256) (n1 := 512) (V c main_v66) k q := by
  rw [at2_def, at2_def]
  show V c main_v66 (((cfg4.win 2).blk t).view.emb (ix2 k q)) = V c main_v66 (ix2 k q)
  refine congrArg (V c main_v66) (funext fun a => Fin.ext ?_)
  obtain ⟨-, -, -, -, e0, e1, -⟩ := k4_idx t
  match a with
  | ⟨0, _⟩ => show win4_2.index t (0 : Fin 2) * 256 + 1 * k.val = k.val; omega
  | ⟨1, _⟩ => show win4_2.index t (1 : Fin 2) * 512 + 1 * q.val = q.val; omega

theorem k4_blk3_at (c : Dev nD) (t : Fin cfg4.N) (q : Fin 512) :
    at2 (n0 := 1) (n1 := 512) (iblk4 V c 3 t) 0 q = at2 (n0 := 1) (n1 := 512) (V c main_v69) 0 q := by
  rw [at2_def, at2_def]
  show V c main_v69 (((cfg4.win 3).blk t).view.emb (ix2 0 q)) = V c main_v69 (ix2 0 q)
  refine congrArg (V c main_v69) (funext fun a => Fin.ext ?_)
  obtain ⟨-, -, -, -, -, -, e0, e1, -⟩ := k4_idx t
  match a with
  | ⟨0, _⟩ => show win4_3.index t (0 : Fin 2) * 1 + 1 * 0 = 0; omega
  | ⟨1, _⟩ => show win4_3.index t (1 : Fin 2) * 512 + 1 * q.val = q.val; omega

/-! ## The first output: the affine image, entry by entry -/

/-- Entry `(p, q)` of the affine image of the arrays the region finds. -/
def k4_h1 (c : Dev nD) (p : Fin 50000) (q : Fin 512) : EReal :=
  (0 + ∑ k : Fin 256, (at2 (n0 := 50000) (n1 := 256) (V c main_v54) p k + at2 (n0 := 50000) (n1 := 256) (V c main_v64) p k)
      * at2 (n0 := 256) (n1 := 512) (V c main_v66) k q) + at2 (n0 := 1) (n1 := 512) (V c main_v69) 0 q

/-- What the body stores into the first output at point `t`, at an entry: that entry of the affine image. -/
theorem k4_pay3_blk (c : Dev nD) (t : Fin cfg4.N) (r : Fin 2000) (q : Fin 512) :
    at2 (k4_pay3 (F := Ideal) (iblk4 V c 0 t) (iblk4 V c 1 t) (iblk4 V c 2 t) (iblk4 V c 3 t)) r q
      = k4_h1 V c ⟨2000 * t.val + r.val, k4_row_lt t r⟩ q := by
  refine (k4_pay3_at (iblk4 V c 0 t) (iblk4 V c 1 t) (iblk4 V c 2 t) (iblk4 V c 3 t) r q).trans ?_
  unfold k4_h1
  refine congrArg₂ (· + ·) (congrArg (0 + ·) (Finset.sum_congr rfl fun k _ => ?_)) (k4_blk3_at V c t q)
  exact congrArg₂ (· * ·) (congrArg₂ (· + ·) (k4_blk0_at V c t r k) (k4_blk4_at V c t r k)) (k4_blk2_at V c t k q)

/-- The affine image as the contents of the first output's array. -/
def k4_G4 (c : Dev nD) : S50000x512.Idx → EReal := fun i => k4_h1 V c (i 0) (i 1)

/-- Entry `(r, q)` of block `t` of the first output's array is entry `(2000 t + r, q)`. -/
theorem k4_emb4 (t : Fin cfg4.N) (r : Fin 2000) (q : Fin 512) :
    ((cfg4.win 4).blk t).view.emb (ix2 r q) = ix2 (n0 := 50000) (n1 := 512) ⟨2000 * t.val + r.val, k4_row_lt t r⟩ q := by
  funext a; apply Fin.ext
  obtain ⟨-, -, -, -, -, -, -, -, e0, e1, -⟩ := k4_idx t
  match a with
  | ⟨0, _⟩ => show win4_4.index t (0 : Fin 2) * 2000 + 1 * r.val = 2000 * t.val + r.val; omega
  | ⟨1, _⟩ => show win4_4.index t (1 : Fin 2) * 512 + 1 * q.val = q.val; omega

/-- What point `t` writes back to the first output is block `t` of the affine image. -/
theorem k4_flushed4 (c : Dev nD) (t : Fin cfg4.N) :
    (dat4 (F := Ideal) V c).flushed 4 t = ((cfg4.win 4).blk t).view.read (Elt Ideal) (k4_G4 V c) := by
  show (cfg4.win 4).cut (grid4.coords t) ((dat4 (F := Ideal) V c).after 4 t) = _
  rw [after4_4]
  funext j
  obtain ⟨r, q, rfl⟩ : ∃ (r : Fin 2000) (q : Fin 512), j = ix2 r q := ⟨j 0, j 1, eq_ix2 j⟩
  show at2 (k4_pay3 (F := Ideal) (iblk4 V c 0 t) (iblk4 V c 1 t) (iblk4 V c 2 t) (iblk4 V c 3 t)) r q
    = k4_G4 V c (((cfg4.win 4).blk t).view.emb (ix2 r q))
  rw [k4_emb4]
  exact k4_pay3_blk V c t r q

/-- An entry of the first output's array lies in point `t`'s block iff its coordinates lie in the block's ranges. -/
theorem k4_mem_blk4 (t : Fin cfg4.N) (i : S50000x512.Idx) :
    i ∈ ((cfg4.win 4).blk t).view.set ↔ ∀ a : Fin 2, win4_4.index t a * S2000x512.size a ≤ (i a).val ∧ (i a).val < win4_4.index t a * S2000x512.size a + S2000x512.size a := by
  show i ∈ ((View.whole main_v70_0).slice (win4_4.rect t)).set ↔ _
  rw [View.set_slice_whole, Rect.mem_set_unit]
  exact Iff.rfl

/-- Every entry lies in the block of the point its row falls in. -/
theorem k4_cover4 (i : S50000x512.Idx) :
    ∃ t : Fin cfg4.N, (cfg4.win 4).flush t = true ∧ i ∈ ((cfg4.win 4).blk t).view.set := by
  have hi0 : (i 0).val < 50000 := (i 0).isLt
  have hi1 : (i 1).val < 512 := (i 1).isLt
  have hN : cfg4.N = 25 := N_4
  refine ⟨⟨(i 0).val / 2000, by rw [hN]; omega⟩, flush4_4 _, ?_⟩
  rw [k4_mem_blk4]
  obtain ⟨-, -, -, -, -, -, -, -, e0, e1, -⟩ := k4_idx ⟨(i 0).val / 2000, by rw [hN]; omega⟩
  intro a
  match a with
  | ⟨0, _⟩ =>
    show win4_4.index _ (0 : Fin 2) * 2000 ≤ (i 0).val ∧ (i 0).val < win4_4.index _ (0 : Fin 2) * 2000 + 2000
    rw [e0]; show (i 0).val / 2000 * 2000 ≤ (i 0).val ∧ (i 0).val < (i 0).val / 2000 * 2000 + 2000; omega
  | ⟨1, _⟩ =>
    show win4_4.index _ (1 : Fin 2) * 512 ≤ (i 1).val ∧ (i 1).val < win4_4.index _ (1 : Fin 2) * 512 + 512
    rw [e1]; omega

/-- After the region the first output's array holds the affine image. -/
theorem k4_final4 (c : Dev nD) : (dat4 (F := Ideal) V c).arrAt 4 cfg4.N = k4_G4 V c :=
  (dat4 (F := Ideal) V c).arrAt_eq_of_cover 4 (k4_G4 V c) (fun t _ => k4_flushed4 V c t) k4_cover4

/-- THE FIRST OUTPUT, entry by entry: (x + agg) · W from a zero accumulator, then the bias. -/
theorem arrAt4_4 (c : Dev nD) (p : Fin 50000) (q : Fin 512) :
    at2 (n0 := 50000) (n1 := 512) ((dat4 (F := Ideal) V c).arrAt 4 cfg4.N) p q
      = (0 + ∑ k : Fin 256, (at2 (n0 := 50000) (n1 := 256) (V c main_v54) p k + at2 (n0 := 50000) (n1 := 256) (V c main_v64) p k)
          * at2 (n0 := 256) (n1 := 512) (V c main_v66) k q) + at2 (n0 := 1) (n1 := 512) (V c main_v69) 0 q := by
  rw [k4_final4]; rfl

/-! ## The two statistics outputs: the running rows after the last point, as sums over all rows -/

/-- The statistics output 1's one block is its whole array. -/
theorem k4_emb5 (t : Fin cfg4.N) (j : S1x512.Idx) : ((cfg4.win 5).blk t).view.emb j = j := by
  funext a; apply Fin.ext
  obtain ⟨-, -, -, -, -, -, -, -, -, -, e0, e1, -⟩ := k4_idx t
  match a with
  | ⟨0, _⟩ => show win4_5.index t (0 : Fin 2) * 1 + 1 * (j 0).val = (j 0).val; omega
  | ⟨1, _⟩ => show win4_5.index t (1 : Fin 2) * 512 + 1 * (j 1).val = (j 1).val; omega

/-- Its one write-back, at the last point, writes the running row as the last point leaves it. -/
theorem k4_flushed5 (c : Dev nD) (t : Fin cfg4.N) (hf : (cfg4.win 5).flush t = true) :
    (dat4 (F := Ideal) V c).flushed 5 t = ((cfg4.win 5).blk t).view.read (Elt Ideal) ((k4_acc (F := Ideal) V c 24).1) := by
  have h24 : t.val = 24 := by
    have := (flush4_5 t).mp hf
    have hN : t.val < 25 := lt_of_lt_of_eq t.isLt N_4
    omega
  show (cfg4.win 5).cut (grid4.coords t) ((dat4 (F := Ideal) V c).after 5 t) = _
  rw [after4_5, h24]
  funext j
  show (k4_acc (F := Ideal) V c 24).1 j = (k4_acc (F := Ideal) V c 24).1 (((cfg4.win 5).blk t).view.emb j)
  rw [k4_emb5]

theorem k4_mem_blk5 (t : Fin cfg4.N) (i : S1x512.Idx) :
    i ∈ ((cfg4.win 5).blk t).view.set ↔ ∀ a : Fin 2, win4_5.index t a * S1x512.size a ≤ (i a).val ∧ (i a).val < win4_5.index t a * S1x512.size a + S1x512.size a := by
  show i ∈ ((View.whole main_v70_1).slice (win4_5.rect t)).set ↔ _
  rw [View.set_slice_whole, Rect.mem_set_unit]
  exact Iff.rfl

/-- The last point's block covers the array. -/
theorem k4_cover5 (i : S1x512.Idx) :
    ∃ t : Fin cfg4.N, (cfg4.win 5).flush t = true ∧ i ∈ ((cfg4.win 5).blk t).view.set := by
  have hi0 : (i 0).val < 1 := (i 0).isLt
  have hi1 : (i 1).val < 512 := (i 1).isLt
  have hN : cfg4.N = 25 := N_4
  refine ⟨⟨24, by rw [hN]; omega⟩, (flush4_5 _).mpr rfl, ?_⟩
  rw [k4_mem_blk5]
  obtain ⟨-, -, -, -, -, -, -, -, -, -, e0, e1, -⟩ := k4_idx ⟨24, by rw [hN]; omega⟩
  intro a
  match a with
  | ⟨0, _⟩ =>
    show win4_5.index _ (0 : Fin 2) * 1 ≤ (i 0).val ∧ (i 0).val < win4_5.index _ (0 : Fin 2) * 1 + 1
    rw [e0]; omega
  | ⟨1, _⟩ =>
    show win4_5.index _ (1 : Fin 2) * 512 ≤ (i 1).val ∧ (i 1).val < win4_5.index _ (1 : Fin 2) * 512 + 512
    rw [e1]; omega

/-- After the region the array holds the running row after the last point. -/
theorem k4_final5 (c : Dev nD) : (dat4 (F := Ideal) V c).arrAt 5 cfg4.N = (k4_acc (F := Ideal) V c 24).1 :=
  (dat4 (F := Ideal) V c).arrAt_eq_of_cover 5 ((k4_acc (F := Ideal) V c 24).1) (fun t hf => k4_flushed5 V c t hf) k4_cover5

/-- Column `q` of the running row after `n` points; zero before the first. -/
def k4_run5 (c : Dev nD) (q : Fin 512) : ℕ → EReal
  | 0 => 0
  | n + 1 => at2 (n0 := 1) (n1 := 512) (k4_acc (F := Ideal) V c n).1 0 q

/-- One point adds (0 + the block's column sum). -/
theorem k4_run5_step (c : Dev nD) (q : Fin 512) (t : ℕ) (ht : t < 25) :
    k4_run5 V c q (t + 1) = k4_run5 V c q t + (0 + ∑ r : Fin 2000, k4_h1 V c ⟨2000 * t + r.val, by omega⟩ q) := by
  have hN : cfg4.N = 25 := N_4
  cases t with
  | zero =>
    show at2 (n0 := 1) (n1 := 512) (k4_acc (F := Ideal) V c 0).1 0 q = 0 + _
    rw [k4_acc_zero]; unfold k4_step; dsimp only
    refine (k4_pay4_at (iblk4 V c 0 k4_t0) (iblk4 V c 1 k4_t0) (iblk4 V c 2 k4_t0) (iblk4 V c 3 k4_t0) (k4_pay1 (F := Ideal)) q).trans ?_
    refine congrArg₂ (· + ·) (k4_pay1_at q) (congrArg (0 + ·) (Finset.sum_congr rfl fun r _ => ?_))
    exact k4_pay3_blk V c k4_t0 r q
  | succ n =>
    have hn : n + 1 < cfg4.N := by rw [hN]; exact ht
    show at2 (n0 := 1) (n1 := 512) (k4_acc (F := Ideal) V c (n + 1)).1 0 q = at2 (n0 := 1) (n1 := 512) (k4_acc (F := Ideal) V c n).1 0 q + _
    rw [k4_acc_succ V c n hn]; unfold k4_step; dsimp only
    refine (k4_pay4_at (iblk4 V c 0 ⟨n + 1, hn⟩) (iblk4 V c 1 ⟨n + 1, hn⟩) (iblk4 V c 2 ⟨n + 1, hn⟩) (iblk4 V c 3 ⟨n + 1, hn⟩) (k4_acc (F := Ideal) V c n).1 q).trans ?_
    refine congrArg₂ (· + ·) rfl (congrArg (0 + ·) (Finset.sum_congr rfl fun r _ => ?_))
    exact k4_pay3_blk V c ⟨n + 1, hn⟩ r q

/-- THE STATISTICS OUTPUT 1, column by column: the sum of the affine image's column over the 50000 rows, from zero. -/
theorem arrAt4_5 (c : Dev nD) (q : Fin 512) :
    at2 (n0 := 1) (n1 := 512) ((dat4 (F := Ideal) V c).arrAt 5 cfg4.N) 0 q = 0 + ∑ p : Fin 50000, k4_h1 V c p q := by
  rw [k4_final5]
  exact Cert.Spec.seq25_zero (fun p => k4_h1 V c p q) (k4_run5 V c q) rfl (fun t ht => k4_run5_step V c q t ht)

/-- The statistics output 2's one block is its whole array. -/
theorem k4_emb6 (t : Fin cfg4.N) (j : S1x512.Idx) : ((cfg4.win 6).blk t).view.emb j = j := by
  funext a; apply Fin.ext
  obtain ⟨-, -, -, -, -, -, -, -, -, -, -, -, e0, e1⟩ := k4_idx t
  match a with
  | ⟨0, _⟩ => show win4_6.index t (0 : Fin 2) * 1 + 1 * (j 0).val = (j 0).val; omega
  | ⟨1, _⟩ => show win4_6.index t (1 : Fin 2) * 512 + 1 * (j 1).val = (j 1).val; omega

/-- Its one write-back, at the last point, writes the running row as the last point leaves it. -/
theorem k4_flushed6 (c : Dev nD) (t : Fin cfg4.N) (hf : (cfg4.win 6).flush t = true) :
    (dat4 (F := Ideal) V c).flushed 6 t = ((cfg4.win 6).blk t).view.read (Elt Ideal) ((k4_acc (F := Ideal) V c 24).2) := by
  have h24 : t.val = 24 := by
    have := (flush4_6 t).mp hf
    have hN : t.val < 25 := lt_of_lt_of_eq t.isLt N_4
    omega
  show (cfg4.win 6).cut (grid4.coords t) ((dat4 (F := Ideal) V c).after 6 t) = _
  rw [after4_6, h24]
  funext j
  show (k4_acc (F := Ideal) V c 24).2 j = (k4_acc (F := Ideal) V c 24).2 (((cfg4.win 6).blk t).view.emb j)
  rw [k4_emb6]

theorem k4_mem_blk6 (t : Fin cfg4.N) (i : S1x512.Idx) :
    i ∈ ((cfg4.win 6).blk t).view.set ↔ ∀ a : Fin 2, win4_6.index t a * S1x512.size a ≤ (i a).val ∧ (i a).val < win4_6.index t a * S1x512.size a + S1x512.size a := by
  show i ∈ ((View.whole main_v70_2).slice (win4_6.rect t)).set ↔ _
  rw [View.set_slice_whole, Rect.mem_set_unit]
  exact Iff.rfl

/-- The last point's block covers the array. -/
theorem k4_cover6 (i : S1x512.Idx) :
    ∃ t : Fin cfg4.N, (cfg4.win 6).flush t = true ∧ i ∈ ((cfg4.win 6).blk t).view.set := by
  have hi0 : (i 0).val < 1 := (i 0).isLt
  have hi1 : (i 1).val < 512 := (i 1).isLt
  have hN : cfg4.N = 25 := N_4
  refine ⟨⟨24, by rw [hN]; omega⟩, (flush4_6 _).mpr rfl, ?_⟩
  rw [k4_mem_blk6]
  obtain ⟨-, -, -, -, -, -, -, -, -, -, -, -, e0, e1⟩ := k4_idx ⟨24, by rw [hN]; omega⟩
  intro a
  match a with
  | ⟨0, _⟩ =>
    show win4_6.index _ (0 : Fin 2) * 1 ≤ (i 0).val ∧ (i 0).val < win4_6.index _ (0 : Fin 2) * 1 + 1
    rw [e0]; omega
  | ⟨1, _⟩ =>
    show win4_6.index _ (1 : Fin 2) * 512 ≤ (i 1).val ∧ (i 1).val < win4_6.index _ (1 : Fin 2) * 512 + 512
    rw [e1]; omega

/-- After the region the array holds the running row after the last point. -/
theorem k4_final6 (c : Dev nD) : (dat4 (F := Ideal) V c).arrAt 6 cfg4.N = (k4_acc (F := Ideal) V c 24).2 :=
  (dat4 (F := Ideal) V c).arrAt_eq_of_cover 6 ((k4_acc (F := Ideal) V c 24).2) (fun t hf => k4_flushed6 V c t hf) k4_cover6

/-- Column `q` of the running row after `n` points; zero before the first. -/
def k4_run6 (c : Dev nD) (q : Fin 512) : ℕ → EReal
  | 0 => 0
  | n + 1 => at2 (n0 := 1) (n1 := 512) (k4_acc (F := Ideal) V c n).2 0 q

/-- One point adds (0 + the block's column sum). -/
theorem k4_run6_step (c : Dev nD) (q : Fin 512) (t : ℕ) (ht : t < 25) :
    k4_run6 V c q (t + 1) = k4_run6 V c q t + (0 + ∑ r : Fin 2000, k4_h1 V c ⟨2000 * t + r.val, by omega⟩ q * k4_h1 V c ⟨2000 * t + r.val, by omega⟩ q) := by
  have hN : cfg4.N = 25 := N_4
  cases t with
  | zero =>
    show at2 (n0 := 1) (n1 := 512) (k4_acc (F := Ideal) V c 0).2 0 q = 0 + _
    rw [k4_acc_zero]; unfold k4_step; dsimp only
    refine (k4_pay5_at (iblk4 V c 0 k4_t0) (iblk4 V c 1 k4_t0) (iblk4 V c 2 k4_t0) (iblk4 V c 3 k4_t0) (k4_pay2 (F := Ideal)) q).trans ?_
    refine congrArg₂ (· + ·) (k4_pay2_at q) (congrArg (0 + ·) (Finset.sum_congr rfl fun r _ => ?_))
    exact congrArg₂ (· * ·) (k4_pay3_blk V c k4_t0 r q) (k4_pay3_blk V c k4_t0 r q)
  | succ n =>
    have hn : n + 1 < cfg4.N := by rw [hN]; exact ht
    show at2 (n0 := 1) (n1 := 512) (k4_acc (F := Ideal) V c (n + 1)).2 0 q = at2 (n0 := 1) (n1 := 512) (k4_acc (F := Ideal) V c n).2 0 q + _
    rw [k4_acc_succ V c n hn]; unfold k4_step; dsimp only
    refine (k4_pay5_at (iblk4 V c 0 ⟨n + 1, hn⟩) (iblk4 V c 1 ⟨n + 1, hn⟩) (iblk4 V c 2 ⟨n + 1, hn⟩) (iblk4 V c 3 ⟨n + 1, hn⟩) (k4_acc (F := Ideal) V c n).2 q).trans ?_
    refine congrArg₂ (· + ·) rfl (congrArg (0 + ·) (Finset.sum_congr rfl fun r _ => ?_))
    exact congrArg₂ (· * ·) (k4_pay3_blk V c ⟨n + 1, hn⟩ r q) (k4_pay3_blk V c ⟨n + 1, hn⟩ r q)

/-- THE STATISTICS OUTPUT 2, column by column: the sum of the squares of the affine image's column over the 50000 rows, from zero. -/
theorem arrAt4_6 (c : Dev nD) (q : Fin 512) :
    at2 (n0 := 1) (n1 := 512) ((dat4 (F := Ideal) V c).arrAt 6 cfg4.N) 0 q = 0 + ∑ p : Fin 50000, k4_h1 V c p q * k4_h1 V c p q := by
  rw [k4_final6]
  exact Cert.Spec.seq25_zero (fun p => k4_h1 V c p q * k4_h1 V c p q) (k4_run6 V c q) rfl (fun t ht => k4_run6_step V c q t ht)

/-- The affine image is the specification's linear layer applied to the entrywise sum of the two summands. -/
theorem k4_h1_eq_lin (c : Dev nD) (p : Fin 50000) (q : Fin 512) :
    k4_h1 V c p q = Cert.Spec.lin (Cert.Spec.addM (at2 (n0 := 50000) (n1 := 256) (V c main_v54)) (at2 (n0 := 50000) (n1 := 256) (V c main_v64)))
      (at2 (n0 := 256) (n1 := 512) (V c main_v66)) (at2 (n0 := 1) (n1 := 512) (V c main_v69) 0) p q := rfl

/-- So the two statistics outputs are the specification's column sum and column sum of squares of it. -/
theorem arrAt4_5_spec (c : Dev nD) (q : Fin 512) :
    at2 (n0 := 1) (n1 := 512) ((dat4 (F := Ideal) V c).arrAt 5 cfg4.N) 0 q = Cert.Spec.colsum (k4_h1 V c) q := arrAt4_5 V c q
theorem arrAt4_6_spec (c : Dev nD) (q : Fin 512) :
    at2 (n0 := 1) (n1 := 512) ((dat4 (F := Ideal) V c).arrAt 6 cfg4.N) 0 q = Cert.Spec.colsumsq (k4_h1 V c) q := arrAt4_6 V c q

end Cert.KernelIdeal.HandV

end
-- ==== Proof.KI.R5V.lean ====
/-
  Region 5 at the extended reals: what its three output arrays hold when the region ends, entry by entry.

  The layer's output at row p and column q is the sum over the 512 hidden columns k of
  max (g k · (h1 p k − mean k) · rsqrt (var k + eps) + beta k) 0 times W2 k q, from a zero accumulator, plus the bias
  b2 q, plus the residual x p q. The two statistics outputs are, column by column, the sum of that output and of
  its square over the 50000 rows: each grid point adds the column sums of its block of 2000 rows to the running
  row, and 25 such steps from zero give the whole sum.
-/
import proofs.«132438_j6098853560655_1_alg».proof.Proof.KI.R5
import proofs.«132438_j6098853560655_1_alg».proof.Proof.KI.At2
import proofs.«132438_j6098853560655_1_alg».proof.Proof.LibDot
import proofs.«132438_j6098853560655_1_alg».proof.Proof.Math.BlockSum25
import Idealize.ShloMosaic.PureOps.Ideal.Laws
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! # Region 5 at the extended reals: its three outputs, entry by entry -/

/-- The product of a 2000 × 512 block by the 512 × 256 matrix into a zero accumulator, at an entry. -/
theorem dat5_matmul_at (a : FVec Ideal S2000x512 .bf16) (b : FVec Ideal S512x256 .bf16) (r : Fin 2000) (q : Fin 256) :
    matmul (F := Ideal) dot_S2000x512_S512x256_S2000x256_1_0_0_1_n_n none a b (constant (F := Ideal) S2000x256 .f32 0x00000000#32) (ix2 r q)
      = ∑ k : Fin 512, at2 a r k * at2 b k q := by
  simp only [matmul, at2_def]
  exact Cert.PlainDot.matmul_zero_apply dot_S2000x512_S512x256_S2000x256_1_0_0_1_n_n rfl rfl rfl rfl rfl rfl none a b r q

/-- A row of 512 spread over the 2000 rows, at an entry: the row's entry in that column. -/
theorem dat5_bcastH_at (v : FVec Ideal S1x512 .f32) (r : Fin 2000) (k : Fin 512) :
    broadcastTo S2000x512 v broadcasts_S1x512_S2000x512 (ix2 r k) = at2 v 0 k :=
  broadcastTo_apply v _ (ix2 r k) (ix2 0 k) fun a => by
    match a with
    | ⟨0, _⟩ => rfl
    | ⟨1, _⟩ => rfl

/-- A row of 256 spread over the 2000 rows, at an entry. -/
theorem dat5_bcastX_at (v : FVec Ideal S1x256 .f32) (r : Fin 2000) (q : Fin 256) :
    broadcastTo S2000x256 v broadcasts_S1x256_S2000x256 (ix2 r q) = at2 v 0 q :=
  broadcastTo_apply v _ (ix2 r q) (ix2 0 q) fun a => by
    match a with
    | ⟨0, _⟩ => rfl
    | ⟨1, _⟩ => rfl

/-- The column sums of a 2000 × 256 block, at a column. -/
theorem dat5_colsum_at (src : FVec Ideal S2000x256 .f32) (q : Fin 256) :
    multiReduction (F := Ideal) .add [0] S256 src 0x00000000#32 reduces_S2000x256_S256 (.inl rfl) rfl (ix1 q)
      = ∑ r : Fin 2000, at2 src r q := by
  refine (Ideal.multiReduction_add_single src 0x00000000#32 reduces_S2000x256_S256 (.inl rfl) rfl (ix1 q)).trans ?_
  refine Finset.sum_congr rfl fun r _ => ?_
  show src _ = src (ix2 r q)
  refine congrArg src (funext fun a => Fin.ext ?_)
  match a with
  | ⟨0, _⟩ => rfl
  | ⟨1, _⟩ => rfl

/-- A row of 256 viewed as a 1 × 256 matrix, at an entry. -/
theorem dat5_row_at (v : FVec Ideal S256 .f32) (q : Fin 256) :
    shapeCast S1x256 v shapeCasts_S256_S1x256 (ix2 0 q) = v (ix1 q) :=
  shapeCast_apply v _ (ix2 0 q) (ix1 q) (by
    rw [Shape.rowMajor_val_one, Shape.rowMajor_val_two]; show q.val = 0 * 256 + q.val; omega)

/-- The reciprocal square root of a row, at an entry. -/
theorem dat5_rsqrt_apply {s : Shape} (v : FVec Ideal s .f32) (i : s.Idx) : rsqrt v i = Ideal.rsqrt (v i) := rfl

/-- The normalised, rectified first layer times the second weights plus the bias, at an entry. -/
theorem dat5_pay6_at (v3 v8 : Vec Ideal S1x512 .f32) (v10 : Vec Ideal S2000x512 .f32) (v12 v20 : Vec Ideal S1x512 .f32)
    (v27 : Vec Ideal S512x256 .f32) (v31 : Vec Ideal S1x256 .f32) (r : Fin 2000) (q : Fin 256) :
    at2 (k5_pay6 (F := Ideal) v3 v8 v10 v12 v20 v27 v31) r q
      = (0 + ∑ k : Fin 512, max (at2 v8 0 k * (at2 v10 r k - at2 v12 0 k) * Ideal.rsqrt (at2 v3 0 k + Ideal.ofBits .f32 0x3727C5AC#32) + at2 v20 0 k) 0 * at2 v27 k q) + at2 v31 0 q := by
  unfold k5_pay6
  rw [at2_def]
  refine (addf_apply _ _ (ix2 r q)).trans ?_
  refine congrArg₂ (· + ·) ?_ ?_
  · refine (dat5_matmul_at _ _ r q).trans ?_
    rw [zero_add]
    refine Finset.sum_congr rfl fun k _ => ?_
    simp only [at2_def, shapeCast_self, truncf_apply, maximumf_apply, addf_apply, mulf_apply, subf_apply, broadcast_apply,
      dat5_bcastH_at, dat5_rsqrt_apply]
    rw [show (Scalar.ofBits .f32 0x00000000#32 : Ideal .f32) = 0 from Ideal.ofBits_zero_f32]
    rfl
  · refine (dat5_bcastX_at _ r q).trans ?_
    simp only [at2_def, shapeCast_self]

/-- The layer's output block at an entry: that plus the residual. -/
theorem dat5_pay1_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (r : Fin 2000) (q : Fin 256) :
    at2 (k5_pay1 (F := Ideal) (k5_pay6 (F := Ideal) x2 x3 x0 x1 x4 x6 x7) (k5_pay7 (F := Ideal) x5)) r q
      = ((0 + ∑ k : Fin 512, max (at2 x3 0 k * (at2 x0 r k - at2 x1 0 k) * Ideal.rsqrt (at2 x2 0 k + Ideal.ofBits .f32 0x3727C5AC#32) + at2 x4 0 k) 0 * at2 x6 k q) + at2 x7 0 q) + at2 x5 r q := by
  unfold k5_pay1
  rw [at2_def]
  refine (addf_apply _ _ (ix2 r q)).trans ?_
  refine congrArg₂ (· + ·) (dat5_pay6_at x2 x3 x0 x1 x4 x6 x7 r q) ?_
  unfold k5_pay7
  simp only [at2_def, shapeCast_self]

/-- The running column sums after a block: what they were plus the block's column sums. -/
theorem dat5_pay2_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (k5_pay2 (F := Ideal) (k5_pay6 (F := Ideal) x2 x3 x0 x1 x4 x6 x7) (k5_pay7 (F := Ideal) x5) a) 0 q
      = at2 a 0 q + (0 + ∑ r : Fin 2000, at2 (k5_pay1 (F := Ideal) (k5_pay6 (F := Ideal) x2 x3 x0 x1 x4 x6 x7) (k5_pay7 (F := Ideal) x5)) r q) := by
  unfold k5_pay2
  rw [at2_def]
  simp only [shapeCast_self]
  refine (addf_apply _ _ (ix2 0 q)).trans ?_
  refine congrArg₂ (· + ·) rfl ?_
  refine (dat5_row_at _ q).trans ?_
  refine (dat5_colsum_at _ q).trans ?_
  exact (zero_add _).symm

/-- The running column sums of squares after a block. -/
theorem dat5_pay3_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (k5_pay3 (F := Ideal) (k5_pay6 (F := Ideal) x2 x3 x0 x1 x4 x6 x7) (k5_pay7 (F := Ideal) x5) a) 0 q
      = at2 a 0 q + (0 + ∑ r : Fin 2000, at2 (k5_pay1 (F := Ideal) (k5_pay6 (F := Ideal) x2 x3 x0 x1 x4 x6 x7) (k5_pay7 (F := Ideal) x5)) r q * at2 (k5_pay1 (F := Ideal) (k5_pay6 (F := Ideal) x2 x3 x0 x1 x4 x6 x7) (k5_pay7 (F := Ideal) x5)) r q) := by
  unfold k5_pay3
  rw [at2_def]
  simp only [shapeCast_self]
  refine (addf_apply _ _ (ix2 0 q)).trans ?_
  refine congrArg₂ (· + ·) rfl ?_
  refine (dat5_row_at _ q).trans ?_
  refine (dat5_colsum_at _ q).trans ?_
  refine (zero_add _).symm.trans ?_
  rfl

/-- The running rows start at zero. -/
theorem dat5_pay4_at (q : Fin 256) : at2 (k5_pay4 (F := Ideal)) 0 q = 0 := by
  unfold k5_pay4
  rw [at2_def]
  simp only [shapeCast_self, broadcast_apply]
  exact Ideal.ofBits_zero_f32
theorem dat5_pay5_at (q : Fin 256) : at2 (k5_pay5 (F := Ideal)) 0 q = 0 := by
  unfold k5_pay5
  rw [at2_def]
  simp only [shapeCast_self, broadcast_apply]
  exact Ideal.ofBits_zero_f32

/-! ## Loads and stores of whole buffers: the contents themselves -/

theorem dat5_zero2 : (![0, 0] : Fin 2 → ℕ) = fun _ => 0 := by
  funext a
  match a with
  | ⟨0, _⟩ => rfl
  | ⟨1, _⟩ => rfl

theorem dat5_o8_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) : dat5_o8 (F := Ideal) x0 x1 x2 x3 x4 x5 x6 x7 = k5_pay1 (F := Ideal) (k5_pay6 (F := Ideal) x2 x3 x0 x1 x4 x6 x7) (k5_pay7 (F := Ideal) x5) := by
  unfold dat5_o8 dat5_v34 dat5_v36
  rw [View.canon_unit_zero dat5_zero2]
  simp only [View.ld_unit_zero (S := S1x512) dat5_zero2, View.ld_unit_zero (S := S2000x512) dat5_zero2, View.ld_unit_zero (S := S512x256) dat5_zero2, View.ld_unit_zero (S := S1x256) dat5_zero2, View.ld_unit_zero (S := S2000x256) dat5_zero2]
theorem dat5_s0_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) : dat5_s0 (F := Ideal) x0 x1 x2 x3 x4 x5 x6 x7 a = k5_pay2 (F := Ideal) (k5_pay6 (F := Ideal) x2 x3 x0 x1 x4 x6 x7) (k5_pay7 (F := Ideal) x5) a := by
  unfold dat5_s0 dat5_v34 dat5_v36
  rw [View.canon_unit_zero dat5_zero2]
  simp only [View.ld_unit_zero (S := S1x512) dat5_zero2, View.ld_unit_zero (S := S2000x512) dat5_zero2, View.ld_unit_zero (S := S512x256) dat5_zero2, View.ld_unit_zero (S := S1x256) dat5_zero2, View.ld_unit_zero (S := S2000x256) dat5_zero2]
theorem dat5_s1_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) : dat5_s1 (F := Ideal) x0 x1 x2 x3 x4 x5 x6 x7 a = k5_pay3 (F := Ideal) (k5_pay6 (F := Ideal) x2 x3 x0 x1 x4 x6 x7) (k5_pay7 (F := Ideal) x5) a := by
  unfold dat5_s1 dat5_v34 dat5_v36
  rw [View.canon_unit_zero dat5_zero2]
  simp only [View.ld_unit_zero (S := S1x512) dat5_zero2, View.ld_unit_zero (S := S2000x512) dat5_zero2, View.ld_unit_zero (S := S512x256) dat5_zero2, View.ld_unit_zero (S := S1x256) dat5_zero2, View.ld_unit_zero (S := S2000x256) dat5_zero2]
theorem dat5_z0_eq : dat5_z0 (F := Ideal) = k5_pay4 (F := Ideal) := by
  unfold dat5_z0; rw [View.canon_unit_zero dat5_zero2]
theorem dat5_z1_eq : dat5_z1 (F := Ideal) = k5_pay5 (F := Ideal) := by
  unfold dat5_z1; rw [View.canon_unit_zero dat5_zero2]
theorem dat5_o9_eq (a : Vec Ideal S1x256 .f32) : dat5_o9 (F := Ideal) a = a := by
  unfold dat5_o9; rw [View.canon_unit_zero dat5_zero2, View.ld_unit_zero (S := S1x256) dat5_zero2]

theorem dat5_z0_at (q : Fin 256) : at2 (dat5_z0 (F := Ideal)) 0 q = 0 := by rw [dat5_z0_eq]; exact dat5_pay4_at q
theorem dat5_z1_at (q : Fin 256) : at2 (dat5_z1 (F := Ideal)) 0 q = 0 := by rw [dat5_z1_eq]; exact dat5_pay5_at q

theorem dat5_o8_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (r : Fin 2000) (q : Fin 256) :
    at2 (dat5_o8 (F := Ideal) x0 x1 x2 x3 x4 x5 x6 x7) r q
      = ((0 + ∑ k : Fin 512, max (at2 x3 0 k * (at2 x0 r k - at2 x1 0 k) * Ideal.rsqrt (at2 x2 0 k + Ideal.ofBits .f32 0x3727C5AC#32) + at2 x4 0 k) 0 * at2 x6 k q) + at2 x7 0 q) + at2 x5 r q := by
  rw [dat5_o8_eq]; exact dat5_pay1_at x0 x1 x2 x3 x4 x5 x6 x7 r q
theorem dat5_s0_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (dat5_s0 (F := Ideal) x0 x1 x2 x3 x4 x5 x6 x7 a) 0 q = at2 a 0 q + (0 + ∑ r : Fin 2000, at2 (dat5_o8 (F := Ideal) x0 x1 x2 x3 x4 x5 x6 x7) r q) := by
  rw [dat5_s0_eq, dat5_o8_eq]; exact dat5_pay2_at x0 x1 x2 x3 x4 x5 x6 x7 a q
theorem dat5_s1_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (dat5_s1 (F := Ideal) x0 x1 x2 x3 x4 x5 x6 x7 a) 0 q = at2 a 0 q + (0 + ∑ r : Fin 2000, at2 (dat5_o8 (F := Ideal) x0 x1 x2 x3 x4 x5 x6 x7) r q * at2 (dat5_o8 (F := Ideal) x0 x1 x2 x3 x4 x5 x6 x7) r q) := by
  rw [dat5_s1_eq, dat5_o8_eq]; exact dat5_pay3_at x0 x1 x2 x3 x4 x5 x6 x7 a q

variable (V : (c : Dev nD) → (b : Ref sig .tc) → Buf (Elt Ideal) ((c : Thread nD τ).loc b))

/-! ## The windows' blocks as entries of the arrays the region finds -/

/-- The printed index maps, decided over the grid: the row blocks move with the point, the others stay. -/
theorem dat5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0
    ∧ win5_9.index t (0 : Fin 2) = 0 ∧ win5_9.index t (1 : Fin 2) = 0
    ∧ win5_10.index t (0 : Fin 2) = 0 ∧ win5_10.index t (1 : Fin 2) = 0 :=
  (by decide +kernel : ∀ t : Fin grid5.N, _)

/-- The last point is a point of the grid. -/
theorem dat5_lt24 : 24 < cfg5.N := by rw [dat5_N]; omega

/-- Row `r` of block `t` is row `2000 t + r` of the array. -/
theorem dat5_row_lt (t : Fin cfg5.N) (r : Fin 2000) : 2000 * t.val + r.val < 50000 := by
  have hN : t.val < 25 := lt_of_lt_of_eq t.isLt dat5_N
  have := r.isLt
  omega

theorem dat5_blk0_at (c : Dev nD) (t : Fin cfg5.N) (r : Fin 2000) (k : Fin 512) :
    at2 (n0 := 2000) (n1 := 512) (iblk5 V c 0 t) r k = at2 (n0 := 50000) (n1 := 512) (V c main_v70_0) ⟨2000 * t.val + r.val, dat5_row_lt t r⟩ k := by
  rw [at2_def, at2_def]
  show V c main_v70_0 (((cfg5.win 0).blk t).view.emb (ix2 r k)) = V c main_v70_0 (ix2 _ k)
  refine congrArg (V c main_v70_0) (funext fun a => Fin.ext ?_)
  obtain ⟨e0, e1, -, -, -, -, -, -, -, -, -, -, -, -, -, -, -, -, -, -, -, -⟩ := dat5_idx t
  match a with
  | ⟨0, _⟩ => show win5_0.index t (0 : Fin 2) * 2000 + 1 * r.val = 2000 * t.val + r.val; omega
  | ⟨1, _⟩ => show win5_0.index t (1 : Fin 2) * 512 + 1 * k.val = k.val; omega

theorem dat5_blk1_at (c : Dev nD) (t : Fin cfg5.N) (j : Fin 1) (k : Fin 512) :
    at2 (n0 := 1) (n1 := 512) (iblk5 V c 1 t) j k = at2 (n0 := 1) (n1 := 512) (V c main_v72) j k := by
  rw [at2_def, at2_def]
  show V c main_v72 (((cfg5.win 1).blk t).view.emb (ix2 j k)) = V c main_v72 (ix2 j k)
  refine congrArg (V c main_v72) (funext fun a => Fin.ext ?_)
  obtain ⟨-, -, e0, e1, -, -, -, -, -, -, -, -, -, -, -, -, -, -, -, -, -, -⟩ := dat5_idx t
  match a with
  | ⟨0, _⟩ => show win5_1.index t (0 : Fin 2) * 1 + 1 * j.val = j.val; omega
  | ⟨1, _⟩ => show win5_1.index t (1 : Fin 2) * 512 + 1 * k.val = k.val; omega

theorem dat5_blk2_at (c : Dev nD) (t : Fin cfg5.N) (j : Fin 1) (k : Fin 512) :
    at2 (n0 := 1) (n1 := 512) (iblk5 V c 2 t) j k = at2 (n0 := 1) (n1 := 512) (V c main_v76) j k := by
  rw [at2_def, at2_def]
  show V c main_v76 (((cfg5.win 2).blk t).view.emb (ix2 j k)) = V c main_v76 (ix2 j k)
  refine congrArg (V c main_v76) (funext fun a => Fin.ext ?_)
  obtain ⟨-, -, -, -, e0, e1, -, -, -, -, -, -, -, -, -, -, -, -, -, -, -, -⟩ := dat5_idx t
  match a with
  | ⟨0, _⟩ => show win5_2.index t (0 : Fin 2) * 1 + 1 * j.val = j.val; omega
  | ⟨1, _⟩ => show win5_2.index t (1 : Fin 2) * 512 + 1 * k.val = k.val; omega

theorem dat5_blk3_at (c : Dev nD) (t : Fin cfg5.N) (j : Fin 1) (k : Fin 512) :
    at2 (n0 := 1) (n1 := 512) (iblk5 V c 3 t) j k = at2 (n0 := 1) (n1 := 512) (V c main_v85) j k := by
  rw [at2_def, at2_def]
  show V c main_v85 (((cfg5.win 3).blk t).view.emb (ix2 j k)) = V c main_v85 (ix2 j k)
  refine congrArg (V c main_v85) (funext fun a => Fin.ext ?_)
  obtain ⟨-, -, -, -, -, -, e0, e1, -, -, -, -, -, -, -, -, -, -, -, -, -, -⟩ := dat5_idx t
  match a with
  | ⟨0, _⟩ => show win5_3.index t (0 : Fin 2) * 1 + 1 * j.val = j.val; omega
  | ⟨1, _⟩ => show win5_3.index t (1 : Fin 2) * 512 + 1 * k.val = k.val; omega

theorem dat5_blk4_at (c : Dev nD) (t : Fin cfg5.N) (j : Fin 1) (k : Fin 512) :
    at2 (n0 := 1) (n1 := 512) (iblk5 V c 4 t) j k = at2 (n0 := 1) (n1 := 512) (V c main_v86) j k := by
  rw [at2_def, at2_def]
  show V c main_v86 (((cfg5.win 4).blk t).view.emb (ix2 j k)) = V c main_v86 (ix2 j k)
  refine congrArg (V c main_v86) (funext fun a => Fin.ext ?_)
  obtain ⟨-, -, -, -, -, -, -, -, e0, e1, -, -, -, -, -, -, -, -, -, -, -, -⟩ := dat5_idx t
  match a with
  | ⟨0, _⟩ => show win5_4.index t (0 : Fin 2) * 1 + 1 * j.val = j.val; omega
  | ⟨1, _⟩ => show win5_4.index t (1 : Fin 2) * 512 + 1 * k.val = k.val; omega

theorem dat5_blk5_at (c : Dev nD) (t : Fin cfg5.N) (r : Fin 2000) (k : Fin 256) :
    at2 (n0 := 2000) (n1 := 256) (iblk5 V c 5 t) r k = at2 (n0 := 50000) (n1 := 256) (V c main_v54) ⟨2000 * t.val + r.val, dat5_row_lt t r⟩ k := by
  rw [at2_def, at2_def]
  show V c main_v54 (((cfg5.win 5).blk t).view.emb (ix2 r k)) = V c main_v54 (ix2 _ k)
  refine congrArg (V c main_v54) (funext fun a => Fin.ext ?_)
  obtain ⟨-, -, -, -, -, -, -, -, -, -, e0, e1, -, -, -, -, -, -, -, -, -, -⟩ := dat5_idx t
  match a with
  | ⟨0, _⟩ => show win5_5.index t (0 : Fin 2) * 2000 + 1 * r.val = 2000 * t.val + r.val; omega
  | ⟨1, _⟩ => show win5_5.index t (1 : Fin 2) * 256 + 1 * k.val = k.val; omega

theorem dat5_blk6_at (c : Dev nD) (t : Fin cfg5.N) (j : Fin 512) (k : Fin 256) :
    at2 (n0 := 512) (n1 := 256) (iblk5 V c 6 t) j k = at2 (n0 := 512) (n1 := 256) (V c main_v82) j k := by
  rw [at2_def, at2_def]
  show V c main_v82 (((cfg5.win 6).blk t).view.emb (ix2 j k)) = V c main_v82 (ix2 j k)
  refine congrArg (V c main_v82) (funext fun a => Fin.ext ?_)
  obtain ⟨-, -, -, -, -, -, -, -, -, -, -, -, e0, e1, -, -, -, -, -, -, -, -⟩ := dat5_idx t
  match a with
  | ⟨0, _⟩ => show win5_6.index t (0 : Fin 2) * 512 + 1 * j.val = j.val; omega
  | ⟨1, _⟩ => show win5_6.index t (1 : Fin 2) * 256 + 1 * k.val = k.val; omega

theorem dat5_blk7_at (c : Dev nD) (t : Fin cfg5.N) (j : Fin 1) (k : Fin 256) :
    at2 (n0 := 1) (n1 := 256) (iblk5 V c 7 t) j k = at2 (n0 := 1) (n1 := 256) (V c main_v87) j k := by
  rw [at2_def, at2_def]
  show V c main_v87 (((cfg5.win 7).blk t).view.emb (ix2 j k)) = V c main_v87 (ix2 j k)
  refine congrArg (V c main_v87) (funext fun a => Fin.ext ?_)
  obtain ⟨-, -, -, -, -, -, -, -, -, -, -, -, -, -, e0, e1, -, -, -, -, -, -⟩ := dat5_idx t
  match a with
  | ⟨0, _⟩ => show win5_7.index t (0 : Fin 2) * 1 + 1 * j.val = j.val; omega
  | ⟨1, _⟩ => show win5_7.index t (1 : Fin 2) * 256 + 1 * k.val = k.val; omega

/-! ## The first output: the layer's output, entry by entry -/

/-- Entry `(p, q)` of the layer's output, from the arrays the region finds. -/
def dat5_h3 (c : Dev nD) (p : Fin 50000) (q : Fin 256) : EReal :=
  ((0 + ∑ k : Fin 512, max (at2 (n0 := 1) (n1 := 512) (V c main_v85) 0 k * (at2 (n0 := 50000) (n1 := 512) (V c main_v70_0) p k - at2 (n0 := 1) (n1 := 512) (V c main_v72) 0 k) * Ideal.rsqrt (at2 (n0 := 1) (n1 := 512) (V c main_v76) 0 k + Ideal.ofBits .f32 0x3727C5AC#32) + at2 (n0 := 1) (n1 := 512) (V c main_v86) 0 k) 0 * at2 (n0 := 512) (n1 := 256) (V c main_v82) k q) + at2 (n0 := 1) (n1 := 256) (V c main_v87) 0 q) + at2 (n0 := 50000) (n1 := 256) (V c main_v54) p q

/-- What the body stores into window 8 at point `t`, at an entry: that entry of the layer's output. -/
theorem dat5_h3_blk (c : Dev nD) (t : Fin cfg5.N) (r : Fin 2000) (q : Fin 256) :
    at2 (dat5_o8 (F := Ideal) (iblk5 V c 0 t) (iblk5 V c 1 t) (iblk5 V c 2 t) (iblk5 V c 3 t) (iblk5 V c 4 t) (iblk5 V c 5 t) (iblk5 V c 6 t) (iblk5 V c 7 t)) r q = dat5_h3 V c ⟨2000 * t.val + r.val, dat5_row_lt t r⟩ q := by
  refine (dat5_o8_at (iblk5 V c 0 t) (iblk5 V c 1 t) (iblk5 V c 2 t) (iblk5 V c 3 t) (iblk5 V c 4 t) (iblk5 V c 5 t) (iblk5 V c 6 t) (iblk5 V c 7 t) r q).trans ?_
  unfold dat5_h3
  refine congrArg₂ (· + ·) (congrArg₂ (· + ·) (congrArg (0 + ·) (Finset.sum_congr rfl fun k _ => ?_)) (dat5_blk7_at V c t 0 q)) (dat5_blk5_at V c t r q)
  rw [dat5_blk0_at V c t r k, dat5_blk1_at V c t 0 k, dat5_blk2_at V c t 0 k, dat5_blk3_at V c t 0 k, dat5_blk4_at V c t 0 k, dat5_blk6_at V c t k q]

/-- The layer's output as the contents of window 8's array. -/
def dat5_G8 (c : Dev nD) : S50000x256.Idx → EReal := fun i => dat5_h3 V c (i 0) (i 1)

/-- Entry `(r, q)` of block `t` of window 8's array is entry `(2000 t + r, q)`. -/
theorem dat5_emb8 (t : Fin cfg5.N) (r : Fin 2000) (q : Fin 256) :
    ((cfg5.win 8).blk t).view.emb (ix2 r q) = ix2 (n0 := 50000) (n1 := 256) ⟨2000 * t.val + r.val, dat5_row_lt t r⟩ q := by
  funext a; apply Fin.ext
  obtain ⟨-, -, -, -, -, -, -, -, -, -, -, -, -, -, -, -, e0, e1, -, -, -, -⟩ := dat5_idx t
  match a with
  | ⟨0, _⟩ => show win5_8.index t (0 : Fin 2) * 2000 + 1 * r.val = 2000 * t.val + r.val; omega
  | ⟨1, _⟩ => show win5_8.index t (1 : Fin 2) * 256 + 1 * q.val = q.val; omega

set_option maxHeartbeats 3200000 in
/-- What point `t` writes back to window 8 is block `t` of the layer's output. -/
theorem dat5_flushed8 (c : Dev nD) (t : Fin cfg5.N) :
    (dat5 (F := Ideal) V c).flushed 8 t = ((cfg5.win 8).blk t).view.read (Elt Ideal) (dat5_G8 V c) := by
  show (cfg5.win 8).cut (grid5.coords t) ((dat5 (F := Ideal) V c).after 8 t) = _
  rw [after5_8]
  funext j
  obtain ⟨r, q, rfl⟩ : ∃ (r : Fin 2000) (q : Fin 256), j = ix2 r q := ⟨j 0, j 1, eq_ix2 j⟩
  show at2 (dat5_o8 (F := Ideal) (iblk5 V c 0 t) (iblk5 V c 1 t) (iblk5 V c 2 t) (iblk5 V c 3 t) (iblk5 V c 4 t) (iblk5 V c 5 t) (iblk5 V c 6 t) (iblk5 V c 7 t)) r q
    = dat5_G8 V c (((cfg5.win 8).blk t).view.emb (ix2 r q))
  rw [dat5_emb8]
  exact dat5_h3_blk V c t r q

/-- An entry of window 8's array lies in point `t`'s block iff its coordinates lie in the block's ranges. -/
theorem dat5_mem_blk8 (t : Fin cfg5.N) (i : S50000x256.Idx) :
    i ∈ ((cfg5.win 8).blk t).view.set ↔ ∀ a : Fin 2, win5_8.index t a * S2000x256.size a ≤ (i a).val ∧ (i a).val < win5_8.index t a * S2000x256.size a + S2000x256.size a := by
  show i ∈ ((View.whole main_v88_0).slice (win5_8.rect t)).set ↔ _
  rw [View.set_slice_whole, Rect.mem_set_unit]
  exact Iff.rfl

/-- Every entry lies in the block of the point its row falls in. -/
theorem dat5_cover8 (i : S50000x256.Idx) :
    ∃ t : Fin cfg5.N, (cfg5.win 8).flush t = true ∧ i ∈ ((cfg5.win 8).blk t).view.set := by
  have hi0 : (i 0).val < 50000 := (i 0).isLt
  have hi1 : (i 1).val < 256 := (i 1).isLt
  have hN : cfg5.N = 25 := dat5_N
  refine ⟨⟨(i 0).val / 2000, by rw [hN]; omega⟩, flush5_8 _, ?_⟩
  rw [dat5_mem_blk8]
  obtain ⟨-, -, -, -, -, -, -, -, -, -, -, -, -, -, -, -, e0, e1, -, -, -, -⟩ := dat5_idx ⟨(i 0).val / 2000, by rw [hN]; omega⟩
  intro a
  match a with
  | ⟨0, _⟩ =>
    show win5_8.index _ (0 : Fin 2) * 2000 ≤ (i 0).val ∧ (i 0).val < win5_8.index _ (0 : Fin 2) * 2000 + 2000
    rw [e0]; show (i 0).val / 2000 * 2000 ≤ (i 0).val ∧ (i 0).val < (i 0).val / 2000 * 2000 + 2000; omega
  | ⟨1, _⟩ =>
    show win5_8.index _ (1 : Fin 2) * 256 ≤ (i 1).val ∧ (i 1).val < win5_8.index _ (1 : Fin 2) * 256 + 256
    rw [e1]; omega

/-- After the region window 8's array holds the layer's output. -/
theorem dat5_final8 (c : Dev nD) : (dat5 (F := Ideal) V c).arrAt 8 cfg5.N = dat5_G8 V c :=
  (dat5 (F := Ideal) V c).arrAt_eq_of_cover 8 (dat5_G8 V c) (fun t _ => dat5_flushed8 V c t) dat5_cover8

/-- THE FIRST OUTPUT, entry by entry. -/
theorem arrAt5_8 (c : Dev nD) (p : Fin 50000) (q : Fin 256) :
    at2 (n0 := 50000) (n1 := 256) ((dat5 (F := Ideal) V c).arrAt 8 cfg5.N) p q = dat5_h3 V c p q := by
  rw [dat5_final8]; rfl

/-! ## The two statistics outputs: the running rows after the last point, as sums over all rows -/

/-- Statistics window 9's one block is its whole array. -/
theorem dat5_emb9 (t : Fin cfg5.N) (j : S1x256.Idx) : ((cfg5.win 9).blk t).view.emb j = j := by
  funext a; apply Fin.ext
  obtain ⟨-, -, -, -, -, -, -, -, -, -, -, -, -, -, -, -, -, -, e0, e1, -, -⟩ := dat5_idx t
  match a with
  | ⟨0, _⟩ => show win5_9.index t (0 : Fin 2) * 1 + 1 * (j 0).val = (j 0).val; omega
  | ⟨1, _⟩ => show win5_9.index t (1 : Fin 2) * 256 + 1 * (j 1).val = (j 1).val; omega

/-- Its one write-back, at the last point, writes the running row as the last point leaves it. -/
theorem dat5_flushed9 (c : Dev nD) (t : Fin cfg5.N) (hf : (cfg5.win 9).flush t = true) :
    (dat5 (F := Ideal) V c).flushed 9 t = ((cfg5.win 9).blk t).view.read (Elt Ideal) ((dat5_acc (F := Ideal) V c 24 dat5_lt24).1) := by
  have h24 : t.val = 24 := by
    have := (flush5_9 t).mp hf
    have hN : t.val < 25 := lt_of_lt_of_eq t.isLt dat5_N
    omega
  have ht : t = ⟨24, dat5_lt24⟩ := Fin.ext h24
  subst ht
  show (cfg5.win 9).cut (grid5.coords _) ((dat5 (F := Ideal) V c).after 9 _) = _
  rw [after5_9, dat5_o9_eq]
  funext j
  show (dat5_acc (F := Ideal) V c 24 _).1 j = (dat5_acc (F := Ideal) V c 24 _).1 (((cfg5.win 9).blk _).view.emb j)
  rw [dat5_emb9]

theorem dat5_mem_blk9 (t : Fin cfg5.N) (i : S1x256.Idx) :
    i ∈ ((cfg5.win 9).blk t).view.set ↔ ∀ a : Fin 2, win5_9.index t a * S1x256.size a ≤ (i a).val ∧ (i a).val < win5_9.index t a * S1x256.size a + S1x256.size a := by
  show i ∈ ((View.whole main_v88_1).slice (win5_9.rect t)).set ↔ _
  rw [View.set_slice_whole, Rect.mem_set_unit]
  exact Iff.rfl

/-- The last point's block covers the array. -/
theorem dat5_cover9 (i : S1x256.Idx) :
    ∃ t : Fin cfg5.N, (cfg5.win 9).flush t = true ∧ i ∈ ((cfg5.win 9).blk t).view.set := by
  have hi0 : (i 0).val < 1 := (i 0).isLt
  have hi1 : (i 1).val < 256 := (i 1).isLt
  have hN : cfg5.N = 25 := dat5_N
  refine ⟨⟨24, by rw [hN]; omega⟩, (flush5_9 _).mpr rfl, ?_⟩
  rw [dat5_mem_blk9]
  obtain ⟨-, -, -, -, -, -, -, -, -, -, -, -, -, -, -, -, -, -, e0, e1, -, -⟩ := dat5_idx ⟨24, by rw [hN]; omega⟩
  intro a
  match a with
  | ⟨0, _⟩ =>
    show win5_9.index _ (0 : Fin 2) * 1 ≤ (i 0).val ∧ (i 0).val < win5_9.index _ (0 : Fin 2) * 1 + 1
    rw [e0]; omega
  | ⟨1, _⟩ =>
    show win5_9.index _ (1 : Fin 2) * 256 ≤ (i 1).val ∧ (i 1).val < win5_9.index _ (1 : Fin 2) * 256 + 256
    rw [e1]; omega

/-- After the region the array holds the running row after the last point. -/
theorem dat5_final9 (c : Dev nD) : (dat5 (F := Ideal) V c).arrAt 9 cfg5.N = (dat5_acc (F := Ideal) V c 24 dat5_lt24).1 :=
  (dat5 (F := Ideal) V c).arrAt_eq_of_cover 9 ((dat5_acc (F := Ideal) V c 24 dat5_lt24).1) (fun t hf => dat5_flushed9 V c t hf) dat5_cover9

/-- Column `q` of the running row after `n` points; zero before the first (and past the grid). -/
def dat5_run9 (c : Dev nD) (q : Fin 256) : ℕ → EReal
  | 0 => 0
  | n + 1 => if hn : n < cfg5.N then at2 (n0 := 1) (n1 := 256) (dat5_acc (F := Ideal) V c n hn).1 0 q else 0

/-- One point adds (0 + the block's column sum). -/
theorem dat5_run9_step (c : Dev nD) (q : Fin 256) (t : ℕ) (ht : t < 25) :
    dat5_run9 V c q (t + 1) = dat5_run9 V c q t + (0 + ∑ r : Fin 2000, dat5_h3 V c ⟨2000 * t + r.val, by omega⟩ q) := by
  have hN : cfg5.N = 25 := dat5_N
  have htN : t < cfg5.N := by rw [hN]; exact ht
  cases t with
  | zero =>
    show (if hn : 0 < cfg5.N then at2 (n0 := 1) (n1 := 256) (dat5_acc (F := Ideal) V c 0 hn).1 0 q else 0) = 0 + _
    rw [dif_pos htN]
    rw [dat5_acc_zero V c ⟨0, htN⟩ rfl]; dsimp only
    refine (dat5_s0_at (iblk5 V c 0 ⟨0, htN⟩) (iblk5 V c 1 ⟨0, htN⟩) (iblk5 V c 2 ⟨0, htN⟩) (iblk5 V c 3 ⟨0, htN⟩) (iblk5 V c 4 ⟨0, htN⟩) (iblk5 V c 5 ⟨0, htN⟩) (iblk5 V c 6 ⟨0, htN⟩) (iblk5 V c 7 ⟨0, htN⟩) dat5_z0 q).trans ?_
    refine congrArg₂ (· + ·) (dat5_z0_at q) (congrArg (0 + ·) (Finset.sum_congr rfl fun r _ => ?_))
    exact dat5_h3_blk V c ⟨0, htN⟩ r q
  | succ n =>
    have hn' : n < cfg5.N := by omega
    show (if hn : n + 1 < cfg5.N then at2 (n0 := 1) (n1 := 256) (dat5_acc (F := Ideal) V c (n + 1) hn).1 0 q else 0)
      = (if hn : n < cfg5.N then at2 (n0 := 1) (n1 := 256) (dat5_acc (F := Ideal) V c n hn).1 0 q else 0) + _
    rw [dif_pos htN, dif_pos hn']
    rw [dat5_acc_pos V c ⟨n + 1, htN⟩ (Nat.succ_ne_zero n)]; dsimp only
    refine (dat5_s0_at (iblk5 V c 0 ⟨n + 1, htN⟩) (iblk5 V c 1 ⟨n + 1, htN⟩) (iblk5 V c 2 ⟨n + 1, htN⟩) (iblk5 V c 3 ⟨n + 1, htN⟩) (iblk5 V c 4 ⟨n + 1, htN⟩) (iblk5 V c 5 ⟨n + 1, htN⟩) (iblk5 V c 6 ⟨n + 1, htN⟩) (iblk5 V c 7 ⟨n + 1, htN⟩) _ q).trans ?_
    refine congrArg₂ (· + ·) rfl (congrArg (0 + ·) (Finset.sum_congr rfl fun r _ => ?_))
    exact dat5_h3_blk V c ⟨n + 1, htN⟩ r q

/-- STATISTICS OUTPUT 1, column by column: the sum over the 50000 rows of the layer's output, from zero. -/
theorem arrAt5_9 (c : Dev nD) (q : Fin 256) :
    at2 (n0 := 1) (n1 := 256) ((dat5 (F := Ideal) V c).arrAt 9 cfg5.N) 0 q = 0 + ∑ p : Fin 50000, dat5_h3 V c p q := by
  rw [dat5_final9]
  have h := Cert.Spec.seq25_zero (fun p => dat5_h3 V c p q) (dat5_run9 V c q) rfl (fun t ht => dat5_run9_step V c q t ht)
  refine Eq.trans ?_ h
  show _ = (if hn : 24 < cfg5.N then at2 (n0 := 1) (n1 := 256) (dat5_acc (F := Ideal) V c 24 hn).1 0 q else 0)
  rw [dif_pos dat5_lt24]

/-- Statistics window 10's one block is its whole array. -/
theorem dat5_emb10 (t : Fin cfg5.N) (j : S1x256.Idx) : ((cfg5.win 10).blk t).view.emb j = j := by
  funext a; apply Fin.ext
  obtain ⟨-, -, -, -, -, -, -, -, -, -, -, -, -, -, -, -, -, -, -, -, e0, e1⟩ := dat5_idx t
  match a with
  | ⟨0, _⟩ => show win5_10.index t (0 : Fin 2) * 1 + 1 * (j 0).val = (j 0).val; omega
  | ⟨1, _⟩ => show win5_10.index t (1 : Fin 2) * 256 + 1 * (j 1).val = (j 1).val; omega

/-- Its one write-back, at the last point, writes the running row as the last point leaves it. -/
theorem dat5_flushed10 (c : Dev nD) (t : Fin cfg5.N) (hf : (cfg5.win 10).flush t = true) :
    (dat5 (F := Ideal) V c).flushed 10 t = ((cfg5.win 10).blk t).view.read (Elt Ideal) ((dat5_acc (F := Ideal) V c 24 dat5_lt24).2) := by
  have h24 : t.val = 24 := by
    have := (flush5_10 t).mp hf
    have hN : t.val < 25 := lt_of_lt_of_eq t.isLt dat5_N
    omega
  have ht : t = ⟨24, dat5_lt24⟩ := Fin.ext h24
  subst ht
  show (cfg5.win 10).cut (grid5.coords _) ((dat5 (F := Ideal) V c).after 10 _) = _
  rw [after5_10, dat5_o9_eq]
  funext j
  show (dat5_acc (F := Ideal) V c 24 _).2 j = (dat5_acc (F := Ideal) V c 24 _).2 (((cfg5.win 10).blk _).view.emb j)
  rw [dat5_emb10]

theorem dat5_mem_blk10 (t : Fin cfg5.N) (i : S1x256.Idx) :
    i ∈ ((cfg5.win 10).blk t).view.set ↔ ∀ a : Fin 2, win5_10.index t a * S1x256.size a ≤ (i a).val ∧ (i a).val < win5_10.index t a * S1x256.size a + S1x256.size a := by
  show i ∈ ((View.whole main_v88_2).slice (win5_10.rect t)).set ↔ _
  rw [View.set_slice_whole, Rect.mem_set_unit]
  exact Iff.rfl

/-- The last point's block covers the array. -/
theorem dat5_cover10 (i : S1x256.Idx) :
    ∃ t : Fin cfg5.N, (cfg5.win 10).flush t = true ∧ i ∈ ((cfg5.win 10).blk t).view.set := by
  have hi0 : (i 0).val < 1 := (i 0).isLt
  have hi1 : (i 1).val < 256 := (i 1).isLt
  have hN : cfg5.N = 25 := dat5_N
  refine ⟨⟨24, by rw [hN]; omega⟩, (flush5_10 _).mpr rfl, ?_⟩
  rw [dat5_mem_blk10]
  obtain ⟨-, -, -, -, -, -, -, -, -, -, -, -, -, -, -, -, -, -, -, -, e0, e1⟩ := dat5_idx ⟨24, by rw [hN]; omega⟩
  intro a
  match a with
  | ⟨0, _⟩ =>
    show win5_10.index _ (0 : Fin 2) * 1 ≤ (i 0).val ∧ (i 0).val < win5_10.index _ (0 : Fin 2) * 1 + 1
    rw [e0]; omega
  | ⟨1, _⟩ =>
    show win5_10.index _ (1 : Fin 2) * 256 ≤ (i 1).val ∧ (i 1).val < win5_10.index _ (1 : Fin 2) * 256 + 256
    rw [e1]; omega

/-- After the region the array holds the running row after the last point. -/
theorem dat5_final10 (c : Dev nD) : (dat5 (F := Ideal) V c).arrAt 10 cfg5.N = (dat5_acc (F := Ideal) V c 24 dat5_lt24).2 :=
  (dat5 (F := Ideal) V c).arrAt_eq_of_cover 10 ((dat5_acc (F := Ideal) V c 24 dat5_lt24).2) (fun t hf => dat5_flushed10 V c t hf) dat5_cover10

/-- Column `q` of the running row after `n` points; zero before the first (and past the grid). -/
def dat5_run10 (c : Dev nD) (q : Fin 256) : ℕ → EReal
  | 0 => 0
  | n + 1 => if hn : n < cfg5.N then at2 (n0 := 1) (n1 := 256) (dat5_acc (F := Ideal) V c n hn).2 0 q else 0

/-- One point adds (0 + the block's column sum). -/
theorem dat5_run10_step (c : Dev nD) (q : Fin 256) (t : ℕ) (ht : t < 25) :
    dat5_run10 V c q (t + 1) = dat5_run10 V c q t + (0 + ∑ r : Fin 2000, dat5_h3 V c ⟨2000 * t + r.val, by omega⟩ q * dat5_h3 V c ⟨2000 * t + r.val, by omega⟩ q) := by
  have hN : cfg5.N = 25 := dat5_N
  have htN : t < cfg5.N := by rw [hN]; exact ht
  cases t with
  | zero =>
    show (if hn : 0 < cfg5.N then at2 (n0 := 1) (n1 := 256) (dat5_acc (F := Ideal) V c 0 hn).2 0 q else 0) = 0 + _
    rw [dif_pos htN]
    rw [dat5_acc_zero V c ⟨0, htN⟩ rfl]; dsimp only
    refine (dat5_s1_at (iblk5 V c 0 ⟨0, htN⟩) (iblk5 V c 1 ⟨0, htN⟩) (iblk5 V c 2 ⟨0, htN⟩) (iblk5 V c 3 ⟨0, htN⟩) (iblk5 V c 4 ⟨0, htN⟩) (iblk5 V c 5 ⟨0, htN⟩) (iblk5 V c 6 ⟨0, htN⟩) (iblk5 V c 7 ⟨0, htN⟩) dat5_z1 q).trans ?_
    refine congrArg₂ (· + ·) (dat5_z1_at q) (congrArg (0 + ·) (Finset.sum_congr rfl fun r _ => ?_))
    exact congrArg₂ (· * ·) (dat5_h3_blk V c ⟨0, htN⟩ r q) (dat5_h3_blk V c ⟨0, htN⟩ r q)
  | succ n =>
    have hn' : n < cfg5.N := by omega
    show (if hn : n + 1 < cfg5.N then at2 (n0 := 1) (n1 := 256) (dat5_acc (F := Ideal) V c (n + 1) hn).2 0 q else 0)
      = (if hn : n < cfg5.N then at2 (n0 := 1) (n1 := 256) (dat5_acc (F := Ideal) V c n hn).2 0 q else 0) + _
    rw [dif_pos htN, dif_pos hn']
    rw [dat5_acc_pos V c ⟨n + 1, htN⟩ (Nat.succ_ne_zero n)]; dsimp only
    refine (dat5_s1_at (iblk5 V c 0 ⟨n + 1, htN⟩) (iblk5 V c 1 ⟨n + 1, htN⟩) (iblk5 V c 2 ⟨n + 1, htN⟩) (iblk5 V c 3 ⟨n + 1, htN⟩) (iblk5 V c 4 ⟨n + 1, htN⟩) (iblk5 V c 5 ⟨n + 1, htN⟩) (iblk5 V c 6 ⟨n + 1, htN⟩) (iblk5 V c 7 ⟨n + 1, htN⟩) _ q).trans ?_
    refine congrArg₂ (· + ·) rfl (congrArg (0 + ·) (Finset.sum_congr rfl fun r _ => ?_))
    exact congrArg₂ (· * ·) (dat5_h3_blk V c ⟨n + 1, htN⟩ r q) (dat5_h3_blk V c ⟨n + 1, htN⟩ r q)

/-- STATISTICS OUTPUT 2, column by column: the sum over the 50000 rows of the layer's output's squares, from zero. -/
theorem arrAt5_10 (c : Dev nD) (q : Fin 256) :
    at2 (n0 := 1) (n1 := 256) ((dat5 (F := Ideal) V c).arrAt 10 cfg5.N) 0 q = 0 + ∑ p : Fin 50000, dat5_h3 V c p q * dat5_h3 V c p q := by
  rw [dat5_final10]
  have h := Cert.Spec.seq25_zero (fun p => dat5_h3 V c p q * dat5_h3 V c p q) (dat5_run10 V c q) rfl (fun t ht => dat5_run10_step V c q t ht)
  refine Eq.trans ?_ h
  show _ = (if hn : 24 < cfg5.N then at2 (n0 := 1) (n1 := 256) (dat5_acc (F := Ideal) V c 24 hn).2 0 q else 0)
  rw [dif_pos dat5_lt24]

end Cert.KernelIdeal.HandV

end
-- ==== Proof.KI.R6V.lean ====
/-
  The value of region 6 (the batch-norm finalize kernel) at the ideal values: after the region the output array holds,
  index by index,
    out[p, q] = (g[0, q] · (h[p, q] − mean[0, q])) · rsqrt(var[0, q] + eps) + beta[0, q],
  read in the arrays as the region finds them, in the kernel's own association. First the payload at an index (four row
  broadcasts over pointwise operations); then each window's block at a point as rows of its array; then what a point
  writes back as a block of ONE whole-array function, the cover of the array by the 25 row blocks, and the array
  after the region.
-/
import proofs.«132438_j6098853560655_1_alg».proof.Proof.KI.R6
import proofs.«132438_j6098853560655_1_alg».proof.Proof.KI.At2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

theorem hz6 : (![0, 0] : Fin 2 → Nat) = fun _ => 0 := funext fun a => by fin_cases a <;> rfl

/-! ## The payload at an index -/

/-- The body's payload at row `r`, column `q` of the block, over the five loaded blocks (variance, scale, the
    activations, mean, shift). -/
theorem pay6_apply (xv xg : Vec Ideal S1x256 .f32) (xh : Vec Ideal S2000x256 .f32) (xm xb : Vec Ideal S1x256 .f32)
    (r : Fin 2000) (q : Fin 256) :
    k6_pay1 xv xg xh xm xb (ix2 r q)
      = (xg (ix2 (0 : Fin 1) q) * (xh (ix2 r q) - xm (ix2 (0 : Fin 1) q)))
          * Ideal.rsqrt (xv (ix2 (0 : Fin 1) q) + Ideal.ofBits .f32 0x3727C5AC#32) + xb (ix2 (0 : Fin 1) q) := by
  unfold k6_pay1
  simp only [shapeCast_self]
  show (broadcastTo S2000x256 xg broadcasts_S1x256_S2000x256 (ix2 r q)
        * (xh (ix2 r q) - broadcastTo S2000x256 xm broadcasts_S1x256_S2000x256 (ix2 r q)))
      * broadcastTo S2000x256 (rsqrt (F := Ideal) (addf (F := Ideal) xv (broadcast S1x256 (Scalar.ofBits (F := Ideal) .f32 0x3727C5AC#32)))) broadcasts_S1x256_S2000x256 (ix2 r q)
      + broadcastTo S2000x256 xb broadcasts_S1x256_S2000x256 (ix2 r q) = _
  rw [broadcastTo_1b_ab_apply, broadcastTo_1b_ab_apply, broadcastTo_1b_ab_apply, broadcastTo_1b_ab_apply]
  rfl

/-! ## The index maps over the grid, and the blocks as rows of their arrays -/

/-- The printed index maps, decided over the 25 points: the row windows (activations, output) are at block `t` on the
    row axis; the four one-row windows stay at block 0. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The activation window's block at point `t` is rows `2000 t … 2000 t + 1999` of its array. -/
theorem blk6_0_at (c : Dev nD) (t : Fin cfg6.N) (r : Fin 2000) (q : Fin 256) (P : Fin 50000) (Q : Fin 256)
    (hP : P.val = 2000 * t.val + r.val) (hQ : Q.val = q.val) :
    (iblk6 V c 0 t : Vec Ideal S2000x256 .f32) (ix2 r q) = at2 (V c main_v88_0) P Q := by
  obtain ⟨e0, e1, -⟩ := idx_facts6 t
  unfold iblk6 at2
  rw [View.read_apply]
  show V c main_v88_0 _ = V c main_v88_0 _
  congr 1
  funext a
  apply Fin.ext
  match a with
  | ⟨0, _⟩ => show win6_0.index t (0 : Fin 2) * 2000 + 1 * r.val = P.val; rw [e0, hP]; omega
  | ⟨1, _⟩ => show win6_0.index t (1 : Fin 2) * 256 + 1 * q.val = Q.val; rw [e1, hQ]; omega

/-- The mean window's block at every point is its whole one-row array. -/
theorem blk6_1_at (c : Dev nD) (t : Fin cfg6.N) (q Q : Fin 256) (hQ : Q.val = q.val) :
    (iblk6 V c 1 t : Vec Ideal S1x256 .f32) (ix2 (0 : Fin 1) q) = at2 (V c main_v90) (0 : Fin 1) Q := by
  obtain ⟨-, -, e0, e1, -⟩ := idx_facts6 t
  unfold iblk6 at2
  rw [View.read_apply]
  show V c main_v90 _ = V c main_v90 _
  congr 1
  funext a
  apply Fin.ext
  match a with
  | ⟨0, _⟩ => show win6_1.index t (0 : Fin 2) * 1 + 1 * 0 = 0; rw [e0]
  | ⟨1, _⟩ => show win6_1.index t (1 : Fin 2) * 256 + 1 * q.val = Q.val; rw [e1, hQ]; omega

/-- The variance window's block at every point is its whole one-row array. -/
theorem blk6_2_at (c : Dev nD) (t : Fin cfg6.N) (q Q : Fin 256) (hQ : Q.val = q.val) :
    (iblk6 V c 2 t : Vec Ideal S1x256 .f32) (ix2 (0 : Fin 1) q) = at2 (V c main_v94) (0 : Fin 1) Q := by
  obtain ⟨-, -, -, -, e0, e1, -⟩ := idx_facts6 t
  unfold iblk6 at2
  rw [View.read_apply]
  show V c main_v94 _ = V c main_v94 _
  congr 1
  funext a
  apply Fin.ext
  match a with
  | ⟨0, _⟩ => show win6_2.index t (0 : Fin 2) * 1 + 1 * 0 = 0; rw [e0]
  | ⟨1, _⟩ => show win6_2.index t (1 : Fin 2) * 256 + 1 * q.val = Q.val; rw [e1, hQ]; omega

/-- The scale window's block at every point is its whole one-row array. -/
theorem blk6_3_at (c : Dev nD) (t : Fin cfg6.N) (q Q : Fin 256) (hQ : Q.val = q.val) :
    (iblk6 V c 3 t : Vec Ideal S1x256 .f32) (ix2 (0 : Fin 1) q) = at2 (V c main_v99) (0 : Fin 1) Q := by
  obtain ⟨-, -, -, -, -, -, e0, e1, -⟩ := idx_facts6 t
  unfold iblk6 at2
  rw [View.read_apply]
  show V c main_v99 _ = V c main_v99 _
  congr 1
  funext a
  apply Fin.ext
  match a with
  | ⟨0, _⟩ => show win6_3.index t (0 : Fin 2) * 1 + 1 * 0 = 0; rw [e0]
  | ⟨1, _⟩ => show win6_3.index t (1 : Fin 2) * 256 + 1 * q.val = Q.val; rw [e1, hQ]; omega

/-- The shift window's block at every point is its whole one-row array. -/
theorem blk6_4_at (c : Dev nD) (t : Fin cfg6.N) (q Q : Fin 256) (hQ : Q.val = q.val) :
    (iblk6 V c 4 t : Vec Ideal S1x256 .f32) (ix2 (0 : Fin 1) q) = at2 (V c main_v100) (0 : Fin 1) Q := by
  obtain ⟨-, -, -, -, -, -, -, -, e0, e1, -⟩ := idx_facts6 t
  unfold iblk6 at2
  rw [View.read_apply]
  show V c main_v100 _ = V c main_v100 _
  congr 1
  funext a
  apply Fin.ext
  match a with
  | ⟨0, _⟩ => show win6_4.index t (0 : Fin 2) * 1 + 1 * 0 = 0; rw [e0]
  | ⟨1, _⟩ => show win6_4.index t (1 : Fin 2) * 256 + 1 * q.val = Q.val; rw [e1, hQ]; omega

/-! ## The output array as one function of the entry arrays -/

/-- What the output array ends holding at row `p`, column `q`. -/
def val6 (c : Dev nD) (p : Fin 50000) (q : Fin 256) : EReal :=
  (at2 (V c main_v99) (0 : Fin 1) q * (at2 (V c main_v88_0) p q - at2 (V c main_v90) (0 : Fin 1) q))
    * Ideal.rsqrt (at2 (V c main_v94) (0 : Fin 1) q + Ideal.ofBits .f32 0x3727C5AC#32)
    + at2 (V c main_v100) (0 : Fin 1) q

/-- The same as a whole array. -/
def G6 (c : Dev nD) : S50000x256.Idx → EReal := fun i => val6 V c (i 0) (i 1)

/-- What point `t` writes back is block `t` of `G6`. -/
theorem flushed6_5_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5]
  unfold out6_5
  rw [View.canon_unit_zero hz6]
  simp only [View.ld_unit_zero (S := S2000x256) hz6, View.ld_unit_zero (S := S1x256) hz6]
  obtain ⟨-, -, -, -, -, -, -, -, -, -, e0, e1⟩ := idx_facts6 t
  funext j
  obtain ⟨r, q, rfl⟩ : ∃ (r : Fin 2000) (q : Fin 256), j = ix2 r q := ⟨j 0, j 1, eq_ix2 j⟩
  refine (pay6_apply _ _ _ _ _ r q).trans ?_
  rw [View.read_apply]
  show _ = val6 V c ((((cfg6.win 5).blk t).view.emb (ix2 r q)) 0) ((((cfg6.win 5).blk t).view.emb (ix2 r q)) 1)
  have hP : (((((cfg6.win 5).blk t).view.emb (ix2 r q)) 0 : Fin 50000) : ℕ) = 2000 * t.val + r.val := by
    show win6_5.index t (0 : Fin 2) * 2000 + 1 * r.val = _; rw [e0]; omega
  have hQ : (((((cfg6.win 5).blk t).view.emb (ix2 r q)) 1 : Fin 256) : ℕ) = q.val := by
    show win6_5.index t (1 : Fin 2) * 256 + 1 * q.val = _; rw [e1]; omega
  unfold val6
  rw [blk6_0_at V c t r q _ _ hP hQ, blk6_1_at V c t q _ hQ, blk6_2_at V c t q _ hQ, blk6_3_at V c t q _ hQ,
    blk6_4_at V c t q _ hQ]

/-! ## The cover, and the array after the region -/
/-- An index of the output array is in point `t`'s block iff each coordinate is in the block's range on its axis. -/
theorem mem_blk6_5 (t : Fin cfg6.N) (i : S50000x256.Idx) :
    i ∈ ((cfg6.win 5).blk t).view.set ↔ ∀ a : Fin 2, win6_5.index t a * S2000x256.size a ≤ (i a).val ∧ (i a).val < win6_5.index t a * S2000x256.size a + S2000x256.size a := by
  show i ∈ ((View.whole main_v101).slice (win6_5.rect t)).set ↔ _
  rw [View.set_slice_whole, Rect.mem_set_unit]
  exact Iff.rfl

/-- Every index of the output array is in the block of the point its row falls in. -/
theorem cover6_5_arr (i : S50000x256.Idx) :
    ∃ t : Fin cfg6.N, (cfg6.win 5).flush t = true ∧ i ∈ ((cfg6.win 5).blk t).view.set := by
  have hi0 : (i 0).val < 50000 := (i 0).isLt
  have hi1 : (i 1).val < 256 := (i 1).isLt
  have hN : cfg6.N = 25 := N_6
  refine ⟨⟨(i 0).val / 2000, by rw [hN]; omega⟩, flush6_5 _, ?_⟩
  obtain ⟨-, -, -, -, -, -, -, -, -, -, e0, e1⟩ := idx_facts6 ⟨(i 0).val / 2000, by rw [hN]; omega⟩
  rw [mem_blk6_5]
  intro a
  match a with
  | ⟨0, _⟩ =>
    show win6_5.index _ (0 : Fin 2) * 2000 ≤ (i 0).val ∧ (i 0).val < win6_5.index _ (0 : Fin 2) * 2000 + 2000
    rw [e0]; show (i 0).val / 2000 * 2000 ≤ (i 0).val ∧ (i 0).val < (i 0).val / 2000 * 2000 + 2000; omega
  | ⟨1, _⟩ =>
    show win6_5.index _ (1 : Fin 2) * 256 ≤ (i 1).val ∧ (i 1).val < win6_5.index _ (1 : Fin 2) * 256 + 256
    rw [e1]; omega

/-- The output array after the region is `G6` of the entry arrays. -/
theorem final6_5 (c : Dev nD) : (dat6 V c).arrAt 5 cfg6.N = G6 V c :=
  (dat6 V c).arrAt_eq_of_cover 5 (G6 V c) (fun t _ => flushed6_5_eq V c t) cover6_5_arr

/-- The output array after the region, index by index. -/
theorem arrAt6_5 (c : Dev nD) (p : Fin 50000) (q : Fin 256) :
    at2 ((dat6 V c).arrAt 5 cfg6.N) p q
      = (at2 (V c main_v99) (0 : Fin 1) q * (at2 (V c main_v88_0) p q - at2 (V c main_v90) (0 : Fin 1) q))
          * Ideal.rsqrt (at2 (V c main_v94) (0 : Fin 1) q + Ideal.ofBits .f32 0x3727C5AC#32)
          + at2 (V c main_v100) (0 : Fin 1) q := by
  rw [final6_5]
  rfl

end Cert.KernelIdeal.HandV

end
-- ==== Proof.KI.ValueL1.lean ====
import proofs.«132438_j6098853560655_1_alg».proof.Proof.KI.ValueDefs
import proofs.«132438_j6098853560655_1_alg».proof.Proof.KI.R4V
import proofs.«132438_j6098853560655_1_alg».proof.Proof.KI.R5V
import proofs.«132438_j6098853560655_1_alg».proof.Proof.KI.R6V
import proofs.«132438_j6098853560655_1_alg».proof.Proof.KI.Host0
import proofs.«132438_j6098853560655_1_alg».proof.Proof.KI.HostA
import proofs.«132438_j6098853560655_1_alg».proof.Proof.KI.HostB
import proofs.«132438_j6098853560655_1_alg».proof.Proof.KI.HostC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.StableHlo
open scoped BigOperators

variable (m : (ℓ : Loc nD τ sig) → Buf (Elt Ideal) ℓ)

/-! # Layer 1: from its input to its output through its three kernels and the host operations between them -/

/-! ## The layer's stages as rows and matrices of extended reals -/

/-- The layer's input. -/
def L1_x (c : Dev nD) : Cert.Spec.X256 := fun p q => at2 (W8 m c main_v54) p q
/-- The first product, its column sums and column sums of squares, as the first kernel leaves them. -/
def L1_h1 (c : Dev nD) : Fin 50000 → Fin 512 → EReal := fun p q => at2 (W10 m c main_v70_0) p q
def L1_s1 (c : Dev nD) : Fin 512 → EReal := fun q => at2 (W10 m c main_v70_1) (0 : Fin 1) q
def L1_q1 (c : Dev nD) : Fin 512 → EReal := fun q => at2 (W10 m c main_v70_2) (0 : Fin 1) q
/-- The mean and variance rows the host computes from them. -/
def L1_mean1 (c : Dev nD) : Fin 512 → EReal := fun q => at2 (W11 m c main_v72) (0 : Fin 1) q
def L1_var1 (c : Dev nD) : Fin 512 → EReal := fun q => at2 (W11 m c main_v76) (0 : Fin 1) q
/-- The second product with the residual, and its column sums, as the second kernel leaves them. -/
def L1_h3 (c : Dev nD) : Cert.Spec.X256 := fun p q => at2 (W12 m c main_v88_0) p q
def L1_sf (c : Dev nD) : Fin 256 → EReal := fun q => at2 (W12 m c main_v88_1) (0 : Fin 1) q
def L1_qf (c : Dev nD) : Fin 256 → EReal := fun q => at2 (W12 m c main_v88_2) (0 : Fin 1) q
def L1_meanf (c : Dev nD) : Fin 256 → EReal := fun q => at2 (W13 m c main_v90) (0 : Fin 1) q
def L1_varf (c : Dev nD) : Fin 256 → EReal := fun q => at2 (W13 m c main_v94) (0 : Fin 1) q
/-- The layer's output, as the third kernel leaves it. -/
def L1_out (c : Dev nD) : Cert.Spec.X256 := fun p q => at2 (W14 m c main_v101) p q

/-! ## What the first kernel reads -/

theorem L1_rd_x (c : Dev nD) (p : Fin 50000) (k : Fin 256) : at2 (n0 := 50000) (n1 := 256) (E9 m c main_v54) p k = L1_x m c p k := by
  unfold L1_x
  exact congrArg (fun f => at2 (n0 := 50000) (n1 := 256) f p k) (carry_x_9 m c)

theorem L1_rd_agg (c : Dev nD) (p : Fin 50000) (k : Fin 256) :
    at2 (n0 := 50000) (n1 := 256) (E9 m c main_v64) p k = aggOf m c (L1_x m c) p k := by
  have e : (fun i : S50000x256.Idx => L1_x m c (i 0) (i 1)) = W8 m c main_v54 := at2_eta (n0 := 50000) (n1 := 256) (W8 m c main_v54)
  unfold aggOf aggM
  rw [e]
  refine congrArg (fun f => at2 (n0 := 50000) (n1 := 256) f p k) ?_
  show StableHlo.after hostOps4 (W8 m c) main_v64 = _
  rw [host4_agg (W8 m c), carry_v3_8 m c, carry_v5_8 m c]
  show aggK _ (StableHlo.after hostOps0 (W0 m c) main_v3) (StableHlo.after hostOps0 (W0 m c) main_v5) = _
  rw [host0_src (W0 m c), host0_dst (W0 m c)]

theorem L1_rd_W1 (c : Dev nD) (k : Fin 256) (q : Fin 512) :
    at2 (n0 := 256) (n1 := 512) (E9 m c main_v66) k q = (paramsOf m c (1 : Fin 3)).W1 k q := by
  show at2 (StableHlo.after hostOps4 (W8 m c) main_v66) k q = at3 (W0 m c main_arg4) (1 : Fin 3) k q
  rw [host4_W1 (W8 m c) k q, carry_arg4_8 m c]

theorem L1_rd_b1 (c : Dev nD) (q : Fin 512) :
    at2 (n0 := 1) (n1 := 512) (E9 m c main_v69) (0 : Fin 1) q = (paramsOf m c (1 : Fin 3)).b1 q := by
  show at2 (StableHlo.after hostOps4 (W8 m c) main_v69) (0 : Fin 1) q = at2 (W0 m c main_arg5) (1 : Fin 3) q
  rw [host4_b1 (W8 m c) q, carry_arg5_8 m c]

/-- The first product is the linear layer of the input plus its aggregate. -/
theorem L1_h1_at (c : Dev nD) (p : Fin 50000) (q : Fin 512) :
    L1_h1 m c p q = k4_h1 (E9 m) c p q := by
  unfold L1_h1
  rw [W10_out0 m c]
  exact arrAt4_4 (E9 m) c p q

theorem L1_hh1 (c : Dev nD) :
    L1_h1 m c = Cert.Spec.lin (Cert.Spec.addM (L1_x m c) (aggOf m c (L1_x m c))) (paramsOf m c (1 : Fin 3)).W1 (paramsOf m c (1 : Fin 3)).b1 := by
  funext p q
  rw [L1_h1_at]
  unfold k4_h1
  show _ = (0 + ∑ k : Fin 256, (L1_x m c p k + aggOf m c (L1_x m c) p k) * (paramsOf m c (1 : Fin 3)).W1 k q) + (paramsOf m c (1 : Fin 3)).b1 q
  refine congrArg₂ (· + ·) (congrArg (0 + ·) (Finset.sum_congr rfl fun k _ => ?_)) (L1_rd_b1 m c q)
  exact congrArg₂ (· * ·) (congrArg₂ (· + ·) (L1_rd_x m c p k) (L1_rd_agg m c p k)) (L1_rd_W1 m c k q)

theorem L1_hs1 (c : Dev nD) : L1_s1 m c = Cert.Spec.colsum (L1_h1 m c) := by
  funext q
  unfold L1_s1
  rw [W10_out1 m c]
  refine (arrAt4_5 (E9 m) c q).trans ?_
  exact congrArg (0 + ·) (Finset.sum_congr rfl fun p _ => (L1_h1_at m c p q).symm)

theorem L1_hq1 (c : Dev nD) : L1_q1 m c = Cert.Spec.colsumsq (L1_h1 m c) := by
  funext q
  unfold L1_q1
  rw [W10_out2 m c]
  refine (arrAt4_6 (E9 m) c q).trans ?_
  exact congrArg (0 + ·) (Finset.sum_congr rfl fun p _ => congrArg₂ (· * ·) (L1_h1_at m c p q).symm (L1_h1_at m c p q).symm)

/-! ## The host's mean and variance of the first product -/

theorem L1_hm1 (c : Dev nD) : L1_mean1 m c = Cert.Spec.meanOf (L1_s1 m c) :=
  host5_mean_fun (W10 m c)

theorem L1_hv1 (c : Dev nD) : L1_var1 m c = Cert.Spec.varK (L1_q1 m c) (L1_mean1 m c) := by
  rw [L1_hm1]
  exact host5_var_fun (W10 m c)

/-! ## What the second kernel reads -/

theorem L1_rd_h1 (c : Dev nD) (p : Fin 50000) (k : Fin 512) :
    at2 (n0 := 50000) (n1 := 512) (E11 m c main_v70_0) p k = L1_h1 m c p k := by
  unfold L1_h1
  exact congrArg (fun f => at2 (n0 := 50000) (n1 := 512) f p k) (host5_h1 (W10 m c))

theorem L1_rd_x5 (c : Dev nD) (p : Fin 50000) (q : Fin 256) :
    at2 (n0 := 50000) (n1 := 256) (E11 m c main_v54) p q = L1_x m c p q := by
  unfold L1_x
  exact congrArg (fun f => at2 (n0 := 50000) (n1 := 256) f p q) (carry_x_11 m c)

theorem L1_rd_g1 (c : Dev nD) (k : Fin 512) :
    at2 (n0 := 1) (n1 := 512) (E11 m c main_v85) (0 : Fin 1) k = (paramsOf m c (1 : Fin 3)).g1 k := by
  show at2 (StableHlo.after hostOps5 (W10 m c) main_v85) (0 : Fin 1) k = at2 (W0 m c main_arg6) (1 : Fin 3) k
  rw [host5_g1 (W10 m c) k, carry_arg6_10 m c]

theorem L1_rd_beta1 (c : Dev nD) (k : Fin 512) :
    at2 (n0 := 1) (n1 := 512) (E11 m c main_v86) (0 : Fin 1) k = (paramsOf m c (1 : Fin 3)).beta1 k := by
  show at2 (StableHlo.after hostOps5 (W10 m c) main_v86) (0 : Fin 1) k = at2 (W0 m c main_arg7) (1 : Fin 3) k
  rw [host5_beta1 (W10 m c) k, carry_arg7_10 m c]

theorem L1_rd_W2 (c : Dev nD) (k : Fin 512) (q : Fin 256) :
    at2 (n0 := 512) (n1 := 256) (E11 m c main_v82) k q = (paramsOf m c (1 : Fin 3)).W2 k q := by
  show at2 (StableHlo.after hostOps5 (W10 m c) main_v82) k q = at3 (W0 m c main_arg8) (1 : Fin 3) k q
  rw [host5_W2 (W10 m c) k q, carry_arg8_10 m c]

theorem L1_rd_b2 (c : Dev nD) (q : Fin 256) :
    at2 (n0 := 1) (n1 := 256) (E11 m c main_v87) (0 : Fin 1) q = (paramsOf m c (1 : Fin 3)).b2 q := by
  show at2 (StableHlo.after hostOps5 (W10 m c) main_v87) (0 : Fin 1) q = at2 (W0 m c main_arg9) (1 : Fin 3) q
  rw [host5_b2 (W10 m c) q, carry_arg9_10 m c]

/-- The second product with the residual. -/
theorem L1_h3_at (c : Dev nD) (p : Fin 50000) (q : Fin 256) :
    L1_h3 m c p q = dat5_h3 (E11 m) c p q := by
  unfold L1_h3
  rw [W12_out0 m c]
  exact arrAt5_8 (E11 m) c p q

theorem L1_hh3 (c : Dev nD) :
    L1_h3 m c = Cert.Spec.addM (Cert.Spec.lin (Cert.Spec.relu (Cert.Spec.bn (paramsOf m c (1 : Fin 3)).g1 (paramsOf m c (1 : Fin 3)).beta1
      (L1_h1 m c) (L1_mean1 m c) (L1_var1 m c))) (paramsOf m c (1 : Fin 3)).W2 (paramsOf m c (1 : Fin 3)).b2) (L1_x m c) := by
  funext p q
  rw [L1_h3_at]
  unfold dat5_h3
  show _ = ((0 + ∑ k : Fin 512, max ((paramsOf m c (1 : Fin 3)).g1 k * (L1_h1 m c p k - L1_mean1 m c k)
      * Ideal.rsqrt (L1_var1 m c k + Ideal.ofBits .f32 0x3727C5AC#32) + (paramsOf m c (1 : Fin 3)).beta1 k) 0 * (paramsOf m c (1 : Fin 3)).W2 k q)
    + (paramsOf m c (1 : Fin 3)).b2 q) + L1_x m c p q
  refine congrArg₂ (· + ·) (congrArg₂ (· + ·) (congrArg (0 + ·) (Finset.sum_congr rfl fun k _ => ?_)) (L1_rd_b2 m c q)) (L1_rd_x5 m c p q)
  refine congrArg₂ (· * ·) (congrArg (max · 0) ?_) (L1_rd_W2 m c k q)
  refine congrArg₂ (· + ·) (congrArg₂ (· * ·) (congrArg₂ (· * ·) (L1_rd_g1 m c k) (congrArg₂ (· - ·) (L1_rd_h1 m c p k) rfl)) rfl) (L1_rd_beta1 m c k)

theorem L1_hsf (c : Dev nD) : L1_sf m c = Cert.Spec.colsum (L1_h3 m c) := by
  funext q
  unfold L1_sf
  rw [W12_out1 m c]
  refine (arrAt5_9 (E11 m) c q).trans ?_
  exact congrArg (0 + ·) (Finset.sum_congr rfl fun p _ => (L1_h3_at m c p q).symm)

theorem L1_hqf (c : Dev nD) : L1_qf m c = Cert.Spec.colsumsq (L1_h3 m c) := by
  funext q
  unfold L1_qf
  rw [W12_out2 m c]
  refine (arrAt5_10 (E11 m) c q).trans ?_
  exact congrArg (0 + ·) (Finset.sum_congr rfl fun p _ => congrArg₂ (· * ·) (L1_h3_at m c p q).symm (L1_h3_at m c p q).symm)

theorem L1_hmf (c : Dev nD) : L1_meanf m c = Cert.Spec.meanOf (L1_sf m c) :=
  host6_mean_fun (W12 m c)

theorem L1_hvf (c : Dev nD) : L1_varf m c = Cert.Spec.varK (L1_qf m c) (L1_meanf m c) := by
  rw [L1_hmf]
  exact host6_var_fun (W12 m c)

/-! ## What the third kernel reads, and the layer's output -/

theorem L1_rd_h3 (c : Dev nD) (p : Fin 50000) (q : Fin 256) :
    at2 (n0 := 50000) (n1 := 256) (E13 m c main_v88_0) p q = L1_h3 m c p q := by
  unfold L1_h3
  exact congrArg (fun f => at2 (n0 := 50000) (n1 := 256) f p q) (host6_h3 (W12 m c))

theorem L1_rd_gf (c : Dev nD) (q : Fin 256) :
    at2 (n0 := 1) (n1 := 256) (E13 m c main_v99) (0 : Fin 1) q = (paramsOf m c (1 : Fin 3)).gf q := by
  show at2 (StableHlo.after hostOps6 (W12 m c) main_v99) (0 : Fin 1) q = at2 (W0 m c main_arg10) (1 : Fin 3) q
  rw [host6_gf (W12 m c) q, carry_arg10_12 m c]

theorem L1_rd_betaf (c : Dev nD) (q : Fin 256) :
    at2 (n0 := 1) (n1 := 256) (E13 m c main_v100) (0 : Fin 1) q = (paramsOf m c (1 : Fin 3)).betaf q := by
  show at2 (StableHlo.after hostOps6 (W12 m c) main_v100) (0 : Fin 1) q = at2 (W0 m c main_arg11) (1 : Fin 3) q
  rw [host6_betaf (W12 m c) q, carry_arg11_12 m c]

theorem L1_hout (c : Dev nD) :
    L1_out m c = Cert.Spec.bn (paramsOf m c (1 : Fin 3)).gf (paramsOf m c (1 : Fin 3)).betaf (L1_h3 m c) (L1_meanf m c) (L1_varf m c) := by
  funext p q
  unfold L1_out
  rw [W14_out0 m c]
  refine (arrAt6_5 (E13 m) c p q).trans ?_
  show _ = (paramsOf m c (1 : Fin 3)).gf q * (L1_h3 m c p q - L1_meanf m c q) * Ideal.rsqrt (L1_varf m c q + Ideal.ofBits .f32 0x3727C5AC#32)
    + (paramsOf m c (1 : Fin 3)).betaf q
  exact congrArg₂ (· + ·) (congrArg₂ (· * ·) (congrArg₂ (· * ·) (L1_rd_gf m c q) (congrArg₂ (· - ·) (L1_rd_h3 m c p q) rfl)) rfl) (L1_rd_betaf m c q)

/-- LAYER 1: its output is the specification's layer of its input. -/
theorem layer1_value (c : Dev nD) :
    L1_out m c = Cert.Spec.layerK (aggOf m c) (paramsOf m c (1 : Fin 3)) (L1_x m c) :=
  Cert.Spec.layerK_of_stages (aggOf m c) (paramsOf m c (1 : Fin 3)) (L1_x m c) (L1_h1 m c) (L1_s1 m c) (L1_q1 m c) (L1_mean1 m c) (L1_var1 m c)
    (L1_h3 m c) (L1_sf m c) (L1_qf m c) (L1_meanf m c) (L1_varf m c) (L1_out m c)
    (L1_hh1 m c) (L1_hs1 m c) (L1_hq1 m c) (L1_hm1 m c) (L1_hv1 m c) (L1_hh3 m c) (L1_hsf m c) (L1_hqf m c)
    (L1_hmf m c) (L1_hvf m c) (L1_hout m c)

end Cert.KernelIdeal.HandV

end
-- ==== Proof.KI.R7V.lean ====
import proofs.«132438_j6098853560655_1_alg».proof.Proof.KI.R7
import proofs.«132438_j6098853560655_1_alg».proof.Proof.KI.At2
import proofs.«132438_j6098853560655_1_alg».proof.Proof.Math.BlockSum25
import proofs.«132438_j6098853560655_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! # Region 7 at the extended reals: its three outputs, entry by entry -/

/-- The product of a 2000 × 256 block by the 256 × 512 matrix into a zero accumulator, at an entry. -/
theorem k7_matmul_at (a : FVec Ideal S2000x256 .bf16) (b : FVec Ideal S256x512 .bf16) (r : Fin 2000) (q : Fin 512) :
    matmul (F := Ideal) dot_S2000x256_S256x512_S2000x512_1_0_0_1_n_n none a b (constant (F := Ideal) S2000x512 .f32 0x00000000#32) (ix2 r q)
      = ∑ k : Fin 256, at2 a r k * at2 b k q := by
  simp only [matmul, at2_def]
  rw [Ideal.matmul_constant_zero_apply,
    ← Equiv.sum_comp (contrEquiv1 dot_S2000x256_S256x512_S2000x512_1_0_0_1_n_n 256 rfl rfl).symm]
  refine Finset.sum_congr rfl fun k _ => ?_
  have c2 := contrEquiv1_symm_val dot_S2000x256_S256x512_S2000x512_1_0_0_1_n_n 256 rfl rfl k
  have l2 : dot_S2000x256_S256x512_S2000x512_1_0_0_1_n_n.lhsIdx (ix2 r q) ((contrEquiv1 _ 256 rfl rfl).symm k) = ix2 r k := by
    funext ax; apply Fin.ext
    match ax with
    | ⟨0, _⟩ => simp [DotDims.lhsIdx, dot_S2000x256_S256x512_S2000x512_1_0_0_1_n_n]; rfl
    | ⟨1, _⟩ => simp [DotDims.lhsIdx, dot_S2000x256_S256x512_S2000x512_1_0_0_1_n_n]; exact c2
  have r2 : dot_S2000x256_S256x512_S2000x512_1_0_0_1_n_n.rhsIdx (ix2 r q) ((contrEquiv1 _ 256 rfl rfl).symm k) = ix2 k q := by
    funext ax; apply Fin.ext
    match ax with
    | ⟨0, _⟩ => simp [DotDims.rhsIdx, dot_S2000x256_S256x512_S2000x512_1_0_0_1_n_n]; exact c2
    | ⟨1, _⟩ => simp [DotDims.rhsIdx, dot_S2000x256_S256x512_S2000x512_1_0_0_1_n_n]; rfl
  rw [l2, r2]

/-- A bias row spread over the 2000 rows, at an entry: the row's entry in that column. -/
theorem k7_bcast_at (v : FVec Ideal S1x512 .f32) (r : Fin 2000) (q : Fin 512) :
    broadcastTo S2000x512 v broadcasts_S1x512_S2000x512 (ix2 r q) = at2 v 0 q :=
  broadcastTo_apply v _ (ix2 r q) (ix2 0 q) fun a => by
    match a with
    | ⟨0, _⟩ => rfl
    | ⟨1, _⟩ => rfl

/-- The column sums of a 2000 × 512 block, at a column. -/
theorem k7_colsum_at (src : FVec Ideal S2000x512 .f32) (q : Fin 512) :
    multiReduction (F := Ideal) .add [0] S512 src 0x00000000#32 reduces_S2000x512_S512 (.inl rfl) rfl (ix1 q)
      = ∑ r : Fin 2000, at2 src r q := by
  refine (Ideal.multiReduction_add_single src 0x00000000#32 reduces_S2000x512_S512 (.inl rfl) rfl (ix1 q)).trans ?_
  refine Finset.sum_congr rfl fun r _ => ?_
  show src _ = src (ix2 r q)
  refine congrArg src (funext fun a => Fin.ext ?_)
  match a with
  | ⟨0, _⟩ => rfl
  | ⟨1, _⟩ => rfl

/-- A row of 512 viewed as a 1 × 512 matrix, at an entry. -/
theorem k7_row_at (v : FVec Ideal S512 .f32) (q : Fin 512) :
    shapeCast S1x512 v shapeCasts_S512_S1x512 (ix2 0 q) = v (ix1 q) :=
  shapeCast_apply v _ (ix2 0 q) (ix1 q) (by
    rw [Shape.rowMajor_val_one, Shape.rowMajor_val_two]; show q.val = 0 * 512 + q.val; omega)

/-- The affine image of a block at an entry: the product row by column from a zero accumulator, then the bias. -/
theorem k7_pay3_at (x0 x1 : Vec Ideal S2000x256 .f32) (x2 : Vec Ideal S256x512 .f32) (x3 : Vec Ideal S1x512 .f32)
    (r : Fin 2000) (q : Fin 512) :
    at2 (k7_pay3 (F := Ideal) x0 x1 x2 x3) r q
      = (0 + ∑ k : Fin 256, (at2 x0 r k + at2 x1 r k) * at2 x2 k q) + at2 x3 0 q := by
  unfold k7_pay3
  rw [at2_def]
  refine (addf_apply _ _ (ix2 r q)).trans ?_
  refine congrArg₂ (· + ·) ?_ ?_
  · refine (k7_matmul_at _ _ r q).trans ?_
    rw [zero_add]
    refine Finset.sum_congr rfl fun k _ => ?_
    simp only [at2_def, shapeCast_self]
    rfl
  · refine (k7_bcast_at _ r q).trans ?_
    simp only [at2_def, shapeCast_self]

/-- The running column sums after a block: what they were plus the block's column sums. -/
theorem k7_pay4_at (x0 x1 : Vec Ideal S2000x256 .f32) (x2 : Vec Ideal S256x512 .f32) (x3 : Vec Ideal S1x512 .f32)
    (a : Vec Ideal S1x512 .f32) (q : Fin 512) :
    at2 (k7_pay4 (F := Ideal) x0 x1 x2 x3 a) 0 q
      = at2 a 0 q + (0 + ∑ r : Fin 2000, at2 (k7_pay3 (F := Ideal) x0 x1 x2 x3) r q) := by
  unfold k7_pay4
  rw [at2_def]
  simp only [shapeCast_self]
  refine (addf_apply _ _ (ix2 0 q)).trans ?_
  refine congrArg₂ (· + ·) rfl ?_
  refine (k7_row_at _ q).trans ?_
  refine (k7_colsum_at _ q).trans ?_
  exact (zero_add _).symm

/-- The running column sums of squares after a block. -/
theorem k7_pay5_at (x0 x1 : Vec Ideal S2000x256 .f32) (x2 : Vec Ideal S256x512 .f32) (x3 : Vec Ideal S1x512 .f32)
    (a : Vec Ideal S1x512 .f32) (q : Fin 512) :
    at2 (k7_pay5 (F := Ideal) x0 x1 x2 x3 a) 0 q
      = at2 a 0 q + (0 + ∑ r : Fin 2000, at2 (k7_pay3 (F := Ideal) x0 x1 x2 x3) r q * at2 (k7_pay3 (F := Ideal) x0 x1 x2 x3) r q) := by
  unfold k7_pay5
  rw [at2_def]
  simp only [shapeCast_self]
  refine (addf_apply _ _ (ix2 0 q)).trans ?_
  refine congrArg₂ (· + ·) rfl ?_
  refine (k7_row_at _ q).trans ?_
  refine (k7_colsum_at _ q).trans ?_
  refine (zero_add _).symm.trans ?_
  rfl

/-- The running rows start at zero. -/
theorem k7_pay1_at (q : Fin 512) : at2 (k7_pay1 (F := Ideal)) 0 q = 0 := by
  unfold k7_pay1
  rw [at2_def]
  simp only [shapeCast_self, broadcast_apply]
  exact Ideal.ofBits_zero_f32
theorem k7_pay2_at (q : Fin 512) : at2 (k7_pay2 (F := Ideal)) 0 q = 0 := by
  unfold k7_pay2
  rw [at2_def]
  simp only [shapeCast_self, broadcast_apply]
  exact Ideal.ofBits_zero_f32

variable (V : (c : Dev nD) → (b : Ref sig .tc) → Buf (Elt Ideal) ((c : Thread nD τ).loc b))

/-! ## The windows' blocks as entries of the arrays the region finds -/

/-- The printed index maps, decided over the grid: the row blocks move with the point, the others stay. -/
theorem k7_idx : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- Row `r` of block `t` is row `2000 t + r` of the array. -/
theorem k7_row_lt (t : Fin cfg7.N) (r : Fin 2000) : 2000 * t.val + r.val < 50000 := by
  have hN : t.val < 25 := lt_of_lt_of_eq t.isLt N_7
  have := r.isLt
  omega

theorem k7_blk0_at (c : Dev nD) (t : Fin cfg7.N) (r : Fin 2000) (k : Fin 256) :
    at2 (n0 := 2000) (n1 := 256) (iblk7 V c 0 t) r k = at2 (n0 := 50000) (n1 := 256) (V c main_v101) ⟨2000 * t.val + r.val, k7_row_lt t r⟩ k := by
  rw [at2_def, at2_def]
  show V c main_v101 (((cfg7.win 0).blk t).view.emb (ix2 r k)) = V c main_v101 (ix2 _ k)
  refine congrArg (V c main_v101) (funext fun a => Fin.ext ?_)
  obtain ⟨e0, e1, -⟩ := k7_idx t
  match a with
  | ⟨0, _⟩ => show win7_0.index t (0 : Fin 2) * 2000 + 1 * r.val = 2000 * t.val + r.val; omega
  | ⟨1, _⟩ => show win7_0.index t (1 : Fin 2) * 256 + 1 * k.val = k.val; omega

theorem k7_blk7_at (c : Dev nD) (t : Fin cfg7.N) (r : Fin 2000) (k : Fin 256) :
    at2 (n0 := 2000) (n1 := 256) (iblk7 V c 1 t) r k = at2 (n0 := 50000) (n1 := 256) (V c main_v111) ⟨2000 * t.val + r.val, k7_row_lt t r⟩ k := by
  rw [at2_def, at2_def]
  show V c main_v111 (((cfg7.win 1).blk t).view.emb (ix2 r k)) = V c main_v111 (ix2 _ k)
  refine congrArg (V c main_v111) (funext fun a => Fin.ext ?_)
  obtain ⟨-, -, e0, e1, -⟩ := k7_idx t
  match a with
  | ⟨0, _⟩ => show win7_1.index t (0 : Fin 2) * 2000 + 1 * r.val = 2000 * t.val + r.val; omega
  | ⟨1, _⟩ => show win7_1.index t (1 : Fin 2) * 256 + 1 * k.val = k.val; omega

theorem k7_blk2_at (c : Dev nD) (t : Fin cfg7.N) (k : Fin 256) (q : Fin 512) :
    at2 (n0 := 256) (n1 := 512) (iblk7 V c 2 t) k q = at2 (n0 := 256) (n1 := 512) (V c main_v113) k q := by
  rw [at2_def, at2_def]
  show V c main_v113 (((cfg7.win 2).blk t).view.emb (ix2 k q)) = V c main_v113 (ix2 k q)
  refine congrArg (V c main_v113) (funext fun a => Fin.ext ?_)
  obtain ⟨-, -, -, -, e0, e1, -⟩ := k7_idx t
  match a with
  | ⟨0, _⟩ => show win7_2.index t (0 : Fin 2) * 256 + 1 * k.val = k.val; omega
  | ⟨1, _⟩ => show win7_2.index t (1 : Fin 2) * 512 + 1 * q.val = q.val; omega

theorem k7_blk3_at (c : Dev nD) (t : Fin cfg7.N) (q : Fin 512) :
    at2 (n0 := 1) (n1 := 512) (iblk7 V c 3 t) 0 q = at2 (n0 := 1) (n1 := 512) (V c main_v116) 0 q := by
  rw [at2_def, at2_def]
  show V c main_v116 (((cfg7.win 3).blk t).view.emb (ix2 0 q)) = V c main_v116 (ix2 0 q)
  refine congrArg (V c main_v116) (funext fun a => Fin.ext ?_)
  obtain ⟨-, -, -, -, -, -, e0, e1, -⟩ := k7_idx t
  match a with
  | ⟨0, _⟩ => show win7_3.index t (0 : Fin 2) * 1 + 1 * 0 = 0; omega
  | ⟨1, _⟩ => show win7_3.index t (1 : Fin 2) * 512 + 1 * q.val = q.val; omega

/-! ## The first output: the affine image, entry by entry -/

/-- Entry `(p, q)` of the affine image of the arrays the region finds. -/
def k7_h1 (c : Dev nD) (p : Fin 50000) (q : Fin 512) : EReal :=
  (0 + ∑ k : Fin 256, (at2 (n0 := 50000) (n1 := 256) (V c main_v101) p k + at2 (n0 := 50000) (n1 := 256) (V c main_v111) p k)
      * at2 (n0 := 256) (n1 := 512) (V c main_v113) k q) + at2 (n0 := 1) (n1 := 512) (V c main_v116) 0 q

/-- What the body stores into the first output at point `t`, at an entry: that entry of the affine image. -/
theorem k7_pay3_blk (c : Dev nD) (t : Fin cfg7.N) (r : Fin 2000) (q : Fin 512) :
    at2 (k7_pay3 (F := Ideal) (iblk7 V c 0 t) (iblk7 V c 1 t) (iblk7 V c 2 t) (iblk7 V c 3 t)) r q
      = k7_h1 V c ⟨2000 * t.val + r.val, k7_row_lt t r⟩ q := by
  refine (k7_pay3_at (iblk7 V c 0 t) (iblk7 V c 1 t) (iblk7 V c 2 t) (iblk7 V c 3 t) r q).trans ?_
  unfold k7_h1
  refine congrArg₂ (· + ·) (congrArg (0 + ·) (Finset.sum_congr rfl fun k _ => ?_)) (k7_blk3_at V c t q)
  exact congrArg₂ (· * ·) (congrArg₂ (· + ·) (k7_blk0_at V c t r k) (k7_blk7_at V c t r k)) (k7_blk2_at V c t k q)

/-- The affine image as the contents of the first output's array. -/
def k7_G4 (c : Dev nD) : S50000x512.Idx → EReal := fun i => k7_h1 V c (i 0) (i 1)

/-- Entry `(r, q)` of block `t` of the first output's array is entry `(2000 t + r, q)`. -/
theorem k7_emb4 (t : Fin cfg7.N) (r : Fin 2000) (q : Fin 512) :
    ((cfg7.win 4).blk t).view.emb (ix2 r q) = ix2 (n0 := 50000) (n1 := 512) ⟨2000 * t.val + r.val, k7_row_lt t r⟩ q := by
  funext a; apply Fin.ext
  obtain ⟨-, -, -, -, -, -, -, -, e0, e1, -⟩ := k7_idx t
  match a with
  | ⟨0, _⟩ => show win7_4.index t (0 : Fin 2) * 2000 + 1 * r.val = 2000 * t.val + r.val; omega
  | ⟨1, _⟩ => show win7_4.index t (1 : Fin 2) * 512 + 1 * q.val = q.val; omega

/-- What point `t` writes back to the first output is block `t` of the affine image. -/
theorem k7_flushed4 (c : Dev nD) (t : Fin cfg7.N) :
    (dat7 (F := Ideal) V c).flushed 4 t = ((cfg7.win 4).blk t).view.read (Elt Ideal) (k7_G4 V c) := by
  show (cfg7.win 4).cut (grid7.coords t) ((dat7 (F := Ideal) V c).after 4 t) = _
  rw [after7_4]
  funext j
  obtain ⟨r, q, rfl⟩ : ∃ (r : Fin 2000) (q : Fin 512), j = ix2 r q := ⟨j 0, j 1, eq_ix2 j⟩
  show at2 (k7_pay3 (F := Ideal) (iblk7 V c 0 t) (iblk7 V c 1 t) (iblk7 V c 2 t) (iblk7 V c 3 t)) r q
    = k7_G4 V c (((cfg7.win 4).blk t).view.emb (ix2 r q))
  rw [k7_emb4]
  exact k7_pay3_blk V c t r q

/-- An entry of the first output's array lies in point `t`'s block iff its coordinates lie in the block's ranges. -/
theorem k7_mem_blk4 (t : Fin cfg7.N) (i : S50000x512.Idx) :
    i ∈ ((cfg7.win 4).blk t).view.set ↔ ∀ a : Fin 2, win7_4.index t a * S2000x512.size a ≤ (i a).val ∧ (i a).val < win7_4.index t a * S2000x512.size a + S2000x512.size a := by
  show i ∈ ((View.whole main_v117_0).slice (win7_4.rect t)).set ↔ _
  rw [View.set_slice_whole, Rect.mem_set_unit]
  exact Iff.rfl

/-- Every entry lies in the block of the point its row falls in. -/
theorem k7_cover4 (i : S50000x512.Idx) :
    ∃ t : Fin cfg7.N, (cfg7.win 4).flush t = true ∧ i ∈ ((cfg7.win 4).blk t).view.set := by
  have hi0 : (i 0).val < 50000 := (i 0).isLt
  have hi1 : (i 1).val < 512 := (i 1).isLt
  have hN : cfg7.N = 25 := N_7
  refine ⟨⟨(i 0).val / 2000, by rw [hN]; omega⟩, flush7_4 _, ?_⟩
  rw [k7_mem_blk4]
  obtain ⟨-, -, -, -, -, -, -, -, e0, e1, -⟩ := k7_idx ⟨(i 0).val / 2000, by rw [hN]; omega⟩
  intro a
  match a with
  | ⟨0, _⟩ =>
    show win7_4.index _ (0 : Fin 2) * 2000 ≤ (i 0).val ∧ (i 0).val < win7_4.index _ (0 : Fin 2) * 2000 + 2000
    rw [e0]; show (i 0).val / 2000 * 2000 ≤ (i 0).val ∧ (i 0).val < (i 0).val / 2000 * 2000 + 2000; omega
  | ⟨1, _⟩ =>
    show win7_4.index _ (1 : Fin 2) * 512 ≤ (i 1).val ∧ (i 1).val < win7_4.index _ (1 : Fin 2) * 512 + 512
    rw [e1]; omega

/-- After the region the first output's array holds the affine image. -/
theorem k7_final4 (c : Dev nD) : (dat7 (F := Ideal) V c).arrAt 4 cfg7.N = k7_G4 V c :=
  (dat7 (F := Ideal) V c).arrAt_eq_of_cover 4 (k7_G4 V c) (fun t _ => k7_flushed4 V c t) k7_cover4

/-- THE FIRST OUTPUT, entry by entry: (x + agg) · W from a zero accumulator, then the bias. -/
theorem arrAt7_4 (c : Dev nD) (p : Fin 50000) (q : Fin 512) :
    at2 (n0 := 50000) (n1 := 512) ((dat7 (F := Ideal) V c).arrAt 4 cfg7.N) p q
      = (0 + ∑ k : Fin 256, (at2 (n0 := 50000) (n1 := 256) (V c main_v101) p k + at2 (n0 := 50000) (n1 := 256) (V c main_v111) p k)
          * at2 (n0 := 256) (n1 := 512) (V c main_v113) k q) + at2 (n0 := 1) (n1 := 512) (V c main_v116) 0 q := by
  rw [k7_final4]; rfl

/-! ## The two statistics outputs: the running rows after the last point, as sums over all rows -/

/-- The statistics output 1's one block is its whole array. -/
theorem k7_emb5 (t : Fin cfg7.N) (j : S1x512.Idx) : ((cfg7.win 5).blk t).view.emb j = j := by
  funext a; apply Fin.ext
  obtain ⟨-, -, -, -, -, -, -, -, -, -, e0, e1, -⟩ := k7_idx t
  match a with
  | ⟨0, _⟩ => show win7_5.index t (0 : Fin 2) * 1 + 1 * (j 0).val = (j 0).val; omega
  | ⟨1, _⟩ => show win7_5.index t (1 : Fin 2) * 512 + 1 * (j 1).val = (j 1).val; omega

/-- Its one write-back, at the last point, writes the running row as the last point leaves it. -/
theorem k7_flushed5 (c : Dev nD) (t : Fin cfg7.N) (hf : (cfg7.win 5).flush t = true) :
    (dat7 (F := Ideal) V c).flushed 5 t = ((cfg7.win 5).blk t).view.read (Elt Ideal) ((k7_acc (F := Ideal) V c 24).1) := by
  have h24 : t.val = 24 := by
    have := (flush7_5 t).mp hf
    have hN : t.val < 25 := lt_of_lt_of_eq t.isLt N_7
    omega
  show (cfg7.win 5).cut (grid7.coords t) ((dat7 (F := Ideal) V c).after 5 t) = _
  rw [after7_5, h24]
  funext j
  show (k7_acc (F := Ideal) V c 24).1 j = (k7_acc (F := Ideal) V c 24).1 (((cfg7.win 5).blk t).view.emb j)
  rw [k7_emb5]

theorem k7_mem_blk5 (t : Fin cfg7.N) (i : S1x512.Idx) :
    i ∈ ((cfg7.win 5).blk t).view.set ↔ ∀ a : Fin 2, win7_5.index t a * S1x512.size a ≤ (i a).val ∧ (i a).val < win7_5.index t a * S1x512.size a + S1x512.size a := by
  show i ∈ ((View.whole main_v117_1).slice (win7_5.rect t)).set ↔ _
  rw [View.set_slice_whole, Rect.mem_set_unit]
  exact Iff.rfl

/-- The last point's block covers the array. -/
theorem k7_cover5 (i : S1x512.Idx) :
    ∃ t : Fin cfg7.N, (cfg7.win 5).flush t = true ∧ i ∈ ((cfg7.win 5).blk t).view.set := by
  have hi0 : (i 0).val < 1 := (i 0).isLt
  have hi1 : (i 1).val < 512 := (i 1).isLt
  have hN : cfg7.N = 25 := N_7
  refine ⟨⟨24, by rw [hN]; omega⟩, (flush7_5 _).mpr rfl, ?_⟩
  rw [k7_mem_blk5]
  obtain ⟨-, -, -, -, -, -, -, -, -, -, e0, e1, -⟩ := k7_idx ⟨24, by rw [hN]; omega⟩
  intro a
  match a with
  | ⟨0, _⟩ =>
    show win7_5.index _ (0 : Fin 2) * 1 ≤ (i 0).val ∧ (i 0).val < win7_5.index _ (0 : Fin 2) * 1 + 1
    rw [e0]; omega
  | ⟨1, _⟩ =>
    show win7_5.index _ (1 : Fin 2) * 512 ≤ (i 1).val ∧ (i 1).val < win7_5.index _ (1 : Fin 2) * 512 + 512
    rw [e1]; omega

/-- After the region the array holds the running row after the last point. -/
theorem k7_final5 (c : Dev nD) : (dat7 (F := Ideal) V c).arrAt 5 cfg7.N = (k7_acc (F := Ideal) V c 24).1 :=
  (dat7 (F := Ideal) V c).arrAt_eq_of_cover 5 ((k7_acc (F := Ideal) V c 24).1) (fun t hf => k7_flushed5 V c t hf) k7_cover5

/-- Column `q` of the running row after `n` points; zero before the first. -/
def k7_run5 (c : Dev nD) (q : Fin 512) : ℕ → EReal
  | 0 => 0
  | n + 1 => at2 (n0 := 1) (n1 := 512) (k7_acc (F := Ideal) V c n).1 0 q

/-- One point adds (0 + the block's column sum). -/
theorem k7_run5_step (c : Dev nD) (q : Fin 512) (t : ℕ) (ht : t < 25) :
    k7_run5 V c q (t + 1) = k7_run5 V c q t + (0 + ∑ r : Fin 2000, k7_h1 V c ⟨2000 * t + r.val, by omega⟩ q) := by
  have hN : cfg7.N = 25 := N_7
  cases t with
  | zero =>
    show at2 (n0 := 1) (n1 := 512) (k7_acc (F := Ideal) V c 0).1 0 q = 0 + _
    rw [k7_acc_zero]; unfold k7_step; dsimp only
    refine (k7_pay4_at (iblk7 V c 0 k7_t0) (iblk7 V c 1 k7_t0) (iblk7 V c 2 k7_t0) (iblk7 V c 3 k7_t0) (k7_pay1 (F := Ideal)) q).trans ?_
    refine congrArg₂ (· + ·) (k7_pay1_at q) (congrArg (0 + ·) (Finset.sum_congr rfl fun r _ => ?_))
    exact k7_pay3_blk V c k7_t0 r q
  | succ n =>
    have hn : n + 1 < cfg7.N := by rw [hN]; exact ht
    show at2 (n0 := 1) (n1 := 512) (k7_acc (F := Ideal) V c (n + 1)).1 0 q = at2 (n0 := 1) (n1 := 512) (k7_acc (F := Ideal) V c n).1 0 q + _
    rw [k7_acc_succ V c n hn]; unfold k7_step; dsimp only
    refine (k7_pay4_at (iblk7 V c 0 ⟨n + 1, hn⟩) (iblk7 V c 1 ⟨n + 1, hn⟩) (iblk7 V c 2 ⟨n + 1, hn⟩) (iblk7 V c 3 ⟨n + 1, hn⟩) (k7_acc (F := Ideal) V c n).1 q).trans ?_
    refine congrArg₂ (· + ·) rfl (congrArg (0 + ·) (Finset.sum_congr rfl fun r _ => ?_))
    exact k7_pay3_blk V c ⟨n + 1, hn⟩ r q

/-- THE STATISTICS OUTPUT 1, column by column: the sum of the affine image's column over the 50000 rows, from zero. -/
theorem arrAt7_5 (c : Dev nD) (q : Fin 512) :
    at2 (n0 := 1) (n1 := 512) ((dat7 (F := Ideal) V c).arrAt 5 cfg7.N) 0 q = 0 + ∑ p : Fin 50000, k7_h1 V c p q := by
  rw [k7_final5]
  exact Cert.Spec.seq25_zero (fun p => k7_h1 V c p q) (k7_run5 V c q) rfl (fun t ht => k7_run5_step V c q t ht)

/-- The statistics output 2's one block is its whole array. -/
theorem k7_emb6 (t : Fin cfg7.N) (j : S1x512.Idx) : ((cfg7.win 6).blk t).view.emb j = j := by
  funext a; apply Fin.ext
  obtain ⟨-, -, -, -, -, -, -, -, -, -, -, -, e0, e1⟩ := k7_idx t
  match a with
  | ⟨0, _⟩ => show win7_6.index t (0 : Fin 2) * 1 + 1 * (j 0).val = (j 0).val; omega
  | ⟨1, _⟩ => show win7_6.index t (1 : Fin 2) * 512 + 1 * (j 1).val = (j 1).val; omega

/-- Its one write-back, at the last point, writes the running row as the last point leaves it. -/
theorem k7_flushed6 (c : Dev nD) (t : Fin cfg7.N) (hf : (cfg7.win 6).flush t = true) :
    (dat7 (F := Ideal) V c).flushed 6 t = ((cfg7.win 6).blk t).view.read (Elt Ideal) ((k7_acc (F := Ideal) V c 24).2) := by
  have h24 : t.val = 24 := by
    have := (flush7_6 t).mp hf
    have hN : t.val < 25 := lt_of_lt_of_eq t.isLt N_7
    omega
  show (cfg7.win 6).cut (grid7.coords t) ((dat7 (F := Ideal) V c).after 6 t) = _
  rw [after7_6, h24]
  funext j
  show (k7_acc (F := Ideal) V c 24).2 j = (k7_acc (F := Ideal) V c 24).2 (((cfg7.win 6).blk t).view.emb j)
  rw [k7_emb6]

theorem k7_mem_blk6 (t : Fin cfg7.N) (i : S1x512.Idx) :
    i ∈ ((cfg7.win 6).blk t).view.set ↔ ∀ a : Fin 2, win7_6.index t a * S1x512.size a ≤ (i a).val ∧ (i a).val < win7_6.index t a * S1x512.size a + S1x512.size a := by
  show i ∈ ((View.whole main_v117_2).slice (win7_6.rect t)).set ↔ _
  rw [View.set_slice_whole, Rect.mem_set_unit]
  exact Iff.rfl

/-- The last point's block covers the array. -/
theorem k7_cover6 (i : S1x512.Idx) :
    ∃ t : Fin cfg7.N, (cfg7.win 6).flush t = true ∧ i ∈ ((cfg7.win 6).blk t).view.set := by
  have hi0 : (i 0).val < 1 := (i 0).isLt
  have hi1 : (i 1).val < 512 := (i 1).isLt
  have hN : cfg7.N = 25 := N_7
  refine ⟨⟨24, by rw [hN]; omega⟩, (flush7_6 _).mpr rfl, ?_⟩
  rw [k7_mem_blk6]
  obtain ⟨-, -, -, -, -, -, -, -, -, -, -, -, e0, e1⟩ := k7_idx ⟨24, by rw [hN]; omega⟩
  intro a
  match a with
  | ⟨0, _⟩ =>
    show win7_6.index _ (0 : Fin 2) * 1 ≤ (i 0).val ∧ (i 0).val < win7_6.index _ (0 : Fin 2) * 1 + 1
    rw [e0]; omega
  | ⟨1, _⟩ =>
    show win7_6.index _ (1 : Fin 2) * 512 ≤ (i 1).val ∧ (i 1).val < win7_6.index _ (1 : Fin 2) * 512 + 512
    rw [e1]; omega

/-- After the region the array holds the running row after the last point. -/
theorem k7_final6 (c : Dev nD) : (dat7 (F := Ideal) V c).arrAt 6 cfg7.N = (k7_acc (F := Ideal) V c 24).2 :=
  (dat7 (F := Ideal) V c).arrAt_eq_of_cover 6 ((k7_acc (F := Ideal) V c 24).2) (fun t hf => k7_flushed6 V c t hf) k7_cover6

/-- Column `q` of the running row after `n` points; zero before the first. -/
def k7_run6 (c : Dev nD) (q : Fin 512) : ℕ → EReal
  | 0 => 0
  | n + 1 => at2 (n0 := 1) (n1 := 512) (k7_acc (F := Ideal) V c n).2 0 q

/-- One point adds (0 + the block's column sum). -/
theorem k7_run6_step (c : Dev nD) (q : Fin 512) (t : ℕ) (ht : t < 25) :
    k7_run6 V c q (t + 1) = k7_run6 V c q t + (0 + ∑ r : Fin 2000, k7_h1 V c ⟨2000 * t + r.val, by omega⟩ q * k7_h1 V c ⟨2000 * t + r.val, by omega⟩ q) := by
  have hN : cfg7.N = 25 := N_7
  cases t with
  | zero =>
    show at2 (n0 := 1) (n1 := 512) (k7_acc (F := Ideal) V c 0).2 0 q = 0 + _
    rw [k7_acc_zero]; unfold k7_step; dsimp only
    refine (k7_pay5_at (iblk7 V c 0 k7_t0) (iblk7 V c 1 k7_t0) (iblk7 V c 2 k7_t0) (iblk7 V c 3 k7_t0) (k7_pay2 (F := Ideal)) q).trans ?_
    refine congrArg₂ (· + ·) (k7_pay2_at q) (congrArg (0 + ·) (Finset.sum_congr rfl fun r _ => ?_))
    exact congrArg₂ (· * ·) (k7_pay3_blk V c k7_t0 r q) (k7_pay3_blk V c k7_t0 r q)
  | succ n =>
    have hn : n + 1 < cfg7.N := by rw [hN]; exact ht
    show at2 (n0 := 1) (n1 := 512) (k7_acc (F := Ideal) V c (n + 1)).2 0 q = at2 (n0 := 1) (n1 := 512) (k7_acc (F := Ideal) V c n).2 0 q + _
    rw [k7_acc_succ V c n hn]; unfold k7_step; dsimp only
    refine (k7_pay5_at (iblk7 V c 0 ⟨n + 1, hn⟩) (iblk7 V c 1 ⟨n + 1, hn⟩) (iblk7 V c 2 ⟨n + 1, hn⟩) (iblk7 V c 3 ⟨n + 1, hn⟩) (k7_acc (F := Ideal) V c n).2 q).trans ?_
    refine congrArg₂ (· + ·) rfl (congrArg (0 + ·) (Finset.sum_congr rfl fun r _ => ?_))
    exact congrArg₂ (· * ·) (k7_pay3_blk V c ⟨n + 1, hn⟩ r q) (k7_pay3_blk V c ⟨n + 1, hn⟩ r q)

/-- THE STATISTICS OUTPUT 2, column by column: the sum of the squares of the affine image's column over the 50000 rows, from zero. -/
theorem arrAt7_6 (c : Dev nD) (q : Fin 512) :
    at2 (n0 := 1) (n1 := 512) ((dat7 (F := Ideal) V c).arrAt 6 cfg7.N) 0 q = 0 + ∑ p : Fin 50000, k7_h1 V c p q * k7_h1 V c p q := by
  rw [k7_final6]
  exact Cert.Spec.seq25_zero (fun p => k7_h1 V c p q * k7_h1 V c p q) (k7_run6 V c q) rfl (fun t ht => k7_run6_step V c q t ht)

/-- The affine image is the specification's linear layer applied to the entrywise sum of the two summands. -/
theorem k7_h1_eq_lin (c : Dev nD) (p : Fin 50000) (q : Fin 512) :
    k7_h1 V c p q = Cert.Spec.lin (Cert.Spec.addM (at2 (n0 := 50000) (n1 := 256) (V c main_v101)) (at2 (n0 := 50000) (n1 := 256) (V c main_v111)))
      (at2 (n0 := 256) (n1 := 512) (V c main_v113)) (at2 (n0 := 1) (n1 := 512) (V c main_v116) 0) p q := rfl

/-- So the two statistics outputs are the specification's column sum and column sum of squares of it. -/
theorem arrAt7_5_spec (c : Dev nD) (q : Fin 512) :
    at2 (n0 := 1) (n1 := 512) ((dat7 (F := Ideal) V c).arrAt 5 cfg7.N) 0 q = Cert.Spec.colsum (k7_h1 V c) q := arrAt7_5 V c q
theorem arrAt7_6_spec (c : Dev nD) (q : Fin 512) :
    at2 (n0 := 1) (n1 := 512) ((dat7 (F := Ideal) V c).arrAt 6 cfg7.N) 0 q = Cert.Spec.colsumsq (k7_h1 V c) q := arrAt7_6 V c q

end Cert.KernelIdeal.HandV

end
-- ==== Proof.KI.R8V.lean ====
/-
  Region 8 at the extended reals: what its three output arrays hold when the region ends, entry by entry.

  The layer's output at row p and column q is the sum over the 512 hidden columns k of
  max (g k · (h1 p k − mean k) · rsqrt (var k + eps) + beta k) 0 times W2 k q, from a zero accumulator, plus the bias
  b2 q, plus the residual x p q. The two statistics outputs are, column by column, the sum of that output and of
  its square over the 50000 rows: each grid point adds the column sums of its block of 2000 rows to the running
  row, and 25 such steps from zero give the whole sum.
-/
import proofs.«132438_j6098853560655_1_alg».proof.Proof.KI.R8
import proofs.«132438_j6098853560655_1_alg».proof.Proof.KI.At2
import proofs.«132438_j6098853560655_1_alg».proof.Proof.LibDot
import proofs.«132438_j6098853560655_1_alg».proof.Proof.Math.BlockSum25
import Idealize.ShloMosaic.PureOps.Ideal.Laws
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! # Region 8 at the extended reals: its three outputs, entry by entry -/

/-- The product of a 2000 × 512 block by the 512 × 256 matrix into a zero accumulator, at an entry. -/
theorem dat8_matmul_at (a : FVec Ideal S2000x512 .bf16) (b : FVec Ideal S512x256 .bf16) (r : Fin 2000) (q : Fin 256) :
    matmul (F := Ideal) dot_S2000x512_S512x256_S2000x256_1_0_0_1_n_n none a b (constant (F := Ideal) S2000x256 .f32 0x00000000#32) (ix2 r q)
      = ∑ k : Fin 512, at2 a r k * at2 b k q := by
  simp only [matmul, at2_def]
  exact Cert.PlainDot.matmul_zero_apply dot_S2000x512_S512x256_S2000x256_1_0_0_1_n_n rfl rfl rfl rfl rfl rfl none a b r q

/-- A row of 512 spread over the 2000 rows, at an entry: the row's entry in that column. -/
theorem dat8_bcastH_at (v : FVec Ideal S1x512 .f32) (r : Fin 2000) (k : Fin 512) :
    broadcastTo S2000x512 v broadcasts_S1x512_S2000x512 (ix2 r k) = at2 v 0 k :=
  broadcastTo_apply v _ (ix2 r k) (ix2 0 k) fun a => by
    match a with
    | ⟨0, _⟩ => rfl
    | ⟨1, _⟩ => rfl

/-- A row of 256 spread over the 2000 rows, at an entry. -/
theorem dat8_bcastX_at (v : FVec Ideal S1x256 .f32) (r : Fin 2000) (q : Fin 256) :
    broadcastTo S2000x256 v broadcasts_S1x256_S2000x256 (ix2 r q) = at2 v 0 q :=
  broadcastTo_apply v _ (ix2 r q) (ix2 0 q) fun a => by
    match a with
    | ⟨0, _⟩ => rfl
    | ⟨1, _⟩ => rfl

/-- The column sums of a 2000 × 256 block, at a column. -/
theorem dat8_colsum_at (src : FVec Ideal S2000x256 .f32) (q : Fin 256) :
    multiReduction (F := Ideal) .add [0] S256 src 0x00000000#32 reduces_S2000x256_S256 (.inl rfl) rfl (ix1 q)
      = ∑ r : Fin 2000, at2 src r q := by
  refine (Ideal.multiReduction_add_single src 0x00000000#32 reduces_S2000x256_S256 (.inl rfl) rfl (ix1 q)).trans ?_
  refine Finset.sum_congr rfl fun r _ => ?_
  show src _ = src (ix2 r q)
  refine congrArg src (funext fun a => Fin.ext ?_)
  match a with
  | ⟨0, _⟩ => rfl
  | ⟨1, _⟩ => rfl

/-- A row of 256 viewed as a 1 × 256 matrix, at an entry. -/
theorem dat8_row_at (v : FVec Ideal S256 .f32) (q : Fin 256) :
    shapeCast S1x256 v shapeCasts_S256_S1x256 (ix2 0 q) = v (ix1 q) :=
  shapeCast_apply v _ (ix2 0 q) (ix1 q) (by
    rw [Shape.rowMajor_val_one, Shape.rowMajor_val_two]; show q.val = 0 * 256 + q.val; omega)

/-- The reciprocal square root of a row, at an entry. -/
theorem dat8_rsqrt_apply {s : Shape} (v : FVec Ideal s .f32) (i : s.Idx) : rsqrt v i = Ideal.rsqrt (v i) := rfl

/-- The normalised, rectified first layer times the second weights plus the bias, at an entry. -/
theorem dat8_pay6_at (v3 v8 : Vec Ideal S1x512 .f32) (v10 : Vec Ideal S2000x512 .f32) (v12 v20 : Vec Ideal S1x512 .f32)
    (v27 : Vec Ideal S512x256 .f32) (v31 : Vec Ideal S1x256 .f32) (r : Fin 2000) (q : Fin 256) :
    at2 (k8_pay6 (F := Ideal) v3 v8 v10 v12 v20 v27 v31) r q
      = (0 + ∑ k : Fin 512, max (at2 v8 0 k * (at2 v10 r k - at2 v12 0 k) * Ideal.rsqrt (at2 v3 0 k + Ideal.ofBits .f32 0x3727C5AC#32) + at2 v20 0 k) 0 * at2 v27 k q) + at2 v31 0 q := by
  unfold k8_pay6
  rw [at2_def]
  refine (addf_apply _ _ (ix2 r q)).trans ?_
  refine congrArg₂ (· + ·) ?_ ?_
  · refine (dat8_matmul_at _ _ r q).trans ?_
    rw [zero_add]
    refine Finset.sum_congr rfl fun k _ => ?_
    simp only [at2_def, shapeCast_self, truncf_apply, maximumf_apply, addf_apply, mulf_apply, subf_apply, broadcast_apply,
      dat8_bcastH_at, dat8_rsqrt_apply]
    rw [show (Scalar.ofBits .f32 0x00000000#32 : Ideal .f32) = 0 from Ideal.ofBits_zero_f32]
    rfl
  · refine (dat8_bcastX_at _ r q).trans ?_
    simp only [at2_def, shapeCast_self]

/-- The layer's output block at an entry: that plus the residual. -/
theorem dat8_pay1_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (r : Fin 2000) (q : Fin 256) :
    at2 (k8_pay1 (F := Ideal) (k8_pay6 (F := Ideal) x2 x3 x0 x1 x4 x6 x7) (k8_pay7 (F := Ideal) x5)) r q
      = ((0 + ∑ k : Fin 512, max (at2 x3 0 k * (at2 x0 r k - at2 x1 0 k) * Ideal.rsqrt (at2 x2 0 k + Ideal.ofBits .f32 0x3727C5AC#32) + at2 x4 0 k) 0 * at2 x6 k q) + at2 x7 0 q) + at2 x5 r q := by
  unfold k8_pay1
  rw [at2_def]
  refine (addf_apply _ _ (ix2 r q)).trans ?_
  refine congrArg₂ (· + ·) (dat8_pay6_at x2 x3 x0 x1 x4 x6 x7 r q) ?_
  unfold k8_pay7
  simp only [at2_def, shapeCast_self]

/-- The running column sums after a block: what they were plus the block's column sums. -/
theorem dat8_pay2_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (k8_pay2 (F := Ideal) (k8_pay6 (F := Ideal) x2 x3 x0 x1 x4 x6 x7) (k8_pay7 (F := Ideal) x5) a) 0 q
      = at2 a 0 q + (0 + ∑ r : Fin 2000, at2 (k8_pay1 (F := Ideal) (k8_pay6 (F := Ideal) x2 x3 x0 x1 x4 x6 x7) (k8_pay7 (F := Ideal) x5)) r q) := by
  unfold k8_pay2
  rw [at2_def]
  simp only [shapeCast_self]
  refine (addf_apply _ _ (ix2 0 q)).trans ?_
  refine congrArg₂ (· + ·) rfl ?_
  refine (dat8_row_at _ q).trans ?_
  refine (dat8_colsum_at _ q).trans ?_
  exact (zero_add _).symm

/-- The running column sums of squares after a block. -/
theorem dat8_pay3_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (k8_pay3 (F := Ideal) (k8_pay6 (F := Ideal) x2 x3 x0 x1 x4 x6 x7) (k8_pay7 (F := Ideal) x5) a) 0 q
      = at2 a 0 q + (0 + ∑ r : Fin 2000, at2 (k8_pay1 (F := Ideal) (k8_pay6 (F := Ideal) x2 x3 x0 x1 x4 x6 x7) (k8_pay7 (F := Ideal) x5)) r q * at2 (k8_pay1 (F := Ideal) (k8_pay6 (F := Ideal) x2 x3 x0 x1 x4 x6 x7) (k8_pay7 (F := Ideal) x5)) r q) := by
  unfold k8_pay3
  rw [at2_def]
  simp only [shapeCast_self]
  refine (addf_apply _ _ (ix2 0 q)).trans ?_
  refine congrArg₂ (· + ·) rfl ?_
  refine (dat8_row_at _ q).trans ?_
  refine (dat8_colsum_at _ q).trans ?_
  refine (zero_add _).symm.trans ?_
  rfl

/-- The running rows start at zero. -/
theorem dat8_pay4_at (q : Fin 256) : at2 (k8_pay4 (F := Ideal)) 0 q = 0 := by
  unfold k8_pay4
  rw [at2_def]
  simp only [shapeCast_self, broadcast_apply]
  exact Ideal.ofBits_zero_f32
theorem dat8_pay5_at (q : Fin 256) : at2 (k8_pay5 (F := Ideal)) 0 q = 0 := by
  unfold k8_pay5
  rw [at2_def]
  simp only [shapeCast_self, broadcast_apply]
  exact Ideal.ofBits_zero_f32

/-! ## Loads and stores of whole buffers: the contents themselves -/

theorem dat8_zero2 : (![0, 0] : Fin 2 → ℕ) = fun _ => 0 := by
  funext a
  match a with
  | ⟨0, _⟩ => rfl
  | ⟨1, _⟩ => rfl

theorem dat8_o8_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) : dat8_o8 (F := Ideal) x0 x1 x2 x3 x4 x5 x6 x7 = k8_pay1 (F := Ideal) (k8_pay6 (F := Ideal) x2 x3 x0 x1 x4 x6 x7) (k8_pay7 (F := Ideal) x5) := by
  unfold dat8_o8 dat8_v34 dat8_v36
  rw [View.canon_unit_zero dat8_zero2]
  simp only [View.ld_unit_zero (S := S1x512) dat8_zero2, View.ld_unit_zero (S := S2000x512) dat8_zero2, View.ld_unit_zero (S := S512x256) dat8_zero2, View.ld_unit_zero (S := S1x256) dat8_zero2, View.ld_unit_zero (S := S2000x256) dat8_zero2]
theorem dat8_s0_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) : dat8_s0 (F := Ideal) x0 x1 x2 x3 x4 x5 x6 x7 a = k8_pay2 (F := Ideal) (k8_pay6 (F := Ideal) x2 x3 x0 x1 x4 x6 x7) (k8_pay7 (F := Ideal) x5) a := by
  unfold dat8_s0 dat8_v34 dat8_v36
  rw [View.canon_unit_zero dat8_zero2]
  simp only [View.ld_unit_zero (S := S1x512) dat8_zero2, View.ld_unit_zero (S := S2000x512) dat8_zero2, View.ld_unit_zero (S := S512x256) dat8_zero2, View.ld_unit_zero (S := S1x256) dat8_zero2, View.ld_unit_zero (S := S2000x256) dat8_zero2]
theorem dat8_s1_eq (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) : dat8_s1 (F := Ideal) x0 x1 x2 x3 x4 x5 x6 x7 a = k8_pay3 (F := Ideal) (k8_pay6 (F := Ideal) x2 x3 x0 x1 x4 x6 x7) (k8_pay7 (F := Ideal) x5) a := by
  unfold dat8_s1 dat8_v34 dat8_v36
  rw [View.canon_unit_zero dat8_zero2]
  simp only [View.ld_unit_zero (S := S1x512) dat8_zero2, View.ld_unit_zero (S := S2000x512) dat8_zero2, View.ld_unit_zero (S := S512x256) dat8_zero2, View.ld_unit_zero (S := S1x256) dat8_zero2, View.ld_unit_zero (S := S2000x256) dat8_zero2]
theorem dat8_z0_eq : dat8_z0 (F := Ideal) = k8_pay4 (F := Ideal) := by
  unfold dat8_z0; rw [View.canon_unit_zero dat8_zero2]
theorem dat8_z1_eq : dat8_z1 (F := Ideal) = k8_pay5 (F := Ideal) := by
  unfold dat8_z1; rw [View.canon_unit_zero dat8_zero2]
theorem dat8_o9_eq (a : Vec Ideal S1x256 .f32) : dat8_o9 (F := Ideal) a = a := by
  unfold dat8_o9; rw [View.canon_unit_zero dat8_zero2, View.ld_unit_zero (S := S1x256) dat8_zero2]

theorem dat8_z0_at (q : Fin 256) : at2 (dat8_z0 (F := Ideal)) 0 q = 0 := by rw [dat8_z0_eq]; exact dat8_pay4_at q
theorem dat8_z1_at (q : Fin 256) : at2 (dat8_z1 (F := Ideal)) 0 q = 0 := by rw [dat8_z1_eq]; exact dat8_pay5_at q

theorem dat8_o8_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (r : Fin 2000) (q : Fin 256) :
    at2 (dat8_o8 (F := Ideal) x0 x1 x2 x3 x4 x5 x6 x7) r q
      = ((0 + ∑ k : Fin 512, max (at2 x3 0 k * (at2 x0 r k - at2 x1 0 k) * Ideal.rsqrt (at2 x2 0 k + Ideal.ofBits .f32 0x3727C5AC#32) + at2 x4 0 k) 0 * at2 x6 k q) + at2 x7 0 q) + at2 x5 r q := by
  rw [dat8_o8_eq]; exact dat8_pay1_at x0 x1 x2 x3 x4 x5 x6 x7 r q
theorem dat8_s0_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (dat8_s0 (F := Ideal) x0 x1 x2 x3 x4 x5 x6 x7 a) 0 q = at2 a 0 q + (0 + ∑ r : Fin 2000, at2 (dat8_o8 (F := Ideal) x0 x1 x2 x3 x4 x5 x6 x7) r q) := by
  rw [dat8_s0_eq, dat8_o8_eq]; exact dat8_pay2_at x0 x1 x2 x3 x4 x5 x6 x7 a q
theorem dat8_s1_at (x0 : Vec Ideal S2000x512 .f32) (x1 : Vec Ideal S1x512 .f32) (x2 : Vec Ideal S1x512 .f32) (x3 : Vec Ideal S1x512 .f32) (x4 : Vec Ideal S1x512 .f32) (x5 : Vec Ideal S2000x256 .f32) (x6 : Vec Ideal S512x256 .f32) (x7 : Vec Ideal S1x256 .f32) (a : Vec Ideal S1x256 .f32) (q : Fin 256) :
    at2 (dat8_s1 (F := Ideal) x0 x1 x2 x3 x4 x5 x6 x7 a) 0 q = at2 a 0 q + (0 + ∑ r : Fin 2000, at2 (dat8_o8 (F := Ideal) x0 x1 x2 x3 x4 x5 x6 x7) r q * at2 (dat8_o8 (F := Ideal) x0 x1 x2 x3 x4 x5 x6 x7) r q) := by
  rw [dat8_s1_eq, dat8_o8_eq]; exact dat8_pay3_at x0 x1 x2 x3 x4 x5 x6 x7 a q

variable (V : (c : Dev nD) → (b : Ref sig .tc) → Buf (Elt Ideal) ((c : Thread nD τ).loc b))

/-! ## The windows' blocks as entries of the arrays the region finds -/

/-- The printed index maps, decided over the grid: the row blocks move with the point, the others stay. -/
theorem dat8_idx : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = t.val ∧ win8_8.index t (1 : Fin 2) = 0
    ∧ win8_9.index t (0 : Fin 2) = 0 ∧ win8_9.index t (1 : Fin 2) = 0
    ∧ win8_10.index t (0 : Fin 2) = 0 ∧ win8_10.index t (1 : Fin 2) = 0 :=
  (by decide +kernel : ∀ t : Fin grid8.N, _)

/-- The last point is a point of the grid. -/
theorem dat8_lt24 : 24 < cfg8.N := by rw [dat8_N]; omega

/-- Row `r` of block `t` is row `2000 t + r` of the array. -/
theorem dat8_row_lt (t : Fin cfg8.N) (r : Fin 2000) : 2000 * t.val + r.val < 50000 := by
  have hN : t.val < 25 := lt_of_lt_of_eq t.isLt dat8_N
  have := r.isLt
  omega

theorem dat8_blk0_at (c : Dev nD) (t : Fin cfg8.N) (r : Fin 2000) (k : Fin 512) :
    at2 (n0 := 2000) (n1 := 512) (iblk8 V c 0 t) r k = at2 (n0 := 50000) (n1 := 512) (V c main_v117_0) ⟨2000 * t.val + r.val, dat8_row_lt t r⟩ k := by
  rw [at2_def, at2_def]
  show V c main_v117_0 (((cfg8.win 0).blk t).view.emb (ix2 r k)) = V c main_v117_0 (ix2 _ k)
  refine congrArg (V c main_v117_0) (funext fun a => Fin.ext ?_)
  obtain ⟨e0, e1, -, -, -, -, -, -, -, -, -, -, -, -, -, -, -, -, -, -, -, -⟩ := dat8_idx t
  match a with
  | ⟨0, _⟩ => show win8_0.index t (0 : Fin 2) * 2000 + 1 * r.val = 2000 * t.val + r.val; omega
  | ⟨1, _⟩ => show win8_0.index t (1 : Fin 2) * 512 + 1 * k.val = k.val; omega

theorem dat8_blk1_at (c : Dev nD) (t : Fin cfg8.N) (j : Fin 1) (k : Fin 512) :
    at2 (n0 := 1) (n1 := 512) (iblk8 V c 1 t) j k = at2 (n0 := 1) (n1 := 512) (V c main_v119) j k := by
  rw [at2_def, at2_def]
  show V c main_v119 (((cfg8.win 1).blk t).view.emb (ix2 j k)) = V c main_v119 (ix2 j k)
  refine congrArg (V c main_v119) (funext fun a => Fin.ext ?_)
  obtain ⟨-, -, e0, e1, -, -, -, -, -, -, -, -, -, -, -, -, -, -, -, -, -, -⟩ := dat8_idx t
  match a with
  | ⟨0, _⟩ => show win8_1.index t (0 : Fin 2) * 1 + 1 * j.val = j.val; omega
  | ⟨1, _⟩ => show win8_1.index t (1 : Fin 2) * 512 + 1 * k.val = k.val; omega

theorem dat8_blk2_at (c : Dev nD) (t : Fin cfg8.N) (j : Fin 1) (k : Fin 512) :
    at2 (n0 := 1) (n1 := 512) (iblk8 V c 2 t) j k = at2 (n0 := 1) (n1 := 512) (V c main_v123) j k := by
  rw [at2_def, at2_def]
  show V c main_v123 (((cfg8.win 2).blk t).view.emb (ix2 j k)) = V c main_v123 (ix2 j k)
  refine congrArg (V c main_v123) (funext fun a => Fin.ext ?_)
  obtain ⟨-, -, -, -, e0, e1, -, -, -, -, -, -, -, -, -, -, -, -, -, -, -, -⟩ := dat8_idx t
  match a with
  | ⟨0, _⟩ => show win8_2.index t (0 : Fin 2) * 1 + 1 * j.val = j.val; omega
  | ⟨1, _⟩ => show win8_2.index t (1 : Fin 2) * 512 + 1 * k.val = k.val; omega

theorem dat8_blk3_at (c : Dev nD) (t : Fin cfg8.N) (j : Fin 1) (k : Fin 512) :
    at2 (n0 := 1) (n1 := 512) (iblk8 V c 3 t) j k = at2 (n0 := 1) (n1 := 512) (V c main_v132) j k := by
  rw [at2_def, at2_def]
  show V c main_v132 (((cfg8.win 3).blk t).view.emb (ix2 j k)) = V c main_v132 (ix2 j k)
  refine congrArg (V c main_v132) (funext fun a => Fin.ext ?_)
  obtain ⟨-, -, -, -, -, -, e0, e1, -, -, -, -, -, -, -, -, -, -, -, -, -, -⟩ := dat8_idx t
  match a with
  | ⟨0, _⟩ => show win8_3.index t (0 : Fin 2) * 1 + 1 * j.val = j.val; omega
  | ⟨1, _⟩ => show win8_3.index t (1 : Fin 2) * 512 + 1 * k.val = k.val; omega

theorem dat8_blk4_at (c : Dev nD) (t : Fin cfg8.N) (j : Fin 1) (k : Fin 512) :
    at2 (n0 := 1) (n1 := 512) (iblk8 V c 4 t) j k = at2 (n0 := 1) (n1 := 512) (V c main_v133) j k := by
  rw [at2_def, at2_def]
  show V c main_v133 (((cfg8.win 4).blk t).view.emb (ix2 j k)) = V c main_v133 (ix2 j k)
  refine congrArg (V c main_v133) (funext fun a => Fin.ext ?_)
  obtain ⟨-, -, -, -, -, -, -, -, e0, e1, -, -, -, -, -, -, -, -, -, -, -, -⟩ := dat8_idx t
  match a with
  | ⟨0, _⟩ => show win8_4.index t (0 : Fin 2) * 1 + 1 * j.val = j.val; omega
  | ⟨1, _⟩ => show win8_4.index t (1 : Fin 2) * 512 + 1 * k.val = k.val; omega

theorem dat8_blk5_at (c : Dev nD) (t : Fin cfg8.N) (r : Fin 2000) (k : Fin 256) :
    at2 (n0 := 2000) (n1 := 256) (iblk8 V c 5 t) r k = at2 (n0 := 50000) (n1 := 256) (V c main_v101) ⟨2000 * t.val + r.val, dat8_row_lt t r⟩ k := by
  rw [at2_def, at2_def]
  show V c main_v101 (((cfg8.win 5).blk t).view.emb (ix2 r k)) = V c main_v101 (ix2 _ k)
  refine congrArg (V c main_v101) (funext fun a => Fin.ext ?_)
  obtain ⟨-, -, -, -, -, -, -, -, -, -, e0, e1, -, -, -, -, -, -, -, -, -, -⟩ := dat8_idx t
  match a with
  | ⟨0, _⟩ => show win8_5.index t (0 : Fin 2) * 2000 + 1 * r.val = 2000 * t.val + r.val; omega
  | ⟨1, _⟩ => show win8_5.index t (1 : Fin 2) * 256 + 1 * k.val = k.val; omega

theorem dat8_blk6_at (c : Dev nD) (t : Fin cfg8.N) (j : Fin 512) (k : Fin 256) :
    at2 (n0 := 512) (n1 := 256) (iblk8 V c 6 t) j k = at2 (n0 := 512) (n1 := 256) (V c main_v129) j k := by
  rw [at2_def, at2_def]
  show V c main_v129 (((cfg8.win 6).blk t).view.emb (ix2 j k)) = V c main_v129 (ix2 j k)
  refine congrArg (V c main_v129) (funext fun a => Fin.ext ?_)
  obtain ⟨-, -, -, -, -, -, -, -, -, -, -, -, e0, e1, -, -, -, -, -, -, -, -⟩ := dat8_idx t
  match a with
  | ⟨0, _⟩ => show win8_6.index t (0 : Fin 2) * 512 + 1 * j.val = j.val; omega
  | ⟨1, _⟩ => show win8_6.index t (1 : Fin 2) * 256 + 1 * k.val = k.val; omega

theorem dat8_blk7_at (c : Dev nD) (t : Fin cfg8.N) (j : Fin 1) (k : Fin 256) :
    at2 (n0 := 1) (n1 := 256) (iblk8 V c 7 t) j k = at2 (n0 := 1) (n1 := 256) (V c main_v134) j k := by
  rw [at2_def, at2_def]
  show V c main_v134 (((cfg8.win 7).blk t).view.emb (ix2 j k)) = V c main_v134 (ix2 j k)
  refine congrArg (V c main_v134) (funext fun a => Fin.ext ?_)
  obtain ⟨-, -, -, -, -, -, -, -, -, -, -, -, -, -, e0, e1, -, -, -, -, -, -⟩ := dat8_idx t
  match a with
  | ⟨0, _⟩ => show win8_7.index t (0 : Fin 2) * 1 + 1 * j.val = j.val; omega
  | ⟨1, _⟩ => show win8_7.index t (1 : Fin 2) * 256 + 1 * k.val = k.val; omega

/-! ## The first output: the layer's output, entry by entry -/

/-- Entry `(p, q)` of the layer's output, from the arrays the region finds. -/
def dat8_h3 (c : Dev nD) (p : Fin 50000) (q : Fin 256) : EReal :=
  ((0 + ∑ k : Fin 512, max (at2 (n0 := 1) (n1 := 512) (V c main_v132) 0 k * (at2 (n0 := 50000) (n1 := 512) (V c main_v117_0) p k - at2 (n0 := 1) (n1 := 512) (V c main_v119) 0 k) * Ideal.rsqrt (at2 (n0 := 1) (n1 := 512) (V c main_v123) 0 k + Ideal.ofBits .f32 0x3727C5AC#32) + at2 (n0 := 1) (n1 := 512) (V c main_v133) 0 k) 0 * at2 (n0 := 512) (n1 := 256) (V c main_v129) k q) + at2 (n0 := 1) (n1 := 256) (V c main_v134) 0 q) + at2 (n0 := 50000) (n1 := 256) (V c main_v101) p q

/-- What the body stores into window 8 at point `t`, at an entry: that entry of the layer's output. -/
theorem dat8_h3_blk (c : Dev nD) (t : Fin cfg8.N) (r : Fin 2000) (q : Fin 256) :
    at2 (dat8_o8 (F := Ideal) (iblk8 V c 0 t) (iblk8 V c 1 t) (iblk8 V c 2 t) (iblk8 V c 3 t) (iblk8 V c 4 t) (iblk8 V c 5 t) (iblk8 V c 6 t) (iblk8 V c 7 t)) r q = dat8_h3 V c ⟨2000 * t.val + r.val, dat8_row_lt t r⟩ q := by
  refine (dat8_o8_at (iblk8 V c 0 t) (iblk8 V c 1 t) (iblk8 V c 2 t) (iblk8 V c 3 t) (iblk8 V c 4 t) (iblk8 V c 5 t) (iblk8 V c 6 t) (iblk8 V c 7 t) r q).trans ?_
  unfold dat8_h3
  refine congrArg₂ (· + ·) (congrArg₂ (· + ·) (congrArg (0 + ·) (Finset.sum_congr rfl fun k _ => ?_)) (dat8_blk7_at V c t 0 q)) (dat8_blk5_at V c t r q)
  rw [dat8_blk0_at V c t r k, dat8_blk1_at V c t 0 k, dat8_blk2_at V c t 0 k, dat8_blk3_at V c t 0 k, dat8_blk4_at V c t 0 k, dat8_blk6_at V c t k q]

/-- The layer's output as the contents of window 8's array. -/
def dat8_G8 (c : Dev nD) : S50000x256.Idx → EReal := fun i => dat8_h3 V c (i 0) (i 1)

/-- Entry `(r, q)` of block `t` of window 8's array is entry `(2000 t + r, q)`. -/
theorem dat8_emb8 (t : Fin cfg8.N) (r : Fin 2000) (q : Fin 256) :
    ((cfg8.win 8).blk t).view.emb (ix2 r q) = ix2 (n0 := 50000) (n1 := 256) ⟨2000 * t.val + r.val, dat8_row_lt t r⟩ q := by
  funext a; apply Fin.ext
  obtain ⟨-, -, -, -, -, -, -, -, -, -, -, -, -, -, -, -, e0, e1, -, -, -, -⟩ := dat8_idx t
  match a with
  | ⟨0, _⟩ => show win8_8.index t (0 : Fin 2) * 2000 + 1 * r.val = 2000 * t.val + r.val; omega
  | ⟨1, _⟩ => show win8_8.index t (1 : Fin 2) * 256 + 1 * q.val = q.val; omega

set_option maxHeartbeats 3200000 in
/-- What point `t` writes back to window 8 is block `t` of the layer's output. -/
theorem dat8_flushed8 (c : Dev nD) (t : Fin cfg8.N) :
    (dat8 (F := Ideal) V c).flushed 8 t = ((cfg8.win 8).blk t).view.read (Elt Ideal) (dat8_G8 V c) := by
  show (cfg8.win 8).cut (grid8.coords t) ((dat8 (F := Ideal) V c).after 8 t) = _
  rw [after8_8]
  funext j
  obtain ⟨r, q, rfl⟩ : ∃ (r : Fin 2000) (q : Fin 256), j = ix2 r q := ⟨j 0, j 1, eq_ix2 j⟩
  show at2 (dat8_o8 (F := Ideal) (iblk8 V c 0 t) (iblk8 V c 1 t) (iblk8 V c 2 t) (iblk8 V c 3 t) (iblk8 V c 4 t) (iblk8 V c 5 t) (iblk8 V c 6 t) (iblk8 V c 7 t)) r q
    = dat8_G8 V c (((cfg8.win 8).blk t).view.emb (ix2 r q))
  rw [dat8_emb8]
  exact dat8_h3_blk V c t r q

/-- An entry of window 8's array lies in point `t`'s block iff its coordinates lie in the block's ranges. -/
theorem dat8_mem_blk8 (t : Fin cfg8.N) (i : S50000x256.Idx) :
    i ∈ ((cfg8.win 8).blk t).view.set ↔ ∀ a : Fin 2, win8_8.index t a * S2000x256.size a ≤ (i a).val ∧ (i a).val < win8_8.index t a * S2000x256.size a + S2000x256.size a := by
  show i ∈ ((View.whole main_v135_0).slice (win8_8.rect t)).set ↔ _
  rw [View.set_slice_whole, Rect.mem_set_unit]
  exact Iff.rfl

/-- Every entry lies in the block of the point its row falls in. -/
theorem dat8_cover8 (i : S50000x256.Idx) :
    ∃ t : Fin cfg8.N, (cfg8.win 8).flush t = true ∧ i ∈ ((cfg8.win 8).blk t).view.set := by
  have hi0 : (i 0).val < 50000 := (i 0).isLt
  have hi1 : (i 1).val < 256 := (i 1).isLt
  have hN : cfg8.N = 25 := dat8_N
  refine ⟨⟨(i 0).val / 2000, by rw [hN]; omega⟩, flush8_8 _, ?_⟩
  rw [dat8_mem_blk8]
  obtain ⟨-, -, -, -, -, -, -, -, -, -, -, -, -, -, -, -, e0, e1, -, -, -, -⟩ := dat8_idx ⟨(i 0).val / 2000, by rw [hN]; omega⟩
  intro a
  match a with
  | ⟨0, _⟩ =>
    show win8_8.index _ (0 : Fin 2) * 2000 ≤ (i 0).val ∧ (i 0).val < win8_8.index _ (0 : Fin 2) * 2000 + 2000
    rw [e0]; show (i 0).val / 2000 * 2000 ≤ (i 0).val ∧ (i 0).val < (i 0).val / 2000 * 2000 + 2000; omega
  | ⟨1, _⟩ =>
    show win8_8.index _ (1 : Fin 2) * 256 ≤ (i 1).val ∧ (i 1).val < win8_8.index _ (1 : Fin 2) * 256 + 256
    rw [e1]; omega

/-- After the region window 8's array holds the layer's output. -/
theorem dat8_final8 (c : Dev nD) : (dat8 (F := Ideal) V c).arrAt 8 cfg8.N = dat8_G8 V c :=
  (dat8 (F := Ideal) V c).arrAt_eq_of_cover 8 (dat8_G8 V c) (fun t _ => dat8_flushed8 V c t) dat8_cover8

/-- THE FIRST OUTPUT, entry by entry. -/
theorem arrAt8_8 (c : Dev nD) (p : Fin 50000) (q : Fin 256) :
    at2 (n0 := 50000) (n1 := 256) ((dat8 (F := Ideal) V c).arrAt 8 cfg8.N) p q = dat8_h3 V c p q := by
  rw [dat8_final8]; rfl

/-! ## The two statistics outputs: the running rows after the last point, as sums over all rows -/

/-- Statistics window 9's one block is its whole array. -/
theorem dat8_emb9 (t : Fin cfg8.N) (j : S1x256.Idx) : ((cfg8.win 9).blk t).view.emb j = j := by
  funext a; apply Fin.ext
  obtain ⟨-, -, -, -, -, -, -, -, -, -, -, -, -, -, -, -, -, -, e0, e1, -, -⟩ := dat8_idx t
  match a with
  | ⟨0, _⟩ => show win8_9.index t (0 : Fin 2) * 1 + 1 * (j 0).val = (j 0).val; omega
  | ⟨1, _⟩ => show win8_9.index t (1 : Fin 2) * 256 + 1 * (j 1).val = (j 1).val; omega

/-- Its one write-back, at the last point, writes the running row as the last point leaves it. -/
theorem dat8_flushed9 (c : Dev nD) (t : Fin cfg8.N) (hf : (cfg8.win 9).flush t = true) :
    (dat8 (F := Ideal) V c).flushed 9 t = ((cfg8.win 9).blk t).view.read (Elt Ideal) ((dat8_acc (F := Ideal) V c 24 dat8_lt24).1) := by
  have h24 : t.val = 24 := by
    have := (flush8_9 t).mp hf
    have hN : t.val < 25 := lt_of_lt_of_eq t.isLt dat8_N
    omega
  have ht : t = ⟨24, dat8_lt24⟩ := Fin.ext h24
  subst ht
  show (cfg8.win 9).cut (grid8.coords _) ((dat8 (F := Ideal) V c).after 9 _) = _
  rw [after8_9, dat8_o9_eq]
  funext j
  show (dat8_acc (F := Ideal) V c 24 _).1 j = (dat8_acc (F := Ideal) V c 24 _).1 (((cfg8.win 9).blk _).view.emb j)
  rw [dat8_emb9]

theorem dat8_mem_blk9 (t : Fin cfg8.N) (i : S1x256.Idx) :
    i ∈ ((cfg8.win 9).blk t).view.set ↔ ∀ a : Fin 2, win8_9.index t a * S1x256.size a ≤ (i a).val ∧ (i a).val < win8_9.index t a * S1x256.size a + S1x256.size a := by
  show i ∈ ((View.whole main_v135_1).slice (win8_9.rect t)).set ↔ _
  rw [View.set_slice_whole, Rect.mem_set_unit]
  exact Iff.rfl

/-- The last point's block covers the array. -/
theorem dat8_cover9 (i : S1x256.Idx) :
    ∃ t : Fin cfg8.N, (cfg8.win 9).flush t = true ∧ i ∈ ((cfg8.win 9).blk t).view.set := by
  have hi0 : (i 0).val < 1 := (i 0).isLt
  have hi1 : (i 1).val < 256 := (i 1).isLt
  have hN : cfg8.N = 25 := dat8_N
  refine ⟨⟨24, by rw [hN]; omega⟩, (flush8_9 _).mpr rfl, ?_⟩
  rw [dat8_mem_blk9]
  obtain ⟨-, -, -, -, -, -, -, -, -, -, -, -, -, -, -, -, -, -, e0, e1, -, -⟩ := dat8_idx ⟨24, by rw [hN]; omega⟩
  intro a
  match a with
  | ⟨0, _⟩ =>
    show win8_9.index _ (0 : Fin 2) * 1 ≤ (i 0).val ∧ (i 0).val < win8_9.index _ (0 : Fin 2) * 1 + 1
    rw [e0]; omega
  | ⟨1, _⟩ =>
    show win8_9.index _ (1 : Fin 2) * 256 ≤ (i 1).val ∧ (i 1).val < win8_9.index _ (1 : Fin 2) * 256 + 256
    rw [e1]; omega

/-- After the region the array holds the running row after the last point. -/
theorem dat8_final9 (c : Dev nD) : (dat8 (F := Ideal) V c).arrAt 9 cfg8.N = (dat8_acc (F := Ideal) V c 24 dat8_lt24).1 :=
  (dat8 (F := Ideal) V c).arrAt_eq_of_cover 9 ((dat8_acc (F := Ideal) V c 24 dat8_lt24).1) (fun t hf => dat8_flushed9 V c t hf) dat8_cover9

/-- Column `q` of the running row after `n` points; zero before the first (and past the grid). -/
def dat8_run9 (c : Dev nD) (q : Fin 256) : ℕ → EReal
  | 0 => 0
  | n + 1 => if hn : n < cfg8.N then at2 (n0 := 1) (n1 := 256) (dat8_acc (F := Ideal) V c n hn).1 0 q else 0

/-- One point adds (0 + the block's column sum). -/
theorem dat8_run9_step (c : Dev nD) (q : Fin 256) (t : ℕ) (ht : t < 25) :
    dat8_run9 V c q (t + 1) = dat8_run9 V c q t + (0 + ∑ r : Fin 2000, dat8_h3 V c ⟨2000 * t + r.val, by omega⟩ q) := by
  have hN : cfg8.N = 25 := dat8_N
  have htN : t < cfg8.N := by rw [hN]; exact ht
  cases t with
  | zero =>
    show (if hn : 0 < cfg8.N then at2 (n0 := 1) (n1 := 256) (dat8_acc (F := Ideal) V c 0 hn).1 0 q else 0) = 0 + _
    rw [dif_pos htN]
    rw [dat8_acc_zero V c ⟨0, htN⟩ rfl]; dsimp only
    refine (dat8_s0_at (iblk8 V c 0 ⟨0, htN⟩) (iblk8 V c 1 ⟨0, htN⟩) (iblk8 V c 2 ⟨0, htN⟩) (iblk8 V c 3 ⟨0, htN⟩) (iblk8 V c 4 ⟨0, htN⟩) (iblk8 V c 5 ⟨0, htN⟩) (iblk8 V c 6 ⟨0, htN⟩) (iblk8 V c 7 ⟨0, htN⟩) dat8_z0 q).trans ?_
    refine congrArg₂ (· + ·) (dat8_z0_at q) (congrArg (0 + ·) (Finset.sum_congr rfl fun r _ => ?_))
    exact dat8_h3_blk V c ⟨0, htN⟩ r q
  | succ n =>
    have hn' : n < cfg8.N := by omega
    show (if hn : n + 1 < cfg8.N then at2 (n0 := 1) (n1 := 256) (dat8_acc (F := Ideal) V c (n + 1) hn).1 0 q else 0)
      = (if hn : n < cfg8.N then at2 (n0 := 1) (n1 := 256) (dat8_acc (F := Ideal) V c n hn).1 0 q else 0) + _
    rw [dif_pos htN, dif_pos hn']
    rw [dat8_acc_pos V c ⟨n + 1, htN⟩ (Nat.succ_ne_zero n)]; dsimp only
    refine (dat8_s0_at (iblk8 V c 0 ⟨n + 1, htN⟩) (iblk8 V c 1 ⟨n + 1, htN⟩) (iblk8 V c 2 ⟨n + 1, htN⟩) (iblk8 V c 3 ⟨n + 1, htN⟩) (iblk8 V c 4 ⟨n + 1, htN⟩) (iblk8 V c 5 ⟨n + 1, htN⟩) (iblk8 V c 6 ⟨n + 1, htN⟩) (iblk8 V c 7 ⟨n + 1, htN⟩) _ q).trans ?_
    refine congrArg₂ (· + ·) rfl (congrArg (0 + ·) (Finset.sum_congr rfl fun r _ => ?_))
    exact dat8_h3_blk V c ⟨n + 1, htN⟩ r q

/-- STATISTICS OUTPUT 1, column by column: the sum over the 50000 rows of the layer's output, from zero. -/
theorem arrAt8_9 (c : Dev nD) (q : Fin 256) :
    at2 (n0 := 1) (n1 := 256) ((dat8 (F := Ideal) V c).arrAt 9 cfg8.N) 0 q = 0 + ∑ p : Fin 50000, dat8_h3 V c p q := by
  rw [dat8_final9]
  have h := Cert.Spec.seq25_zero (fun p => dat8_h3 V c p q) (dat8_run9 V c q) rfl (fun t ht => dat8_run9_step V c q t ht)
  refine Eq.trans ?_ h
  show _ = (if hn : 24 < cfg8.N then at2 (n0 := 1) (n1 := 256) (dat8_acc (F := Ideal) V c 24 hn).1 0 q else 0)
  rw [dif_pos dat8_lt24]

/-- Statistics window 10's one block is its whole array. -/
theorem dat8_emb10 (t : Fin cfg8.N) (j : S1x256.Idx) : ((cfg8.win 10).blk t).view.emb j = j := by
  funext a; apply Fin.ext
  obtain ⟨-, -, -, -, -, -, -, -, -, -, -, -, -, -, -, -, -, -, -, -, e0, e1⟩ := dat8_idx t
  match a with
  | ⟨0, _⟩ => show win8_10.index t (0 : Fin 2) * 1 + 1 * (j 0).val = (j 0).val; omega
  | ⟨1, _⟩ => show win8_10.index t (1 : Fin 2) * 256 + 1 * (j 1).val = (j 1).val; omega

/-- Its one write-back, at the last point, writes the running row as the last point leaves it. -/
theorem dat8_flushed10 (c : Dev nD) (t : Fin cfg8.N) (hf : (cfg8.win 10).flush t = true) :
    (dat8 (F := Ideal) V c).flushed 10 t = ((cfg8.win 10).blk t).view.read (Elt Ideal) ((dat8_acc (F := Ideal) V c 24 dat8_lt24).2) := by
  have h24 : t.val = 24 := by
    have := (flush8_10 t).mp hf
    have hN : t.val < 25 := lt_of_lt_of_eq t.isLt dat8_N
    omega
  have ht : t = ⟨24, dat8_lt24⟩ := Fin.ext h24
  subst ht
  show (cfg8.win 10).cut (grid8.coords _) ((dat8 (F := Ideal) V c).after 10 _) = _
  rw [after8_10, dat8_o9_eq]
  funext j
  show (dat8_acc (F := Ideal) V c 24 _).2 j = (dat8_acc (F := Ideal) V c 24 _).2 (((cfg8.win 10).blk _).view.emb j)
  rw [dat8_emb10]

theorem dat8_mem_blk10 (t : Fin cfg8.N) (i : S1x256.Idx) :
    i ∈ ((cfg8.win 10).blk t).view.set ↔ ∀ a : Fin 2, win8_10.index t a * S1x256.size a ≤ (i a).val ∧ (i a).val < win8_10.index t a * S1x256.size a + S1x256.size a := by
  show i ∈ ((View.whole main_v135_2).slice (win8_10.rect t)).set ↔ _
  rw [View.set_slice_whole, Rect.mem_set_unit]
  exact Iff.rfl

/-- The last point's block covers the array. -/
theorem dat8_cover10 (i : S1x256.Idx) :
    ∃ t : Fin cfg8.N, (cfg8.win 10).flush t = true ∧ i ∈ ((cfg8.win 10).blk t).view.set := by
  have hi0 : (i 0).val < 1 := (i 0).isLt
  have hi1 : (i 1).val < 256 := (i 1).isLt
  have hN : cfg8.N = 25 := dat8_N
  refine ⟨⟨24, by rw [hN]; omega⟩, (flush8_10 _).mpr rfl, ?_⟩
  rw [dat8_mem_blk10]
  obtain ⟨-, -, -, -, -, -, -, -, -, -, -, -, -, -, -, -, -, -, -, -, e0, e1⟩ := dat8_idx ⟨24, by rw [hN]; omega⟩
  intro a
  match a with
  | ⟨0, _⟩ =>
    show win8_10.index _ (0 : Fin 2) * 1 ≤ (i 0).val ∧ (i 0).val < win8_10.index _ (0 : Fin 2) * 1 + 1
    rw [e0]; omega
  | ⟨1, _⟩ =>
    show win8_10.index _ (1 : Fin 2) * 256 ≤ (i 1).val ∧ (i 1).val < win8_10.index _ (1 : Fin 2) * 256 + 256
    rw [e1]; omega

/-- After the region the array holds the running row after the last point. -/
theorem dat8_final10 (c : Dev nD) : (dat8 (F := Ideal) V c).arrAt 10 cfg8.N = (dat8_acc (F := Ideal) V c 24 dat8_lt24).2 :=
  (dat8 (F := Ideal) V c).arrAt_eq_of_cover 10 ((dat8_acc (F := Ideal) V c 24 dat8_lt24).2) (fun t hf => dat8_flushed10 V c t hf) dat8_cover10

/-- Column `q` of the running row after `n` points; zero before the first (and past the grid). -/
def dat8_run10 (c : Dev nD) (q : Fin 256) : ℕ → EReal
  | 0 => 0
  | n + 1 => if hn : n < cfg8.N then at2 (n0 := 1) (n1 := 256) (dat8_acc (F := Ideal) V c n hn).2 0 q else 0

/-- One point adds (0 + the block's column sum). -/
theorem dat8_run10_step (c : Dev nD) (q : Fin 256) (t : ℕ) (ht : t < 25) :
    dat8_run10 V c q (t + 1) = dat8_run10 V c q t + (0 + ∑ r : Fin 2000, dat8_h3 V c ⟨2000 * t + r.val, by omega⟩ q * dat8_h3 V c ⟨2000 * t + r.val, by omega⟩ q) := by
  have hN : cfg8.N = 25 := dat8_N
  have htN : t < cfg8.N := by rw [hN]; exact ht
  cases t with
  | zero =>
    show (if hn : 0 < cfg8.N then at2 (n0 := 1) (n1 := 256) (dat8_acc (F := Ideal) V c 0 hn).2 0 q else 0) = 0 + _
    rw [dif_pos htN]
    rw [dat8_acc_zero V c ⟨0, htN⟩ rfl]; dsimp only
    refine (dat8_s1_at (iblk8 V c 0 ⟨0, htN⟩) (iblk8 V c 1 ⟨0, htN⟩) (iblk8 V c 2 ⟨0, htN⟩) (iblk8 V c 3 ⟨0, htN⟩) (iblk8 V c 4 ⟨0, htN⟩) (iblk8 V c 5 ⟨0, htN⟩) (iblk8 V c 6 ⟨0, htN⟩) (iblk8 V c 7 ⟨0, htN⟩) dat8_z1 q).trans ?_
    refine congrArg₂ (· + ·) (dat8_z1_at q) (congrArg (0 + ·) (Finset.sum_congr rfl fun r _ => ?_))
    exact congrArg₂ (· * ·) (dat8_h3_blk V c ⟨0, htN⟩ r q) (dat8_h3_blk V c ⟨0, htN⟩ r q)
  | succ n =>
    have hn' : n < cfg8.N := by omega
    show (if hn : n + 1 < cfg8.N then at2 (n0 := 1) (n1 := 256) (dat8_acc (F := Ideal) V c (n + 1) hn).2 0 q else 0)
      = (if hn : n < cfg8.N then at2 (n0 := 1) (n1 := 256) (dat8_acc (F := Ideal) V c n hn).2 0 q else 0) + _
    rw [dif_pos htN, dif_pos hn']
    rw [dat8_acc_pos V c ⟨n + 1, htN⟩ (Nat.succ_ne_zero n)]; dsimp only
    refine (dat8_s1_at (iblk8 V c 0 ⟨n + 1, htN⟩) (iblk8 V c 1 ⟨n + 1, htN⟩) (iblk8 V c 2 ⟨n + 1, htN⟩) (iblk8 V c 3 ⟨n + 1, htN⟩) (iblk8 V c 4 ⟨n + 1, htN⟩) (iblk8 V c 5 ⟨n + 1, htN⟩) (iblk8 V c 6 ⟨n + 1, htN⟩) (iblk8 V c 7 ⟨n + 1, htN⟩) _ q).trans ?_
    refine congrArg₂ (· + ·) rfl (congrArg (0 + ·) (Finset.sum_congr rfl fun r _ => ?_))
    exact congrArg₂ (· * ·) (dat8_h3_blk V c ⟨n + 1, htN⟩ r q) (dat8_h3_blk V c ⟨n + 1, htN⟩ r q)

/-- STATISTICS OUTPUT 2, column by column: the sum over the 50000 rows of the layer's output's squares, from zero. -/
theorem arrAt8_10 (c : Dev nD) (q : Fin 256) :
    at2 (n0 := 1) (n1 := 256) ((dat8 (F := Ideal) V c).arrAt 10 cfg8.N) 0 q = 0 + ∑ p : Fin 50000, dat8_h3 V c p q * dat8_h3 V c p q := by
  rw [dat8_final10]
  have h := Cert.Spec.seq25_zero (fun p => dat8_h3 V c p q * dat8_h3 V c p q) (dat8_run10 V c q) rfl (fun t ht => dat8_run10_step V c q t ht)
  refine Eq.trans ?_ h
  show _ = (if hn : 24 < cfg8.N then at2 (n0 := 1) (n1 := 256) (dat8_acc (F := Ideal) V c 24 hn).2 0 q else 0)
  rw [dif_pos dat8_lt24]

end Cert.KernelIdeal.HandV

end
-- ==== Proof.KI.R9V.lean ====
/-
  The value of region 9 (the batch-norm finalize kernel) at the ideal values: after the region the output array holds,
  index by index,
    out[p, q] = (g[0, q] · (h[p, q] − mean[0, q])) · rsqrt(var[0, q] + eps) + beta[0, q],
  read in the arrays as the region finds them, in the kernel's own association. First the payload at an index (four row
  broadcasts over pointwise operations); then each window's block at a point as rows of its array; then what a point
  writes back as a block of ONE whole-array function, the cover of the array by the 25 row blocks, and the array
  after the region.
-/
import proofs.«132438_j6098853560655_1_alg».proof.Proof.KI.R9
import proofs.«132438_j6098853560655_1_alg».proof.Proof.KI.At2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

theorem hz9 : (![0, 0] : Fin 2 → Nat) = fun _ => 0 := funext fun a => by fin_cases a <;> rfl

/-! ## The payload at an index -/

/-- The body's payload at row `r`, column `q` of the block, over the five loaded blocks (variance, scale, the
    activations, mean, shift). -/
theorem pay9_apply (xv xg : Vec Ideal S1x256 .f32) (xh : Vec Ideal S2000x256 .f32) (xm xb : Vec Ideal S1x256 .f32)
    (r : Fin 2000) (q : Fin 256) :
    k9_pay1 xv xg xh xm xb (ix2 r q)
      = (xg (ix2 (0 : Fin 1) q) * (xh (ix2 r q) - xm (ix2 (0 : Fin 1) q)))
          * Ideal.rsqrt (xv (ix2 (0 : Fin 1) q) + Ideal.ofBits .f32 0x3727C5AC#32) + xb (ix2 (0 : Fin 1) q) := by
  unfold k9_pay1
  simp only [shapeCast_self]
  show (broadcastTo S2000x256 xg broadcasts_S1x256_S2000x256 (ix2 r q)
        * (xh (ix2 r q) - broadcastTo S2000x256 xm broadcasts_S1x256_S2000x256 (ix2 r q)))
      * broadcastTo S2000x256 (rsqrt (F := Ideal) (addf (F := Ideal) xv (broadcast S1x256 (Scalar.ofBits (F := Ideal) .f32 0x3727C5AC#32)))) broadcasts_S1x256_S2000x256 (ix2 r q)
      + broadcastTo S2000x256 xb broadcasts_S1x256_S2000x256 (ix2 r q) = _
  rw [broadcastTo_1b_ab_apply, broadcastTo_1b_ab_apply, broadcastTo_1b_ab_apply, broadcastTo_1b_ab_apply]
  rfl

/-! ## The index maps over the grid, and the blocks as rows of their arrays -/

/-- The printed index maps, decided over the 25 points: the row windows (activations, output) are at block `t` on the
    row axis; the four one-row windows stay at block 0. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The activation window's block at point `t` is rows `2000 t … 2000 t + 1999` of its array. -/
theorem blk9_0_at (c : Dev nD) (t : Fin cfg9.N) (r : Fin 2000) (q : Fin 256) (P : Fin 50000) (Q : Fin 256)
    (hP : P.val = 2000 * t.val + r.val) (hQ : Q.val = q.val) :
    (iblk9 V c 0 t : Vec Ideal S2000x256 .f32) (ix2 r q) = at2 (V c main_v135_0) P Q := by
  obtain ⟨e0, e1, -⟩ := idx_facts9 t
  unfold iblk9 at2
  rw [View.read_apply]
  show V c main_v135_0 _ = V c main_v135_0 _
  congr 1
  funext a
  apply Fin.ext
  match a with
  | ⟨0, _⟩ => show win9_0.index t (0 : Fin 2) * 2000 + 1 * r.val = P.val; rw [e0, hP]; omega
  | ⟨1, _⟩ => show win9_0.index t (1 : Fin 2) * 256 + 1 * q.val = Q.val; rw [e1, hQ]; omega

/-- The mean window's block at every point is its whole one-row array. -/
theorem blk9_1_at (c : Dev nD) (t : Fin cfg9.N) (q Q : Fin 256) (hQ : Q.val = q.val) :
    (iblk9 V c 1 t : Vec Ideal S1x256 .f32) (ix2 (0 : Fin 1) q) = at2 (V c main_v137) (0 : Fin 1) Q := by
  obtain ⟨-, -, e0, e1, -⟩ := idx_facts9 t
  unfold iblk9 at2
  rw [View.read_apply]
  show V c main_v137 _ = V c main_v137 _
  congr 1
  funext a
  apply Fin.ext
  match a with
  | ⟨0, _⟩ => show win9_1.index t (0 : Fin 2) * 1 + 1 * 0 = 0; rw [e0]
  | ⟨1, _⟩ => show win9_1.index t (1 : Fin 2) * 256 + 1 * q.val = Q.val; rw [e1, hQ]; omega

/-- The variance window's block at every point is its whole one-row array. -/
theorem blk9_2_at (c : Dev nD) (t : Fin cfg9.N) (q Q : Fin 256) (hQ : Q.val = q.val) :
    (iblk9 V c 2 t : Vec Ideal S1x256 .f32) (ix2 (0 : Fin 1) q) = at2 (V c main_v141) (0 : Fin 1) Q := by
  obtain ⟨-, -, -, -, e0, e1, -⟩ := idx_facts9 t
  unfold iblk9 at2
  rw [View.read_apply]
  show V c main_v141 _ = V c main_v141 _
  congr 1
  funext a
  apply Fin.ext
  match a with
  | ⟨0, _⟩ => show win9_2.index t (0 : Fin 2) * 1 + 1 * 0 = 0; rw [e0]
  | ⟨1, _⟩ => show win9_2.index t (1 : Fin 2) * 256 + 1 * q.val = Q.val; rw [e1, hQ]; omega

/-- The scale window's block at every point is its whole one-row array. -/
theorem blk9_3_at (c : Dev nD) (t : Fin cfg9.N) (q Q : Fin 256) (hQ : Q.val = q.val) :
    (iblk9 V c 3 t : Vec Ideal S1x256 .f32) (ix2 (0 : Fin 1) q) = at2 (V c main_v146) (0 : Fin 1) Q := by
  obtain ⟨-, -, -, -, -, -, e0, e1, -⟩ := idx_facts9 t
  unfold iblk9 at2
  rw [View.read_apply]
  show V c main_v146 _ = V c main_v146 _
  congr 1
  funext a
  apply Fin.ext
  match a with
  | ⟨0, _⟩ => show win9_3.index t (0 : Fin 2) * 1 + 1 * 0 = 0; rw [e0]
  | ⟨1, _⟩ => show win9_3.index t (1 : Fin 2) * 256 + 1 * q.val = Q.val; rw [e1, hQ]; omega

/-- The shift window's block at every point is its whole one-row array. -/
theorem blk9_4_at (c : Dev nD) (t : Fin cfg9.N) (q Q : Fin 256) (hQ : Q.val = q.val) :
    (iblk9 V c 4 t : Vec Ideal S1x256 .f32) (ix2 (0 : Fin 1) q) = at2 (V c main_v147) (0 : Fin 1) Q := by
  obtain ⟨-, -, -, -, -, -, -, -, e0, e1, -⟩ := idx_facts9 t
  unfold iblk9 at2
  rw [View.read_apply]
  show V c main_v147 _ = V c main_v147 _
  congr 1
  funext a
  apply Fin.ext
  match a with
  | ⟨0, _⟩ => show win9_4.index t (0 : Fin 2) * 1 + 1 * 0 = 0; rw [e0]
  | ⟨1, _⟩ => show win9_4.index t (1 : Fin 2) * 256 + 1 * q.val = Q.val; rw [e1, hQ]; omega

/-! ## The output array as one function of the entry arrays -/

/-- What the output array ends holding at row `p`, column `q`. -/
def val9 (c : Dev nD) (p : Fin 50000) (q : Fin 256) : EReal :=
  (at2 (V c main_v146) (0 : Fin 1) q * (at2 (V c main_v135_0) p q - at2 (V c main_v137) (0 : Fin 1) q))
    * Ideal.rsqrt (at2 (V c main_v141) (0 : Fin 1) q + Ideal.ofBits .f32 0x3727C5AC#32)
    + at2 (V c main_v147) (0 : Fin 1) q

/-- The same as a whole array. -/
def G9 (c : Dev nD) : S50000x256.Idx → EReal := fun i => val9 V c (i 0) (i 1)

/-- What point `t` writes back is block `t` of `G9`. -/
theorem flushed9_5_eq (c : Dev nD) (t : Fin cfg9.N) :
    (dat9 V c).flushed 5 t = ((cfg9.win 5).blk t).view.read (Elt Ideal) (G9 V c) := by
  show (cfg9.win 5).cut (grid9.coords t) ((dat9 V c).after 5 t) = _
  rw [after9_5]
  unfold out9_5
  rw [View.canon_unit_zero hz9]
  simp only [View.ld_unit_zero (S := S2000x256) hz9, View.ld_unit_zero (S := S1x256) hz9]
  obtain ⟨-, -, -, -, -, -, -, -, -, -, e0, e1⟩ := idx_facts9 t
  funext j
  obtain ⟨r, q, rfl⟩ : ∃ (r : Fin 2000) (q : Fin 256), j = ix2 r q := ⟨j 0, j 1, eq_ix2 j⟩
  refine (pay9_apply _ _ _ _ _ r q).trans ?_
  rw [View.read_apply]
  show _ = val9 V c ((((cfg9.win 5).blk t).view.emb (ix2 r q)) 0) ((((cfg9.win 5).blk t).view.emb (ix2 r q)) 1)
  have hP : (((((cfg9.win 5).blk t).view.emb (ix2 r q)) 0 : Fin 50000) : ℕ) = 2000 * t.val + r.val := by
    show win9_5.index t (0 : Fin 2) * 2000 + 1 * r.val = _; rw [e0]; omega
  have hQ : (((((cfg9.win 5).blk t).view.emb (ix2 r q)) 1 : Fin 256) : ℕ) = q.val := by
    show win9_5.index t (1 : Fin 2) * 256 + 1 * q.val = _; rw [e1]; omega
  unfold val9
  rw [blk9_0_at V c t r q _ _ hP hQ, blk9_1_at V c t q _ hQ, blk9_2_at V c t q _ hQ, blk9_3_at V c t q _ hQ,
    blk9_4_at V c t q _ hQ]

/-! ## The cover, and the array after the region -/
/-- An index of the output array is in point `t`'s block iff each coordinate is in the block's range on its axis. -/
theorem mem_blk9_5 (t : Fin cfg9.N) (i : S50000x256.Idx) :
    i ∈ ((cfg9.win 5).blk t).view.set ↔ ∀ a : Fin 2, win9_5.index t a * S2000x256.size a ≤ (i a).val ∧ (i a).val < win9_5.index t a * S2000x256.size a + S2000x256.size a := by
  show i ∈ ((View.whole main_v148).slice (win9_5.rect t)).set ↔ _
  rw [View.set_slice_whole, Rect.mem_set_unit]
  exact Iff.rfl

/-- Every index of the output array is in the block of the point its row falls in. -/
theorem cover9_5_arr (i : S50000x256.Idx) :
    ∃ t : Fin cfg9.N, (cfg9.win 5).flush t = true ∧ i ∈ ((cfg9.win 5).blk t).view.set := by
  have hi0 : (i 0).val < 50000 := (i 0).isLt
  have hi1 : (i 1).val < 256 := (i 1).isLt
  have hN : cfg9.N = 25 := N_9
  refine ⟨⟨(i 0).val / 2000, by rw [hN]; omega⟩, flush9_5 _, ?_⟩
  obtain ⟨-, -, -, -, -, -, -, -, -, -, e0, e1⟩ := idx_facts9 ⟨(i 0).val / 2000, by rw [hN]; omega⟩
  rw [mem_blk9_5]
  intro a
  match a with
  | ⟨0, _⟩ =>
    show win9_5.index _ (0 : Fin 2) * 2000 ≤ (i 0).val ∧ (i 0).val < win9_5.index _ (0 : Fin 2) * 2000 + 2000
    rw [e0]; show (i 0).val / 2000 * 2000 ≤ (i 0).val ∧ (i 0).val < (i 0).val / 2000 * 2000 + 2000; omega
  | ⟨1, _⟩ =>
    show win9_5.index _ (1 : Fin 2) * 256 ≤ (i 1).val ∧ (i 1).val < win9_5.index _ (1 : Fin 2) * 256 + 256
    rw [e1]; omega

/-- The output array after the region is `G9` of the entry arrays. -/
theorem final9_5 (c : Dev nD) : (dat9 V c).arrAt 5 cfg9.N = G9 V c :=
  (dat9 V c).arrAt_eq_of_cover 5 (G9 V c) (fun t _ => flushed9_5_eq V c t) cover9_5_arr

/-- The output array after the region, index by index. -/
theorem arrAt9_5 (c : Dev nD) (p : Fin 50000) (q : Fin 256) :
    at2 ((dat9 V c).arrAt 5 cfg9.N) p q
      = (at2 (V c main_v146) (0 : Fin 1) q * (at2 (V c main_v135_0) p q - at2 (V c main_v137) (0 : Fin 1) q))
          * Ideal.rsqrt (at2 (V c main_v141) (0 : Fin 1) q + Ideal.ofBits .f32 0x3727C5AC#32)
          + at2 (V c main_v147) (0 : Fin 1) q := by
  rw [final9_5]
  rfl

end Cert.KernelIdeal.HandV

end
-- ==== Proof.KI.ValueL2.lean ====
import proofs.«132438_j6098853560655_1_alg».proof.Proof.KI.ValueDefs
import proofs.«132438_j6098853560655_1_alg».proof.Proof.KI.R7V
import proofs.«132438_j6098853560655_1_alg».proof.Proof.KI.R8V
import proofs.«132438_j6098853560655_1_alg».proof.Proof.KI.R9V
import proofs.«132438_j6098853560655_1_alg».proof.Proof.KI.Host0
import proofs.«132438_j6098853560655_1_alg».proof.Proof.KI.HostA
import proofs.«132438_j6098853560655_1_alg».proof.Proof.KI.HostB
import proofs.«132438_j6098853560655_1_alg».proof.Proof.KI.HostC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.StableHlo
open scoped BigOperators

variable (m : (ℓ : Loc nD τ sig) → Buf (Elt Ideal) ℓ)

/-! # Layer 2: from its input to its output through its three kernels and the host operations between them -/

/-! ## The layer's stages as rows and matrices of extended reals -/

/-- The layer's input. -/
def L2_x (c : Dev nD) : Cert.Spec.X256 := fun p q => at2 (W14 m c main_v101) p q
/-- The first product, its column sums and column sums of squares, as the first kernel leaves them. -/
def L2_h1 (c : Dev nD) : Fin 50000 → Fin 512 → EReal := fun p q => at2 (W16 m c main_v117_0) p q
def L2_s1 (c : Dev nD) : Fin 512 → EReal := fun q => at2 (W16 m c main_v117_1) (0 : Fin 1) q
def L2_q1 (c : Dev nD) : Fin 512 → EReal := fun q => at2 (W16 m c main_v117_2) (0 : Fin 1) q
/-- The mean and variance rows the host computes from them. -/
def L2_mean1 (c : Dev nD) : Fin 512 → EReal := fun q => at2 (W17 m c main_v119) (0 : Fin 1) q
def L2_var1 (c : Dev nD) : Fin 512 → EReal := fun q => at2 (W17 m c main_v123) (0 : Fin 1) q
/-- The second product with the residual, and its column sums, as the second kernel leaves them. -/
def L2_h3 (c : Dev nD) : Cert.Spec.X256 := fun p q => at2 (W18 m c main_v135_0) p q
def L2_sf (c : Dev nD) : Fin 256 → EReal := fun q => at2 (W18 m c main_v135_1) (0 : Fin 1) q
def L2_qf (c : Dev nD) : Fin 256 → EReal := fun q => at2 (W18 m c main_v135_2) (0 : Fin 1) q
def L2_meanf (c : Dev nD) : Fin 256 → EReal := fun q => at2 (W19 m c main_v137) (0 : Fin 1) q
def L2_varf (c : Dev nD) : Fin 256 → EReal := fun q => at2 (W19 m c main_v141) (0 : Fin 1) q
/-- The layer's output, as the third kernel leaves it. -/
def L2_out (c : Dev nD) : Cert.Spec.X256 := fun p q => at2 (W20 m c main_v148) p q

/-! ## What the first kernel reads -/

theorem L2_rd_x (c : Dev nD) (p : Fin 50000) (k : Fin 256) : at2 (n0 := 50000) (n1 := 256) (E15 m c main_v101) p k = L2_x m c p k := by
  unfold L2_x
  exact congrArg (fun f => at2 (n0 := 50000) (n1 := 256) f p k) (carry_x_15 m c)

theorem L2_rd_agg (c : Dev nD) (p : Fin 50000) (k : Fin 256) :
    at2 (n0 := 50000) (n1 := 256) (E15 m c main_v111) p k = aggOf m c (L2_x m c) p k := by
  have e : (fun i : S50000x256.Idx => L2_x m c (i 0) (i 1)) = W14 m c main_v101 := at2_eta (n0 := 50000) (n1 := 256) (W14 m c main_v101)
  unfold aggOf aggM
  rw [e]
  refine congrArg (fun f => at2 (n0 := 50000) (n1 := 256) f p k) ?_
  show StableHlo.after hostOps7 (W14 m c) main_v111 = _
  rw [host7_agg (W14 m c), carry_v3_14 m c, carry_v5_14 m c]
  show aggK _ (StableHlo.after hostOps0 (W0 m c) main_v3) (StableHlo.after hostOps0 (W0 m c) main_v5) = _
  rw [host0_src (W0 m c), host0_dst (W0 m c)]

theorem L2_rd_W1 (c : Dev nD) (k : Fin 256) (q : Fin 512) :
    at2 (n0 := 256) (n1 := 512) (E15 m c main_v113) k q = (paramsOf m c (2 : Fin 3)).W1 k q := by
  show at2 (StableHlo.after hostOps7 (W14 m c) main_v113) k q = at3 (W0 m c main_arg4) (2 : Fin 3) k q
  rw [host7_W1 (W14 m c) k q, carry_arg4_14 m c]

theorem L2_rd_b1 (c : Dev nD) (q : Fin 512) :
    at2 (n0 := 1) (n1 := 512) (E15 m c main_v116) (0 : Fin 1) q = (paramsOf m c (2 : Fin 3)).b1 q := by
  show at2 (StableHlo.after hostOps7 (W14 m c) main_v116) (0 : Fin 1) q = at2 (W0 m c main_arg5) (2 : Fin 3) q
  rw [host7_b1 (W14 m c) q, carry_arg5_14 m c]

/-- The first product is the linear layer of the input plus its aggregate. -/
theorem L2_h1_at (c : Dev nD) (p : Fin 50000) (q : Fin 512) :
    L2_h1 m c p q = k7_h1 (E15 m) c p q := by
  unfold L2_h1
  rw [W16_out0 m c]
  exact arrAt7_4 (E15 m) c p q

theorem L2_hh1 (c : Dev nD) :
    L2_h1 m c = Cert.Spec.lin (Cert.Spec.addM (L2_x m c) (aggOf m c (L2_x m c))) (paramsOf m c (2 : Fin 3)).W1 (paramsOf m c (2 : Fin 3)).b1 := by
  funext p q
  rw [L2_h1_at]
  unfold k7_h1
  show _ = (0 + ∑ k : Fin 256, (L2_x m c p k + aggOf m c (L2_x m c) p k) * (paramsOf m c (2 : Fin 3)).W1 k q) + (paramsOf m c (2 : Fin 3)).b1 q
  refine congrArg₂ (· + ·) (congrArg (0 + ·) (Finset.sum_congr rfl fun k _ => ?_)) (L2_rd_b1 m c q)
  exact congrArg₂ (· * ·) (congrArg₂ (· + ·) (L2_rd_x m c p k) (L2_rd_agg m c p k)) (L2_rd_W1 m c k q)

theorem L2_hs1 (c : Dev nD) : L2_s1 m c = Cert.Spec.colsum (L2_h1 m c) := by
  funext q
  unfold L2_s1
  rw [W16_out1 m c]
  refine (arrAt7_5 (E15 m) c q).trans ?_
  exact congrArg (0 + ·) (Finset.sum_congr rfl fun p _ => (L2_h1_at m c p q).symm)

theorem L2_hq1 (c : Dev nD) : L2_q1 m c = Cert.Spec.colsumsq (L2_h1 m c) := by
  funext q
  unfold L2_q1
  rw [W16_out2 m c]
  refine (arrAt7_6 (E15 m) c q).trans ?_
  exact congrArg (0 + ·) (Finset.sum_congr rfl fun p _ => congrArg₂ (· * ·) (L2_h1_at m c p q).symm (L2_h1_at m c p q).symm)

/-! ## The host's mean and variance of the first product -/

theorem L2_hm1 (c : Dev nD) : L2_mean1 m c = Cert.Spec.meanOf (L2_s1 m c) :=
  host8_mean_fun (W16 m c)

theorem L2_hv1 (c : Dev nD) : L2_var1 m c = Cert.Spec.varK (L2_q1 m c) (L2_mean1 m c) := by
  rw [L2_hm1]
  exact host8_var_fun (W16 m c)

/-! ## What the second kernel reads -/

theorem L2_rd_h1 (c : Dev nD) (p : Fin 50000) (k : Fin 512) :
    at2 (n0 := 50000) (n1 := 512) (E17 m c main_v117_0) p k = L2_h1 m c p k := by
  unfold L2_h1
  exact congrArg (fun f => at2 (n0 := 50000) (n1 := 512) f p k) (host8_h1 (W16 m c))

theorem L2_rd_x5 (c : Dev nD) (p : Fin 50000) (q : Fin 256) :
    at2 (n0 := 50000) (n1 := 256) (E17 m c main_v101) p q = L2_x m c p q := by
  unfold L2_x
  exact congrArg (fun f => at2 (n0 := 50000) (n1 := 256) f p q) (carry_x_17 m c)

theorem L2_rd_g1 (c : Dev nD) (k : Fin 512) :
    at2 (n0 := 1) (n1 := 512) (E17 m c main_v132) (0 : Fin 1) k = (paramsOf m c (2 : Fin 3)).g1 k := by
  show at2 (StableHlo.after hostOps8 (W16 m c) main_v132) (0 : Fin 1) k = at2 (W0 m c main_arg6) (2 : Fin 3) k
  rw [host8_g1 (W16 m c) k, carry_arg6_16 m c]

theorem L2_rd_beta1 (c : Dev nD) (k : Fin 512) :
    at2 (n0 := 1) (n1 := 512) (E17 m c main_v133) (0 : Fin 1) k = (paramsOf m c (2 : Fin 3)).beta1 k := by
  show at2 (StableHlo.after hostOps8 (W16 m c) main_v133) (0 : Fin 1) k = at2 (W0 m c main_arg7) (2 : Fin 3) k
  rw [host8_beta1 (W16 m c) k, carry_arg7_16 m c]

theorem L2_rd_W2 (c : Dev nD) (k : Fin 512) (q : Fin 256) :
    at2 (n0 := 512) (n1 := 256) (E17 m c main_v129) k q = (paramsOf m c (2 : Fin 3)).W2 k q := by
  show at2 (StableHlo.after hostOps8 (W16 m c) main_v129) k q = at3 (W0 m c main_arg8) (2 : Fin 3) k q
  rw [host8_W2 (W16 m c) k q, carry_arg8_16 m c]

theorem L2_rd_b2 (c : Dev nD) (q : Fin 256) :
    at2 (n0 := 1) (n1 := 256) (E17 m c main_v134) (0 : Fin 1) q = (paramsOf m c (2 : Fin 3)).b2 q := by
  show at2 (StableHlo.after hostOps8 (W16 m c) main_v134) (0 : Fin 1) q = at2 (W0 m c main_arg9) (2 : Fin 3) q
  rw [host8_b2 (W16 m c) q, carry_arg9_16 m c]

/-- The second product with the residual. -/
theorem L2_h3_at (c : Dev nD) (p : Fin 50000) (q : Fin 256) :
    L2_h3 m c p q = dat8_h3 (E17 m) c p q := by
  unfold L2_h3
  rw [W18_out0 m c]
  exact arrAt8_8 (E17 m) c p q

theorem L2_hh3 (c : Dev nD) :
    L2_h3 m c = Cert.Spec.addM (Cert.Spec.lin (Cert.Spec.relu (Cert.Spec.bn (paramsOf m c (2 : Fin 3)).g1 (paramsOf m c (2 : Fin 3)).beta1
      (L2_h1 m c) (L2_mean1 m c) (L2_var1 m c))) (paramsOf m c (2 : Fin 3)).W2 (paramsOf m c (2 : Fin 3)).b2) (L2_x m c) := by
  funext p q
  rw [L2_h3_at]
  unfold dat8_h3
  show _ = ((0 + ∑ k : Fin 512, max ((paramsOf m c (2 : Fin 3)).g1 k * (L2_h1 m c p k - L2_mean1 m c k)
      * Ideal.rsqrt (L2_var1 m c k + Ideal.ofBits .f32 0x3727C5AC#32) + (paramsOf m c (2 : Fin 3)).beta1 k) 0 * (paramsOf m c (2 : Fin 3)).W2 k q)
    + (paramsOf m c (2 : Fin 3)).b2 q) + L2_x m c p q
  refine congrArg₂ (· + ·) (congrArg₂ (· + ·) (congrArg (0 + ·) (Finset.sum_congr rfl fun k _ => ?_)) (L2_rd_b2 m c q)) (L2_rd_x5 m c p q)
  refine congrArg₂ (· * ·) (congrArg (max · 0) ?_) (L2_rd_W2 m c k q)
  refine congrArg₂ (· + ·) (congrArg₂ (· * ·) (congrArg₂ (· * ·) (L2_rd_g1 m c k) (congrArg₂ (· - ·) (L2_rd_h1 m c p k) rfl)) rfl) (L2_rd_beta1 m c k)

theorem L2_hsf (c : Dev nD) : L2_sf m c = Cert.Spec.colsum (L2_h3 m c) := by
  funext q
  unfold L2_sf
  rw [W18_out1 m c]
  refine (arrAt8_9 (E17 m) c q).trans ?_
  exact congrArg (0 + ·) (Finset.sum_congr rfl fun p _ => (L2_h3_at m c p q).symm)

theorem L2_hqf (c : Dev nD) : L2_qf m c = Cert.Spec.colsumsq (L2_h3 m c) := by
  funext q
  unfold L2_qf
  rw [W18_out2 m c]
  refine (arrAt8_10 (E17 m) c q).trans ?_
  exact congrArg (0 + ·) (Finset.sum_congr rfl fun p _ => congrArg₂ (· * ·) (L2_h3_at m c p q).symm (L2_h3_at m c p q).symm)

theorem L2_hmf (c : Dev nD) : L2_meanf m c = Cert.Spec.meanOf (L2_sf m c) :=
  host9_mean_fun (W18 m c)

theorem L2_hvf (c : Dev nD) : L2_varf m c = Cert.Spec.varK (L2_qf m c) (L2_meanf m c) := by
  rw [L2_hmf]
  exact host9_var_fun (W18 m c)

/-! ## What the third kernel reads, and the layer's output -/

theorem L2_rd_h3 (c : Dev nD) (p : Fin 50000) (q : Fin 256) :
    at2 (n0 := 50000) (n1 := 256) (E19 m c main_v135_0) p q = L2_h3 m c p q := by
  unfold L2_h3
  exact congrArg (fun f => at2 (n0 := 50000) (n1 := 256) f p q) (host9_h3 (W18 m c))

theorem L2_rd_gf (c : Dev nD) (q : Fin 256) :
    at2 (n0 := 1) (n1 := 256) (E19 m c main_v146) (0 : Fin 1) q = (paramsOf m c (2 : Fin 3)).gf q := by
  show at2 (StableHlo.after hostOps9 (W18 m c) main_v146) (0 : Fin 1) q = at2 (W0 m c main_arg10) (2 : Fin 3) q
  rw [host9_gf (W18 m c) q, carry_arg10_18 m c]

theorem L2_rd_betaf (c : Dev nD) (q : Fin 256) :
    at2 (n0 := 1) (n1 := 256) (E19 m c main_v147) (0 : Fin 1) q = (paramsOf m c (2 : Fin 3)).betaf q := by
  show at2 (StableHlo.after hostOps9 (W18 m c) main_v147) (0 : Fin 1) q = at2 (W0 m c main_arg11) (2 : Fin 3) q
  rw [host9_betaf (W18 m c) q, carry_arg11_18 m c]

theorem L2_hout (c : Dev nD) :
    L2_out m c = Cert.Spec.bn (paramsOf m c (2 : Fin 3)).gf (paramsOf m c (2 : Fin 3)).betaf (L2_h3 m c) (L2_meanf m c) (L2_varf m c) := by
  funext p q
  unfold L2_out
  rw [W20_out0 m c]
  refine (arrAt9_5 (E19 m) c p q).trans ?_
  show _ = (paramsOf m c (2 : Fin 3)).gf q * (L2_h3 m c p q - L2_meanf m c q) * Ideal.rsqrt (L2_varf m c q + Ideal.ofBits .f32 0x3727C5AC#32)
    + (paramsOf m c (2 : Fin 3)).betaf q
  exact congrArg₂ (· + ·) (congrArg₂ (· * ·) (congrArg₂ (· * ·) (L2_rd_gf m c q) (congrArg₂ (· - ·) (L2_rd_h3 m c p q) rfl)) rfl) (L2_rd_betaf m c q)

/-- LAYER 2: its output is the specification's layer of its input. -/
theorem layer2_value (c : Dev nD) :
    L2_out m c = Cert.Spec.layerK (aggOf m c) (paramsOf m c (2 : Fin 3)) (L2_x m c) :=
  Cert.Spec.layerK_of_stages (aggOf m c) (paramsOf m c (2 : Fin 3)) (L2_x m c) (L2_h1 m c) (L2_s1 m c) (L2_q1 m c) (L2_mean1 m c) (L2_var1 m c)
    (L2_h3 m c) (L2_sf m c) (L2_qf m c) (L2_meanf m c) (L2_varf m c) (L2_out m c)
    (L2_hh1 m c) (L2_hs1 m c) (L2_hq1 m c) (L2_hm1 m c) (L2_hv1 m c) (L2_hh3 m c) (L2_hsf m c) (L2_hqf m c)
    (L2_hmf m c) (L2_hvf m c) (L2_hout m c)

end Cert.KernelIdeal.HandV

end
-- ==== Proof.KI.R0V.lean ====
/-
  The value of region 0 (the embedding kernel) at the ideal values: after the region the output array holds, index by
  index, the row-by-column product of the embedding array with the weight array plus the bias row,
    out[p, q] = (0 + Σ k, emb[p, k] · W0[k, q]) + b0[0, q],
  read in the arrays as the region finds them. First the payload at an index (the matrix product read as the sum over the
  contracted coordinate; the format changes are the identity on extended reals); then each window's block at a point as
  rows of its array; then what a point writes back as a block of ONE whole-array function, the cover of the array by
  the 25 row blocks, and the array after the region.
-/
import proofs.«132438_j6098853560655_1_alg».proof.Proof.KI.R0
import proofs.«132438_j6098853560655_1_alg».proof.Proof.KI.At2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

theorem hz0 : (![0, 0] : Fin 2 → Nat) = fun _ => 0 := funext fun a => by fin_cases a <;> rfl

/-! ## The payload at an index -/

/-- The block product at row `r`, column `q`: the sum over the contracted coordinate of the products of the entries. -/
theorem mm0_apply (A : FVec Ideal S2000x128 .bf16) (B : FVec Ideal S128x256 .bf16) (r : Fin 2000) (q : Fin 256) :
    FloatOps.matmul dot_S2000x128_S128x256_S2000x256_1_0_0_1_n_n none A B (constant S2000x256 .f32 0x00000000#32) (ix2 r q)
      = ∑ k : Fin 128, A (ix2 r k) * B (ix2 k q) := by
  rw [Ideal.matmul_constant_zero_apply,
    ← Equiv.sum_comp (contrEquiv1 dot_S2000x128_S128x256_S2000x256_1_0_0_1_n_n 128 rfl rfl).symm]
  refine Finset.sum_congr rfl fun k _ => ?_
  have ck := contrEquiv1_symm_val dot_S2000x128_S128x256_S2000x256_1_0_0_1_n_n 128 rfl rfl k
  have hl : dot_S2000x128_S128x256_S2000x256_1_0_0_1_n_n.lhsIdx (ix2 r q)
      ((contrEquiv1 dot_S2000x128_S128x256_S2000x256_1_0_0_1_n_n 128 rfl rfl).symm k) = ix2 r k := by
    funext ax; apply Fin.ext
    match ax with
    | ⟨0, _⟩ => simp [DotDims.lhsIdx, dot_S2000x128_S128x256_S2000x256_1_0_0_1_n_n]; rfl
    | ⟨1, _⟩ => simp [DotDims.lhsIdx, dot_S2000x128_S128x256_S2000x256_1_0_0_1_n_n]; exact ck
  have hr : dot_S2000x128_S128x256_S2000x256_1_0_0_1_n_n.rhsIdx (ix2 r q)
      ((contrEquiv1 dot_S2000x128_S128x256_S2000x256_1_0_0_1_n_n 128 rfl rfl).symm k) = ix2 k q := by
    funext ax; apply Fin.ext
    match ax with
    | ⟨0, _⟩ => simp [DotDims.rhsIdx, dot_S2000x128_S128x256_S2000x256_1_0_0_1_n_n]; exact ck
    | ⟨1, _⟩ => simp [DotDims.rhsIdx, dot_S2000x128_S128x256_S2000x256_1_0_0_1_n_n]; rfl
  rw [hl, hr]

/-- The body's payload at row `r`, column `q` of the block, over the three loaded blocks. -/
theorem pay0_apply (x0 : Vec Ideal S2000x128 .f32) (x1 : Vec Ideal S128x256 .f32) (x2 : Vec Ideal S1x256 .f32)
    (r : Fin 2000) (q : Fin 256) :
    k0_pay1 x0 x1 x2 (ix2 r q) = (0 + ∑ k : Fin 128, x0 (ix2 r k) * x1 (ix2 k q)) + x2 (ix2 (0 : Fin 1) q) := by
  unfold k0_pay1
  rw [shapeCast_self, shapeCast_self, zero_add]
  show FloatOps.matmul (F := Ideal) dot_S2000x128_S128x256_S2000x256_1_0_0_1_n_n none _ _ (constant S2000x256 .f32 0x00000000#32) (ix2 r q)
      + broadcastTo S2000x256 x2 broadcasts_S1x256_S2000x256 (ix2 r q) = _
  rw [mm0_apply, broadcastTo_1b_ab_apply]
  rfl

/-! ## The index maps over the grid, and the blocks as rows of their arrays -/

/-- The printed index maps, decided over the 25 points: the row windows (embedding rows, output rows) are at block
    `t` on the row axis; the weight and bias windows stay at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The embedding window's block at point `t` is rows `2000 t … 2000 t + 1999` of its array. -/
theorem blk0_0_at (c : Dev nD) (t : Fin cfg0.N) (r : Fin 2000) (k : Fin 128) (P : Fin 50000)
    (hP : P.val = 2000 * t.val + r.val) :
    (iblk0 V c 0 t : Vec Ideal S2000x128 .f32) (ix2 r k) = at2 (V c main_v0) P k := by
  obtain ⟨e0, e1, -⟩ := idx_facts0 t
  unfold iblk0 at2
  rw [View.read_apply]
  show V c main_v0 _ = V c main_v0 _
  congr 1
  funext a
  apply Fin.ext
  match a with
  | ⟨0, _⟩ => show win0_0.index t (0 : Fin 2) * 2000 + 1 * r.val = P.val; rw [e0, hP]; omega
  | ⟨1, _⟩ => show win0_0.index t (1 : Fin 2) * 128 + 1 * k.val = k.val; rw [e1]; omega

/-- The weight window's block at every point is its whole array. -/
theorem blk0_1_at (c : Dev nD) (t : Fin cfg0.N) (k : Fin 128) (q Q : Fin 256) (hQ : Q.val = q.val) :
    (iblk0 V c 1 t : Vec Ideal S128x256 .f32) (ix2 k q) = at2 (V c main_arg2) k Q := by
  obtain ⟨-, -, e0, e1, -⟩ := idx_facts0 t
  unfold iblk0 at2
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 256 + 1 * q.val = Q.val; rw [e1, hQ]; omega

/-- The bias window's block at every point is its whole one-row array. -/
theorem blk0_2_at (c : Dev nD) (t : Fin cfg0.N) (q Q : Fin 256) (hQ : Q.val = q.val) :
    (iblk0 V c 2 t : Vec Ideal S1x256 .f32) (ix2 (0 : Fin 1) q) = at2 (V c main_v6) (0 : Fin 1) Q := by
  obtain ⟨-, -, -, -, e0, e1, -⟩ := idx_facts0 t
  unfold iblk0 at2
  rw [View.read_apply]
  show V c main_v6 _ = V c main_v6 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * q.val = Q.val; rw [e1, hQ]; omega

/-! ## The output array as one function of the entry arrays -/

/-- What the output array ends holding at row `p`, column `q`. -/
def val0 (c : Dev nD) (p : Fin 50000) (q : Fin 256) : EReal :=
  (0 + ∑ k : Fin 128, at2 (V c main_v0) p k * at2 (V c main_arg2) k q) + at2 (V c main_v6) (0 : Fin 1) q

/-- The same as a whole array. -/
def G0 (c : Dev nD) : S50000x256.Idx → EReal := fun i => val0 V c (i 0) (i 1)

/-- What point `t` writes back is block `t` of `G0`. -/
theorem flushed0_3_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x256) hz0, View.ld_unit_zero (S := S1x256) hz0]
  obtain ⟨-, -, -, -, -, -, e0, e1⟩ := idx_facts0 t
  funext j
  obtain ⟨r, q, rfl⟩ : ∃ (r : Fin 2000) (q : Fin 256), j = ix2 r q := ⟨j 0, j 1, eq_ix2 j⟩
  refine (pay0_apply _ _ _ r q).trans ?_
  rw [View.read_apply]
  show _ = val0 V c ((((cfg0.win 3).blk t).view.emb (ix2 r q)) 0) ((((cfg0.win 3).blk t).view.emb (ix2 r q)) 1)
  have hP : (((((cfg0.win 3).blk t).view.emb (ix2 r q)) 0 : Fin 50000) : ℕ) = 2000 * t.val + r.val := by
    show win0_3.index t (0 : Fin 2) * 2000 + 1 * r.val = _; rw [e0]; omega
  have hQ : (((((cfg0.win 3).blk t).view.emb (ix2 r q)) 1 : Fin 256) : ℕ) = q.val := by
    show win0_3.index t (1 : Fin 2) * 256 + 1 * q.val = _; rw [e1]; omega
  unfold val0
  rw [blk0_2_at V c t q _ hQ]
  congr 2
  refine Finset.sum_congr rfl fun k _ => ?_
  rw [blk0_0_at V c t r k _ hP, blk0_1_at V c t k q _ hQ]

/-! ## The cover, and the array after the region -/

/-- An index of the output array is in point `t`'s block iff each coordinate is in the block's range on its axis. -/
theorem mem_blk0_3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v7).slice (win0_3.rect t)).set ↔ _
  rw [View.set_slice_whole, Rect.mem_set_unit]
  exact Iff.rfl

/-- Every index of the output array is in the block of the point its row falls in. -/
theorem cover0_3_arr (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_3 _, ?_⟩
  obtain ⟨-, -, -, -, -, -, e0, e1⟩ := idx_facts0 ⟨(i 0).val / 2000, by rw [hN]; omega⟩
  rw [mem_blk0_3]
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e1]; omega

/-- The output array after the region is `G0` of the entry arrays. -/
theorem final0_3 (c : Dev nD) : (dat0 V c).arrAt 3 cfg0.N = G0 V c :=
  (dat0 V c).arrAt_eq_of_cover 3 (G0 V c) (fun t _ => flushed0_3_eq V c t) cover0_3_arr

/-- The output array after the region, index by index. -/
theorem arrAt0_3 (c : Dev nD) (p : Fin 50000) (q : Fin 256) :
    at2 ((dat0 V c).arrAt 3 cfg0.N) p q
      = (0 + ∑ k : Fin 128, at2 (V c main_v0) p k * at2 (V c main_arg2) k q) + at2 (V c main_v6) (0 : Fin 1) q := by
  rw [final0_3]
  rfl

end Cert.KernelIdeal.HandV

end
-- ==== Proof.KI.Value.lean ====
import proofs.«132438_j6098853560655_1_alg».proof.Proof.KI.ValueL0
import proofs.«132438_j6098853560655_1_alg».proof.Proof.KI.ValueL1
import proofs.«132438_j6098853560655_1_alg».proof.Proof.KI.ValueL2
import proofs.«132438_j6098853560655_1_alg».proof.Proof.KI.R0V
import proofs.«132438_j6098853560655_1_alg».proof.Proof.KI.Host0

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.StableHlo
open scoped BigOperators

variable (m : (ℓ : Loc nD τ sig) → Buf (Elt Ideal) ℓ)

/-! # The first program's value: the embedding product, then the three layers -/

/-- The node features with their leading unit axis dropped, the embedding weights and the embedding bias. -/
def embOf (c : Dev nD) : Fin 50000 → Fin 128 → EReal := fun p k => at3 (W0 m c main_arg0) (0 : Fin 1) p k
def embWOf (c : Dev nD) : Fin 128 → Fin 256 → EReal := fun k q => at2 (W0 m c main_arg2) k q
def embBOf (c : Dev nD) : Fin 256 → EReal := fun q => at1 (W0 m c main_arg3) q

/-- The first layer's input is the embedding product. -/
theorem embed_value (c : Dev nD) : L0_x m c = Cert.Spec.lin (embOf m c) (embWOf m c) (embBOf m c) := by
  funext p q
  unfold L0_x
  rw [W2_out0 m c]
  refine (arrAt0_3 (E1 m) c p q).trans ?_
  show _ = (0 + ∑ k : Fin 128, embOf m c p k * embWOf m c k q) + embBOf m c q
  refine congrArg₂ (· + ·) (congrArg (0 + ·) (Finset.sum_congr rfl fun k _ => ?_)) (host0_b0 (W0 m c) q)
  exact congrArg₂ (· * ·) (host0_x (W0 m c) p k) (congrArg (fun f => at2 (n0 := 128) (n1 := 256) f k q) (host0_W0 (W0 m c)))

/-- THE VALUE: the result array after the last kernel is the specification's network of the arguments. -/
theorem kernel_value (c : Dev nD) :
    (fun p q => at2 (n0 := 50000) (n1 := 256) ((dat9 (F := Ideal) (E19 m) c).arrAt 5 cfg9.N) p q)
      = Cert.Spec.netK (aggOf m c) (paramsOf m c 0) (paramsOf m c 1) (paramsOf m c 2) (embWOf m c) (embBOf m c) (embOf m c) := by
  have e3 : (fun p q => at2 (n0 := 50000) (n1 := 256) ((dat9 (F := Ideal) (E19 m) c).arrAt 5 cfg9.N) p q) = L2_out m c := by
    unfold L2_out; rw [W20_out0 m c]
  rw [e3, layer2_value, show L2_x m c = L1_out m c from rfl, layer1_value, show L1_x m c = L0_out m c from rfl, layer0_value, embed_value]
  rfl

end Cert.KernelIdeal.HandV

end
-- ==== Proof.Bridge.Final.lean ====
/-
  The reference's result array is the kernel's: the kernel's result after its last region, read as a matrix, is the
  first form of the network over the arguments, so under the precondition, from memories that agree on the
  arguments, the reference's result is that array.
-/
import proofs.«132438_j6098853560655_1_alg».proof.Proof.Bridge.Mem
import proofs.«132438_j6098853560655_1_alg».proof.Proof.KI.Value

set_option maxRecDepth 16384

noncomputable section

namespace Cert.Bridge

open Idealize.ShloMosaic Idealize.ShloMosaic.TcCoe Idealize.SL.Sem

theorem result_eq [hPre : Cert.Pre_finite_inputs.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) :
    Cert.ReferenceIdeal.Hand.out (F := Ideal) m' c
      = (Cert.KernelIdeal.Hand.dat9 (F := Ideal) (Cert.KernelIdeal.Hand.E19 m) c).arrAt 5 Cert.KernelIdeal.cfg9.N :=
  result_mem m m' hpre hagree c _ (Cert.KernelIdeal.HandV.kernel_value m c)

end Cert.Bridge

end
-- ==== Proof.lean ====
/-
  The proof of the certificate's claim. Both programs compute a three-layer graph network over 50000 nodes: an
  embedding product, then per layer the node features plus their sum over incoming edges, a linear map, batch
  normalization over the nodes, the rectifier, a second linear map with the residual, and batch normalization again.
  The kernel takes each variance as the mean of the squares less the squared mean, from column sums accumulated over
  its grid; the reference takes it as the mean of the squared deviations. Each program's run ends with its result
  array at its form of the network over the argument arrays, the arguments unchanged (the three frame claims are the
  runs with the result forgotten). Under the precondition every float argument is an array of real numbers, on which
  the two variances, hence the two networks, agree: at the ideal values the two results are one array.
-/
import proofs.«132438_j6098853560655_1_alg».proof.Defs
import proofs.«132438_j6098853560655_1_alg».proof.Proof.Gen.Kernel
import proofs.«132438_j6098853560655_1_alg».proof.Proof.Gen.KernelIdeal
import proofs.«132438_j6098853560655_1_alg».proof.Proof.Gen.ReferenceIdeal
import proofs.«132438_j6098853560655_1_alg».proof.Proof.Gen.Pre_finite_inputs
import proofs.«132438_j6098853560655_1_alg».proof.Proof.K.Run
import proofs.«132438_j6098853560655_1_alg».proof.Proof.KI.Run
import proofs.«132438_j6098853560655_1_alg».proof.Proof.RI.Run
import proofs.«132438_j6098853560655_1_alg».proof.Proof.Bridge.Final
import Idealize.ShloMosaic.Adequacy
import Idealize.ShloMosaic.Init

noncomputable section

namespace Cert.Proof

open Idealize.ShloMosaic Idealize.SL.Sem

theorem frame_p : Cert.frame_Kernel := fun m ρ _ =>
  (θ_run Cert.Kernel.defs _ _).mono (fun _ h c => (h c).2) (Cert.Kernel.Hand.run_value (F := Bits) m ρ)

theorem frame_pi : Cert.frame_KernelIdeal := fun m ρ _ =>
  (θ_run Cert.KernelIdeal.defs _ _).mono (fun _ h c => (h c).2) (Cert.KernelIdeal.Hand.run_value (F := Ideal) m ρ)

theorem frame_ri : Cert.frame_ReferenceIdeal := fun m ρ _ => Cert.ReferenceIdeal.Hand.frame (F := Ideal) m ρ

/-- The idealization rewrote no operation: there is nothing to preserve. -/
theorem preserves : Cert.preserves_Kernel_KernelIdeal := trivial

/-- At the ideal values both programs run, the kernel's result array is the one its last region leaves, and the
    reference's, from a memory agreeing on the arguments, is the same array. -/
theorem algebraic : Cert.algebraic_KernelIdeal_ReferenceIdeal := by
  intro m ρ m' ρ' hpre hagree
  refine ⟨fun c => (Cert.KernelIdeal.Hand.dat9 (F := Ideal) (Cert.KernelIdeal.Hand.E19 m) c).arrAt 5 Cert.KernelIdeal.cfg9.N,
    Cert.KernelIdeal.Hand.run_value (F := Ideal) m ρ, ?_⟩
  exact (θ_run Cert.ReferenceIdeal.defs _ _).mono
    (fun _ h c => ⟨(h c).1.trans (Cert.Bridge.result_eq m m' hpre hagree c), (h c).2⟩)
    (Cert.ReferenceIdeal.Hand.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
